-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v225)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v225) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v328) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64 : Shape := ⟨1, ![64]⟩
abbrev S64x64 : Shape := ⟨2, ![64, 64]⟩
abbrev S4x64 : Shape := ⟨2, ![4, 64]⟩
abbrev S4x64x64 : Shape := ⟨3, ![4, 64, 64]⟩
abbrev S2x64 : Shape := ⟨2, ![2, 64]⟩
abbrev S2x64x64 : Shape := ⟨3, ![2, 64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S4x64 : S_.BroadcastsInDim S4x64 (![] : Fin 0 → Fin S4x64.rank)
  reducesTo_S4x64_S_d0_1 : S4x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S2x64 : S_.BroadcastsInDim S2x64 (![] : Fin 0 → Fin S2x64.rank)
  reducesTo_S2x64_S_d0_1 : S2x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_

variable [Facts]

def fn_part4 {F : FTy → Type} [FloatOps F] (main_arg16 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg13 : FVec F S2x64x64 .f32) (main_arg14 : FVec F S2x64 .f32) (main_arg15 : FVec F S64 .f32) (main_arg16 : FVec F S64 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S2x64x64 .f32 := Host.absf main_arg13
  let main_cst_20 : FVec F S_ .f32 := constant S_ .f32 0x7F800000#32
  let main_v55 : FVec F S2x64x64 .f32 := broadcastInDim S2x64x64 ![] bcast_S_S2x64x64 main_cst_20
  let main_v56 : IVec S2x64x64 1 := cmpf .olt main_v54 main_v55
  let main_c_21 : IVec S_ 1 := constantI S_ 1 1#1
  let main_v57 : IVec S_ 1 := (fun x v => Host.reduce IntOp.andi x v reducesTo_S2x64x64_S_d0_1_2 h_S_) main_v56 main_c_21
  let main_v58 : IVec S_ 1 := andi main_v53 main_v57
  let main_v59 : FVec F S2x64 .f32 := Host.absf main_arg14
  let main_cst_22 : FVec F S_ .f32 := constant S_ .f32 0x7F800000#32
  let main_v60 : FVec F S2x64 .f32 := broadcastInDim S2x64 ![] bcast_S_S2x64 main_cst_22
  let main_v61 : IVec S2x64 1 := cmpf .olt main_v59 main_v60
  let main_c_23 : IVec S_ 1 := constantI S_ 1 1#1
  let main_v62 : IVec S_ 1 := (fun x v => Host.reduce IntOp.andi x v reducesTo_S2x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_v63 main_v67

def fn_part2 {F : FTy → Type} [FloatOps F] (main_arg9 : FVec F S4x64x64 .f32) (main_arg10 : FVec F S4x64 .f32) (main_arg11 : FVec F S2x64 .f32) (main_arg12 : FVec F S2x64 .f32) (main_arg13 : FVec F S2x64x64 .f32) (main_arg14 : FVec F S2x64 .f32) (main_arg15 : FVec F S64 .f32) (main_arg16 : FVec F S64 .f32) (main_v33 : IVec S_ 1) : IVec S_ 1 :=
  let main_v34 : FVec F S4x64x64 .f32 := Host.absf main_arg9
  let main_cst_12 : FVec F S_ .f32 := constant S_ .f32 0x7F800000#32
  let main_v35 : FVec F S4x64x64 .f32 := broadcastInDim S4x64x64 ![] bcast_S_S4x64x64 main_cst_12
  let main_v36 : IVec S4x64x64 1 := cmpf .olt main_v34 main_v35
  let main_c_13 : IVec S_ 1 := constantI S_ 1 1#1
  let main_v37 : IVec S_ 1 := (fun x v => Host.reduce IntOp.andi x v reducesTo_S4x64x64_S_d0_1_2 h_S_) main_v36 main_c_13
  let main_v38 : IVec S_ 1 := andi main_v33 main_v37
  let main_v39 : FVec F S4x64 .f32 := Host.absf main_arg10
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  let main_v44 : FVec F S2x64 .f32 := Host.absf main_arg11
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2x64 .f32 := Host.absf main_arg12
  let main_cst_18 : FVec F S_ .f32 := constant S_ .f32 0x7F800000#32
  let main_v50 : FVec F S2x64 .f32 := broadcastInDim S2x64 ![] bcast_S_S2x64 main_cst_18
  fn_part3 (F := F) main_arg13 main_arg14 main_arg15 main_arg16 main_v48 main_v49 main_v50

def fn_part1 {F : FTy → Type} [FloatOps F] (main_arg6 : FVec F S64 .f32) (main_arg7 : FVec F S4x64 .f32) (main_arg8 : FVec F S4x64 .f32) (main_arg9 : FVec F S4x64x64 .f32) (main_arg10 : FVec F S4x64 .f32) (main_arg11 : FVec F S2x64 .f32) (main_arg12 : FVec F S2x64 .f32) (main_arg13 : FVec F S2x64x64 .f32) (main_arg14 : FVec F S2x64 .f32) (main_arg15 : FVec F S64 .f32) (main_arg16 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4x64 .f32 := Host.absf main_arg7
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S4x64 .f32 := Host.absf main_arg8
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x64 .f32) (main_arg1 : IVec S2x1600000 32) (main_arg2 : IVec S100000 32) (main_arg3 : FVec F S64 .f32) (main_arg4 : FVec F S64 .f32) (main_arg5 : FVec F S64x64 .f32) (main_arg6 : FVec F S64 .f32) (main_arg7 : FVec F S4x64 .f32) (main_arg8 : FVec F S4x64 .f32) (main_arg9 : FVec F S4x64x64 .f32) (main_arg10 : FVec F S4x64 .f32) (main_arg11 : FVec F S2x64 .f32) (main_arg12 : FVec F S2x64 .f32) (main_arg13 : FVec F S2x64x64 .f32) (main_arg14 : FVec F S2x64 .f32) (main_arg15 : FVec F S64 .f32) (main_arg16 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64 : Shape := ⟨1, ![64]⟩
abbrev S64x64 : Shape := ⟨2, ![64, 64]⟩
abbrev S4x64 : Shape := ⟨2, ![4, 64]⟩
abbrev S4x64x64 : Shape := ⟨3, ![4, 64, 64]⟩
abbrev S2x64 : Shape := ⟨2, ![2, 64]⟩
abbrev S2x64x64 : Shape := ⟨3, ![2, 64, 64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S5000x64 : Shape := ⟨2, ![5000, 64]⟩
abbrev S1x64x64 : Shape := ⟨3, ![1, 64, 64]⟩
abbrev S1700000x64 : Shape := ⟨2, ![1700000, 64]⟩
abbrev S512x64 : Shape := ⟨2, ![512, 64]⟩
abbrev S100000x1 : Shape := ⟨2, ![100000, 1]⟩

abbrev nBuf : Space → Nat
  | .hbm => 464
  | .vmem => 100
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64, .f32⟩
  | 4 => ⟨S64, .f32⟩
  | 5 => ⟨S64x64, .f32⟩
  | 6 => ⟨S64, .f32⟩
  | 7 => ⟨S4x64, .f32⟩
  | 8 => ⟨S4x64, .f32⟩
  | 9 => ⟨S4x64x64, .f32⟩
  | 10 => ⟨S4x64, .f32⟩
  | 11 => ⟨S2x64, .f32⟩
  | 12 => ⟨S2x64, .f32⟩
  | 13 => ⟨S2x64x64, .f32⟩
  | 14 => ⟨S2x64, .f32⟩
  | 15 => ⟨S64, .f32⟩
  | 16 => ⟨S64, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S_, .f32⟩
  | 34 => ⟨S_, .f32⟩
  | 35 => ⟨S100000, .f32⟩
  | 36 => ⟨S100000, .f32⟩
  | 37 => ⟨S100000, .f32⟩
  | 38 => ⟨S_, .f32⟩
  | 39 => ⟨S100000, .f32⟩
  | 40 => ⟨S100000, .i1⟩
  | 41 => ⟨S_, .f32⟩
  | 42 => ⟨S_, .f32⟩
  | 43 => ⟨S100000, .f32⟩
  | 44 => ⟨S100000, .f32⟩
  | 45 => ⟨S100000, .f32⟩
  | 46 => ⟨S100000, .f32⟩
  | 47 => ⟨S100000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000, .f32⟩
  | 66 => ⟨S1700000, .f32⟩
  | 67 => ⟨S_, .f32⟩
  | 68 => ⟨S64, .f32⟩
  | 69 => ⟨S_, .f32⟩
  | 70 => ⟨S64, .f32⟩
  | 71 => ⟨S64, .f32⟩
  | 72 => ⟨S_, .i32⟩
  | 73 => ⟨S_, .f32⟩
  | 74 => ⟨S64, .f32⟩
  | 75 => ⟨S1x64, .f32⟩
  | 76 => ⟨S_, .f32⟩
  | 77 => ⟨S1x64, .f32⟩
  | 78 => ⟨S1x64, .f32⟩
  | 79 => ⟨S100000x64, .f32⟩
  | 80 => ⟨S100000x64, .f32⟩
  | 81 => ⟨S100000x64, .f32⟩
  | 82 => ⟨S_, .f32⟩
  | 83 => ⟨S_, .f32⟩
  | 84 => ⟨S_, .f32⟩
  | 85 => ⟨S_, .f32⟩
  | 86 => ⟨S64, .f32⟩
  | 87 => ⟨S64, .f32⟩
  | 88 => ⟨S64, .f32⟩
  | 89 => ⟨S_, .f32⟩
  | 90 => ⟨S_, .i1⟩
  | 91 => ⟨S_, .f32⟩
  | 92 => ⟨S_, .f32⟩
  | 93 => ⟨S64, .f32⟩
  | 94 => ⟨S64, .f32⟩
  | 95 => ⟨S1x64, .f32⟩
  | 96 => ⟨S1x64, .f32⟩
  | 97 => ⟨S1x64, .f32⟩
  | 98 => ⟨S1x64, .f32⟩
  | 99 => ⟨S1x64, .f32⟩
  | 100 => ⟨S100000x64, .f32⟩
  | 101 => ⟨S_, .f32⟩
  | 102 => ⟨S64, .f32⟩
  | 103 => ⟨S_, .f32⟩
  | 104 => ⟨S64, .f32⟩
  | 105 => ⟨S_, .f32⟩
  | 106 => ⟨S64, .f32⟩
  | 107 => ⟨S64, .f32⟩
  | 108 => ⟨S_, .i32⟩
  | 109 => ⟨S_, .f32⟩
  | 110 => ⟨S64, .f32⟩
  | 111 => ⟨S1x64, .f32⟩
  | 112 => ⟨S_, .f32⟩
  | 113 => ⟨S1x64, .f32⟩
  | 114 => ⟨S1x64, .f32⟩
  | 115 => ⟨S100000x64, .f32⟩
  | 116 => ⟨S100000x64, .f32⟩
  | 117 => ⟨S100000x64, .f32⟩
  | 118 => ⟨S_, .f32⟩
  | 119 => ⟨S_, .f32⟩
  | 120 => ⟨S_, .f32⟩
  | 121 => ⟨S_, .f32⟩
  | 122 => ⟨S64, .f32⟩
  | 123 => ⟨S64, .f32⟩
  | 124 => ⟨S64, .f32⟩
  | 125 => ⟨S_, .f32⟩
  | 126 => ⟨S_, .i1⟩
  | 127 => ⟨S_, .f32⟩
  | _ => ⟨S100000x64, .f32⟩

abbrev hbmTy0_1 (i : Nat) : BufTy := match i % 128 with
  | 0 => ⟨S_, .f32⟩
  | 1 => ⟨S64, .f32⟩
  | 2 => ⟨S64, .f32⟩
  | 3 => ⟨S1x64, .f32⟩
  | 4 => ⟨S64, .f32⟩
  | 5 => ⟨S1x64, .f32⟩
  | 6 => ⟨S64, .f32⟩
  | 7 => ⟨S1x64x64, .f32⟩
  | 8 => ⟨S64x64, .f32⟩
  | 9 => ⟨S1x64, .f32⟩
  | 10 => ⟨S1x64, .f32⟩
  | 11 => ⟨S1x64, .f32⟩
  | 12 => ⟨S1x64, .f32⟩
  | 13 => ⟨S1x64, .f32⟩
  | 14 => ⟨S100000x64, .f32⟩
  | 15 => ⟨S1700000x1, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S1700000x64, .f32⟩
  | 25 => ⟨S1700000x64, .f32⟩
  | 26 => ⟨S1700000x64, .f32⟩
  | 27 => ⟨S_, .f32⟩
  | 28 => ⟨S100000x64, .f32⟩
  | 29 => ⟨S1700000x1, .i32⟩
  | 30 => ⟨S100000x64, .f32⟩
  | 31 => ⟨S1x64, .f32⟩
  | 32 => ⟨S64, .f32⟩
  | 33 => ⟨S1x64, .f32⟩
  | 34 => ⟨S100000x64, .f32⟩
  | 35 => ⟨S_, .f32⟩
  | 36 => ⟨S64, .f32⟩
  | 37 => ⟨S_, .f32⟩
  | 38 => ⟨S64, .f32⟩
  | 39 => ⟨S64, .f32⟩
  | 40 => ⟨S_, .i32⟩
  | 41 => ⟨S_, .f32⟩
  | 42 => ⟨S64, .f32⟩
  | 43 => ⟨S1x64, .f32⟩
  | 44 => ⟨S_, .f32⟩
  | 45 => ⟨S1x64, .f32⟩
  | 46 => ⟨S1x64, .f32⟩
  | 47 => ⟨S100000x64, .f32⟩
  | 48 => ⟨S100000x64, .f32⟩
  | 49 => ⟨S100000x64, .f32⟩
  | 50 => ⟨S_, .f32⟩
  | 51 => ⟨S_, .f32⟩
  | 52 => ⟨S_, .f32⟩
  | 53 => ⟨S_, .f32⟩
  | 54 => ⟨S64, .f32⟩
  | 55 => ⟨S64, .f32⟩
  | 56 => ⟨S64, .f32⟩
  | 57 => ⟨S_, .f32⟩
  | 58 => ⟨S_, .i1⟩
  | 59 => ⟨S_, .f32⟩
  | 60 => ⟨S_, .f32⟩
  | 61 => ⟨S64, .f32⟩
  | 62 => ⟨S64, .f32⟩
  | 63 => ⟨S1x64, .f32⟩
  | 64 => ⟨S64, .f32⟩
  | 65 => ⟨S1x64, .f32⟩
  | 66 => ⟨S64, .f32⟩
  | 67 => ⟨S1x64x64, .f32⟩
  | 68 => ⟨S64x64, .f32⟩
  | 69 => ⟨S1x64, .f32⟩
  | 70 => ⟨S1x64, .f32⟩
  | 71 => ⟨S1x64, .f32⟩
  | 72 => ⟨S1x64, .f32⟩
  | 73 => ⟨S1x64, .f32⟩
  | 74 => ⟨S100000x64, .f32⟩
  | 75 => ⟨S1700000x1, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000x64, .f32⟩
  | 85 => ⟨S1700000x64, .f32⟩
  | 86 => ⟨S1700000x64, .f32⟩
  | 87 => ⟨S_, .f32⟩
  | 88 => ⟨S100000x64, .f32⟩
  | 89 => ⟨S1700000x1, .i32⟩
  | 90 => ⟨S100000x64, .f32⟩
  | 91 => ⟨S1x64, .f32⟩
  | 92 => ⟨S64, .f32⟩
  | 93 => ⟨S1x64, .f32⟩
  | 94 => ⟨S100000x64, .f32⟩
  | 95 => ⟨S_, .f32⟩
  | 96 => ⟨S64, .f32⟩
  | 97 => ⟨S_, .f32⟩
  | 98 => ⟨S64, .f32⟩
  | 99 => ⟨S64, .f32⟩
  | 100 => ⟨S_, .i32⟩
  | 101 => ⟨S_, .f32⟩
  | 102 => ⟨S64, .f32⟩
  | 103 => ⟨S1x64, .f32⟩
  | 104 => ⟨S_, .f32⟩
  | 105 => ⟨S1x64, .f32⟩
  | 106 => ⟨S1x64, .f32⟩
  | 107 => ⟨S100000x64, .f32⟩
  | 108 => ⟨S100000x64, .f32⟩
  | 109 => ⟨S100000x64, .f32⟩
  | 110 => ⟨S_, .f32⟩
  | 111 => ⟨S_, .f32⟩
  | 112 => ⟨S_, .f32⟩
  | 113 => ⟨S_, .f32⟩
  | 114 => ⟨S64, .f32⟩
  | 115 => ⟨S64, .f32⟩
  | 116 => ⟨S64, .f32⟩
  | 117 => ⟨S_, .f32⟩
  | 118 => ⟨S_, .i1⟩
  | 119 => ⟨S_, .f32⟩
  | 120 => ⟨S_, .f32⟩
  | 121 => ⟨S64, .f32⟩
  | 122 => ⟨S64, .f32⟩
  | 123 => ⟨S1x64, .f32⟩
  | 124 => ⟨S64, .f32⟩
  | 125 => ⟨S1x64, .f32⟩
  | 126 => ⟨S64, .f32⟩
  | 127 => ⟨S1x64x64, .f32⟩
  | _ => ⟨S100000x64, .f32⟩

abbrev hbmTy0_2 (i : Nat) : BufTy := match i % 128 with
  | 0 => ⟨S64x64, .f32⟩
  | 1 => ⟨S1x64, .f32⟩
  | 2 => ⟨S1x64, .f32⟩
  | 3 => ⟨S1x64, .f32⟩
  | 4 => ⟨S1x64, .f32⟩
  | 5 => ⟨S1x64, .f32⟩
  | 6 => ⟨S100000x64, .f32⟩
  | 7 => ⟨S1700000x1, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000x64, .f32⟩
  | 17 => ⟨S1700000x64, .f32⟩
  | 18 => ⟨S1700000x64, .f32⟩
  | 19 => ⟨S_, .f32⟩
  | 20 => ⟨S100000x64, .f32⟩
  | 21 => ⟨S1700000x1, .i32⟩
  | 22 => ⟨S100000x64, .f32⟩
  | 23 => ⟨S1x64, .f32⟩
  | 24 => ⟨S64, .f32⟩
  | 25 => ⟨S1x64, .f32⟩
  | 26 => ⟨S100000x64, .f32⟩
  | 27 => ⟨S_, .f32⟩
  | 28 => ⟨S64, .f32⟩
  | 29 => ⟨S_, .f32⟩
  | 30 => ⟨S64, .f32⟩
  | 31 => ⟨S64, .f32⟩
  | 32 => ⟨S_, .i32⟩
  | 33 => ⟨S_, .f32⟩
  | 34 => ⟨S64, .f32⟩
  | 35 => ⟨S1x64, .f32⟩
  | 36 => ⟨S_, .f32⟩
  | 37 => ⟨S1x64, .f32⟩
  | 38 => ⟨S1x64, .f32⟩
  | 39 => ⟨S100000x64, .f32⟩
  | 40 => ⟨S100000x64, .f32⟩
  | 41 => ⟨S100000x64, .f32⟩
  | 42 => ⟨S_, .f32⟩
  | 43 => ⟨S_, .f32⟩
  | 44 => ⟨S_, .f32⟩
  | 45 => ⟨S_, .f32⟩
  | 46 => ⟨S64, .f32⟩
  | 47 => ⟨S64, .f32⟩
  | 48 => ⟨S64, .f32⟩
  | 49 => ⟨S_, .f32⟩
  | 50 => ⟨S_, .i1⟩
  | 51 => ⟨S_, .f32⟩
  | 52 => ⟨S_, .f32⟩
  | 53 => ⟨S64, .f32⟩
  | 54 => ⟨S64, .f32⟩
  | 55 => ⟨S1x64, .f32⟩
  | 56 => ⟨S64, .f32⟩
  | 57 => ⟨S1x64, .f32⟩
  | 58 => ⟨S64, .f32⟩
  | 59 => ⟨S1x64x64, .f32⟩
  | 60 => ⟨S64x64, .f32⟩
  | 61 => ⟨S1x64, .f32⟩
  | 62 => ⟨S1x64, .f32⟩
  | 63 => ⟨S1x64, .f32⟩
  | 64 => ⟨S1x64, .f32⟩
  | 65 => ⟨S1x64, .f32⟩
  | 66 => ⟨S100000x64, .f32⟩
  | 67 => ⟨S1700000x1, .f32⟩
  | 68 => ⟨S_, .i32⟩
  | 69 => ⟨S1700000, .i32⟩
  | 70 => ⟨S1700000, .i1⟩
  | 71 => ⟨S_, .i32⟩
  | 72 => ⟨S1700000, .i32⟩
  | 73 => ⟨S1700000, .i32⟩
  | 74 => ⟨S1700000, .i32⟩
  | 75 => ⟨S1700000x1, .i32⟩
  | 76 => ⟨S1700000x64, .f32⟩
  | 77 => ⟨S1700000x64, .f32⟩
  | 78 => ⟨S1700000x64, .f32⟩
  | 79 => ⟨S_, .f32⟩
  | 80 => ⟨S100000x64, .f32⟩
  | 81 => ⟨S1700000x1, .i32⟩
  | 82 => ⟨S100000x64, .f32⟩
  | 83 => ⟨S1x64, .f32⟩
  | 84 => ⟨S64, .f32⟩
  | 85 => ⟨S1x64, .f32⟩
  | 86 => ⟨S100000x64, .f32⟩
  | 87 => ⟨S_, .f32⟩
  | 88 => ⟨S512x64, .f32⟩
  | 89 => ⟨S100000x1, .i32⟩
  | 90 => ⟨S512x64, .f32⟩
  | 91 => ⟨S_, .f32⟩
  | 92 => ⟨S64, .f32⟩
  | 93 => ⟨S_, .f32⟩
  | 94 => ⟨S64, .f32⟩
  | 95 => ⟨S64, .f32⟩
  | 96 => ⟨S_, .i32⟩
  | 97 => ⟨S_, .f32⟩
  | 98 => ⟨S64, .f32⟩
  | 99 => ⟨S1x64, .f32⟩
  | 100 => ⟨S_, .f32⟩
  | 101 => ⟨S1x64, .f32⟩
  | 102 => ⟨S1x64, .f32⟩
  | 103 => ⟨S512x64, .f32⟩
  | 104 => ⟨S512x64, .f32⟩
  | 105 => ⟨S512x64, .f32⟩
  | 106 => ⟨S_, .f32⟩
  | 107 => ⟨S_, .f32⟩
  | 108 => ⟨S_, .f32⟩
  | 109 => ⟨S_, .f32⟩
  | 110 => ⟨S64, .f32⟩
  | 111 => ⟨S64, .f32⟩
  | 112 => ⟨S64, .f32⟩
  | 113 => ⟨S_, .f32⟩
  | 114 => ⟨S_, .i1⟩
  | 115 => ⟨S_, .f32⟩
  | 116 => ⟨S_, .f32⟩
  | 117 => ⟨S64, .f32⟩
  | 118 => ⟨S64, .f32⟩
  | 119 => ⟨S1x64, .f32⟩
  | 120 => ⟨S64, .f32⟩
  | 121 => ⟨S1x64, .f32⟩
  | 122 => ⟨S64, .f32⟩
  | 123 => ⟨S1x64x64, .f32⟩
  | 124 => ⟨S64x64, .f32⟩
  | 125 => ⟨S1x64, .f32⟩
  | 126 => ⟨S64, .f32⟩
  | 127 => ⟨S1x64, .f32⟩
  | _ => ⟨S100000x64, .f32⟩

abbrev hbmTy0_3 (i : Nat) : BufTy := match i % 128 with
  | 0 => ⟨S1x64, .f32⟩
  | 1 => ⟨S1x64, .f32⟩
  | 2 => ⟨S1x64, .f32⟩
  | 3 => ⟨S1x64, .f32⟩
  | 4 => ⟨S512x64, .f32⟩
  | 5 => ⟨S_, .f32⟩
  | 6 => ⟨S64, .f32⟩
  | 7 => ⟨S_, .f32⟩
  | 8 => ⟨S64, .f32⟩
  | 9 => ⟨S64, .f32⟩
  | 10 => ⟨S_, .i32⟩
  | 11 => ⟨S_, .f32⟩
  | 12 => ⟨S64, .f32⟩
  | 13 => ⟨S1x64, .f32⟩
  | 14 => ⟨S_, .f32⟩
  | 15 => ⟨S1x64, .f32⟩
  | 16 => ⟨S1x64, .f32⟩
  | 17 => ⟨S512x64, .f32⟩
  | 18 => ⟨S512x64, .f32⟩
  | 19 => ⟨S512x64, .f32⟩
  | 20 => ⟨S_, .f32⟩
  | 21 => ⟨S_, .f32⟩
  | 22 => ⟨S_, .f32⟩
  | 23 => ⟨S_, .f32⟩
  | 24 => ⟨S64, .f32⟩
  | 25 => ⟨S64, .f32⟩
  | 26 => ⟨S64, .f32⟩
  | 27 => ⟨S_, .f32⟩
  | 28 => ⟨S_, .i1⟩
  | 29 => ⟨S_, .f32⟩
  | 30 => ⟨S_, .f32⟩
  | 31 => ⟨S64, .f32⟩
  | 32 => ⟨S64, .f32⟩
  | 33 => ⟨S1x64, .f32⟩
  | 34 => ⟨S64, .f32⟩
  | 35 => ⟨S1x64, .f32⟩
  | 36 => ⟨S64, .f32⟩
  | 37 => ⟨S1x64x64, .f32⟩
  | 38 => ⟨S64x64, .f32⟩
  | 39 => ⟨S1x64, .f32⟩
  | 40 => ⟨S64, .f32⟩
  | 41 => ⟨S1x64, .f32⟩
  | 42 => ⟨S1x64, .f32⟩
  | 43 => ⟨S1x64, .f32⟩
  | 44 => ⟨S1x64, .f32⟩
  | 45 => ⟨S1x64, .f32⟩
  | 46 => ⟨S512x64, .f32⟩
  | 47 => ⟨S_, .f32⟩
  | 48 => ⟨S64, .f32⟩
  | 49 => ⟨S_, .f32⟩
  | 50 => ⟨S64, .f32⟩
  | 51 => ⟨S64, .f32⟩
  | 52 => ⟨S_, .i32⟩
  | 53 => ⟨S_, .f32⟩
  | 54 => ⟨S64, .f32⟩
  | 55 => ⟨S1x64, .f32⟩
  | 56 => ⟨S_, .f32⟩
  | 57 => ⟨S1x64, .f32⟩
  | 58 => ⟨S1x64, .f32⟩
  | 59 => ⟨S512x64, .f32⟩
  | 60 => ⟨S512x64, .f32⟩
  | 61 => ⟨S512x64, .f32⟩
  | 62 => ⟨S_, .f32⟩
  | 63 => ⟨S_, .f32⟩
  | 64 => ⟨S_, .f32⟩
  | 65 => ⟨S_, .f32⟩
  | 66 => ⟨S64, .f32⟩
  | 67 => ⟨S64, .f32⟩
  | 68 => ⟨S64, .f32⟩
  | 69 => ⟨S_, .f32⟩
  | 70 => ⟨S_, .i1⟩
  | 71 => ⟨S_, .f32⟩
  | 72 => ⟨S_, .f32⟩
  | 73 => ⟨S64, .f32⟩
  | 74 => ⟨S64, .f32⟩
  | 75 => ⟨S1x64, .f32⟩
  | 76 => ⟨S1x64, .f32⟩
  | 77 => ⟨S1x64, .f32⟩
  | 78 => ⟨S1x64, .f32⟩
  | 79 => ⟨S512x64, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S64x64, .f32⟩
  | .local _ .vmem, ⟨34, _⟩ => ⟨S1x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S1x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S1x64, .f32⟩
  | .local _ .vmem, ⟨64, _⟩ => ⟨S1x64, .f32⟩
  | .local _ .vmem, ⟨65, _⟩ => ⟨S1x64, .f32⟩
  | .local _ .vmem, ⟨66, _⟩ => ⟨S1x64, .f32⟩
  | .local _ .vmem, ⟨67, _⟩ => ⟨S64x64, .f32⟩
  | .local _ .vmem, ⟨68, _⟩ => ⟨S1x64, .f32⟩
  | .local _ .vmem, ⟨69, _⟩ => ⟨S5000x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S1x64, .f32⟩
  | .local _ .vmem, ⟨74, _⟩ => ⟨S5000x64, .f32⟩
  | .local _ .vmem, ⟨75, _⟩ => ⟨S5000x64, .f32⟩
  | .local _ .vmem, ⟨76, _⟩ => ⟨S5000x64, .f32⟩
  | .local _ .vmem, ⟨77, _⟩ => ⟨S5000x64, .f32⟩
  | .local _ .vmem, ⟨78, _⟩ => ⟨S512x64, .f32⟩
  | .local _ .vmem, ⟨79, _⟩ => ⟨S1x64, .f32⟩
  | .local _ .vmem, ⟨80, _⟩ => ⟨S1x64, .f32⟩
  | .local _ .vmem, ⟨81, _⟩ => ⟨S1x64, .f32⟩
  | .local _ .vmem, ⟨82, _⟩ => ⟨S1x64, .f32⟩
  | .local _ .vmem, ⟨83, _⟩ => ⟨S64x64, .f32⟩
  | .local _ .vmem, ⟨84, _⟩ => ⟨S1x64, .f32⟩
  | .local _ .vmem, ⟨85, _⟩ => ⟨S512x64, .f32⟩
  | .local _ .vmem, ⟨86, _⟩ => ⟨S512x64, .f32⟩
  | .local _ .vmem, ⟨87, _⟩ => ⟨S1x64, .f32⟩
  | .local _ .vmem, ⟨88, _⟩ => ⟨S1x64, .f32⟩
  | .local _ .vmem, ⟨89, _⟩ => ⟨S1x64, .f32⟩
  | .local _ .vmem, ⟨90, _⟩ => ⟨S1x64, .f32⟩
  | .local _ .vmem, ⟨91, _⟩ => ⟨S64x64, .f32⟩
  | .local _ .vmem, ⟨92, _⟩ => ⟨S1x64, .f32⟩
  | .local _ .vmem, ⟨93, _⟩ => ⟨S512x64, .f32⟩
  | .local _ .vmem, ⟨94, _⟩ => ⟨S512x64, .f32⟩
  | .local _ .vmem, ⟨95, _⟩ => ⟨S1x64, .f32⟩
  | .local _ .vmem, ⟨96, _⟩ => ⟨S1x64, .f32⟩
  | .local _ .vmem, ⟨97, _⟩ => ⟨S1x64, .f32⟩
  | .local _ .vmem, ⟨98, _⟩ => ⟨S1x64, .f32⟩
  | .local _ .vmem, ⟨99, _⟩ => ⟨S512x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v13 : Ref sig .tc := ⟨.hbm, 37, rfl⟩
abbrev main_cst_4 : Ref sig .tc := ⟨.hbm, 38, rfl⟩
abbrev main_v14 : Ref sig .tc := ⟨.hbm, 39, rfl⟩
abbrev main_v15 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c : Ref sig .tc := ⟨.hbm, 48, rfl⟩
abbrev main_v20 : Ref sig .tc := ⟨.hbm, 49, rfl⟩
abbrev main_v21 : Ref sig .tc := ⟨.hbm, 50, rfl⟩
abbrev main_c_6 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_7 : Ref sig .tc := ⟨.hbm, 57, rfl⟩
abbrev main_v27 : Ref sig .tc := ⟨.hbm, 58, rfl⟩
abbrev main_v28 : Ref sig .tc := ⟨.hbm, 59, rfl⟩
abbrev main_c_8 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_9 : Ref sig .tc := ⟨.hbm, 67, rfl⟩
abbrev main_v35 : Ref sig .tc := ⟨.hbm, 68, rfl⟩
abbrev main_cst_10 : Ref sig .tc := ⟨.hbm, 69, rfl⟩
abbrev main_v36 : Ref sig .tc := ⟨.hbm, 70, rfl⟩
abbrev main_v37 : Ref sig .tc := ⟨.hbm, 71, rfl⟩
abbrev main_c_11 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_cst_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_cst_1 : Ref sig .tc := ⟨.hbm, 83, rfl⟩
abbrev main_call2_v8 : Ref sig .tc := ⟨.hbm, 84, rfl⟩
abbrev main_call2_cst_2 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_cst_3 : Ref sig .tc := ⟨.hbm, 89, rfl⟩
abbrev main_call2_v12 : Ref sig .tc := ⟨.hbm, 90, rfl⟩
abbrev main_call2_cst_4 : Ref sig .tc := ⟨.hbm, 91, rfl⟩
abbrev main_call2_call0_v0 : Ref sig .tc := ⟨.hbm, 92, rfl⟩
abbrev main_call2_call0_v1 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_cst_12 : Ref sig .tc := ⟨.hbm, 101, rfl⟩
abbrev main_v45 : Ref sig .tc := ⟨.hbm, 102, rfl⟩
abbrev main_cst_13 : Ref sig .tc := ⟨.hbm, 103, rfl⟩
abbrev main_v46 : Ref sig .tc := ⟨.hbm, 104, rfl⟩
abbrev main_cst_14 : Ref sig .tc := ⟨.hbm, 105, rfl⟩
abbrev main_v47 : Ref sig .tc := ⟨.hbm, 106, rfl⟩
abbrev main_v48 : Ref sig .tc := ⟨.hbm, 107, rfl⟩
abbrev main_c_15 : Ref sig .tc := ⟨.hbm, 108, rfl⟩
abbrev main_call3_cst : Ref sig .tc := ⟨.hbm, 109, rfl⟩
abbrev main_call3_v0 : Ref sig .tc := ⟨.hbm, 110, rfl⟩
abbrev main_call3_v1 : Ref sig .tc := ⟨.hbm, 111, rfl⟩
abbrev main_call3_cst_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_v6 : Ref sig .tc := ⟨.hbm, 117, rfl⟩
abbrev main_call3_v7 : Ref sig .tc := ⟨.hbm, 118, rfl⟩
abbrev main_call3_cst_1 : Ref sig .tc := ⟨.hbm, 119, rfl⟩
abbrev main_call3_v8 : Ref sig .tc := ⟨.hbm, 120, rfl⟩
abbrev main_call3_cst_2 : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_call3_cst_3 : Ref sig .tc := ⟨.hbm, 125, rfl⟩
abbrev main_call3_v12 : Ref sig .tc := ⟨.hbm, 126, rfl⟩
abbrev main_call3_cst_4 : Ref sig .tc := ⟨.hbm, 127, rfl⟩
abbrev main_call3_call0_v0 : Ref sig .tc := ⟨.hbm, 128, rfl⟩
abbrev main_call3_call0_v1 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_c_16 : Ref sig .tc := ⟨.hbm, 144, rfl⟩
abbrev main_v63 : Ref sig .tc := ⟨.hbm, 145, rfl⟩
abbrev main_v64 : Ref sig .tc := ⟨.hbm, 146, rfl⟩
abbrev main_c_17 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_cst_18 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_cst_19 : Ref sig .tc := ⟨.hbm, 163, rfl⟩
abbrev main_v79 : Ref sig .tc := ⟨.hbm, 164, rfl⟩
abbrev main_cst_20 : Ref sig .tc := ⟨.hbm, 165, rfl⟩
abbrev main_v80 : Ref sig .tc := ⟨.hbm, 166, rfl⟩
abbrev main_v81 : Ref sig .tc := ⟨.hbm, 167, rfl⟩
abbrev main_c_21 : Ref sig .tc := ⟨.hbm, 168, rfl⟩
abbrev main_call4_cst : Ref sig .tc := ⟨.hbm, 169, rfl⟩
abbrev main_call4_v0 : Ref sig .tc := ⟨.hbm, 170, rfl⟩
abbrev main_call4_v1 : Ref sig .tc := ⟨.hbm, 171, rfl⟩
abbrev main_call4_cst_0 : Ref sig .tc := ⟨.hbm, 172, rfl⟩
abbrev main_call4_v2 : Ref sig .tc := ⟨.hbm, 173, rfl⟩
abbrev main_call4_v3 : Ref sig .tc := ⟨.hbm, 174, rfl⟩
abbrev main_call4_v4 : Ref sig .tc := ⟨.hbm, 175, rfl⟩
abbrev main_call4_v5 : Ref sig .tc := ⟨.hbm, 176, rfl⟩
abbrev main_call4_v6 : Ref sig .tc := ⟨.hbm, 177, rfl⟩
abbrev main_call4_v7 : Ref sig .tc := ⟨.hbm, 178, rfl⟩
abbrev main_call4_cst_1 : Ref sig .tc := ⟨.hbm, 179, rfl⟩
abbrev main_call4_v8 : Ref sig .tc := ⟨.hbm, 180, rfl⟩
abbrev main_call4_cst_2 : Ref sig .tc := ⟨.hbm, 181, rfl⟩
abbrev main_call4_v9 : Ref sig .tc := ⟨.hbm, 182, rfl⟩
abbrev main_call4_v10 : Ref sig .tc := ⟨.hbm, 183, rfl⟩
abbrev main_call4_v11 : Ref sig .tc := ⟨.hbm, 184, rfl⟩
abbrev main_call4_cst_3 : Ref sig .tc := ⟨.hbm, 185, rfl⟩
abbrev main_call4_v12 : Ref sig .tc := ⟨.hbm, 186, rfl⟩
abbrev main_call4_cst_4 : Ref sig .tc := ⟨.hbm, 187, rfl⟩
abbrev main_call4_call0_v0 : Ref sig .tc := ⟨.hbm, 188, rfl⟩
abbrev main_call4_call0_v1 : Ref sig .tc := ⟨.hbm, 189, rfl⟩
abbrev main_v82 : Ref sig .tc := ⟨.hbm, 190, rfl⟩
abbrev main_v83 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩
abbrev main_v87 : Ref sig .tc := ⟨.hbm, 195, rfl⟩
abbrev main_v88 : Ref sig .tc := ⟨.hbm, 196, rfl⟩
abbrev main_v89 : Ref sig .tc := ⟨.hbm, 197, rfl⟩
abbrev main_v90 : Ref sig .tc := ⟨.hbm, 198, rfl⟩
abbrev main_v91 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_c_22 : Ref sig .tc := ⟨.hbm, 204, rfl⟩
abbrev main_v96 : Ref sig .tc := ⟨.hbm, 205, rfl⟩
abbrev main_v97 : Ref sig .tc := ⟨.hbm, 206, rfl⟩
abbrev main_c_23 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_v101 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩
abbrev main_cst_24 : Ref sig .tc := ⟨.hbm, 215, rfl⟩
abbrev main_v105 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_cst_25 : Ref sig .tc := ⟨.hbm, 223, rfl⟩
abbrev main_v112 : Ref sig .tc := ⟨.hbm, 224, rfl⟩
abbrev main_cst_26 : Ref sig .tc := ⟨.hbm, 225, rfl⟩
abbrev main_v113 : Ref sig .tc := ⟨.hbm, 226, rfl⟩
abbrev main_v114 : Ref sig .tc := ⟨.hbm, 227, rfl⟩
abbrev main_c_27 : Ref sig .tc := ⟨.hbm, 228, rfl⟩
abbrev main_call5_cst : Ref sig .tc := ⟨.hbm, 229, rfl⟩
abbrev main_call5_v0 : Ref sig .tc := ⟨.hbm, 230, rfl⟩
abbrev main_call5_v1 : Ref sig .tc := ⟨.hbm, 231, rfl⟩
abbrev main_call5_cst_0 : Ref sig .tc := ⟨.hbm, 232, rfl⟩
abbrev main_call5_v2 : Ref sig .tc := ⟨.hbm, 233, rfl⟩
abbrev main_call5_v3 : Ref sig .tc := ⟨.hbm, 234, rfl⟩
abbrev main_call5_v4 : Ref sig .tc := ⟨.hbm, 235, rfl⟩
abbrev main_call5_v5 : Ref sig .tc := ⟨.hbm, 236, rfl⟩
abbrev main_call5_v6 : Ref sig .tc := ⟨.hbm, 237, rfl⟩
abbrev main_call5_v7 : Ref sig .tc := ⟨.hbm, 238, rfl⟩
abbrev main_call5_cst_1 : Ref sig .tc := ⟨.hbm, 239, rfl⟩
abbrev main_call5_v8 : Ref sig .tc := ⟨.hbm, 240, rfl⟩
abbrev main_call5_cst_2 : Ref sig .tc := ⟨.hbm, 241, rfl⟩
abbrev main_call5_v9 : Ref sig .tc := ⟨.hbm, 242, rfl⟩
abbrev main_call5_v10 : Ref sig .tc := ⟨.hbm, 243, rfl⟩
abbrev main_call5_v11 : Ref sig .tc := ⟨.hbm, 244, rfl⟩
abbrev main_call5_cst_3 : Ref sig .tc := ⟨.hbm, 245, rfl⟩
abbrev main_call5_v12 : Ref sig .tc := ⟨.hbm, 246, rfl⟩
abbrev main_call5_cst_4 : Ref sig .tc := ⟨.hbm, 247, rfl⟩
abbrev main_call5_call0_v0 : Ref sig .tc := ⟨.hbm, 248, rfl⟩
abbrev main_call5_call0_v1 : Ref sig .tc := ⟨.hbm, 249, rfl⟩
abbrev main_v115 : Ref sig .tc := ⟨.hbm, 250, rfl⟩
abbrev main_v116 : Ref sig .tc := ⟨.hbm, 251, rfl⟩
abbrev main_v117 : Ref sig .tc := ⟨.hbm, 252, rfl⟩
abbrev main_v118 : Ref sig .tc := ⟨.hbm, 253, rfl⟩
abbrev main_v119 : Ref sig .tc := ⟨.hbm, 254, rfl⟩
abbrev main_v120 : Ref sig .tc := ⟨.hbm, 255, rfl⟩
abbrev main_v121 : Ref sig .tc := ⟨.hbm, 256, rfl⟩
abbrev main_v122 : Ref sig .tc := ⟨.hbm, 257, rfl⟩
abbrev main_v123 : Ref sig .tc := ⟨.hbm, 258, rfl⟩
abbrev main_v124 : Ref sig .tc := ⟨.hbm, 259, rfl⟩
abbrev main_v125 : Ref sig .tc := ⟨.hbm, 260, rfl⟩
abbrev main_v126 : Ref sig .tc := ⟨.hbm, 261, rfl⟩
abbrev main_v127 : Ref sig .tc := ⟨.hbm, 262, rfl⟩
abbrev main_v128 : Ref sig .tc := ⟨.hbm, 263, rfl⟩
abbrev main_c_28 : Ref sig .tc := ⟨.hbm, 264, rfl⟩
abbrev main_v129 : Ref sig .tc := ⟨.hbm, 265, rfl⟩
abbrev main_v130 : Ref sig .tc := ⟨.hbm, 266, rfl⟩
abbrev main_c_29 : Ref sig .tc := ⟨.hbm, 267, rfl⟩
abbrev main_v131 : Ref sig .tc := ⟨.hbm, 268, rfl⟩
abbrev main_v132 : Ref sig .tc := ⟨.hbm, 269, rfl⟩
abbrev main_v133 : Ref sig .tc := ⟨.hbm, 270, rfl⟩
abbrev main_v134 : Ref sig .tc := ⟨.hbm, 271, rfl⟩
abbrev main_v135 : Ref sig .tc := ⟨.hbm, 272, rfl⟩
abbrev main_v136 : Ref sig .tc := ⟨.hbm, 273, rfl⟩
abbrev main_v137 : Ref sig .tc := ⟨.hbm, 274, rfl⟩
abbrev main_cst_30 : Ref sig .tc := ⟨.hbm, 275, rfl⟩
abbrev main_v138 : Ref sig .tc := ⟨.hbm, 276, rfl⟩
abbrev main_v139 : Ref sig .tc := ⟨.hbm, 277, rfl⟩
abbrev main_v140 : Ref sig .tc := ⟨.hbm, 278, rfl⟩
abbrev main_v141 : Ref sig .tc := ⟨.hbm, 279, rfl⟩
abbrev main_v142 : Ref sig .tc := ⟨.hbm, 280, rfl⟩
abbrev main_v143 : Ref sig .tc := ⟨.hbm, 281, rfl⟩
abbrev main_v144 : Ref sig .tc := ⟨.hbm, 282, rfl⟩
abbrev main_cst_31 : Ref sig .tc := ⟨.hbm, 283, rfl⟩
abbrev main_v145 : Ref sig .tc := ⟨.hbm, 284, rfl⟩
abbrev main_cst_32 : Ref sig .tc := ⟨.hbm, 285, rfl⟩
abbrev main_v146 : Ref sig .tc := ⟨.hbm, 286, rfl⟩
abbrev main_v147 : Ref sig .tc := ⟨.hbm, 287, rfl⟩
abbrev main_c_33 : Ref sig .tc := ⟨.hbm, 288, rfl⟩
abbrev main_call6_cst : Ref sig .tc := ⟨.hbm, 289, rfl⟩
abbrev main_call6_v0 : Ref sig .tc := ⟨.hbm, 290, rfl⟩
abbrev main_call6_v1 : Ref sig .tc := ⟨.hbm, 291, rfl⟩
abbrev main_call6_cst_0 : Ref sig .tc := ⟨.hbm, 292, rfl⟩
abbrev main_call6_v2 : Ref sig .tc := ⟨.hbm, 293, rfl⟩
abbrev main_call6_v3 : Ref sig .tc := ⟨.hbm, 294, rfl⟩
abbrev main_call6_v4 : Ref sig .tc := ⟨.hbm, 295, rfl⟩
abbrev main_call6_v5 : Ref sig .tc := ⟨.hbm, 296, rfl⟩
abbrev main_call6_v6 : Ref sig .tc := ⟨.hbm, 297, rfl⟩
abbrev main_call6_v7 : Ref sig .tc := ⟨.hbm, 298, rfl⟩
abbrev main_call6_cst_1 : Ref sig .tc := ⟨.hbm, 299, rfl⟩
abbrev main_call6_v8 : Ref sig .tc := ⟨.hbm, 300, rfl⟩
abbrev main_call6_cst_2 : Ref sig .tc := ⟨.hbm, 301, rfl⟩
abbrev main_call6_v9 : Ref sig .tc := ⟨.hbm, 302, rfl⟩
abbrev main_call6_v10 : Ref sig .tc := ⟨.hbm, 303, rfl⟩
abbrev main_call6_v11 : Ref sig .tc := ⟨.hbm, 304, rfl⟩
abbrev main_call6_cst_3 : Ref sig .tc := ⟨.hbm, 305, rfl⟩
abbrev main_call6_v12 : Ref sig .tc := ⟨.hbm, 306, rfl⟩
abbrev main_call6_cst_4 : Ref sig .tc := ⟨.hbm, 307, rfl⟩
abbrev main_call6_call0_v0 : Ref sig .tc := ⟨.hbm, 308, rfl⟩
abbrev main_call6_call0_v1 : Ref sig .tc := ⟨.hbm, 309, rfl⟩
abbrev main_v148 : Ref sig .tc := ⟨.hbm, 310, rfl⟩
abbrev main_v149 : Ref sig .tc := ⟨.hbm, 311, rfl⟩
abbrev main_v150 : Ref sig .tc := ⟨.hbm, 312, rfl⟩
abbrev main_v151 : Ref sig .tc := ⟨.hbm, 313, rfl⟩
abbrev main_v152 : Ref sig .tc := ⟨.hbm, 314, rfl⟩
abbrev main_v153 : Ref sig .tc := ⟨.hbm, 315, rfl⟩
abbrev main_v154 : Ref sig .tc := ⟨.hbm, 316, rfl⟩
abbrev main_v155 : Ref sig .tc := ⟨.hbm, 317, rfl⟩
abbrev main_v156 : Ref sig .tc := ⟨.hbm, 318, rfl⟩
abbrev main_v157 : Ref sig .tc := ⟨.hbm, 319, rfl⟩
abbrev main_v158 : Ref sig .tc := ⟨.hbm, 320, rfl⟩
abbrev main_v159 : Ref sig .tc := ⟨.hbm, 321, rfl⟩
abbrev main_v160 : Ref sig .tc := ⟨.hbm, 322, rfl⟩
abbrev main_v161 : Ref sig .tc := ⟨.hbm, 323, rfl⟩
abbrev main_c_34 : Ref sig .tc := ⟨.hbm, 324, rfl⟩
abbrev main_v162 : Ref sig .tc := ⟨.hbm, 325, rfl⟩
abbrev main_v163 : Ref sig .tc := ⟨.hbm, 326, rfl⟩
abbrev main_c_35 : Ref sig .tc := ⟨.hbm, 327, rfl⟩
abbrev main_v164 : Ref sig .tc := ⟨.hbm, 328, rfl⟩
abbrev main_v165 : Ref sig .tc := ⟨.hbm, 329, rfl⟩
abbrev main_v166 : Ref sig .tc := ⟨.hbm, 330, rfl⟩
abbrev main_v167 : Ref sig .tc := ⟨.hbm, 331, rfl⟩
abbrev main_v168 : Ref sig .tc := ⟨.hbm, 332, rfl⟩
abbrev main_v169 : Ref sig .tc := ⟨.hbm, 333, rfl⟩
abbrev main_v170 : Ref sig .tc := ⟨.hbm, 334, rfl⟩
abbrev main_cst_36 : Ref sig .tc := ⟨.hbm, 335, rfl⟩
abbrev main_v171 : Ref sig .tc := ⟨.hbm, 336, rfl⟩
abbrev main_v172 : Ref sig .tc := ⟨.hbm, 337, rfl⟩
abbrev main_v173 : Ref sig .tc := ⟨.hbm, 338, rfl⟩
abbrev main_v174 : Ref sig .tc := ⟨.hbm, 339, rfl⟩
abbrev main_v175 : Ref sig .tc := ⟨.hbm, 340, rfl⟩
abbrev main_v176 : Ref sig .tc := ⟨.hbm, 341, rfl⟩
abbrev main_v177 : Ref sig .tc := ⟨.hbm, 342, rfl⟩
abbrev main_cst_37 : Ref sig .tc := ⟨.hbm, 343, rfl⟩
abbrev main_v178 : Ref sig .tc := ⟨.hbm, 344, rfl⟩
abbrev main_v179 : Ref sig .tc := ⟨.hbm, 345, rfl⟩
abbrev main_v180 : Ref sig .tc := ⟨.hbm, 346, rfl⟩
abbrev main_cst_38 : Ref sig .tc := ⟨.hbm, 347, rfl⟩
abbrev main_v181 : Ref sig .tc := ⟨.hbm, 348, rfl⟩
abbrev main_cst_39 : Ref sig .tc := ⟨.hbm, 349, rfl⟩
abbrev main_v182 : Ref sig .tc := ⟨.hbm, 350, rfl⟩
abbrev main_v183 : Ref sig .tc := ⟨.hbm, 351, rfl⟩
abbrev main_c_40 : Ref sig .tc := ⟨.hbm, 352, rfl⟩
abbrev main_call7_cst : Ref sig .tc := ⟨.hbm, 353, rfl⟩
abbrev main_call7_v0 : Ref sig .tc := ⟨.hbm, 354, rfl⟩
abbrev main_call7_v1 : Ref sig .tc := ⟨.hbm, 355, rfl⟩
abbrev main_call7_cst_0 : Ref sig .tc := ⟨.hbm, 356, rfl⟩
abbrev main_call7_v2 : Ref sig .tc := ⟨.hbm, 357, rfl⟩
abbrev main_call7_v3 : Ref sig .tc := ⟨.hbm, 358, rfl⟩
abbrev main_call7_v4 : Ref sig .tc := ⟨.hbm, 359, rfl⟩
abbrev main_call7_v5 : Ref sig .tc := ⟨.hbm, 360, rfl⟩
abbrev main_call7_v6 : Ref sig .tc := ⟨.hbm, 361, rfl⟩
abbrev main_call7_v7 : Ref sig .tc := ⟨.hbm, 362, rfl⟩
abbrev main_call7_cst_1 : Ref sig .tc := ⟨.hbm, 363, rfl⟩
abbrev main_call7_v8 : Ref sig .tc := ⟨.hbm, 364, rfl⟩
abbrev main_call7_cst_2 : Ref sig .tc := ⟨.hbm, 365, rfl⟩
abbrev main_call7_v9 : Ref sig .tc := ⟨.hbm, 366, rfl⟩
abbrev main_call7_v10 : Ref sig .tc := ⟨.hbm, 367, rfl⟩
abbrev main_call7_v11 : Ref sig .tc := ⟨.hbm, 368, rfl⟩
abbrev main_call7_cst_3 : Ref sig .tc := ⟨.hbm, 369, rfl⟩
abbrev main_call7_v12 : Ref sig .tc := ⟨.hbm, 370, rfl⟩
abbrev main_call7_cst_4 : Ref sig .tc := ⟨.hbm, 371, rfl⟩
abbrev main_call7_call0_v0 : Ref sig .tc := ⟨.hbm, 372, rfl⟩
abbrev main_call7_call0_v1 : Ref sig .tc := ⟨.hbm, 373, rfl⟩
abbrev main_v184 : Ref sig .tc := ⟨.hbm, 374, rfl⟩
abbrev main_v185 : Ref sig .tc := ⟨.hbm, 375, rfl⟩
abbrev main_v186 : Ref sig .tc := ⟨.hbm, 376, rfl⟩
abbrev main_v187 : Ref sig .tc := ⟨.hbm, 377, rfl⟩
abbrev main_v188 : Ref sig .tc := ⟨.hbm, 378, rfl⟩
abbrev main_v189 : Ref sig .tc := ⟨.hbm, 379, rfl⟩
abbrev main_v190 : Ref sig .tc := ⟨.hbm, 380, rfl⟩
abbrev main_v191 : Ref sig .tc := ⟨.hbm, 381, rfl⟩
abbrev main_v192 : Ref sig .tc := ⟨.hbm, 382, rfl⟩
abbrev main_v193 : Ref sig .tc := ⟨.hbm, 383, rfl⟩
abbrev main_v194 : Ref sig .tc := ⟨.hbm, 384, rfl⟩
abbrev main_v195 : Ref sig .tc := ⟨.hbm, 385, rfl⟩
abbrev main_v196 : Ref sig .tc := ⟨.hbm, 386, rfl⟩
abbrev main_v197 : Ref sig .tc := ⟨.hbm, 387, rfl⟩
abbrev main_v198 : Ref sig .tc := ⟨.hbm, 388, rfl⟩
abbrev main_cst_41 : Ref sig .tc := ⟨.hbm, 389, rfl⟩
abbrev main_v199 : Ref sig .tc := ⟨.hbm, 390, rfl⟩
abbrev main_cst_42 : Ref sig .tc := ⟨.hbm, 391, rfl⟩
abbrev main_v200 : Ref sig .tc := ⟨.hbm, 392, rfl⟩
abbrev main_v201 : Ref sig .tc := ⟨.hbm, 393, rfl⟩
abbrev main_c_43 : Ref sig .tc := ⟨.hbm, 394, rfl⟩
abbrev main_call8_cst : Ref sig .tc := ⟨.hbm, 395, rfl⟩
abbrev main_call8_v0 : Ref sig .tc := ⟨.hbm, 396, rfl⟩
abbrev main_call8_v1 : Ref sig .tc := ⟨.hbm, 397, rfl⟩
abbrev main_call8_cst_0 : Ref sig .tc := ⟨.hbm, 398, rfl⟩
abbrev main_call8_v2 : Ref sig .tc := ⟨.hbm, 399, rfl⟩
abbrev main_call8_v3 : Ref sig .tc := ⟨.hbm, 400, rfl⟩
abbrev main_call8_v4 : Ref sig .tc := ⟨.hbm, 401, rfl⟩
abbrev main_call8_v5 : Ref sig .tc := ⟨.hbm, 402, rfl⟩
abbrev main_call8_v6 : Ref sig .tc := ⟨.hbm, 403, rfl⟩
abbrev main_call8_v7 : Ref sig .tc := ⟨.hbm, 404, rfl⟩
abbrev main_call8_cst_1 : Ref sig .tc := ⟨.hbm, 405, rfl⟩
abbrev main_call8_v8 : Ref sig .tc := ⟨.hbm, 406, rfl⟩
abbrev main_call8_cst_2 : Ref sig .tc := ⟨.hbm, 407, rfl⟩
abbrev main_call8_v9 : Ref sig .tc := ⟨.hbm, 408, rfl⟩
abbrev main_call8_v10 : Ref sig .tc := ⟨.hbm, 409, rfl⟩
abbrev main_call8_v11 : Ref sig .tc := ⟨.hbm, 410, rfl⟩
abbrev main_call8_cst_3 : Ref sig .tc := ⟨.hbm, 411, rfl⟩
abbrev main_call8_v12 : Ref sig .tc := ⟨.hbm, 412, rfl⟩
abbrev main_call8_cst_4 : Ref sig .tc := ⟨.hbm, 413, rfl⟩
abbrev main_call8_call0_v0 : Ref sig .tc := ⟨.hbm, 414, rfl⟩
abbrev main_call8_call0_v1 : Ref sig .tc := ⟨.hbm, 415, rfl⟩
abbrev main_v202 : Ref sig .tc := ⟨.hbm, 416, rfl⟩
abbrev main_v203 : Ref sig .tc := ⟨.hbm, 417, rfl⟩
abbrev main_v204 : Ref sig .tc := ⟨.hbm, 418, rfl⟩
abbrev main_v205 : Ref sig .tc := ⟨.hbm, 419, rfl⟩
abbrev main_v206 : Ref sig .tc := ⟨.hbm, 420, rfl⟩
abbrev main_v207 : Ref sig .tc := ⟨.hbm, 421, rfl⟩
abbrev main_v208 : Ref sig .tc := ⟨.hbm, 422, rfl⟩
abbrev main_v209 : Ref sig .tc := ⟨.hbm, 423, rfl⟩
abbrev main_v210 : Ref sig .tc := ⟨.hbm, 424, rfl⟩
abbrev main_v211 : Ref sig .tc := ⟨.hbm, 425, rfl⟩
abbrev main_v212 : Ref sig .tc := ⟨.hbm, 426, rfl⟩
abbrev main_v213 : Ref sig .tc := ⟨.hbm, 427, rfl⟩
abbrev main_v214 : Ref sig .tc := ⟨.hbm, 428, rfl⟩
abbrev main_v215 : Ref sig .tc := ⟨.hbm, 429, rfl⟩
abbrev main_v216 : Ref sig .tc := ⟨.hbm, 430, rfl⟩
abbrev main_cst_44 : Ref sig .tc := ⟨.hbm, 431, rfl⟩
abbrev main_v217 : Ref sig .tc := ⟨.hbm, 432, rfl⟩
abbrev main_cst_45 : Ref sig .tc := ⟨.hbm, 433, rfl⟩
abbrev main_v218 : Ref sig .tc := ⟨.hbm, 434, rfl⟩
abbrev main_v219 : Ref sig .tc := ⟨.hbm, 435, rfl⟩
abbrev main_c_46 : Ref sig .tc := ⟨.hbm, 436, rfl⟩
abbrev main_call9_cst : Ref sig .tc := ⟨.hbm, 437, rfl⟩
abbrev main_call9_v0 : Ref sig .tc := ⟨.hbm, 438, rfl⟩
abbrev main_call9_v1 : Ref sig .tc := ⟨.hbm, 439, rfl⟩
abbrev main_call9_cst_0 : Ref sig .tc := ⟨.hbm, 440, rfl⟩
abbrev main_call9_v2 : Ref sig .tc := ⟨.hbm, 441, rfl⟩
abbrev main_call9_v3 : Ref sig .tc := ⟨.hbm, 442, rfl⟩
abbrev main_call9_v4 : Ref sig .tc := ⟨.hbm, 443, rfl⟩
abbrev main_call9_v5 : Ref sig .tc := ⟨.hbm, 444, rfl⟩
abbrev main_call9_v6 : Ref sig .tc := ⟨.hbm, 445, rfl⟩
abbrev main_call9_v7 : Ref sig .tc := ⟨.hbm, 446, rfl⟩
abbrev main_call9_cst_1 : Ref sig .tc := ⟨.hbm, 447, rfl⟩
abbrev main_call9_v8 : Ref sig .tc := ⟨.hbm, 448, rfl⟩
abbrev main_call9_cst_2 : Ref sig .tc := ⟨.hbm, 449, rfl⟩
abbrev main_call9_v9 : Ref sig .tc := ⟨.hbm, 450, rfl⟩
abbrev main_call9_v10 : Ref sig .tc := ⟨.hbm, 451, rfl⟩
abbrev main_call9_v11 : Ref sig .tc := ⟨.hbm, 452, rfl⟩
abbrev main_call9_cst_3 : Ref sig .tc := ⟨.hbm, 453, rfl⟩
abbrev main_call9_v12 : Ref sig .tc := ⟨.hbm, 454, rfl⟩
abbrev main_call9_cst_4 : Ref sig .tc := ⟨.hbm, 455, rfl⟩
abbrev main_call9_call0_v0 : Ref sig .tc := ⟨.hbm, 456, rfl⟩
abbrev main_call9_call0_v1 : Ref sig .tc := ⟨.hbm, 457, rfl⟩
abbrev main_v220 : Ref sig .tc := ⟨.hbm, 458, rfl⟩
abbrev main_v221 : Ref sig .tc := ⟨.hbm, 459, rfl⟩
abbrev main_v222 : Ref sig .tc := ⟨.hbm, 460, rfl⟩
abbrev main_v223 : Ref sig .tc := ⟨.hbm, 461, rfl⟩
abbrev main_v224 : Ref sig .tc := ⟨.hbm, 462, rfl⟩
abbrev main_v225 : Ref sig .tc := ⟨.hbm, 463, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg7_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg7_0 : Ref sig .tc := ⟨.vmem, 52, rfl⟩
abbrev cc5_stg7_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg2_1 : Ref sig .tc := ⟨.vmem, 58, rfl⟩
abbrev cc6_stg3_0 : Ref sig .tc := ⟨.vmem, 59, rfl⟩
abbrev cc6_stg3_1 : Ref sig .tc := ⟨.vmem, 60, rfl⟩
abbrev cc7_stg0_0 : Ref sig .tc := ⟨.vmem, 61, rfl⟩
abbrev cc7_stg0_1 : Ref sig .tc := ⟨.vmem, 62, rfl⟩
abbrev cc7_stg1_0 : Ref sig .tc := ⟨.vmem, 63, rfl⟩
abbrev cc7_stg2_0 : Ref sig .tc := ⟨.vmem, 64, rfl⟩
abbrev cc7_stg3_0 : Ref sig .tc := ⟨.vmem, 65, rfl⟩
abbrev cc7_stg4_0 : Ref sig .tc := ⟨.vmem, 66, rfl⟩
abbrev cc7_stg5_0 : Ref sig .tc := ⟨.vmem, 67, rfl⟩
abbrev cc7_stg6_0 : Ref sig .tc := ⟨.vmem, 68, rfl⟩
abbrev cc7_stg7_0 : Ref sig .tc := ⟨.vmem, 69, rfl⟩
abbrev cc7_stg7_1 : Ref sig .tc := ⟨.vmem, 70, rfl⟩
abbrev cc8_stg0_0 : Ref sig .tc := ⟨.vmem, 71, rfl⟩
abbrev cc8_stg0_1 : Ref sig .tc := ⟨.vmem, 72, rfl⟩
abbrev cc8_stg1_0 : Ref sig .tc := ⟨.vmem, 73, rfl⟩
abbrev cc8_stg2_0 : Ref sig .tc := ⟨.vmem, 74, rfl⟩
abbrev cc8_stg2_1 : Ref sig .tc := ⟨.vmem, 75, rfl⟩
abbrev cc8_stg3_0 : Ref sig .tc := ⟨.vmem, 76, rfl⟩
abbrev cc8_stg3_1 : Ref sig .tc := ⟨.vmem, 77, rfl⟩
abbrev cc9_stg0_0 : Ref sig .tc := ⟨.vmem, 78, rfl⟩
abbrev cc9_stg1_0 : Ref sig .tc := ⟨.vmem, 79, rfl⟩
abbrev cc9_stg2_0 : Ref sig .tc := ⟨.vmem, 80, rfl⟩
abbrev cc9_stg3_0 : Ref sig .tc := ⟨.vmem, 81, rfl⟩
abbrev cc9_stg4_0 : Ref sig .tc := ⟨.vmem, 82, rfl⟩
abbrev cc9_stg5_0 : Ref sig .tc := ⟨.vmem, 83, rfl⟩
abbrev cc9_stg6_0 : Ref sig .tc := ⟨.vmem, 84, rfl⟩
abbrev cc9_stg7_0 : Ref sig .tc := ⟨.vmem, 85, rfl⟩
abbrev cc10_stg0_0 : Ref sig .tc := ⟨.vmem, 86, rfl⟩
abbrev cc10_stg1_0 : Ref sig .tc := ⟨.vmem, 87, rfl⟩
abbrev cc10_stg2_0 : Ref sig .tc := ⟨.vmem, 88, rfl⟩
abbrev cc10_stg3_0 : Ref sig .tc := ⟨.vmem, 89, rfl⟩
abbrev cc10_stg4_0 : Ref sig .tc := ⟨.vmem, 90, rfl⟩
abbrev cc10_stg5_0 : Ref sig .tc := ⟨.vmem, 91, rfl⟩
abbrev cc10_stg6_0 : Ref sig .tc := ⟨.vmem, 92, rfl⟩
abbrev cc10_stg7_0 : Ref sig .tc := ⟨.vmem, 93, rfl⟩
abbrev cc11_stg0_0 : Ref sig .tc := ⟨.vmem, 94, rfl⟩
abbrev cc11_stg1_0 : Ref sig .tc := ⟨.vmem, 95, rfl⟩
abbrev cc11_stg2_0 : Ref sig .tc := ⟨.vmem, 96, rfl⟩
abbrev cc11_stg3_0 : Ref sig .tc := ⟨.vmem, 97, rfl⟩
abbrev cc11_stg4_0 : Ref sig .tc := ⟨.vmem, 98, rfl⟩
abbrev cc11_stg5_0 : Ref sig .tc := ⟨.vmem, 99, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem3_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem7_1 : DmaSem sig := 36
abbrev cc4_sem0_0 : DmaSem sig := 37
abbrev cc4_sem0_1 : DmaSem sig := 38
abbrev cc4_sem1_0 : DmaSem sig := 39
abbrev cc4_sem2_0 : DmaSem sig := 40
abbrev cc4_sem2_1 : DmaSem sig := 41
abbrev cc4_sem3_0 : DmaSem sig := 42
abbrev cc4_sem3_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem6_0 : DmaSem sig := 51
abbrev cc5_sem7_0 : DmaSem sig := 52
abbrev cc5_sem7_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem2_1 : DmaSem sig := 58
abbrev cc6_sem3_0 : DmaSem sig := 59
abbrev cc6_sem3_1 : DmaSem sig := 60
abbrev cc7_sem0_0 : DmaSem sig := 61
abbrev cc7_sem0_1 : DmaSem sig := 62
abbrev cc7_sem1_0 : DmaSem sig := 63
abbrev cc7_sem2_0 : DmaSem sig := 64
abbrev cc7_sem3_0 : DmaSem sig := 65
abbrev cc7_sem4_0 : DmaSem sig := 66
abbrev cc7_sem5_0 : DmaSem sig := 67
abbrev cc7_sem6_0 : DmaSem sig := 68
abbrev cc7_sem7_0 : DmaSem sig := 69
abbrev cc7_sem7_1 : DmaSem sig := 70
abbrev cc8_sem0_0 : DmaSem sig := 71
abbrev cc8_sem0_1 : DmaSem sig := 72
abbrev cc8_sem1_0 : DmaSem sig := 73
abbrev cc8_sem2_0 : DmaSem sig := 74
abbrev cc8_sem2_1 : DmaSem sig := 75
abbrev cc8_sem3_0 : DmaSem sig := 76
abbrev cc8_sem3_1 : DmaSem sig := 77
abbrev cc9_sem0_0 : DmaSem sig := 78
abbrev cc9_sem1_0 : DmaSem sig := 79
abbrev cc9_sem2_0 : DmaSem sig := 80
abbrev cc9_sem3_0 : DmaSem sig := 81
abbrev cc9_sem4_0 : DmaSem sig := 82
abbrev cc9_sem5_0 : DmaSem sig := 83
abbrev cc9_sem6_0 : DmaSem sig := 84
abbrev cc9_sem7_0 : DmaSem sig := 85
abbrev cc10_sem0_0 : DmaSem sig := 86
abbrev cc10_sem1_0 : DmaSem sig := 87
abbrev cc10_sem2_0 : DmaSem sig := 88
abbrev cc10_sem3_0 : DmaSem sig := 89
abbrev cc10_sem4_0 : DmaSem sig := 90
abbrev cc10_sem5_0 : DmaSem sig := 91
abbrev cc10_sem6_0 : DmaSem sig := 92
abbrev cc10_sem7_0 : DmaSem sig := 93
abbrev cc11_sem0_0 : DmaSem sig := 94
abbrev cc11_sem1_0 : DmaSem sig := 95
abbrev cc11_sem2_0 : DmaSem sig := 96
abbrev cc11_sem3_0 : DmaSem sig := 97
abbrev cc11_sem4_0 : DmaSem sig := 98
abbrev cc11_sem5_0 : DmaSem sig := 99

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x64 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S5000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S512x64 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S64x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x64 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S512x64 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S512x64 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S64x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x64 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S512x64 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 1 → Memref sig .tc .vmem S512x64 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S512x64 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  slices_S4x64_S1x64_0_0 : S4x64.Slices ![0, 0] S1x64
  shapeCasts_S1x64_S64 : S1x64.ShapeCasts S64
  slices_S4x64x64_S1x64x64_0_0_0 : S4x64x64.Slices ![0, 0, 0] S1x64x64
  shapeCasts_S1x64x64_S64x64 : S1x64x64.ShapeCasts S64x64
  shapeCasts_S5000x64_S5000x64 : S5000x64.ShapeCasts S5000x64
  shapeCasts_S64x64_S64x64 : S64x64.ShapeCasts S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S4x64_S1x64_1_0 : S4x64.Slices ![1, 0] S1x64
  slices_S4x64x64_S1x64x64_1_0_0 : S4x64x64.Slices ![1, 0, 0] S1x64x64
  slices_S4x64_S1x64_2_0 : S4x64.Slices ![2, 0] S1x64
  slices_S4x64x64_S1x64x64_2_0_0 : S4x64x64.Slices ![2, 0, 0] S1x64x64
  slices_S4x64_S1x64_3_0 : S4x64.Slices ![3, 0] S1x64
  slices_S4x64x64_S1x64x64_3_0_0 : S4x64x64.Slices ![3, 0, 0] S1x64x64
  bcast_S_S512x64 : S_.BroadcastsInDim S512x64 (![] : Fin 0 → Fin S512x64.rank)
  bcast_S100000_S100000x1_0 : S100000.BroadcastsInDim S100000x1 (![0] : Fin 1 → Fin S100000x1.rank)
  reducesTo_S512x64_S64_d0 : S512x64.ReducesTo [0] S64
  bcast_S1x64_S512x64_0_1 : S1x64.BroadcastsInDim S512x64 (![0, 1] : Fin 2 → Fin S512x64.rank)
  slices_S2x64_S1x64_0_0 : S2x64.Slices ![0, 0] S1x64
  slices_S2x64x64_S1x64x64_0_0_0 : S2x64x64.Slices ![0, 0, 0] S1x64x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S1x64_S512x64 : S1x64.Broadcasts S512x64
  slices_S2x64_S1x64_1_0 : S2x64.Slices ![1, 0] S1x64
  slices_S2x64x64_S1x64x64_1_0_0 : S2x64x64.Slices ![1, 0, 0] S1x64x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S512x64_S100000x1_S100000x64_1_0_0_1_wf : ScatterDims.WF S512x64 S100000x1 S100000x64 [1] [0] [0] 1
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S100000x64.size a
  hwx3_7 : ∀ i : grid3.Coords, EltTy.bits .f32 = 32 ∨ (Rect.block (s := S100000x64) S5000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x64.size a ≤ S100000x64.size a
  hwx5_7 : ∀ i : grid5.Coords, EltTy.bits .f32 = 32 ∨ (Rect.block (s := S100000x64) S5000x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S100000x64.size a
  hwx6_3 : ∀ i : grid6.Coords, EltTy.bits .f32 = 32 ∨ (Rect.block (s := S100000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x64.size a ≤ S64x64.size a
  hwx7_5 : ∀ i : grid7.Coords, EltTy.bits .f32 = 32 ∨ (Rect.block (s := S64x64) S64x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x64.size a ≤ S100000x64.size a
  hwx7_7 : ∀ i : grid7.Coords, EltTy.bits .f32 = 32 ∨ (Rect.block (s := S100000x64) S5000x64.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S100000x64.size a
  hwx8_2 : ∀ i : grid8.Coords, EltTy.bits .f32 = 32 ∨ (Rect.block (s := S100000x64) S5000x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x64.size a ≤ S100000x64.size a
  hwx8_3 : ∀ i : grid8.Coords, EltTy.bits .f32 = 32 ∨ (Rect.block (s := S100000x64) S5000x64.size (cc8_transform_3 i) (hinb8_3 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S512x64.size a ≤ S512x64.size a
  hwx9_0 : ∀ i : grid9.Coords, EltTy.bits .f32 = 32 ∨ (Rect.block (s := S512x64) S512x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S64x64.size a ≤ S64x64.size a
  hwx9_5 : ∀ i : grid9.Coords, EltTy.bits .f32 = 32 ∨ (Rect.block (s := S64x64) S64x64.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x64.size a ≤ S1x64.size a
  hwx9_6 : ∀ i : grid9.Coords, EltTy.bits .f32 = 32 ∨ (Rect.block (s := S1x64) S1x64.size (cc9_transform_6 i) (hinb9_6 i)).WholeWords (EltTy.packing .f32)
  hstage9_7 : ∀ j, (stage9_7 j).IsWhole
  nbuf9_7 : grid9.bufCount reads9_7 false = 1
  hreads9_7 : ∀ i i' : grid9.Coords, (∀ a, reads9_7 a = true → i a = i' a) → cc9_transform_7 i = cc9_transform_7 i'
  hinb9_7 : ∀ (i : grid9.Coords) a, (cc9_transform_7 i a + 1) * S512x64.size a ≤ S512x64.size a
  hwx9_7 : ∀ i : grid9.Coords, EltTy.bits .f32 = 32 ∨ (Rect.block (s := S512x64) S512x64.size (cc9_transform_7 i) (hinb9_7 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S512x64.size a ≤ S512x64.size a
  hwx10_0 : ∀ i : grid10.Coords, EltTy.bits .f32 = 32 ∨ (Rect.block (s := S512x64) S512x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S64x64.size a ≤ S64x64.size a
  hwx10_5 : ∀ i : grid10.Coords, EltTy.bits .f32 = 32 ∨ (Rect.block (s := S64x64) S64x64.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x64.size a ≤ S1x64.size a
  hwx10_6 : ∀ i : grid10.Coords, EltTy.bits .f32 = 32 ∨ (Rect.block (s := S1x64) S1x64.size (cc10_transform_6 i) (hinb10_6 i)).WholeWords (EltTy.packing .f32)
  hstage10_7 : ∀ j, (stage10_7 j).IsWhole
  nbuf10_7 : grid10.bufCount reads10_7 false = 1
  hreads10_7 : ∀ i i' : grid10.Coords, (∀ a, reads10_7 a = true → i a = i' a) → cc10_transform_7 i = cc10_transform_7 i'
  hinb10_7 : ∀ (i : grid10.Coords) a, (cc10_transform_7 i a + 1) * S512x64.size a ≤ S512x64.size a
  hwx10_7 : ∀ i : grid10.Coords, EltTy.bits .f32 = 32 ∨ (Rect.block (s := S512x64) S512x64.size (cc10_transform_7 i) (hinb10_7 i)).WholeWords (EltTy.packing .f32)
  hrank11 : 0 < grid11.rank
  hstage11_0 : ∀ j, (stage11_0 j).IsWhole
  nbuf11_0 : grid11.bufCount reads11_0 true = 1
  hreads11_0 : ∀ i i' : grid11.Coords, (∀ a, reads11_0 a = true → i a = i' a) → cc11_transform_0 i = cc11_transform_0 i'
  hinb11_0 : ∀ (i : grid11.Coords) a, (cc11_transform_0 i a + 1) * S512x64.size a ≤ S512x64.size a
  hwx11_0 : ∀ i : grid11.Coords, EltTy.bits .f32 = 32 ∨ (Rect.block (s := S512x64) S512x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S512x64.size a ≤ S512x64.size a
  hwx11_5 : ∀ i : grid11.Coords, EltTy.bits .f32 = 32 ∨ (Rect.block (s := S512x64) S512x64.size (cc11_transform_5 i) (hinb11_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v44) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v61) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v74) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v77) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v78) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v78) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v89) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v90) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v92) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v88) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v93) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v94) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v107) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v110) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v111) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v111) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v122) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v123) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v124) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v125) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v121) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v126) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v127) S5000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v140) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v143) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v111) S5000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v144) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v144) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v155) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v156) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v157) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v158) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v154) S64x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v159) S1x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v160) S5000x64.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v173) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v176) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v144) S5000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v177) S5000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v180) S512x64.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_v193) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v194) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v195) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v196) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v190) S64x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v197) S1x64.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v198) S512x64.size cc9_transform_7 reads9_7 true false 1 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v198) S512x64.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_v211) S1x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v212) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v213) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v214) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v208) S64x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v215) S1x64.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v216) S512x64.size cc10_transform_7 reads10_7 true false 1 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v216) S512x64.size cc11_transform_0 reads11_0 false true 1 stage11_0 sem11_0
    hrank11 hreads11_0 hinb11_0 nbuf11_0 (Memref.isWhole_whole _) hwx11_0 hstage11_0

abbrev win11_1 : Pipeline.Window sig grid11 :=
  Pipeline.Window.ofSpec (Memref.whole main_v221) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v222) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v223) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v224) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v225) S512x64.size cc11_transform_5 reads11_5 true true 1 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64 : Shape := ⟨1, ![64]⟩
abbrev S64x64 : Shape := ⟨2, ![64, 64]⟩
abbrev S4x64 : Shape := ⟨2, ![4, 64]⟩
abbrev S4x64x64 : Shape := ⟨3, ![4, 64, 64]⟩
abbrev S2x64 : Shape := ⟨2, ![2, 64]⟩
abbrev S2x64x64 : Shape := ⟨3, ![2, 64, 64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S1x64x64 : Shape := ⟨3, ![1, 64, 64]⟩
abbrev S1700000x64 : Shape := ⟨2, ![1700000, 64]⟩
abbrev S512x64 : Shape := ⟨2, ![512, 64]⟩
abbrev S100000x1 : Shape := ⟨2, ![100000, 1]⟩

abbrev nBuf : Space → Nat
  | .hbm => 588
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64, .f32⟩
  | 4 => ⟨S64, .f32⟩
  | 5 => ⟨S64x64, .f32⟩
  | 6 => ⟨S64, .f32⟩
  | 7 => ⟨S4x64, .f32⟩
  | 8 => ⟨S4x64, .f32⟩
  | 9 => ⟨S4x64x64, .f32⟩
  | 10 => ⟨S4x64, .f32⟩
  | 11 => ⟨S2x64, .f32⟩
  | 12 => ⟨S2x64, .f32⟩
  | 13 => ⟨S2x64x64, .f32⟩
  | 14 => ⟨S2x64, .f32⟩
  | 15 => ⟨S64, .f32⟩
  | 16 => ⟨S64, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S_, .f32⟩
  | 34 => ⟨S_, .f32⟩
  | 35 => ⟨S100000, .f32⟩
  | 36 => ⟨S100000, .f32⟩
  | 37 => ⟨S100000, .f32⟩
  | 38 => ⟨S_, .f32⟩
  | 39 => ⟨S100000, .f32⟩
  | 40 => ⟨S100000, .i1⟩
  | 41 => ⟨S_, .f32⟩
  | 42 => ⟨S_, .f32⟩
  | 43 => ⟨S100000, .f32⟩
  | 44 => ⟨S100000, .f32⟩
  | 45 => ⟨S100000, .f32⟩
  | 46 => ⟨S100000, .f32⟩
  | 47 => ⟨S100000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000, .f32⟩
  | 66 => ⟨S1700000, .f32⟩
  | 67 => ⟨S_, .f32⟩
  | 68 => ⟨S64, .f32⟩
  | 69 => ⟨S_, .f32⟩
  | 70 => ⟨S64, .f32⟩
  | 71 => ⟨S64, .f32⟩
  | 72 => ⟨S_, .i32⟩
  | 73 => ⟨S_, .f32⟩
  | 74 => ⟨S64, .f32⟩
  | 75 => ⟨S1x64, .f32⟩
  | 76 => ⟨S_, .f32⟩
  | 77 => ⟨S1x64, .f32⟩
  | 78 => ⟨S1x64, .f32⟩
  | 79 => ⟨S100000x64, .f32⟩
  | 80 => ⟨S100000x64, .f32⟩
  | 81 => ⟨S100000x64, .f32⟩
  | 82 => ⟨S_, .f32⟩
  | 83 => ⟨S_, .f32⟩
  | 84 => ⟨S_, .f32⟩
  | 85 => ⟨S_, .f32⟩
  | 86 => ⟨S64, .f32⟩
  | 87 => ⟨S64, .f32⟩
  | 88 => ⟨S64, .f32⟩
  | 89 => ⟨S_, .f32⟩
  | 90 => ⟨S_, .i1⟩
  | 91 => ⟨S_, .f32⟩
  | 92 => ⟨S_, .f32⟩
  | 93 => ⟨S64, .f32⟩
  | 94 => ⟨S64, .f32⟩
  | 95 => ⟨S1x64, .f32⟩
  | 96 => ⟨S100000x64, .f32⟩
  | 97 => ⟨S100000x64, .f32⟩
  | 98 => ⟨S_, .f32⟩
  | 99 => ⟨S64, .f32⟩
  | 100 => ⟨S64, .f32⟩
  | 101 => ⟨S64, .f32⟩
  | 102 => ⟨S1x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S1x64, .f32⟩
  | 109 => ⟨S100000x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S1x64, .f32⟩
  | 119 => ⟨S64, .f32⟩
  | 120 => ⟨S1x64, .f32⟩
  | 121 => ⟨S64, .f32⟩
  | 122 => ⟨S_, .f32⟩
  | 123 => ⟨S64, .f32⟩
  | 124 => ⟨S_, .f32⟩
  | 125 => ⟨S64, .f32⟩
  | 126 => ⟨S64, .f32⟩
  | 127 => ⟨S_, .i32⟩
  | _ => ⟨S100000x64, .f32⟩

abbrev hbmTy0_1 (i : Nat) : BufTy := match i % 128 with
  | 0 => ⟨S_, .f32⟩
  | 1 => ⟨S64, .f32⟩
  | 2 => ⟨S1x64, .f32⟩
  | 3 => ⟨S_, .f32⟩
  | 4 => ⟨S1x64, .f32⟩
  | 5 => ⟨S1x64, .f32⟩
  | 6 => ⟨S100000x64, .f32⟩
  | 7 => ⟨S100000x64, .f32⟩
  | 8 => ⟨S100000x64, .f32⟩
  | 9 => ⟨S_, .f32⟩
  | 10 => ⟨S_, .f32⟩
  | 11 => ⟨S_, .f32⟩
  | 12 => ⟨S_, .f32⟩
  | 13 => ⟨S64, .f32⟩
  | 14 => ⟨S64, .f32⟩
  | 15 => ⟨S64, .f32⟩
  | 16 => ⟨S_, .f32⟩
  | 17 => ⟨S_, .i1⟩
  | 18 => ⟨S_, .f32⟩
  | 19 => ⟨S_, .f32⟩
  | 20 => ⟨S64, .f32⟩
  | 21 => ⟨S64, .f32⟩
  | 22 => ⟨S1x64, .f32⟩
  | 23 => ⟨S100000x64, .f32⟩
  | 24 => ⟨S100000x64, .f32⟩
  | 25 => ⟨S_, .f32⟩
  | 26 => ⟨S64, .f32⟩
  | 27 => ⟨S64, .f32⟩
  | 28 => ⟨S64, .f32⟩
  | 29 => ⟨S1x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S1x64x64, .f32⟩
  | 39 => ⟨S64x64, .f32⟩
  | 40 => ⟨S100000x64, .f32⟩
  | 41 => ⟨S1700000x1, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000x64, .f32⟩
  | 51 => ⟨S1700000x64, .f32⟩
  | 52 => ⟨S1700000x64, .f32⟩
  | 53 => ⟨S_, .f32⟩
  | 54 => ⟨S100000x64, .f32⟩
  | 55 => ⟨S1700000x1, .i32⟩
  | 56 => ⟨S100000x64, .f32⟩
  | 57 => ⟨S1x64, .f32⟩
  | 58 => ⟨S64, .f32⟩
  | 59 => ⟨S1x64, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S100000x64, .f32⟩
  | 66 => ⟨S1x64, .f32⟩
  | 67 => ⟨S64, .f32⟩
  | 68 => ⟨S1x64, .f32⟩
  | 69 => ⟨S64, .f32⟩
  | 70 => ⟨S_, .f32⟩
  | 71 => ⟨S64, .f32⟩
  | 72 => ⟨S_, .f32⟩
  | 73 => ⟨S64, .f32⟩
  | 74 => ⟨S64, .f32⟩
  | 75 => ⟨S_, .i32⟩
  | 76 => ⟨S_, .f32⟩
  | 77 => ⟨S64, .f32⟩
  | 78 => ⟨S1x64, .f32⟩
  | 79 => ⟨S_, .f32⟩
  | 80 => ⟨S1x64, .f32⟩
  | 81 => ⟨S1x64, .f32⟩
  | 82 => ⟨S100000x64, .f32⟩
  | 83 => ⟨S100000x64, .f32⟩
  | 84 => ⟨S100000x64, .f32⟩
  | 85 => ⟨S_, .f32⟩
  | 86 => ⟨S_, .f32⟩
  | 87 => ⟨S_, .f32⟩
  | 88 => ⟨S_, .f32⟩
  | 89 => ⟨S64, .f32⟩
  | 90 => ⟨S64, .f32⟩
  | 91 => ⟨S64, .f32⟩
  | 92 => ⟨S_, .f32⟩
  | 93 => ⟨S_, .i1⟩
  | 94 => ⟨S_, .f32⟩
  | 95 => ⟨S_, .f32⟩
  | 96 => ⟨S64, .f32⟩
  | 97 => ⟨S64, .f32⟩
  | 98 => ⟨S1x64, .f32⟩
  | 99 => ⟨S100000x64, .f32⟩
  | 100 => ⟨S100000x64, .f32⟩
  | 101 => ⟨S_, .f32⟩
  | 102 => ⟨S64, .f32⟩
  | 103 => ⟨S64, .f32⟩
  | 104 => ⟨S64, .f32⟩
  | 105 => ⟨S1x64, .f32⟩
  | 106 => ⟨S100000x64, .f32⟩
  | 107 => ⟨S100000x64, .f32⟩
  | 108 => ⟨S1x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S1x64x64, .f32⟩
  | 115 => ⟨S64x64, .f32⟩
  | 116 => ⟨S100000x64, .f32⟩
  | 117 => ⟨S1700000x1, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x64, .f32⟩
  | 127 => ⟨S1700000x64, .f32⟩
  | _ => ⟨S100000x64, .f32⟩

abbrev hbmTy0_2 (i : Nat) : BufTy := match i % 128 with
  | 0 => ⟨S1700000x64, .f32⟩
  | 1 => ⟨S_, .f32⟩
  | 2 => ⟨S100000x64, .f32⟩
  | 3 => ⟨S1700000x1, .i32⟩
  | 4 => ⟨S100000x64, .f32⟩
  | 5 => ⟨S1x64, .f32⟩
  | 6 => ⟨S64, .f32⟩
  | 7 => ⟨S1x64, .f32⟩
  | 8 => ⟨S100000x64, .f32⟩
  | 9 => ⟨S100000x64, .f32⟩
  | 10 => ⟨S_, .f32⟩
  | 11 => ⟨S100000x64, .f32⟩
  | 12 => ⟨S100000x64, .f32⟩
  | 13 => ⟨S100000x64, .f32⟩
  | 14 => ⟨S1x64, .f32⟩
  | 15 => ⟨S64, .f32⟩
  | 16 => ⟨S1x64, .f32⟩
  | 17 => ⟨S64, .f32⟩
  | 18 => ⟨S_, .f32⟩
  | 19 => ⟨S64, .f32⟩
  | 20 => ⟨S_, .f32⟩
  | 21 => ⟨S64, .f32⟩
  | 22 => ⟨S64, .f32⟩
  | 23 => ⟨S_, .i32⟩
  | 24 => ⟨S_, .f32⟩
  | 25 => ⟨S64, .f32⟩
  | 26 => ⟨S1x64, .f32⟩
  | 27 => ⟨S_, .f32⟩
  | 28 => ⟨S1x64, .f32⟩
  | 29 => ⟨S1x64, .f32⟩
  | 30 => ⟨S100000x64, .f32⟩
  | 31 => ⟨S100000x64, .f32⟩
  | 32 => ⟨S100000x64, .f32⟩
  | 33 => ⟨S_, .f32⟩
  | 34 => ⟨S_, .f32⟩
  | 35 => ⟨S_, .f32⟩
  | 36 => ⟨S_, .f32⟩
  | 37 => ⟨S64, .f32⟩
  | 38 => ⟨S64, .f32⟩
  | 39 => ⟨S64, .f32⟩
  | 40 => ⟨S_, .f32⟩
  | 41 => ⟨S_, .i1⟩
  | 42 => ⟨S_, .f32⟩
  | 43 => ⟨S_, .f32⟩
  | 44 => ⟨S64, .f32⟩
  | 45 => ⟨S64, .f32⟩
  | 46 => ⟨S1x64, .f32⟩
  | 47 => ⟨S100000x64, .f32⟩
  | 48 => ⟨S100000x64, .f32⟩
  | 49 => ⟨S_, .f32⟩
  | 50 => ⟨S64, .f32⟩
  | 51 => ⟨S64, .f32⟩
  | 52 => ⟨S64, .f32⟩
  | 53 => ⟨S1x64, .f32⟩
  | 54 => ⟨S100000x64, .f32⟩
  | 55 => ⟨S100000x64, .f32⟩
  | 56 => ⟨S1x64, .f32⟩
  | 57 => ⟨S100000x64, .f32⟩
  | 58 => ⟨S100000x64, .f32⟩
  | 59 => ⟨S1x64, .f32⟩
  | 60 => ⟨S100000x64, .f32⟩
  | 61 => ⟨S100000x64, .f32⟩
  | 62 => ⟨S1x64x64, .f32⟩
  | 63 => ⟨S64x64, .f32⟩
  | 64 => ⟨S100000x64, .f32⟩
  | 65 => ⟨S1700000x1, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x64, .f32⟩
  | 75 => ⟨S1700000x64, .f32⟩
  | 76 => ⟨S1700000x64, .f32⟩
  | 77 => ⟨S_, .f32⟩
  | 78 => ⟨S100000x64, .f32⟩
  | 79 => ⟨S1700000x1, .i32⟩
  | 80 => ⟨S100000x64, .f32⟩
  | 81 => ⟨S1x64, .f32⟩
  | 82 => ⟨S64, .f32⟩
  | 83 => ⟨S1x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S100000x64, .f32⟩
  | 90 => ⟨S1x64, .f32⟩
  | 91 => ⟨S64, .f32⟩
  | 92 => ⟨S1x64, .f32⟩
  | 93 => ⟨S64, .f32⟩
  | 94 => ⟨S_, .f32⟩
  | 95 => ⟨S64, .f32⟩
  | 96 => ⟨S_, .f32⟩
  | 97 => ⟨S64, .f32⟩
  | 98 => ⟨S64, .f32⟩
  | 99 => ⟨S_, .i32⟩
  | 100 => ⟨S_, .f32⟩
  | 101 => ⟨S64, .f32⟩
  | 102 => ⟨S1x64, .f32⟩
  | 103 => ⟨S_, .f32⟩
  | 104 => ⟨S1x64, .f32⟩
  | 105 => ⟨S1x64, .f32⟩
  | 106 => ⟨S100000x64, .f32⟩
  | 107 => ⟨S100000x64, .f32⟩
  | 108 => ⟨S100000x64, .f32⟩
  | 109 => ⟨S_, .f32⟩
  | 110 => ⟨S_, .f32⟩
  | 111 => ⟨S_, .f32⟩
  | 112 => ⟨S_, .f32⟩
  | 113 => ⟨S64, .f32⟩
  | 114 => ⟨S64, .f32⟩
  | 115 => ⟨S64, .f32⟩
  | 116 => ⟨S_, .f32⟩
  | 117 => ⟨S_, .i1⟩
  | 118 => ⟨S_, .f32⟩
  | 119 => ⟨S_, .f32⟩
  | 120 => ⟨S64, .f32⟩
  | 121 => ⟨S64, .f32⟩
  | 122 => ⟨S1x64, .f32⟩
  | 123 => ⟨S100000x64, .f32⟩
  | 124 => ⟨S100000x64, .f32⟩
  | 125 => ⟨S_, .f32⟩
  | 126 => ⟨S64, .f32⟩
  | 127 => ⟨S64, .f32⟩
  | _ => ⟨S100000x64, .f32⟩

abbrev hbmTy0_3 (i : Nat) : BufTy := match i % 128 with
  | 0 => ⟨S64, .f32⟩
  | 1 => ⟨S1x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S1x64, .f32⟩
  | 8 => ⟨S100000x64, .f32⟩
  | 9 => ⟨S100000x64, .f32⟩
  | 10 => ⟨S1x64x64, .f32⟩
  | 11 => ⟨S64x64, .f32⟩
  | 12 => ⟨S100000x64, .f32⟩
  | 13 => ⟨S1700000x1, .f32⟩
  | 14 => ⟨S_, .i32⟩
  | 15 => ⟨S1700000, .i32⟩
  | 16 => ⟨S1700000, .i1⟩
  | 17 => ⟨S_, .i32⟩
  | 18 => ⟨S1700000, .i32⟩
  | 19 => ⟨S1700000, .i32⟩
  | 20 => ⟨S1700000, .i32⟩
  | 21 => ⟨S1700000x1, .i32⟩
  | 22 => ⟨S1700000x64, .f32⟩
  | 23 => ⟨S1700000x64, .f32⟩
  | 24 => ⟨S1700000x64, .f32⟩
  | 25 => ⟨S_, .f32⟩
  | 26 => ⟨S100000x64, .f32⟩
  | 27 => ⟨S1700000x1, .i32⟩
  | 28 => ⟨S100000x64, .f32⟩
  | 29 => ⟨S1x64, .f32⟩
  | 30 => ⟨S64, .f32⟩
  | 31 => ⟨S1x64, .f32⟩
  | 32 => ⟨S100000x64, .f32⟩
  | 33 => ⟨S100000x64, .f32⟩
  | 34 => ⟨S_, .f32⟩
  | 35 => ⟨S100000x64, .f32⟩
  | 36 => ⟨S100000x64, .f32⟩
  | 37 => ⟨S100000x64, .f32⟩
  | 38 => ⟨S_, .f32⟩
  | 39 => ⟨S512x64, .f32⟩
  | 40 => ⟨S100000x1, .i32⟩
  | 41 => ⟨S512x64, .f32⟩
  | 42 => ⟨S1x64, .f32⟩
  | 43 => ⟨S64, .f32⟩
  | 44 => ⟨S1x64, .f32⟩
  | 45 => ⟨S64, .f32⟩
  | 46 => ⟨S_, .f32⟩
  | 47 => ⟨S64, .f32⟩
  | 48 => ⟨S_, .f32⟩
  | 49 => ⟨S64, .f32⟩
  | 50 => ⟨S64, .f32⟩
  | 51 => ⟨S_, .i32⟩
  | 52 => ⟨S_, .f32⟩
  | 53 => ⟨S64, .f32⟩
  | 54 => ⟨S1x64, .f32⟩
  | 55 => ⟨S_, .f32⟩
  | 56 => ⟨S1x64, .f32⟩
  | 57 => ⟨S1x64, .f32⟩
  | 58 => ⟨S512x64, .f32⟩
  | 59 => ⟨S512x64, .f32⟩
  | 60 => ⟨S512x64, .f32⟩
  | 61 => ⟨S_, .f32⟩
  | 62 => ⟨S_, .f32⟩
  | 63 => ⟨S_, .f32⟩
  | 64 => ⟨S_, .f32⟩
  | 65 => ⟨S64, .f32⟩
  | 66 => ⟨S64, .f32⟩
  | 67 => ⟨S64, .f32⟩
  | 68 => ⟨S_, .f32⟩
  | 69 => ⟨S_, .i1⟩
  | 70 => ⟨S_, .f32⟩
  | 71 => ⟨S_, .f32⟩
  | 72 => ⟨S64, .f32⟩
  | 73 => ⟨S64, .f32⟩
  | 74 => ⟨S1x64, .f32⟩
  | 75 => ⟨S512x64, .f32⟩
  | 76 => ⟨S512x64, .f32⟩
  | 77 => ⟨S_, .f32⟩
  | 78 => ⟨S64, .f32⟩
  | 79 => ⟨S64, .f32⟩
  | 80 => ⟨S64, .f32⟩
  | 81 => ⟨S1x64, .f32⟩
  | 82 => ⟨S512x64, .f32⟩
  | 83 => ⟨S512x64, .f32⟩
  | 84 => ⟨S1x64, .f32⟩
  | 85 => ⟨S512x64, .f32⟩
  | 86 => ⟨S512x64, .f32⟩
  | 87 => ⟨S1x64, .f32⟩
  | 88 => ⟨S512x64, .f32⟩
  | 89 => ⟨S512x64, .f32⟩
  | 90 => ⟨S1x64x64, .f32⟩
  | 91 => ⟨S64x64, .f32⟩
  | 92 => ⟨S512x64, .f32⟩
  | 93 => ⟨S1x64, .f32⟩
  | 94 => ⟨S64, .f32⟩
  | 95 => ⟨S1x64, .f32⟩
  | 96 => ⟨S512x64, .f32⟩
  | 97 => ⟨S512x64, .f32⟩
  | 98 => ⟨S_, .f32⟩
  | 99 => ⟨S512x64, .f32⟩
  | 100 => ⟨S512x64, .f32⟩
  | 101 => ⟨S1x64, .f32⟩
  | 102 => ⟨S64, .f32⟩
  | 103 => ⟨S1x64, .f32⟩
  | 104 => ⟨S64, .f32⟩
  | 105 => ⟨S_, .f32⟩
  | 106 => ⟨S64, .f32⟩
  | 107 => ⟨S_, .f32⟩
  | 108 => ⟨S64, .f32⟩
  | 109 => ⟨S64, .f32⟩
  | 110 => ⟨S_, .i32⟩
  | 111 => ⟨S_, .f32⟩
  | 112 => ⟨S64, .f32⟩
  | 113 => ⟨S1x64, .f32⟩
  | 114 => ⟨S_, .f32⟩
  | 115 => ⟨S1x64, .f32⟩
  | 116 => ⟨S1x64, .f32⟩
  | 117 => ⟨S512x64, .f32⟩
  | 118 => ⟨S512x64, .f32⟩
  | 119 => ⟨S512x64, .f32⟩
  | 120 => ⟨S_, .f32⟩
  | 121 => ⟨S_, .f32⟩
  | 122 => ⟨S_, .f32⟩
  | 123 => ⟨S_, .f32⟩
  | 124 => ⟨S64, .f32⟩
  | 125 => ⟨S64, .f32⟩
  | 126 => ⟨S64, .f32⟩
  | 127 => ⟨S_, .f32⟩
  | _ => ⟨S100000x64, .f32⟩

abbrev hbmTy0_4 (i : Nat) : BufTy := match i % 128 with
  | 0 => ⟨S_, .i1⟩
  | 1 => ⟨S_, .f32⟩
  | 2 => ⟨S_, .f32⟩
  | 3 => ⟨S64, .f32⟩
  | 4 => ⟨S64, .f32⟩
  | 5 => ⟨S1x64, .f32⟩
  | 6 => ⟨S512x64, .f32⟩
  | 7 => ⟨S512x64, .f32⟩
  | 8 => ⟨S_, .f32⟩
  | 9 => ⟨S64, .f32⟩
  | 10 => ⟨S64, .f32⟩
  | 11 => ⟨S64, .f32⟩
  | 12 => ⟨S1x64, .f32⟩
  | 13 => ⟨S512x64, .f32⟩
  | 14 => ⟨S512x64, .f32⟩
  | 15 => ⟨S1x64, .f32⟩
  | 16 => ⟨S512x64, .f32⟩
  | 17 => ⟨S512x64, .f32⟩
  | 18 => ⟨S1x64, .f32⟩
  | 19 => ⟨S512x64, .f32⟩
  | 20 => ⟨S512x64, .f32⟩
  | 21 => ⟨S1x64x64, .f32⟩
  | 22 => ⟨S64x64, .f32⟩
  | 23 => ⟨S512x64, .f32⟩
  | 24 => ⟨S1x64, .f32⟩
  | 25 => ⟨S64, .f32⟩
  | 26 => ⟨S1x64, .f32⟩
  | 27 => ⟨S512x64, .f32⟩
  | 28 => ⟨S512x64, .f32⟩
  | 29 => ⟨S_, .f32⟩
  | 30 => ⟨S512x64, .f32⟩
  | 31 => ⟨S512x64, .f32⟩
  | 32 => ⟨S_, .f32⟩
  | 33 => ⟨S64, .f32⟩
  | 34 => ⟨S_, .f32⟩
  | 35 => ⟨S64, .f32⟩
  | 36 => ⟨S64, .f32⟩
  | 37 => ⟨S_, .i32⟩
  | 38 => ⟨S_, .f32⟩
  | 39 => ⟨S64, .f32⟩
  | 40 => ⟨S1x64, .f32⟩
  | 41 => ⟨S_, .f32⟩
  | 42 => ⟨S1x64, .f32⟩
  | 43 => ⟨S1x64, .f32⟩
  | 44 => ⟨S512x64, .f32⟩
  | 45 => ⟨S512x64, .f32⟩
  | 46 => ⟨S512x64, .f32⟩
  | 47 => ⟨S_, .f32⟩
  | 48 => ⟨S_, .f32⟩
  | 49 => ⟨S_, .f32⟩
  | 50 => ⟨S_, .f32⟩
  | 51 => ⟨S64, .f32⟩
  | 52 => ⟨S64, .f32⟩
  | 53 => ⟨S64, .f32⟩
  | 54 => ⟨S_, .f32⟩
  | 55 => ⟨S_, .i1⟩
  | 56 => ⟨S_, .f32⟩
  | 57 => ⟨S_, .f32⟩
  | 58 => ⟨S64, .f32⟩
  | 59 => ⟨S64, .f32⟩
  | 60 => ⟨S1x64, .f32⟩
  | 61 => ⟨S512x64, .f32⟩
  | 62 => ⟨S512x64, .f32⟩
  | 63 => ⟨S_, .f32⟩
  | 64 => ⟨S64, .f32⟩
  | 65 => ⟨S64, .f32⟩
  | 66 => ⟨S64, .f32⟩
  | 67 => ⟨S1x64, .f32⟩
  | 68 => ⟨S512x64, .f32⟩
  | 69 => ⟨S512x64, .f32⟩
  | 70 => ⟨S1x64, .f32⟩
  | 71 => ⟨S512x64, .f32⟩
  | 72 => ⟨S512x64, .f32⟩
  | 73 => ⟨S1x64, .f32⟩
  | 74 => ⟨S512x64, .f32⟩
  | 75 => ⟨S512x64, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v13 : Ref sig .tc := ⟨.hbm, 37, rfl⟩
abbrev main_cst_4 : Ref sig .tc := ⟨.hbm, 38, rfl⟩
abbrev main_v14 : Ref sig .tc := ⟨.hbm, 39, rfl⟩
abbrev main_v15 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c : Ref sig .tc := ⟨.hbm, 48, rfl⟩
abbrev main_v20 : Ref sig .tc := ⟨.hbm, 49, rfl⟩
abbrev main_v21 : Ref sig .tc := ⟨.hbm, 50, rfl⟩
abbrev main_c_6 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_7 : Ref sig .tc := ⟨.hbm, 57, rfl⟩
abbrev main_v27 : Ref sig .tc := ⟨.hbm, 58, rfl⟩
abbrev main_v28 : Ref sig .tc := ⟨.hbm, 59, rfl⟩
abbrev main_c_8 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_9 : Ref sig .tc := ⟨.hbm, 67, rfl⟩
abbrev main_v35 : Ref sig .tc := ⟨.hbm, 68, rfl⟩
abbrev main_cst_10 : Ref sig .tc := ⟨.hbm, 69, rfl⟩
abbrev main_v36 : Ref sig .tc := ⟨.hbm, 70, rfl⟩
abbrev main_v37 : Ref sig .tc := ⟨.hbm, 71, rfl⟩
abbrev main_c_11 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_cst_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_cst_1 : Ref sig .tc := ⟨.hbm, 83, rfl⟩
abbrev main_call2_v8 : Ref sig .tc := ⟨.hbm, 84, rfl⟩
abbrev main_call2_cst_2 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_cst_3 : Ref sig .tc := ⟨.hbm, 89, rfl⟩
abbrev main_call2_v12 : Ref sig .tc := ⟨.hbm, 90, rfl⟩
abbrev main_call2_cst_4 : Ref sig .tc := ⟨.hbm, 91, rfl⟩
abbrev main_call2_call0_v0 : Ref sig .tc := ⟨.hbm, 92, rfl⟩
abbrev main_call2_call0_v1 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_cst_12 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_call3_cst : Ref sig .tc := ⟨.hbm, 115, rfl⟩
abbrev main_call3_v0 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_cst_13 : Ref sig .tc := ⟨.hbm, 122, rfl⟩
abbrev main_v63 : Ref sig .tc := ⟨.hbm, 123, rfl⟩
abbrev main_cst_14 : Ref sig .tc := ⟨.hbm, 124, rfl⟩
abbrev main_v64 : Ref sig .tc := ⟨.hbm, 125, rfl⟩
abbrev main_v65 : Ref sig .tc := ⟨.hbm, 126, rfl⟩
abbrev main_c_15 : Ref sig .tc := ⟨.hbm, 127, rfl⟩
abbrev main_call4_cst : Ref sig .tc := ⟨.hbm, 128, rfl⟩
abbrev main_call4_v0 : Ref sig .tc := ⟨.hbm, 129, rfl⟩
abbrev main_call4_v1 : Ref sig .tc := ⟨.hbm, 130, rfl⟩
abbrev main_call4_cst_0 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_v5 : Ref sig .tc := ⟨.hbm, 135, rfl⟩
abbrev main_call4_v6 : Ref sig .tc := ⟨.hbm, 136, rfl⟩
abbrev main_call4_v7 : Ref sig .tc := ⟨.hbm, 137, rfl⟩
abbrev main_call4_cst_1 : Ref sig .tc := ⟨.hbm, 138, rfl⟩
abbrev main_call4_v8 : Ref sig .tc := ⟨.hbm, 139, rfl⟩
abbrev main_call4_cst_2 : Ref sig .tc := ⟨.hbm, 140, rfl⟩
abbrev main_call4_v9 : Ref sig .tc := ⟨.hbm, 141, rfl⟩
abbrev main_call4_v10 : Ref sig .tc := ⟨.hbm, 142, rfl⟩
abbrev main_call4_v11 : Ref sig .tc := ⟨.hbm, 143, rfl⟩
abbrev main_call4_cst_3 : Ref sig .tc := ⟨.hbm, 144, rfl⟩
abbrev main_call4_v12 : Ref sig .tc := ⟨.hbm, 145, rfl⟩
abbrev main_call4_cst_4 : Ref sig .tc := ⟨.hbm, 146, rfl⟩
abbrev main_call4_call0_v0 : Ref sig .tc := ⟨.hbm, 147, rfl⟩
abbrev main_call4_call0_v1 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_cst_16 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_c_17 : Ref sig .tc := ⟨.hbm, 170, rfl⟩
abbrev main_v86 : Ref sig .tc := ⟨.hbm, 171, rfl⟩
abbrev main_v87 : Ref sig .tc := ⟨.hbm, 172, rfl⟩
abbrev main_c_18 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_cst_19 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_call5_cst : Ref sig .tc := ⟨.hbm, 190, rfl⟩
abbrev main_call5_v0 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_cst_20 : Ref sig .tc := ⟨.hbm, 198, rfl⟩
abbrev main_v109 : Ref sig .tc := ⟨.hbm, 199, rfl⟩
abbrev main_cst_21 : Ref sig .tc := ⟨.hbm, 200, rfl⟩
abbrev main_v110 : Ref sig .tc := ⟨.hbm, 201, rfl⟩
abbrev main_v111 : Ref sig .tc := ⟨.hbm, 202, rfl⟩
abbrev main_c_22 : Ref sig .tc := ⟨.hbm, 203, rfl⟩
abbrev main_call6_cst : Ref sig .tc := ⟨.hbm, 204, rfl⟩
abbrev main_call6_v0 : Ref sig .tc := ⟨.hbm, 205, rfl⟩
abbrev main_call6_v1 : Ref sig .tc := ⟨.hbm, 206, rfl⟩
abbrev main_call6_cst_0 : Ref sig .tc := ⟨.hbm, 207, rfl⟩
abbrev main_call6_v2 : Ref sig .tc := ⟨.hbm, 208, rfl⟩
abbrev main_call6_v3 : Ref sig .tc := ⟨.hbm, 209, rfl⟩
abbrev main_call6_v4 : Ref sig .tc := ⟨.hbm, 210, rfl⟩
abbrev main_call6_v5 : Ref sig .tc := ⟨.hbm, 211, rfl⟩
abbrev main_call6_v6 : Ref sig .tc := ⟨.hbm, 212, rfl⟩
abbrev main_call6_v7 : Ref sig .tc := ⟨.hbm, 213, rfl⟩
abbrev main_call6_cst_1 : Ref sig .tc := ⟨.hbm, 214, rfl⟩
abbrev main_call6_v8 : Ref sig .tc := ⟨.hbm, 215, rfl⟩
abbrev main_call6_cst_2 : Ref sig .tc := ⟨.hbm, 216, rfl⟩
abbrev main_call6_v9 : Ref sig .tc := ⟨.hbm, 217, rfl⟩
abbrev main_call6_v10 : Ref sig .tc := ⟨.hbm, 218, rfl⟩
abbrev main_call6_v11 : Ref sig .tc := ⟨.hbm, 219, rfl⟩
abbrev main_call6_cst_3 : Ref sig .tc := ⟨.hbm, 220, rfl⟩
abbrev main_call6_v12 : Ref sig .tc := ⟨.hbm, 221, rfl⟩
abbrev main_call6_cst_4 : Ref sig .tc := ⟨.hbm, 222, rfl⟩
abbrev main_call6_call0_v0 : Ref sig .tc := ⟨.hbm, 223, rfl⟩
abbrev main_call6_call0_v1 : Ref sig .tc := ⟨.hbm, 224, rfl⟩
abbrev main_v112 : Ref sig .tc := ⟨.hbm, 225, rfl⟩
abbrev main_v113 : Ref sig .tc := ⟨.hbm, 226, rfl⟩
abbrev main_v114 : Ref sig .tc := ⟨.hbm, 227, rfl⟩
abbrev main_v115 : Ref sig .tc := ⟨.hbm, 228, rfl⟩
abbrev main_cst_23 : Ref sig .tc := ⟨.hbm, 229, rfl⟩
abbrev main_v116 : Ref sig .tc := ⟨.hbm, 230, rfl⟩
abbrev main_v117 : Ref sig .tc := ⟨.hbm, 231, rfl⟩
abbrev main_v118 : Ref sig .tc := ⟨.hbm, 232, rfl⟩
abbrev main_v119 : Ref sig .tc := ⟨.hbm, 233, rfl⟩
abbrev main_v120 : Ref sig .tc := ⟨.hbm, 234, rfl⟩
abbrev main_v121 : Ref sig .tc := ⟨.hbm, 235, rfl⟩
abbrev main_v122 : Ref sig .tc := ⟨.hbm, 236, rfl⟩
abbrev main_v123 : Ref sig .tc := ⟨.hbm, 237, rfl⟩
abbrev main_v124 : Ref sig .tc := ⟨.hbm, 238, rfl⟩
abbrev main_v125 : Ref sig .tc := ⟨.hbm, 239, rfl⟩
abbrev main_v126 : Ref sig .tc := ⟨.hbm, 240, rfl⟩
abbrev main_v127 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_c_24 : Ref sig .tc := ⟨.hbm, 246, rfl⟩
abbrev main_v132 : Ref sig .tc := ⟨.hbm, 247, rfl⟩
abbrev main_v133 : Ref sig .tc := ⟨.hbm, 248, rfl⟩
abbrev main_c_25 : Ref sig .tc := ⟨.hbm, 249, rfl⟩
abbrev main_v134 : Ref sig .tc := ⟨.hbm, 250, rfl⟩
abbrev main_v135 : Ref sig .tc := ⟨.hbm, 251, rfl⟩
abbrev main_v136 : Ref sig .tc := ⟨.hbm, 252, rfl⟩
abbrev main_v137 : Ref sig .tc := ⟨.hbm, 253, rfl⟩
abbrev main_v138 : Ref sig .tc := ⟨.hbm, 254, rfl⟩
abbrev main_v139 : Ref sig .tc := ⟨.hbm, 255, rfl⟩
abbrev main_v140 : Ref sig .tc := ⟨.hbm, 256, rfl⟩
abbrev main_cst_26 : Ref sig .tc := ⟨.hbm, 257, rfl⟩
abbrev main_v141 : Ref sig .tc := ⟨.hbm, 258, rfl⟩
abbrev main_v142 : Ref sig .tc := ⟨.hbm, 259, rfl⟩
abbrev main_v143 : Ref sig .tc := ⟨.hbm, 260, rfl⟩
abbrev main_v144 : Ref sig .tc := ⟨.hbm, 261, rfl⟩
abbrev main_v145 : Ref sig .tc := ⟨.hbm, 262, rfl⟩
abbrev main_v146 : Ref sig .tc := ⟨.hbm, 263, rfl⟩
abbrev main_v147 : Ref sig .tc := ⟨.hbm, 264, rfl⟩
abbrev main_v148 : Ref sig .tc := ⟨.hbm, 265, rfl⟩
abbrev main_call7_cst : Ref sig .tc := ⟨.hbm, 266, rfl⟩
abbrev main_call7_v0 : Ref sig .tc := ⟨.hbm, 267, rfl⟩
abbrev main_v149 : Ref sig .tc := ⟨.hbm, 268, rfl⟩
abbrev main_v150 : Ref sig .tc := ⟨.hbm, 269, rfl⟩
abbrev main_v151 : Ref sig .tc := ⟨.hbm, 270, rfl⟩
abbrev main_v152 : Ref sig .tc := ⟨.hbm, 271, rfl⟩
abbrev main_v153 : Ref sig .tc := ⟨.hbm, 272, rfl⟩
abbrev main_v154 : Ref sig .tc := ⟨.hbm, 273, rfl⟩
abbrev main_cst_27 : Ref sig .tc := ⟨.hbm, 274, rfl⟩
abbrev main_v155 : Ref sig .tc := ⟨.hbm, 275, rfl⟩
abbrev main_cst_28 : Ref sig .tc := ⟨.hbm, 276, rfl⟩
abbrev main_v156 : Ref sig .tc := ⟨.hbm, 277, rfl⟩
abbrev main_v157 : Ref sig .tc := ⟨.hbm, 278, rfl⟩
abbrev main_c_29 : Ref sig .tc := ⟨.hbm, 279, rfl⟩
abbrev main_call8_cst : Ref sig .tc := ⟨.hbm, 280, rfl⟩
abbrev main_call8_v0 : Ref sig .tc := ⟨.hbm, 281, rfl⟩
abbrev main_call8_v1 : Ref sig .tc := ⟨.hbm, 282, rfl⟩
abbrev main_call8_cst_0 : Ref sig .tc := ⟨.hbm, 283, rfl⟩
abbrev main_call8_v2 : Ref sig .tc := ⟨.hbm, 284, rfl⟩
abbrev main_call8_v3 : Ref sig .tc := ⟨.hbm, 285, rfl⟩
abbrev main_call8_v4 : Ref sig .tc := ⟨.hbm, 286, rfl⟩
abbrev main_call8_v5 : Ref sig .tc := ⟨.hbm, 287, rfl⟩
abbrev main_call8_v6 : Ref sig .tc := ⟨.hbm, 288, rfl⟩
abbrev main_call8_v7 : Ref sig .tc := ⟨.hbm, 289, rfl⟩
abbrev main_call8_cst_1 : Ref sig .tc := ⟨.hbm, 290, rfl⟩
abbrev main_call8_v8 : Ref sig .tc := ⟨.hbm, 291, rfl⟩
abbrev main_call8_cst_2 : Ref sig .tc := ⟨.hbm, 292, rfl⟩
abbrev main_call8_v9 : Ref sig .tc := ⟨.hbm, 293, rfl⟩
abbrev main_call8_v10 : Ref sig .tc := ⟨.hbm, 294, rfl⟩
abbrev main_call8_v11 : Ref sig .tc := ⟨.hbm, 295, rfl⟩
abbrev main_call8_cst_3 : Ref sig .tc := ⟨.hbm, 296, rfl⟩
abbrev main_call8_v12 : Ref sig .tc := ⟨.hbm, 297, rfl⟩
abbrev main_call8_cst_4 : Ref sig .tc := ⟨.hbm, 298, rfl⟩
abbrev main_call8_call0_v0 : Ref sig .tc := ⟨.hbm, 299, rfl⟩
abbrev main_call8_call0_v1 : Ref sig .tc := ⟨.hbm, 300, rfl⟩
abbrev main_v158 : Ref sig .tc := ⟨.hbm, 301, rfl⟩
abbrev main_v159 : Ref sig .tc := ⟨.hbm, 302, rfl⟩
abbrev main_v160 : Ref sig .tc := ⟨.hbm, 303, rfl⟩
abbrev main_v161 : Ref sig .tc := ⟨.hbm, 304, rfl⟩
abbrev main_cst_30 : Ref sig .tc := ⟨.hbm, 305, rfl⟩
abbrev main_v162 : Ref sig .tc := ⟨.hbm, 306, rfl⟩
abbrev main_v163 : Ref sig .tc := ⟨.hbm, 307, rfl⟩
abbrev main_v164 : Ref sig .tc := ⟨.hbm, 308, rfl⟩
abbrev main_v165 : Ref sig .tc := ⟨.hbm, 309, rfl⟩
abbrev main_v166 : Ref sig .tc := ⟨.hbm, 310, rfl⟩
abbrev main_v167 : Ref sig .tc := ⟨.hbm, 311, rfl⟩
abbrev main_v168 : Ref sig .tc := ⟨.hbm, 312, rfl⟩
abbrev main_v169 : Ref sig .tc := ⟨.hbm, 313, rfl⟩
abbrev main_v170 : Ref sig .tc := ⟨.hbm, 314, rfl⟩
abbrev main_v171 : Ref sig .tc := ⟨.hbm, 315, rfl⟩
abbrev main_v172 : Ref sig .tc := ⟨.hbm, 316, rfl⟩
abbrev main_v173 : Ref sig .tc := ⟨.hbm, 317, rfl⟩
abbrev main_v174 : Ref sig .tc := ⟨.hbm, 318, rfl⟩
abbrev main_v175 : Ref sig .tc := ⟨.hbm, 319, rfl⟩
abbrev main_v176 : Ref sig .tc := ⟨.hbm, 320, rfl⟩
abbrev main_v177 : Ref sig .tc := ⟨.hbm, 321, rfl⟩
abbrev main_c_31 : Ref sig .tc := ⟨.hbm, 322, rfl⟩
abbrev main_v178 : Ref sig .tc := ⟨.hbm, 323, rfl⟩
abbrev main_v179 : Ref sig .tc := ⟨.hbm, 324, rfl⟩
abbrev main_c_32 : Ref sig .tc := ⟨.hbm, 325, rfl⟩
abbrev main_v180 : Ref sig .tc := ⟨.hbm, 326, rfl⟩
abbrev main_v181 : Ref sig .tc := ⟨.hbm, 327, rfl⟩
abbrev main_v182 : Ref sig .tc := ⟨.hbm, 328, rfl⟩
abbrev main_v183 : Ref sig .tc := ⟨.hbm, 329, rfl⟩
abbrev main_v184 : Ref sig .tc := ⟨.hbm, 330, rfl⟩
abbrev main_v185 : Ref sig .tc := ⟨.hbm, 331, rfl⟩
abbrev main_v186 : Ref sig .tc := ⟨.hbm, 332, rfl⟩
abbrev main_cst_33 : Ref sig .tc := ⟨.hbm, 333, rfl⟩
abbrev main_v187 : Ref sig .tc := ⟨.hbm, 334, rfl⟩
abbrev main_v188 : Ref sig .tc := ⟨.hbm, 335, rfl⟩
abbrev main_v189 : Ref sig .tc := ⟨.hbm, 336, rfl⟩
abbrev main_v190 : Ref sig .tc := ⟨.hbm, 337, rfl⟩
abbrev main_v191 : Ref sig .tc := ⟨.hbm, 338, rfl⟩
abbrev main_v192 : Ref sig .tc := ⟨.hbm, 339, rfl⟩
abbrev main_v193 : Ref sig .tc := ⟨.hbm, 340, rfl⟩
abbrev main_v194 : Ref sig .tc := ⟨.hbm, 341, rfl⟩
abbrev main_call9_cst : Ref sig .tc := ⟨.hbm, 342, rfl⟩
abbrev main_call9_v0 : Ref sig .tc := ⟨.hbm, 343, rfl⟩
abbrev main_v195 : Ref sig .tc := ⟨.hbm, 344, rfl⟩
abbrev main_v196 : Ref sig .tc := ⟨.hbm, 345, rfl⟩
abbrev main_v197 : Ref sig .tc := ⟨.hbm, 346, rfl⟩
abbrev main_v198 : Ref sig .tc := ⟨.hbm, 347, rfl⟩
abbrev main_v199 : Ref sig .tc := ⟨.hbm, 348, rfl⟩
abbrev main_v200 : Ref sig .tc := ⟨.hbm, 349, rfl⟩
abbrev main_cst_34 : Ref sig .tc := ⟨.hbm, 350, rfl⟩
abbrev main_v201 : Ref sig .tc := ⟨.hbm, 351, rfl⟩
abbrev main_cst_35 : Ref sig .tc := ⟨.hbm, 352, rfl⟩
abbrev main_v202 : Ref sig .tc := ⟨.hbm, 353, rfl⟩
abbrev main_v203 : Ref sig .tc := ⟨.hbm, 354, rfl⟩
abbrev main_c_36 : Ref sig .tc := ⟨.hbm, 355, rfl⟩
abbrev main_call10_cst : Ref sig .tc := ⟨.hbm, 356, rfl⟩
abbrev main_call10_v0 : Ref sig .tc := ⟨.hbm, 357, rfl⟩
abbrev main_call10_v1 : Ref sig .tc := ⟨.hbm, 358, rfl⟩
abbrev main_call10_cst_0 : Ref sig .tc := ⟨.hbm, 359, rfl⟩
abbrev main_call10_v2 : Ref sig .tc := ⟨.hbm, 360, rfl⟩
abbrev main_call10_v3 : Ref sig .tc := ⟨.hbm, 361, rfl⟩
abbrev main_call10_v4 : Ref sig .tc := ⟨.hbm, 362, rfl⟩
abbrev main_call10_v5 : Ref sig .tc := ⟨.hbm, 363, rfl⟩
abbrev main_call10_v6 : Ref sig .tc := ⟨.hbm, 364, rfl⟩
abbrev main_call10_v7 : Ref sig .tc := ⟨.hbm, 365, rfl⟩
abbrev main_call10_cst_1 : Ref sig .tc := ⟨.hbm, 366, rfl⟩
abbrev main_call10_v8 : Ref sig .tc := ⟨.hbm, 367, rfl⟩
abbrev main_call10_cst_2 : Ref sig .tc := ⟨.hbm, 368, rfl⟩
abbrev main_call10_v9 : Ref sig .tc := ⟨.hbm, 369, rfl⟩
abbrev main_call10_v10 : Ref sig .tc := ⟨.hbm, 370, rfl⟩
abbrev main_call10_v11 : Ref sig .tc := ⟨.hbm, 371, rfl⟩
abbrev main_call10_cst_3 : Ref sig .tc := ⟨.hbm, 372, rfl⟩
abbrev main_call10_v12 : Ref sig .tc := ⟨.hbm, 373, rfl⟩
abbrev main_call10_cst_4 : Ref sig .tc := ⟨.hbm, 374, rfl⟩
abbrev main_call10_call0_v0 : Ref sig .tc := ⟨.hbm, 375, rfl⟩
abbrev main_call10_call0_v1 : Ref sig .tc := ⟨.hbm, 376, rfl⟩
abbrev main_v204 : Ref sig .tc := ⟨.hbm, 377, rfl⟩
abbrev main_v205 : Ref sig .tc := ⟨.hbm, 378, rfl⟩
abbrev main_v206 : Ref sig .tc := ⟨.hbm, 379, rfl⟩
abbrev main_v207 : Ref sig .tc := ⟨.hbm, 380, rfl⟩
abbrev main_cst_37 : Ref sig .tc := ⟨.hbm, 381, rfl⟩
abbrev main_v208 : Ref sig .tc := ⟨.hbm, 382, rfl⟩
abbrev main_v209 : Ref sig .tc := ⟨.hbm, 383, rfl⟩
abbrev main_v210 : Ref sig .tc := ⟨.hbm, 384, rfl⟩
abbrev main_v211 : Ref sig .tc := ⟨.hbm, 385, rfl⟩
abbrev main_v212 : Ref sig .tc := ⟨.hbm, 386, rfl⟩
abbrev main_v213 : Ref sig .tc := ⟨.hbm, 387, rfl⟩
abbrev main_v214 : Ref sig .tc := ⟨.hbm, 388, rfl⟩
abbrev main_v215 : Ref sig .tc := ⟨.hbm, 389, rfl⟩
abbrev main_v216 : Ref sig .tc := ⟨.hbm, 390, rfl⟩
abbrev main_v217 : Ref sig .tc := ⟨.hbm, 391, rfl⟩
abbrev main_v218 : Ref sig .tc := ⟨.hbm, 392, rfl⟩
abbrev main_v219 : Ref sig .tc := ⟨.hbm, 393, rfl⟩
abbrev main_v220 : Ref sig .tc := ⟨.hbm, 394, rfl⟩
abbrev main_v221 : Ref sig .tc := ⟨.hbm, 395, rfl⟩
abbrev main_v222 : Ref sig .tc := ⟨.hbm, 396, rfl⟩
abbrev main_v223 : Ref sig .tc := ⟨.hbm, 397, rfl⟩
abbrev main_c_38 : Ref sig .tc := ⟨.hbm, 398, rfl⟩
abbrev main_v224 : Ref sig .tc := ⟨.hbm, 399, rfl⟩
abbrev main_v225 : Ref sig .tc := ⟨.hbm, 400, rfl⟩
abbrev main_c_39 : Ref sig .tc := ⟨.hbm, 401, rfl⟩
abbrev main_v226 : Ref sig .tc := ⟨.hbm, 402, rfl⟩
abbrev main_v227 : Ref sig .tc := ⟨.hbm, 403, rfl⟩
abbrev main_v228 : Ref sig .tc := ⟨.hbm, 404, rfl⟩
abbrev main_v229 : Ref sig .tc := ⟨.hbm, 405, rfl⟩
abbrev main_v230 : Ref sig .tc := ⟨.hbm, 406, rfl⟩
abbrev main_v231 : Ref sig .tc := ⟨.hbm, 407, rfl⟩
abbrev main_v232 : Ref sig .tc := ⟨.hbm, 408, rfl⟩
abbrev main_cst_40 : Ref sig .tc := ⟨.hbm, 409, rfl⟩
abbrev main_v233 : Ref sig .tc := ⟨.hbm, 410, rfl⟩
abbrev main_v234 : Ref sig .tc := ⟨.hbm, 411, rfl⟩
abbrev main_v235 : Ref sig .tc := ⟨.hbm, 412, rfl⟩
abbrev main_v236 : Ref sig .tc := ⟨.hbm, 413, rfl⟩
abbrev main_v237 : Ref sig .tc := ⟨.hbm, 414, rfl⟩
abbrev main_v238 : Ref sig .tc := ⟨.hbm, 415, rfl⟩
abbrev main_v239 : Ref sig .tc := ⟨.hbm, 416, rfl⟩
abbrev main_v240 : Ref sig .tc := ⟨.hbm, 417, rfl⟩
abbrev main_call11_cst : Ref sig .tc := ⟨.hbm, 418, rfl⟩
abbrev main_call11_v0 : Ref sig .tc := ⟨.hbm, 419, rfl⟩
abbrev main_v241 : Ref sig .tc := ⟨.hbm, 420, rfl⟩
abbrev main_v242 : Ref sig .tc := ⟨.hbm, 421, rfl⟩
abbrev main_cst_41 : Ref sig .tc := ⟨.hbm, 422, rfl⟩
abbrev main_v243 : Ref sig .tc := ⟨.hbm, 423, rfl⟩
abbrev main_v244 : Ref sig .tc := ⟨.hbm, 424, rfl⟩
abbrev main_v245 : Ref sig .tc := ⟨.hbm, 425, rfl⟩
abbrev main_v246 : Ref sig .tc := ⟨.hbm, 426, rfl⟩
abbrev main_v247 : Ref sig .tc := ⟨.hbm, 427, rfl⟩
abbrev main_v248 : Ref sig .tc := ⟨.hbm, 428, rfl⟩
abbrev main_v249 : Ref sig .tc := ⟨.hbm, 429, rfl⟩
abbrev main_cst_42 : Ref sig .tc := ⟨.hbm, 430, rfl⟩
abbrev main_v250 : Ref sig .tc := ⟨.hbm, 431, rfl⟩
abbrev main_cst_43 : Ref sig .tc := ⟨.hbm, 432, rfl⟩
abbrev main_v251 : Ref sig .tc := ⟨.hbm, 433, rfl⟩
abbrev main_v252 : Ref sig .tc := ⟨.hbm, 434, rfl⟩
abbrev main_c_44 : Ref sig .tc := ⟨.hbm, 435, rfl⟩
abbrev main_call12_cst : Ref sig .tc := ⟨.hbm, 436, rfl⟩
abbrev main_call12_v0 : Ref sig .tc := ⟨.hbm, 437, rfl⟩
abbrev main_call12_v1 : Ref sig .tc := ⟨.hbm, 438, rfl⟩
abbrev main_call12_cst_0 : Ref sig .tc := ⟨.hbm, 439, rfl⟩
abbrev main_call12_v2 : Ref sig .tc := ⟨.hbm, 440, rfl⟩
abbrev main_call12_v3 : Ref sig .tc := ⟨.hbm, 441, rfl⟩
abbrev main_call12_v4 : Ref sig .tc := ⟨.hbm, 442, rfl⟩
abbrev main_call12_v5 : Ref sig .tc := ⟨.hbm, 443, rfl⟩
abbrev main_call12_v6 : Ref sig .tc := ⟨.hbm, 444, rfl⟩
abbrev main_call12_v7 : Ref sig .tc := ⟨.hbm, 445, rfl⟩
abbrev main_call12_cst_1 : Ref sig .tc := ⟨.hbm, 446, rfl⟩
abbrev main_call12_v8 : Ref sig .tc := ⟨.hbm, 447, rfl⟩
abbrev main_call12_cst_2 : Ref sig .tc := ⟨.hbm, 448, rfl⟩
abbrev main_call12_v9 : Ref sig .tc := ⟨.hbm, 449, rfl⟩
abbrev main_call12_v10 : Ref sig .tc := ⟨.hbm, 450, rfl⟩
abbrev main_call12_v11 : Ref sig .tc := ⟨.hbm, 451, rfl⟩
abbrev main_call12_cst_3 : Ref sig .tc := ⟨.hbm, 452, rfl⟩
abbrev main_call12_v12 : Ref sig .tc := ⟨.hbm, 453, rfl⟩
abbrev main_call12_cst_4 : Ref sig .tc := ⟨.hbm, 454, rfl⟩
abbrev main_call12_call0_v0 : Ref sig .tc := ⟨.hbm, 455, rfl⟩
abbrev main_call12_call0_v1 : Ref sig .tc := ⟨.hbm, 456, rfl⟩
abbrev main_v253 : Ref sig .tc := ⟨.hbm, 457, rfl⟩
abbrev main_v254 : Ref sig .tc := ⟨.hbm, 458, rfl⟩
abbrev main_v255 : Ref sig .tc := ⟨.hbm, 459, rfl⟩
abbrev main_v256 : Ref sig .tc := ⟨.hbm, 460, rfl⟩
abbrev main_cst_45 : Ref sig .tc := ⟨.hbm, 461, rfl⟩
abbrev main_v257 : Ref sig .tc := ⟨.hbm, 462, rfl⟩
abbrev main_v258 : Ref sig .tc := ⟨.hbm, 463, rfl⟩
abbrev main_v259 : Ref sig .tc := ⟨.hbm, 464, rfl⟩
abbrev main_v260 : Ref sig .tc := ⟨.hbm, 465, rfl⟩
abbrev main_v261 : Ref sig .tc := ⟨.hbm, 466, rfl⟩
abbrev main_v262 : Ref sig .tc := ⟨.hbm, 467, rfl⟩
abbrev main_v263 : Ref sig .tc := ⟨.hbm, 468, rfl⟩
abbrev main_v264 : Ref sig .tc := ⟨.hbm, 469, rfl⟩
abbrev main_v265 : Ref sig .tc := ⟨.hbm, 470, rfl⟩
abbrev main_v266 : Ref sig .tc := ⟨.hbm, 471, rfl⟩
abbrev main_v267 : Ref sig .tc := ⟨.hbm, 472, rfl⟩
abbrev main_v268 : Ref sig .tc := ⟨.hbm, 473, rfl⟩
abbrev main_v269 : Ref sig .tc := ⟨.hbm, 474, rfl⟩
abbrev main_v270 : Ref sig .tc := ⟨.hbm, 475, rfl⟩
abbrev main_v271 : Ref sig .tc := ⟨.hbm, 476, rfl⟩
abbrev main_v272 : Ref sig .tc := ⟨.hbm, 477, rfl⟩
abbrev main_v273 : Ref sig .tc := ⟨.hbm, 478, rfl⟩
abbrev main_v274 : Ref sig .tc := ⟨.hbm, 479, rfl⟩
abbrev main_v275 : Ref sig .tc := ⟨.hbm, 480, rfl⟩
abbrev main_v276 : Ref sig .tc := ⟨.hbm, 481, rfl⟩
abbrev main_call13_cst : Ref sig .tc := ⟨.hbm, 482, rfl⟩
abbrev main_call13_v0 : Ref sig .tc := ⟨.hbm, 483, rfl⟩
abbrev main_v277 : Ref sig .tc := ⟨.hbm, 484, rfl⟩
abbrev main_v278 : Ref sig .tc := ⟨.hbm, 485, rfl⟩
abbrev main_v279 : Ref sig .tc := ⟨.hbm, 486, rfl⟩
abbrev main_v280 : Ref sig .tc := ⟨.hbm, 487, rfl⟩
abbrev main_v281 : Ref sig .tc := ⟨.hbm, 488, rfl⟩
abbrev main_cst_46 : Ref sig .tc := ⟨.hbm, 489, rfl⟩
abbrev main_v282 : Ref sig .tc := ⟨.hbm, 490, rfl⟩
abbrev main_cst_47 : Ref sig .tc := ⟨.hbm, 491, rfl⟩
abbrev main_v283 : Ref sig .tc := ⟨.hbm, 492, rfl⟩
abbrev main_v284 : Ref sig .tc := ⟨.hbm, 493, rfl⟩
abbrev main_c_48 : Ref sig .tc := ⟨.hbm, 494, rfl⟩
abbrev main_call14_cst : Ref sig .tc := ⟨.hbm, 495, rfl⟩
abbrev main_call14_v0 : Ref sig .tc := ⟨.hbm, 496, rfl⟩
abbrev main_call14_v1 : Ref sig .tc := ⟨.hbm, 497, rfl⟩
abbrev main_call14_cst_0 : Ref sig .tc := ⟨.hbm, 498, rfl⟩
abbrev main_call14_v2 : Ref sig .tc := ⟨.hbm, 499, rfl⟩
abbrev main_call14_v3 : Ref sig .tc := ⟨.hbm, 500, rfl⟩
abbrev main_call14_v4 : Ref sig .tc := ⟨.hbm, 501, rfl⟩
abbrev main_call14_v5 : Ref sig .tc := ⟨.hbm, 502, rfl⟩
abbrev main_call14_v6 : Ref sig .tc := ⟨.hbm, 503, rfl⟩
abbrev main_call14_v7 : Ref sig .tc := ⟨.hbm, 504, rfl⟩
abbrev main_call14_cst_1 : Ref sig .tc := ⟨.hbm, 505, rfl⟩
abbrev main_call14_v8 : Ref sig .tc := ⟨.hbm, 506, rfl⟩
abbrev main_call14_cst_2 : Ref sig .tc := ⟨.hbm, 507, rfl⟩
abbrev main_call14_v9 : Ref sig .tc := ⟨.hbm, 508, rfl⟩
abbrev main_call14_v10 : Ref sig .tc := ⟨.hbm, 509, rfl⟩
abbrev main_call14_v11 : Ref sig .tc := ⟨.hbm, 510, rfl⟩
abbrev main_call14_cst_3 : Ref sig .tc := ⟨.hbm, 511, rfl⟩
abbrev main_call14_v12 : Ref sig .tc := ⟨.hbm, 512, rfl⟩
abbrev main_call14_cst_4 : Ref sig .tc := ⟨.hbm, 513, rfl⟩
abbrev main_call14_call0_v0 : Ref sig .tc := ⟨.hbm, 514, rfl⟩
abbrev main_call14_call0_v1 : Ref sig .tc := ⟨.hbm, 515, rfl⟩
abbrev main_v285 : Ref sig .tc := ⟨.hbm, 516, rfl⟩
abbrev main_v286 : Ref sig .tc := ⟨.hbm, 517, rfl⟩
abbrev main_v287 : Ref sig .tc := ⟨.hbm, 518, rfl⟩
abbrev main_v288 : Ref sig .tc := ⟨.hbm, 519, rfl⟩
abbrev main_cst_49 : Ref sig .tc := ⟨.hbm, 520, rfl⟩
abbrev main_v289 : Ref sig .tc := ⟨.hbm, 521, rfl⟩
abbrev main_v290 : Ref sig .tc := ⟨.hbm, 522, rfl⟩
abbrev main_v291 : Ref sig .tc := ⟨.hbm, 523, rfl⟩
abbrev main_v292 : Ref sig .tc := ⟨.hbm, 524, rfl⟩
abbrev main_v293 : Ref sig .tc := ⟨.hbm, 525, rfl⟩
abbrev main_v294 : Ref sig .tc := ⟨.hbm, 526, rfl⟩
abbrev main_v295 : Ref sig .tc := ⟨.hbm, 527, rfl⟩
abbrev main_v296 : Ref sig .tc := ⟨.hbm, 528, rfl⟩
abbrev main_v297 : Ref sig .tc := ⟨.hbm, 529, rfl⟩
abbrev main_v298 : Ref sig .tc := ⟨.hbm, 530, rfl⟩
abbrev main_v299 : Ref sig .tc := ⟨.hbm, 531, rfl⟩
abbrev main_v300 : Ref sig .tc := ⟨.hbm, 532, rfl⟩
abbrev main_v301 : Ref sig .tc := ⟨.hbm, 533, rfl⟩
abbrev main_v302 : Ref sig .tc := ⟨.hbm, 534, rfl⟩
abbrev main_v303 : Ref sig .tc := ⟨.hbm, 535, rfl⟩
abbrev main_v304 : Ref sig .tc := ⟨.hbm, 536, rfl⟩
abbrev main_v305 : Ref sig .tc := ⟨.hbm, 537, rfl⟩
abbrev main_v306 : Ref sig .tc := ⟨.hbm, 538, rfl⟩
abbrev main_v307 : Ref sig .tc := ⟨.hbm, 539, rfl⟩
abbrev main_v308 : Ref sig .tc := ⟨.hbm, 540, rfl⟩
abbrev main_call15_cst : Ref sig .tc := ⟨.hbm, 541, rfl⟩
abbrev main_call15_v0 : Ref sig .tc := ⟨.hbm, 542, rfl⟩
abbrev main_v309 : Ref sig .tc := ⟨.hbm, 543, rfl⟩
abbrev main_cst_50 : Ref sig .tc := ⟨.hbm, 544, rfl⟩
abbrev main_v310 : Ref sig .tc := ⟨.hbm, 545, rfl⟩
abbrev main_cst_51 : Ref sig .tc := ⟨.hbm, 546, rfl⟩
abbrev main_v311 : Ref sig .tc := ⟨.hbm, 547, rfl⟩
abbrev main_v312 : Ref sig .tc := ⟨.hbm, 548, rfl⟩
abbrev main_c_52 : Ref sig .tc := ⟨.hbm, 549, rfl⟩
abbrev main_call16_cst : Ref sig .tc := ⟨.hbm, 550, rfl⟩
abbrev main_call16_v0 : Ref sig .tc := ⟨.hbm, 551, rfl⟩
abbrev main_call16_v1 : Ref sig .tc := ⟨.hbm, 552, rfl⟩
abbrev main_call16_cst_0 : Ref sig .tc := ⟨.hbm, 553, rfl⟩
abbrev main_call16_v2 : Ref sig .tc := ⟨.hbm, 554, rfl⟩
abbrev main_call16_v3 : Ref sig .tc := ⟨.hbm, 555, rfl⟩
abbrev main_call16_v4 : Ref sig .tc := ⟨.hbm, 556, rfl⟩
abbrev main_call16_v5 : Ref sig .tc := ⟨.hbm, 557, rfl⟩
abbrev main_call16_v6 : Ref sig .tc := ⟨.hbm, 558, rfl⟩
abbrev main_call16_v7 : Ref sig .tc := ⟨.hbm, 559, rfl⟩
abbrev main_call16_cst_1 : Ref sig .tc := ⟨.hbm, 560, rfl⟩
abbrev main_call16_v8 : Ref sig .tc := ⟨.hbm, 561, rfl⟩
abbrev main_call16_cst_2 : Ref sig .tc := ⟨.hbm, 562, rfl⟩
abbrev main_call16_v9 : Ref sig .tc := ⟨.hbm, 563, rfl⟩
abbrev main_call16_v10 : Ref sig .tc := ⟨.hbm, 564, rfl⟩
abbrev main_call16_v11 : Ref sig .tc := ⟨.hbm, 565, rfl⟩
abbrev main_call16_cst_3 : Ref sig .tc := ⟨.hbm, 566, rfl⟩
abbrev main_call16_v12 : Ref sig .tc := ⟨.hbm, 567, rfl⟩
abbrev main_call16_cst_4 : Ref sig .tc := ⟨.hbm, 568, rfl⟩
abbrev main_call16_call0_v0 : Ref sig .tc := ⟨.hbm, 569, rfl⟩
abbrev main_call16_call0_v1 : Ref sig .tc := ⟨.hbm, 570, rfl⟩
abbrev main_v313 : Ref sig .tc := ⟨.hbm, 571, rfl⟩
abbrev main_v314 : Ref sig .tc := ⟨.hbm, 572, rfl⟩
abbrev main_v315 : Ref sig .tc := ⟨.hbm, 573, rfl⟩
abbrev main_v316 : Ref sig .tc := ⟨.hbm, 574, rfl⟩
abbrev main_cst_53 : Ref sig .tc := ⟨.hbm, 575, rfl⟩
abbrev main_v317 : Ref sig .tc := ⟨.hbm, 576, rfl⟩
abbrev main_v318 : Ref sig .tc := ⟨.hbm, 577, rfl⟩
abbrev main_v319 : Ref sig .tc := ⟨.hbm, 578, rfl⟩
abbrev main_v320 : Ref sig .tc := ⟨.hbm, 579, rfl⟩
abbrev main_v321 : Ref sig .tc := ⟨.hbm, 580, rfl⟩
abbrev main_v322 : Ref sig .tc := ⟨.hbm, 581, rfl⟩
abbrev main_v323 : Ref sig .tc := ⟨.hbm, 582, rfl⟩
abbrev main_v324 : Ref sig .tc := ⟨.hbm, 583, rfl⟩
abbrev main_v325 : Ref sig .tc := ⟨.hbm, 584, rfl⟩
abbrev main_v326 : Ref sig .tc := ⟨.hbm, 585, rfl⟩
abbrev main_v327 : Ref sig .tc := ⟨.hbm, 586, rfl⟩
abbrev main_v328 : Ref sig .tc := ⟨.hbm, 587, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S4x64_S1x64_0_0 : S4x64.Slices ![0, 0] S1x64
  shapeCasts_S1x64_S64 : S1x64.ShapeCasts S64
  slices_S4x64x64_S1x64x64_0_0_0 : S4x64x64.Slices ![0, 0, 0] S1x64x64
  shapeCasts_S1x64x64_S64x64 : S1x64x64.ShapeCasts S64x64
  bcast_S1700000x1_S1700000x64_0_1 : S1700000x1.BroadcastsInDim S1700000x64 (![0, 1] : Fin 2 → Fin S1700000x64.rank)
  slices_S4x64_S1x64_1_0 : S4x64.Slices ![1, 0] S1x64
  slices_S4x64x64_S1x64x64_1_0_0 : S4x64x64.Slices ![1, 0, 0] S1x64x64
  slices_S4x64_S1x64_2_0 : S4x64.Slices ![2, 0] S1x64
  slices_S4x64x64_S1x64x64_2_0_0 : S4x64x64.Slices ![2, 0, 0] S1x64x64
  slices_S4x64_S1x64_3_0 : S4x64.Slices ![3, 0] S1x64
  slices_S4x64x64_S1x64x64_3_0_0 : S4x64x64.Slices ![3, 0, 0] S1x64x64
  bcast_S_S512x64 : S_.BroadcastsInDim S512x64 (![] : Fin 0 → Fin S512x64.rank)
  bcast_S100000_S100000x1_0 : S100000.BroadcastsInDim S100000x1 (![0] : Fin 1 → Fin S100000x1.rank)
  slices_S2x64_S1x64_0_0 : S2x64.Slices ![0, 0] S1x64
  reducesTo_S512x64_S64_d0 : S512x64.ReducesTo [0] S64
  bcast_S1x64_S512x64_0_1 : S1x64.BroadcastsInDim S512x64 (![0, 1] : Fin 2 → Fin S512x64.rank)
  slices_S2x64x64_S1x64x64_0_0_0 : S2x64x64.Slices ![0, 0, 0] S1x64x64
  slices_S2x64_S1x64_1_0 : S2x64.Slices ![1, 0] S1x64
  slices_S2x64x64_S1x64x64_1_0_0 : S2x64x64.Slices ![1, 0, 0] S1x64x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S512x64_S100000x1_S100000x64_1_0_0_1_wf : ScatterDims.WF S512x64 S100000x1 S100000x64 [1] [0] [0] 1
  dot_S512x64_S64x64_S512x64_1_0_0_1_n_n_wf : DotDims.WF S512x64 S64x64 S512x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

class Facts : Prop extends Facts₀ where

variable [Facts]
-- ==== Proof.KRun.lean ====
/-
  The idealized kernel program's run with its result named: every weakly fair execution terminates, nothing faults,
  the result buffer ends at the last boundary's contents of it (the fold of the host stretches and of the twelve
  regions' write-backs from the launch memory) and the argument arrays end as launched.
-/
import proofs.«142600_j69965017252460_1_alg».proof.Proof.Gen.KernelIdeal.Frame

set_option maxRecDepth 16384

noncomputable section

namespace Cert.KernelIdeal.KValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run, with the result buffer read at the final boundary's contents. -/
theorem run : θ_run defs (onTc (τ := τ) (main (F := F))) ⟨m, fun _ => 0, ρ⟩ (fun r => ∀ c : Dev nD,
      r.2.mem ((c.tc : Thread nD τ).loc main_v225) = W44 m ρ c (Proc.devRef .tc main_v225)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W44 m ρ c b)
    (hfin := fun c s' => by
      iintro ⟨⟨Hh, -⟩, HSI⟩
      unfold StableHlo.held
      imodintro
      iapply (pointsTo_read_all (Pipeline.ucRefs τ sig) (fun b => (((c : Thread nD τ)).1, b)) (W44 m ρ c) s')
      isplitl [Hh] <;> iassumption)
    (hQ := fun s h c =>
      ⟨h c _ (mem_uc main_v225 (by decide)),
       (h c _ (mem_uc main_arg0 (by decide))).trans (W44_main_arg0 m ρ c),
       (h c _ (mem_uc main_arg1 (by decide))).trans (W44_main_arg1 m ρ c),
       (h c _ (mem_uc main_arg2 (by decide))).trans (W44_main_arg2 m ρ c),
       (h c _ (mem_uc main_arg3 (by decide))).trans (W44_main_arg3 m ρ c),
       (h c _ (mem_uc main_arg4 (by decide))).trans (W44_main_arg4 m ρ c),
       (h c _ (mem_uc main_arg5 (by decide))).trans (W44_main_arg5 m ρ c),
       (h c _ (mem_uc main_arg6 (by decide))).trans (W44_main_arg6 m ρ c),
       (h c _ (mem_uc main_arg7 (by decide))).trans (W44_main_arg7 m ρ c),
       (h c _ (mem_uc main_arg8 (by decide))).trans (W44_main_arg8 m ρ c),
       (h c _ (mem_uc main_arg9 (by decide))).trans (W44_main_arg9 m ρ c),
       (h c _ (mem_uc main_arg10 (by decide))).trans (W44_main_arg10 m ρ c),
       (h c _ (mem_uc main_arg11 (by decide))).trans (W44_main_arg11 m ρ c),
       (h c _ (mem_uc main_arg12 (by decide))).trans (W44_main_arg12 m ρ c),
       (h c _ (mem_uc main_arg13 (by decide))).trans (W44_main_arg13 m ρ c),
       (h c _ (mem_uc main_arg14 (by decide))).trans (W44_main_arg14 m ρ c),
       (h c _ (mem_uc main_arg15 (by decide))).trans (W44_main_arg15 m ρ c),
       (h c _ (mem_uc main_arg16 (by decide))).trans (W44_main_arg16 m ρ c)⟩)

end Cert.KernelIdeal.KValue

end
-- ==== Proof.RefPart0.lean ====
/-
  Stretch 0 of the reference program's 7 consecutive stretches of host operations, in program order, every called
  function's operations written out at the call over that call's own buffers, cut into consecutive pieces. The stretch
  run as one straight line is the program's own text for it; each piece hands its buffers on as pure terms of the
  contents it starts from.
-/
import proofs.«142600_j69965017252460_1_alg».proof.Proof.Gen.ReferenceIdeal
import Idealize.ShloMosaic.Lib.StableHlo.Run

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Piece 0. -/
abbrev piece0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.nullary main_cst_3 (constant S_ .f32 0x00000000#32),
    StableHlo.TRef.unary ((.of main_cst_2) : StableHlo.TRef sig ⟨S_, .f32⟩) main_call0.v0 (broadcastInDim S100000 ![] bcast_S_S100000),
    StableHlo.TRef.unary ((.of main_cst_3) : StableHlo.TRef sig ⟨S_, .f32⟩) main_call0.v1 (broadcastInDim S100000 ![] bcast_S_S100000),
    StableHlo.TRef.ternary ((.of main_v12) : StableHlo.TRef sig ⟨S100000, .i1⟩) main_call0.v0 main_call0.v1 main_call0.v2 select,
    StableHlo.nullary main_cst_4 (constant S_ .f32 0x00000000#32),
    StableHlo.unary main_cst_4 main_v14 (broadcastInDim S100000 ![] bcast_S_S100000 : (⟨S_, .f32⟩ : BufTy).Contents (Elt F) → (⟨S100000, .f32⟩ : BufTy).Contents (Elt F)),
    StableHlo.binary main_v10 main_v14 main_v15 (cmpf .ogt : (⟨S100000, .f32⟩ : BufTy).Contents (Elt F) → (⟨S100000, .f32⟩ : BufTy).Contents (Elt F) → (⟨S100000, .i1⟩ : BufTy).Contents (Elt F)),
    StableHlo.nullary main_cst_5 (constant S_ .f32 0x3F800000#32),
    StableHlo.TRef.unary ((.of main_cst_5) : StableHlo.TRef sig ⟨S_, .f32⟩) main_call1.v0 id,
    StableHlo.TRef.unary main_call1.v0 main_call1.v1 (broadcastInDim S100000 ![] bcast_S_S100000),
    StableHlo.TRef.ternary ((.of main_v15) : StableHlo.TRef sig ⟨S100000, .i1⟩) ((.of main_v10) : StableHlo.TRef sig ⟨S100000, .f32⟩) main_call1.v1 main_call1.v2 select,
    StableHlo.unary main_v16 main_v17 (Host.sqrt : (⟨S100000, .f32⟩ : BufTy).Contents (Elt F) → (⟨S100000, .f32⟩ : BufTy).Contents (Elt F)),
    StableHlo.unary main_v13 main_v18 (id : (⟨S100000, .f32⟩ : BufTy).Contents (Elt F) → (⟨S100000, .f32⟩ : BufTy).Contents (Elt F)),
    StableHlo.binary main_v18 main_v17 main_v19 (Host.divf : (⟨S100000, .f32⟩ : BufTy).Contents (Elt F) → (⟨S100000, .f32⟩ : BufTy).Contents (Elt F) → (⟨S100000, .f32⟩ : BufTy).Contents (Elt F)),
    StableHlo.nullary main_c (constantI S_ 32 0#32),
    StableHlo.unary main_c main_v20 (broadcastInDim S1700000 ![] bcast_S_S1700000 : (⟨S_, .i32⟩ : BufTy).Contents (Elt F) → (⟨S1700000, .i32⟩ : BufTy).Contents (Elt F)),
    StableHlo.binary main_v3 main_v20 main_v21 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v22 (broadcastInDim S1700000 ![] bcast_S_S1700000 : (⟨S_, .i32⟩ : BufTy).Contents (Elt F) → (⟨S1700000, .i32⟩ : BufTy).Contents (Elt F)),
    StableHlo.binary main_v3 main_v22 main_v23 (addi : (⟨S1700000, .i32⟩ : BufTy).Contents (Elt F) → (⟨S1700000, .i32⟩ : BufTy).Contents (Elt F) → (⟨S1700000, .i32⟩ : BufTy).Contents (Elt F)),
    StableHlo.ternary main_v21 main_v23 main_v3 main_v24 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v24 main_v25 (broadcastInDim S1700000x1 ![0] bcast_S1700000_S1700000x1_0 : (⟨S1700000, .i32⟩ : BufTy).Contents (Elt F) → (⟨S1700000x1, .i32⟩ : BufTy).Contents (Elt F)),
    StableHlo.binary main_v19 main_v25 main_v26 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_7 (constantI S_ 32 0#32),
    StableHlo.unary main_c_7 main_v27 (broadcastInDim S1700000 ![] bcast_S_S1700000 : (⟨S_, .i32⟩ : BufTy).Contents (Elt F) → (⟨S1700000, .i32⟩ : BufTy).Contents (Elt F)),
    StableHlo.binary main_v6 main_v27 main_v28 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v29 (broadcastInDim S1700000 ![] bcast_S_S1700000 : (⟨S_, .i32⟩ : BufTy).Contents (Elt F) → (⟨S1700000, .i32⟩ : BufTy).Contents (Elt F)),
    StableHlo.binary main_v6 main_v29 main_v30 (addi : (⟨S1700000, .i32⟩ : BufTy).Contents (Elt F) → (⟨S1700000, .i32⟩ : BufTy).Contents (Elt F) → (⟨S1700000, .i32⟩ : BufTy).Contents (Elt F)),
    StableHlo.ternary main_v28 main_v30 main_v6 main_v31 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v31 main_v32 (broadcastInDim S1700000x1 ![0] bcast_S1700000_S1700000x1_0 : (⟨S1700000, .i32⟩ : BufTy).Contents (Elt F) → (⟨S1700000x1, .i32⟩ : BufTy).Contents (Elt F)),
    StableHlo.binary main_v19 main_v32 main_v33 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v26 main_v33 main_v34 (mulf : (⟨S1700000, .f32⟩ : BufTy).Contents (Elt F) → (⟨S1700000, .f32⟩ : BufTy).Contents (Elt F) → (⟨S1700000, .f32⟩ : BufTy).Contents (Elt F)) ]
abbrev piece0_W : List (Ref sig .tc) := [main_v0, main_v1, main_v2, main_v3, main_v4, main_v5, main_v6, main_cst, main_v7, main_cst_0, main_v8, main_v9, main_v10, main_cst_1, main_v11, main_v12, main_cst_2, main_cst_3, main_call0_v0, main_call0_v1, main_v13, main_cst_4, main_v14, main_v15, main_cst_5, main_call1_v0, main_call1_v1, main_v16, main_v17, main_v18, main_v19, main_c, main_v20, main_v21, main_c_6, main_v22, main_v23, main_v24, main_v25, main_v26, main_c_7, main_v27, main_v28, main_c_8, main_v29, main_v30, main_v31, main_v32, main_v33, main_v34]
theorem piece0_writes : (piece0 : List (HloOp τ sig (Elt F))).Forall fun op => op.writes ⊆ (piece0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece0_keep (V : Valuation τ sig (Elt F)) (r : Ref sig .tc) (h : r ∉ piece0_W) :
    after piece0 V (Proc.devRef .tc r) = V (Proc.devRef .tc r) :=
  after_of_writes_sub piece0 V piece0_writes h
theorem piece0_sub : (piece0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem piece0_fresh : (piece0 : List (HloOp τ sig (Elt F))).Forall fun op => op.fresh = ∅ := by
  simp only [List.Forall]; repeat' constructor

theorem rv_main_v3 (V : Valuation τ sig (Elt F)) :
    after piece0 V (Proc.devRef .tc main_v3) = ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![0, 0] · slices_S2x1600000_S1x1600000_0_0) : (⟨S2x1600000, .i32⟩ : BufTy).Contents (Elt F) → (⟨S1x1600000, .i32⟩ : BufTy).Contents (Elt F))) (V (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) := by
  after_results_simp <;> rfl

theorem rv_main_v6 (V : Valuation τ sig (Elt F)) :
    after piece0 V (Proc.devRef .tc main_v6) = ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (V (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) := by
  after_results_simp <;> rfl

theorem rv_main_v34 (V : Valuation τ sig (Elt F)) :
    after piece0 V (Proc.devRef .tc main_v34) = (((mulf : (⟨S1700000, .f32⟩ : BufTy).Contents (Elt F) → (⟨S1700000, .f32⟩ : BufTy).Contents (Elt F) → (⟨S1700000, .f32⟩ : BufTy).Contents (Elt F))) ((((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))) (((Host.divf : (⟨S100000, .f32⟩ : BufTy).Contents (Elt F) → (⟨S100000, .f32⟩ : BufTy).Contents (Elt F) → (⟨S100000, .f32⟩ : BufTy).Contents (Elt F))) (((id : (⟨S100000, .f32⟩ : BufTy).Contents (Elt F) → (⟨S100000, .f32⟩ : BufTy).Contents (Elt F))) ((select) (((cmpf .ogt : (⟨S100000, .f32⟩ : BufTy).Contents (Elt F) → (⟨S100000, .f32⟩ : BufTy).Contents (Elt F) → (⟨S100000, .i1⟩ : BufTy).Contents (Elt F))) ((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (V (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000x1, .i32⟩ : BufTy).Contents (Elt F)) (((broadcastInDim S1700000 ![] bcast_S_S1700000 : (⟨S_, .f32⟩ : BufTy).Contents (Elt F) → (⟨S1700000, .f32⟩ : BufTy).Contents (Elt F))) ((constant S_ .f32 0x3F800000#32) : (⟨S_, .f32⟩ : BufTy).Contents (Elt F)) : (⟨S1700000, .f32⟩ : BufTy).Contents (Elt F)) : (⟨S100000, .f32⟩ : BufTy).Contents (Elt F)) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) : (⟨S100000, .i1⟩ : BufTy).Contents (Elt F)) (((broadcastInDim S100000 ![] bcast_S_S100000)) ((constant S_ .f32 0x3F800000#32) : (⟨S_, .f32⟩ : BufTy).Contents (Elt F)) : (⟨S100000, .f32⟩ : BufTy).Contents (Elt F)) (((broadcastInDim S100000 ![] bcast_S_S100000)) ((constant S_ .f32 0x00000000#32) : (⟨S_, .f32⟩ : BufTy).Contents (Elt F)) : (⟨S100000, .f32⟩ : BufTy).Contents (Elt F)) : (⟨S100000, .f32⟩ : BufTy).Contents (Elt F)) : (⟨S100000, .f32⟩ : BufTy).Contents (Elt F)) (((Host.sqrt : (⟨S100000, .f32⟩ : BufTy).Contents (Elt F) → (⟨S100000, .f32⟩ : BufTy).Contents (Elt F))) ((select) (((cmpf .ogt : (⟨S100000, .f32⟩ : BufTy).Contents (Elt F) → (⟨S100000, .f32⟩ : BufTy).Contents (Elt F) → (⟨S100000, .i1⟩ : BufTy).Contents (Elt F))) ((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (V (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000x1, .i32⟩ : BufTy).Contents (Elt F)) (((broadcastInDim S1700000 ![] bcast_S_S1700000 : (⟨S_, .f32⟩ : BufTy).Contents (Elt F) → (⟨S1700000, .f32⟩ : BufTy).Contents (Elt F))) ((constant S_ .f32 0x3F800000#32) : (⟨S_, .f32⟩ : BufTy).Contents (Elt F)) : (⟨S1700000, .f32⟩ : BufTy).Contents (Elt F)) : (⟨S100000, .f32⟩ : BufTy).Contents (Elt F)) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) : (⟨S100000, .i1⟩ : BufTy).Contents (Elt F)) ((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (V (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000x1, .i32⟩ : BufTy).Contents (Elt F)) (((broadcastInDim S1700000 ![] bcast_S_S1700000 : (⟨S_, .f32⟩ : BufTy).Contents (Elt F) → (⟨S1700000, .f32⟩ : BufTy).Contents (Elt F))) ((constant S_ .f32 0x3F800000#32) : (⟨S_, .f32⟩ : BufTy).Contents (Elt F)) : (⟨S1700000, .f32⟩ : BufTy).Contents (Elt F)) : (⟨S100000, .f32⟩ : BufTy).Contents (Elt F)) (((broadcastInDim S100000 ![] bcast_S_S100000)) ((id) ((constant S_ .f32 0x3F800000#32) : (⟨S_, .f32⟩ : BufTy).Contents (Elt F)) : (⟨S_, .f32⟩ : BufTy).Contents (Elt F)) : (⟨S100000, .f32⟩ : BufTy).Contents (Elt F)) : (⟨S100000, .f32⟩ : BufTy).Contents (Elt F)) : (⟨S100000, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![0, 0] · slices_S2x1600000_S1x1600000_0_0) : (⟨S2x1600000, .i32⟩ : BufTy).Contents (Elt F) → (⟨S1x1600000, .i32⟩ : BufTy).Contents (Elt F))) (V (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![0, 0] · slices_S2x1600000_S1x1600000_0_0) : (⟨S2x1600000, .i32⟩ : BufTy).Contents (Elt F) → (⟨S1x1600000, .i32⟩ : BufTy).Contents (Elt F))) (V (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![0, 0] · slices_S2x1600000_S1x1600000_0_0) : (⟨S2x1600000, .i32⟩ : BufTy).Contents (Elt F) → (⟨S1x1600000, .i32⟩ : BufTy).Contents (Elt F))) (V (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000, .i32⟩ : BufTy).Contents (Elt F)) : (⟨S1700000x1, .i32⟩ : BufTy).Contents (Elt F)) : (⟨S1700000, .f32⟩ : BufTy).Contents (Elt F)) ((((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))) (((Host.divf : (⟨S100000, .f32⟩ : BufTy).Contents (Elt F) → (⟨S100000, .f32⟩ : BufTy).Contents (Elt F) → (⟨S100000, .f32⟩ : BufTy).Contents (Elt F))) (((id : (⟨S100000, .f32⟩ : BufTy).Contents (Elt F) → (⟨S100000, .f32⟩ : BufTy).Contents (Elt F))) ((select) (((cmpf .ogt : (⟨S100000, .f32⟩ : BufTy).Contents (Elt F) → (⟨S100000, .f32⟩ : BufTy).Contents (Elt F) → (⟨S100000, .i1⟩ : BufTy).Contents (Elt F))) ((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (V (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000x1, .i32⟩ : BufTy).Contents (Elt F)) (((broadcastInDim S1700000 ![] bcast_S_S1700000 : (⟨S_, .f32⟩ : BufTy).Contents (Elt F) → (⟨S1700000, .f32⟩ : BufTy).Contents (Elt F))) ((constant S_ .f32 0x3F800000#32) : (⟨S_, .f32⟩ : BufTy).Contents (Elt F)) : (⟨S1700000, .f32⟩ : BufTy).Contents (Elt F)) : (⟨S100000, .f32⟩ : BufTy).Contents (Elt F)) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) : (⟨S100000, .i1⟩ : BufTy).Contents (Elt F)) (((broadcastInDim S100000 ![] bcast_S_S100000)) ((constant S_ .f32 0x3F800000#32) : (⟨S_, .f32⟩ : BufTy).Contents (Elt F)) : (⟨S100000, .f32⟩ : BufTy).Contents (Elt F)) (((broadcastInDim S100000 ![] bcast_S_S100000)) ((constant S_ .f32 0x00000000#32) : (⟨S_, .f32⟩ : BufTy).Contents (Elt F)) : (⟨S100000, .f32⟩ : BufTy).Contents (Elt F)) : (⟨S100000, .f32⟩ : BufTy).Contents (Elt F)) : (⟨S100000, .f32⟩ : BufTy).Contents (Elt F)) (((Host.sqrt : (⟨S100000, .f32⟩ : BufTy).Contents (Elt F) → (⟨S100000, .f32⟩ : BufTy).Contents (Elt F))) ((select) (((cmpf .ogt : (⟨S100000, .f32⟩ : BufTy).Contents (Elt F) → (⟨S100000, .f32⟩ : BufTy).Contents (Elt F) → (⟨S100000, .i1⟩ : BufTy).Contents (Elt F))) ((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (V (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000x1, .i32⟩ : BufTy).Contents (Elt F)) (((broadcastInDim S1700000 ![] bcast_S_S1700000 : (⟨S_, .f32⟩ : BufTy).Contents (Elt F) → (⟨S1700000, .f32⟩ : BufTy).Contents (Elt F))) ((constant S_ .f32 0x3F800000#32) : (⟨S_, .f32⟩ : BufTy).Contents (Elt F)) : (⟨S1700000, .f32⟩ : BufTy).Contents (Elt F)) : (⟨S100000, .f32⟩ : BufTy).Contents (Elt F)) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) : (⟨S100000, .i1⟩ : BufTy).Contents (Elt F)) ((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (V (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000x1, .i32⟩ : BufTy).Contents (Elt F)) (((broadcastInDim S1700000 ![] bcast_S_S1700000 : (⟨S_, .f32⟩ : BufTy).Contents (Elt F) → (⟨S1700000, .f32⟩ : BufTy).Contents (Elt F))) ((constant S_ .f32 0x3F800000#32) : (⟨S_, .f32⟩ : BufTy).Contents (Elt F)) : (⟨S1700000, .f32⟩ : BufTy).Contents (Elt F)) : (⟨S100000, .f32⟩ : BufTy).Contents (Elt F)) (((broadcastInDim S100000 ![] bcast_S_S100000)) ((id) ((constant S_ .f32 0x3F800000#32) : (⟨S_, .f32⟩ : BufTy).Contents (Elt F)) : (⟨S_, .f32⟩ : BufTy).Contents (Elt F)) : (⟨S100000, .f32⟩ : BufTy).Contents (Elt F)) : (⟨S100000, .f32⟩ : BufTy).Contents (Elt F)) : (⟨S100000, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (V (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (V (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (V (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000, .i32⟩ : BufTy).Contents (Elt F)) : (⟨S1700000x1, .i32⟩ : BufTy).Contents (Elt F)) : (⟨S1700000, .f32⟩ : BufTy).Contents (Elt F)) : (⟨S1700000, .f32⟩ : BufTy).Contents (Elt F)) := by
  after_results_simp <;> rfl

/-- Piece 1. -/
abbrev piece1 : List (HloOp τ sig (Elt F)) :=
  [ StableHlo.nullary main_cst_9 (constant S_ .f32 0x00000000#32),
    StableHlo.binary main_arg0 main_cst_9 main_v35 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_10 (constant S_ .f32 0x47C35000#32),
    StableHlo.unary main_cst_10 main_v36 (broadcastInDim S64 ![] bcast_S_S64 : (⟨S_, .f32⟩ : BufTy).Contents (Elt F) → (⟨S64, .f32⟩ : BufTy).Contents (Elt F)),
    StableHlo.binary main_v35 main_v36 main_v37 (Host.divf : (⟨S64, .f32⟩ : BufTy).Contents (Elt F) → (⟨S64, .f32⟩ : BufTy).Contents (Elt F) → (⟨S64, .f32⟩ : BufTy).Contents (Elt F)),
    StableHlo.nullary main_c_11 (constantI S_ 32 0#32),
    StableHlo.TRef.nullary main_call2.cst (constant S_ .f32 0x00000000#32),
    StableHlo.TRef.binary ((.of main_arg0) : StableHlo.TRef sig ⟨S100000x64, .f32⟩) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary ((.of main_arg0) : StableHlo.TRef sig ⟨S100000x64, .f32⟩) main_call2.v4 main_call2.v5 subf,
    StableHlo.TRef.binary main_call2.v5 main_call2.v5 main_call2.v6 mulf,
    StableHlo.TRef.unary ((.of main_c_11) : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary (main_call2.cst_4 : StableHlo.TRef sig ⟨S_, .f32⟩) main_call2.call0.v0 id,
    StableHlo.TRef.unary main_call2.call0.v0 main_call2.call0.v1 (broadcastInDim S64 ![] bcast_S_S64),
    StableHlo.TRef.ternary (main_call2.v12 : StableHlo.TRef sig ⟨S_, .i1⟩) (main_call2.v11 : StableHlo.TRef sig ⟨S64, .f32⟩) main_call2.call0.v1 main_call2.call0.v2 (fun p a b => select (broadcastInDim S64 ![] bcast_S_S64 p) a b),
    StableHlo.unary main_v37 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S100000x64 ![0, 1] bcast_S1x64_S100000x64_0_1 : (⟨S1x64, .f32⟩ : BufTy).Contents (Elt F) → (⟨S100000x64, .f32⟩ : BufTy).Contents (Elt F)),
    StableHlo.binary main_arg0 main_v40 main_v41 (subf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x3727C5AC#32),
    StableHlo.unary main_cst_12 main_v42 (broadcastInDim S64 ![] bcast_S_S64 : (⟨S_, .f32⟩ : BufTy).Contents (Elt F) → (⟨S64, .f32⟩ : BufTy).Contents (Elt F)),
    StableHlo.binary main_v38 main_v42 main_v43 (addf : (⟨S64, .f32⟩ : BufTy).Contents (Elt F) → (⟨S64, .f32⟩ : BufTy).Contents (Elt F) → (⟨S64, .f32⟩ : BufTy).Contents (Elt F)),
    StableHlo.unary main_v43 main_v44 (Host.rsqrt : (⟨S64, .f32⟩ : BufTy).Contents (Elt F) → (⟨S64, .f32⟩ : BufTy).Contents (Elt F)) ]
abbrev piece1_W : List (Ref sig .tc) := [main_cst_9, main_v35, main_cst_10, main_v36, main_v37, main_c_11, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v38, main_v39, main_v40, main_v41, main_cst_12, main_v42, main_v43, main_v44]
theorem piece1_writes : (piece1 : List (HloOp τ sig (Elt F))).Forall fun op => op.writes ⊆ (piece1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece1_keep (V : Valuation τ sig (Elt F)) (r : Ref sig .tc) (h : r ∉ piece1_W) :
    after piece1 V (Proc.devRef .tc r) = V (Proc.devRef .tc r) :=
  after_of_writes_sub piece1 V piece1_writes h
theorem piece1_sub : (piece1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub ..⟩
theorem piece1_fresh : (piece1 : List (HloOp τ sig (Elt F))).Forall fun op => op.fresh = ∅ := by
  simp only [List.Forall]; repeat' constructor

theorem rv_main_v41 (V : Valuation τ sig (Elt F)) :
    after piece1 V (Proc.devRef .tc main_v41) = (((subf : (⟨S100000x64, .f32⟩ : BufTy).Contents (Elt F) → (⟨S100000x64, .f32⟩ : BufTy).Contents (Elt F) → (⟨S100000x64, .f32⟩ : BufTy).Contents (Elt F))) (V (Proc.devRef .tc main_arg0) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.divf : (⟨S64, .f32⟩ : BufTy).Contents (Elt F) → (⟨S64, .f32⟩ : BufTy).Contents (Elt F) → (⟨S64, .f32⟩ : BufTy).Contents (Elt F))) ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (V (Proc.devRef .tc main_arg0) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x47C35000#32) : (⟨S_, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) := by
  after_results_simp <;> rfl

theorem rv_main_v44 (V : Valuation τ sig (Elt F)) :
    after piece1 V (Proc.devRef .tc main_v44) = (((Host.rsqrt : (⟨S64, .f32⟩ : BufTy).Contents (Elt F) → (⟨S64, .f32⟩ : BufTy).Contents (Elt F))) (((addf : (⟨S64, .f32⟩ : BufTy).Contents (Elt F) → (⟨S64, .f32⟩ : BufTy).Contents (Elt F) → (⟨S64, .f32⟩ : BufTy).Contents (Elt F))) (((fun p a b => select (broadcastInDim S64 ![] bcast_S_S64 p) a b)) (((cmpf .ogt)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (V (Proc.devRef .tc main_arg0) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_arg0) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (V (Proc.devRef .tc main_arg0) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_arg0) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x3727C5AC#32) : (⟨S_, .f32⟩ : BufTy).Contents (Elt F)) : (⟨S64, .f32⟩ : BufTy).Contents (Elt F)) : (⟨S64, .f32⟩ : BufTy).Contents (Elt F)) : (⟨S64, .f32⟩ : BufTy).Contents (Elt F)) := by
  after_results_simp <;> rfl

/-- The stretch's operations: its pieces in order. -/
abbrev opsP0 : List (HloOp τ sig (Elt F)) := piece0 ++ piece1

set_option maxRecDepth 65536 in
set_option maxHeartbeats 4000000 in
/-- The stretch is that straight line: the called functions unfolded at their calls, sequencing reassociated. -/
theorem part0_eq (c : Dev nD) : main_part0 (F := F) c = seq opsP0 := by
  simp only [main_part0, fn_where.body, fn_where_0.body, fn_where_1.body, fn_var.body, fn_relu.body, fn_var_2.body, fn_var_3.body, fn_relu_4.body, seq, bind_assoc, pure_bind]
  rfl

end Cert.ReferenceIdeal.RefValue

end
-- ==== Proof.RefPart1.lean ====
/-
  Stretch 1 of the reference program's 7 consecutive stretches of host operations, in program order, every called
  function's operations written out at the call over that call's own buffers, cut into consecutive pieces. The stretch
  run as one straight line is the program's own text for it; each piece hands its buffers on as pure terms of the
  contents it starts from.
-/
import proofs.«142600_j69965017252460_1_alg».proof.Proof.Gen.ReferenceIdeal
import Idealize.ShloMosaic.Lib.StableHlo.Run

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Piece 2. -/
abbrev piece2 : List (HloOp τ sig (Elt F)) :=
  [ StableHlo.unary main_v44 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v41 main_v46 main_v47 (mulf : (⟨S100000x64, .f32⟩ : BufTy).Contents (Elt F) → (⟨S100000x64, .f32⟩ : BufTy).Contents (Elt F) → (⟨S100000x64, .f32⟩ : BufTy).Contents (Elt F)),
    StableHlo.unary main_arg3 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S100000x64 ![0, 1] bcast_S1x64_S100000x64_0_1 : (⟨S1x64, .f32⟩ : BufTy).Contents (Elt F) → (⟨S100000x64, .f32⟩ : BufTy).Contents (Elt F)),
    StableHlo.binary main_v47 main_v49 main_v50 (mulf : (⟨S100000x64, .f32⟩ : BufTy).Contents (Elt F) → (⟨S100000x64, .f32⟩ : BufTy).Contents (Elt F) → (⟨S100000x64, .f32⟩ : BufTy).Contents (Elt F)),
    StableHlo.unary main_arg4 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v52 main_v53 (addf : (⟨S100000x64, .f32⟩ : BufTy).Contents (Elt F) → (⟨S100000x64, .f32⟩ : BufTy).Contents (Elt F) → (⟨S100000x64, .f32⟩ : BufTy).Contents (Elt F)),
    StableHlo.binary main_v53 main_arg5 main_v54 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v54 main_v56 main_v57 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary ((.of main_v57) : StableHlo.TRef sig ⟨S100000x64, .f32⟩) main_call3.v0 main_call3.v1 maximumf ]
abbrev piece2_W : List (Ref sig .tc) := [main_v45, main_v46, main_v47, main_v48, main_v49, main_v50, main_v51, main_v52, main_v53, main_v54, main_v55, main_v56, main_v57, main_call3_cst, main_call3_v0, main_v58]
theorem piece2_writes : (piece2 : List (HloOp τ sig (Elt F))).Forall fun op => op.writes ⊆ (piece2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece2_keep (V : Valuation τ sig (Elt F)) (r : Ref sig .tc) (h : r ∉ piece2_W) :
    after piece2 V (Proc.devRef .tc r) = V (Proc.devRef .tc r) :=
  after_of_writes_sub piece2 V piece2_writes h
theorem piece2_sub : (piece2 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
theorem piece2_fresh : (piece2 : List (HloOp τ sig (Elt F))).Forall fun op => op.fresh = ∅ := by
  simp only [List.Forall]; repeat' constructor

theorem rv_main_v58 (V : Valuation τ sig (Elt F)) :
    after piece2 V (Proc.devRef .tc main_v58) = ((maximumf) (((addf : (⟨S100000x64, .f32⟩ : BufTy).Contents (Elt F) → (⟨S100000x64, .f32⟩ : BufTy).Contents (Elt F) → (⟨S100000x64, .f32⟩ : BufTy).Contents (Elt F))) ((((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))) (((addf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (V (Proc.devRef .tc main_v41) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (V (Proc.devRef .tc main_v44) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (V (Proc.devRef .tc main_arg3) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (V (Proc.devRef .tc main_arg4) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (V (Proc.devRef .tc main_arg5) : (⟨S64x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (V (Proc.devRef .tc main_arg6) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![] bcast_S_S100000x64)) ((constant S_ .f32 0x00000000#32) : (⟨S_, .f32⟩ : BufTy).Contents (Elt F)) : (⟨S100000x64, .f32⟩ : BufTy).Contents (Elt F)) : (⟨S100000x64, .f32⟩ : BufTy).Contents (Elt F)) := by
  after_results_simp <;> rfl

/-- Piece 3. -/
abbrev piece3 : List (HloOp τ sig (Elt F)) :=
  [ StableHlo.unary main_arg7 main_v59 ((extractStridedSlice S1x64 ![0, 0] · slices_S4x64_S1x64_0_0) : (⟨S4x64, .f32⟩ : BufTy).Contents (Elt F) → (⟨S1x64, .f32⟩ : BufTy).Contents (Elt F)),
    StableHlo.reshape main_v59 main_v60 rfl shapeCasts_S1x64_S64,
    StableHlo.unary main_arg8 main_v61 ((extractStridedSlice S1x64 ![0, 0] · slices_S4x64_S1x64_0_0) : (⟨S4x64, .f32⟩ : BufTy).Contents (Elt F) → (⟨S1x64, .f32⟩ : BufTy).Contents (Elt F)),
    StableHlo.reshape main_v61 main_v62 rfl shapeCasts_S1x64_S64,
    StableHlo.nullary main_cst_13 (constant S_ .f32 0x00000000#32),
    StableHlo.binary main_v58 main_cst_13 main_v63 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_14 (constant S_ .f32 0x47C35000#32),
    StableHlo.unary main_cst_14 main_v64 (broadcastInDim S64 ![] bcast_S_S64 : (⟨S_, .f32⟩ : BufTy).Contents (Elt F) → (⟨S64, .f32⟩ : BufTy).Contents (Elt F)),
    StableHlo.binary main_v63 main_v64 main_v65 (Host.divf : (⟨S64, .f32⟩ : BufTy).Contents (Elt F) → (⟨S64, .f32⟩ : BufTy).Contents (Elt F) → (⟨S64, .f32⟩ : BufTy).Contents (Elt F)),
    StableHlo.nullary main_c_15 (constantI S_ 32 0#32),
    StableHlo.TRef.nullary main_call4.cst (constant S_ .f32 0x00000000#32),
    StableHlo.TRef.binary ((.of main_v58) : StableHlo.TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary ((.of main_v58) : StableHlo.TRef sig ⟨S100000x64, .f32⟩) main_call4.v4 main_call4.v5 subf,
    StableHlo.TRef.binary main_call4.v5 main_call4.v5 main_call4.v6 mulf,
    StableHlo.TRef.unary ((.of main_c_15) : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary (main_call4.cst_4 : StableHlo.TRef sig ⟨S_, .f32⟩) main_call4.call0.v0 id,
    StableHlo.TRef.unary main_call4.call0.v0 main_call4.call0.v1 (broadcastInDim S64 ![] bcast_S_S64),
    StableHlo.TRef.ternary (main_call4.v12 : StableHlo.TRef sig ⟨S_, .i1⟩) (main_call4.v11 : StableHlo.TRef sig ⟨S64, .f32⟩) main_call4.call0.v1 main_call4.call0.v2 (fun p a b => select (broadcastInDim S64 ![] bcast_S_S64 p) a b),
    StableHlo.unary main_v65 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S100000x64 ![0, 1] bcast_S1x64_S100000x64_0_1 : (⟨S1x64, .f32⟩ : BufTy).Contents (Elt F) → (⟨S100000x64, .f32⟩ : BufTy).Contents (Elt F)),
    StableHlo.binary main_v58 main_v68 main_v69 (subf : (⟨S100000x64, .f32⟩ : BufTy).Contents (Elt F) → (⟨S100000x64, .f32⟩ : BufTy).Contents (Elt F) → (⟨S100000x64, .f32⟩ : BufTy).Contents (Elt F)),
    StableHlo.nullary main_cst_16 (constant S_ .f32 0x3727C5AC#32),
    StableHlo.unary main_cst_16 main_v70 (broadcastInDim S64 ![] bcast_S_S64 : (⟨S_, .f32⟩ : BufTy).Contents (Elt F) → (⟨S64, .f32⟩ : BufTy).Contents (Elt F)),
    StableHlo.binary main_v66 main_v70 main_v71 (addf : (⟨S64, .f32⟩ : BufTy).Contents (Elt F) → (⟨S64, .f32⟩ : BufTy).Contents (Elt F) → (⟨S64, .f32⟩ : BufTy).Contents (Elt F)),
    StableHlo.unary main_v71 main_v72 (Host.rsqrt : (⟨S64, .f32⟩ : BufTy).Contents (Elt F) → (⟨S64, .f32⟩ : BufTy).Contents (Elt F)),
    StableHlo.unary main_v72 main_v73 (broadcastInDim S1x64 ![1] bcast_S64_S1x64_1 : (⟨S64, .f32⟩ : BufTy).Contents (Elt F) → (⟨S1x64, .f32⟩ : BufTy).Contents (Elt F)),
    StableHlo.unary main_v73 main_v74 (broadcastInDim S100000x64 ![0, 1] bcast_S1x64_S100000x64_0_1 : (⟨S1x64, .f32⟩ : BufTy).Contents (Elt F) → (⟨S100000x64, .f32⟩ : BufTy).Contents (Elt F)),
    StableHlo.binary main_v69 main_v74 main_v75 (mulf : (⟨S100000x64, .f32⟩ : BufTy).Contents (Elt F) → (⟨S100000x64, .f32⟩ : BufTy).Contents (Elt F) → (⟨S100000x64, .f32⟩ : BufTy).Contents (Elt F)),
    StableHlo.unary main_v60 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S100000x64 ![0, 1] bcast_S1x64_S100000x64_0_1 : (⟨S1x64, .f32⟩ : BufTy).Contents (Elt F) → (⟨S100000x64, .f32⟩ : BufTy).Contents (Elt F)),
    StableHlo.binary main_v75 main_v77 main_v78 (mulf : (⟨S100000x64, .f32⟩ : BufTy).Contents (Elt F) → (⟨S100000x64, .f32⟩ : BufTy).Contents (Elt F) → (⟨S100000x64, .f32⟩ : BufTy).Contents (Elt F)),
    StableHlo.unary main_v62 main_v79 (broadcastInDim S1x64 ![1] bcast_S64_S1x64_1 : (⟨S64, .f32⟩ : BufTy).Contents (Elt F) → (⟨S1x64, .f32⟩ : BufTy).Contents (Elt F)),
    StableHlo.unary main_v79 main_v80 (broadcastInDim S100000x64 ![0, 1] bcast_S1x64_S100000x64_0_1 : (⟨S1x64, .f32⟩ : BufTy).Contents (Elt F) → (⟨S100000x64, .f32⟩ : BufTy).Contents (Elt F)),
    StableHlo.binary main_v78 main_v80 main_v81 (addf : (⟨S100000x64, .f32⟩ : BufTy).Contents (Elt F) → (⟨S100000x64, .f32⟩ : BufTy).Contents (Elt F) → (⟨S100000x64, .f32⟩ : BufTy).Contents (Elt F)),
    StableHlo.unary main_arg9 main_v82 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v82 main_v83 rfl shapeCasts_S1x64x64_S64x64,
    StableHlo.binary main_v81 main_v83 main_v84 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
abbrev piece3_W : List (Ref sig .tc) := [main_v59, main_v60, main_v61, main_v62, main_cst_13, main_v63, main_cst_14, main_v64, main_v65, main_c_15, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v66, main_v67, main_v68, main_v69, main_cst_16, main_v70, main_v71, main_v72, main_v73, main_v74, main_v75, main_v76, main_v77, main_v78, main_v79, main_v80, main_v81, main_v82, main_v83, main_v84]
theorem piece3_writes : (piece3 : List (HloOp τ sig (Elt F))).Forall fun op => op.writes ⊆ (piece3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece3_keep (V : Valuation τ sig (Elt F)) (r : Ref sig .tc) (h : r ∉ piece3_W) :
    after piece3 V (Proc.devRef .tc r) = V (Proc.devRef .tc r) :=
  after_of_writes_sub piece3 V piece3_writes h
theorem piece3_sub : (piece3 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub ..⟩
theorem piece3_fresh : (piece3 : List (HloOp τ sig (Elt F))).Forall fun op => op.fresh = ∅ := by
  simp only [List.Forall]; repeat' constructor

theorem rv_main_v84 (V : Valuation τ sig (Elt F)) :
    after piece3 V (Proc.devRef .tc main_v84) = ((((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))) (((addf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((subf : (⟨S100000x64, .f32⟩ : BufTy).Contents (Elt F) → (⟨S100000x64, .f32⟩ : BufTy).Contents (Elt F) → (⟨S100000x64, .f32⟩ : BufTy).Contents (Elt F))) (V (Proc.devRef .tc main_v58) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.divf : (⟨S64, .f32⟩ : BufTy).Contents (Elt F) → (⟨S64, .f32⟩ : BufTy).Contents (Elt F) → (⟨S64, .f32⟩ : BufTy).Contents (Elt F))) ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (V (Proc.devRef .tc main_v58) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x47C35000#32) : (⟨S_, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.rsqrt : (⟨S64, .f32⟩ : BufTy).Contents (Elt F) → (⟨S64, .f32⟩ : BufTy).Contents (Elt F))) (((addf : (⟨S64, .f32⟩ : BufTy).Contents (Elt F) → (⟨S64, .f32⟩ : BufTy).Contents (Elt F) → (⟨S64, .f32⟩ : BufTy).Contents (Elt F))) (((fun p a b => select (broadcastInDim S64 ![] bcast_S_S64 p) a b)) (((cmpf .ogt)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (V (Proc.devRef .tc main_v58) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_v58) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (V (Proc.devRef .tc main_v58) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_v58) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x3727C5AC#32) : (⟨S_, .f32⟩ : BufTy).Contents (Elt F)) : (⟨S64, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![0, 0] · slices_S4x64_S1x64_0_0) : (⟨S4x64, .f32⟩ : BufTy).Contents (Elt F) → (⟨S1x64, .f32⟩ : BufTy).Contents (Elt F))) (V (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![0, 0] · slices_S4x64_S1x64_0_0) : (⟨S4x64, .f32⟩ : BufTy).Contents (Elt F) → (⟨S1x64, .f32⟩ : BufTy).Contents (Elt F))) (V (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (shapeCast S64x64 ((((extractStridedSlice S1x64x64 ![0, 0, 0] · slices_S4x64x64_S1x64x64_0_0_0) : (⟨S4x64x64, .f32⟩ : BufTy).Contents (Elt F) → (⟨S1x64x64, .f32⟩ : BufTy).Contents (Elt F))) (V (Proc.devRef .tc main_arg9) : (⟨S4x64x64, .f32⟩ : BufTy).Contents (Elt F)) : (⟨S1x64x64, .f32⟩ : BufTy).Contents (Elt F)) shapeCasts_S1x64x64_S64x64 : (⟨S64x64, .f32⟩ : BufTy).Contents (Elt F)) : (⟨S100000x64, .f32⟩ : BufTy).Contents (Elt F)) := by
  after_results_simp <;> rfl

/-- Piece 4. -/
abbrev piece4 : List (HloOp τ sig (Elt F)) :=
  [ StableHlo.unary main_v34 main_v85 (broadcastInDim S1700000x1 ![0] bcast_S1700000_S1700000x1_0 : (⟨S1700000, .f32⟩ : BufTy).Contents (Elt F) → (⟨S1700000x1, .f32⟩ : BufTy).Contents (Elt F)),
    StableHlo.nullary main_c_17 (constantI S_ 32 0#32),
    StableHlo.unary main_c_17 main_v86 (broadcastInDim S1700000 ![] bcast_S_S1700000 : (⟨S_, .i32⟩ : BufTy).Contents (Elt F) → (⟨S1700000, .i32⟩ : BufTy).Contents (Elt F)),
    StableHlo.binary main_v3 main_v86 main_v87 (cmpi .slt : (⟨S1700000, .i32⟩ : BufTy).Contents (Elt F) → (⟨S1700000, .i32⟩ : BufTy).Contents (Elt F) → (⟨S1700000, .i1⟩ : BufTy).Contents (Elt F)),
    StableHlo.nullary main_c_18 (constantI S_ 32 100000#32),
    StableHlo.unary main_c_18 main_v88 (broadcastInDim S1700000 ![] bcast_S_S1700000 : (⟨S_, .i32⟩ : BufTy).Contents (Elt F) → (⟨S1700000, .i32⟩ : BufTy).Contents (Elt F)),
    StableHlo.binary main_v3 main_v88 main_v89 (addi : (⟨S1700000, .i32⟩ : BufTy).Contents (Elt F) → (⟨S1700000, .i32⟩ : BufTy).Contents (Elt F) → (⟨S1700000, .i32⟩ : BufTy).Contents (Elt F)),
    StableHlo.ternary main_v87 main_v89 main_v3 main_v90 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v90 main_v91 (broadcastInDim S1700000x1 ![0] bcast_S1700000_S1700000x1_0 : (⟨S1700000, .i32⟩ : BufTy).Contents (Elt F) → (⟨S1700000x1, .i32⟩ : BufTy).Contents (Elt F)),
    StableHlo.binary main_v84 main_v91 main_v92 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v85 main_v93 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v93 main_v92 main_v94 (mulf : (⟨S1700000x64, .f32⟩ : BufTy).Contents (Elt F) → (⟨S1700000x64, .f32⟩ : BufTy).Contents (Elt F) → (⟨S1700000x64, .f32⟩ : BufTy).Contents (Elt F)),
    StableHlo.nullary main_cst_19 (constant S_ .f32 0x00000000#32),
    StableHlo.unary main_cst_19 main_v95 (broadcastInDim S100000x64 ![] bcast_S_S100000x64 : (⟨S_, .f32⟩ : BufTy).Contents (Elt F) → (⟨S100000x64, .f32⟩ : BufTy).Contents (Elt F)),
    StableHlo.unary main_v6 main_v96 (broadcastInDim S1700000x1 ![0] bcast_S1700000_S1700000x1_0 : (⟨S1700000, .i32⟩ : BufTy).Contents (Elt F) → (⟨S1700000x1, .i32⟩ : BufTy).Contents (Elt F)),
    StableHlo.ternary main_v95 main_v96 main_v94 main_v97 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]
abbrev piece4_W : List (Ref sig .tc) := [main_v85, main_c_17, main_v86, main_v87, main_c_18, main_v88, main_v89, main_v90, main_v91, main_v92, main_v93, main_v94, main_cst_19, main_v95, main_v96, main_v97]
theorem piece4_writes : (piece4 : List (HloOp τ sig (Elt F))).Forall fun op => op.writes ⊆ (piece4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece4_keep (V : Valuation τ sig (Elt F)) (r : Ref sig .tc) (h : r ∉ piece4_W) :
    after piece4 V (Proc.devRef .tc r) = V (Proc.devRef .tc r) :=
  after_of_writes_sub piece4 V piece4_writes h
theorem piece4_sub : (piece4 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem piece4_fresh : (piece4 : List (HloOp τ sig (Elt F))).Forall fun op => op.fresh = ∅ := by
  simp only [List.Forall]; repeat' constructor

theorem rv_main_v97 (V : Valuation τ sig (Elt F)) :
    after piece4 V (Proc.devRef .tc main_v97) = ((((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))) (((broadcastInDim S100000x64 ![] bcast_S_S100000x64 : (⟨S_, .f32⟩ : BufTy).Contents (Elt F) → (⟨S100000x64, .f32⟩ : BufTy).Contents (Elt F))) ((constant S_ .f32 0x00000000#32) : (⟨S_, .f32⟩ : BufTy).Contents (Elt F)) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (V (Proc.devRef .tc main_v6) : (⟨S1700000, .i32⟩ : BufTy).Contents (Elt F)) : (⟨S1700000x1, .i32⟩ : BufTy).Contents (Elt F)) (((mulf : (⟨S1700000x64, .f32⟩ : BufTy).Contents (Elt F) → (⟨S1700000x64, .f32⟩ : BufTy).Contents (Elt F) → (⟨S1700000x64, .f32⟩ : BufTy).Contents (Elt F))) (((broadcastInDim S1700000x64 ![0, 1] bcast_S1700000x1_S1700000x64_0_1 : (⟨S1700000x1, .f32⟩ : BufTy).Contents (Elt F) → (⟨S1700000x64, .f32⟩ : BufTy).Contents (Elt F))) (((broadcastInDim S1700000x1 ![0] bcast_S1700000_S1700000x1_0 : (⟨S1700000, .f32⟩ : BufTy).Contents (Elt F) → (⟨S1700000x1, .f32⟩ : BufTy).Contents (Elt F))) (V (Proc.devRef .tc main_v34) : (⟨S1700000, .f32⟩ : BufTy).Contents (Elt F)) : (⟨S1700000x1, .f32⟩ : BufTy).Contents (Elt F)) : (⟨S1700000x64, .f32⟩ : BufTy).Contents (Elt F)) ((((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))) (V (Proc.devRef .tc main_v84) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (V (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (V (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (V (Proc.devRef .tc main_v3) : (⟨S1700000, .i32⟩ : BufTy).Contents (Elt F)) : (⟨S1700000, .i32⟩ : BufTy).Contents (Elt F)) : (⟨S1700000x1, .i32⟩ : BufTy).Contents (Elt F)) : (⟨S1700000x64, .f32⟩ : BufTy).Contents (Elt F)) : (⟨S1700000x64, .f32⟩ : BufTy).Contents (Elt F)) : (⟨S100000x64, .f32⟩ : BufTy).Contents (Elt F)) := by
  after_results_simp <;> rfl

/-- The stretch's operations: its pieces in order. -/
abbrev opsP1 : List (HloOp τ sig (Elt F)) := piece2 ++ piece3 ++ piece4

set_option maxRecDepth 65536 in
set_option maxHeartbeats 4000000 in
/-- The stretch is that straight line: the called functions unfolded at their calls, sequencing reassociated. -/
theorem part1_eq (c : Dev nD) : main_part1 (F := F) c = seq opsP1 := by
  simp only [main_part1, fn_where.body, fn_where_0.body, fn_where_1.body, fn_var.body, fn_relu.body, fn_var_2.body, fn_var_3.body, fn_relu_4.body, seq, bind_assoc, pure_bind]
  rfl

end Cert.ReferenceIdeal.RefValue

end
-- ==== Proof.RefPart2.lean ====
/-
  Stretch 2 of the reference program's 7 consecutive stretches of host operations, in program order, every called
  function's operations written out at the call over that call's own buffers, cut into consecutive pieces. The stretch
  run as one straight line is the program's own text for it; each piece hands its buffers on as pure terms of the
  contents it starts from.
-/
import proofs.«142600_j69965017252460_1_alg».proof.Proof.Gen.ReferenceIdeal
import Idealize.ShloMosaic.Lib.StableHlo.Run

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Piece 5. -/
abbrev piece5 : List (HloOp τ sig (Elt F)) :=
  [ StableHlo.unary main_arg10 main_v98 ((extractStridedSlice S1x64 ![0, 0] · slices_S4x64_S1x64_0_0) : (⟨S4x64, .f32⟩ : BufTy).Contents (Elt F) → (⟨S1x64, .f32⟩ : BufTy).Contents (Elt F)),
    StableHlo.reshape main_v98 main_v99 rfl shapeCasts_S1x64_S64,
    StableHlo.unary main_v99 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S100000x64 ![0, 1] bcast_S1x64_S100000x64_0_1 : (⟨S1x64, .f32⟩ : BufTy).Contents (Elt F) → (⟨S100000x64, .f32⟩ : BufTy).Contents (Elt F)),
    StableHlo.binary main_v97 main_v101 main_v102 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary ((.of main_v102) : StableHlo.TRef sig ⟨S100000x64, .f32⟩) main_call5.v0 main_call5.v1 maximumf,
    StableHlo.binary main_v58 main_v103 main_v104 (addf : (⟨S100000x64, .f32⟩ : BufTy).Contents (Elt F) → (⟨S100000x64, .f32⟩ : BufTy).Contents (Elt F) → (⟨S100000x64, .f32⟩ : BufTy).Contents (Elt F)) ]
abbrev piece5_W : List (Ref sig .tc) := [main_v98, main_v99, main_v100, main_v101, main_v102, main_call5_cst, main_call5_v0, main_v103, main_v104]
theorem piece5_writes : (piece5 : List (HloOp τ sig (Elt F))).Forall fun op => op.writes ⊆ (piece5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece5_keep (V : Valuation τ sig (Elt F)) (r : Ref sig .tc) (h : r ∉ piece5_W) :
    after piece5 V (Proc.devRef .tc r) = V (Proc.devRef .tc r) :=
  after_of_writes_sub piece5 V piece5_writes h
theorem piece5_sub : (piece5 : List (HloOp τ sig (Elt F))).Forall fun op => op.bufs ⊆ tcRefs τ sig :=
  ⟨unary_bufs_sub .., reshape_bufs_sub .., unary_bufs_sub .., unary_bufs_sub .., binary_bufs_sub .., nullary_bufs_sub .., unary_bufs_sub .., binary_bufs_sub .., binary_bufs_sub ..⟩
theorem piece5_fresh : (piece5 : List (HloOp τ sig (Elt F))).Forall fun op => op.fresh = ∅ := by
  simp only [List.Forall]; repeat' constructor

theorem rv_main_v104 (V : Valuation τ sig (Elt F)) :
    after piece5 V (Proc.devRef .tc main_v104) = (((addf : (⟨S100000x64, .f32⟩ : BufTy).Contents (Elt F) → (⟨S100000x64, .f32⟩ : BufTy).Contents (Elt F) → (⟨S100000x64, .f32⟩ : BufTy).Contents (Elt F))) (V (Proc.devRef .tc main_v58) : (⟨S100000x64, .f32⟩ : BufTy).Contents (Elt F)) ((maximumf) (((addf : (⟨S100000x64, .f32⟩ : BufTy).Contents (Elt F) → (⟨S100000x64, .f32⟩ : BufTy).Contents (Elt F) → (⟨S100000x64, .f32⟩ : BufTy).Contents (Elt F))) (V (Proc.devRef .tc main_v97) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![0, 0] · slices_S4x64_S1x64_0_0) : (⟨S4x64, .f32⟩ : BufTy).Contents (Elt F) → (⟨S1x64, .f32⟩ : BufTy).Contents (Elt F))) (V (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![] bcast_S_S100000x64)) ((constant S_ .f32 0x00000000#32) : (⟨S_, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) := by
  after_results_simp <;> rfl

/-- Piece 6. -/
abbrev piece6 : List (HloOp τ sig (Elt F)) :=
  [ StableHlo.unary main_arg7 main_v105 ((extractStridedSlice S1x64 ![1, 0] · slices_S4x64_S1x64_1_0) : (⟨S4x64, .f32⟩ : BufTy).Contents (Elt F) → (⟨S1x64, .f32⟩ : BufTy).Contents (Elt F)),
    StableHlo.reshape main_v105 main_v106 rfl shapeCasts_S1x64_S64,
    StableHlo.unary main_arg8 main_v107 ((extractStridedSlice S1x64 ![1, 0] · slices_S4x64_S1x64_1_0) : (⟨S4x64, .f32⟩ : BufTy).Contents (Elt F) → (⟨S1x64, .f32⟩ : BufTy).Contents (Elt F)),
    StableHlo.reshape main_v107 main_v108 rfl shapeCasts_S1x64_S64,
    StableHlo.nullary main_cst_20 (constant S_ .f32 0x00000000#32),
    StableHlo.binary main_v104 main_cst_20 main_v109 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_21 (constant S_ .f32 0x47C35000#32),
    StableHlo.unary main_cst_21 main_v110 (broadcastInDim S64 ![] bcast_S_S64 : (⟨S_, .f32⟩ : BufTy).Contents (Elt F) → (⟨S64, .f32⟩ : BufTy).Contents (Elt F)),
    StableHlo.binary main_v109 main_v110 main_v111 (Host.divf : (⟨S64, .f32⟩ : BufTy).Contents (Elt F) → (⟨S64, .f32⟩ : BufTy).Contents (Elt F) → (⟨S64, .f32⟩ : BufTy).Contents (Elt F)),
    StableHlo.nullary main_c_22 (constantI S_ 32 0#32),
    StableHlo.TRef.nullary main_call6.cst (constant S_ .f32 0x00000000#32),
    StableHlo.TRef.binary ((.of main_v104) : StableHlo.TRef sig ⟨S100000x64, .f32⟩) main_call6.cst main_call6.v0 (fun x v => Host.reduceAdd x v reducesTo_S100000x64_S64_d0 h_S_),
    StableHlo.TRef.unary main_call6.v0 main_call6.v1 (broadcastInDim S1x64 ![1] bcast_S64_S1x64_1),
    StableHlo.TRef.nullary main_call6.cst_0 (constant S_ .f32 0x47C35000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S100000x64 ![0, 1] bcast_S1x64_S100000x64_0_1),
    StableHlo.TRef.binary ((.of main_v104) : StableHlo.TRef sig ⟨S100000x64, .f32⟩) main_call6.v4 main_call6.v5 subf,
    StableHlo.TRef.binary main_call6.v5 main_call6.v5 main_call6.v6 mulf,
    StableHlo.TRef.unary ((.of main_c_22) : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary (main_call6.cst_4 : StableHlo.TRef sig ⟨S_, .f32⟩) main_call6.call0.v0 id,
    StableHlo.TRef.unary main_call6.call0.v0 main_call6.call0.v1 (broadcastInDim S64 ![] bcast_S_S64),
    StableHlo.TRef.ternary (main_call6.v12 : StableHlo.TRef sig ⟨S_, .i1⟩) (main_call6.v11 : StableHlo.TRef sig ⟨S64, .f32⟩) main_call6.call0.v1 main_call6.call0.v2 (fun p a b => select (broadcastInDim S64 ![] bcast_S_S64 p) a b),
    StableHlo.unary main_v111 main_v113 (broadcastInDim S1x64 ![1] bcast_S64_S1x64_1 : (⟨S64, .f32⟩ : BufTy).Contents (Elt F) → (⟨S1x64, .f32⟩ : BufTy).Contents (Elt F)),
    StableHlo.unary main_v113 main_v114 (broadcastInDim S100000x64 ![0, 1] bcast_S1x64_S100000x64_0_1 : (⟨S1x64, .f32⟩ : BufTy).Contents (Elt F) → (⟨S100000x64, .f32⟩ : BufTy).Contents (Elt F)),
    StableHlo.binary main_v104 main_v114 main_v115 (subf : (⟨S100000x64, .f32⟩ : BufTy).Contents (Elt F) → (⟨S100000x64, .f32⟩ : BufTy).Contents (Elt F) → (⟨S100000x64, .f32⟩ : BufTy).Contents (Elt F)),
    StableHlo.nullary main_cst_23 (constant S_ .f32 0x3727C5AC#32),
    StableHlo.unary main_cst_23 main_v116 (broadcastInDim S64 ![] bcast_S_S64 : (⟨S_, .f32⟩ : BufTy).Contents (Elt F) → (⟨S64, .f32⟩ : BufTy).Contents (Elt F)),
    StableHlo.binary main_v112 main_v116 main_v117 (addf : (⟨S64, .f32⟩ : BufTy).Contents (Elt F) → (⟨S64, .f32⟩ : BufTy).Contents (Elt F) → (⟨S64, .f32⟩ : BufTy).Contents (Elt F)),
    StableHlo.unary main_v117 main_v118 (Host.rsqrt : (⟨S64, .f32⟩ : BufTy).Contents (Elt F) → (⟨S64, .f32⟩ : BufTy).Contents (Elt F)),
    StableHlo.unary main_v118 main_v119 (broadcastInDim S1x64 ![1] bcast_S64_S1x64_1 : (⟨S64, .f32⟩ : BufTy).Contents (Elt F) → (⟨S1x64, .f32⟩ : BufTy).Contents (Elt F)),
    StableHlo.unary main_v119 main_v120 (broadcastInDim S100000x64 ![0, 1] bcast_S1x64_S100000x64_0_1 : (⟨S1x64, .f32⟩ : BufTy).Contents (Elt F) → (⟨S100000x64, .f32⟩ : BufTy).Contents (Elt F)),
    StableHlo.binary main_v115 main_v120 main_v121 (mulf : (⟨S100000x64, .f32⟩ : BufTy).Contents (Elt F) → (⟨S100000x64, .f32⟩ : BufTy).Contents (Elt F) → (⟨S100000x64, .f32⟩ : BufTy).Contents (Elt F)),
    StableHlo.unary main_v106 main_v122 (broadcastInDim S1x64 ![1] bcast_S64_S1x64_1 : (⟨S64, .f32⟩ : BufTy).Contents (Elt F) → (⟨S1x64, .f32⟩ : BufTy).Contents (Elt F)),
    StableHlo.unary main_v122 main_v123 (broadcastInDim S100000x64 ![0, 1] bcast_S1x64_S100000x64_0_1 : (⟨S1x64, .f32⟩ : BufTy).Contents (Elt F) → (⟨S100000x64, .f32⟩ : BufTy).Contents (Elt F)),
    StableHlo.binary main_v121 main_v123 main_v124 (mulf : (⟨S100000x64, .f32⟩ : BufTy).Contents (Elt F) → (⟨S100000x64, .f32⟩ : BufTy).Contents (Elt F) → (⟨S100000x64, .f32⟩ : BufTy).Contents (Elt F)),
    StableHlo.unary main_v108 main_v125 (broadcastInDim S1x64 ![1] bcast_S64_S1x64_1 : (⟨S64, .f32⟩ : BufTy).Contents (Elt F) → (⟨S1x64, .f32⟩ : BufTy).Contents (Elt F)),
    StableHlo.unary main_v125 main_v126 (broadcastInDim S100000x64 ![0, 1] bcast_S1x64_S100000x64_0_1 : (⟨S1x64, .f32⟩ : BufTy).Contents (Elt F) → (⟨S100000x64, .f32⟩ : BufTy).Contents (Elt F)),
    StableHlo.binary main_v124 main_v126 main_v127 (addf : (⟨S100000x64, .f32⟩ : BufTy).Contents (Elt F) → (⟨S100000x64, .f32⟩ : BufTy).Contents (Elt F) → (⟨S100000x64, .f32⟩ : BufTy).Contents (Elt F)),
    StableHlo.unary main_arg9 main_v128 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v128 main_v129 rfl shapeCasts_S1x64x64_S64x64,
    StableHlo.binary main_v127 main_v129 main_v130 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
abbrev piece6_W : List (Ref sig .tc) := [main_v105, main_v106, main_v107, main_v108, main_cst_20, main_v109, main_cst_21, main_v110, main_v111, main_c_22, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v112, main_v113, main_v114, main_v115, main_cst_23, main_v116, main_v117, main_v118, main_v119, main_v120, main_v121, main_v122, main_v123, main_v124, main_v125, main_v126, main_v127, main_v128, main_v129, main_v130]
theorem piece6_writes : (piece6 : List (HloOp τ sig (Elt F))).Forall fun op => op.writes ⊆ (piece6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece6_keep (V : Valuation τ sig (Elt F)) (r : Ref sig .tc) (h : r ∉ piece6_W) :
    after piece6 V (Proc.devRef .tc r) = V (Proc.devRef .tc r) :=
  after_of_writes_sub piece6 V piece6_writes h
theorem piece6_sub : (piece6 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub ..⟩
theorem piece6_fresh : (piece6 : List (HloOp τ sig (Elt F))).Forall fun op => op.fresh = ∅ := by
  simp only [List.Forall]; repeat' constructor

theorem rv_main_v130 (V : Valuation τ sig (Elt F)) :
    after piece6 V (Proc.devRef .tc main_v130) = ((((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))) (((addf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((subf : (⟨S100000x64, .f32⟩ : BufTy).Contents (Elt F) → (⟨S100000x64, .f32⟩ : BufTy).Contents (Elt F) → (⟨S100000x64, .f32⟩ : BufTy).Contents (Elt F))) (V (Proc.devRef .tc main_v104) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.divf : (⟨S64, .f32⟩ : BufTy).Contents (Elt F) → (⟨S64, .f32⟩ : BufTy).Contents (Elt F) → (⟨S64, .f32⟩ : BufTy).Contents (Elt F))) ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (V (Proc.devRef .tc main_v104) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x47C35000#32) : (⟨S_, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.rsqrt : (⟨S64, .f32⟩ : BufTy).Contents (Elt F) → (⟨S64, .f32⟩ : BufTy).Contents (Elt F))) (((addf : (⟨S64, .f32⟩ : BufTy).Contents (Elt F) → (⟨S64, .f32⟩ : BufTy).Contents (Elt F) → (⟨S64, .f32⟩ : BufTy).Contents (Elt F))) (((fun p a b => select (broadcastInDim S64 ![] bcast_S_S64 p) a b)) (((cmpf .ogt)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (V (Proc.devRef .tc main_v104) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_v104) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (V (Proc.devRef .tc main_v104) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_v104) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x3727C5AC#32) : (⟨S_, .f32⟩ : BufTy).Contents (Elt F)) : (⟨S64, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![1, 0] · slices_S4x64_S1x64_1_0) : (⟨S4x64, .f32⟩ : BufTy).Contents (Elt F) → (⟨S1x64, .f32⟩ : BufTy).Contents (Elt F))) (V (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![1, 0] · slices_S4x64_S1x64_1_0) : (⟨S4x64, .f32⟩ : BufTy).Contents (Elt F) → (⟨S1x64, .f32⟩ : BufTy).Contents (Elt F))) (V (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (shapeCast S64x64 ((((extractStridedSlice S1x64x64 ![1, 0, 0] · slices_S4x64x64_S1x64x64_1_0_0) : (⟨S4x64x64, .f32⟩ : BufTy).Contents (Elt F) → (⟨S1x64x64, .f32⟩ : BufTy).Contents (Elt F))) (V (Proc.devRef .tc main_arg9) : (⟨S4x64x64, .f32⟩ : BufTy).Contents (Elt F)) : (⟨S1x64x64, .f32⟩ : BufTy).Contents (Elt F)) shapeCasts_S1x64x64_S64x64 : (⟨S64x64, .f32⟩ : BufTy).Contents (Elt F)) : (⟨S100000x64, .f32⟩ : BufTy).Contents (Elt F)) := by
  after_results_simp <;> rfl

/-- Piece 7. -/
abbrev piece7 : List (HloOp τ sig (Elt F)) :=
  [ StableHlo.unary main_v34 main_v131 (broadcastInDim S1700000x1 ![0] bcast_S1700000_S1700000x1_0 : (⟨S1700000, .f32⟩ : BufTy).Contents (Elt F) → (⟨S1700000x1, .f32⟩ : BufTy).Contents (Elt F)),
    StableHlo.nullary main_c_24 (constantI S_ 32 0#32),
    StableHlo.unary main_c_24 main_v132 (broadcastInDim S1700000 ![] bcast_S_S1700000 : (⟨S_, .i32⟩ : BufTy).Contents (Elt F) → (⟨S1700000, .i32⟩ : BufTy).Contents (Elt F)),
    StableHlo.binary main_v3 main_v132 main_v133 (cmpi .slt : (⟨S1700000, .i32⟩ : BufTy).Contents (Elt F) → (⟨S1700000, .i32⟩ : BufTy).Contents (Elt F) → (⟨S1700000, .i1⟩ : BufTy).Contents (Elt F)),
    StableHlo.nullary main_c_25 (constantI S_ 32 100000#32),
    StableHlo.unary main_c_25 main_v134 (broadcastInDim S1700000 ![] bcast_S_S1700000 : (⟨S_, .i32⟩ : BufTy).Contents (Elt F) → (⟨S1700000, .i32⟩ : BufTy).Contents (Elt F)),
    StableHlo.binary main_v3 main_v134 main_v135 (addi : (⟨S1700000, .i32⟩ : BufTy).Contents (Elt F) → (⟨S1700000, .i32⟩ : BufTy).Contents (Elt F) → (⟨S1700000, .i32⟩ : BufTy).Contents (Elt F)),
    StableHlo.ternary main_v133 main_v135 main_v3 main_v136 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v136 main_v137 (broadcastInDim S1700000x1 ![0] bcast_S1700000_S1700000x1_0 : (⟨S1700000, .i32⟩ : BufTy).Contents (Elt F) → (⟨S1700000x1, .i32⟩ : BufTy).Contents (Elt F)),
    StableHlo.binary main_v130 main_v137 main_v138 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v131 main_v139 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v139 main_v138 main_v140 (mulf : (⟨S1700000x64, .f32⟩ : BufTy).Contents (Elt F) → (⟨S1700000x64, .f32⟩ : BufTy).Contents (Elt F) → (⟨S1700000x64, .f32⟩ : BufTy).Contents (Elt F)),
    StableHlo.nullary main_cst_26 (constant S_ .f32 0x00000000#32),
    StableHlo.unary main_cst_26 main_v141 (broadcastInDim S100000x64 ![] bcast_S_S100000x64 : (⟨S_, .f32⟩ : BufTy).Contents (Elt F) → (⟨S100000x64, .f32⟩ : BufTy).Contents (Elt F)),
    StableHlo.unary main_v6 main_v142 (broadcastInDim S1700000x1 ![0] bcast_S1700000_S1700000x1_0 : (⟨S1700000, .i32⟩ : BufTy).Contents (Elt F) → (⟨S1700000x1, .i32⟩ : BufTy).Contents (Elt F)),
    StableHlo.ternary main_v141 main_v142 main_v140 main_v143 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]
abbrev piece7_W : List (Ref sig .tc) := [main_v131, main_c_24, main_v132, main_v133, main_c_25, main_v134, main_v135, main_v136, main_v137, main_v138, main_v139, main_v140, main_cst_26, main_v141, main_v142, main_v143]
theorem piece7_writes : (piece7 : List (HloOp τ sig (Elt F))).Forall fun op => op.writes ⊆ (piece7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece7_keep (V : Valuation τ sig (Elt F)) (r : Ref sig .tc) (h : r ∉ piece7_W) :
    after piece7 V (Proc.devRef .tc r) = V (Proc.devRef .tc r) :=
  after_of_writes_sub piece7 V piece7_writes h
theorem piece7_sub : (piece7 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem piece7_fresh : (piece7 : List (HloOp τ sig (Elt F))).Forall fun op => op.fresh = ∅ := by
  simp only [List.Forall]; repeat' constructor

theorem rv_main_v143 (V : Valuation τ sig (Elt F)) :
    after piece7 V (Proc.devRef .tc main_v143) = ((((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))) (((broadcastInDim S100000x64 ![] bcast_S_S100000x64 : (⟨S_, .f32⟩ : BufTy).Contents (Elt F) → (⟨S100000x64, .f32⟩ : BufTy).Contents (Elt F))) ((constant S_ .f32 0x00000000#32) : (⟨S_, .f32⟩ : BufTy).Contents (Elt F)) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (V (Proc.devRef .tc main_v6) : (⟨S1700000, .i32⟩ : BufTy).Contents (Elt F)) : (⟨S1700000x1, .i32⟩ : BufTy).Contents (Elt F)) (((mulf : (⟨S1700000x64, .f32⟩ : BufTy).Contents (Elt F) → (⟨S1700000x64, .f32⟩ : BufTy).Contents (Elt F) → (⟨S1700000x64, .f32⟩ : BufTy).Contents (Elt F))) (((broadcastInDim S1700000x64 ![0, 1] bcast_S1700000x1_S1700000x64_0_1 : (⟨S1700000x1, .f32⟩ : BufTy).Contents (Elt F) → (⟨S1700000x64, .f32⟩ : BufTy).Contents (Elt F))) (((broadcastInDim S1700000x1 ![0] bcast_S1700000_S1700000x1_0 : (⟨S1700000, .f32⟩ : BufTy).Contents (Elt F) → (⟨S1700000x1, .f32⟩ : BufTy).Contents (Elt F))) (V (Proc.devRef .tc main_v34) : (⟨S1700000, .f32⟩ : BufTy).Contents (Elt F)) : (⟨S1700000x1, .f32⟩ : BufTy).Contents (Elt F)) : (⟨S1700000x64, .f32⟩ : BufTy).Contents (Elt F)) ((((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))) (V (Proc.devRef .tc main_v130) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (V (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (V (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (V (Proc.devRef .tc main_v3) : (⟨S1700000, .i32⟩ : BufTy).Contents (Elt F)) : (⟨S1700000, .i32⟩ : BufTy).Contents (Elt F)) : (⟨S1700000x1, .i32⟩ : BufTy).Contents (Elt F)) : (⟨S1700000x64, .f32⟩ : BufTy).Contents (Elt F)) : (⟨S1700000x64, .f32⟩ : BufTy).Contents (Elt F)) : (⟨S100000x64, .f32⟩ : BufTy).Contents (Elt F)) := by
  after_results_simp <;> rfl

/-- Piece 8. -/
abbrev piece8 : List (HloOp τ sig (Elt F)) :=
  [ StableHlo.unary main_arg10 main_v144 ((extractStridedSlice S1x64 ![1, 0] · slices_S4x64_S1x64_1_0) : (⟨S4x64, .f32⟩ : BufTy).Contents (Elt F) → (⟨S1x64, .f32⟩ : BufTy).Contents (Elt F)),
    StableHlo.reshape main_v144 main_v145 rfl shapeCasts_S1x64_S64,
    StableHlo.unary main_v145 main_v146 (broadcastInDim S1x64 ![1] bcast_S64_S1x64_1 : (⟨S64, .f32⟩ : BufTy).Contents (Elt F) → (⟨S1x64, .f32⟩ : BufTy).Contents (Elt F)),
    StableHlo.unary main_v146 main_v147 (broadcastInDim S100000x64 ![0, 1] bcast_S1x64_S100000x64_0_1 : (⟨S1x64, .f32⟩ : BufTy).Contents (Elt F) → (⟨S100000x64, .f32⟩ : BufTy).Contents (Elt F)),
    StableHlo.binary main_v143 main_v147 main_v148 (addf : (⟨S100000x64, .f32⟩ : BufTy).Contents (Elt F) → (⟨S100000x64, .f32⟩ : BufTy).Contents (Elt F) → (⟨S100000x64, .f32⟩ : BufTy).Contents (Elt F)),
    StableHlo.TRef.nullary main_call7.cst (constant S_ .f32 0x00000000#32),
    StableHlo.TRef.unary main_call7.cst main_call7.v0 (broadcastInDim S100000x64 ![] bcast_S_S100000x64),
    StableHlo.TRef.binary ((.of main_v148) : StableHlo.TRef sig ⟨S100000x64, .f32⟩) main_call7.v0 main_call7.v1 maximumf,
    StableHlo.binary main_v104 main_v149 main_v150 (addf : (⟨S100000x64, .f32⟩ : BufTy).Contents (Elt F) → (⟨S100000x64, .f32⟩ : BufTy).Contents (Elt F) → (⟨S100000x64, .f32⟩ : BufTy).Contents (Elt F)) ]
abbrev piece8_W : List (Ref sig .tc) := [main_v144, main_v145, main_v146, main_v147, main_v148, main_call7_cst, main_call7_v0, main_v149, main_v150]
theorem piece8_writes : (piece8 : List (HloOp τ sig (Elt F))).Forall fun op => op.writes ⊆ (piece8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece8_keep (V : Valuation τ sig (Elt F)) (r : Ref sig .tc) (h : r ∉ piece8_W) :
    after piece8 V (Proc.devRef .tc r) = V (Proc.devRef .tc r) :=
  after_of_writes_sub piece8 V piece8_writes h
theorem piece8_sub : (piece8 : List (HloOp τ sig (Elt F))).Forall fun op => op.bufs ⊆ tcRefs τ sig :=
  ⟨unary_bufs_sub .., reshape_bufs_sub .., unary_bufs_sub .., unary_bufs_sub .., binary_bufs_sub .., nullary_bufs_sub .., unary_bufs_sub .., binary_bufs_sub .., binary_bufs_sub ..⟩
theorem piece8_fresh : (piece8 : List (HloOp τ sig (Elt F))).Forall fun op => op.fresh = ∅ := by
  simp only [List.Forall]; repeat' constructor

theorem rv_main_v150 (V : Valuation τ sig (Elt F)) :
    after piece8 V (Proc.devRef .tc main_v150) = (((addf : (⟨S100000x64, .f32⟩ : BufTy).Contents (Elt F) → (⟨S100000x64, .f32⟩ : BufTy).Contents (Elt F) → (⟨S100000x64, .f32⟩ : BufTy).Contents (Elt F))) (V (Proc.devRef .tc main_v104) : (⟨S100000x64, .f32⟩ : BufTy).Contents (Elt F)) ((maximumf) (((addf : (⟨S100000x64, .f32⟩ : BufTy).Contents (Elt F) → (⟨S100000x64, .f32⟩ : BufTy).Contents (Elt F) → (⟨S100000x64, .f32⟩ : BufTy).Contents (Elt F))) (V (Proc.devRef .tc main_v143) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![1, 0] · slices_S4x64_S1x64_1_0) : (⟨S4x64, .f32⟩ : BufTy).Contents (Elt F) → (⟨S1x64, .f32⟩ : BufTy).Contents (Elt F))) (V (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![] bcast_S_S100000x64)) ((constant S_ .f32 0x00000000#32) : (⟨S_, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) := by
  after_results_simp <;> rfl

/-- The stretch's operations: its pieces in order. -/
abbrev opsP2 : List (HloOp τ sig (Elt F)) := piece5 ++ piece6 ++ piece7 ++ piece8

set_option maxRecDepth 65536 in
set_option maxHeartbeats 4000000 in
/-- The stretch is that straight line: the called functions unfolded at their calls, sequencing reassociated. -/
theorem part2_eq (c : Dev nD) : main_part2 (F := F) c = seq opsP2 := by
  simp only [main_part2, fn_where.body, fn_where_0.body, fn_where_1.body, fn_var.body, fn_relu.body, fn_var_2.body, fn_var_3.body, fn_relu_4.body, seq, bind_assoc, pure_bind]
  rfl

end Cert.ReferenceIdeal.RefValue

end
-- ==== Proof.RefPart3.lean ====
/-
  Stretch 3 of the reference program's 7 consecutive stretches of host operations, in program order, every called
  function's operations written out at the call over that call's own buffers, cut into consecutive pieces. The stretch
  run as one straight line is the program's own text for it; each piece hands its buffers on as pure terms of the
  contents it starts from.
-/
import proofs.«142600_j69965017252460_1_alg».proof.Proof.Gen.ReferenceIdeal
import Idealize.ShloMosaic.Lib.StableHlo.Run

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Piece 9. -/
abbrev piece9 : List (HloOp τ sig (Elt F)) :=
  [ StableHlo.unary main_arg7 main_v151 ((extractStridedSlice S1x64 ![2, 0] · slices_S4x64_S1x64_2_0) : (⟨S4x64, .f32⟩ : BufTy).Contents (Elt F) → (⟨S1x64, .f32⟩ : BufTy).Contents (Elt F)),
    StableHlo.reshape main_v151 main_v152 rfl shapeCasts_S1x64_S64,
    StableHlo.unary main_arg8 main_v153 ((extractStridedSlice S1x64 ![2, 0] · slices_S4x64_S1x64_2_0) : (⟨S4x64, .f32⟩ : BufTy).Contents (Elt F) → (⟨S1x64, .f32⟩ : BufTy).Contents (Elt F)),
    StableHlo.reshape main_v153 main_v154 rfl shapeCasts_S1x64_S64,
    StableHlo.nullary main_cst_27 (constant S_ .f32 0x00000000#32),
    StableHlo.binary main_v150 main_cst_27 main_v155 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_28 (constant S_ .f32 0x47C35000#32),
    StableHlo.unary main_cst_28 main_v156 (broadcastInDim S64 ![] bcast_S_S64 : (⟨S_, .f32⟩ : BufTy).Contents (Elt F) → (⟨S64, .f32⟩ : BufTy).Contents (Elt F)),
    StableHlo.binary main_v155 main_v156 main_v157 (Host.divf : (⟨S64, .f32⟩ : BufTy).Contents (Elt F) → (⟨S64, .f32⟩ : BufTy).Contents (Elt F) → (⟨S64, .f32⟩ : BufTy).Contents (Elt F)),
    StableHlo.nullary main_c_29 (constantI S_ 32 0#32),
    StableHlo.TRef.nullary main_call8.cst (constant S_ .f32 0x00000000#32),
    StableHlo.TRef.binary ((.of main_v150) : StableHlo.TRef sig ⟨S100000x64, .f32⟩) main_call8.cst main_call8.v0 (fun x v => Host.reduceAdd x v reducesTo_S100000x64_S64_d0 h_S_),
    StableHlo.TRef.unary main_call8.v0 main_call8.v1 (broadcastInDim S1x64 ![1] bcast_S64_S1x64_1),
    StableHlo.TRef.nullary main_call8.cst_0 (constant S_ .f32 0x47C35000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S100000x64 ![0, 1] bcast_S1x64_S100000x64_0_1),
    StableHlo.TRef.binary ((.of main_v150) : StableHlo.TRef sig ⟨S100000x64, .f32⟩) main_call8.v4 main_call8.v5 subf,
    StableHlo.TRef.binary main_call8.v5 main_call8.v5 main_call8.v6 mulf,
    StableHlo.TRef.unary ((.of main_c_29) : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary (main_call8.cst_4 : StableHlo.TRef sig ⟨S_, .f32⟩) main_call8.call0.v0 id,
    StableHlo.TRef.unary main_call8.call0.v0 main_call8.call0.v1 (broadcastInDim S64 ![] bcast_S_S64),
    StableHlo.TRef.ternary (main_call8.v12 : StableHlo.TRef sig ⟨S_, .i1⟩) (main_call8.v11 : StableHlo.TRef sig ⟨S64, .f32⟩) main_call8.call0.v1 main_call8.call0.v2 (fun p a b => select (broadcastInDim S64 ![] bcast_S_S64 p) a b),
    StableHlo.unary main_v157 main_v159 (broadcastInDim S1x64 ![1] bcast_S64_S1x64_1 : (⟨S64, .f32⟩ : BufTy).Contents (Elt F) → (⟨S1x64, .f32⟩ : BufTy).Contents (Elt F)),
    StableHlo.unary main_v159 main_v160 (broadcastInDim S100000x64 ![0, 1] bcast_S1x64_S100000x64_0_1 : (⟨S1x64, .f32⟩ : BufTy).Contents (Elt F) → (⟨S100000x64, .f32⟩ : BufTy).Contents (Elt F)),
    StableHlo.binary main_v150 main_v160 main_v161 (subf : (⟨S100000x64, .f32⟩ : BufTy).Contents (Elt F) → (⟨S100000x64, .f32⟩ : BufTy).Contents (Elt F) → (⟨S100000x64, .f32⟩ : BufTy).Contents (Elt F)),
    StableHlo.nullary main_cst_30 (constant S_ .f32 0x3727C5AC#32),
    StableHlo.unary main_cst_30 main_v162 (broadcastInDim S64 ![] bcast_S_S64 : (⟨S_, .f32⟩ : BufTy).Contents (Elt F) → (⟨S64, .f32⟩ : BufTy).Contents (Elt F)),
    StableHlo.binary main_v158 main_v162 main_v163 (addf : (⟨S64, .f32⟩ : BufTy).Contents (Elt F) → (⟨S64, .f32⟩ : BufTy).Contents (Elt F) → (⟨S64, .f32⟩ : BufTy).Contents (Elt F)),
    StableHlo.unary main_v163 main_v164 (Host.rsqrt : (⟨S64, .f32⟩ : BufTy).Contents (Elt F) → (⟨S64, .f32⟩ : BufTy).Contents (Elt F)),
    StableHlo.unary main_v164 main_v165 (broadcastInDim S1x64 ![1] bcast_S64_S1x64_1 : (⟨S64, .f32⟩ : BufTy).Contents (Elt F) → (⟨S1x64, .f32⟩ : BufTy).Contents (Elt F)),
    StableHlo.unary main_v165 main_v166 (broadcastInDim S100000x64 ![0, 1] bcast_S1x64_S100000x64_0_1 : (⟨S1x64, .f32⟩ : BufTy).Contents (Elt F) → (⟨S100000x64, .f32⟩ : BufTy).Contents (Elt F)),
    StableHlo.binary main_v161 main_v166 main_v167 (mulf : (⟨S100000x64, .f32⟩ : BufTy).Contents (Elt F) → (⟨S100000x64, .f32⟩ : BufTy).Contents (Elt F) → (⟨S100000x64, .f32⟩ : BufTy).Contents (Elt F)),
    StableHlo.unary main_v152 main_v168 (broadcastInDim S1x64 ![1] bcast_S64_S1x64_1 : (⟨S64, .f32⟩ : BufTy).Contents (Elt F) → (⟨S1x64, .f32⟩ : BufTy).Contents (Elt F)),
    StableHlo.unary main_v168 main_v169 (broadcastInDim S100000x64 ![0, 1] bcast_S1x64_S100000x64_0_1 : (⟨S1x64, .f32⟩ : BufTy).Contents (Elt F) → (⟨S100000x64, .f32⟩ : BufTy).Contents (Elt F)),
    StableHlo.binary main_v167 main_v169 main_v170 (mulf : (⟨S100000x64, .f32⟩ : BufTy).Contents (Elt F) → (⟨S100000x64, .f32⟩ : BufTy).Contents (Elt F) → (⟨S100000x64, .f32⟩ : BufTy).Contents (Elt F)),
    StableHlo.unary main_v154 main_v171 (broadcastInDim S1x64 ![1] bcast_S64_S1x64_1 : (⟨S64, .f32⟩ : BufTy).Contents (Elt F) → (⟨S1x64, .f32⟩ : BufTy).Contents (Elt F)),
    StableHlo.unary main_v171 main_v172 (broadcastInDim S100000x64 ![0, 1] bcast_S1x64_S100000x64_0_1 : (⟨S1x64, .f32⟩ : BufTy).Contents (Elt F) → (⟨S100000x64, .f32⟩ : BufTy).Contents (Elt F)),
    StableHlo.binary main_v170 main_v172 main_v173 (addf : (⟨S100000x64, .f32⟩ : BufTy).Contents (Elt F) → (⟨S100000x64, .f32⟩ : BufTy).Contents (Elt F) → (⟨S100000x64, .f32⟩ : BufTy).Contents (Elt F)),
    StableHlo.unary main_arg9 main_v174 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v174 main_v175 rfl shapeCasts_S1x64x64_S64x64,
    StableHlo.binary main_v173 main_v175 main_v176 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
abbrev piece9_W : List (Ref sig .tc) := [main_v151, main_v152, main_v153, main_v154, main_cst_27, main_v155, main_cst_28, main_v156, main_v157, main_c_29, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v158, main_v159, main_v160, main_v161, main_cst_30, main_v162, main_v163, main_v164, main_v165, main_v166, main_v167, main_v168, main_v169, main_v170, main_v171, main_v172, main_v173, main_v174, main_v175, main_v176]
theorem piece9_writes : (piece9 : List (HloOp τ sig (Elt F))).Forall fun op => op.writes ⊆ (piece9_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece9_keep (V : Valuation τ sig (Elt F)) (r : Ref sig .tc) (h : r ∉ piece9_W) :
    after piece9 V (Proc.devRef .tc r) = V (Proc.devRef .tc r) :=
  after_of_writes_sub piece9 V piece9_writes h
theorem piece9_sub : (piece9 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub ..⟩
theorem piece9_fresh : (piece9 : List (HloOp τ sig (Elt F))).Forall fun op => op.fresh = ∅ := by
  simp only [List.Forall]; repeat' constructor

theorem rv_main_v176 (V : Valuation τ sig (Elt F)) :
    after piece9 V (Proc.devRef .tc main_v176) = ((((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))) (((addf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((subf : (⟨S100000x64, .f32⟩ : BufTy).Contents (Elt F) → (⟨S100000x64, .f32⟩ : BufTy).Contents (Elt F) → (⟨S100000x64, .f32⟩ : BufTy).Contents (Elt F))) (V (Proc.devRef .tc main_v150) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.divf : (⟨S64, .f32⟩ : BufTy).Contents (Elt F) → (⟨S64, .f32⟩ : BufTy).Contents (Elt F) → (⟨S64, .f32⟩ : BufTy).Contents (Elt F))) ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (V (Proc.devRef .tc main_v150) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x47C35000#32) : (⟨S_, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.rsqrt : (⟨S64, .f32⟩ : BufTy).Contents (Elt F) → (⟨S64, .f32⟩ : BufTy).Contents (Elt F))) (((addf : (⟨S64, .f32⟩ : BufTy).Contents (Elt F) → (⟨S64, .f32⟩ : BufTy).Contents (Elt F) → (⟨S64, .f32⟩ : BufTy).Contents (Elt F))) (((fun p a b => select (broadcastInDim S64 ![] bcast_S_S64 p) a b)) (((cmpf .ogt)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (V (Proc.devRef .tc main_v150) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_v150) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (V (Proc.devRef .tc main_v150) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_v150) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x3727C5AC#32) : (⟨S_, .f32⟩ : BufTy).Contents (Elt F)) : (⟨S64, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![2, 0] · slices_S4x64_S1x64_2_0) : (⟨S4x64, .f32⟩ : BufTy).Contents (Elt F) → (⟨S1x64, .f32⟩ : BufTy).Contents (Elt F))) (V (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![2, 0] · slices_S4x64_S1x64_2_0) : (⟨S4x64, .f32⟩ : BufTy).Contents (Elt F) → (⟨S1x64, .f32⟩ : BufTy).Contents (Elt F))) (V (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (shapeCast S64x64 ((((extractStridedSlice S1x64x64 ![2, 0, 0] · slices_S4x64x64_S1x64x64_2_0_0) : (⟨S4x64x64, .f32⟩ : BufTy).Contents (Elt F) → (⟨S1x64x64, .f32⟩ : BufTy).Contents (Elt F))) (V (Proc.devRef .tc main_arg9) : (⟨S4x64x64, .f32⟩ : BufTy).Contents (Elt F)) : (⟨S1x64x64, .f32⟩ : BufTy).Contents (Elt F)) shapeCasts_S1x64x64_S64x64 : (⟨S64x64, .f32⟩ : BufTy).Contents (Elt F)) : (⟨S100000x64, .f32⟩ : BufTy).Contents (Elt F)) := by
  after_results_simp <;> rfl

/-- Piece 10. -/
abbrev piece10 : List (HloOp τ sig (Elt F)) :=
  [ StableHlo.unary main_v34 main_v177 (broadcastInDim S1700000x1 ![0] bcast_S1700000_S1700000x1_0 : (⟨S1700000, .f32⟩ : BufTy).Contents (Elt F) → (⟨S1700000x1, .f32⟩ : BufTy).Contents (Elt F)),
    StableHlo.nullary main_c_31 (constantI S_ 32 0#32),
    StableHlo.unary main_c_31 main_v178 (broadcastInDim S1700000 ![] bcast_S_S1700000 : (⟨S_, .i32⟩ : BufTy).Contents (Elt F) → (⟨S1700000, .i32⟩ : BufTy).Contents (Elt F)),
    StableHlo.binary main_v3 main_v178 main_v179 (cmpi .slt : (⟨S1700000, .i32⟩ : BufTy).Contents (Elt F) → (⟨S1700000, .i32⟩ : BufTy).Contents (Elt F) → (⟨S1700000, .i1⟩ : BufTy).Contents (Elt F)),
    StableHlo.nullary main_c_32 (constantI S_ 32 100000#32),
    StableHlo.unary main_c_32 main_v180 (broadcastInDim S1700000 ![] bcast_S_S1700000 : (⟨S_, .i32⟩ : BufTy).Contents (Elt F) → (⟨S1700000, .i32⟩ : BufTy).Contents (Elt F)),
    StableHlo.binary main_v3 main_v180 main_v181 (addi : (⟨S1700000, .i32⟩ : BufTy).Contents (Elt F) → (⟨S1700000, .i32⟩ : BufTy).Contents (Elt F) → (⟨S1700000, .i32⟩ : BufTy).Contents (Elt F)),
    StableHlo.ternary main_v179 main_v181 main_v3 main_v182 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v182 main_v183 (broadcastInDim S1700000x1 ![0] bcast_S1700000_S1700000x1_0 : (⟨S1700000, .i32⟩ : BufTy).Contents (Elt F) → (⟨S1700000x1, .i32⟩ : BufTy).Contents (Elt F)),
    StableHlo.binary main_v176 main_v183 main_v184 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v177 main_v185 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v185 main_v184 main_v186 (mulf : (⟨S1700000x64, .f32⟩ : BufTy).Contents (Elt F) → (⟨S1700000x64, .f32⟩ : BufTy).Contents (Elt F) → (⟨S1700000x64, .f32⟩ : BufTy).Contents (Elt F)),
    StableHlo.nullary main_cst_33 (constant S_ .f32 0x00000000#32),
    StableHlo.unary main_cst_33 main_v187 (broadcastInDim S100000x64 ![] bcast_S_S100000x64 : (⟨S_, .f32⟩ : BufTy).Contents (Elt F) → (⟨S100000x64, .f32⟩ : BufTy).Contents (Elt F)),
    StableHlo.unary main_v6 main_v188 (broadcastInDim S1700000x1 ![0] bcast_S1700000_S1700000x1_0 : (⟨S1700000, .i32⟩ : BufTy).Contents (Elt F) → (⟨S1700000x1, .i32⟩ : BufTy).Contents (Elt F)),
    StableHlo.ternary main_v187 main_v188 main_v186 main_v189 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]
abbrev piece10_W : List (Ref sig .tc) := [main_v177, main_c_31, main_v178, main_v179, main_c_32, main_v180, main_v181, main_v182, main_v183, main_v184, main_v185, main_v186, main_cst_33, main_v187, main_v188, main_v189]
theorem piece10_writes : (piece10 : List (HloOp τ sig (Elt F))).Forall fun op => op.writes ⊆ (piece10_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece10_keep (V : Valuation τ sig (Elt F)) (r : Ref sig .tc) (h : r ∉ piece10_W) :
    after piece10 V (Proc.devRef .tc r) = V (Proc.devRef .tc r) :=
  after_of_writes_sub piece10 V piece10_writes h
theorem piece10_sub : (piece10 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem piece10_fresh : (piece10 : List (HloOp τ sig (Elt F))).Forall fun op => op.fresh = ∅ := by
  simp only [List.Forall]; repeat' constructor

theorem rv_main_v189 (V : Valuation τ sig (Elt F)) :
    after piece10 V (Proc.devRef .tc main_v189) = ((((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))) (((broadcastInDim S100000x64 ![] bcast_S_S100000x64 : (⟨S_, .f32⟩ : BufTy).Contents (Elt F) → (⟨S100000x64, .f32⟩ : BufTy).Contents (Elt F))) ((constant S_ .f32 0x00000000#32) : (⟨S_, .f32⟩ : BufTy).Contents (Elt F)) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (V (Proc.devRef .tc main_v6) : (⟨S1700000, .i32⟩ : BufTy).Contents (Elt F)) : (⟨S1700000x1, .i32⟩ : BufTy).Contents (Elt F)) (((mulf : (⟨S1700000x64, .f32⟩ : BufTy).Contents (Elt F) → (⟨S1700000x64, .f32⟩ : BufTy).Contents (Elt F) → (⟨S1700000x64, .f32⟩ : BufTy).Contents (Elt F))) (((broadcastInDim S1700000x64 ![0, 1] bcast_S1700000x1_S1700000x64_0_1 : (⟨S1700000x1, .f32⟩ : BufTy).Contents (Elt F) → (⟨S1700000x64, .f32⟩ : BufTy).Contents (Elt F))) (((broadcastInDim S1700000x1 ![0] bcast_S1700000_S1700000x1_0 : (⟨S1700000, .f32⟩ : BufTy).Contents (Elt F) → (⟨S1700000x1, .f32⟩ : BufTy).Contents (Elt F))) (V (Proc.devRef .tc main_v34) : (⟨S1700000, .f32⟩ : BufTy).Contents (Elt F)) : (⟨S1700000x1, .f32⟩ : BufTy).Contents (Elt F)) : (⟨S1700000x64, .f32⟩ : BufTy).Contents (Elt F)) ((((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))) (V (Proc.devRef .tc main_v176) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (V (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (V (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (V (Proc.devRef .tc main_v3) : (⟨S1700000, .i32⟩ : BufTy).Contents (Elt F)) : (⟨S1700000, .i32⟩ : BufTy).Contents (Elt F)) : (⟨S1700000x1, .i32⟩ : BufTy).Contents (Elt F)) : (⟨S1700000x64, .f32⟩ : BufTy).Contents (Elt F)) : (⟨S1700000x64, .f32⟩ : BufTy).Contents (Elt F)) : (⟨S100000x64, .f32⟩ : BufTy).Contents (Elt F)) := by
  after_results_simp <;> rfl

/-- Piece 11. -/
abbrev piece11 : List (HloOp τ sig (Elt F)) :=
  [ StableHlo.unary main_arg10 main_v190 ((extractStridedSlice S1x64 ![2, 0] · slices_S4x64_S1x64_2_0) : (⟨S4x64, .f32⟩ : BufTy).Contents (Elt F) → (⟨S1x64, .f32⟩ : BufTy).Contents (Elt F)),
    StableHlo.reshape main_v190 main_v191 rfl shapeCasts_S1x64_S64,
    StableHlo.unary main_v191 main_v192 (broadcastInDim S1x64 ![1] bcast_S64_S1x64_1 : (⟨S64, .f32⟩ : BufTy).Contents (Elt F) → (⟨S1x64, .f32⟩ : BufTy).Contents (Elt F)),
    StableHlo.unary main_v192 main_v193 (broadcastInDim S100000x64 ![0, 1] bcast_S1x64_S100000x64_0_1 : (⟨S1x64, .f32⟩ : BufTy).Contents (Elt F) → (⟨S100000x64, .f32⟩ : BufTy).Contents (Elt F)),
    StableHlo.binary main_v189 main_v193 main_v194 (addf : (⟨S100000x64, .f32⟩ : BufTy).Contents (Elt F) → (⟨S100000x64, .f32⟩ : BufTy).Contents (Elt F) → (⟨S100000x64, .f32⟩ : BufTy).Contents (Elt F)),
    StableHlo.TRef.nullary main_call9.cst (constant S_ .f32 0x00000000#32),
    StableHlo.TRef.unary main_call9.cst main_call9.v0 (broadcastInDim S100000x64 ![] bcast_S_S100000x64),
    StableHlo.TRef.binary ((.of main_v194) : StableHlo.TRef sig ⟨S100000x64, .f32⟩) main_call9.v0 main_call9.v1 maximumf,
    StableHlo.binary main_v150 main_v195 main_v196 (addf : (⟨S100000x64, .f32⟩ : BufTy).Contents (Elt F) → (⟨S100000x64, .f32⟩ : BufTy).Contents (Elt F) → (⟨S100000x64, .f32⟩ : BufTy).Contents (Elt F)) ]
abbrev piece11_W : List (Ref sig .tc) := [main_v190, main_v191, main_v192, main_v193, main_v194, main_call9_cst, main_call9_v0, main_v195, main_v196]
theorem piece11_writes : (piece11 : List (HloOp τ sig (Elt F))).Forall fun op => op.writes ⊆ (piece11_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece11_keep (V : Valuation τ sig (Elt F)) (r : Ref sig .tc) (h : r ∉ piece11_W) :
    after piece11 V (Proc.devRef .tc r) = V (Proc.devRef .tc r) :=
  after_of_writes_sub piece11 V piece11_writes h
theorem piece11_sub : (piece11 : List (HloOp τ sig (Elt F))).Forall fun op => op.bufs ⊆ tcRefs τ sig :=
  ⟨unary_bufs_sub .., reshape_bufs_sub .., unary_bufs_sub .., unary_bufs_sub .., binary_bufs_sub .., nullary_bufs_sub .., unary_bufs_sub .., binary_bufs_sub .., binary_bufs_sub ..⟩
theorem piece11_fresh : (piece11 : List (HloOp τ sig (Elt F))).Forall fun op => op.fresh = ∅ := by
  simp only [List.Forall]; repeat' constructor

theorem rv_main_v196 (V : Valuation τ sig (Elt F)) :
    after piece11 V (Proc.devRef .tc main_v196) = (((addf : (⟨S100000x64, .f32⟩ : BufTy).Contents (Elt F) → (⟨S100000x64, .f32⟩ : BufTy).Contents (Elt F) → (⟨S100000x64, .f32⟩ : BufTy).Contents (Elt F))) (V (Proc.devRef .tc main_v150) : (⟨S100000x64, .f32⟩ : BufTy).Contents (Elt F)) ((maximumf) (((addf : (⟨S100000x64, .f32⟩ : BufTy).Contents (Elt F) → (⟨S100000x64, .f32⟩ : BufTy).Contents (Elt F) → (⟨S100000x64, .f32⟩ : BufTy).Contents (Elt F))) (V (Proc.devRef .tc main_v189) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![2, 0] · slices_S4x64_S1x64_2_0) : (⟨S4x64, .f32⟩ : BufTy).Contents (Elt F) → (⟨S1x64, .f32⟩ : BufTy).Contents (Elt F))) (V (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![] bcast_S_S100000x64)) ((constant S_ .f32 0x00000000#32) : (⟨S_, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) := by
  after_results_simp <;> rfl

/-- Piece 12. -/
abbrev piece12 : List (HloOp τ sig (Elt F)) :=
  [ StableHlo.unary main_arg7 main_v197 ((extractStridedSlice S1x64 ![3, 0] · slices_S4x64_S1x64_3_0) : (⟨S4x64, .f32⟩ : BufTy).Contents (Elt F) → (⟨S1x64, .f32⟩ : BufTy).Contents (Elt F)),
    StableHlo.reshape main_v197 main_v198 rfl shapeCasts_S1x64_S64,
    StableHlo.unary main_arg8 main_v199 ((extractStridedSlice S1x64 ![3, 0] · slices_S4x64_S1x64_3_0) : (⟨S4x64, .f32⟩ : BufTy).Contents (Elt F) → (⟨S1x64, .f32⟩ : BufTy).Contents (Elt F)),
    StableHlo.reshape main_v199 main_v200 rfl shapeCasts_S1x64_S64,
    StableHlo.nullary main_cst_34 (constant S_ .f32 0x00000000#32),
    StableHlo.binary main_v196 main_cst_34 main_v201 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_35 (constant S_ .f32 0x47C35000#32) ]
abbrev piece12_W : List (Ref sig .tc) := [main_v197, main_v198, main_v199, main_v200, main_cst_34, main_v201, main_cst_35]
theorem piece12_writes : (piece12 : List (HloOp τ sig (Elt F))).Forall fun op => op.writes ⊆ (piece12_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece12_keep (V : Valuation τ sig (Elt F)) (r : Ref sig .tc) (h : r ∉ piece12_W) :
    after piece12 V (Proc.devRef .tc r) = V (Proc.devRef .tc r) :=
  after_of_writes_sub piece12 V piece12_writes h
theorem piece12_sub : (piece12 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub ..⟩
theorem piece12_fresh : (piece12 : List (HloOp τ sig (Elt F))).Forall fun op => op.fresh = ∅ := by
  simp only [List.Forall]; repeat' constructor

theorem rv_main_v198 (V : Valuation τ sig (Elt F)) :
    after piece12 V (Proc.devRef .tc main_v198) = (shapeCast S64 ((((extractStridedSlice S1x64 ![3, 0] · slices_S4x64_S1x64_3_0) : (⟨S4x64, .f32⟩ : BufTy).Contents (Elt F) → (⟨S1x64, .f32⟩ : BufTy).Contents (Elt F))) (V (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem rv_main_v200 (V : Valuation τ sig (Elt F)) :
    after piece12 V (Proc.devRef .tc main_v200) = (shapeCast S64 ((((extractStridedSlice S1x64 ![3, 0] · slices_S4x64_S1x64_3_0) : (⟨S4x64, .f32⟩ : BufTy).Contents (Elt F) → (⟨S1x64, .f32⟩ : BufTy).Contents (Elt F))) (V (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem rv_main_v201 (V : Valuation τ sig (Elt F)) :
    after piece12 V (Proc.devRef .tc main_v201) = ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (V (Proc.devRef .tc main_v196) : (⟨S100000x64, .f32⟩ : BufTy).Contents (Elt F)) ((constant S_ .f32 0x00000000#32) : (⟨S_, .f32⟩ : BufTy).Contents (Elt F)) : (⟨S64, .f32⟩ : BufTy).Contents (Elt F)) := by
  after_results_simp <;> rfl

theorem rv_main_cst_35 (V : Valuation τ sig (Elt F)) :
    after piece12 V (Proc.devRef .tc main_cst_35) = ((constant S_ .f32 0x47C35000#32) : (⟨S_, .f32⟩ : BufTy).Contents (Elt F)) := by
  after_results_simp <;> rfl

/-- The stretch's operations: its pieces in order. -/
abbrev opsP3 : List (HloOp τ sig (Elt F)) := piece9 ++ piece10 ++ piece11 ++ piece12

set_option maxRecDepth 65536 in
set_option maxHeartbeats 4000000 in
/-- The stretch is that straight line: the called functions unfolded at their calls, sequencing reassociated. -/
theorem part3_eq (c : Dev nD) : main_part3 (F := F) c = seq opsP3 := by
  simp only [main_part3, fn_where.body, fn_where_0.body, fn_where_1.body, fn_var.body, fn_relu.body, fn_var_2.body, fn_var_3.body, fn_relu_4.body, seq, bind_assoc, pure_bind]
  rfl

end Cert.ReferenceIdeal.RefValue

end
-- ==== Proof.RefPart4.lean ====
/-
  Stretch 4 of the reference program's 7 consecutive stretches of host operations, in program order, every called
  function's operations written out at the call over that call's own buffers, cut into consecutive pieces. The stretch
  run as one straight line is the program's own text for it; each piece hands its buffers on as pure terms of the
  contents it starts from.
-/
import proofs.«142600_j69965017252460_1_alg».proof.Proof.Gen.ReferenceIdeal
import Idealize.ShloMosaic.Lib.StableHlo.Run

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Piece 13. -/
abbrev piece13 : List (HloOp τ sig (Elt F)) :=
  [ StableHlo.unary main_cst_35 main_v202 (broadcastInDim S64 ![] bcast_S_S64 : (⟨S_, .f32⟩ : BufTy).Contents (Elt F) → (⟨S64, .f32⟩ : BufTy).Contents (Elt F)),
    StableHlo.binary main_v201 main_v202 main_v203 (Host.divf : (⟨S64, .f32⟩ : BufTy).Contents (Elt F) → (⟨S64, .f32⟩ : BufTy).Contents (Elt F) → (⟨S64, .f32⟩ : BufTy).Contents (Elt F)),
    StableHlo.nullary main_c_36 (constantI S_ 32 0#32),
    StableHlo.TRef.nullary main_call10.cst (constant S_ .f32 0x00000000#32),
    StableHlo.TRef.binary ((.of main_v196) : StableHlo.TRef sig ⟨S100000x64, .f32⟩) main_call10.cst main_call10.v0 (fun x v => Host.reduceAdd x v reducesTo_S100000x64_S64_d0 h_S_),
    StableHlo.TRef.unary main_call10.v0 main_call10.v1 (broadcastInDim S1x64 ![1] bcast_S64_S1x64_1),
    StableHlo.TRef.nullary main_call10.cst_0 (constant S_ .f32 0x47C35000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S100000x64 ![0, 1] bcast_S1x64_S100000x64_0_1),
    StableHlo.TRef.binary ((.of main_v196) : StableHlo.TRef sig ⟨S100000x64, .f32⟩) main_call10.v4 main_call10.v5 subf,
    StableHlo.TRef.binary main_call10.v5 main_call10.v5 main_call10.v6 mulf,
    StableHlo.TRef.unary ((.of main_c_36) : StableHlo.TRef sig ⟨S_, .i32⟩) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary (main_call10.cst_4 : StableHlo.TRef sig ⟨S_, .f32⟩) main_call10.call0.v0 id,
    StableHlo.TRef.unary main_call10.call0.v0 main_call10.call0.v1 (broadcastInDim S64 ![] bcast_S_S64),
    StableHlo.TRef.ternary (main_call10.v12 : StableHlo.TRef sig ⟨S_, .i1⟩) (main_call10.v11 : StableHlo.TRef sig ⟨S64, .f32⟩) main_call10.call0.v1 main_call10.call0.v2 (fun p a b => select (broadcastInDim S64 ![] bcast_S_S64 p) a b),
    StableHlo.unary main_v203 main_v205 (broadcastInDim S1x64 ![1] bcast_S64_S1x64_1 : (⟨S64, .f32⟩ : BufTy).Contents (Elt F) → (⟨S1x64, .f32⟩ : BufTy).Contents (Elt F)),
    StableHlo.unary main_v205 main_v206 (broadcastInDim S100000x64 ![0, 1] bcast_S1x64_S100000x64_0_1 : (⟨S1x64, .f32⟩ : BufTy).Contents (Elt F) → (⟨S100000x64, .f32⟩ : BufTy).Contents (Elt F)),
    StableHlo.binary main_v196 main_v206 main_v207 (subf : (⟨S100000x64, .f32⟩ : BufTy).Contents (Elt F) → (⟨S100000x64, .f32⟩ : BufTy).Contents (Elt F) → (⟨S100000x64, .f32⟩ : BufTy).Contents (Elt F)),
    StableHlo.nullary main_cst_37 (constant S_ .f32 0x3727C5AC#32),
    StableHlo.unary main_cst_37 main_v208 (broadcastInDim S64 ![] bcast_S_S64 : (⟨S_, .f32⟩ : BufTy).Contents (Elt F) → (⟨S64, .f32⟩ : BufTy).Contents (Elt F)),
    StableHlo.binary main_v204 main_v208 main_v209 (addf : (⟨S64, .f32⟩ : BufTy).Contents (Elt F) → (⟨S64, .f32⟩ : BufTy).Contents (Elt F) → (⟨S64, .f32⟩ : BufTy).Contents (Elt F)),
    StableHlo.unary main_v209 main_v210 (Host.rsqrt : (⟨S64, .f32⟩ : BufTy).Contents (Elt F) → (⟨S64, .f32⟩ : BufTy).Contents (Elt F)),
    StableHlo.unary main_v210 main_v211 (broadcastInDim S1x64 ![1] bcast_S64_S1x64_1 : (⟨S64, .f32⟩ : BufTy).Contents (Elt F) → (⟨S1x64, .f32⟩ : BufTy).Contents (Elt F)),
    StableHlo.unary main_v211 main_v212 (broadcastInDim S100000x64 ![0, 1] bcast_S1x64_S100000x64_0_1 : (⟨S1x64, .f32⟩ : BufTy).Contents (Elt F) → (⟨S100000x64, .f32⟩ : BufTy).Contents (Elt F)),
    StableHlo.binary main_v207 main_v212 main_v213 (mulf : (⟨S100000x64, .f32⟩ : BufTy).Contents (Elt F) → (⟨S100000x64, .f32⟩ : BufTy).Contents (Elt F) → (⟨S100000x64, .f32⟩ : BufTy).Contents (Elt F)),
    StableHlo.unary main_v198 main_v214 (broadcastInDim S1x64 ![1] bcast_S64_S1x64_1 : (⟨S64, .f32⟩ : BufTy).Contents (Elt F) → (⟨S1x64, .f32⟩ : BufTy).Contents (Elt F)),
    StableHlo.unary main_v214 main_v215 (broadcastInDim S100000x64 ![0, 1] bcast_S1x64_S100000x64_0_1 : (⟨S1x64, .f32⟩ : BufTy).Contents (Elt F) → (⟨S100000x64, .f32⟩ : BufTy).Contents (Elt F)),
    StableHlo.binary main_v213 main_v215 main_v216 (mulf : (⟨S100000x64, .f32⟩ : BufTy).Contents (Elt F) → (⟨S100000x64, .f32⟩ : BufTy).Contents (Elt F) → (⟨S100000x64, .f32⟩ : BufTy).Contents (Elt F)),
    StableHlo.unary main_v200 main_v217 (broadcastInDim S1x64 ![1] bcast_S64_S1x64_1 : (⟨S64, .f32⟩ : BufTy).Contents (Elt F) → (⟨S1x64, .f32⟩ : BufTy).Contents (Elt F)),
    StableHlo.unary main_v217 main_v218 (broadcastInDim S100000x64 ![0, 1] bcast_S1x64_S100000x64_0_1 : (⟨S1x64, .f32⟩ : BufTy).Contents (Elt F) → (⟨S100000x64, .f32⟩ : BufTy).Contents (Elt F)),
    StableHlo.binary main_v216 main_v218 main_v219 (addf : (⟨S100000x64, .f32⟩ : BufTy).Contents (Elt F) → (⟨S100000x64, .f32⟩ : BufTy).Contents (Elt F) → (⟨S100000x64, .f32⟩ : BufTy).Contents (Elt F)),
    StableHlo.unary main_arg9 main_v220 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v220 main_v221 rfl shapeCasts_S1x64x64_S64x64,
    StableHlo.binary main_v219 main_v221 main_v222 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
abbrev piece13_W : List (Ref sig .tc) := [main_v202, main_v203, main_c_36, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v204, main_v205, main_v206, main_v207, main_cst_37, main_v208, main_v209, main_v210, main_v211, main_v212, main_v213, main_v214, main_v215, main_v216, main_v217, main_v218, main_v219, main_v220, main_v221, main_v222]
theorem piece13_writes : (piece13 : List (HloOp τ sig (Elt F))).Forall fun op => op.writes ⊆ (piece13_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece13_keep (V : Valuation τ sig (Elt F)) (r : Ref sig .tc) (h : r ∉ piece13_W) :
    after piece13 V (Proc.devRef .tc r) = V (Proc.devRef .tc r) :=
  after_of_writes_sub piece13 V piece13_writes h
theorem piece13_sub : (piece13 : List (HloOp τ sig (Elt F))).Forall fun op => op.bufs ⊆ tcRefs τ sig :=
  ⟨unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub ..⟩
theorem piece13_fresh : (piece13 : List (HloOp τ sig (Elt F))).Forall fun op => op.fresh = ∅ := by
  simp only [List.Forall]; repeat' constructor

theorem rv_main_v222 (V : Valuation τ sig (Elt F)) :
    after piece13 V (Proc.devRef .tc main_v222) = ((((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))) (((addf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((subf : (⟨S100000x64, .f32⟩ : BufTy).Contents (Elt F) → (⟨S100000x64, .f32⟩ : BufTy).Contents (Elt F) → (⟨S100000x64, .f32⟩ : BufTy).Contents (Elt F))) (V (Proc.devRef .tc main_v196) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.divf : (⟨S64, .f32⟩ : BufTy).Contents (Elt F) → (⟨S64, .f32⟩ : BufTy).Contents (Elt F) → (⟨S64, .f32⟩ : BufTy).Contents (Elt F))) (V (Proc.devRef .tc main_v201) : (⟨S64, .f32⟩ : BufTy).Contents (Elt F)) (((broadcastInDim S64 ![] bcast_S_S64 : (⟨S_, .f32⟩ : BufTy).Contents (Elt F) → (⟨S64, .f32⟩ : BufTy).Contents (Elt F))) (V (Proc.devRef .tc main_cst_35) : (⟨S_, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.rsqrt : (⟨S64, .f32⟩ : BufTy).Contents (Elt F) → (⟨S64, .f32⟩ : BufTy).Contents (Elt F))) (((addf : (⟨S64, .f32⟩ : BufTy).Contents (Elt F) → (⟨S64, .f32⟩ : BufTy).Contents (Elt F) → (⟨S64, .f32⟩ : BufTy).Contents (Elt F))) (((fun p a b => select (broadcastInDim S64 ![] bcast_S_S64 p) a b)) (((cmpf .ogt)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (V (Proc.devRef .tc main_v196) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_v196) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (V (Proc.devRef .tc main_v196) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_v196) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x3727C5AC#32) : (⟨S_, .f32⟩ : BufTy).Contents (Elt F)) : (⟨S64, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (V (Proc.devRef .tc main_v198) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (V (Proc.devRef .tc main_v200) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (shapeCast S64x64 ((((extractStridedSlice S1x64x64 ![3, 0, 0] · slices_S4x64x64_S1x64x64_3_0_0) : (⟨S4x64x64, .f32⟩ : BufTy).Contents (Elt F) → (⟨S1x64x64, .f32⟩ : BufTy).Contents (Elt F))) (V (Proc.devRef .tc main_arg9) : (⟨S4x64x64, .f32⟩ : BufTy).Contents (Elt F)) : (⟨S1x64x64, .f32⟩ : BufTy).Contents (Elt F)) shapeCasts_S1x64x64_S64x64 : (⟨S64x64, .f32⟩ : BufTy).Contents (Elt F)) : (⟨S100000x64, .f32⟩ : BufTy).Contents (Elt F)) := by
  after_results_simp <;> rfl

/-- Piece 14. -/
abbrev piece14 : List (HloOp τ sig (Elt F)) :=
  [ StableHlo.unary main_v34 main_v223 (broadcastInDim S1700000x1 ![0] bcast_S1700000_S1700000x1_0 : (⟨S1700000, .f32⟩ : BufTy).Contents (Elt F) → (⟨S1700000x1, .f32⟩ : BufTy).Contents (Elt F)),
    StableHlo.nullary main_c_38 (constantI S_ 32 0#32),
    StableHlo.unary main_c_38 main_v224 (broadcastInDim S1700000 ![] bcast_S_S1700000 : (⟨S_, .i32⟩ : BufTy).Contents (Elt F) → (⟨S1700000, .i32⟩ : BufTy).Contents (Elt F)),
    StableHlo.binary main_v3 main_v224 main_v225 (cmpi .slt : (⟨S1700000, .i32⟩ : BufTy).Contents (Elt F) → (⟨S1700000, .i32⟩ : BufTy).Contents (Elt F) → (⟨S1700000, .i1⟩ : BufTy).Contents (Elt F)),
    StableHlo.nullary main_c_39 (constantI S_ 32 100000#32),
    StableHlo.unary main_c_39 main_v226 (broadcastInDim S1700000 ![] bcast_S_S1700000 : (⟨S_, .i32⟩ : BufTy).Contents (Elt F) → (⟨S1700000, .i32⟩ : BufTy).Contents (Elt F)),
    StableHlo.binary main_v3 main_v226 main_v227 (addi : (⟨S1700000, .i32⟩ : BufTy).Contents (Elt F) → (⟨S1700000, .i32⟩ : BufTy).Contents (Elt F) → (⟨S1700000, .i32⟩ : BufTy).Contents (Elt F)),
    StableHlo.ternary main_v225 main_v227 main_v3 main_v228 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v228 main_v229 (broadcastInDim S1700000x1 ![0] bcast_S1700000_S1700000x1_0 : (⟨S1700000, .i32⟩ : BufTy).Contents (Elt F) → (⟨S1700000x1, .i32⟩ : BufTy).Contents (Elt F)),
    StableHlo.binary main_v222 main_v229 main_v230 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v223 main_v231 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v231 main_v230 main_v232 (mulf : (⟨S1700000x64, .f32⟩ : BufTy).Contents (Elt F) → (⟨S1700000x64, .f32⟩ : BufTy).Contents (Elt F) → (⟨S1700000x64, .f32⟩ : BufTy).Contents (Elt F)),
    StableHlo.nullary main_cst_40 (constant S_ .f32 0x00000000#32),
    StableHlo.unary main_cst_40 main_v233 (broadcastInDim S100000x64 ![] bcast_S_S100000x64 : (⟨S_, .f32⟩ : BufTy).Contents (Elt F) → (⟨S100000x64, .f32⟩ : BufTy).Contents (Elt F)),
    StableHlo.unary main_v6 main_v234 (broadcastInDim S1700000x1 ![0] bcast_S1700000_S1700000x1_0 : (⟨S1700000, .i32⟩ : BufTy).Contents (Elt F) → (⟨S1700000x1, .i32⟩ : BufTy).Contents (Elt F)),
    StableHlo.ternary main_v233 main_v234 main_v232 main_v235 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]
abbrev piece14_W : List (Ref sig .tc) := [main_v223, main_c_38, main_v224, main_v225, main_c_39, main_v226, main_v227, main_v228, main_v229, main_v230, main_v231, main_v232, main_cst_40, main_v233, main_v234, main_v235]
theorem piece14_writes : (piece14 : List (HloOp τ sig (Elt F))).Forall fun op => op.writes ⊆ (piece14_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece14_keep (V : Valuation τ sig (Elt F)) (r : Ref sig .tc) (h : r ∉ piece14_W) :
    after piece14 V (Proc.devRef .tc r) = V (Proc.devRef .tc r) :=
  after_of_writes_sub piece14 V piece14_writes h
theorem piece14_sub : (piece14 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem piece14_fresh : (piece14 : List (HloOp τ sig (Elt F))).Forall fun op => op.fresh = ∅ := by
  simp only [List.Forall]; repeat' constructor

theorem rv_main_v235 (V : Valuation τ sig (Elt F)) :
    after piece14 V (Proc.devRef .tc main_v235) = ((((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))) (((broadcastInDim S100000x64 ![] bcast_S_S100000x64 : (⟨S_, .f32⟩ : BufTy).Contents (Elt F) → (⟨S100000x64, .f32⟩ : BufTy).Contents (Elt F))) ((constant S_ .f32 0x00000000#32) : (⟨S_, .f32⟩ : BufTy).Contents (Elt F)) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (V (Proc.devRef .tc main_v6) : (⟨S1700000, .i32⟩ : BufTy).Contents (Elt F)) : (⟨S1700000x1, .i32⟩ : BufTy).Contents (Elt F)) (((mulf : (⟨S1700000x64, .f32⟩ : BufTy).Contents (Elt F) → (⟨S1700000x64, .f32⟩ : BufTy).Contents (Elt F) → (⟨S1700000x64, .f32⟩ : BufTy).Contents (Elt F))) (((broadcastInDim S1700000x64 ![0, 1] bcast_S1700000x1_S1700000x64_0_1 : (⟨S1700000x1, .f32⟩ : BufTy).Contents (Elt F) → (⟨S1700000x64, .f32⟩ : BufTy).Contents (Elt F))) (((broadcastInDim S1700000x1 ![0] bcast_S1700000_S1700000x1_0 : (⟨S1700000, .f32⟩ : BufTy).Contents (Elt F) → (⟨S1700000x1, .f32⟩ : BufTy).Contents (Elt F))) (V (Proc.devRef .tc main_v34) : (⟨S1700000, .f32⟩ : BufTy).Contents (Elt F)) : (⟨S1700000x1, .f32⟩ : BufTy).Contents (Elt F)) : (⟨S1700000x64, .f32⟩ : BufTy).Contents (Elt F)) ((((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))) (V (Proc.devRef .tc main_v222) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (V (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (V (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (V (Proc.devRef .tc main_v3) : (⟨S1700000, .i32⟩ : BufTy).Contents (Elt F)) : (⟨S1700000, .i32⟩ : BufTy).Contents (Elt F)) : (⟨S1700000x1, .i32⟩ : BufTy).Contents (Elt F)) : (⟨S1700000x64, .f32⟩ : BufTy).Contents (Elt F)) : (⟨S1700000x64, .f32⟩ : BufTy).Contents (Elt F)) : (⟨S100000x64, .f32⟩ : BufTy).Contents (Elt F)) := by
  after_results_simp <;> rfl

/-- Piece 15. -/
abbrev piece15 : List (HloOp τ sig (Elt F)) :=
  [ StableHlo.unary main_arg10 main_v236 ((extractStridedSlice S1x64 ![3, 0] · slices_S4x64_S1x64_3_0) : (⟨S4x64, .f32⟩ : BufTy).Contents (Elt F) → (⟨S1x64, .f32⟩ : BufTy).Contents (Elt F)),
    StableHlo.reshape main_v236 main_v237 rfl shapeCasts_S1x64_S64,
    StableHlo.unary main_v237 main_v238 (broadcastInDim S1x64 ![1] bcast_S64_S1x64_1 : (⟨S64, .f32⟩ : BufTy).Contents (Elt F) → (⟨S1x64, .f32⟩ : BufTy).Contents (Elt F)),
    StableHlo.unary main_v238 main_v239 (broadcastInDim S100000x64 ![0, 1] bcast_S1x64_S100000x64_0_1 : (⟨S1x64, .f32⟩ : BufTy).Contents (Elt F) → (⟨S100000x64, .f32⟩ : BufTy).Contents (Elt F)),
    StableHlo.binary main_v235 main_v239 main_v240 (addf : (⟨S100000x64, .f32⟩ : BufTy).Contents (Elt F) → (⟨S100000x64, .f32⟩ : BufTy).Contents (Elt F) → (⟨S100000x64, .f32⟩ : BufTy).Contents (Elt F)),
    StableHlo.TRef.nullary main_call11.cst (constant S_ .f32 0x00000000#32),
    StableHlo.TRef.unary main_call11.cst main_call11.v0 (broadcastInDim S100000x64 ![] bcast_S_S100000x64),
    StableHlo.TRef.binary ((.of main_v240) : StableHlo.TRef sig ⟨S100000x64, .f32⟩) main_call11.v0 main_call11.v1 maximumf,
    StableHlo.binary main_v196 main_v241 main_v242 (addf : (⟨S100000x64, .f32⟩ : BufTy).Contents (Elt F) → (⟨S100000x64, .f32⟩ : BufTy).Contents (Elt F) → (⟨S100000x64, .f32⟩ : BufTy).Contents (Elt F)) ]
abbrev piece15_W : List (Ref sig .tc) := [main_v236, main_v237, main_v238, main_v239, main_v240, main_call11_cst, main_call11_v0, main_v241, main_v242]
theorem piece15_writes : (piece15 : List (HloOp τ sig (Elt F))).Forall fun op => op.writes ⊆ (piece15_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece15_keep (V : Valuation τ sig (Elt F)) (r : Ref sig .tc) (h : r ∉ piece15_W) :
    after piece15 V (Proc.devRef .tc r) = V (Proc.devRef .tc r) :=
  after_of_writes_sub piece15 V piece15_writes h
theorem piece15_sub : (piece15 : List (HloOp τ sig (Elt F))).Forall fun op => op.bufs ⊆ tcRefs τ sig :=
  ⟨unary_bufs_sub .., reshape_bufs_sub .., unary_bufs_sub .., unary_bufs_sub .., binary_bufs_sub .., nullary_bufs_sub .., unary_bufs_sub .., binary_bufs_sub .., binary_bufs_sub ..⟩
theorem piece15_fresh : (piece15 : List (HloOp τ sig (Elt F))).Forall fun op => op.fresh = ∅ := by
  simp only [List.Forall]; repeat' constructor

theorem rv_main_v242 (V : Valuation τ sig (Elt F)) :
    after piece15 V (Proc.devRef .tc main_v242) = (((addf : (⟨S100000x64, .f32⟩ : BufTy).Contents (Elt F) → (⟨S100000x64, .f32⟩ : BufTy).Contents (Elt F) → (⟨S100000x64, .f32⟩ : BufTy).Contents (Elt F))) (V (Proc.devRef .tc main_v196) : (⟨S100000x64, .f32⟩ : BufTy).Contents (Elt F)) ((maximumf) (((addf : (⟨S100000x64, .f32⟩ : BufTy).Contents (Elt F) → (⟨S100000x64, .f32⟩ : BufTy).Contents (Elt F) → (⟨S100000x64, .f32⟩ : BufTy).Contents (Elt F))) (V (Proc.devRef .tc main_v235) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![3, 0] · slices_S4x64_S1x64_3_0) : (⟨S4x64, .f32⟩ : BufTy).Contents (Elt F) → (⟨S1x64, .f32⟩ : BufTy).Contents (Elt F))) (V (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![] bcast_S_S100000x64)) ((constant S_ .f32 0x00000000#32) : (⟨S_, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) := by
  after_results_simp <;> rfl

/-- Piece 16. -/
abbrev piece16 : List (HloOp τ sig (Elt F)) :=
  [ StableHlo.nullary main_cst_41 (constant S_ .f32 0x00000000#32),
    StableHlo.unary main_cst_41 main_v243 (broadcastInDim S512x64 ![] bcast_S_S512x64 : (⟨S_, .f32⟩ : BufTy).Contents (Elt F) → (⟨S512x64, .f32⟩ : BufTy).Contents (Elt F)),
    StableHlo.unary main_arg2 main_v244 (broadcastInDim S100000x1 ![0] bcast_S100000_S100000x1_0 : (⟨S100000, .i32⟩ : BufTy).Contents (Elt F) → (⟨S100000x1, .i32⟩ : BufTy).Contents (Elt F)),
    StableHlo.ternary main_v243 main_v244 main_v242 main_v245 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)) ]
abbrev piece16_W : List (Ref sig .tc) := [main_cst_41, main_v243, main_v244, main_v245]
theorem piece16_writes : (piece16 : List (HloOp τ sig (Elt F))).Forall fun op => op.writes ⊆ (piece16_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece16_keep (V : Valuation τ sig (Elt F)) (r : Ref sig .tc) (h : r ∉ piece16_W) :
    after piece16 V (Proc.devRef .tc r) = V (Proc.devRef .tc r) :=
  after_of_writes_sub piece16 V piece16_writes h
theorem piece16_sub : (piece16 : List (HloOp τ sig (Elt F))).Forall fun op => op.bufs ⊆ tcRefs τ sig :=
  ⟨nullary_bufs_sub .., unary_bufs_sub .., unary_bufs_sub .., ternary_bufs_sub ..⟩
theorem piece16_fresh : (piece16 : List (HloOp τ sig (Elt F))).Forall fun op => op.fresh = ∅ := by
  simp only [List.Forall]; repeat' constructor

theorem rv_main_v245 (V : Valuation τ sig (Elt F)) :
    after piece16 V (Proc.devRef .tc main_v245) = ((((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F))) (((broadcastInDim S512x64 ![] bcast_S_S512x64 : (⟨S_, .f32⟩ : BufTy).Contents (Elt F) → (⟨S512x64, .f32⟩ : BufTy).Contents (Elt F))) ((constant S_ .f32 0x00000000#32) : (⟨S_, .f32⟩ : BufTy).Contents (Elt F)) : (⟨S512x64, .f32⟩ : BufTy).Contents (Elt F)) (((broadcastInDim S100000x1 ![0] bcast_S100000_S100000x1_0 : (⟨S100000, .i32⟩ : BufTy).Contents (Elt F) → (⟨S100000x1, .i32⟩ : BufTy).Contents (Elt F))) (V (Proc.devRef .tc main_arg2) : (⟨S100000, .i32⟩ : BufTy).Contents (Elt F)) : (⟨S100000x1, .i32⟩ : BufTy).Contents (Elt F)) (V (Proc.devRef .tc main_v242) : (⟨S100000x64, .f32⟩ : BufTy).Contents (Elt F)) : (⟨S512x64, .f32⟩ : BufTy).Contents (Elt F)) := by
  after_results_simp <;> rfl

/-- Piece 17. -/
abbrev piece17 : List (HloOp τ sig (Elt F)) :=
  [ StableHlo.unary main_arg11 main_v246 ((extractStridedSlice S1x64 ![0, 0] · slices_S2x64_S1x64_0_0) : (⟨S2x64, .f32⟩ : BufTy).Contents (Elt F) → (⟨S1x64, .f32⟩ : BufTy).Contents (Elt F)),
    StableHlo.reshape main_v246 main_v247 rfl shapeCasts_S1x64_S64,
    StableHlo.unary main_arg12 main_v248 ((extractStridedSlice S1x64 ![0, 0] · slices_S2x64_S1x64_0_0) : (⟨S2x64, .f32⟩ : BufTy).Contents (Elt F) → (⟨S1x64, .f32⟩ : BufTy).Contents (Elt F)),
    StableHlo.reshape main_v248 main_v249 rfl shapeCasts_S1x64_S64,
    StableHlo.nullary main_cst_42 (constant S_ .f32 0x00000000#32),
    StableHlo.binary main_v245 main_cst_42 main_v250 ((fun x v => Host.reduceAdd x v reducesTo_S512x64_S64_d0 h_S_) : (⟨S512x64, .f32⟩ : BufTy).Contents (Elt F) → (⟨S_, .f32⟩ : BufTy).Contents (Elt F) → (⟨S64, .f32⟩ : BufTy).Contents (Elt F)),
    StableHlo.nullary main_cst_43 (constant S_ .f32 0x44000000#32),
    StableHlo.unary main_cst_43 main_v251 (broadcastInDim S64 ![] bcast_S_S64 : (⟨S_, .f32⟩ : BufTy).Contents (Elt F) → (⟨S64, .f32⟩ : BufTy).Contents (Elt F)),
    StableHlo.binary main_v250 main_v251 main_v252 (Host.divf : (⟨S64, .f32⟩ : BufTy).Contents (Elt F) → (⟨S64, .f32⟩ : BufTy).Contents (Elt F) → (⟨S64, .f32⟩ : BufTy).Contents (Elt F)),
    StableHlo.nullary main_c_44 (constantI S_ 32 0#32) ]
abbrev piece17_W : List (Ref sig .tc) := [main_v246, main_v247, main_v248, main_v249, main_cst_42, main_v250, main_cst_43, main_v251, main_v252, main_c_44]
theorem piece17_writes : (piece17 : List (HloOp τ sig (Elt F))).Forall fun op => op.writes ⊆ (piece17_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece17_keep (V : Valuation τ sig (Elt F)) (r : Ref sig .tc) (h : r ∉ piece17_W) :
    after piece17 V (Proc.devRef .tc r) = V (Proc.devRef .tc r) :=
  after_of_writes_sub piece17 V piece17_writes h
theorem piece17_sub : (piece17 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub ..⟩
theorem piece17_fresh : (piece17 : List (HloOp τ sig (Elt F))).Forall fun op => op.fresh = ∅ := by
  simp only [List.Forall]; repeat' constructor

theorem rv_main_v247 (V : Valuation τ sig (Elt F)) :
    after piece17 V (Proc.devRef .tc main_v247) = (shapeCast S64 ((((extractStridedSlice S1x64 ![0, 0] · slices_S2x64_S1x64_0_0) : (⟨S2x64, .f32⟩ : BufTy).Contents (Elt F) → (⟨S1x64, .f32⟩ : BufTy).Contents (Elt F))) (V (Proc.devRef .tc main_arg11) : (⟨S2x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem rv_main_v249 (V : Valuation τ sig (Elt F)) :
    after piece17 V (Proc.devRef .tc main_v249) = (shapeCast S64 ((((extractStridedSlice S1x64 ![0, 0] · slices_S2x64_S1x64_0_0) : (⟨S2x64, .f32⟩ : BufTy).Contents (Elt F) → (⟨S1x64, .f32⟩ : BufTy).Contents (Elt F))) (V (Proc.devRef .tc main_arg12) : (⟨S2x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem rv_main_v252 (V : Valuation τ sig (Elt F)) :
    after piece17 V (Proc.devRef .tc main_v252) = (((Host.divf : (⟨S64, .f32⟩ : BufTy).Contents (Elt F) → (⟨S64, .f32⟩ : BufTy).Contents (Elt F) → (⟨S64, .f32⟩ : BufTy).Contents (Elt F))) ((((fun x v => Host.reduceAdd x v reducesTo_S512x64_S64_d0 h_S_) : (⟨S512x64, .f32⟩ : BufTy).Contents (Elt F) → (⟨S_, .f32⟩ : BufTy).Contents (Elt F) → (⟨S64, .f32⟩ : BufTy).Contents (Elt F))) (V (Proc.devRef .tc main_v245) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x44000000#32) : (⟨S_, .f32⟩ : BufTy).Contents (Elt F)) : (⟨S64, .f32⟩ : BufTy).Contents (Elt F)) : (⟨S64, .f32⟩ : BufTy).Contents (Elt F)) := by
  after_results_simp <;> rfl

theorem rv_main_c_44 (V : Valuation τ sig (Elt F)) :
    after piece17 V (Proc.devRef .tc main_c_44) = ((constantI S_ 32 0#32) : (⟨S_, .i32⟩ : BufTy).Contents (Elt F)) := by
  after_results_simp <;> rfl

/-- The stretch's operations: its pieces in order. -/
abbrev opsP4 : List (HloOp τ sig (Elt F)) := piece13 ++ piece14 ++ piece15 ++ piece16 ++ piece17

set_option maxRecDepth 65536 in
set_option maxHeartbeats 4000000 in
/-- The stretch is that straight line: the called functions unfolded at their calls, sequencing reassociated. -/
theorem part4_eq (c : Dev nD) : main_part4 (F := F) c = seq opsP4 := by
  simp only [main_part4, fn_where.body, fn_where_0.body, fn_where_1.body, fn_var.body, fn_relu.body, fn_var_2.body, fn_var_3.body, fn_relu_4.body, seq, bind_assoc, pure_bind]
  rfl

end Cert.ReferenceIdeal.RefValue

end
-- ==== Proof.RefPart5.lean ====
/-
  Stretch 5 of the reference program's 7 consecutive stretches of host operations, in program order, every called
  function's operations written out at the call over that call's own buffers, cut into consecutive pieces. The stretch
  run as one straight line is the program's own text for it; each piece hands its buffers on as pure terms of the
  contents it starts from.
-/
import proofs.«142600_j69965017252460_1_alg».proof.Proof.Gen.ReferenceIdeal
import Idealize.ShloMosaic.Lib.StableHlo.Run

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Piece 18. -/
abbrev piece18 : List (HloOp τ sig (Elt F)) :=
  [ StableHlo.TRef.nullary main_call12.cst (constant S_ .f32 0x00000000#32),
    StableHlo.TRef.binary ((.of main_v245) : StableHlo.TRef sig ⟨S512x64, .f32⟩) main_call12.cst main_call12.v0 (fun x v => Host.reduceAdd x v reducesTo_S512x64_S64_d0 h_S_),
    StableHlo.TRef.unary main_call12.v0 main_call12.v1 (broadcastInDim S1x64 ![1] bcast_S64_S1x64_1),
    StableHlo.TRef.nullary main_call12.cst_0 (constant S_ .f32 0x44000000#32),
    StableHlo.TRef.unary main_call12.cst_0 main_call12.v2 (broadcastInDim S1x64 ![] bcast_S_S1x64),
    StableHlo.TRef.binary main_call12.v1 main_call12.v2 main_call12.v3 Host.divf,
    StableHlo.TRef.unary main_call12.v3 main_call12.v4 (broadcastInDim S512x64 ![0, 1] bcast_S1x64_S512x64_0_1),
    StableHlo.TRef.binary ((.of main_v245) : StableHlo.TRef sig ⟨S512x64, .f32⟩) main_call12.v4 main_call12.v5 subf,
    StableHlo.TRef.binary main_call12.v5 main_call12.v5 main_call12.v6 mulf,
    StableHlo.TRef.unary ((.of main_c_44) : StableHlo.TRef sig ⟨S_, .i32⟩) main_call12.v7 (sitofp .f32),
    StableHlo.TRef.nullary main_call12.cst_1 (constant S_ .f32 0x44000000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S512x64_S64_d0 h_S_),
    StableHlo.TRef.unary main_call12.v8 main_call12.v10 (broadcastInDim S64 ![] bcast_S_S64),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary (main_call12.cst_4 : StableHlo.TRef sig ⟨S_, .f32⟩) main_call12.call0.v0 id,
    StableHlo.TRef.unary main_call12.call0.v0 main_call12.call0.v1 (broadcastInDim S64 ![] bcast_S_S64),
    StableHlo.TRef.ternary (main_call12.v12 : StableHlo.TRef sig ⟨S_, .i1⟩) (main_call12.v11 : StableHlo.TRef sig ⟨S64, .f32⟩) main_call12.call0.v1 main_call12.call0.v2 (fun p a b => select (broadcastInDim S64 ![] bcast_S_S64 p) a b),
    StableHlo.unary main_v252 main_v254 (broadcastInDim S1x64 ![1] bcast_S64_S1x64_1 : (⟨S64, .f32⟩ : BufTy).Contents (Elt F) → (⟨S1x64, .f32⟩ : BufTy).Contents (Elt F)),
    StableHlo.unary main_v254 main_v255 (broadcastInDim S512x64 ![0, 1] bcast_S1x64_S512x64_0_1 : (⟨S1x64, .f32⟩ : BufTy).Contents (Elt F) → (⟨S512x64, .f32⟩ : BufTy).Contents (Elt F)),
    StableHlo.binary main_v245 main_v255 main_v256 (subf : (⟨S512x64, .f32⟩ : BufTy).Contents (Elt F) → (⟨S512x64, .f32⟩ : BufTy).Contents (Elt F) → (⟨S512x64, .f32⟩ : BufTy).Contents (Elt F)),
    StableHlo.nullary main_cst_45 (constant S_ .f32 0x3727C5AC#32),
    StableHlo.unary main_cst_45 main_v257 (broadcastInDim S64 ![] bcast_S_S64 : (⟨S_, .f32⟩ : BufTy).Contents (Elt F) → (⟨S64, .f32⟩ : BufTy).Contents (Elt F)),
    StableHlo.binary main_v253 main_v257 main_v258 (addf : (⟨S64, .f32⟩ : BufTy).Contents (Elt F) → (⟨S64, .f32⟩ : BufTy).Contents (Elt F) → (⟨S64, .f32⟩ : BufTy).Contents (Elt F)),
    StableHlo.unary main_v258 main_v259 (Host.rsqrt : (⟨S64, .f32⟩ : BufTy).Contents (Elt F) → (⟨S64, .f32⟩ : BufTy).Contents (Elt F)),
    StableHlo.unary main_v259 main_v260 (broadcastInDim S1x64 ![1] bcast_S64_S1x64_1 : (⟨S64, .f32⟩ : BufTy).Contents (Elt F) → (⟨S1x64, .f32⟩ : BufTy).Contents (Elt F)),
    StableHlo.unary main_v260 main_v261 (broadcastInDim S512x64 ![0, 1] bcast_S1x64_S512x64_0_1 : (⟨S1x64, .f32⟩ : BufTy).Contents (Elt F) → (⟨S512x64, .f32⟩ : BufTy).Contents (Elt F)),
    StableHlo.binary main_v256 main_v261 main_v262 (mulf : (⟨S512x64, .f32⟩ : BufTy).Contents (Elt F) → (⟨S512x64, .f32⟩ : BufTy).Contents (Elt F) → (⟨S512x64, .f32⟩ : BufTy).Contents (Elt F)),
    StableHlo.unary main_v247 main_v263 (broadcastInDim S1x64 ![1] bcast_S64_S1x64_1 : (⟨S64, .f32⟩ : BufTy).Contents (Elt F) → (⟨S1x64, .f32⟩ : BufTy).Contents (Elt F)),
    StableHlo.unary main_v263 main_v264 (broadcastInDim S512x64 ![0, 1] bcast_S1x64_S512x64_0_1 : (⟨S1x64, .f32⟩ : BufTy).Contents (Elt F) → (⟨S512x64, .f32⟩ : BufTy).Contents (Elt F)),
    StableHlo.binary main_v262 main_v264 main_v265 (mulf : (⟨S512x64, .f32⟩ : BufTy).Contents (Elt F) → (⟨S512x64, .f32⟩ : BufTy).Contents (Elt F) → (⟨S512x64, .f32⟩ : BufTy).Contents (Elt F)),
    StableHlo.unary main_v249 main_v266 (broadcastInDim S1x64 ![1] bcast_S64_S1x64_1 : (⟨S64, .f32⟩ : BufTy).Contents (Elt F) → (⟨S1x64, .f32⟩ : BufTy).Contents (Elt F)),
    StableHlo.unary main_v266 main_v267 (broadcastInDim S512x64 ![0, 1] bcast_S1x64_S512x64_0_1 : (⟨S1x64, .f32⟩ : BufTy).Contents (Elt F) → (⟨S512x64, .f32⟩ : BufTy).Contents (Elt F)),
    StableHlo.binary main_v265 main_v267 main_v268 (addf : (⟨S512x64, .f32⟩ : BufTy).Contents (Elt F) → (⟨S512x64, .f32⟩ : BufTy).Contents (Elt F) → (⟨S512x64, .f32⟩ : BufTy).Contents (Elt F)),
    StableHlo.unary main_arg13 main_v269 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v269 main_v270 rfl shapeCasts_S1x64x64_S64x64,
    StableHlo.binary main_v268 main_v270 main_v271 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    StableHlo.unary main_arg14 main_v272 ((extractStridedSlice S1x64 ![0, 0] · slices_S2x64_S1x64_0_0) : (⟨S2x64, .f32⟩ : BufTy).Contents (Elt F) → (⟨S1x64, .f32⟩ : BufTy).Contents (Elt F)),
    StableHlo.reshape main_v272 main_v273 rfl shapeCasts_S1x64_S64,
    StableHlo.unary main_v273 main_v274 (broadcastInDim S1x64 ![1] bcast_S64_S1x64_1 : (⟨S64, .f32⟩ : BufTy).Contents (Elt F) → (⟨S1x64, .f32⟩ : BufTy).Contents (Elt F)),
    StableHlo.unary main_v274 main_v275 (broadcastInDim S512x64 ![0, 1] bcast_S1x64_S512x64_0_1 : (⟨S1x64, .f32⟩ : BufTy).Contents (Elt F) → (⟨S512x64, .f32⟩ : BufTy).Contents (Elt F)),
    StableHlo.binary main_v271 main_v275 main_v276 (addf : (⟨S512x64, .f32⟩ : BufTy).Contents (Elt F) → (⟨S512x64, .f32⟩ : BufTy).Contents (Elt F) → (⟨S512x64, .f32⟩ : BufTy).Contents (Elt F)),
    StableHlo.TRef.nullary main_call13.cst (constant S_ .f32 0x00000000#32),
    StableHlo.TRef.unary main_call13.cst main_call13.v0 (broadcastInDim S512x64 ![] bcast_S_S512x64),
    StableHlo.TRef.binary ((.of main_v276) : StableHlo.TRef sig ⟨S512x64, .f32⟩) main_call13.v0 main_call13.v1 maximumf ]
abbrev piece18_W : List (Ref sig .tc) := [main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v253, main_v254, main_v255, main_v256, main_cst_45, main_v257, main_v258, main_v259, main_v260, main_v261, main_v262, main_v263, main_v264, main_v265, main_v266, main_v267, main_v268, main_v269, main_v270, main_v271, main_v272, main_v273, main_v274, main_v275, main_v276, main_call13_cst, main_call13_v0, main_v277]
theorem piece18_writes : (piece18 : List (HloOp τ sig (Elt F))).Forall fun op => op.writes ⊆ (piece18_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece18_keep (V : Valuation τ sig (Elt F)) (r : Ref sig .tc) (h : r ∉ piece18_W) :
    after piece18 V (Proc.devRef .tc r) = V (Proc.devRef .tc r) :=
  after_of_writes_sub piece18 V piece18_writes h
theorem piece18_sub : (piece18 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩
theorem piece18_fresh : (piece18 : List (HloOp τ sig (Elt F))).Forall fun op => op.fresh = ∅ := by
  simp only [List.Forall]; repeat' constructor

theorem rv_main_v277 (V : Valuation τ sig (Elt F)) :
    after piece18 V (Proc.devRef .tc main_v277) = ((maximumf) (((addf : (⟨S512x64, .f32⟩ : BufTy).Contents (Elt F) → (⟨S512x64, .f32⟩ : BufTy).Contents (Elt F) → (⟨S512x64, .f32⟩ : BufTy).Contents (Elt F))) ((((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F))) (((addf : (⟨S512x64, .f32⟩ : BufTy).Contents (Elt F) → (⟨S512x64, .f32⟩ : BufTy).Contents (Elt F) → (⟨S512x64, .f32⟩ : BufTy).Contents (Elt F))) (((mulf : (⟨S512x64, .f32⟩ : BufTy).Contents (Elt F) → (⟨S512x64, .f32⟩ : BufTy).Contents (Elt F) → (⟨S512x64, .f32⟩ : BufTy).Contents (Elt F))) (((mulf : (⟨S512x64, .f32⟩ : BufTy).Contents (Elt F) → (⟨S512x64, .f32⟩ : BufTy).Contents (Elt F) → (⟨S512x64, .f32⟩ : BufTy).Contents (Elt F))) (((subf : (⟨S512x64, .f32⟩ : BufTy).Contents (Elt F) → (⟨S512x64, .f32⟩ : BufTy).Contents (Elt F) → (⟨S512x64, .f32⟩ : BufTy).Contents (Elt F))) (V (Proc.devRef .tc main_v245) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (V (Proc.devRef .tc main_v252) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.rsqrt : (⟨S64, .f32⟩ : BufTy).Contents (Elt F) → (⟨S64, .f32⟩ : BufTy).Contents (Elt F))) (((addf : (⟨S64, .f32⟩ : BufTy).Contents (Elt F) → (⟨S64, .f32⟩ : BufTy).Contents (Elt F) → (⟨S64, .f32⟩ : BufTy).Contents (Elt F))) (((fun p a b => select (broadcastInDim S64 ![] bcast_S_S64 p) a b)) (((cmpf .ogt)) ((subf) ((constant S_ .f32 0x44000000#32) : (⟨S_, .f32⟩ : BufTy).Contents (Elt F)) (((sitofp .f32)) (V (Proc.devRef .tc main_c_44) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S512x64_S64_d0 h_S_)) ((mulf) ((subf) (V (Proc.devRef .tc main_v245) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (V (Proc.devRef .tc main_v245) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) ((subf) (V (Proc.devRef .tc main_v245) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (V (Proc.devRef .tc main_v245) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x44000000#32) : (⟨S_, .f32⟩ : BufTy).Contents (Elt F)) (((sitofp .f32)) (V (Proc.devRef .tc main_c_44) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x3727C5AC#32) : (⟨S_, .f32⟩ : BufTy).Contents (Elt F)) : (⟨S64, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (V (Proc.devRef .tc main_v247) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (V (Proc.devRef .tc main_v249) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (shapeCast S64x64 ((((extractStridedSlice S1x64x64 ![0, 0, 0] · slices_S2x64x64_S1x64x64_0_0_0) : (⟨S2x64x64, .f32⟩ : BufTy).Contents (Elt F) → (⟨S1x64x64, .f32⟩ : BufTy).Contents (Elt F))) (V (Proc.devRef .tc main_arg13) : (⟨S2x64x64, .f32⟩ : BufTy).Contents (Elt F)) : (⟨S1x64x64, .f32⟩ : BufTy).Contents (Elt F)) shapeCasts_S1x64x64_S64x64 : (⟨S64x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![0, 0] · slices_S2x64_S1x64_0_0) : (⟨S2x64, .f32⟩ : BufTy).Contents (Elt F) → (⟨S1x64, .f32⟩ : BufTy).Contents (Elt F))) (V (Proc.devRef .tc main_arg14) : (⟨S2x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![] bcast_S_S512x64)) ((constant S_ .f32 0x00000000#32) : (⟨S_, .f32⟩ : BufTy).Contents (Elt F)) : (⟨S512x64, .f32⟩ : BufTy).Contents (Elt F)) : (⟨S512x64, .f32⟩ : BufTy).Contents (Elt F)) := by
  after_results_simp <;> rfl

/-- Piece 19. -/
abbrev piece19 : List (HloOp τ sig (Elt F)) :=
  [ StableHlo.unary main_arg11 main_v278 ((extractStridedSlice S1x64 ![1, 0] · slices_S2x64_S1x64_1_0) : (⟨S2x64, .f32⟩ : BufTy).Contents (Elt F) → (⟨S1x64, .f32⟩ : BufTy).Contents (Elt F)),
    StableHlo.reshape main_v278 main_v279 rfl shapeCasts_S1x64_S64,
    StableHlo.unary main_arg12 main_v280 ((extractStridedSlice S1x64 ![1, 0] · slices_S2x64_S1x64_1_0) : (⟨S2x64, .f32⟩ : BufTy).Contents (Elt F) → (⟨S1x64, .f32⟩ : BufTy).Contents (Elt F)),
    StableHlo.reshape main_v280 main_v281 rfl shapeCasts_S1x64_S64,
    StableHlo.nullary main_cst_46 (constant S_ .f32 0x00000000#32),
    StableHlo.binary main_v277 main_cst_46 main_v282 ((fun x v => Host.reduceAdd x v reducesTo_S512x64_S64_d0 h_S_) : (⟨S512x64, .f32⟩ : BufTy).Contents (Elt F) → (⟨S_, .f32⟩ : BufTy).Contents (Elt F) → (⟨S64, .f32⟩ : BufTy).Contents (Elt F)),
    StableHlo.nullary main_cst_47 (constant S_ .f32 0x44000000#32),
    StableHlo.unary main_cst_47 main_v283 (broadcastInDim S64 ![] bcast_S_S64 : (⟨S_, .f32⟩ : BufTy).Contents (Elt F) → (⟨S64, .f32⟩ : BufTy).Contents (Elt F)),
    StableHlo.binary main_v282 main_v283 main_v284 (Host.divf : (⟨S64, .f32⟩ : BufTy).Contents (Elt F) → (⟨S64, .f32⟩ : BufTy).Contents (Elt F) → (⟨S64, .f32⟩ : BufTy).Contents (Elt F)),
    StableHlo.nullary main_c_48 (constantI S_ 32 0#32),
    StableHlo.TRef.nullary main_call14.cst (constant S_ .f32 0x00000000#32),
    StableHlo.TRef.binary ((.of main_v277) : StableHlo.TRef sig ⟨S512x64, .f32⟩) main_call14.cst main_call14.v0 (fun x v => Host.reduceAdd x v reducesTo_S512x64_S64_d0 h_S_),
    StableHlo.TRef.unary main_call14.v0 main_call14.v1 (broadcastInDim S1x64 ![1] bcast_S64_S1x64_1),
    StableHlo.TRef.nullary main_call14.cst_0 (constant S_ .f32 0x44000000#32),
    StableHlo.TRef.unary main_call14.cst_0 main_call14.v2 (broadcastInDim S1x64 ![] bcast_S_S1x64),
    StableHlo.TRef.binary main_call14.v1 main_call14.v2 main_call14.v3 Host.divf,
    StableHlo.TRef.unary main_call14.v3 main_call14.v4 (broadcastInDim S512x64 ![0, 1] bcast_S1x64_S512x64_0_1),
    StableHlo.TRef.binary ((.of main_v277) : StableHlo.TRef sig ⟨S512x64, .f32⟩) main_call14.v4 main_call14.v5 subf,
    StableHlo.TRef.binary main_call14.v5 main_call14.v5 main_call14.v6 mulf,
    StableHlo.TRef.unary ((.of main_c_48) : StableHlo.TRef sig ⟨S_, .i32⟩) main_call14.v7 (sitofp .f32),
    StableHlo.TRef.nullary main_call14.cst_1 (constant S_ .f32 0x44000000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S512x64_S64_d0 h_S_),
    StableHlo.TRef.unary main_call14.v8 main_call14.v10 (broadcastInDim S64 ![] bcast_S_S64),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary (main_call14.cst_4 : StableHlo.TRef sig ⟨S_, .f32⟩) main_call14.call0.v0 id,
    StableHlo.TRef.unary main_call14.call0.v0 main_call14.call0.v1 (broadcastInDim S64 ![] bcast_S_S64),
    StableHlo.TRef.ternary (main_call14.v12 : StableHlo.TRef sig ⟨S_, .i1⟩) (main_call14.v11 : StableHlo.TRef sig ⟨S64, .f32⟩) main_call14.call0.v1 main_call14.call0.v2 (fun p a b => select (broadcastInDim S64 ![] bcast_S_S64 p) a b),
    StableHlo.unary main_v284 main_v286 (broadcastInDim S1x64 ![1] bcast_S64_S1x64_1 : (⟨S64, .f32⟩ : BufTy).Contents (Elt F) → (⟨S1x64, .f32⟩ : BufTy).Contents (Elt F)),
    StableHlo.unary main_v286 main_v287 (broadcastInDim S512x64 ![0, 1] bcast_S1x64_S512x64_0_1 : (⟨S1x64, .f32⟩ : BufTy).Contents (Elt F) → (⟨S512x64, .f32⟩ : BufTy).Contents (Elt F)),
    StableHlo.binary main_v277 main_v287 main_v288 (subf : (⟨S512x64, .f32⟩ : BufTy).Contents (Elt F) → (⟨S512x64, .f32⟩ : BufTy).Contents (Elt F) → (⟨S512x64, .f32⟩ : BufTy).Contents (Elt F)),
    StableHlo.nullary main_cst_49 (constant S_ .f32 0x3727C5AC#32),
    StableHlo.unary main_cst_49 main_v289 (broadcastInDim S64 ![] bcast_S_S64 : (⟨S_, .f32⟩ : BufTy).Contents (Elt F) → (⟨S64, .f32⟩ : BufTy).Contents (Elt F)),
    StableHlo.binary main_v285 main_v289 main_v290 (addf : (⟨S64, .f32⟩ : BufTy).Contents (Elt F) → (⟨S64, .f32⟩ : BufTy).Contents (Elt F) → (⟨S64, .f32⟩ : BufTy).Contents (Elt F)),
    StableHlo.unary main_v290 main_v291 (Host.rsqrt : (⟨S64, .f32⟩ : BufTy).Contents (Elt F) → (⟨S64, .f32⟩ : BufTy).Contents (Elt F)),
    StableHlo.unary main_v291 main_v292 (broadcastInDim S1x64 ![1] bcast_S64_S1x64_1 : (⟨S64, .f32⟩ : BufTy).Contents (Elt F) → (⟨S1x64, .f32⟩ : BufTy).Contents (Elt F)),
    StableHlo.unary main_v292 main_v293 (broadcastInDim S512x64 ![0, 1] bcast_S1x64_S512x64_0_1 : (⟨S1x64, .f32⟩ : BufTy).Contents (Elt F) → (⟨S512x64, .f32⟩ : BufTy).Contents (Elt F)),
    StableHlo.binary main_v288 main_v293 main_v294 (mulf : (⟨S512x64, .f32⟩ : BufTy).Contents (Elt F) → (⟨S512x64, .f32⟩ : BufTy).Contents (Elt F) → (⟨S512x64, .f32⟩ : BufTy).Contents (Elt F)),
    StableHlo.unary main_v279 main_v295 (broadcastInDim S1x64 ![1] bcast_S64_S1x64_1 : (⟨S64, .f32⟩ : BufTy).Contents (Elt F) → (⟨S1x64, .f32⟩ : BufTy).Contents (Elt F)),
    StableHlo.unary main_v295 main_v296 (broadcastInDim S512x64 ![0, 1] bcast_S1x64_S512x64_0_1 : (⟨S1x64, .f32⟩ : BufTy).Contents (Elt F) → (⟨S512x64, .f32⟩ : BufTy).Contents (Elt F)),
    StableHlo.binary main_v294 main_v296 main_v297 (mulf : (⟨S512x64, .f32⟩ : BufTy).Contents (Elt F) → (⟨S512x64, .f32⟩ : BufTy).Contents (Elt F) → (⟨S512x64, .f32⟩ : BufTy).Contents (Elt F)),
    StableHlo.unary main_v281 main_v298 (broadcastInDim S1x64 ![1] bcast_S64_S1x64_1 : (⟨S64, .f32⟩ : BufTy).Contents (Elt F) → (⟨S1x64, .f32⟩ : BufTy).Contents (Elt F)),
    StableHlo.unary main_v298 main_v299 (broadcastInDim S512x64 ![0, 1] bcast_S1x64_S512x64_0_1 : (⟨S1x64, .f32⟩ : BufTy).Contents (Elt F) → (⟨S512x64, .f32⟩ : BufTy).Contents (Elt F)),
    StableHlo.binary main_v297 main_v299 main_v300 (addf : (⟨S512x64, .f32⟩ : BufTy).Contents (Elt F) → (⟨S512x64, .f32⟩ : BufTy).Contents (Elt F) → (⟨S512x64, .f32⟩ : BufTy).Contents (Elt F)),
    StableHlo.unary main_arg13 main_v301 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v301 main_v302 rfl shapeCasts_S1x64x64_S64x64,
    StableHlo.binary main_v300 main_v302 main_v303 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    StableHlo.unary main_arg14 main_v304 ((extractStridedSlice S1x64 ![1, 0] · slices_S2x64_S1x64_1_0) : (⟨S2x64, .f32⟩ : BufTy).Contents (Elt F) → (⟨S1x64, .f32⟩ : BufTy).Contents (Elt F)),
    StableHlo.reshape main_v304 main_v305 rfl shapeCasts_S1x64_S64,
    StableHlo.unary main_v305 main_v306 (broadcastInDim S1x64 ![1] bcast_S64_S1x64_1 : (⟨S64, .f32⟩ : BufTy).Contents (Elt F) → (⟨S1x64, .f32⟩ : BufTy).Contents (Elt F)),
    StableHlo.unary main_v306 main_v307 (broadcastInDim S512x64 ![0, 1] bcast_S1x64_S512x64_0_1 : (⟨S1x64, .f32⟩ : BufTy).Contents (Elt F) → (⟨S512x64, .f32⟩ : BufTy).Contents (Elt F)) ]
abbrev piece19_W : List (Ref sig .tc) := [main_v278, main_v279, main_v280, main_v281, main_cst_46, main_v282, main_cst_47, main_v283, main_v284, main_c_48, main_call14_cst, main_call14_v0, main_call14_v1, main_call14_cst_0, main_call14_v2, main_call14_v3, main_call14_v4, main_call14_v5, main_call14_v6, main_call14_v7, main_call14_cst_1, main_call14_v8, main_call14_cst_2, main_call14_v9, main_call14_v10, main_call14_v11, main_call14_cst_3, main_call14_v12, main_call14_cst_4, main_call14_call0_v0, main_call14_call0_v1, main_v285, main_v286, main_v287, main_v288, main_cst_49, main_v289, main_v290, main_v291, main_v292, main_v293, main_v294, main_v295, main_v296, main_v297, main_v298, main_v299, main_v300, main_v301, main_v302, main_v303, main_v304, main_v305, main_v306, main_v307]
theorem piece19_writes : (piece19 : List (HloOp τ sig (Elt F))).Forall fun op => op.writes ⊆ (piece19_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece19_keep (V : Valuation τ sig (Elt F)) (r : Ref sig .tc) (h : r ∉ piece19_W) :
    after piece19 V (Proc.devRef .tc r) = V (Proc.devRef .tc r) :=
  after_of_writes_sub piece19 V piece19_writes h
theorem piece19_sub : (piece19 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub ..⟩
theorem piece19_fresh : (piece19 : List (HloOp τ sig (Elt F))).Forall fun op => op.fresh = ∅ := by
  simp only [List.Forall]; repeat' constructor

theorem rv_main_v303 (V : Valuation τ sig (Elt F)) :
    after piece19 V (Proc.devRef .tc main_v303) = ((((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F))) (((addf : (⟨S512x64, .f32⟩ : BufTy).Contents (Elt F) → (⟨S512x64, .f32⟩ : BufTy).Contents (Elt F) → (⟨S512x64, .f32⟩ : BufTy).Contents (Elt F))) (((mulf : (⟨S512x64, .f32⟩ : BufTy).Contents (Elt F) → (⟨S512x64, .f32⟩ : BufTy).Contents (Elt F) → (⟨S512x64, .f32⟩ : BufTy).Contents (Elt F))) (((mulf : (⟨S512x64, .f32⟩ : BufTy).Contents (Elt F) → (⟨S512x64, .f32⟩ : BufTy).Contents (Elt F) → (⟨S512x64, .f32⟩ : BufTy).Contents (Elt F))) (((subf : (⟨S512x64, .f32⟩ : BufTy).Contents (Elt F) → (⟨S512x64, .f32⟩ : BufTy).Contents (Elt F) → (⟨S512x64, .f32⟩ : BufTy).Contents (Elt F))) (V (Proc.devRef .tc main_v277) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.divf : (⟨S64, .f32⟩ : BufTy).Contents (Elt F) → (⟨S64, .f32⟩ : BufTy).Contents (Elt F) → (⟨S64, .f32⟩ : BufTy).Contents (Elt F))) ((((fun x v => Host.reduceAdd x v reducesTo_S512x64_S64_d0 h_S_) : (⟨S512x64, .f32⟩ : BufTy).Contents (Elt F) → (⟨S_, .f32⟩ : BufTy).Contents (Elt F) → (⟨S64, .f32⟩ : BufTy).Contents (Elt F))) (V (Proc.devRef .tc main_v277) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x44000000#32) : (⟨S_, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.rsqrt : (⟨S64, .f32⟩ : BufTy).Contents (Elt F) → (⟨S64, .f32⟩ : BufTy).Contents (Elt F))) (((addf : (⟨S64, .f32⟩ : BufTy).Contents (Elt F) → (⟨S64, .f32⟩ : BufTy).Contents (Elt F) → (⟨S64, .f32⟩ : BufTy).Contents (Elt F))) (((fun p a b => select (broadcastInDim S64 ![] bcast_S_S64 p) a b)) (((cmpf .ogt)) ((subf) ((constant S_ .f32 0x44000000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S512x64_S64_d0 h_S_)) ((mulf) ((subf) (V (Proc.devRef .tc main_v277) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (V (Proc.devRef .tc main_v277) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) ((subf) (V (Proc.devRef .tc main_v277) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (V (Proc.devRef .tc main_v277) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x44000000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x3727C5AC#32) : (⟨S_, .f32⟩ : BufTy).Contents (Elt F)) : (⟨S64, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![1, 0] · slices_S2x64_S1x64_1_0) : (⟨S2x64, .f32⟩ : BufTy).Contents (Elt F) → (⟨S1x64, .f32⟩ : BufTy).Contents (Elt F))) (V (Proc.devRef .tc main_arg11) : (⟨S2x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![1, 0] · slices_S2x64_S1x64_1_0) : (⟨S2x64, .f32⟩ : BufTy).Contents (Elt F) → (⟨S1x64, .f32⟩ : BufTy).Contents (Elt F))) (V (Proc.devRef .tc main_arg12) : (⟨S2x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (shapeCast S64x64 ((((extractStridedSlice S1x64x64 ![1, 0, 0] · slices_S2x64x64_S1x64x64_1_0_0) : (⟨S2x64x64, .f32⟩ : BufTy).Contents (Elt F) → (⟨S1x64x64, .f32⟩ : BufTy).Contents (Elt F))) (V (Proc.devRef .tc main_arg13) : (⟨S2x64x64, .f32⟩ : BufTy).Contents (Elt F)) : (⟨S1x64x64, .f32⟩ : BufTy).Contents (Elt F)) shapeCasts_S1x64x64_S64x64 : (⟨S64x64, .f32⟩ : BufTy).Contents (Elt F)) : (⟨S512x64, .f32⟩ : BufTy).Contents (Elt F)) := by
  after_results_simp <;> rfl

theorem rv_main_v307 (V : Valuation τ sig (Elt F)) :
    after piece19 V (Proc.devRef .tc main_v307) = (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![1, 0] · slices_S2x64_S1x64_1_0) : (⟨S2x64, .f32⟩ : BufTy).Contents (Elt F) → (⟨S1x64, .f32⟩ : BufTy).Contents (Elt F))) (V (Proc.devRef .tc main_arg14) : (⟨S2x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S512x64, .f32⟩ : BufTy).Contents (Elt F)) := by
  after_results_simp <;> rfl

/-- The stretch's operations: its pieces in order. -/
abbrev opsP5 : List (HloOp τ sig (Elt F)) := piece18 ++ piece19

set_option maxRecDepth 65536 in
set_option maxHeartbeats 4000000 in
/-- The stretch is that straight line: the called functions unfolded at their calls, sequencing reassociated. -/
theorem part5_eq (c : Dev nD) : main_part5 (F := F) c = seq opsP5 := by
  simp only [main_part5, fn_where.body, fn_where_0.body, fn_where_1.body, fn_var.body, fn_relu.body, fn_var_2.body, fn_var_3.body, fn_relu_4.body, seq, bind_assoc, pure_bind]
  rfl

end Cert.ReferenceIdeal.RefValue

end
-- ==== Proof.RefPart6.lean ====
/-
  Stretch 6 of the reference program's 7 consecutive stretches of host operations, in program order, every called
  function's operations written out at the call over that call's own buffers, cut into consecutive pieces. The stretch
  run as one straight line is the program's own text for it; each piece hands its buffers on as pure terms of the
  contents it starts from.
-/
import proofs.«142600_j69965017252460_1_alg».proof.Proof.Gen.ReferenceIdeal
import Idealize.ShloMosaic.Lib.StableHlo.Run

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Piece 20. -/
abbrev piece20 : List (HloOp τ sig (Elt F)) :=
  [ StableHlo.binary main_v303 main_v307 main_v308 (addf : (⟨S512x64, .f32⟩ : BufTy).Contents (Elt F) → (⟨S512x64, .f32⟩ : BufTy).Contents (Elt F) → (⟨S512x64, .f32⟩ : BufTy).Contents (Elt F)),
    StableHlo.TRef.nullary main_call15.cst (constant S_ .f32 0x00000000#32),
    StableHlo.TRef.unary main_call15.cst main_call15.v0 (broadcastInDim S512x64 ![] bcast_S_S512x64),
    StableHlo.TRef.binary ((.of main_v308) : StableHlo.TRef sig ⟨S512x64, .f32⟩) main_call15.v0 main_call15.v1 maximumf ]
abbrev piece20_W : List (Ref sig .tc) := [main_v308, main_call15_cst, main_call15_v0, main_v309]
theorem piece20_writes : (piece20 : List (HloOp τ sig (Elt F))).Forall fun op => op.writes ⊆ (piece20_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece20_keep (V : Valuation τ sig (Elt F)) (r : Ref sig .tc) (h : r ∉ piece20_W) :
    after piece20 V (Proc.devRef .tc r) = V (Proc.devRef .tc r) :=
  after_of_writes_sub piece20 V piece20_writes h
theorem piece20_sub : (piece20 : List (HloOp τ sig (Elt F))).Forall fun op => op.bufs ⊆ tcRefs τ sig :=
  ⟨binary_bufs_sub .., nullary_bufs_sub .., unary_bufs_sub .., binary_bufs_sub ..⟩
theorem piece20_fresh : (piece20 : List (HloOp τ sig (Elt F))).Forall fun op => op.fresh = ∅ := by
  simp only [List.Forall]; repeat' constructor

theorem rv_main_v309 (V : Valuation τ sig (Elt F)) :
    after piece20 V (Proc.devRef .tc main_v309) = ((maximumf) (((addf : (⟨S512x64, .f32⟩ : BufTy).Contents (Elt F) → (⟨S512x64, .f32⟩ : BufTy).Contents (Elt F) → (⟨S512x64, .f32⟩ : BufTy).Contents (Elt F))) (V (Proc.devRef .tc main_v303) : (⟨S512x64, .f32⟩ : BufTy).Contents (Elt F)) (V (Proc.devRef .tc main_v307) : (⟨S512x64, .f32⟩ : BufTy).Contents (Elt F)) : (⟨S512x64, .f32⟩ : BufTy).Contents (Elt F)) (((broadcastInDim S512x64 ![] bcast_S_S512x64)) ((constant S_ .f32 0x00000000#32) : (⟨S_, .f32⟩ : BufTy).Contents (Elt F)) : (⟨S512x64, .f32⟩ : BufTy).Contents (Elt F)) : (⟨S512x64, .f32⟩ : BufTy).Contents (Elt F)) := by
  after_results_simp <;> rfl

/-- Piece 21. -/
abbrev piece21 : List (HloOp τ sig (Elt F)) :=
  [ StableHlo.nullary main_cst_50 (constant S_ .f32 0x00000000#32),
    StableHlo.binary main_v309 main_cst_50 main_v310 ((fun x v => Host.reduceAdd x v reducesTo_S512x64_S64_d0 h_S_) : (⟨S512x64, .f32⟩ : BufTy).Contents (Elt F) → (⟨S_, .f32⟩ : BufTy).Contents (Elt F) → (⟨S64, .f32⟩ : BufTy).Contents (Elt F)),
    StableHlo.nullary main_cst_51 (constant S_ .f32 0x44000000#32),
    StableHlo.unary main_cst_51 main_v311 (broadcastInDim S64 ![] bcast_S_S64 : (⟨S_, .f32⟩ : BufTy).Contents (Elt F) → (⟨S64, .f32⟩ : BufTy).Contents (Elt F)),
    StableHlo.binary main_v310 main_v311 main_v312 (Host.divf : (⟨S64, .f32⟩ : BufTy).Contents (Elt F) → (⟨S64, .f32⟩ : BufTy).Contents (Elt F) → (⟨S64, .f32⟩ : BufTy).Contents (Elt F)),
    StableHlo.nullary main_c_52 (constantI S_ 32 0#32),
    StableHlo.TRef.nullary main_call16.cst (constant S_ .f32 0x00000000#32),
    StableHlo.TRef.binary ((.of main_v309) : StableHlo.TRef sig ⟨S512x64, .f32⟩) main_call16.cst main_call16.v0 (fun x v => Host.reduceAdd x v reducesTo_S512x64_S64_d0 h_S_),
    StableHlo.TRef.unary main_call16.v0 main_call16.v1 (broadcastInDim S1x64 ![1] bcast_S64_S1x64_1),
    StableHlo.TRef.nullary main_call16.cst_0 (constant S_ .f32 0x44000000#32),
    StableHlo.TRef.unary main_call16.cst_0 main_call16.v2 (broadcastInDim S1x64 ![] bcast_S_S1x64),
    StableHlo.TRef.binary main_call16.v1 main_call16.v2 main_call16.v3 Host.divf,
    StableHlo.TRef.unary main_call16.v3 main_call16.v4 (broadcastInDim S512x64 ![0, 1] bcast_S1x64_S512x64_0_1),
    StableHlo.TRef.binary ((.of main_v309) : StableHlo.TRef sig ⟨S512x64, .f32⟩) main_call16.v4 main_call16.v5 subf,
    StableHlo.TRef.binary main_call16.v5 main_call16.v5 main_call16.v6 mulf,
    StableHlo.TRef.unary ((.of main_c_52) : StableHlo.TRef sig ⟨S_, .i32⟩) main_call16.v7 (sitofp .f32),
    StableHlo.TRef.nullary main_call16.cst_1 (constant S_ .f32 0x44000000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S512x64_S64_d0 h_S_),
    StableHlo.TRef.unary main_call16.v8 main_call16.v10 (broadcastInDim S64 ![] bcast_S_S64),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary (main_call16.cst_4 : StableHlo.TRef sig ⟨S_, .f32⟩) main_call16.call0.v0 id,
    StableHlo.TRef.unary main_call16.call0.v0 main_call16.call0.v1 (broadcastInDim S64 ![] bcast_S_S64),
    StableHlo.TRef.ternary (main_call16.v12 : StableHlo.TRef sig ⟨S_, .i1⟩) (main_call16.v11 : StableHlo.TRef sig ⟨S64, .f32⟩) main_call16.call0.v1 main_call16.call0.v2 (fun p a b => select (broadcastInDim S64 ![] bcast_S_S64 p) a b),
    StableHlo.unary main_v312 main_v314 (broadcastInDim S1x64 ![1] bcast_S64_S1x64_1 : (⟨S64, .f32⟩ : BufTy).Contents (Elt F) → (⟨S1x64, .f32⟩ : BufTy).Contents (Elt F)),
    StableHlo.unary main_v314 main_v315 (broadcastInDim S512x64 ![0, 1] bcast_S1x64_S512x64_0_1 : (⟨S1x64, .f32⟩ : BufTy).Contents (Elt F) → (⟨S512x64, .f32⟩ : BufTy).Contents (Elt F)),
    StableHlo.binary main_v309 main_v315 main_v316 (subf : (⟨S512x64, .f32⟩ : BufTy).Contents (Elt F) → (⟨S512x64, .f32⟩ : BufTy).Contents (Elt F) → (⟨S512x64, .f32⟩ : BufTy).Contents (Elt F)),
    StableHlo.nullary main_cst_53 (constant S_ .f32 0x3727C5AC#32),
    StableHlo.unary main_cst_53 main_v317 (broadcastInDim S64 ![] bcast_S_S64 : (⟨S_, .f32⟩ : BufTy).Contents (Elt F) → (⟨S64, .f32⟩ : BufTy).Contents (Elt F)),
    StableHlo.binary main_v313 main_v317 main_v318 (addf : (⟨S64, .f32⟩ : BufTy).Contents (Elt F) → (⟨S64, .f32⟩ : BufTy).Contents (Elt F) → (⟨S64, .f32⟩ : BufTy).Contents (Elt F)),
    StableHlo.unary main_v318 main_v319 (Host.rsqrt : (⟨S64, .f32⟩ : BufTy).Contents (Elt F) → (⟨S64, .f32⟩ : BufTy).Contents (Elt F)),
    StableHlo.unary main_v319 main_v320 (broadcastInDim S1x64 ![1] bcast_S64_S1x64_1 : (⟨S64, .f32⟩ : BufTy).Contents (Elt F) → (⟨S1x64, .f32⟩ : BufTy).Contents (Elt F)),
    StableHlo.unary main_v320 main_v321 (broadcastInDim S512x64 ![0, 1] bcast_S1x64_S512x64_0_1 : (⟨S1x64, .f32⟩ : BufTy).Contents (Elt F) → (⟨S512x64, .f32⟩ : BufTy).Contents (Elt F)),
    StableHlo.binary main_v316 main_v321 main_v322 (mulf : (⟨S512x64, .f32⟩ : BufTy).Contents (Elt F) → (⟨S512x64, .f32⟩ : BufTy).Contents (Elt F) → (⟨S512x64, .f32⟩ : BufTy).Contents (Elt F)),
    StableHlo.unary main_arg15 main_v323 (broadcastInDim S1x64 ![1] bcast_S64_S1x64_1 : (⟨S64, .f32⟩ : BufTy).Contents (Elt F) → (⟨S1x64, .f32⟩ : BufTy).Contents (Elt F)),
    StableHlo.unary main_v323 main_v324 (broadcastInDim S512x64 ![0, 1] bcast_S1x64_S512x64_0_1 : (⟨S1x64, .f32⟩ : BufTy).Contents (Elt F) → (⟨S512x64, .f32⟩ : BufTy).Contents (Elt F)),
    StableHlo.binary main_v322 main_v324 main_v325 (mulf : (⟨S512x64, .f32⟩ : BufTy).Contents (Elt F) → (⟨S512x64, .f32⟩ : BufTy).Contents (Elt F) → (⟨S512x64, .f32⟩ : BufTy).Contents (Elt F)),
    StableHlo.unary main_arg16 main_v326 (broadcastInDim S1x64 ![1] bcast_S64_S1x64_1 : (⟨S64, .f32⟩ : BufTy).Contents (Elt F) → (⟨S1x64, .f32⟩ : BufTy).Contents (Elt F)),
    StableHlo.unary main_v326 main_v327 (broadcastInDim S512x64 ![0, 1] bcast_S1x64_S512x64_0_1 : (⟨S1x64, .f32⟩ : BufTy).Contents (Elt F) → (⟨S512x64, .f32⟩ : BufTy).Contents (Elt F)),
    StableHlo.binary main_v325 main_v327 main_v328 (addf : (⟨S512x64, .f32⟩ : BufTy).Contents (Elt F) → (⟨S512x64, .f32⟩ : BufTy).Contents (Elt F) → (⟨S512x64, .f32⟩ : BufTy).Contents (Elt F)) ]
abbrev piece21_W : List (Ref sig .tc) := [main_cst_50, main_v310, main_cst_51, main_v311, main_v312, main_c_52, main_call16_cst, main_call16_v0, main_call16_v1, main_call16_cst_0, main_call16_v2, main_call16_v3, main_call16_v4, main_call16_v5, main_call16_v6, main_call16_v7, main_call16_cst_1, main_call16_v8, main_call16_cst_2, main_call16_v9, main_call16_v10, main_call16_v11, main_call16_cst_3, main_call16_v12, main_call16_cst_4, main_call16_call0_v0, main_call16_call0_v1, main_v313, main_v314, main_v315, main_v316, main_cst_53, main_v317, main_v318, main_v319, main_v320, main_v321, main_v322, main_v323, main_v324, main_v325, main_v326, main_v327, main_v328]
theorem piece21_writes : (piece21 : List (HloOp τ sig (Elt F))).Forall fun op => op.writes ⊆ (piece21_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
theorem piece21_keep (V : Valuation τ sig (Elt F)) (r : Ref sig .tc) (h : r ∉ piece21_W) :
    after piece21 V (Proc.devRef .tc r) = V (Proc.devRef .tc r) :=
  after_of_writes_sub piece21 V piece21_writes h
theorem piece21_sub : (piece21 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem piece21_fresh : (piece21 : List (HloOp τ sig (Elt F))).Forall fun op => op.fresh = ∅ := by
  simp only [List.Forall]; repeat' constructor

theorem rv_main_v328 (V : Valuation τ sig (Elt F)) :
    after piece21 V (Proc.devRef .tc main_v328) = (((addf : (⟨S512x64, .f32⟩ : BufTy).Contents (Elt F) → (⟨S512x64, .f32⟩ : BufTy).Contents (Elt F) → (⟨S512x64, .f32⟩ : BufTy).Contents (Elt F))) (((mulf : (⟨S512x64, .f32⟩ : BufTy).Contents (Elt F) → (⟨S512x64, .f32⟩ : BufTy).Contents (Elt F) → (⟨S512x64, .f32⟩ : BufTy).Contents (Elt F))) (((mulf : (⟨S512x64, .f32⟩ : BufTy).Contents (Elt F) → (⟨S512x64, .f32⟩ : BufTy).Contents (Elt F) → (⟨S512x64, .f32⟩ : BufTy).Contents (Elt F))) (((subf : (⟨S512x64, .f32⟩ : BufTy).Contents (Elt F) → (⟨S512x64, .f32⟩ : BufTy).Contents (Elt F) → (⟨S512x64, .f32⟩ : BufTy).Contents (Elt F))) (V (Proc.devRef .tc main_v309) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.divf : (⟨S64, .f32⟩ : BufTy).Contents (Elt F) → (⟨S64, .f32⟩ : BufTy).Contents (Elt F) → (⟨S64, .f32⟩ : BufTy).Contents (Elt F))) ((((fun x v => Host.reduceAdd x v reducesTo_S512x64_S64_d0 h_S_) : (⟨S512x64, .f32⟩ : BufTy).Contents (Elt F) → (⟨S_, .f32⟩ : BufTy).Contents (Elt F) → (⟨S64, .f32⟩ : BufTy).Contents (Elt F))) (V (Proc.devRef .tc main_v309) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x44000000#32) : (⟨S_, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.rsqrt : (⟨S64, .f32⟩ : BufTy).Contents (Elt F) → (⟨S64, .f32⟩ : BufTy).Contents (Elt F))) (((addf : (⟨S64, .f32⟩ : BufTy).Contents (Elt F) → (⟨S64, .f32⟩ : BufTy).Contents (Elt F) → (⟨S64, .f32⟩ : BufTy).Contents (Elt F))) (((fun p a b => select (broadcastInDim S64 ![] bcast_S_S64 p) a b)) (((cmpf .ogt)) ((subf) ((constant S_ .f32 0x44000000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S512x64_S64_d0 h_S_)) ((mulf) ((subf) (V (Proc.devRef .tc main_v309) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (V (Proc.devRef .tc main_v309) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) ((subf) (V (Proc.devRef .tc main_v309) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (V (Proc.devRef .tc main_v309) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x44000000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x3727C5AC#32) : (⟨S_, .f32⟩ : BufTy).Contents (Elt F)) : (⟨S64, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (V (Proc.devRef .tc main_arg15) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (V (Proc.devRef .tc main_arg16) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) := by
  after_results_simp <;> rfl

/-- The stretch's operations: its pieces in order. -/
abbrev opsP6 : List (HloOp τ sig (Elt F)) := piece20 ++ piece21

set_option maxRecDepth 65536 in
set_option maxHeartbeats 4000000 in
/-- The stretch is that straight line: the called functions unfolded at their calls, sequencing reassociated. -/
theorem part6_eq (c : Dev nD) : main_part6 (F := F) c = seq opsP6 := by
  simp only [main_part6, fn_where.body, fn_where_0.body, fn_where_1.body, fn_var.body, fn_relu.body, fn_var_2.body, fn_var_3.body, fn_relu_4.body, seq, bind_assoc, pure_bind]
  rfl

end Cert.ReferenceIdeal.RefValue

end
-- ==== Proof.RLast.lean ====
/-
  The reference program run: its host operations as one straight line (the stretches in order), the run that ends
  with every buffer at the fold of the operations over the launch contents, and that fold read piece by piece: what
  each piece keeps, from any piece's end to the program's end what is kept, and each handed-on buffer at the end as a
  pure term of buffers at the end.
-/
import proofs.«142600_j69965017252460_1_alg».proof.Proof.RefPart0
import proofs.«142600_j69965017252460_1_alg».proof.Proof.RefPart1
import proofs.«142600_j69965017252460_1_alg».proof.Proof.RefPart2
import proofs.«142600_j69965017252460_1_alg».proof.Proof.RefPart3
import proofs.«142600_j69965017252460_1_alg».proof.Proof.RefPart4
import proofs.«142600_j69965017252460_1_alg».proof.Proof.RefPart5
import proofs.«142600_j69965017252460_1_alg».proof.Proof.RefPart6

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- All operations, in order. -/
abbrev opsAll : List (HloOp τ sig (Elt F)) := opsP0 ++ opsP1 ++ opsP2 ++ opsP3 ++ opsP4 ++ opsP5 ++ opsP6

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The program is that straight line. -/
theorem main_eq (c : Dev nD) : main (F := F) c = seq opsAll := by
  simp only [main, opsAll, seq_append, bind_assoc, part0_eq, part1_eq, part2_eq, part3_eq, part4_eq, part5_eq, part6_eq]

theorem scopedRefs_eq : (Finset.univ.filter fun b : Ref sig .tc => b.isScoped) = ∅ := by decide
theorem scopedSems_eq : (Finset.univ.filter fun sm : SemLoc sig => sm.isScoped .tc) = ∅ := by decide

theorem opsAll_sub : (opsAll : List (HloOp τ sig (Elt F))).Forall fun op => op.bufs ⊆ tcRefs τ sig := by
  rw [List.forall_iff_forall_mem]; intro op h
  simp only [opsAll, opsP0, opsP1, opsP2, opsP3, opsP4, opsP5, opsP6, List.mem_append, or_assoc] at h
  rcases h with h | h | h | h | h | h | h | h | h | h | h | h | h | h | h | h | h | h | h | h | h | h
  · exact (List.forall_iff_forall_mem.mp piece0_sub) op h
  · exact (List.forall_iff_forall_mem.mp piece1_sub) op h
  · exact (List.forall_iff_forall_mem.mp piece2_sub) op h
  · exact (List.forall_iff_forall_mem.mp piece3_sub) op h
  · exact (List.forall_iff_forall_mem.mp piece4_sub) op h
  · exact (List.forall_iff_forall_mem.mp piece5_sub) op h
  · exact (List.forall_iff_forall_mem.mp piece6_sub) op h
  · exact (List.forall_iff_forall_mem.mp piece7_sub) op h
  · exact (List.forall_iff_forall_mem.mp piece8_sub) op h
  · exact (List.forall_iff_forall_mem.mp piece9_sub) op h
  · exact (List.forall_iff_forall_mem.mp piece10_sub) op h
  · exact (List.forall_iff_forall_mem.mp piece11_sub) op h
  · exact (List.forall_iff_forall_mem.mp piece12_sub) op h
  · exact (List.forall_iff_forall_mem.mp piece13_sub) op h
  · exact (List.forall_iff_forall_mem.mp piece14_sub) op h
  · exact (List.forall_iff_forall_mem.mp piece15_sub) op h
  · exact (List.forall_iff_forall_mem.mp piece16_sub) op h
  · exact (List.forall_iff_forall_mem.mp piece17_sub) op h
  · exact (List.forall_iff_forall_mem.mp piece18_sub) op h
  · exact (List.forall_iff_forall_mem.mp piece19_sub) op h
  · exact (List.forall_iff_forall_mem.mp piece20_sub) op h
  · exact (List.forall_iff_forall_mem.mp piece21_sub) op h

theorem opsAll_fresh : ∀ op ∈ (opsAll : List (HloOp τ sig (Elt F))), op.fresh = ∅ := by
  intro op h
  simp only [opsAll, opsP0, opsP1, opsP2, opsP3, opsP4, opsP5, opsP6, List.mem_append, or_assoc] at h
  rcases h with h | h | h | h | h | h | h | h | h | h | h | h | h | h | h | h | h | h | h | h | h | h
  · exact (List.forall_iff_forall_mem.mp piece0_fresh) op h
  · exact (List.forall_iff_forall_mem.mp piece1_fresh) op h
  · exact (List.forall_iff_forall_mem.mp piece2_fresh) op h
  · exact (List.forall_iff_forall_mem.mp piece3_fresh) op h
  · exact (List.forall_iff_forall_mem.mp piece4_fresh) op h
  · exact (List.forall_iff_forall_mem.mp piece5_fresh) op h
  · exact (List.forall_iff_forall_mem.mp piece6_fresh) op h
  · exact (List.forall_iff_forall_mem.mp piece7_fresh) op h
  · exact (List.forall_iff_forall_mem.mp piece8_fresh) op h
  · exact (List.forall_iff_forall_mem.mp piece9_fresh) op h
  · exact (List.forall_iff_forall_mem.mp piece10_fresh) op h
  · exact (List.forall_iff_forall_mem.mp piece11_fresh) op h
  · exact (List.forall_iff_forall_mem.mp piece12_fresh) op h
  · exact (List.forall_iff_forall_mem.mp piece13_fresh) op h
  · exact (List.forall_iff_forall_mem.mp piece14_fresh) op h
  · exact (List.forall_iff_forall_mem.mp piece15_fresh) op h
  · exact (List.forall_iff_forall_mem.mp piece16_fresh) op h
  · exact (List.forall_iff_forall_mem.mp piece17_fresh) op h
  · exact (List.forall_iff_forall_mem.mp piece18_fresh) op h
  · exact (List.forall_iff_forall_mem.mp piece19_fresh) op h
  · exact (List.forall_iff_forall_mem.mp piece20_fresh) op h
  · exact (List.forall_iff_forall_mem.mp piece21_fresh) op h

/-- Every weakly fair execution terminates with each buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after opsAll (launchContents m c) (Proc.devRef .tc b) :=
  run_seq scopedRefs_eq scopedSems_eq defs main (fun _ => opsAll) main_eq (fun _ => opsAll_sub) m ρ (fun _ => opsAll_fresh)

variable (m : (ℓ : Loc nD τ sig) → Buf (Elt F) ℓ)

/-! ## The fold piece by piece -/

abbrev U0 (c : Dev nD) : Valuation τ sig (Elt F) := launchContents m c
abbrev U1 (c : Dev nD) : Valuation τ sig (Elt F) := after piece0 (U0 m c)
abbrev U2 (c : Dev nD) : Valuation τ sig (Elt F) := after piece1 (U1 m c)
abbrev U3 (c : Dev nD) : Valuation τ sig (Elt F) := after piece2 (U2 m c)
abbrev U4 (c : Dev nD) : Valuation τ sig (Elt F) := after piece3 (U3 m c)
abbrev U5 (c : Dev nD) : Valuation τ sig (Elt F) := after piece4 (U4 m c)
abbrev U6 (c : Dev nD) : Valuation τ sig (Elt F) := after piece5 (U5 m c)
abbrev U7 (c : Dev nD) : Valuation τ sig (Elt F) := after piece6 (U6 m c)
abbrev U8 (c : Dev nD) : Valuation τ sig (Elt F) := after piece7 (U7 m c)
abbrev U9 (c : Dev nD) : Valuation τ sig (Elt F) := after piece8 (U8 m c)
abbrev U10 (c : Dev nD) : Valuation τ sig (Elt F) := after piece9 (U9 m c)
abbrev U11 (c : Dev nD) : Valuation τ sig (Elt F) := after piece10 (U10 m c)
abbrev U12 (c : Dev nD) : Valuation τ sig (Elt F) := after piece11 (U11 m c)
abbrev U13 (c : Dev nD) : Valuation τ sig (Elt F) := after piece12 (U12 m c)
abbrev U14 (c : Dev nD) : Valuation τ sig (Elt F) := after piece13 (U13 m c)
abbrev U15 (c : Dev nD) : Valuation τ sig (Elt F) := after piece14 (U14 m c)
abbrev U16 (c : Dev nD) : Valuation τ sig (Elt F) := after piece15 (U15 m c)
abbrev U17 (c : Dev nD) : Valuation τ sig (Elt F) := after piece16 (U16 m c)
abbrev U18 (c : Dev nD) : Valuation τ sig (Elt F) := after piece17 (U17 m c)
abbrev U19 (c : Dev nD) : Valuation τ sig (Elt F) := after piece18 (U18 m c)
abbrev U20 (c : Dev nD) : Valuation τ sig (Elt F) := after piece19 (U19 m c)
abbrev U21 (c : Dev nD) : Valuation τ sig (Elt F) := after piece20 (U20 m c)
abbrev U22 (c : Dev nD) : Valuation τ sig (Elt F) := after piece21 (U21 m c)

theorem fold_eq (c : Dev nD) : after opsAll (launchContents m c) = U22 m c := by
  simp only [opsAll, opsP0, opsP1, opsP2, opsP3, opsP4, opsP5, opsP6, after_append]

abbrev Late22 : List (Ref sig .tc) := []
theorem late22 (c : Dev nD) (r : Ref sig .tc) (h : r ∉ (Late22 : List (Ref sig .tc))) :
    U22 m c (Proc.devRef .tc r) = U22 m c (Proc.devRef .tc r) := rfl

abbrev Late21 : List (Ref sig .tc) := piece21_W ++ Late22
theorem late21 (c : Dev nD) (r : Ref sig .tc) (h : r ∉ (Late21 : List (Ref sig .tc))) :
    U22 m c (Proc.devRef .tc r) = U21 m c (Proc.devRef .tc r) :=
  (late22 m c r (fun hm => h (List.mem_append_right _ hm))).trans (piece21_keep (U21 m c) r (fun hm => h (List.mem_append_left _ hm)))

abbrev Late20 : List (Ref sig .tc) := piece20_W ++ Late21
theorem late20 (c : Dev nD) (r : Ref sig .tc) (h : r ∉ (Late20 : List (Ref sig .tc))) :
    U22 m c (Proc.devRef .tc r) = U20 m c (Proc.devRef .tc r) :=
  (late21 m c r (fun hm => h (List.mem_append_right _ hm))).trans (piece20_keep (U20 m c) r (fun hm => h (List.mem_append_left _ hm)))

abbrev Late19 : List (Ref sig .tc) := piece19_W ++ Late20
theorem late19 (c : Dev nD) (r : Ref sig .tc) (h : r ∉ (Late19 : List (Ref sig .tc))) :
    U22 m c (Proc.devRef .tc r) = U19 m c (Proc.devRef .tc r) :=
  (late20 m c r (fun hm => h (List.mem_append_right _ hm))).trans (piece19_keep (U19 m c) r (fun hm => h (List.mem_append_left _ hm)))

abbrev Late18 : List (Ref sig .tc) := piece18_W ++ Late19
theorem late18 (c : Dev nD) (r : Ref sig .tc) (h : r ∉ (Late18 : List (Ref sig .tc))) :
    U22 m c (Proc.devRef .tc r) = U18 m c (Proc.devRef .tc r) :=
  (late19 m c r (fun hm => h (List.mem_append_right _ hm))).trans (piece18_keep (U18 m c) r (fun hm => h (List.mem_append_left _ hm)))

abbrev Late17 : List (Ref sig .tc) := piece17_W ++ Late18
theorem late17 (c : Dev nD) (r : Ref sig .tc) (h : r ∉ (Late17 : List (Ref sig .tc))) :
    U22 m c (Proc.devRef .tc r) = U17 m c (Proc.devRef .tc r) :=
  (late18 m c r (fun hm => h (List.mem_append_right _ hm))).trans (piece17_keep (U17 m c) r (fun hm => h (List.mem_append_left _ hm)))

abbrev Late16 : List (Ref sig .tc) := piece16_W ++ Late17
theorem late16 (c : Dev nD) (r : Ref sig .tc) (h : r ∉ (Late16 : List (Ref sig .tc))) :
    U22 m c (Proc.devRef .tc r) = U16 m c (Proc.devRef .tc r) :=
  (late17 m c r (fun hm => h (List.mem_append_right _ hm))).trans (piece16_keep (U16 m c) r (fun hm => h (List.mem_append_left _ hm)))

abbrev Late15 : List (Ref sig .tc) := piece15_W ++ Late16
theorem late15 (c : Dev nD) (r : Ref sig .tc) (h : r ∉ (Late15 : List (Ref sig .tc))) :
    U22 m c (Proc.devRef .tc r) = U15 m c (Proc.devRef .tc r) :=
  (late16 m c r (fun hm => h (List.mem_append_right _ hm))).trans (piece15_keep (U15 m c) r (fun hm => h (List.mem_append_left _ hm)))

abbrev Late14 : List (Ref sig .tc) := piece14_W ++ Late15
theorem late14 (c : Dev nD) (r : Ref sig .tc) (h : r ∉ (Late14 : List (Ref sig .tc))) :
    U22 m c (Proc.devRef .tc r) = U14 m c (Proc.devRef .tc r) :=
  (late15 m c r (fun hm => h (List.mem_append_right _ hm))).trans (piece14_keep (U14 m c) r (fun hm => h (List.mem_append_left _ hm)))

abbrev Late13 : List (Ref sig .tc) := piece13_W ++ Late14
theorem late13 (c : Dev nD) (r : Ref sig .tc) (h : r ∉ (Late13 : List (Ref sig .tc))) :
    U22 m c (Proc.devRef .tc r) = U13 m c (Proc.devRef .tc r) :=
  (late14 m c r (fun hm => h (List.mem_append_right _ hm))).trans (piece13_keep (U13 m c) r (fun hm => h (List.mem_append_left _ hm)))

abbrev Late12 : List (Ref sig .tc) := piece12_W ++ Late13
theorem late12 (c : Dev nD) (r : Ref sig .tc) (h : r ∉ (Late12 : List (Ref sig .tc))) :
    U22 m c (Proc.devRef .tc r) = U12 m c (Proc.devRef .tc r) :=
  (late13 m c r (fun hm => h (List.mem_append_right _ hm))).trans (piece12_keep (U12 m c) r (fun hm => h (List.mem_append_left _ hm)))

abbrev Late11 : List (Ref sig .tc) := piece11_W ++ Late12
theorem late11 (c : Dev nD) (r : Ref sig .tc) (h : r ∉ (Late11 : List (Ref sig .tc))) :
    U22 m c (Proc.devRef .tc r) = U11 m c (Proc.devRef .tc r) :=
  (late12 m c r (fun hm => h (List.mem_append_right _ hm))).trans (piece11_keep (U11 m c) r (fun hm => h (List.mem_append_left _ hm)))

abbrev Late10 : List (Ref sig .tc) := piece10_W ++ Late11
theorem late10 (c : Dev nD) (r : Ref sig .tc) (h : r ∉ (Late10 : List (Ref sig .tc))) :
    U22 m c (Proc.devRef .tc r) = U10 m c (Proc.devRef .tc r) :=
  (late11 m c r (fun hm => h (List.mem_append_right _ hm))).trans (piece10_keep (U10 m c) r (fun hm => h (List.mem_append_left _ hm)))

abbrev Late9 : List (Ref sig .tc) := piece9_W ++ Late10
theorem late9 (c : Dev nD) (r : Ref sig .tc) (h : r ∉ (Late9 : List (Ref sig .tc))) :
    U22 m c (Proc.devRef .tc r) = U9 m c (Proc.devRef .tc r) :=
  (late10 m c r (fun hm => h (List.mem_append_right _ hm))).trans (piece9_keep (U9 m c) r (fun hm => h (List.mem_append_left _ hm)))

abbrev Late8 : List (Ref sig .tc) := piece8_W ++ Late9
theorem late8 (c : Dev nD) (r : Ref sig .tc) (h : r ∉ (Late8 : List (Ref sig .tc))) :
    U22 m c (Proc.devRef .tc r) = U8 m c (Proc.devRef .tc r) :=
  (late9 m c r (fun hm => h (List.mem_append_right _ hm))).trans (piece8_keep (U8 m c) r (fun hm => h (List.mem_append_left _ hm)))

abbrev Late7 : List (Ref sig .tc) := piece7_W ++ Late8
theorem late7 (c : Dev nD) (r : Ref sig .tc) (h : r ∉ (Late7 : List (Ref sig .tc))) :
    U22 m c (Proc.devRef .tc r) = U7 m c (Proc.devRef .tc r) :=
  (late8 m c r (fun hm => h (List.mem_append_right _ hm))).trans (piece7_keep (U7 m c) r (fun hm => h (List.mem_append_left _ hm)))

abbrev Late6 : List (Ref sig .tc) := piece6_W ++ Late7
theorem late6 (c : Dev nD) (r : Ref sig .tc) (h : r ∉ (Late6 : List (Ref sig .tc))) :
    U22 m c (Proc.devRef .tc r) = U6 m c (Proc.devRef .tc r) :=
  (late7 m c r (fun hm => h (List.mem_append_right _ hm))).trans (piece6_keep (U6 m c) r (fun hm => h (List.mem_append_left _ hm)))

abbrev Late5 : List (Ref sig .tc) := piece5_W ++ Late6
theorem late5 (c : Dev nD) (r : Ref sig .tc) (h : r ∉ (Late5 : List (Ref sig .tc))) :
    U22 m c (Proc.devRef .tc r) = U5 m c (Proc.devRef .tc r) :=
  (late6 m c r (fun hm => h (List.mem_append_right _ hm))).trans (piece5_keep (U5 m c) r (fun hm => h (List.mem_append_left _ hm)))

abbrev Late4 : List (Ref sig .tc) := piece4_W ++ Late5
theorem late4 (c : Dev nD) (r : Ref sig .tc) (h : r ∉ (Late4 : List (Ref sig .tc))) :
    U22 m c (Proc.devRef .tc r) = U4 m c (Proc.devRef .tc r) :=
  (late5 m c r (fun hm => h (List.mem_append_right _ hm))).trans (piece4_keep (U4 m c) r (fun hm => h (List.mem_append_left _ hm)))

abbrev Late3 : List (Ref sig .tc) := piece3_W ++ Late4
theorem late3 (c : Dev nD) (r : Ref sig .tc) (h : r ∉ (Late3 : List (Ref sig .tc))) :
    U22 m c (Proc.devRef .tc r) = U3 m c (Proc.devRef .tc r) :=
  (late4 m c r (fun hm => h (List.mem_append_right _ hm))).trans (piece3_keep (U3 m c) r (fun hm => h (List.mem_append_left _ hm)))

abbrev Late2 : List (Ref sig .tc) := piece2_W ++ Late3
theorem late2 (c : Dev nD) (r : Ref sig .tc) (h : r ∉ (Late2 : List (Ref sig .tc))) :
    U22 m c (Proc.devRef .tc r) = U2 m c (Proc.devRef .tc r) :=
  (late3 m c r (fun hm => h (List.mem_append_right _ hm))).trans (piece2_keep (U2 m c) r (fun hm => h (List.mem_append_left _ hm)))

abbrev Late1 : List (Ref sig .tc) := piece1_W ++ Late2
theorem late1 (c : Dev nD) (r : Ref sig .tc) (h : r ∉ (Late1 : List (Ref sig .tc))) :
    U22 m c (Proc.devRef .tc r) = U1 m c (Proc.devRef .tc r) :=
  (late2 m c r (fun hm => h (List.mem_append_right _ hm))).trans (piece1_keep (U1 m c) r (fun hm => h (List.mem_append_left _ hm)))

abbrev Late0 : List (Ref sig .tc) := piece0_W ++ Late1
theorem late0 (c : Dev nD) (r : Ref sig .tc) (h : r ∉ (Late0 : List (Ref sig .tc))) :
    U22 m c (Proc.devRef .tc r) = U0 m c (Proc.devRef .tc r) :=
  (late1 m c r (fun hm => h (List.mem_append_right _ hm))).trans (piece0_keep (U0 m c) r (fun hm => h (List.mem_append_left _ hm)))

/-! ## Each handed-on buffer at the end -/

theorem rf_main_v3 (c : Dev nD) :
    U22 m c (Proc.devRef .tc main_v3) = ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![0, 0] · slices_S2x1600000_S1x1600000_0_0) : (⟨S2x1600000, .i32⟩ : BufTy).Contents (Elt F) → (⟨S1x1600000, .i32⟩ : BufTy).Contents (Elt F))) (U22 m c (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) :=
  (late1 m c main_v3 (by decide)).trans ((rv_main_v3 (U0 m c)).trans (by rw [late0 m c main_arg1 (by decide)]))

theorem rf_main_v6 (c : Dev nD) :
    U22 m c (Proc.devRef .tc main_v6) = ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (U22 m c (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) :=
  (late1 m c main_v6 (by decide)).trans ((rv_main_v6 (U0 m c)).trans (by rw [late0 m c main_arg1 (by decide)]))

theorem rf_main_v34 (c : Dev nD) :
    U22 m c (Proc.devRef .tc main_v34) = (((mulf : (⟨S1700000, .f32⟩ : BufTy).Contents (Elt F) → (⟨S1700000, .f32⟩ : BufTy).Contents (Elt F) → (⟨S1700000, .f32⟩ : BufTy).Contents (Elt F))) ((((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))) (((Host.divf : (⟨S100000, .f32⟩ : BufTy).Contents (Elt F) → (⟨S100000, .f32⟩ : BufTy).Contents (Elt F) → (⟨S100000, .f32⟩ : BufTy).Contents (Elt F))) (((id : (⟨S100000, .f32⟩ : BufTy).Contents (Elt F) → (⟨S100000, .f32⟩ : BufTy).Contents (Elt F))) ((select) (((cmpf .ogt : (⟨S100000, .f32⟩ : BufTy).Contents (Elt F) → (⟨S100000, .f32⟩ : BufTy).Contents (Elt F) → (⟨S100000, .i1⟩ : BufTy).Contents (Elt F))) ((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (U22 m c (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000x1, .i32⟩ : BufTy).Contents (Elt F)) (((broadcastInDim S1700000 ![] bcast_S_S1700000 : (⟨S_, .f32⟩ : BufTy).Contents (Elt F) → (⟨S1700000, .f32⟩ : BufTy).Contents (Elt F))) ((constant S_ .f32 0x3F800000#32) : (⟨S_, .f32⟩ : BufTy).Contents (Elt F)) : (⟨S1700000, .f32⟩ : BufTy).Contents (Elt F)) : (⟨S100000, .f32⟩ : BufTy).Contents (Elt F)) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) : (⟨S100000, .i1⟩ : BufTy).Contents (Elt F)) (((broadcastInDim S100000 ![] bcast_S_S100000)) ((constant S_ .f32 0x3F800000#32) : (⟨S_, .f32⟩ : BufTy).Contents (Elt F)) : (⟨S100000, .f32⟩ : BufTy).Contents (Elt F)) (((broadcastInDim S100000 ![] bcast_S_S100000)) ((constant S_ .f32 0x00000000#32) : (⟨S_, .f32⟩ : BufTy).Contents (Elt F)) : (⟨S100000, .f32⟩ : BufTy).Contents (Elt F)) : (⟨S100000, .f32⟩ : BufTy).Contents (Elt F)) : (⟨S100000, .f32⟩ : BufTy).Contents (Elt F)) (((Host.sqrt : (⟨S100000, .f32⟩ : BufTy).Contents (Elt F) → (⟨S100000, .f32⟩ : BufTy).Contents (Elt F))) ((select) (((cmpf .ogt : (⟨S100000, .f32⟩ : BufTy).Contents (Elt F) → (⟨S100000, .f32⟩ : BufTy).Contents (Elt F) → (⟨S100000, .i1⟩ : BufTy).Contents (Elt F))) ((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (U22 m c (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000x1, .i32⟩ : BufTy).Contents (Elt F)) (((broadcastInDim S1700000 ![] bcast_S_S1700000 : (⟨S_, .f32⟩ : BufTy).Contents (Elt F) → (⟨S1700000, .f32⟩ : BufTy).Contents (Elt F))) ((constant S_ .f32 0x3F800000#32) : (⟨S_, .f32⟩ : BufTy).Contents (Elt F)) : (⟨S1700000, .f32⟩ : BufTy).Contents (Elt F)) : (⟨S100000, .f32⟩ : BufTy).Contents (Elt F)) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) : (⟨S100000, .i1⟩ : BufTy).Contents (Elt F)) ((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (U22 m c (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000x1, .i32⟩ : BufTy).Contents (Elt F)) (((broadcastInDim S1700000 ![] bcast_S_S1700000 : (⟨S_, .f32⟩ : BufTy).Contents (Elt F) → (⟨S1700000, .f32⟩ : BufTy).Contents (Elt F))) ((constant S_ .f32 0x3F800000#32) : (⟨S_, .f32⟩ : BufTy).Contents (Elt F)) : (⟨S1700000, .f32⟩ : BufTy).Contents (Elt F)) : (⟨S100000, .f32⟩ : BufTy).Contents (Elt F)) (((broadcastInDim S100000 ![] bcast_S_S100000)) ((id) ((constant S_ .f32 0x3F800000#32) : (⟨S_, .f32⟩ : BufTy).Contents (Elt F)) : (⟨S_, .f32⟩ : BufTy).Contents (Elt F)) : (⟨S100000, .f32⟩ : BufTy).Contents (Elt F)) : (⟨S100000, .f32⟩ : BufTy).Contents (Elt F)) : (⟨S100000, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![0, 0] · slices_S2x1600000_S1x1600000_0_0) : (⟨S2x1600000, .i32⟩ : BufTy).Contents (Elt F) → (⟨S1x1600000, .i32⟩ : BufTy).Contents (Elt F))) (U22 m c (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![0, 0] · slices_S2x1600000_S1x1600000_0_0) : (⟨S2x1600000, .i32⟩ : BufTy).Contents (Elt F) → (⟨S1x1600000, .i32⟩ : BufTy).Contents (Elt F))) (U22 m c (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![0, 0] · slices_S2x1600000_S1x1600000_0_0) : (⟨S2x1600000, .i32⟩ : BufTy).Contents (Elt F) → (⟨S1x1600000, .i32⟩ : BufTy).Contents (Elt F))) (U22 m c (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000, .i32⟩ : BufTy).Contents (Elt F)) : (⟨S1700000x1, .i32⟩ : BufTy).Contents (Elt F)) : (⟨S1700000, .f32⟩ : BufTy).Contents (Elt F)) ((((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))) (((Host.divf : (⟨S100000, .f32⟩ : BufTy).Contents (Elt F) → (⟨S100000, .f32⟩ : BufTy).Contents (Elt F) → (⟨S100000, .f32⟩ : BufTy).Contents (Elt F))) (((id : (⟨S100000, .f32⟩ : BufTy).Contents (Elt F) → (⟨S100000, .f32⟩ : BufTy).Contents (Elt F))) ((select) (((cmpf .ogt : (⟨S100000, .f32⟩ : BufTy).Contents (Elt F) → (⟨S100000, .f32⟩ : BufTy).Contents (Elt F) → (⟨S100000, .i1⟩ : BufTy).Contents (Elt F))) ((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (U22 m c (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000x1, .i32⟩ : BufTy).Contents (Elt F)) (((broadcastInDim S1700000 ![] bcast_S_S1700000 : (⟨S_, .f32⟩ : BufTy).Contents (Elt F) → (⟨S1700000, .f32⟩ : BufTy).Contents (Elt F))) ((constant S_ .f32 0x3F800000#32) : (⟨S_, .f32⟩ : BufTy).Contents (Elt F)) : (⟨S1700000, .f32⟩ : BufTy).Contents (Elt F)) : (⟨S100000, .f32⟩ : BufTy).Contents (Elt F)) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) : (⟨S100000, .i1⟩ : BufTy).Contents (Elt F)) (((broadcastInDim S100000 ![] bcast_S_S100000)) ((constant S_ .f32 0x3F800000#32) : (⟨S_, .f32⟩ : BufTy).Contents (Elt F)) : (⟨S100000, .f32⟩ : BufTy).Contents (Elt F)) (((broadcastInDim S100000 ![] bcast_S_S100000)) ((constant S_ .f32 0x00000000#32) : (⟨S_, .f32⟩ : BufTy).Contents (Elt F)) : (⟨S100000, .f32⟩ : BufTy).Contents (Elt F)) : (⟨S100000, .f32⟩ : BufTy).Contents (Elt F)) : (⟨S100000, .f32⟩ : BufTy).Contents (Elt F)) (((Host.sqrt : (⟨S100000, .f32⟩ : BufTy).Contents (Elt F) → (⟨S100000, .f32⟩ : BufTy).Contents (Elt F))) ((select) (((cmpf .ogt : (⟨S100000, .f32⟩ : BufTy).Contents (Elt F) → (⟨S100000, .f32⟩ : BufTy).Contents (Elt F) → (⟨S100000, .i1⟩ : BufTy).Contents (Elt F))) ((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (U22 m c (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000x1, .i32⟩ : BufTy).Contents (Elt F)) (((broadcastInDim S1700000 ![] bcast_S_S1700000 : (⟨S_, .f32⟩ : BufTy).Contents (Elt F) → (⟨S1700000, .f32⟩ : BufTy).Contents (Elt F))) ((constant S_ .f32 0x3F800000#32) : (⟨S_, .f32⟩ : BufTy).Contents (Elt F)) : (⟨S1700000, .f32⟩ : BufTy).Contents (Elt F)) : (⟨S100000, .f32⟩ : BufTy).Contents (Elt F)) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) : (⟨S100000, .i1⟩ : BufTy).Contents (Elt F)) ((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (U22 m c (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000x1, .i32⟩ : BufTy).Contents (Elt F)) (((broadcastInDim S1700000 ![] bcast_S_S1700000 : (⟨S_, .f32⟩ : BufTy).Contents (Elt F) → (⟨S1700000, .f32⟩ : BufTy).Contents (Elt F))) ((constant S_ .f32 0x3F800000#32) : (⟨S_, .f32⟩ : BufTy).Contents (Elt F)) : (⟨S1700000, .f32⟩ : BufTy).Contents (Elt F)) : (⟨S100000, .f32⟩ : BufTy).Contents (Elt F)) (((broadcastInDim S100000 ![] bcast_S_S100000)) ((id) ((constant S_ .f32 0x3F800000#32) : (⟨S_, .f32⟩ : BufTy).Contents (Elt F)) : (⟨S_, .f32⟩ : BufTy).Contents (Elt F)) : (⟨S100000, .f32⟩ : BufTy).Contents (Elt F)) : (⟨S100000, .f32⟩ : BufTy).Contents (Elt F)) : (⟨S100000, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (U22 m c (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (U22 m c (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (U22 m c (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000, .i32⟩ : BufTy).Contents (Elt F)) : (⟨S1700000x1, .i32⟩ : BufTy).Contents (Elt F)) : (⟨S1700000, .f32⟩ : BufTy).Contents (Elt F)) : (⟨S1700000, .f32⟩ : BufTy).Contents (Elt F)) :=
  (late1 m c main_v34 (by decide)).trans ((rv_main_v34 (U0 m c)).trans (by rw [late0 m c main_arg1 (by decide)]))

theorem rf_main_v41 (c : Dev nD) :
    U22 m c (Proc.devRef .tc main_v41) = (((subf : (⟨S100000x64, .f32⟩ : BufTy).Contents (Elt F) → (⟨S100000x64, .f32⟩ : BufTy).Contents (Elt F) → (⟨S100000x64, .f32⟩ : BufTy).Contents (Elt F))) (U22 m c (Proc.devRef .tc main_arg0) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.divf : (⟨S64, .f32⟩ : BufTy).Contents (Elt F) → (⟨S64, .f32⟩ : BufTy).Contents (Elt F) → (⟨S64, .f32⟩ : BufTy).Contents (Elt F))) ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (U22 m c (Proc.devRef .tc main_arg0) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x47C35000#32) : (⟨S_, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) :=
  (late2 m c main_v41 (by decide)).trans ((rv_main_v41 (U1 m c)).trans (by rw [late1 m c main_arg0 (by decide)]))

theorem rf_main_v44 (c : Dev nD) :
    U22 m c (Proc.devRef .tc main_v44) = (((Host.rsqrt : (⟨S64, .f32⟩ : BufTy).Contents (Elt F) → (⟨S64, .f32⟩ : BufTy).Contents (Elt F))) (((addf : (⟨S64, .f32⟩ : BufTy).Contents (Elt F) → (⟨S64, .f32⟩ : BufTy).Contents (Elt F) → (⟨S64, .f32⟩ : BufTy).Contents (Elt F))) (((fun p a b => select (broadcastInDim S64 ![] bcast_S_S64 p) a b)) (((cmpf .ogt)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (U22 m c (Proc.devRef .tc main_arg0) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (U22 m c (Proc.devRef .tc main_arg0) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (U22 m c (Proc.devRef .tc main_arg0) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (U22 m c (Proc.devRef .tc main_arg0) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x3727C5AC#32) : (⟨S_, .f32⟩ : BufTy).Contents (Elt F)) : (⟨S64, .f32⟩ : BufTy).Contents (Elt F)) : (⟨S64, .f32⟩ : BufTy).Contents (Elt F)) : (⟨S64, .f32⟩ : BufTy).Contents (Elt F)) :=
  (late2 m c main_v44 (by decide)).trans ((rv_main_v44 (U1 m c)).trans (by rw [late1 m c main_arg0 (by decide)]))

theorem rf_main_v58 (c : Dev nD) :
    U22 m c (Proc.devRef .tc main_v58) = ((maximumf) (((addf : (⟨S100000x64, .f32⟩ : BufTy).Contents (Elt F) → (⟨S100000x64, .f32⟩ : BufTy).Contents (Elt F) → (⟨S100000x64, .f32⟩ : BufTy).Contents (Elt F))) ((((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))) (((addf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (U22 m c (Proc.devRef .tc main_v41) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (U22 m c (Proc.devRef .tc main_v44) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (U22 m c (Proc.devRef .tc main_arg3) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (U22 m c (Proc.devRef .tc main_arg4) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (U22 m c (Proc.devRef .tc main_arg5) : (⟨S64x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (U22 m c (Proc.devRef .tc main_arg6) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![] bcast_S_S100000x64)) ((constant S_ .f32 0x00000000#32) : (⟨S_, .f32⟩ : BufTy).Contents (Elt F)) : (⟨S100000x64, .f32⟩ : BufTy).Contents (Elt F)) : (⟨S100000x64, .f32⟩ : BufTy).Contents (Elt F)) :=
  (late3 m c main_v58 (by decide)).trans ((rv_main_v58 (U2 m c)).trans (by rw [late2 m c main_arg3 (by decide), late2 m c main_arg4 (by decide), late2 m c main_arg5 (by decide), late2 m c main_arg6 (by decide), late2 m c main_v41 (by decide), late2 m c main_v44 (by decide)]))

theorem rf_main_v84 (c : Dev nD) :
    U22 m c (Proc.devRef .tc main_v84) = ((((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))) (((addf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((subf : (⟨S100000x64, .f32⟩ : BufTy).Contents (Elt F) → (⟨S100000x64, .f32⟩ : BufTy).Contents (Elt F) → (⟨S100000x64, .f32⟩ : BufTy).Contents (Elt F))) (U22 m c (Proc.devRef .tc main_v58) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.divf : (⟨S64, .f32⟩ : BufTy).Contents (Elt F) → (⟨S64, .f32⟩ : BufTy).Contents (Elt F) → (⟨S64, .f32⟩ : BufTy).Contents (Elt F))) ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (U22 m c (Proc.devRef .tc main_v58) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x47C35000#32) : (⟨S_, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.rsqrt : (⟨S64, .f32⟩ : BufTy).Contents (Elt F) → (⟨S64, .f32⟩ : BufTy).Contents (Elt F))) (((addf : (⟨S64, .f32⟩ : BufTy).Contents (Elt F) → (⟨S64, .f32⟩ : BufTy).Contents (Elt F) → (⟨S64, .f32⟩ : BufTy).Contents (Elt F))) (((fun p a b => select (broadcastInDim S64 ![] bcast_S_S64 p) a b)) (((cmpf .ogt)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (U22 m c (Proc.devRef .tc main_v58) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (U22 m c (Proc.devRef .tc main_v58) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (U22 m c (Proc.devRef .tc main_v58) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (U22 m c (Proc.devRef .tc main_v58) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x3727C5AC#32) : (⟨S_, .f32⟩ : BufTy).Contents (Elt F)) : (⟨S64, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![0, 0] · slices_S4x64_S1x64_0_0) : (⟨S4x64, .f32⟩ : BufTy).Contents (Elt F) → (⟨S1x64, .f32⟩ : BufTy).Contents (Elt F))) (U22 m c (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![0, 0] · slices_S4x64_S1x64_0_0) : (⟨S4x64, .f32⟩ : BufTy).Contents (Elt F) → (⟨S1x64, .f32⟩ : BufTy).Contents (Elt F))) (U22 m c (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (shapeCast S64x64 ((((extractStridedSlice S1x64x64 ![0, 0, 0] · slices_S4x64x64_S1x64x64_0_0_0) : (⟨S4x64x64, .f32⟩ : BufTy).Contents (Elt F) → (⟨S1x64x64, .f32⟩ : BufTy).Contents (Elt F))) (U22 m c (Proc.devRef .tc main_arg9) : (⟨S4x64x64, .f32⟩ : BufTy).Contents (Elt F)) : (⟨S1x64x64, .f32⟩ : BufTy).Contents (Elt F)) shapeCasts_S1x64x64_S64x64 : (⟨S64x64, .f32⟩ : BufTy).Contents (Elt F)) : (⟨S100000x64, .f32⟩ : BufTy).Contents (Elt F)) :=
  (late4 m c main_v84 (by decide)).trans ((rv_main_v84 (U3 m c)).trans (by rw [late3 m c main_arg7 (by decide), late3 m c main_arg8 (by decide), late3 m c main_arg9 (by decide), late3 m c main_v58 (by decide)]))

theorem rf_main_v97 (c : Dev nD) :
    U22 m c (Proc.devRef .tc main_v97) = ((((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))) (((broadcastInDim S100000x64 ![] bcast_S_S100000x64 : (⟨S_, .f32⟩ : BufTy).Contents (Elt F) → (⟨S100000x64, .f32⟩ : BufTy).Contents (Elt F))) ((constant S_ .f32 0x00000000#32) : (⟨S_, .f32⟩ : BufTy).Contents (Elt F)) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (U22 m c (Proc.devRef .tc main_v6) : (⟨S1700000, .i32⟩ : BufTy).Contents (Elt F)) : (⟨S1700000x1, .i32⟩ : BufTy).Contents (Elt F)) (((mulf : (⟨S1700000x64, .f32⟩ : BufTy).Contents (Elt F) → (⟨S1700000x64, .f32⟩ : BufTy).Contents (Elt F) → (⟨S1700000x64, .f32⟩ : BufTy).Contents (Elt F))) (((broadcastInDim S1700000x64 ![0, 1] bcast_S1700000x1_S1700000x64_0_1 : (⟨S1700000x1, .f32⟩ : BufTy).Contents (Elt F) → (⟨S1700000x64, .f32⟩ : BufTy).Contents (Elt F))) (((broadcastInDim S1700000x1 ![0] bcast_S1700000_S1700000x1_0 : (⟨S1700000, .f32⟩ : BufTy).Contents (Elt F) → (⟨S1700000x1, .f32⟩ : BufTy).Contents (Elt F))) (U22 m c (Proc.devRef .tc main_v34) : (⟨S1700000, .f32⟩ : BufTy).Contents (Elt F)) : (⟨S1700000x1, .f32⟩ : BufTy).Contents (Elt F)) : (⟨S1700000x64, .f32⟩ : BufTy).Contents (Elt F)) ((((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))) (U22 m c (Proc.devRef .tc main_v84) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (U22 m c (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (U22 m c (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (U22 m c (Proc.devRef .tc main_v3) : (⟨S1700000, .i32⟩ : BufTy).Contents (Elt F)) : (⟨S1700000, .i32⟩ : BufTy).Contents (Elt F)) : (⟨S1700000x1, .i32⟩ : BufTy).Contents (Elt F)) : (⟨S1700000x64, .f32⟩ : BufTy).Contents (Elt F)) : (⟨S1700000x64, .f32⟩ : BufTy).Contents (Elt F)) : (⟨S100000x64, .f32⟩ : BufTy).Contents (Elt F)) :=
  (late5 m c main_v97 (by decide)).trans ((rv_main_v97 (U4 m c)).trans (by rw [late4 m c main_v3 (by decide), late4 m c main_v34 (by decide), late4 m c main_v6 (by decide), late4 m c main_v84 (by decide)]))

theorem rf_main_v104 (c : Dev nD) :
    U22 m c (Proc.devRef .tc main_v104) = (((addf : (⟨S100000x64, .f32⟩ : BufTy).Contents (Elt F) → (⟨S100000x64, .f32⟩ : BufTy).Contents (Elt F) → (⟨S100000x64, .f32⟩ : BufTy).Contents (Elt F))) (U22 m c (Proc.devRef .tc main_v58) : (⟨S100000x64, .f32⟩ : BufTy).Contents (Elt F)) ((maximumf) (((addf : (⟨S100000x64, .f32⟩ : BufTy).Contents (Elt F) → (⟨S100000x64, .f32⟩ : BufTy).Contents (Elt F) → (⟨S100000x64, .f32⟩ : BufTy).Contents (Elt F))) (U22 m c (Proc.devRef .tc main_v97) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![0, 0] · slices_S4x64_S1x64_0_0) : (⟨S4x64, .f32⟩ : BufTy).Contents (Elt F) → (⟨S1x64, .f32⟩ : BufTy).Contents (Elt F))) (U22 m c (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![] bcast_S_S100000x64)) ((constant S_ .f32 0x00000000#32) : (⟨S_, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) :=
  (late6 m c main_v104 (by decide)).trans ((rv_main_v104 (U5 m c)).trans (by rw [late5 m c main_arg10 (by decide), late5 m c main_v58 (by decide), late5 m c main_v97 (by decide)]))

theorem rf_main_v130 (c : Dev nD) :
    U22 m c (Proc.devRef .tc main_v130) = ((((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))) (((addf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((subf : (⟨S100000x64, .f32⟩ : BufTy).Contents (Elt F) → (⟨S100000x64, .f32⟩ : BufTy).Contents (Elt F) → (⟨S100000x64, .f32⟩ : BufTy).Contents (Elt F))) (U22 m c (Proc.devRef .tc main_v104) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.divf : (⟨S64, .f32⟩ : BufTy).Contents (Elt F) → (⟨S64, .f32⟩ : BufTy).Contents (Elt F) → (⟨S64, .f32⟩ : BufTy).Contents (Elt F))) ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (U22 m c (Proc.devRef .tc main_v104) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x47C35000#32) : (⟨S_, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.rsqrt : (⟨S64, .f32⟩ : BufTy).Contents (Elt F) → (⟨S64, .f32⟩ : BufTy).Contents (Elt F))) (((addf : (⟨S64, .f32⟩ : BufTy).Contents (Elt F) → (⟨S64, .f32⟩ : BufTy).Contents (Elt F) → (⟨S64, .f32⟩ : BufTy).Contents (Elt F))) (((fun p a b => select (broadcastInDim S64 ![] bcast_S_S64 p) a b)) (((cmpf .ogt)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (U22 m c (Proc.devRef .tc main_v104) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (U22 m c (Proc.devRef .tc main_v104) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (U22 m c (Proc.devRef .tc main_v104) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (U22 m c (Proc.devRef .tc main_v104) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x3727C5AC#32) : (⟨S_, .f32⟩ : BufTy).Contents (Elt F)) : (⟨S64, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![1, 0] · slices_S4x64_S1x64_1_0) : (⟨S4x64, .f32⟩ : BufTy).Contents (Elt F) → (⟨S1x64, .f32⟩ : BufTy).Contents (Elt F))) (U22 m c (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![1, 0] · slices_S4x64_S1x64_1_0) : (⟨S4x64, .f32⟩ : BufTy).Contents (Elt F) → (⟨S1x64, .f32⟩ : BufTy).Contents (Elt F))) (U22 m c (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (shapeCast S64x64 ((((extractStridedSlice S1x64x64 ![1, 0, 0] · slices_S4x64x64_S1x64x64_1_0_0) : (⟨S4x64x64, .f32⟩ : BufTy).Contents (Elt F) → (⟨S1x64x64, .f32⟩ : BufTy).Contents (Elt F))) (U22 m c (Proc.devRef .tc main_arg9) : (⟨S4x64x64, .f32⟩ : BufTy).Contents (Elt F)) : (⟨S1x64x64, .f32⟩ : BufTy).Contents (Elt F)) shapeCasts_S1x64x64_S64x64 : (⟨S64x64, .f32⟩ : BufTy).Contents (Elt F)) : (⟨S100000x64, .f32⟩ : BufTy).Contents (Elt F)) :=
  (late7 m c main_v130 (by decide)).trans ((rv_main_v130 (U6 m c)).trans (by rw [late6 m c main_arg7 (by decide), late6 m c main_arg8 (by decide), late6 m c main_arg9 (by decide), late6 m c main_v104 (by decide)]))

theorem rf_main_v143 (c : Dev nD) :
    U22 m c (Proc.devRef .tc main_v143) = ((((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))) (((broadcastInDim S100000x64 ![] bcast_S_S100000x64 : (⟨S_, .f32⟩ : BufTy).Contents (Elt F) → (⟨S100000x64, .f32⟩ : BufTy).Contents (Elt F))) ((constant S_ .f32 0x00000000#32) : (⟨S_, .f32⟩ : BufTy).Contents (Elt F)) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (U22 m c (Proc.devRef .tc main_v6) : (⟨S1700000, .i32⟩ : BufTy).Contents (Elt F)) : (⟨S1700000x1, .i32⟩ : BufTy).Contents (Elt F)) (((mulf : (⟨S1700000x64, .f32⟩ : BufTy).Contents (Elt F) → (⟨S1700000x64, .f32⟩ : BufTy).Contents (Elt F) → (⟨S1700000x64, .f32⟩ : BufTy).Contents (Elt F))) (((broadcastInDim S1700000x64 ![0, 1] bcast_S1700000x1_S1700000x64_0_1 : (⟨S1700000x1, .f32⟩ : BufTy).Contents (Elt F) → (⟨S1700000x64, .f32⟩ : BufTy).Contents (Elt F))) (((broadcastInDim S1700000x1 ![0] bcast_S1700000_S1700000x1_0 : (⟨S1700000, .f32⟩ : BufTy).Contents (Elt F) → (⟨S1700000x1, .f32⟩ : BufTy).Contents (Elt F))) (U22 m c (Proc.devRef .tc main_v34) : (⟨S1700000, .f32⟩ : BufTy).Contents (Elt F)) : (⟨S1700000x1, .f32⟩ : BufTy).Contents (Elt F)) : (⟨S1700000x64, .f32⟩ : BufTy).Contents (Elt F)) ((((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))) (U22 m c (Proc.devRef .tc main_v130) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (U22 m c (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (U22 m c (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (U22 m c (Proc.devRef .tc main_v3) : (⟨S1700000, .i32⟩ : BufTy).Contents (Elt F)) : (⟨S1700000, .i32⟩ : BufTy).Contents (Elt F)) : (⟨S1700000x1, .i32⟩ : BufTy).Contents (Elt F)) : (⟨S1700000x64, .f32⟩ : BufTy).Contents (Elt F)) : (⟨S1700000x64, .f32⟩ : BufTy).Contents (Elt F)) : (⟨S100000x64, .f32⟩ : BufTy).Contents (Elt F)) :=
  (late8 m c main_v143 (by decide)).trans ((rv_main_v143 (U7 m c)).trans (by rw [late7 m c main_v130 (by decide), late7 m c main_v3 (by decide), late7 m c main_v34 (by decide), late7 m c main_v6 (by decide)]))

theorem rf_main_v150 (c : Dev nD) :
    U22 m c (Proc.devRef .tc main_v150) = (((addf : (⟨S100000x64, .f32⟩ : BufTy).Contents (Elt F) → (⟨S100000x64, .f32⟩ : BufTy).Contents (Elt F) → (⟨S100000x64, .f32⟩ : BufTy).Contents (Elt F))) (U22 m c (Proc.devRef .tc main_v104) : (⟨S100000x64, .f32⟩ : BufTy).Contents (Elt F)) ((maximumf) (((addf : (⟨S100000x64, .f32⟩ : BufTy).Contents (Elt F) → (⟨S100000x64, .f32⟩ : BufTy).Contents (Elt F) → (⟨S100000x64, .f32⟩ : BufTy).Contents (Elt F))) (U22 m c (Proc.devRef .tc main_v143) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![1, 0] · slices_S4x64_S1x64_1_0) : (⟨S4x64, .f32⟩ : BufTy).Contents (Elt F) → (⟨S1x64, .f32⟩ : BufTy).Contents (Elt F))) (U22 m c (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![] bcast_S_S100000x64)) ((constant S_ .f32 0x00000000#32) : (⟨S_, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) :=
  (late9 m c main_v150 (by decide)).trans ((rv_main_v150 (U8 m c)).trans (by rw [late8 m c main_arg10 (by decide), late8 m c main_v104 (by decide), late8 m c main_v143 (by decide)]))

theorem rf_main_v176 (c : Dev nD) :
    U22 m c (Proc.devRef .tc main_v176) = ((((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))) (((addf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((subf : (⟨S100000x64, .f32⟩ : BufTy).Contents (Elt F) → (⟨S100000x64, .f32⟩ : BufTy).Contents (Elt F) → (⟨S100000x64, .f32⟩ : BufTy).Contents (Elt F))) (U22 m c (Proc.devRef .tc main_v150) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.divf : (⟨S64, .f32⟩ : BufTy).Contents (Elt F) → (⟨S64, .f32⟩ : BufTy).Contents (Elt F) → (⟨S64, .f32⟩ : BufTy).Contents (Elt F))) ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (U22 m c (Proc.devRef .tc main_v150) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x47C35000#32) : (⟨S_, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.rsqrt : (⟨S64, .f32⟩ : BufTy).Contents (Elt F) → (⟨S64, .f32⟩ : BufTy).Contents (Elt F))) (((addf : (⟨S64, .f32⟩ : BufTy).Contents (Elt F) → (⟨S64, .f32⟩ : BufTy).Contents (Elt F) → (⟨S64, .f32⟩ : BufTy).Contents (Elt F))) (((fun p a b => select (broadcastInDim S64 ![] bcast_S_S64 p) a b)) (((cmpf .ogt)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (U22 m c (Proc.devRef .tc main_v150) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (U22 m c (Proc.devRef .tc main_v150) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (U22 m c (Proc.devRef .tc main_v150) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (U22 m c (Proc.devRef .tc main_v150) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x3727C5AC#32) : (⟨S_, .f32⟩ : BufTy).Contents (Elt F)) : (⟨S64, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![2, 0] · slices_S4x64_S1x64_2_0) : (⟨S4x64, .f32⟩ : BufTy).Contents (Elt F) → (⟨S1x64, .f32⟩ : BufTy).Contents (Elt F))) (U22 m c (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![2, 0] · slices_S4x64_S1x64_2_0) : (⟨S4x64, .f32⟩ : BufTy).Contents (Elt F) → (⟨S1x64, .f32⟩ : BufTy).Contents (Elt F))) (U22 m c (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (shapeCast S64x64 ((((extractStridedSlice S1x64x64 ![2, 0, 0] · slices_S4x64x64_S1x64x64_2_0_0) : (⟨S4x64x64, .f32⟩ : BufTy).Contents (Elt F) → (⟨S1x64x64, .f32⟩ : BufTy).Contents (Elt F))) (U22 m c (Proc.devRef .tc main_arg9) : (⟨S4x64x64, .f32⟩ : BufTy).Contents (Elt F)) : (⟨S1x64x64, .f32⟩ : BufTy).Contents (Elt F)) shapeCasts_S1x64x64_S64x64 : (⟨S64x64, .f32⟩ : BufTy).Contents (Elt F)) : (⟨S100000x64, .f32⟩ : BufTy).Contents (Elt F)) :=
  (late10 m c main_v176 (by decide)).trans ((rv_main_v176 (U9 m c)).trans (by rw [late9 m c main_arg7 (by decide), late9 m c main_arg8 (by decide), late9 m c main_arg9 (by decide), late9 m c main_v150 (by decide)]))

theorem rf_main_v189 (c : Dev nD) :
    U22 m c (Proc.devRef .tc main_v189) = ((((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))) (((broadcastInDim S100000x64 ![] bcast_S_S100000x64 : (⟨S_, .f32⟩ : BufTy).Contents (Elt F) → (⟨S100000x64, .f32⟩ : BufTy).Contents (Elt F))) ((constant S_ .f32 0x00000000#32) : (⟨S_, .f32⟩ : BufTy).Contents (Elt F)) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (U22 m c (Proc.devRef .tc main_v6) : (⟨S1700000, .i32⟩ : BufTy).Contents (Elt F)) : (⟨S1700000x1, .i32⟩ : BufTy).Contents (Elt F)) (((mulf : (⟨S1700000x64, .f32⟩ : BufTy).Contents (Elt F) → (⟨S1700000x64, .f32⟩ : BufTy).Contents (Elt F) → (⟨S1700000x64, .f32⟩ : BufTy).Contents (Elt F))) (((broadcastInDim S1700000x64 ![0, 1] bcast_S1700000x1_S1700000x64_0_1 : (⟨S1700000x1, .f32⟩ : BufTy).Contents (Elt F) → (⟨S1700000x64, .f32⟩ : BufTy).Contents (Elt F))) (((broadcastInDim S1700000x1 ![0] bcast_S1700000_S1700000x1_0 : (⟨S1700000, .f32⟩ : BufTy).Contents (Elt F) → (⟨S1700000x1, .f32⟩ : BufTy).Contents (Elt F))) (U22 m c (Proc.devRef .tc main_v34) : (⟨S1700000, .f32⟩ : BufTy).Contents (Elt F)) : (⟨S1700000x1, .f32⟩ : BufTy).Contents (Elt F)) : (⟨S1700000x64, .f32⟩ : BufTy).Contents (Elt F)) ((((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))) (U22 m c (Proc.devRef .tc main_v176) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (U22 m c (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (U22 m c (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (U22 m c (Proc.devRef .tc main_v3) : (⟨S1700000, .i32⟩ : BufTy).Contents (Elt F)) : (⟨S1700000, .i32⟩ : BufTy).Contents (Elt F)) : (⟨S1700000x1, .i32⟩ : BufTy).Contents (Elt F)) : (⟨S1700000x64, .f32⟩ : BufTy).Contents (Elt F)) : (⟨S1700000x64, .f32⟩ : BufTy).Contents (Elt F)) : (⟨S100000x64, .f32⟩ : BufTy).Contents (Elt F)) :=
  (late11 m c main_v189 (by decide)).trans ((rv_main_v189 (U10 m c)).trans (by rw [late10 m c main_v176 (by decide), late10 m c main_v3 (by decide), late10 m c main_v34 (by decide), late10 m c main_v6 (by decide)]))

theorem rf_main_v196 (c : Dev nD) :
    U22 m c (Proc.devRef .tc main_v196) = (((addf : (⟨S100000x64, .f32⟩ : BufTy).Contents (Elt F) → (⟨S100000x64, .f32⟩ : BufTy).Contents (Elt F) → (⟨S100000x64, .f32⟩ : BufTy).Contents (Elt F))) (U22 m c (Proc.devRef .tc main_v150) : (⟨S100000x64, .f32⟩ : BufTy).Contents (Elt F)) ((maximumf) (((addf : (⟨S100000x64, .f32⟩ : BufTy).Contents (Elt F) → (⟨S100000x64, .f32⟩ : BufTy).Contents (Elt F) → (⟨S100000x64, .f32⟩ : BufTy).Contents (Elt F))) (U22 m c (Proc.devRef .tc main_v189) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![2, 0] · slices_S4x64_S1x64_2_0) : (⟨S4x64, .f32⟩ : BufTy).Contents (Elt F) → (⟨S1x64, .f32⟩ : BufTy).Contents (Elt F))) (U22 m c (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![] bcast_S_S100000x64)) ((constant S_ .f32 0x00000000#32) : (⟨S_, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) :=
  (late12 m c main_v196 (by decide)).trans ((rv_main_v196 (U11 m c)).trans (by rw [late11 m c main_arg10 (by decide), late11 m c main_v150 (by decide), late11 m c main_v189 (by decide)]))

theorem rf_main_v198 (c : Dev nD) :
    U22 m c (Proc.devRef .tc main_v198) = (shapeCast S64 ((((extractStridedSlice S1x64 ![3, 0] · slices_S4x64_S1x64_3_0) : (⟨S4x64, .f32⟩ : BufTy).Contents (Elt F) → (⟨S1x64, .f32⟩ : BufTy).Contents (Elt F))) (U22 m c (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) :=
  (late13 m c main_v198 (by decide)).trans ((rv_main_v198 (U12 m c)).trans (by rw [late12 m c main_arg7 (by decide)]))

theorem rf_main_v200 (c : Dev nD) :
    U22 m c (Proc.devRef .tc main_v200) = (shapeCast S64 ((((extractStridedSlice S1x64 ![3, 0] · slices_S4x64_S1x64_3_0) : (⟨S4x64, .f32⟩ : BufTy).Contents (Elt F) → (⟨S1x64, .f32⟩ : BufTy).Contents (Elt F))) (U22 m c (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) :=
  (late13 m c main_v200 (by decide)).trans ((rv_main_v200 (U12 m c)).trans (by rw [late12 m c main_arg8 (by decide)]))

theorem rf_main_v201 (c : Dev nD) :
    U22 m c (Proc.devRef .tc main_v201) = ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (U22 m c (Proc.devRef .tc main_v196) : (⟨S100000x64, .f32⟩ : BufTy).Contents (Elt F)) ((constant S_ .f32 0x00000000#32) : (⟨S_, .f32⟩ : BufTy).Contents (Elt F)) : (⟨S64, .f32⟩ : BufTy).Contents (Elt F)) :=
  (late13 m c main_v201 (by decide)).trans ((rv_main_v201 (U12 m c)).trans (by rw [late12 m c main_v196 (by decide)]))

theorem rf_main_cst_35 (c : Dev nD) :
    U22 m c (Proc.devRef .tc main_cst_35) = ((constant S_ .f32 0x47C35000#32) : (⟨S_, .f32⟩ : BufTy).Contents (Elt F)) :=
  (late13 m c main_cst_35 (by decide)).trans ((rv_main_cst_35 (U12 m c)).trans (rfl))

theorem rf_main_v222 (c : Dev nD) :
    U22 m c (Proc.devRef .tc main_v222) = ((((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))) (((addf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((mulf : (⟨S100000x64, .f32⟩ : BufTy).Contents (Elt F) → (⟨S100000x64, .f32⟩ : BufTy).Contents (Elt F) → (⟨S100000x64, .f32⟩ : BufTy).Contents (Elt F))) (((subf : (⟨S100000x64, .f32⟩ : BufTy).Contents (Elt F) → (⟨S100000x64, .f32⟩ : BufTy).Contents (Elt F) → (⟨S100000x64, .f32⟩ : BufTy).Contents (Elt F))) (U22 m c (Proc.devRef .tc main_v196) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.divf : (⟨S64, .f32⟩ : BufTy).Contents (Elt F) → (⟨S64, .f32⟩ : BufTy).Contents (Elt F) → (⟨S64, .f32⟩ : BufTy).Contents (Elt F))) (U22 m c (Proc.devRef .tc main_v201) : (⟨S64, .f32⟩ : BufTy).Contents (Elt F)) (((broadcastInDim S64 ![] bcast_S_S64 : (⟨S_, .f32⟩ : BufTy).Contents (Elt F) → (⟨S64, .f32⟩ : BufTy).Contents (Elt F))) (U22 m c (Proc.devRef .tc main_cst_35) : (⟨S_, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.rsqrt : (⟨S64, .f32⟩ : BufTy).Contents (Elt F) → (⟨S64, .f32⟩ : BufTy).Contents (Elt F))) (((addf : (⟨S64, .f32⟩ : BufTy).Contents (Elt F) → (⟨S64, .f32⟩ : BufTy).Contents (Elt F) → (⟨S64, .f32⟩ : BufTy).Contents (Elt F))) (((fun p a b => select (broadcastInDim S64 ![] bcast_S_S64 p) a b)) (((cmpf .ogt)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (U22 m c (Proc.devRef .tc main_v196) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (U22 m c (Proc.devRef .tc main_v196) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (U22 m c (Proc.devRef .tc main_v196) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (U22 m c (Proc.devRef .tc main_v196) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x3727C5AC#32) : (⟨S_, .f32⟩ : BufTy).Contents (Elt F)) : (⟨S64, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (U22 m c (Proc.devRef .tc main_v198) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (U22 m c (Proc.devRef .tc main_v200) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (shapeCast S64x64 ((((extractStridedSlice S1x64x64 ![3, 0, 0] · slices_S4x64x64_S1x64x64_3_0_0) : (⟨S4x64x64, .f32⟩ : BufTy).Contents (Elt F) → (⟨S1x64x64, .f32⟩ : BufTy).Contents (Elt F))) (U22 m c (Proc.devRef .tc main_arg9) : (⟨S4x64x64, .f32⟩ : BufTy).Contents (Elt F)) : (⟨S1x64x64, .f32⟩ : BufTy).Contents (Elt F)) shapeCasts_S1x64x64_S64x64 : (⟨S64x64, .f32⟩ : BufTy).Contents (Elt F)) : (⟨S100000x64, .f32⟩ : BufTy).Contents (Elt F)) :=
  (late14 m c main_v222 (by decide)).trans ((rv_main_v222 (U13 m c)).trans (by rw [late13 m c main_arg9 (by decide), late13 m c main_cst_35 (by decide), late13 m c main_v196 (by decide), late13 m c main_v198 (by decide), late13 m c main_v200 (by decide), late13 m c main_v201 (by decide)]))

theorem rf_main_v235 (c : Dev nD) :
    U22 m c (Proc.devRef .tc main_v235) = ((((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))) (((broadcastInDim S100000x64 ![] bcast_S_S100000x64 : (⟨S_, .f32⟩ : BufTy).Contents (Elt F) → (⟨S100000x64, .f32⟩ : BufTy).Contents (Elt F))) ((constant S_ .f32 0x00000000#32) : (⟨S_, .f32⟩ : BufTy).Contents (Elt F)) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (U22 m c (Proc.devRef .tc main_v6) : (⟨S1700000, .i32⟩ : BufTy).Contents (Elt F)) : (⟨S1700000x1, .i32⟩ : BufTy).Contents (Elt F)) (((mulf : (⟨S1700000x64, .f32⟩ : BufTy).Contents (Elt F) → (⟨S1700000x64, .f32⟩ : BufTy).Contents (Elt F) → (⟨S1700000x64, .f32⟩ : BufTy).Contents (Elt F))) (((broadcastInDim S1700000x64 ![0, 1] bcast_S1700000x1_S1700000x64_0_1 : (⟨S1700000x1, .f32⟩ : BufTy).Contents (Elt F) → (⟨S1700000x64, .f32⟩ : BufTy).Contents (Elt F))) (((broadcastInDim S1700000x1 ![0] bcast_S1700000_S1700000x1_0 : (⟨S1700000, .f32⟩ : BufTy).Contents (Elt F) → (⟨S1700000x1, .f32⟩ : BufTy).Contents (Elt F))) (U22 m c (Proc.devRef .tc main_v34) : (⟨S1700000, .f32⟩ : BufTy).Contents (Elt F)) : (⟨S1700000x1, .f32⟩ : BufTy).Contents (Elt F)) : (⟨S1700000x64, .f32⟩ : BufTy).Contents (Elt F)) ((((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))) (U22 m c (Proc.devRef .tc main_v222) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (U22 m c (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (U22 m c (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (U22 m c (Proc.devRef .tc main_v3) : (⟨S1700000, .i32⟩ : BufTy).Contents (Elt F)) : (⟨S1700000, .i32⟩ : BufTy).Contents (Elt F)) : (⟨S1700000x1, .i32⟩ : BufTy).Contents (Elt F)) : (⟨S1700000x64, .f32⟩ : BufTy).Contents (Elt F)) : (⟨S1700000x64, .f32⟩ : BufTy).Contents (Elt F)) : (⟨S100000x64, .f32⟩ : BufTy).Contents (Elt F)) :=
  (late15 m c main_v235 (by decide)).trans ((rv_main_v235 (U14 m c)).trans (by rw [late14 m c main_v222 (by decide), late14 m c main_v3 (by decide), late14 m c main_v34 (by decide), late14 m c main_v6 (by decide)]))

theorem rf_main_v242 (c : Dev nD) :
    U22 m c (Proc.devRef .tc main_v242) = (((addf : (⟨S100000x64, .f32⟩ : BufTy).Contents (Elt F) → (⟨S100000x64, .f32⟩ : BufTy).Contents (Elt F) → (⟨S100000x64, .f32⟩ : BufTy).Contents (Elt F))) (U22 m c (Proc.devRef .tc main_v196) : (⟨S100000x64, .f32⟩ : BufTy).Contents (Elt F)) ((maximumf) (((addf : (⟨S100000x64, .f32⟩ : BufTy).Contents (Elt F) → (⟨S100000x64, .f32⟩ : BufTy).Contents (Elt F) → (⟨S100000x64, .f32⟩ : BufTy).Contents (Elt F))) (U22 m c (Proc.devRef .tc main_v235) : (⟨S100000x64, .f32⟩ : BufTy).Contents (Elt F)) (((broadcastInDim S100000x64 ![0, 1] bcast_S1x64_S100000x64_0_1 : (⟨S1x64, .f32⟩ : BufTy).Contents (Elt F) → (⟨S100000x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![3, 0] · slices_S4x64_S1x64_3_0) : (⟨S4x64, .f32⟩ : BufTy).Contents (Elt F) → (⟨S1x64, .f32⟩ : BufTy).Contents (Elt F))) (U22 m c (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (((broadcastInDim S100000x64 ![] bcast_S_S100000x64)) ((constant S_ .f32 0x00000000#32) : (⟨S_, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) :=
  (late16 m c main_v242 (by decide)).trans ((rv_main_v242 (U15 m c)).trans (by rw [late15 m c main_arg10 (by decide), late15 m c main_v196 (by decide), late15 m c main_v235 (by decide)]))

theorem rf_main_v245 (c : Dev nD) :
    U22 m c (Proc.devRef .tc main_v245) = ((((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F))) (((broadcastInDim S512x64 ![] bcast_S_S512x64 : (⟨S_, .f32⟩ : BufTy).Contents (Elt F) → (⟨S512x64, .f32⟩ : BufTy).Contents (Elt F))) ((constant S_ .f32 0x00000000#32) : (⟨S_, .f32⟩ : BufTy).Contents (Elt F)) : (⟨S512x64, .f32⟩ : BufTy).Contents (Elt F)) (((broadcastInDim S100000x1 ![0] bcast_S100000_S100000x1_0 : (⟨S100000, .i32⟩ : BufTy).Contents (Elt F) → (⟨S100000x1, .i32⟩ : BufTy).Contents (Elt F))) (U22 m c (Proc.devRef .tc main_arg2) : (⟨S100000, .i32⟩ : BufTy).Contents (Elt F)) : (⟨S100000x1, .i32⟩ : BufTy).Contents (Elt F)) (U22 m c (Proc.devRef .tc main_v242) : (⟨S100000x64, .f32⟩ : BufTy).Contents (Elt F)) : (⟨S512x64, .f32⟩ : BufTy).Contents (Elt F)) :=
  (late17 m c main_v245 (by decide)).trans ((rv_main_v245 (U16 m c)).trans (by rw [late16 m c main_arg2 (by decide), late16 m c main_v242 (by decide)]))

theorem rf_main_v247 (c : Dev nD) :
    U22 m c (Proc.devRef .tc main_v247) = (shapeCast S64 ((((extractStridedSlice S1x64 ![0, 0] · slices_S2x64_S1x64_0_0) : (⟨S2x64, .f32⟩ : BufTy).Contents (Elt F) → (⟨S1x64, .f32⟩ : BufTy).Contents (Elt F))) (U22 m c (Proc.devRef .tc main_arg11) : (⟨S2x64, .f32⟩ : BufTy).Contents (Elt F)) : (⟨S1x64, .f32⟩ : BufTy).Contents (Elt F)) shapeCasts_S1x64_S64 : (⟨S64, .f32⟩ : BufTy).Contents (Elt F)) :=
  (late18 m c main_v247 (by decide)).trans ((rv_main_v247 (U17 m c)).trans (by rw [late17 m c main_arg11 (by decide)]))

theorem rf_main_v249 (c : Dev nD) :
    U22 m c (Proc.devRef .tc main_v249) = (shapeCast S64 ((((extractStridedSlice S1x64 ![0, 0] · slices_S2x64_S1x64_0_0) : (⟨S2x64, .f32⟩ : BufTy).Contents (Elt F) → (⟨S1x64, .f32⟩ : BufTy).Contents (Elt F))) (U22 m c (Proc.devRef .tc main_arg12) : (⟨S2x64, .f32⟩ : BufTy).Contents (Elt F)) : (⟨S1x64, .f32⟩ : BufTy).Contents (Elt F)) shapeCasts_S1x64_S64 : (⟨S64, .f32⟩ : BufTy).Contents (Elt F)) :=
  (late18 m c main_v249 (by decide)).trans ((rv_main_v249 (U17 m c)).trans (by rw [late17 m c main_arg12 (by decide)]))

theorem rf_main_v252 (c : Dev nD) :
    U22 m c (Proc.devRef .tc main_v252) = (((Host.divf : (⟨S64, .f32⟩ : BufTy).Contents (Elt F) → (⟨S64, .f32⟩ : BufTy).Contents (Elt F) → (⟨S64, .f32⟩ : BufTy).Contents (Elt F))) ((((fun x v => Host.reduceAdd x v reducesTo_S512x64_S64_d0 h_S_) : (⟨S512x64, .f32⟩ : BufTy).Contents (Elt F) → (⟨S_, .f32⟩ : BufTy).Contents (Elt F) → (⟨S64, .f32⟩ : BufTy).Contents (Elt F))) (U22 m c (Proc.devRef .tc main_v245) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x44000000#32) : (⟨S_, .f32⟩ : BufTy).Contents (Elt F)) : (⟨S64, .f32⟩ : BufTy).Contents (Elt F)) : (⟨S64, .f32⟩ : BufTy).Contents (Elt F)) :=
  (late18 m c main_v252 (by decide)).trans ((rv_main_v252 (U17 m c)).trans (by rw [late17 m c main_v245 (by decide)]))

theorem rf_main_c_44 (c : Dev nD) :
    U22 m c (Proc.devRef .tc main_c_44) = ((constantI S_ 32 0#32) : (⟨S_, .i32⟩ : BufTy).Contents (Elt F)) :=
  (late18 m c main_c_44 (by decide)).trans ((rv_main_c_44 (U17 m c)).trans (rfl))

theorem rf_main_v277 (c : Dev nD) :
    U22 m c (Proc.devRef .tc main_v277) = ((maximumf) (((addf : (⟨S512x64, .f32⟩ : BufTy).Contents (Elt F) → (⟨S512x64, .f32⟩ : BufTy).Contents (Elt F) → (⟨S512x64, .f32⟩ : BufTy).Contents (Elt F))) ((((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F))) (((addf : (⟨S512x64, .f32⟩ : BufTy).Contents (Elt F) → (⟨S512x64, .f32⟩ : BufTy).Contents (Elt F) → (⟨S512x64, .f32⟩ : BufTy).Contents (Elt F))) (((mulf : (⟨S512x64, .f32⟩ : BufTy).Contents (Elt F) → (⟨S512x64, .f32⟩ : BufTy).Contents (Elt F) → (⟨S512x64, .f32⟩ : BufTy).Contents (Elt F))) (((mulf : (⟨S512x64, .f32⟩ : BufTy).Contents (Elt F) → (⟨S512x64, .f32⟩ : BufTy).Contents (Elt F) → (⟨S512x64, .f32⟩ : BufTy).Contents (Elt F))) (((subf : (⟨S512x64, .f32⟩ : BufTy).Contents (Elt F) → (⟨S512x64, .f32⟩ : BufTy).Contents (Elt F) → (⟨S512x64, .f32⟩ : BufTy).Contents (Elt F))) (U22 m c (Proc.devRef .tc main_v245) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (U22 m c (Proc.devRef .tc main_v252) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.rsqrt : (⟨S64, .f32⟩ : BufTy).Contents (Elt F) → (⟨S64, .f32⟩ : BufTy).Contents (Elt F))) (((addf : (⟨S64, .f32⟩ : BufTy).Contents (Elt F) → (⟨S64, .f32⟩ : BufTy).Contents (Elt F) → (⟨S64, .f32⟩ : BufTy).Contents (Elt F))) (((fun p a b => select (broadcastInDim S64 ![] bcast_S_S64 p) a b)) (((cmpf .ogt)) ((subf) ((constant S_ .f32 0x44000000#32) : (⟨S_, .f32⟩ : BufTy).Contents (Elt F)) (((sitofp .f32)) (U22 m c (Proc.devRef .tc main_c_44) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S512x64_S64_d0 h_S_)) ((mulf) ((subf) (U22 m c (Proc.devRef .tc main_v245) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (U22 m c (Proc.devRef .tc main_v245) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) ((subf) (U22 m c (Proc.devRef .tc main_v245) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (U22 m c (Proc.devRef .tc main_v245) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x44000000#32) : (⟨S_, .f32⟩ : BufTy).Contents (Elt F)) (((sitofp .f32)) (U22 m c (Proc.devRef .tc main_c_44) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x3727C5AC#32) : (⟨S_, .f32⟩ : BufTy).Contents (Elt F)) : (⟨S64, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (U22 m c (Proc.devRef .tc main_v247) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (U22 m c (Proc.devRef .tc main_v249) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (shapeCast S64x64 ((((extractStridedSlice S1x64x64 ![0, 0, 0] · slices_S2x64x64_S1x64x64_0_0_0) : (⟨S2x64x64, .f32⟩ : BufTy).Contents (Elt F) → (⟨S1x64x64, .f32⟩ : BufTy).Contents (Elt F))) (U22 m c (Proc.devRef .tc main_arg13) : (⟨S2x64x64, .f32⟩ : BufTy).Contents (Elt F)) : (⟨S1x64x64, .f32⟩ : BufTy).Contents (Elt F)) shapeCasts_S1x64x64_S64x64 : (⟨S64x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![0, 0] · slices_S2x64_S1x64_0_0) : (⟨S2x64, .f32⟩ : BufTy).Contents (Elt F) → (⟨S1x64, .f32⟩ : BufTy).Contents (Elt F))) (U22 m c (Proc.devRef .tc main_arg14) : (⟨S2x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![] bcast_S_S512x64)) ((constant S_ .f32 0x00000000#32) : (⟨S_, .f32⟩ : BufTy).Contents (Elt F)) : (⟨S512x64, .f32⟩ : BufTy).Contents (Elt F)) : (⟨S512x64, .f32⟩ : BufTy).Contents (Elt F)) :=
  (late19 m c main_v277 (by decide)).trans ((rv_main_v277 (U18 m c)).trans (by rw [late18 m c main_arg13 (by decide), late18 m c main_arg14 (by decide), late18 m c main_c_44 (by decide), late18 m c main_v245 (by decide), late18 m c main_v247 (by decide), late18 m c main_v249 (by decide), late18 m c main_v252 (by decide)]))

theorem rf_main_v303 (c : Dev nD) :
    U22 m c (Proc.devRef .tc main_v303) = ((((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F))) (((addf : (⟨S512x64, .f32⟩ : BufTy).Contents (Elt F) → (⟨S512x64, .f32⟩ : BufTy).Contents (Elt F) → (⟨S512x64, .f32⟩ : BufTy).Contents (Elt F))) (((mulf : (⟨S512x64, .f32⟩ : BufTy).Contents (Elt F) → (⟨S512x64, .f32⟩ : BufTy).Contents (Elt F) → (⟨S512x64, .f32⟩ : BufTy).Contents (Elt F))) (((mulf : (⟨S512x64, .f32⟩ : BufTy).Contents (Elt F) → (⟨S512x64, .f32⟩ : BufTy).Contents (Elt F) → (⟨S512x64, .f32⟩ : BufTy).Contents (Elt F))) (((subf : (⟨S512x64, .f32⟩ : BufTy).Contents (Elt F) → (⟨S512x64, .f32⟩ : BufTy).Contents (Elt F) → (⟨S512x64, .f32⟩ : BufTy).Contents (Elt F))) (U22 m c (Proc.devRef .tc main_v277) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.divf : (⟨S64, .f32⟩ : BufTy).Contents (Elt F) → (⟨S64, .f32⟩ : BufTy).Contents (Elt F) → (⟨S64, .f32⟩ : BufTy).Contents (Elt F))) ((((fun x v => Host.reduceAdd x v reducesTo_S512x64_S64_d0 h_S_) : (⟨S512x64, .f32⟩ : BufTy).Contents (Elt F) → (⟨S_, .f32⟩ : BufTy).Contents (Elt F) → (⟨S64, .f32⟩ : BufTy).Contents (Elt F))) (U22 m c (Proc.devRef .tc main_v277) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x44000000#32) : (⟨S_, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.rsqrt : (⟨S64, .f32⟩ : BufTy).Contents (Elt F) → (⟨S64, .f32⟩ : BufTy).Contents (Elt F))) (((addf : (⟨S64, .f32⟩ : BufTy).Contents (Elt F) → (⟨S64, .f32⟩ : BufTy).Contents (Elt F) → (⟨S64, .f32⟩ : BufTy).Contents (Elt F))) (((fun p a b => select (broadcastInDim S64 ![] bcast_S_S64 p) a b)) (((cmpf .ogt)) ((subf) ((constant S_ .f32 0x44000000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S512x64_S64_d0 h_S_)) ((mulf) ((subf) (U22 m c (Proc.devRef .tc main_v277) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (U22 m c (Proc.devRef .tc main_v277) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) ((subf) (U22 m c (Proc.devRef .tc main_v277) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (U22 m c (Proc.devRef .tc main_v277) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x44000000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x3727C5AC#32) : (⟨S_, .f32⟩ : BufTy).Contents (Elt F)) : (⟨S64, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![1, 0] · slices_S2x64_S1x64_1_0) : (⟨S2x64, .f32⟩ : BufTy).Contents (Elt F) → (⟨S1x64, .f32⟩ : BufTy).Contents (Elt F))) (U22 m c (Proc.devRef .tc main_arg11) : (⟨S2x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![1, 0] · slices_S2x64_S1x64_1_0) : (⟨S2x64, .f32⟩ : BufTy).Contents (Elt F) → (⟨S1x64, .f32⟩ : BufTy).Contents (Elt F))) (U22 m c (Proc.devRef .tc main_arg12) : (⟨S2x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (shapeCast S64x64 ((((extractStridedSlice S1x64x64 ![1, 0, 0] · slices_S2x64x64_S1x64x64_1_0_0) : (⟨S2x64x64, .f32⟩ : BufTy).Contents (Elt F) → (⟨S1x64x64, .f32⟩ : BufTy).Contents (Elt F))) (U22 m c (Proc.devRef .tc main_arg13) : (⟨S2x64x64, .f32⟩ : BufTy).Contents (Elt F)) : (⟨S1x64x64, .f32⟩ : BufTy).Contents (Elt F)) shapeCasts_S1x64x64_S64x64 : (⟨S64x64, .f32⟩ : BufTy).Contents (Elt F)) : (⟨S512x64, .f32⟩ : BufTy).Contents (Elt F)) :=
  (late20 m c main_v303 (by decide)).trans ((rv_main_v303 (U19 m c)).trans (by rw [late19 m c main_arg11 (by decide), late19 m c main_arg12 (by decide), late19 m c main_arg13 (by decide), late19 m c main_v277 (by decide)]))

theorem rf_main_v307 (c : Dev nD) :
    U22 m c (Proc.devRef .tc main_v307) = (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (shapeCast S64 ((((extractStridedSlice S1x64 ![1, 0] · slices_S2x64_S1x64_1_0) : (⟨S2x64, .f32⟩ : BufTy).Contents (Elt F) → (⟨S1x64, .f32⟩ : BufTy).Contents (Elt F))) (U22 m c (Proc.devRef .tc main_arg14) : (⟨S2x64, .f32⟩ : BufTy).Contents (Elt F)) : (⟨S1x64, .f32⟩ : BufTy).Contents (Elt F)) shapeCasts_S1x64_S64 : (⟨S64, .f32⟩ : BufTy).Contents (Elt F)) : (⟨S1x64, .f32⟩ : BufTy).Contents (Elt F)) : (⟨S512x64, .f32⟩ : BufTy).Contents (Elt F)) :=
  (late20 m c main_v307 (by decide)).trans ((rv_main_v307 (U19 m c)).trans (by rw [late19 m c main_arg14 (by decide)]))

theorem rf_main_v309 (c : Dev nD) :
    U22 m c (Proc.devRef .tc main_v309) = ((maximumf) (((addf : (⟨S512x64, .f32⟩ : BufTy).Contents (Elt F) → (⟨S512x64, .f32⟩ : BufTy).Contents (Elt F) → (⟨S512x64, .f32⟩ : BufTy).Contents (Elt F))) (U22 m c (Proc.devRef .tc main_v303) : (⟨S512x64, .f32⟩ : BufTy).Contents (Elt F)) (U22 m c (Proc.devRef .tc main_v307) : (⟨S512x64, .f32⟩ : BufTy).Contents (Elt F)) : (⟨S512x64, .f32⟩ : BufTy).Contents (Elt F)) (((broadcastInDim S512x64 ![] bcast_S_S512x64)) ((constant S_ .f32 0x00000000#32) : (⟨S_, .f32⟩ : BufTy).Contents (Elt F)) : (⟨S512x64, .f32⟩ : BufTy).Contents (Elt F)) : (⟨S512x64, .f32⟩ : BufTy).Contents (Elt F)) :=
  (late21 m c main_v309 (by decide)).trans ((rv_main_v309 (U20 m c)).trans (by rw [late20 m c main_v303 (by decide), late20 m c main_v307 (by decide)]))

theorem rf_main_v328 (c : Dev nD) :
    U22 m c (Proc.devRef .tc main_v328) = (((addf : (⟨S512x64, .f32⟩ : BufTy).Contents (Elt F) → (⟨S512x64, .f32⟩ : BufTy).Contents (Elt F) → (⟨S512x64, .f32⟩ : BufTy).Contents (Elt F))) (((mulf : (⟨S512x64, .f32⟩ : BufTy).Contents (Elt F) → (⟨S512x64, .f32⟩ : BufTy).Contents (Elt F) → (⟨S512x64, .f32⟩ : BufTy).Contents (Elt F))) (((mulf : (⟨S512x64, .f32⟩ : BufTy).Contents (Elt F) → (⟨S512x64, .f32⟩ : BufTy).Contents (Elt F) → (⟨S512x64, .f32⟩ : BufTy).Contents (Elt F))) (((subf : (⟨S512x64, .f32⟩ : BufTy).Contents (Elt F) → (⟨S512x64, .f32⟩ : BufTy).Contents (Elt F) → (⟨S512x64, .f32⟩ : BufTy).Contents (Elt F))) (U22 m c (Proc.devRef .tc main_v309) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.divf : (⟨S64, .f32⟩ : BufTy).Contents (Elt F) → (⟨S64, .f32⟩ : BufTy).Contents (Elt F) → (⟨S64, .f32⟩ : BufTy).Contents (Elt F))) ((((fun x v => Host.reduceAdd x v reducesTo_S512x64_S64_d0 h_S_) : (⟨S512x64, .f32⟩ : BufTy).Contents (Elt F) → (⟨S_, .f32⟩ : BufTy).Contents (Elt F) → (⟨S64, .f32⟩ : BufTy).Contents (Elt F))) (U22 m c (Proc.devRef .tc main_v309) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x44000000#32) : (⟨S_, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (((Host.rsqrt : (⟨S64, .f32⟩ : BufTy).Contents (Elt F) → (⟨S64, .f32⟩ : BufTy).Contents (Elt F))) (((addf : (⟨S64, .f32⟩ : BufTy).Contents (Elt F) → (⟨S64, .f32⟩ : BufTy).Contents (Elt F) → (⟨S64, .f32⟩ : BufTy).Contents (Elt F))) (((fun p a b => select (broadcastInDim S64 ![] bcast_S_S64 p) a b)) (((cmpf .ogt)) ((subf) ((constant S_ .f32 0x44000000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S512x64_S64_d0 h_S_)) ((mulf) ((subf) (U22 m c (Proc.devRef .tc main_v309) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (U22 m c (Proc.devRef .tc main_v309) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) ((subf) (U22 m c (Proc.devRef .tc main_v309) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (U22 m c (Proc.devRef .tc main_v309) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x44000000#32) : (⟨S_, .f32⟩ : BufTy).Contents (Elt F)) (((sitofp .f32)) ((constantI S_ 32 0#32) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x3727C5AC#32) : (⟨S_, .f32⟩ : BufTy).Contents (Elt F)) : (⟨S64, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (U22 m c (Proc.devRef .tc main_arg15) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) (((broadcastInDim S512x64 ![0, 1] bcast_S1x64_S512x64_0_1 : (⟨S1x64, .f32⟩ : BufTy).Contents (Elt F) → (⟨S512x64, .f32⟩ : BufTy).Contents (Elt F))) (((broadcastInDim S1x64 ![1] bcast_S64_S1x64_1 : (⟨S64, .f32⟩ : BufTy).Contents (Elt F) → (⟨S1x64, .f32⟩ : BufTy).Contents (Elt F))) (U22 m c (Proc.devRef .tc main_arg16) : (⟨S64, .f32⟩ : BufTy).Contents (Elt F)) : (⟨S1x64, .f32⟩ : BufTy).Contents (Elt F)) : (⟨S512x64, .f32⟩ : BufTy).Contents (Elt F)) : (⟨S512x64, .f32⟩ : BufTy).Contents (Elt F)) :=
  (late22 m c main_v328 (by decide)).trans ((rv_main_v328 (U21 m c)).trans (by rw [late21 m c main_arg15 (by decide), late21 m c main_arg16 (by decide), late21 m c main_v309 (by decide)]))

/-- An argument array is never written: at the end it holds its launch contents. -/
theorem rf_main_arg0 (c : Dev nD) : U22 m c (Proc.devRef .tc main_arg0) = m ((c.tc : Thread nD τ).loc main_arg0) :=
  late0 m c main_arg0 (by decide)
theorem rf_main_arg1 (c : Dev nD) : U22 m c (Proc.devRef .tc main_arg1) = m ((c.tc : Thread nD τ).loc main_arg1) :=
  late0 m c main_arg1 (by decide)
theorem rf_main_arg2 (c : Dev nD) : U22 m c (Proc.devRef .tc main_arg2) = m ((c.tc : Thread nD τ).loc main_arg2) :=
  late0 m c main_arg2 (by decide)
theorem rf_main_arg3 (c : Dev nD) : U22 m c (Proc.devRef .tc main_arg3) = m ((c.tc : Thread nD τ).loc main_arg3) :=
  late0 m c main_arg3 (by decide)
theorem rf_main_arg4 (c : Dev nD) : U22 m c (Proc.devRef .tc main_arg4) = m ((c.tc : Thread nD τ).loc main_arg4) :=
  late0 m c main_arg4 (by decide)
theorem rf_main_arg5 (c : Dev nD) : U22 m c (Proc.devRef .tc main_arg5) = m ((c.tc : Thread nD τ).loc main_arg5) :=
  late0 m c main_arg5 (by decide)
theorem rf_main_arg6 (c : Dev nD) : U22 m c (Proc.devRef .tc main_arg6) = m ((c.tc : Thread nD τ).loc main_arg6) :=
  late0 m c main_arg6 (by decide)
theorem rf_main_arg7 (c : Dev nD) : U22 m c (Proc.devRef .tc main_arg7) = m ((c.tc : Thread nD τ).loc main_arg7) :=
  late0 m c main_arg7 (by decide)
theorem rf_main_arg8 (c : Dev nD) : U22 m c (Proc.devRef .tc main_arg8) = m ((c.tc : Thread nD τ).loc main_arg8) :=
  late0 m c main_arg8 (by decide)
theorem rf_main_arg9 (c : Dev nD) : U22 m c (Proc.devRef .tc main_arg9) = m ((c.tc : Thread nD τ).loc main_arg9) :=
  late0 m c main_arg9 (by decide)
theorem rf_main_arg10 (c : Dev nD) : U22 m c (Proc.devRef .tc main_arg10) = m ((c.tc : Thread nD τ).loc main_arg10) :=
  late0 m c main_arg10 (by decide)
theorem rf_main_arg11 (c : Dev nD) : U22 m c (Proc.devRef .tc main_arg11) = m ((c.tc : Thread nD τ).loc main_arg11) :=
  late0 m c main_arg11 (by decide)
theorem rf_main_arg12 (c : Dev nD) : U22 m c (Proc.devRef .tc main_arg12) = m ((c.tc : Thread nD τ).loc main_arg12) :=
  late0 m c main_arg12 (by decide)
theorem rf_main_arg13 (c : Dev nD) : U22 m c (Proc.devRef .tc main_arg13) = m ((c.tc : Thread nD τ).loc main_arg13) :=
  late0 m c main_arg13 (by decide)
theorem rf_main_arg14 (c : Dev nD) : U22 m c (Proc.devRef .tc main_arg14) = m ((c.tc : Thread nD τ).loc main_arg14) :=
  late0 m c main_arg14 (by decide)
theorem rf_main_arg15 (c : Dev nD) : U22 m c (Proc.devRef .tc main_arg15) = m ((c.tc : Thread nD τ).loc main_arg15) :=
  late0 m c main_arg15 (by decide)
theorem rf_main_arg16 (c : Dev nD) : U22 m c (Proc.devRef .tc main_arg16) = m ((c.tc : Thread nD τ).loc main_arg16) :=
  late0 m c main_arg16 (by decide)

/-- The run, read: the result buffer at the end of the fold, the argument arrays as launched. -/
theorem run (ρ : Dev nD → PrngReg) :
    θ_run defs (onTc (τ := τ) (main (F := F))) ⟨m, fun _ => 0, ρ⟩ fun r => ∀ c : Dev nD,
      r.2.mem ((c.tc : Thread nD τ).loc main_v328) = U22 m c (Proc.devRef .tc main_v328)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
    :=
  (θ_run defs _ _).mono (fun r h c => ⟨(h c main_v328).trans (congrFun (fold_eq m c) _),
      ((h c main_arg0).trans (congrFun (fold_eq m c) _)).trans (rf_main_arg0 m c),
      ((h c main_arg1).trans (congrFun (fold_eq m c) _)).trans (rf_main_arg1 m c),
      ((h c main_arg2).trans (congrFun (fold_eq m c) _)).trans (rf_main_arg2 m c),
      ((h c main_arg3).trans (congrFun (fold_eq m c) _)).trans (rf_main_arg3 m c),
      ((h c main_arg4).trans (congrFun (fold_eq m c) _)).trans (rf_main_arg4 m c),
      ((h c main_arg5).trans (congrFun (fold_eq m c) _)).trans (rf_main_arg5 m c),
      ((h c main_arg6).trans (congrFun (fold_eq m c) _)).trans (rf_main_arg6 m c),
      ((h c main_arg7).trans (congrFun (fold_eq m c) _)).trans (rf_main_arg7 m c),
      ((h c main_arg8).trans (congrFun (fold_eq m c) _)).trans (rf_main_arg8 m c),
      ((h c main_arg9).trans (congrFun (fold_eq m c) _)).trans (rf_main_arg9 m c),
      ((h c main_arg10).trans (congrFun (fold_eq m c) _)).trans (rf_main_arg10 m c),
      ((h c main_arg11).trans (congrFun (fold_eq m c) _)).trans (rf_main_arg11 m c),
      ((h c main_arg12).trans (congrFun (fold_eq m c) _)).trans (rf_main_arg12 m c),
      ((h c main_arg13).trans (congrFun (fold_eq m c) _)).trans (rf_main_arg13 m c),
      ((h c main_arg14).trans (congrFun (fold_eq m c) _)).trans (rf_main_arg14 m c),
      ((h c main_arg15).trans (congrFun (fold_eq m c) _)).trans (rf_main_arg15 m c),
      ((h c main_arg16).trans (congrFun (fold_eq m c) _)).trans (rf_main_arg16 m c)⟩)
    (run_all m ρ)

end Cert.ReferenceIdeal.RefValue

end
-- ==== Proof.KS_hostOps0.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps0_W : List (Ref sig .tc) := [main_v0, main_v1, main_v2, main_v3, main_v4, main_v5, main_v6, main_cst, main_v7, main_cst_0, main_v8, main_v9, main_v10, main_cst_1, main_v11, main_v12, main_cst_2, main_cst_3]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps0_keep (V : Valuation τ sig (Elt F)) (r : Ref sig .tc) (h : r ∉ hostOps0_W) :
    after hostOps0 V (Proc.devRef .tc r) = V (Proc.devRef .tc r) :=
  after_of_writes_sub hostOps0 V hostOps0_writes h

theorem kv_main_v3 (V : Valuation τ sig (Elt F)) :
    after hostOps0 V (Proc.devRef .tc main_v3) = ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![0, 0] · slices_S2x1600000_S1x1600000_0_0) : (⟨S2x1600000, .i32⟩ : BufTy).Contents (Elt F) → (⟨S1x1600000, .i32⟩ : BufTy).Contents (Elt F))) (V (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) := by
  after_results_simp <;> rfl

theorem kv_main_v6 (V : Valuation τ sig (Elt F)) :
    after hostOps0 V (Proc.devRef .tc main_v6) = ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (V (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) := by
  after_results_simp <;> rfl

theorem kv_main_v10 (V : Valuation τ sig (Elt F)) :
    after hostOps0 V (Proc.devRef .tc main_v10) = ((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (V (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000x1, .i32⟩ : BufTy).Contents (Elt F)) (((broadcastInDim S1700000 ![] bcast_S_S1700000 : (⟨S_, .f32⟩ : BufTy).Contents (Elt F) → (⟨S1700000, .f32⟩ : BufTy).Contents (Elt F))) ((constant S_ .f32 0x3F800000#32) : (⟨S_, .f32⟩ : BufTy).Contents (Elt F)) : (⟨S1700000, .f32⟩ : BufTy).Contents (Elt F)) : (⟨S100000, .f32⟩ : BufTy).Contents (Elt F)) := by
  after_results_simp <;> rfl

theorem kv_main_v12 (V : Valuation τ sig (Elt F)) :
    after hostOps0 V (Proc.devRef .tc main_v12) = (((cmpf .ogt : (⟨S100000, .f32⟩ : BufTy).Contents (Elt F) → (⟨S100000, .f32⟩ : BufTy).Contents (Elt F) → (⟨S100000, .i1⟩ : BufTy).Contents (Elt F))) ((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (V (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000x1, .i32⟩ : BufTy).Contents (Elt F)) (((broadcastInDim S1700000 ![] bcast_S_S1700000 : (⟨S_, .f32⟩ : BufTy).Contents (Elt F) → (⟨S1700000, .f32⟩ : BufTy).Contents (Elt F))) ((constant S_ .f32 0x3F800000#32) : (⟨S_, .f32⟩ : BufTy).Contents (Elt F)) : (⟨S1700000, .f32⟩ : BufTy).Contents (Elt F)) : (⟨S100000, .f32⟩ : BufTy).Contents (Elt F)) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) : (⟨S100000, .i1⟩ : BufTy).Contents (Elt F)) := by
  after_results_simp <;> rfl

theorem kv_main_cst_2 (V : Valuation τ sig (Elt F)) :
    after hostOps0 V (Proc.devRef .tc main_cst_2) = ((constant S_ .f32 0x3F800000#32) : (⟨S_, .f32⟩ : BufTy).Contents (Elt F)) := by
  after_results_simp <;> rfl

theorem kv_main_cst_3 (V : Valuation τ sig (Elt F)) :
    after hostOps0 V (Proc.devRef .tc main_cst_3) = ((constant S_ .f32 0x00000000#32) : (⟨S_, .f32⟩ : BufTy).Contents (Elt F)) := by
  after_results_simp <;> rfl

end Cert.KernelIdeal.KChain

end
-- ==== Proof.KS_hostOps0_1.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps0_1_W : List (Ref sig .tc) := [main_call0_v0, main_call0_v1, main_v13]
theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps0_1_keep (V : Valuation τ sig (Elt F)) (r : Ref sig .tc) (h : r ∉ hostOps0_1_W) :
    after hostOps0_1 V (Proc.devRef .tc r) = V (Proc.devRef .tc r) :=
  after_of_writes_sub hostOps0_1 V hostOps0_1_writes h

theorem kv_main_v13 (V : Valuation τ sig (Elt F)) :
    after hostOps0_1 V (Proc.devRef .tc main_v13) = ((select) (V (Proc.devRef .tc main_v12) : (⟨S100000, .i1⟩ : BufTy).Contents (Elt F)) (((broadcastInDim S100000 ![] bcast_S_S100000)) (V (Proc.devRef .tc main_cst_2) : (⟨S_, .f32⟩ : BufTy).Contents (Elt F)) : (⟨S100000, .f32⟩ : BufTy).Contents (Elt F)) (((broadcastInDim S100000 ![] bcast_S_S100000)) (V (Proc.devRef .tc main_cst_3) : (⟨S_, .f32⟩ : BufTy).Contents (Elt F)) : (⟨S100000, .f32⟩ : BufTy).Contents (Elt F)) : (⟨S100000, .f32⟩ : BufTy).Contents (Elt F)) := by
  after_results_simp <;> rfl

end Cert.KernelIdeal.KChain

end
-- ==== Proof.KS_hostOps0_2.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps0_2_W : List (Ref sig .tc) := [main_cst_4, main_v14, main_v15, main_cst_5]
theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps0_2_keep (V : Valuation τ sig (Elt F)) (r : Ref sig .tc) (h : r ∉ hostOps0_2_W) :
    after hostOps0_2 V (Proc.devRef .tc r) = V (Proc.devRef .tc r) :=
  after_of_writes_sub hostOps0_2 V hostOps0_2_writes h

theorem kv_main_v15 (V : Valuation τ sig (Elt F)) :
    after hostOps0_2 V (Proc.devRef .tc main_v15) = (((cmpf .ogt : (⟨S100000, .f32⟩ : BufTy).Contents (Elt F) → (⟨S100000, .f32⟩ : BufTy).Contents (Elt F) → (⟨S100000, .i1⟩ : BufTy).Contents (Elt F))) (V (Proc.devRef .tc main_v10) : (⟨S100000, .f32⟩ : BufTy).Contents (Elt F)) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) : (⟨S100000, .i1⟩ : BufTy).Contents (Elt F)) := by
  after_results_simp <;> rfl

theorem kv_main_cst_5 (V : Valuation τ sig (Elt F)) :
    after hostOps0_2 V (Proc.devRef .tc main_cst_5) = ((constant S_ .f32 0x3F800000#32) : (⟨S_, .f32⟩ : BufTy).Contents (Elt F)) := by
  after_results_simp <;> rfl

end Cert.KernelIdeal.KChain

end
-- ==== Proof.KS_hostOps0_3.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps0_3_W : List (Ref sig .tc) := [main_call1_v0, main_call1_v1, main_v16]
theorem hostOps0_3_writes : (hostOps0_3 : List (HloOp τ sig (Elt F))).Forall fun op => op.writes ⊆ (hostOps0_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps0_3_keep (V : Valuation τ sig (Elt F)) (r : Ref sig .tc) (h : r ∉ hostOps0_3_W) :
    after hostOps0_3 V (Proc.devRef .tc r) = V (Proc.devRef .tc r) :=
  after_of_writes_sub hostOps0_3 V hostOps0_3_writes h

theorem kv_main_v16 (V : Valuation τ sig (Elt F)) :
    after hostOps0_3 V (Proc.devRef .tc main_v16) = ((select) (V (Proc.devRef .tc main_v15) : (⟨S100000, .i1⟩ : BufTy).Contents (Elt F)) (V (Proc.devRef .tc main_v10) : (⟨S100000, .f32⟩ : BufTy).Contents (Elt F)) (((broadcastInDim S100000 ![] bcast_S_S100000)) ((id) (V (Proc.devRef .tc main_cst_5) : (⟨S_, .f32⟩ : BufTy).Contents (Elt F)) : (⟨S_, .f32⟩ : BufTy).Contents (Elt F)) : (⟨S100000, .f32⟩ : BufTy).Contents (Elt F)) : (⟨S100000, .f32⟩ : BufTy).Contents (Elt F)) := by
  after_results_simp <;> rfl

end Cert.KernelIdeal.KChain

end
-- ==== Proof.KS_hostOps0_4.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps0_4_W : List (Ref sig .tc) := [main_v17, main_v18, main_v19, main_c, main_v20, main_v21, main_c_6, main_v22, main_v23, main_v24, main_v25, main_v26, main_c_7, main_v27, main_v28, main_c_8, main_v29, main_v30, main_v31, main_v32, main_v33, main_v34, main_cst_9, main_v35, main_cst_10, main_v36, main_v37, main_c_11]
theorem hostOps0_4_writes : (hostOps0_4 : List (HloOp τ sig (Elt F))).Forall fun op => op.writes ⊆ (hostOps0_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps0_4_keep (V : Valuation τ sig (Elt F)) (r : Ref sig .tc) (h : r ∉ hostOps0_4_W) :
    after hostOps0_4 V (Proc.devRef .tc r) = V (Proc.devRef .tc r) :=
  after_of_writes_sub hostOps0_4 V hostOps0_4_writes h

theorem kv_main_v34 (V : Valuation τ sig (Elt F)) :
    after hostOps0_4 V (Proc.devRef .tc main_v34) = (((mulf : (⟨S1700000, .f32⟩ : BufTy).Contents (Elt F) → (⟨S1700000, .f32⟩ : BufTy).Contents (Elt F) → (⟨S1700000, .f32⟩ : BufTy).Contents (Elt F))) ((((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))) (((Host.divf : (⟨S100000, .f32⟩ : BufTy).Contents (Elt F) → (⟨S100000, .f32⟩ : BufTy).Contents (Elt F) → (⟨S100000, .f32⟩ : BufTy).Contents (Elt F))) (((id : (⟨S100000, .f32⟩ : BufTy).Contents (Elt F) → (⟨S100000, .f32⟩ : BufTy).Contents (Elt F))) (V (Proc.devRef .tc main_v13) : (⟨S100000, .f32⟩ : BufTy).Contents (Elt F)) : (⟨S100000, .f32⟩ : BufTy).Contents (Elt F)) (((Host.sqrt : (⟨S100000, .f32⟩ : BufTy).Contents (Elt F) → (⟨S100000, .f32⟩ : BufTy).Contents (Elt F))) (V (Proc.devRef .tc main_v16) : (⟨S100000, .f32⟩ : BufTy).Contents (Elt F)) : (⟨S100000, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (V (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (V (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (V (Proc.devRef .tc main_v3) : (⟨S1700000, .i32⟩ : BufTy).Contents (Elt F)) : (⟨S1700000, .i32⟩ : BufTy).Contents (Elt F)) : (⟨S1700000x1, .i32⟩ : BufTy).Contents (Elt F)) : (⟨S1700000, .f32⟩ : BufTy).Contents (Elt F)) ((((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))) (((Host.divf : (⟨S100000, .f32⟩ : BufTy).Contents (Elt F) → (⟨S100000, .f32⟩ : BufTy).Contents (Elt F) → (⟨S100000, .f32⟩ : BufTy).Contents (Elt F))) (((id : (⟨S100000, .f32⟩ : BufTy).Contents (Elt F) → (⟨S100000, .f32⟩ : BufTy).Contents (Elt F))) (V (Proc.devRef .tc main_v13) : (⟨S100000, .f32⟩ : BufTy).Contents (Elt F)) : (⟨S100000, .f32⟩ : BufTy).Contents (Elt F)) (((Host.sqrt : (⟨S100000, .f32⟩ : BufTy).Contents (Elt F) → (⟨S100000, .f32⟩ : BufTy).Contents (Elt F))) (V (Proc.devRef .tc main_v16) : (⟨S100000, .f32⟩ : BufTy).Contents (Elt F)) : (⟨S100000, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (V (Proc.devRef .tc main_v6) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (V (Proc.devRef .tc main_v6) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (V (Proc.devRef .tc main_v6) : (⟨S1700000, .i32⟩ : BufTy).Contents (Elt F)) : (⟨S1700000, .i32⟩ : BufTy).Contents (Elt F)) : (⟨S1700000x1, .i32⟩ : BufTy).Contents (Elt F)) : (⟨S1700000, .f32⟩ : BufTy).Contents (Elt F)) : (⟨S1700000, .f32⟩ : BufTy).Contents (Elt F)) := by
  after_results_simp <;> rfl

theorem kv_main_v37 (V : Valuation τ sig (Elt F)) :
    after hostOps0_4 V (Proc.devRef .tc main_v37) = (((Host.divf : (⟨S64, .f32⟩ : BufTy).Contents (Elt F) → (⟨S64, .f32⟩ : BufTy).Contents (Elt F) → (⟨S64, .f32⟩ : BufTy).Contents (Elt F))) ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (V (Proc.devRef .tc main_arg0) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x47C35000#32) : (⟨S_, .f32⟩ : BufTy).Contents (Elt F)) : (⟨S64, .f32⟩ : BufTy).Contents (Elt F)) : (⟨S64, .f32⟩ : BufTy).Contents (Elt F)) := by
  after_results_simp <;> rfl

theorem kv_main_c_11 (V : Valuation τ sig (Elt F)) :
    after hostOps0_4 V (Proc.devRef .tc main_c_11) = ((constantI S_ 32 0#32) : (⟨S_, .i32⟩ : BufTy).Contents (Elt F)) := by
  after_results_simp <;> rfl

end Cert.KernelIdeal.KChain

end
-- ==== Proof.KS_hostOps0_5.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps0_5_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v38]
theorem hostOps0_5_writes : (hostOps0_5 : List (HloOp τ sig (Elt F))).Forall fun op => op.writes ⊆ (hostOps0_5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps0_5_keep (V : Valuation τ sig (Elt F)) (r : Ref sig .tc) (h : r ∉ hostOps0_5_W) :
    after hostOps0_5 V (Proc.devRef .tc r) = V (Proc.devRef .tc r) :=
  after_of_writes_sub hostOps0_5 V hostOps0_5_writes h

theorem kv_main_v38 (V : Valuation τ sig (Elt F)) :
    after hostOps0_5 V (Proc.devRef .tc main_v38) = (((fun p a b => select (broadcastInDim S64 ![] bcast_S_S64 p) a b)) (((cmpf .ogt)) ((subf) ((constant S_ .f32 0x47C35000#32) : (⟨S_, .f32⟩ : BufTy).Contents (Elt F)) (((sitofp .f32)) (V (Proc.devRef .tc main_c_11) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (V (Proc.devRef .tc main_arg0) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_arg0) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (V (Proc.devRef .tc main_arg0) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_arg0) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) (V (Proc.devRef .tc main_c_11) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) := by
  after_results_simp <;> rfl

end Cert.KernelIdeal.KChain

end
-- ==== Proof.KS_hostOps0_6.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps0_6_W : List (Ref sig .tc) := [main_v39, main_v40, main_v41, main_v42, main_v43]
theorem hostOps0_6_writes : (hostOps0_6 : List (HloOp τ sig (Elt F))).Forall fun op => op.writes ⊆ (hostOps0_6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps0_6_keep (V : Valuation τ sig (Elt F)) (r : Ref sig .tc) (h : r ∉ hostOps0_6_W) :
    after hostOps0_6 V (Proc.devRef .tc r) = V (Proc.devRef .tc r) :=
  after_of_writes_sub hostOps0_6 V hostOps0_6_writes h

theorem kv_main_v39 (V : Valuation τ sig (Elt F)) :
    after hostOps0_6 V (Proc.devRef .tc main_v39) = (shapeCast S1x64 (V (Proc.devRef .tc main_v37) : (⟨S64, .f32⟩ : BufTy).Contents (Elt F)) shapeCasts_S64_S1x64 : (⟨S1x64, .f32⟩ : BufTy).Contents (Elt F)) := by
  after_results_simp <;> rfl

theorem kv_main_v40 (V : Valuation τ sig (Elt F)) :
    after hostOps0_6 V (Proc.devRef .tc main_v40) = (shapeCast S1x64 (V (Proc.devRef .tc main_v38) : (⟨S64, .f32⟩ : BufTy).Contents (Elt F)) shapeCasts_S64_S1x64 : (⟨S1x64, .f32⟩ : BufTy).Contents (Elt F)) := by
  after_results_simp <;> rfl

theorem kv_main_v41 (V : Valuation τ sig (Elt F)) :
    after hostOps0_6 V (Proc.devRef .tc main_v41) = (shapeCast S1x64 (V (Proc.devRef .tc main_arg3) : (⟨S64, .f32⟩ : BufTy).Contents (Elt F)) shapeCasts_S64_S1x64 : (⟨S1x64, .f32⟩ : BufTy).Contents (Elt F)) := by
  after_results_simp <;> rfl

theorem kv_main_v42 (V : Valuation τ sig (Elt F)) :
    after hostOps0_6 V (Proc.devRef .tc main_v42) = (shapeCast S1x64 (V (Proc.devRef .tc main_arg4) : (⟨S64, .f32⟩ : BufTy).Contents (Elt F)) shapeCasts_S64_S1x64 : (⟨S1x64, .f32⟩ : BufTy).Contents (Elt F)) := by
  after_results_simp <;> rfl

theorem kv_main_v43 (V : Valuation τ sig (Elt F)) :
    after hostOps0_6 V (Proc.devRef .tc main_v43) = (shapeCast S1x64 (V (Proc.devRef .tc main_arg6) : (⟨S64, .f32⟩ : BufTy).Contents (Elt F)) shapeCasts_S64_S1x64 : (⟨S1x64, .f32⟩ : BufTy).Contents (Elt F)) := by
  after_results_simp <;> rfl

end Cert.KernelIdeal.KChain

end
-- ==== Proof.KS_hostOps1.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps1_W : List (Ref sig .tc) := [main_cst_12, main_v45, main_cst_13, main_v46, main_cst_14, main_v47, main_v48, main_c_15]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps1_keep (V : Valuation τ sig (Elt F)) (r : Ref sig .tc) (h : r ∉ hostOps1_W) :
    after hostOps1 V (Proc.devRef .tc r) = V (Proc.devRef .tc r) :=
  after_of_writes_sub hostOps1 V hostOps1_writes h

theorem kv_main_v45 (V : Valuation τ sig (Elt F)) :
    after hostOps1 V (Proc.devRef .tc main_v45) = (((broadcastInDim S64 ![] bcast_S_S64 : (⟨S_, .f32⟩ : BufTy).Contents (Elt F) → (⟨S64, .f32⟩ : BufTy).Contents (Elt F))) ((constant S_ .f32 0x00000000#32) : (⟨S_, .f32⟩ : BufTy).Contents (Elt F)) : (⟨S64, .f32⟩ : BufTy).Contents (Elt F)) := by
  after_results_simp <;> rfl

theorem kv_main_v48 (V : Valuation τ sig (Elt F)) :
    after hostOps1 V (Proc.devRef .tc main_v48) = (((Host.divf : (⟨S64, .f32⟩ : BufTy).Contents (Elt F) → (⟨S64, .f32⟩ : BufTy).Contents (Elt F) → (⟨S64, .f32⟩ : BufTy).Contents (Elt F))) ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (V (Proc.devRef .tc main_v44) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x47C35000#32) : (⟨S_, .f32⟩ : BufTy).Contents (Elt F)) : (⟨S64, .f32⟩ : BufTy).Contents (Elt F)) : (⟨S64, .f32⟩ : BufTy).Contents (Elt F)) := by
  after_results_simp <;> rfl

theorem kv_main_c_15 (V : Valuation τ sig (Elt F)) :
    after hostOps1 V (Proc.devRef .tc main_c_15) = ((constantI S_ 32 0#32) : (⟨S_, .i32⟩ : BufTy).Contents (Elt F)) := by
  after_results_simp <;> rfl

end Cert.KernelIdeal.KChain

end
-- ==== Proof.KS_hostOps1_1.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps1_1_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v49]
theorem hostOps1_1_writes : (hostOps1_1 : List (HloOp τ sig (Elt F))).Forall fun op => op.writes ⊆ (hostOps1_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps1_1_keep (V : Valuation τ sig (Elt F)) (r : Ref sig .tc) (h : r ∉ hostOps1_1_W) :
    after hostOps1_1 V (Proc.devRef .tc r) = V (Proc.devRef .tc r) :=
  after_of_writes_sub hostOps1_1 V hostOps1_1_writes h

theorem kv_main_v49 (V : Valuation τ sig (Elt F)) :
    after hostOps1_1 V (Proc.devRef .tc main_v49) = (((fun p a b => select (broadcastInDim S64 ![] bcast_S_S64 p) a b)) (((cmpf .ogt)) ((subf) ((constant S_ .f32 0x47C35000#32) : (⟨S_, .f32⟩ : BufTy).Contents (Elt F)) (((sitofp .f32)) (V (Proc.devRef .tc main_c_15) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (V (Proc.devRef .tc main_v44) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_v44) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (V (Proc.devRef .tc main_v44) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_v44) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) (V (Proc.devRef .tc main_c_15) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) := by
  after_results_simp <;> rfl

end Cert.KernelIdeal.KChain

end
-- ==== Proof.KS_hostOps1_2.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps1_2_W : List (Ref sig .tc) := [main_v50, main_v51, main_v52, main_v53, main_v54, main_v55, main_v56, main_v57, main_v58, main_v59, main_v60]
theorem hostOps1_2_writes : (hostOps1_2 : List (HloOp τ sig (Elt F))).Forall fun op => op.writes ⊆ (hostOps1_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps1_2_keep (V : Valuation τ sig (Elt F)) (r : Ref sig .tc) (h : r ∉ hostOps1_2_W) :
    after hostOps1_2 V (Proc.devRef .tc r) = V (Proc.devRef .tc r) :=
  after_of_writes_sub hostOps1_2 V hostOps1_2_writes h

theorem kv_main_v51 (V : Valuation τ sig (Elt F)) :
    after hostOps1_2 V (Proc.devRef .tc main_v51) = (shapeCast S64 ((((extractStridedSlice S1x64 ![0, 0] · slices_S4x64_S1x64_0_0) : (⟨S4x64, .f32⟩ : BufTy).Contents (Elt F) → (⟨S1x64, .f32⟩ : BufTy).Contents (Elt F))) (V (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem kv_main_v53 (V : Valuation τ sig (Elt F)) :
    after hostOps1_2 V (Proc.devRef .tc main_v53) = (shapeCast S64 ((((extractStridedSlice S1x64 ![0, 0] · slices_S4x64_S1x64_0_0) : (⟨S4x64, .f32⟩ : BufTy).Contents (Elt F) → (⟨S1x64, .f32⟩ : BufTy).Contents (Elt F))) (V (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem kv_main_v54 (V : Valuation τ sig (Elt F)) :
    after hostOps1_2 V (Proc.devRef .tc main_v54) = ((((extractStridedSlice S1x64x64 ![0, 0, 0] · slices_S4x64x64_S1x64x64_0_0_0) : (⟨S4x64x64, .f32⟩ : BufTy).Contents (Elt F) → (⟨S1x64x64, .f32⟩ : BufTy).Contents (Elt F))) (V (Proc.devRef .tc main_arg9) : (⟨S4x64x64, .f32⟩ : BufTy).Contents (Elt F)) : (⟨S1x64x64, .f32⟩ : BufTy).Contents (Elt F)) := by
  after_results_simp <;> rfl

theorem kv_main_v55 (V : Valuation τ sig (Elt F)) :
    after hostOps1_2 V (Proc.devRef .tc main_v55) = (shapeCast S64x64 ((((extractStridedSlice S1x64x64 ![0, 0, 0] · slices_S4x64x64_S1x64x64_0_0_0) : (⟨S4x64x64, .f32⟩ : BufTy).Contents (Elt F) → (⟨S1x64x64, .f32⟩ : BufTy).Contents (Elt F))) (V (Proc.devRef .tc main_arg9) : (⟨S4x64x64, .f32⟩ : BufTy).Contents (Elt F)) : (⟨S1x64x64, .f32⟩ : BufTy).Contents (Elt F)) shapeCasts_S1x64x64_S64x64 : (⟨S64x64, .f32⟩ : BufTy).Contents (Elt F)) := by
  after_results_simp <;> rfl

theorem kv_main_v56 (V : Valuation τ sig (Elt F)) :
    after hostOps1_2 V (Proc.devRef .tc main_v56) = (shapeCast S1x64 (V (Proc.devRef .tc main_v48) : (⟨S64, .f32⟩ : BufTy).Contents (Elt F)) shapeCasts_S64_S1x64 : (⟨S1x64, .f32⟩ : BufTy).Contents (Elt F)) := by
  after_results_simp <;> rfl

theorem kv_main_v57 (V : Valuation τ sig (Elt F)) :
    after hostOps1_2 V (Proc.devRef .tc main_v57) = (shapeCast S1x64 (V (Proc.devRef .tc main_v49) : (⟨S64, .f32⟩ : BufTy).Contents (Elt F)) shapeCasts_S64_S1x64 : (⟨S1x64, .f32⟩ : BufTy).Contents (Elt F)) := by
  after_results_simp <;> rfl

theorem kv_main_v58 (V : Valuation τ sig (Elt F)) :
    after hostOps1_2 V (Proc.devRef .tc main_v58) = (shapeCast S1x64 (shapeCast S64 ((((extractStridedSlice S1x64 ![0, 0] · slices_S4x64_S1x64_0_0) : (⟨S4x64, .f32⟩ : BufTy).Contents (Elt F) → (⟨S1x64, .f32⟩ : BufTy).Contents (Elt F))) (V (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) := by
  after_results_simp <;> rfl

theorem kv_main_v59 (V : Valuation τ sig (Elt F)) :
    after hostOps1_2 V (Proc.devRef .tc main_v59) = (shapeCast S1x64 (shapeCast S64 ((((extractStridedSlice S1x64 ![0, 0] · slices_S4x64_S1x64_0_0) : (⟨S4x64, .f32⟩ : BufTy).Contents (Elt F) → (⟨S1x64, .f32⟩ : BufTy).Contents (Elt F))) (V (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) := by
  after_results_simp <;> rfl

theorem kv_main_v60 (V : Valuation τ sig (Elt F)) :
    after hostOps1_2 V (Proc.devRef .tc main_v60) = (shapeCast S1x64 (V (Proc.devRef .tc main_v45) : (⟨S64, .f32⟩ : BufTy).Contents (Elt F)) shapeCasts_S64_S1x64 : (⟨S1x64, .f32⟩ : BufTy).Contents (Elt F)) := by
  after_results_simp <;> rfl

end Cert.KernelIdeal.KChain

end
-- ==== Proof.KS_hostOps2.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps2_W : List (Ref sig .tc) := [main_v62, main_c_16, main_v63, main_v64, main_c_17, main_v65, main_v66, main_v67, main_v68, main_v69, main_v70, main_v71, main_cst_18, main_v72, main_v73, main_v74, main_v75, main_v76, main_v77]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps2_keep (V : Valuation τ sig (Elt F)) (r : Ref sig .tc) (h : r ∉ hostOps2_W) :
    after hostOps2 V (Proc.devRef .tc r) = V (Proc.devRef .tc r) :=
  after_of_writes_sub hostOps2 V hostOps2_writes h

theorem kv_main_v74 (V : Valuation τ sig (Elt F)) :
    after hostOps2 V (Proc.devRef .tc main_v74) = ((((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))) (((broadcastInDim S100000x64 ![] bcast_S_S100000x64 : (⟨S_, .f32⟩ : BufTy).Contents (Elt F) → (⟨S100000x64, .f32⟩ : BufTy).Contents (Elt F))) ((constant S_ .f32 0x00000000#32) : (⟨S_, .f32⟩ : BufTy).Contents (Elt F)) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (V (Proc.devRef .tc main_v6) : (⟨S1700000, .i32⟩ : BufTy).Contents (Elt F)) : (⟨S1700000x1, .i32⟩ : BufTy).Contents (Elt F)) (((mulf : (⟨S1700000x64, .f32⟩ : BufTy).Contents (Elt F) → (⟨S1700000x64, .f32⟩ : BufTy).Contents (Elt F) → (⟨S1700000x64, .f32⟩ : BufTy).Contents (Elt F))) (((broadcastInDim S1700000x64 ![0, 1] bcast_S1700000x1_S1700000x64_0_1 : (⟨S1700000x1, .f32⟩ : BufTy).Contents (Elt F) → (⟨S1700000x64, .f32⟩ : BufTy).Contents (Elt F))) (((broadcastInDim S1700000x1 ![0] bcast_S1700000_S1700000x1_0 : (⟨S1700000, .f32⟩ : BufTy).Contents (Elt F) → (⟨S1700000x1, .f32⟩ : BufTy).Contents (Elt F))) (V (Proc.devRef .tc main_v34) : (⟨S1700000, .f32⟩ : BufTy).Contents (Elt F)) : (⟨S1700000x1, .f32⟩ : BufTy).Contents (Elt F)) : (⟨S1700000x64, .f32⟩ : BufTy).Contents (Elt F)) ((((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))) (V (Proc.devRef .tc main_v61) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (V (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (V (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (V (Proc.devRef .tc main_v3) : (⟨S1700000, .i32⟩ : BufTy).Contents (Elt F)) : (⟨S1700000, .i32⟩ : BufTy).Contents (Elt F)) : (⟨S1700000x1, .i32⟩ : BufTy).Contents (Elt F)) : (⟨S1700000x64, .f32⟩ : BufTy).Contents (Elt F)) : (⟨S1700000x64, .f32⟩ : BufTy).Contents (Elt F)) : (⟨S100000x64, .f32⟩ : BufTy).Contents (Elt F)) := by
  after_results_simp <;> rfl

theorem kv_main_v76 (V : Valuation τ sig (Elt F)) :
    after hostOps2 V (Proc.devRef .tc main_v76) = (shapeCast S64 ((((extractStridedSlice S1x64 ![0, 0] · slices_S4x64_S1x64_0_0) : (⟨S4x64, .f32⟩ : BufTy).Contents (Elt F) → (⟨S1x64, .f32⟩ : BufTy).Contents (Elt F))) (V (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem kv_main_v77 (V : Valuation τ sig (Elt F)) :
    after hostOps2 V (Proc.devRef .tc main_v77) = (shapeCast S1x64 (shapeCast S64 ((((extractStridedSlice S1x64 ![0, 0] · slices_S4x64_S1x64_0_0) : (⟨S4x64, .f32⟩ : BufTy).Contents (Elt F) → (⟨S1x64, .f32⟩ : BufTy).Contents (Elt F))) (V (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) := by
  after_results_simp <;> rfl

end Cert.KernelIdeal.KChain

end
-- ==== Proof.KS_hostOps3.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps3_W : List (Ref sig .tc) := [main_cst_19, main_v79, main_cst_20, main_v80, main_v81, main_c_21]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps3_keep (V : Valuation τ sig (Elt F)) (r : Ref sig .tc) (h : r ∉ hostOps3_W) :
    after hostOps3 V (Proc.devRef .tc r) = V (Proc.devRef .tc r) :=
  after_of_writes_sub hostOps3 V hostOps3_writes h

theorem kv_main_v81 (V : Valuation τ sig (Elt F)) :
    after hostOps3 V (Proc.devRef .tc main_v81) = (((Host.divf : (⟨S64, .f32⟩ : BufTy).Contents (Elt F) → (⟨S64, .f32⟩ : BufTy).Contents (Elt F) → (⟨S64, .f32⟩ : BufTy).Contents (Elt F))) ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (V (Proc.devRef .tc main_v78) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x47C35000#32) : (⟨S_, .f32⟩ : BufTy).Contents (Elt F)) : (⟨S64, .f32⟩ : BufTy).Contents (Elt F)) : (⟨S64, .f32⟩ : BufTy).Contents (Elt F)) := by
  after_results_simp <;> rfl

theorem kv_main_c_21 (V : Valuation τ sig (Elt F)) :
    after hostOps3 V (Proc.devRef .tc main_c_21) = ((constantI S_ 32 0#32) : (⟨S_, .i32⟩ : BufTy).Contents (Elt F)) := by
  after_results_simp <;> rfl

end Cert.KernelIdeal.KChain

end
-- ==== Proof.KS_hostOps3_1.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps3_1_W : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v82]
theorem hostOps3_1_writes : (hostOps3_1 : List (HloOp τ sig (Elt F))).Forall fun op => op.writes ⊆ (hostOps3_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps3_1_keep (V : Valuation τ sig (Elt F)) (r : Ref sig .tc) (h : r ∉ hostOps3_1_W) :
    after hostOps3_1 V (Proc.devRef .tc r) = V (Proc.devRef .tc r) :=
  after_of_writes_sub hostOps3_1 V hostOps3_1_writes h

theorem kv_main_v82 (V : Valuation τ sig (Elt F)) :
    after hostOps3_1 V (Proc.devRef .tc main_v82) = (((fun p a b => select (broadcastInDim S64 ![] bcast_S_S64 p) a b)) (((cmpf .ogt)) ((subf) ((constant S_ .f32 0x47C35000#32) : (⟨S_, .f32⟩ : BufTy).Contents (Elt F)) (((sitofp .f32)) (V (Proc.devRef .tc main_c_21) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (V (Proc.devRef .tc main_v78) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_v78) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (V (Proc.devRef .tc main_v78) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_v78) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) (V (Proc.devRef .tc main_c_21) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) := by
  after_results_simp <;> rfl

end Cert.KernelIdeal.KChain

end
-- ==== Proof.KS_hostOps3_2.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps3_2_W : List (Ref sig .tc) := [main_v83, main_v84, main_v85, main_v86, main_v87, main_v88, main_v89, main_v90, main_v91, main_v92, main_v93]
theorem hostOps3_2_writes : (hostOps3_2 : List (HloOp τ sig (Elt F))).Forall fun op => op.writes ⊆ (hostOps3_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps3_2_keep (V : Valuation τ sig (Elt F)) (r : Ref sig .tc) (h : r ∉ hostOps3_2_W) :
    after hostOps3_2 V (Proc.devRef .tc r) = V (Proc.devRef .tc r) :=
  after_of_writes_sub hostOps3_2 V hostOps3_2_writes h

theorem kv_main_v84 (V : Valuation τ sig (Elt F)) :
    after hostOps3_2 V (Proc.devRef .tc main_v84) = (shapeCast S64 ((((extractStridedSlice S1x64 ![1, 0] · slices_S4x64_S1x64_1_0) : (⟨S4x64, .f32⟩ : BufTy).Contents (Elt F) → (⟨S1x64, .f32⟩ : BufTy).Contents (Elt F))) (V (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem kv_main_v86 (V : Valuation τ sig (Elt F)) :
    after hostOps3_2 V (Proc.devRef .tc main_v86) = (shapeCast S64 ((((extractStridedSlice S1x64 ![1, 0] · slices_S4x64_S1x64_1_0) : (⟨S4x64, .f32⟩ : BufTy).Contents (Elt F) → (⟨S1x64, .f32⟩ : BufTy).Contents (Elt F))) (V (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem kv_main_v87 (V : Valuation τ sig (Elt F)) :
    after hostOps3_2 V (Proc.devRef .tc main_v87) = ((((extractStridedSlice S1x64x64 ![1, 0, 0] · slices_S4x64x64_S1x64x64_1_0_0) : (⟨S4x64x64, .f32⟩ : BufTy).Contents (Elt F) → (⟨S1x64x64, .f32⟩ : BufTy).Contents (Elt F))) (V (Proc.devRef .tc main_arg9) : (⟨S4x64x64, .f32⟩ : BufTy).Contents (Elt F)) : (⟨S1x64x64, .f32⟩ : BufTy).Contents (Elt F)) := by
  after_results_simp <;> rfl

theorem kv_main_v88 (V : Valuation τ sig (Elt F)) :
    after hostOps3_2 V (Proc.devRef .tc main_v88) = (shapeCast S64x64 ((((extractStridedSlice S1x64x64 ![1, 0, 0] · slices_S4x64x64_S1x64x64_1_0_0) : (⟨S4x64x64, .f32⟩ : BufTy).Contents (Elt F) → (⟨S1x64x64, .f32⟩ : BufTy).Contents (Elt F))) (V (Proc.devRef .tc main_arg9) : (⟨S4x64x64, .f32⟩ : BufTy).Contents (Elt F)) : (⟨S1x64x64, .f32⟩ : BufTy).Contents (Elt F)) shapeCasts_S1x64x64_S64x64 : (⟨S64x64, .f32⟩ : BufTy).Contents (Elt F)) := by
  after_results_simp <;> rfl

theorem kv_main_v89 (V : Valuation τ sig (Elt F)) :
    after hostOps3_2 V (Proc.devRef .tc main_v89) = (shapeCast S1x64 (V (Proc.devRef .tc main_v81) : (⟨S64, .f32⟩ : BufTy).Contents (Elt F)) shapeCasts_S64_S1x64 : (⟨S1x64, .f32⟩ : BufTy).Contents (Elt F)) := by
  after_results_simp <;> rfl

theorem kv_main_v90 (V : Valuation τ sig (Elt F)) :
    after hostOps3_2 V (Proc.devRef .tc main_v90) = (shapeCast S1x64 (V (Proc.devRef .tc main_v82) : (⟨S64, .f32⟩ : BufTy).Contents (Elt F)) shapeCasts_S64_S1x64 : (⟨S1x64, .f32⟩ : BufTy).Contents (Elt F)) := by
  after_results_simp <;> rfl

theorem kv_main_v91 (V : Valuation τ sig (Elt F)) :
    after hostOps3_2 V (Proc.devRef .tc main_v91) = (shapeCast S1x64 (shapeCast S64 ((((extractStridedSlice S1x64 ![1, 0] · slices_S4x64_S1x64_1_0) : (⟨S4x64, .f32⟩ : BufTy).Contents (Elt F) → (⟨S1x64, .f32⟩ : BufTy).Contents (Elt F))) (V (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) := by
  after_results_simp <;> rfl

theorem kv_main_v92 (V : Valuation τ sig (Elt F)) :
    after hostOps3_2 V (Proc.devRef .tc main_v92) = (shapeCast S1x64 (shapeCast S64 ((((extractStridedSlice S1x64 ![1, 0] · slices_S4x64_S1x64_1_0) : (⟨S4x64, .f32⟩ : BufTy).Contents (Elt F) → (⟨S1x64, .f32⟩ : BufTy).Contents (Elt F))) (V (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) := by
  after_results_simp <;> rfl

theorem kv_main_v93 (V : Valuation τ sig (Elt F)) :
    after hostOps3_2 V (Proc.devRef .tc main_v93) = (shapeCast S1x64 (V (Proc.devRef .tc main_v45) : (⟨S64, .f32⟩ : BufTy).Contents (Elt F)) shapeCasts_S64_S1x64 : (⟨S1x64, .f32⟩ : BufTy).Contents (Elt F)) := by
  after_results_simp <;> rfl

end Cert.KernelIdeal.KChain

end
-- ==== Proof.KS_hostOps4.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps4_W : List (Ref sig .tc) := [main_v95, main_c_22, main_v96, main_v97, main_c_23, main_v98, main_v99, main_v100, main_v101, main_v102, main_v103, main_v104, main_cst_24, main_v105, main_v106, main_v107, main_v108, main_v109, main_v110]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps4_keep (V : Valuation τ sig (Elt F)) (r : Ref sig .tc) (h : r ∉ hostOps4_W) :
    after hostOps4 V (Proc.devRef .tc r) = V (Proc.devRef .tc r) :=
  after_of_writes_sub hostOps4 V hostOps4_writes h

theorem kv_main_v107 (V : Valuation τ sig (Elt F)) :
    after hostOps4 V (Proc.devRef .tc main_v107) = ((((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))) (((broadcastInDim S100000x64 ![] bcast_S_S100000x64 : (⟨S_, .f32⟩ : BufTy).Contents (Elt F) → (⟨S100000x64, .f32⟩ : BufTy).Contents (Elt F))) ((constant S_ .f32 0x00000000#32) : (⟨S_, .f32⟩ : BufTy).Contents (Elt F)) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (V (Proc.devRef .tc main_v6) : (⟨S1700000, .i32⟩ : BufTy).Contents (Elt F)) : (⟨S1700000x1, .i32⟩ : BufTy).Contents (Elt F)) (((mulf : (⟨S1700000x64, .f32⟩ : BufTy).Contents (Elt F) → (⟨S1700000x64, .f32⟩ : BufTy).Contents (Elt F) → (⟨S1700000x64, .f32⟩ : BufTy).Contents (Elt F))) (((broadcastInDim S1700000x64 ![0, 1] bcast_S1700000x1_S1700000x64_0_1 : (⟨S1700000x1, .f32⟩ : BufTy).Contents (Elt F) → (⟨S1700000x64, .f32⟩ : BufTy).Contents (Elt F))) (((broadcastInDim S1700000x1 ![0] bcast_S1700000_S1700000x1_0 : (⟨S1700000, .f32⟩ : BufTy).Contents (Elt F) → (⟨S1700000x1, .f32⟩ : BufTy).Contents (Elt F))) (V (Proc.devRef .tc main_v34) : (⟨S1700000, .f32⟩ : BufTy).Contents (Elt F)) : (⟨S1700000x1, .f32⟩ : BufTy).Contents (Elt F)) : (⟨S1700000x64, .f32⟩ : BufTy).Contents (Elt F)) ((((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))) (V (Proc.devRef .tc main_v94) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (V (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (V (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (V (Proc.devRef .tc main_v3) : (⟨S1700000, .i32⟩ : BufTy).Contents (Elt F)) : (⟨S1700000, .i32⟩ : BufTy).Contents (Elt F)) : (⟨S1700000x1, .i32⟩ : BufTy).Contents (Elt F)) : (⟨S1700000x64, .f32⟩ : BufTy).Contents (Elt F)) : (⟨S1700000x64, .f32⟩ : BufTy).Contents (Elt F)) : (⟨S100000x64, .f32⟩ : BufTy).Contents (Elt F)) := by
  after_results_simp <;> rfl

theorem kv_main_v109 (V : Valuation τ sig (Elt F)) :
    after hostOps4 V (Proc.devRef .tc main_v109) = (shapeCast S64 ((((extractStridedSlice S1x64 ![1, 0] · slices_S4x64_S1x64_1_0) : (⟨S4x64, .f32⟩ : BufTy).Contents (Elt F) → (⟨S1x64, .f32⟩ : BufTy).Contents (Elt F))) (V (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem kv_main_v110 (V : Valuation τ sig (Elt F)) :
    after hostOps4 V (Proc.devRef .tc main_v110) = (shapeCast S1x64 (shapeCast S64 ((((extractStridedSlice S1x64 ![1, 0] · slices_S4x64_S1x64_1_0) : (⟨S4x64, .f32⟩ : BufTy).Contents (Elt F) → (⟨S1x64, .f32⟩ : BufTy).Contents (Elt F))) (V (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) := by
  after_results_simp <;> rfl

end Cert.KernelIdeal.KChain

end
-- ==== Proof.KS_hostOps5.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps5_W : List (Ref sig .tc) := [main_cst_25, main_v112, main_cst_26, main_v113, main_v114, main_c_27]
theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps5_keep (V : Valuation τ sig (Elt F)) (r : Ref sig .tc) (h : r ∉ hostOps5_W) :
    after hostOps5 V (Proc.devRef .tc r) = V (Proc.devRef .tc r) :=
  after_of_writes_sub hostOps5 V hostOps5_writes h

theorem kv_main_v114 (V : Valuation τ sig (Elt F)) :
    after hostOps5 V (Proc.devRef .tc main_v114) = (((Host.divf : (⟨S64, .f32⟩ : BufTy).Contents (Elt F) → (⟨S64, .f32⟩ : BufTy).Contents (Elt F) → (⟨S64, .f32⟩ : BufTy).Contents (Elt F))) ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (V (Proc.devRef .tc main_v111) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x47C35000#32) : (⟨S_, .f32⟩ : BufTy).Contents (Elt F)) : (⟨S64, .f32⟩ : BufTy).Contents (Elt F)) : (⟨S64, .f32⟩ : BufTy).Contents (Elt F)) := by
  after_results_simp <;> rfl

theorem kv_main_c_27 (V : Valuation τ sig (Elt F)) :
    after hostOps5 V (Proc.devRef .tc main_c_27) = ((constantI S_ 32 0#32) : (⟨S_, .i32⟩ : BufTy).Contents (Elt F)) := by
  after_results_simp <;> rfl

end Cert.KernelIdeal.KChain

end
-- ==== Proof.KS_hostOps5_1.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps5_1_W : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v115]
theorem hostOps5_1_writes : (hostOps5_1 : List (HloOp τ sig (Elt F))).Forall fun op => op.writes ⊆ (hostOps5_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps5_1_keep (V : Valuation τ sig (Elt F)) (r : Ref sig .tc) (h : r ∉ hostOps5_1_W) :
    after hostOps5_1 V (Proc.devRef .tc r) = V (Proc.devRef .tc r) :=
  after_of_writes_sub hostOps5_1 V hostOps5_1_writes h

theorem kv_main_v115 (V : Valuation τ sig (Elt F)) :
    after hostOps5_1 V (Proc.devRef .tc main_v115) = (((fun p a b => select (broadcastInDim S64 ![] bcast_S_S64 p) a b)) (((cmpf .ogt)) ((subf) ((constant S_ .f32 0x47C35000#32) : (⟨S_, .f32⟩ : BufTy).Contents (Elt F)) (((sitofp .f32)) (V (Proc.devRef .tc main_c_27) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (V (Proc.devRef .tc main_v111) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_v111) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (V (Proc.devRef .tc main_v111) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_v111) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) (V (Proc.devRef .tc main_c_27) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) := by
  after_results_simp <;> rfl

end Cert.KernelIdeal.KChain

end
-- ==== Proof.KS_hostOps5_2.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps5_2_W : List (Ref sig .tc) := [main_v116, main_v117, main_v118, main_v119, main_v120, main_v121, main_v122, main_v123, main_v124, main_v125, main_v126]
theorem hostOps5_2_writes : (hostOps5_2 : List (HloOp τ sig (Elt F))).Forall fun op => op.writes ⊆ (hostOps5_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps5_2_keep (V : Valuation τ sig (Elt F)) (r : Ref sig .tc) (h : r ∉ hostOps5_2_W) :
    after hostOps5_2 V (Proc.devRef .tc r) = V (Proc.devRef .tc r) :=
  after_of_writes_sub hostOps5_2 V hostOps5_2_writes h

theorem kv_main_v117 (V : Valuation τ sig (Elt F)) :
    after hostOps5_2 V (Proc.devRef .tc main_v117) = (shapeCast S64 ((((extractStridedSlice S1x64 ![2, 0] · slices_S4x64_S1x64_2_0) : (⟨S4x64, .f32⟩ : BufTy).Contents (Elt F) → (⟨S1x64, .f32⟩ : BufTy).Contents (Elt F))) (V (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem kv_main_v119 (V : Valuation τ sig (Elt F)) :
    after hostOps5_2 V (Proc.devRef .tc main_v119) = (shapeCast S64 ((((extractStridedSlice S1x64 ![2, 0] · slices_S4x64_S1x64_2_0) : (⟨S4x64, .f32⟩ : BufTy).Contents (Elt F) → (⟨S1x64, .f32⟩ : BufTy).Contents (Elt F))) (V (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem kv_main_v120 (V : Valuation τ sig (Elt F)) :
    after hostOps5_2 V (Proc.devRef .tc main_v120) = ((((extractStridedSlice S1x64x64 ![2, 0, 0] · slices_S4x64x64_S1x64x64_2_0_0) : (⟨S4x64x64, .f32⟩ : BufTy).Contents (Elt F) → (⟨S1x64x64, .f32⟩ : BufTy).Contents (Elt F))) (V (Proc.devRef .tc main_arg9) : (⟨S4x64x64, .f32⟩ : BufTy).Contents (Elt F)) : (⟨S1x64x64, .f32⟩ : BufTy).Contents (Elt F)) := by
  after_results_simp <;> rfl

theorem kv_main_v121 (V : Valuation τ sig (Elt F)) :
    after hostOps5_2 V (Proc.devRef .tc main_v121) = (shapeCast S64x64 ((((extractStridedSlice S1x64x64 ![2, 0, 0] · slices_S4x64x64_S1x64x64_2_0_0) : (⟨S4x64x64, .f32⟩ : BufTy).Contents (Elt F) → (⟨S1x64x64, .f32⟩ : BufTy).Contents (Elt F))) (V (Proc.devRef .tc main_arg9) : (⟨S4x64x64, .f32⟩ : BufTy).Contents (Elt F)) : (⟨S1x64x64, .f32⟩ : BufTy).Contents (Elt F)) shapeCasts_S1x64x64_S64x64 : (⟨S64x64, .f32⟩ : BufTy).Contents (Elt F)) := by
  after_results_simp <;> rfl

theorem kv_main_v122 (V : Valuation τ sig (Elt F)) :
    after hostOps5_2 V (Proc.devRef .tc main_v122) = (shapeCast S1x64 (V (Proc.devRef .tc main_v114) : (⟨S64, .f32⟩ : BufTy).Contents (Elt F)) shapeCasts_S64_S1x64 : (⟨S1x64, .f32⟩ : BufTy).Contents (Elt F)) := by
  after_results_simp <;> rfl

theorem kv_main_v123 (V : Valuation τ sig (Elt F)) :
    after hostOps5_2 V (Proc.devRef .tc main_v123) = (shapeCast S1x64 (V (Proc.devRef .tc main_v115) : (⟨S64, .f32⟩ : BufTy).Contents (Elt F)) shapeCasts_S64_S1x64 : (⟨S1x64, .f32⟩ : BufTy).Contents (Elt F)) := by
  after_results_simp <;> rfl

theorem kv_main_v124 (V : Valuation τ sig (Elt F)) :
    after hostOps5_2 V (Proc.devRef .tc main_v124) = (shapeCast S1x64 (shapeCast S64 ((((extractStridedSlice S1x64 ![2, 0] · slices_S4x64_S1x64_2_0) : (⟨S4x64, .f32⟩ : BufTy).Contents (Elt F) → (⟨S1x64, .f32⟩ : BufTy).Contents (Elt F))) (V (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) := by
  after_results_simp <;> rfl

theorem kv_main_v125 (V : Valuation τ sig (Elt F)) :
    after hostOps5_2 V (Proc.devRef .tc main_v125) = (shapeCast S1x64 (shapeCast S64 ((((extractStridedSlice S1x64 ![2, 0] · slices_S4x64_S1x64_2_0) : (⟨S4x64, .f32⟩ : BufTy).Contents (Elt F) → (⟨S1x64, .f32⟩ : BufTy).Contents (Elt F))) (V (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) := by
  after_results_simp <;> rfl

theorem kv_main_v126 (V : Valuation τ sig (Elt F)) :
    after hostOps5_2 V (Proc.devRef .tc main_v126) = (shapeCast S1x64 (V (Proc.devRef .tc main_v45) : (⟨S64, .f32⟩ : BufTy).Contents (Elt F)) shapeCasts_S64_S1x64 : (⟨S1x64, .f32⟩ : BufTy).Contents (Elt F)) := by
  after_results_simp <;> rfl

end Cert.KernelIdeal.KChain

end
-- ==== Proof.KS_hostOps6.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps6_W : List (Ref sig .tc) := [main_v128, main_c_28, main_v129, main_v130, main_c_29, main_v131, main_v132, main_v133, main_v134, main_v135, main_v136, main_v137, main_cst_30, main_v138, main_v139, main_v140, main_v141, main_v142, main_v143]
theorem hostOps6_writes : (hostOps6 : List (HloOp τ sig (Elt F))).Forall fun op => op.writes ⊆ (hostOps6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps6_keep (V : Valuation τ sig (Elt F)) (r : Ref sig .tc) (h : r ∉ hostOps6_W) :
    after hostOps6 V (Proc.devRef .tc r) = V (Proc.devRef .tc r) :=
  after_of_writes_sub hostOps6 V hostOps6_writes h

theorem kv_main_v140 (V : Valuation τ sig (Elt F)) :
    after hostOps6 V (Proc.devRef .tc main_v140) = ((((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))) (((broadcastInDim S100000x64 ![] bcast_S_S100000x64 : (⟨S_, .f32⟩ : BufTy).Contents (Elt F) → (⟨S100000x64, .f32⟩ : BufTy).Contents (Elt F))) ((constant S_ .f32 0x00000000#32) : (⟨S_, .f32⟩ : BufTy).Contents (Elt F)) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (V (Proc.devRef .tc main_v6) : (⟨S1700000, .i32⟩ : BufTy).Contents (Elt F)) : (⟨S1700000x1, .i32⟩ : BufTy).Contents (Elt F)) (((mulf : (⟨S1700000x64, .f32⟩ : BufTy).Contents (Elt F) → (⟨S1700000x64, .f32⟩ : BufTy).Contents (Elt F) → (⟨S1700000x64, .f32⟩ : BufTy).Contents (Elt F))) (((broadcastInDim S1700000x64 ![0, 1] bcast_S1700000x1_S1700000x64_0_1 : (⟨S1700000x1, .f32⟩ : BufTy).Contents (Elt F) → (⟨S1700000x64, .f32⟩ : BufTy).Contents (Elt F))) (((broadcastInDim S1700000x1 ![0] bcast_S1700000_S1700000x1_0 : (⟨S1700000, .f32⟩ : BufTy).Contents (Elt F) → (⟨S1700000x1, .f32⟩ : BufTy).Contents (Elt F))) (V (Proc.devRef .tc main_v34) : (⟨S1700000, .f32⟩ : BufTy).Contents (Elt F)) : (⟨S1700000x1, .f32⟩ : BufTy).Contents (Elt F)) : (⟨S1700000x64, .f32⟩ : BufTy).Contents (Elt F)) ((((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))) (V (Proc.devRef .tc main_v127) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (V (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (V (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (V (Proc.devRef .tc main_v3) : (⟨S1700000, .i32⟩ : BufTy).Contents (Elt F)) : (⟨S1700000, .i32⟩ : BufTy).Contents (Elt F)) : (⟨S1700000x1, .i32⟩ : BufTy).Contents (Elt F)) : (⟨S1700000x64, .f32⟩ : BufTy).Contents (Elt F)) : (⟨S1700000x64, .f32⟩ : BufTy).Contents (Elt F)) : (⟨S100000x64, .f32⟩ : BufTy).Contents (Elt F)) := by
  after_results_simp <;> rfl

theorem kv_main_v142 (V : Valuation τ sig (Elt F)) :
    after hostOps6 V (Proc.devRef .tc main_v142) = (shapeCast S64 ((((extractStridedSlice S1x64 ![2, 0] · slices_S4x64_S1x64_2_0) : (⟨S4x64, .f32⟩ : BufTy).Contents (Elt F) → (⟨S1x64, .f32⟩ : BufTy).Contents (Elt F))) (V (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem kv_main_v143 (V : Valuation τ sig (Elt F)) :
    after hostOps6 V (Proc.devRef .tc main_v143) = (shapeCast S1x64 (shapeCast S64 ((((extractStridedSlice S1x64 ![2, 0] · slices_S4x64_S1x64_2_0) : (⟨S4x64, .f32⟩ : BufTy).Contents (Elt F) → (⟨S1x64, .f32⟩ : BufTy).Contents (Elt F))) (V (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) := by
  after_results_simp <;> rfl

end Cert.KernelIdeal.KChain

end
-- ==== Proof.KS_hostOps7.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps7_W : List (Ref sig .tc) := [main_cst_31, main_v145, main_cst_32, main_v146, main_v147, main_c_33]
theorem hostOps7_writes : (hostOps7 : List (HloOp τ sig (Elt F))).Forall fun op => op.writes ⊆ (hostOps7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps7_keep (V : Valuation τ sig (Elt F)) (r : Ref sig .tc) (h : r ∉ hostOps7_W) :
    after hostOps7 V (Proc.devRef .tc r) = V (Proc.devRef .tc r) :=
  after_of_writes_sub hostOps7 V hostOps7_writes h

theorem kv_main_v147 (V : Valuation τ sig (Elt F)) :
    after hostOps7 V (Proc.devRef .tc main_v147) = (((Host.divf : (⟨S64, .f32⟩ : BufTy).Contents (Elt F) → (⟨S64, .f32⟩ : BufTy).Contents (Elt F) → (⟨S64, .f32⟩ : BufTy).Contents (Elt F))) ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (V (Proc.devRef .tc main_v144) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x47C35000#32) : (⟨S_, .f32⟩ : BufTy).Contents (Elt F)) : (⟨S64, .f32⟩ : BufTy).Contents (Elt F)) : (⟨S64, .f32⟩ : BufTy).Contents (Elt F)) := by
  after_results_simp <;> rfl

theorem kv_main_c_33 (V : Valuation τ sig (Elt F)) :
    after hostOps7 V (Proc.devRef .tc main_c_33) = ((constantI S_ 32 0#32) : (⟨S_, .i32⟩ : BufTy).Contents (Elt F)) := by
  after_results_simp <;> rfl

end Cert.KernelIdeal.KChain

end
-- ==== Proof.KS_hostOps7_1.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps7_1_W : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v148]
theorem hostOps7_1_writes : (hostOps7_1 : List (HloOp τ sig (Elt F))).Forall fun op => op.writes ⊆ (hostOps7_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps7_1_keep (V : Valuation τ sig (Elt F)) (r : Ref sig .tc) (h : r ∉ hostOps7_1_W) :
    after hostOps7_1 V (Proc.devRef .tc r) = V (Proc.devRef .tc r) :=
  after_of_writes_sub hostOps7_1 V hostOps7_1_writes h

theorem kv_main_v148 (V : Valuation τ sig (Elt F)) :
    after hostOps7_1 V (Proc.devRef .tc main_v148) = (((fun p a b => select (broadcastInDim S64 ![] bcast_S_S64 p) a b)) (((cmpf .ogt)) ((subf) ((constant S_ .f32 0x47C35000#32) : (⟨S_, .f32⟩ : BufTy).Contents (Elt F)) (((sitofp .f32)) (V (Proc.devRef .tc main_c_33) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (V (Proc.devRef .tc main_v144) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_v144) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (V (Proc.devRef .tc main_v144) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (V (Proc.devRef .tc main_v144) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) (V (Proc.devRef .tc main_c_33) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) := by
  after_results_simp <;> rfl

end Cert.KernelIdeal.KChain

end
-- ==== Proof.KS_hostOps7_2.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps7_2_W : List (Ref sig .tc) := [main_v149, main_v150, main_v151, main_v152, main_v153, main_v154, main_v155, main_v156, main_v157, main_v158, main_v159]
theorem hostOps7_2_writes : (hostOps7_2 : List (HloOp τ sig (Elt F))).Forall fun op => op.writes ⊆ (hostOps7_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps7_2_keep (V : Valuation τ sig (Elt F)) (r : Ref sig .tc) (h : r ∉ hostOps7_2_W) :
    after hostOps7_2 V (Proc.devRef .tc r) = V (Proc.devRef .tc r) :=
  after_of_writes_sub hostOps7_2 V hostOps7_2_writes h

theorem kv_main_v150 (V : Valuation τ sig (Elt F)) :
    after hostOps7_2 V (Proc.devRef .tc main_v150) = (shapeCast S64 ((((extractStridedSlice S1x64 ![3, 0] · slices_S4x64_S1x64_3_0) : (⟨S4x64, .f32⟩ : BufTy).Contents (Elt F) → (⟨S1x64, .f32⟩ : BufTy).Contents (Elt F))) (V (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem kv_main_v152 (V : Valuation τ sig (Elt F)) :
    after hostOps7_2 V (Proc.devRef .tc main_v152) = (shapeCast S64 ((((extractStridedSlice S1x64 ![3, 0] · slices_S4x64_S1x64_3_0) : (⟨S4x64, .f32⟩ : BufTy).Contents (Elt F) → (⟨S1x64, .f32⟩ : BufTy).Contents (Elt F))) (V (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem kv_main_v153 (V : Valuation τ sig (Elt F)) :
    after hostOps7_2 V (Proc.devRef .tc main_v153) = ((((extractStridedSlice S1x64x64 ![3, 0, 0] · slices_S4x64x64_S1x64x64_3_0_0) : (⟨S4x64x64, .f32⟩ : BufTy).Contents (Elt F) → (⟨S1x64x64, .f32⟩ : BufTy).Contents (Elt F))) (V (Proc.devRef .tc main_arg9) : (⟨S4x64x64, .f32⟩ : BufTy).Contents (Elt F)) : (⟨S1x64x64, .f32⟩ : BufTy).Contents (Elt F)) := by
  after_results_simp <;> rfl

theorem kv_main_v154 (V : Valuation τ sig (Elt F)) :
    after hostOps7_2 V (Proc.devRef .tc main_v154) = (shapeCast S64x64 ((((extractStridedSlice S1x64x64 ![3, 0, 0] · slices_S4x64x64_S1x64x64_3_0_0) : (⟨S4x64x64, .f32⟩ : BufTy).Contents (Elt F) → (⟨S1x64x64, .f32⟩ : BufTy).Contents (Elt F))) (V (Proc.devRef .tc main_arg9) : (⟨S4x64x64, .f32⟩ : BufTy).Contents (Elt F)) : (⟨S1x64x64, .f32⟩ : BufTy).Contents (Elt F)) shapeCasts_S1x64x64_S64x64 : (⟨S64x64, .f32⟩ : BufTy).Contents (Elt F)) := by
  after_results_simp <;> rfl

theorem kv_main_v155 (V : Valuation τ sig (Elt F)) :
    after hostOps7_2 V (Proc.devRef .tc main_v155) = (shapeCast S1x64 (V (Proc.devRef .tc main_v147) : (⟨S64, .f32⟩ : BufTy).Contents (Elt F)) shapeCasts_S64_S1x64 : (⟨S1x64, .f32⟩ : BufTy).Contents (Elt F)) := by
  after_results_simp <;> rfl

theorem kv_main_v156 (V : Valuation τ sig (Elt F)) :
    after hostOps7_2 V (Proc.devRef .tc main_v156) = (shapeCast S1x64 (V (Proc.devRef .tc main_v148) : (⟨S64, .f32⟩ : BufTy).Contents (Elt F)) shapeCasts_S64_S1x64 : (⟨S1x64, .f32⟩ : BufTy).Contents (Elt F)) := by
  after_results_simp <;> rfl

theorem kv_main_v157 (V : Valuation τ sig (Elt F)) :
    after hostOps7_2 V (Proc.devRef .tc main_v157) = (shapeCast S1x64 (shapeCast S64 ((((extractStridedSlice S1x64 ![3, 0] · slices_S4x64_S1x64_3_0) : (⟨S4x64, .f32⟩ : BufTy).Contents (Elt F) → (⟨S1x64, .f32⟩ : BufTy).Contents (Elt F))) (V (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) := by
  after_results_simp <;> rfl

theorem kv_main_v158 (V : Valuation τ sig (Elt F)) :
    after hostOps7_2 V (Proc.devRef .tc main_v158) = (shapeCast S1x64 (shapeCast S64 ((((extractStridedSlice S1x64 ![3, 0] · slices_S4x64_S1x64_3_0) : (⟨S4x64, .f32⟩ : BufTy).Contents (Elt F) → (⟨S1x64, .f32⟩ : BufTy).Contents (Elt F))) (V (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) := by
  after_results_simp <;> rfl

theorem kv_main_v159 (V : Valuation τ sig (Elt F)) :
    after hostOps7_2 V (Proc.devRef .tc main_v159) = (shapeCast S1x64 (V (Proc.devRef .tc main_v45) : (⟨S64, .f32⟩ : BufTy).Contents (Elt F)) shapeCasts_S64_S1x64 : (⟨S1x64, .f32⟩ : BufTy).Contents (Elt F)) := by
  after_results_simp <;> rfl

end Cert.KernelIdeal.KChain

end
-- ==== Proof.KS_hostOps8.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps8_W : List (Ref sig .tc) := [main_v161, main_c_34, main_v162, main_v163, main_c_35, main_v164, main_v165, main_v166, main_v167, main_v168, main_v169, main_v170, main_cst_36, main_v171, main_v172, main_v173, main_v174, main_v175, main_v176]
theorem hostOps8_writes : (hostOps8 : List (HloOp τ sig (Elt F))).Forall fun op => op.writes ⊆ (hostOps8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps8_keep (V : Valuation τ sig (Elt F)) (r : Ref sig .tc) (h : r ∉ hostOps8_W) :
    after hostOps8 V (Proc.devRef .tc r) = V (Proc.devRef .tc r) :=
  after_of_writes_sub hostOps8 V hostOps8_writes h

theorem kv_main_v173 (V : Valuation τ sig (Elt F)) :
    after hostOps8 V (Proc.devRef .tc main_v173) = ((((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))) (((broadcastInDim S100000x64 ![] bcast_S_S100000x64 : (⟨S_, .f32⟩ : BufTy).Contents (Elt F) → (⟨S100000x64, .f32⟩ : BufTy).Contents (Elt F))) ((constant S_ .f32 0x00000000#32) : (⟨S_, .f32⟩ : BufTy).Contents (Elt F)) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (V (Proc.devRef .tc main_v6) : (⟨S1700000, .i32⟩ : BufTy).Contents (Elt F)) : (⟨S1700000x1, .i32⟩ : BufTy).Contents (Elt F)) (((mulf : (⟨S1700000x64, .f32⟩ : BufTy).Contents (Elt F) → (⟨S1700000x64, .f32⟩ : BufTy).Contents (Elt F) → (⟨S1700000x64, .f32⟩ : BufTy).Contents (Elt F))) (((broadcastInDim S1700000x64 ![0, 1] bcast_S1700000x1_S1700000x64_0_1 : (⟨S1700000x1, .f32⟩ : BufTy).Contents (Elt F) → (⟨S1700000x64, .f32⟩ : BufTy).Contents (Elt F))) (((broadcastInDim S1700000x1 ![0] bcast_S1700000_S1700000x1_0 : (⟨S1700000, .f32⟩ : BufTy).Contents (Elt F) → (⟨S1700000x1, .f32⟩ : BufTy).Contents (Elt F))) (V (Proc.devRef .tc main_v34) : (⟨S1700000, .f32⟩ : BufTy).Contents (Elt F)) : (⟨S1700000x1, .f32⟩ : BufTy).Contents (Elt F)) : (⟨S1700000x64, .f32⟩ : BufTy).Contents (Elt F)) ((((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))) (V (Proc.devRef .tc main_v160) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (V (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (V (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (V (Proc.devRef .tc main_v3) : (⟨S1700000, .i32⟩ : BufTy).Contents (Elt F)) : (⟨S1700000, .i32⟩ : BufTy).Contents (Elt F)) : (⟨S1700000x1, .i32⟩ : BufTy).Contents (Elt F)) : (⟨S1700000x64, .f32⟩ : BufTy).Contents (Elt F)) : (⟨S1700000x64, .f32⟩ : BufTy).Contents (Elt F)) : (⟨S100000x64, .f32⟩ : BufTy).Contents (Elt F)) := by
  after_results_simp <;> rfl

theorem kv_main_v175 (V : Valuation τ sig (Elt F)) :
    after hostOps8 V (Proc.devRef .tc main_v175) = (shapeCast S64 ((((extractStridedSlice S1x64 ![3, 0] · slices_S4x64_S1x64_3_0) : (⟨S4x64, .f32⟩ : BufTy).Contents (Elt F) → (⟨S1x64, .f32⟩ : BufTy).Contents (Elt F))) (V (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem kv_main_v176 (V : Valuation τ sig (Elt F)) :
    after hostOps8 V (Proc.devRef .tc main_v176) = (shapeCast S1x64 (shapeCast S64 ((((extractStridedSlice S1x64 ![3, 0] · slices_S4x64_S1x64_3_0) : (⟨S4x64, .f32⟩ : BufTy).Contents (Elt F) → (⟨S1x64, .f32⟩ : BufTy).Contents (Elt F))) (V (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) := by
  after_results_simp <;> rfl

end Cert.KernelIdeal.KChain

end
-- ==== Proof.KS_hostOps9.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps9_W : List (Ref sig .tc) := [main_cst_37, main_v178, main_v179, main_v180, main_cst_38, main_v181, main_cst_39, main_v182, main_v183, main_c_40]
theorem hostOps9_writes : (hostOps9 : List (HloOp τ sig (Elt F))).Forall fun op => op.writes ⊆ (hostOps9_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps9_keep (V : Valuation τ sig (Elt F)) (r : Ref sig .tc) (h : r ∉ hostOps9_W) :
    after hostOps9 V (Proc.devRef .tc r) = V (Proc.devRef .tc r) :=
  after_of_writes_sub hostOps9 V hostOps9_writes h

theorem kv_main_v180 (V : Valuation τ sig (Elt F)) :
    after hostOps9 V (Proc.devRef .tc main_v180) = ((((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F))) (((broadcastInDim S512x64 ![] bcast_S_S512x64 : (⟨S_, .f32⟩ : BufTy).Contents (Elt F) → (⟨S512x64, .f32⟩ : BufTy).Contents (Elt F))) ((constant S_ .f32 0x00000000#32) : (⟨S_, .f32⟩ : BufTy).Contents (Elt F)) : (⟨S512x64, .f32⟩ : BufTy).Contents (Elt F)) (((broadcastInDim S100000x1 ![0] bcast_S100000_S100000x1_0 : (⟨S100000, .i32⟩ : BufTy).Contents (Elt F) → (⟨S100000x1, .i32⟩ : BufTy).Contents (Elt F))) (V (Proc.devRef .tc main_arg2) : (⟨S100000, .i32⟩ : BufTy).Contents (Elt F)) : (⟨S100000x1, .i32⟩ : BufTy).Contents (Elt F)) (V (Proc.devRef .tc main_v177) : (⟨S100000x64, .f32⟩ : BufTy).Contents (Elt F)) : (⟨S512x64, .f32⟩ : BufTy).Contents (Elt F)) := by
  after_results_simp <;> rfl

theorem kv_main_v183 (V : Valuation τ sig (Elt F)) :
    after hostOps9 V (Proc.devRef .tc main_v183) = (((Host.divf : (⟨S64, .f32⟩ : BufTy).Contents (Elt F) → (⟨S64, .f32⟩ : BufTy).Contents (Elt F) → (⟨S64, .f32⟩ : BufTy).Contents (Elt F))) ((((fun x v => Host.reduceAdd x v reducesTo_S512x64_S64_d0 h_S_) : (⟨S512x64, .f32⟩ : BufTy).Contents (Elt F) → (⟨S_, .f32⟩ : BufTy).Contents (Elt F) → (⟨S64, .f32⟩ : BufTy).Contents (Elt F))) ((((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F))) (((broadcastInDim S512x64 ![] bcast_S_S512x64 : (⟨S_, .f32⟩ : BufTy).Contents (Elt F) → (⟨S512x64, .f32⟩ : BufTy).Contents (Elt F))) ((constant S_ .f32 0x00000000#32) : (⟨S_, .f32⟩ : BufTy).Contents (Elt F)) : (⟨S512x64, .f32⟩ : BufTy).Contents (Elt F)) (((broadcastInDim S100000x1 ![0] bcast_S100000_S100000x1_0 : (⟨S100000, .i32⟩ : BufTy).Contents (Elt F) → (⟨S100000x1, .i32⟩ : BufTy).Contents (Elt F))) (V (Proc.devRef .tc main_arg2) : (⟨S100000, .i32⟩ : BufTy).Contents (Elt F)) : (⟨S100000x1, .i32⟩ : BufTy).Contents (Elt F)) (V (Proc.devRef .tc main_v177) : (⟨S100000x64, .f32⟩ : BufTy).Contents (Elt F)) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x44000000#32) : (⟨S_, .f32⟩ : BufTy).Contents (Elt F)) : (⟨S64, .f32⟩ : BufTy).Contents (Elt F)) : (⟨S64, .f32⟩ : BufTy).Contents (Elt F)) := by
  after_results_simp <;> rfl

theorem kv_main_c_40 (V : Valuation τ sig (Elt F)) :
    after hostOps9 V (Proc.devRef .tc main_c_40) = ((constantI S_ 32 0#32) : (⟨S_, .i32⟩ : BufTy).Contents (Elt F)) := by
  after_results_simp <;> rfl

end Cert.KernelIdeal.KChain

end
-- ==== Proof.KS_hostOps9_1.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps9_1_W : List (Ref sig .tc) := [main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v184]
theorem hostOps9_1_writes : (hostOps9_1 : List (HloOp τ sig (Elt F))).Forall fun op => op.writes ⊆ (hostOps9_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps9_1_keep (V : Valuation τ sig (Elt F)) (r : Ref sig .tc) (h : r ∉ hostOps9_1_W) :
    after hostOps9_1 V (Proc.devRef .tc r) = V (Proc.devRef .tc r) :=
  after_of_writes_sub hostOps9_1 V hostOps9_1_writes h

theorem kv_main_v184 (V : Valuation τ sig (Elt F)) :
    after hostOps9_1 V (Proc.devRef .tc main_v184) = (((fun p a b => select (broadcastInDim S64 ![] bcast_S_S64 p) a b)) (((cmpf .ogt)) ((subf) ((constant S_ .f32 0x44000000#32) : (⟨S_, .f32⟩ : BufTy).Contents (Elt F)) (((sitofp .f32)) (V (Proc.devRef .tc main_c_40) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S512x64_S64_d0 h_S_)) ((mulf) ((subf) (V (Proc.devRef .tc main_v180) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (V (Proc.devRef .tc main_v180) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) ((subf) (V (Proc.devRef .tc main_v180) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (V (Proc.devRef .tc main_v180) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x44000000#32) : (⟨S_, .f32⟩ : BufTy).Contents (Elt F)) (((sitofp .f32)) (V (Proc.devRef .tc main_c_40) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) := by
  after_results_simp <;> rfl

end Cert.KernelIdeal.KChain

end
-- ==== Proof.KS_hostOps9_2.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps9_2_W : List (Ref sig .tc) := [main_v185, main_v186, main_v187, main_v188, main_v189, main_v190, main_v191, main_v192, main_v193, main_v194, main_v195, main_v196, main_v197]
theorem hostOps9_2_writes : (hostOps9_2 : List (HloOp τ sig (Elt F))).Forall fun op => op.writes ⊆ (hostOps9_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps9_2_keep (V : Valuation τ sig (Elt F)) (r : Ref sig .tc) (h : r ∉ hostOps9_2_W) :
    after hostOps9_2 V (Proc.devRef .tc r) = V (Proc.devRef .tc r) :=
  after_of_writes_sub hostOps9_2 V hostOps9_2_writes h

theorem kv_main_v186 (V : Valuation τ sig (Elt F)) :
    after hostOps9_2 V (Proc.devRef .tc main_v186) = (shapeCast S64 ((((extractStridedSlice S1x64 ![0, 0] · slices_S2x64_S1x64_0_0) : (⟨S2x64, .f32⟩ : BufTy).Contents (Elt F) → (⟨S1x64, .f32⟩ : BufTy).Contents (Elt F))) (V (Proc.devRef .tc main_arg11) : (⟨S2x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem kv_main_v188 (V : Valuation τ sig (Elt F)) :
    after hostOps9_2 V (Proc.devRef .tc main_v188) = (shapeCast S64 ((((extractStridedSlice S1x64 ![0, 0] · slices_S2x64_S1x64_0_0) : (⟨S2x64, .f32⟩ : BufTy).Contents (Elt F) → (⟨S1x64, .f32⟩ : BufTy).Contents (Elt F))) (V (Proc.devRef .tc main_arg12) : (⟨S2x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem kv_main_v189 (V : Valuation τ sig (Elt F)) :
    after hostOps9_2 V (Proc.devRef .tc main_v189) = ((((extractStridedSlice S1x64x64 ![0, 0, 0] · slices_S2x64x64_S1x64x64_0_0_0) : (⟨S2x64x64, .f32⟩ : BufTy).Contents (Elt F) → (⟨S1x64x64, .f32⟩ : BufTy).Contents (Elt F))) (V (Proc.devRef .tc main_arg13) : (⟨S2x64x64, .f32⟩ : BufTy).Contents (Elt F)) : (⟨S1x64x64, .f32⟩ : BufTy).Contents (Elt F)) := by
  after_results_simp <;> rfl

theorem kv_main_v190 (V : Valuation τ sig (Elt F)) :
    after hostOps9_2 V (Proc.devRef .tc main_v190) = (shapeCast S64x64 ((((extractStridedSlice S1x64x64 ![0, 0, 0] · slices_S2x64x64_S1x64x64_0_0_0) : (⟨S2x64x64, .f32⟩ : BufTy).Contents (Elt F) → (⟨S1x64x64, .f32⟩ : BufTy).Contents (Elt F))) (V (Proc.devRef .tc main_arg13) : (⟨S2x64x64, .f32⟩ : BufTy).Contents (Elt F)) : (⟨S1x64x64, .f32⟩ : BufTy).Contents (Elt F)) shapeCasts_S1x64x64_S64x64 : (⟨S64x64, .f32⟩ : BufTy).Contents (Elt F)) := by
  after_results_simp <;> rfl

theorem kv_main_v192 (V : Valuation τ sig (Elt F)) :
    after hostOps9_2 V (Proc.devRef .tc main_v192) = (shapeCast S64 ((((extractStridedSlice S1x64 ![0, 0] · slices_S2x64_S1x64_0_0) : (⟨S2x64, .f32⟩ : BufTy).Contents (Elt F) → (⟨S1x64, .f32⟩ : BufTy).Contents (Elt F))) (V (Proc.devRef .tc main_arg14) : (⟨S2x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem kv_main_v193 (V : Valuation τ sig (Elt F)) :
    after hostOps9_2 V (Proc.devRef .tc main_v193) = (shapeCast S1x64 (V (Proc.devRef .tc main_v183) : (⟨S64, .f32⟩ : BufTy).Contents (Elt F)) shapeCasts_S64_S1x64 : (⟨S1x64, .f32⟩ : BufTy).Contents (Elt F)) := by
  after_results_simp <;> rfl

theorem kv_main_v194 (V : Valuation τ sig (Elt F)) :
    after hostOps9_2 V (Proc.devRef .tc main_v194) = (shapeCast S1x64 (V (Proc.devRef .tc main_v184) : (⟨S64, .f32⟩ : BufTy).Contents (Elt F)) shapeCasts_S64_S1x64 : (⟨S1x64, .f32⟩ : BufTy).Contents (Elt F)) := by
  after_results_simp <;> rfl

theorem kv_main_v195 (V : Valuation τ sig (Elt F)) :
    after hostOps9_2 V (Proc.devRef .tc main_v195) = (shapeCast S1x64 (shapeCast S64 ((((extractStridedSlice S1x64 ![0, 0] · slices_S2x64_S1x64_0_0) : (⟨S2x64, .f32⟩ : BufTy).Contents (Elt F) → (⟨S1x64, .f32⟩ : BufTy).Contents (Elt F))) (V (Proc.devRef .tc main_arg11) : (⟨S2x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) := by
  after_results_simp <;> rfl

theorem kv_main_v196 (V : Valuation τ sig (Elt F)) :
    after hostOps9_2 V (Proc.devRef .tc main_v196) = (shapeCast S1x64 (shapeCast S64 ((((extractStridedSlice S1x64 ![0, 0] · slices_S2x64_S1x64_0_0) : (⟨S2x64, .f32⟩ : BufTy).Contents (Elt F) → (⟨S1x64, .f32⟩ : BufTy).Contents (Elt F))) (V (Proc.devRef .tc main_arg12) : (⟨S2x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) := by
  after_results_simp <;> rfl

theorem kv_main_v197 (V : Valuation τ sig (Elt F)) :
    after hostOps9_2 V (Proc.devRef .tc main_v197) = (shapeCast S1x64 (shapeCast S64 ((((extractStridedSlice S1x64 ![0, 0] · slices_S2x64_S1x64_0_0) : (⟨S2x64, .f32⟩ : BufTy).Contents (Elt F) → (⟨S1x64, .f32⟩ : BufTy).Contents (Elt F))) (V (Proc.devRef .tc main_arg14) : (⟨S2x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) := by
  after_results_simp <;> rfl

end Cert.KernelIdeal.KChain

end
-- ==== Proof.KS_hostOps10.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps10_W : List (Ref sig .tc) := [main_cst_41, main_v199, main_cst_42, main_v200, main_v201, main_c_43]
theorem hostOps10_writes : (hostOps10 : List (HloOp τ sig (Elt F))).Forall fun op => op.writes ⊆ (hostOps10_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps10_keep (V : Valuation τ sig (Elt F)) (r : Ref sig .tc) (h : r ∉ hostOps10_W) :
    after hostOps10 V (Proc.devRef .tc r) = V (Proc.devRef .tc r) :=
  after_of_writes_sub hostOps10 V hostOps10_writes h

theorem kv_main_v201 (V : Valuation τ sig (Elt F)) :
    after hostOps10 V (Proc.devRef .tc main_v201) = (((Host.divf : (⟨S64, .f32⟩ : BufTy).Contents (Elt F) → (⟨S64, .f32⟩ : BufTy).Contents (Elt F) → (⟨S64, .f32⟩ : BufTy).Contents (Elt F))) ((((fun x v => Host.reduceAdd x v reducesTo_S512x64_S64_d0 h_S_) : (⟨S512x64, .f32⟩ : BufTy).Contents (Elt F) → (⟨S_, .f32⟩ : BufTy).Contents (Elt F) → (⟨S64, .f32⟩ : BufTy).Contents (Elt F))) (V (Proc.devRef .tc main_v198) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x44000000#32) : (⟨S_, .f32⟩ : BufTy).Contents (Elt F)) : (⟨S64, .f32⟩ : BufTy).Contents (Elt F)) : (⟨S64, .f32⟩ : BufTy).Contents (Elt F)) := by
  after_results_simp <;> rfl

theorem kv_main_c_43 (V : Valuation τ sig (Elt F)) :
    after hostOps10 V (Proc.devRef .tc main_c_43) = ((constantI S_ 32 0#32) : (⟨S_, .i32⟩ : BufTy).Contents (Elt F)) := by
  after_results_simp <;> rfl

end Cert.KernelIdeal.KChain

end
-- ==== Proof.KS_hostOps10_1.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps10_1_W : List (Ref sig .tc) := [main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v202]
theorem hostOps10_1_writes : (hostOps10_1 : List (HloOp τ sig (Elt F))).Forall fun op => op.writes ⊆ (hostOps10_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps10_1_keep (V : Valuation τ sig (Elt F)) (r : Ref sig .tc) (h : r ∉ hostOps10_1_W) :
    after hostOps10_1 V (Proc.devRef .tc r) = V (Proc.devRef .tc r) :=
  after_of_writes_sub hostOps10_1 V hostOps10_1_writes h

theorem kv_main_v202 (V : Valuation τ sig (Elt F)) :
    after hostOps10_1 V (Proc.devRef .tc main_v202) = (((fun p a b => select (broadcastInDim S64 ![] bcast_S_S64 p) a b)) (((cmpf .ogt)) ((subf) ((constant S_ .f32 0x44000000#32) : (⟨S_, .f32⟩ : BufTy).Contents (Elt F)) (((sitofp .f32)) (V (Proc.devRef .tc main_c_43) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S512x64_S64_d0 h_S_)) ((mulf) ((subf) (V (Proc.devRef .tc main_v198) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (V (Proc.devRef .tc main_v198) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) ((subf) (V (Proc.devRef .tc main_v198) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (V (Proc.devRef .tc main_v198) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x44000000#32) : (⟨S_, .f32⟩ : BufTy).Contents (Elt F)) (((sitofp .f32)) (V (Proc.devRef .tc main_c_43) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) := by
  after_results_simp <;> rfl

end Cert.KernelIdeal.KChain

end
-- ==== Proof.KS_hostOps10_2.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps10_2_W : List (Ref sig .tc) := [main_v203, main_v204, main_v205, main_v206, main_v207, main_v208, main_v209, main_v210, main_v211, main_v212, main_v213, main_v214, main_v215]
theorem hostOps10_2_writes : (hostOps10_2 : List (HloOp τ sig (Elt F))).Forall fun op => op.writes ⊆ (hostOps10_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps10_2_keep (V : Valuation τ sig (Elt F)) (r : Ref sig .tc) (h : r ∉ hostOps10_2_W) :
    after hostOps10_2 V (Proc.devRef .tc r) = V (Proc.devRef .tc r) :=
  after_of_writes_sub hostOps10_2 V hostOps10_2_writes h

theorem kv_main_v204 (V : Valuation τ sig (Elt F)) :
    after hostOps10_2 V (Proc.devRef .tc main_v204) = (shapeCast S64 ((((extractStridedSlice S1x64 ![1, 0] · slices_S2x64_S1x64_1_0) : (⟨S2x64, .f32⟩ : BufTy).Contents (Elt F) → (⟨S1x64, .f32⟩ : BufTy).Contents (Elt F))) (V (Proc.devRef .tc main_arg11) : (⟨S2x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem kv_main_v206 (V : Valuation τ sig (Elt F)) :
    after hostOps10_2 V (Proc.devRef .tc main_v206) = (shapeCast S64 ((((extractStridedSlice S1x64 ![1, 0] · slices_S2x64_S1x64_1_0) : (⟨S2x64, .f32⟩ : BufTy).Contents (Elt F) → (⟨S1x64, .f32⟩ : BufTy).Contents (Elt F))) (V (Proc.devRef .tc main_arg12) : (⟨S2x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem kv_main_v207 (V : Valuation τ sig (Elt F)) :
    after hostOps10_2 V (Proc.devRef .tc main_v207) = ((((extractStridedSlice S1x64x64 ![1, 0, 0] · slices_S2x64x64_S1x64x64_1_0_0) : (⟨S2x64x64, .f32⟩ : BufTy).Contents (Elt F) → (⟨S1x64x64, .f32⟩ : BufTy).Contents (Elt F))) (V (Proc.devRef .tc main_arg13) : (⟨S2x64x64, .f32⟩ : BufTy).Contents (Elt F)) : (⟨S1x64x64, .f32⟩ : BufTy).Contents (Elt F)) := by
  after_results_simp <;> rfl

theorem kv_main_v208 (V : Valuation τ sig (Elt F)) :
    after hostOps10_2 V (Proc.devRef .tc main_v208) = (shapeCast S64x64 ((((extractStridedSlice S1x64x64 ![1, 0, 0] · slices_S2x64x64_S1x64x64_1_0_0) : (⟨S2x64x64, .f32⟩ : BufTy).Contents (Elt F) → (⟨S1x64x64, .f32⟩ : BufTy).Contents (Elt F))) (V (Proc.devRef .tc main_arg13) : (⟨S2x64x64, .f32⟩ : BufTy).Contents (Elt F)) : (⟨S1x64x64, .f32⟩ : BufTy).Contents (Elt F)) shapeCasts_S1x64x64_S64x64 : (⟨S64x64, .f32⟩ : BufTy).Contents (Elt F)) := by
  after_results_simp <;> rfl

theorem kv_main_v210 (V : Valuation τ sig (Elt F)) :
    after hostOps10_2 V (Proc.devRef .tc main_v210) = (shapeCast S64 ((((extractStridedSlice S1x64 ![1, 0] · slices_S2x64_S1x64_1_0) : (⟨S2x64, .f32⟩ : BufTy).Contents (Elt F) → (⟨S1x64, .f32⟩ : BufTy).Contents (Elt F))) (V (Proc.devRef .tc main_arg14) : (⟨S2x64, .f32⟩ : BufTy).Contents (Elt F)) : (⟨S1x64, .f32⟩ : BufTy).Contents (Elt F)) shapeCasts_S1x64_S64 : (⟨S64, .f32⟩ : BufTy).Contents (Elt F)) := by
  after_results_simp <;> rfl

theorem kv_main_v211 (V : Valuation τ sig (Elt F)) :
    after hostOps10_2 V (Proc.devRef .tc main_v211) = (shapeCast S1x64 (V (Proc.devRef .tc main_v201) : (⟨S64, .f32⟩ : BufTy).Contents (Elt F)) shapeCasts_S64_S1x64 : (⟨S1x64, .f32⟩ : BufTy).Contents (Elt F)) := by
  after_results_simp <;> rfl

theorem kv_main_v212 (V : Valuation τ sig (Elt F)) :
    after hostOps10_2 V (Proc.devRef .tc main_v212) = (shapeCast S1x64 (V (Proc.devRef .tc main_v202) : (⟨S64, .f32⟩ : BufTy).Contents (Elt F)) shapeCasts_S64_S1x64 : (⟨S1x64, .f32⟩ : BufTy).Contents (Elt F)) := by
  after_results_simp <;> rfl

theorem kv_main_v213 (V : Valuation τ sig (Elt F)) :
    after hostOps10_2 V (Proc.devRef .tc main_v213) = (shapeCast S1x64 (shapeCast S64 ((((extractStridedSlice S1x64 ![1, 0] · slices_S2x64_S1x64_1_0) : (⟨S2x64, .f32⟩ : BufTy).Contents (Elt F) → (⟨S1x64, .f32⟩ : BufTy).Contents (Elt F))) (V (Proc.devRef .tc main_arg11) : (⟨S2x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) := by
  after_results_simp <;> rfl

theorem kv_main_v214 (V : Valuation τ sig (Elt F)) :
    after hostOps10_2 V (Proc.devRef .tc main_v214) = (shapeCast S1x64 (shapeCast S64 ((((extractStridedSlice S1x64 ![1, 0] · slices_S2x64_S1x64_1_0) : (⟨S2x64, .f32⟩ : BufTy).Contents (Elt F) → (⟨S1x64, .f32⟩ : BufTy).Contents (Elt F))) (V (Proc.devRef .tc main_arg12) : (⟨S2x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) := by
  after_results_simp <;> rfl

theorem kv_main_v215 (V : Valuation τ sig (Elt F)) :
    after hostOps10_2 V (Proc.devRef .tc main_v215) = (shapeCast S1x64 (shapeCast S64 ((((extractStridedSlice S1x64 ![1, 0] · slices_S2x64_S1x64_1_0) : (⟨S2x64, .f32⟩ : BufTy).Contents (Elt F) → (⟨S1x64, .f32⟩ : BufTy).Contents (Elt F))) (V (Proc.devRef .tc main_arg14) : (⟨S2x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) := by
  after_results_simp <;> rfl

end Cert.KernelIdeal.KChain

end
-- ==== Proof.KS_hostOps11.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps11_W : List (Ref sig .tc) := [main_cst_44, main_v217, main_cst_45, main_v218, main_v219, main_c_46]
theorem hostOps11_writes : (hostOps11 : List (HloOp τ sig (Elt F))).Forall fun op => op.writes ⊆ (hostOps11_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps11_keep (V : Valuation τ sig (Elt F)) (r : Ref sig .tc) (h : r ∉ hostOps11_W) :
    after hostOps11 V (Proc.devRef .tc r) = V (Proc.devRef .tc r) :=
  after_of_writes_sub hostOps11 V hostOps11_writes h

theorem kv_main_v219 (V : Valuation τ sig (Elt F)) :
    after hostOps11 V (Proc.devRef .tc main_v219) = (((Host.divf : (⟨S64, .f32⟩ : BufTy).Contents (Elt F) → (⟨S64, .f32⟩ : BufTy).Contents (Elt F) → (⟨S64, .f32⟩ : BufTy).Contents (Elt F))) ((((fun x v => Host.reduceAdd x v reducesTo_S512x64_S64_d0 h_S_) : (⟨S512x64, .f32⟩ : BufTy).Contents (Elt F) → (⟨S_, .f32⟩ : BufTy).Contents (Elt F) → (⟨S64, .f32⟩ : BufTy).Contents (Elt F))) (V (Proc.devRef .tc main_v216) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x44000000#32) : (⟨S_, .f32⟩ : BufTy).Contents (Elt F)) : (⟨S64, .f32⟩ : BufTy).Contents (Elt F)) : (⟨S64, .f32⟩ : BufTy).Contents (Elt F)) := by
  after_results_simp <;> rfl

theorem kv_main_c_46 (V : Valuation τ sig (Elt F)) :
    after hostOps11 V (Proc.devRef .tc main_c_46) = ((constantI S_ 32 0#32) : (⟨S_, .i32⟩ : BufTy).Contents (Elt F)) := by
  after_results_simp <;> rfl

end Cert.KernelIdeal.KChain

end
-- ==== Proof.KS_hostOps11_1.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps11_1_W : List (Ref sig .tc) := [main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v220]
theorem hostOps11_1_writes : (hostOps11_1 : List (HloOp τ sig (Elt F))).Forall fun op => op.writes ⊆ (hostOps11_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps11_1_keep (V : Valuation τ sig (Elt F)) (r : Ref sig .tc) (h : r ∉ hostOps11_1_W) :
    after hostOps11_1 V (Proc.devRef .tc r) = V (Proc.devRef .tc r) :=
  after_of_writes_sub hostOps11_1 V hostOps11_1_writes h

theorem kv_main_v220 (V : Valuation τ sig (Elt F)) :
    after hostOps11_1 V (Proc.devRef .tc main_v220) = (((fun p a b => select (broadcastInDim S64 ![] bcast_S_S64 p) a b)) (((cmpf .ogt)) ((subf) ((constant S_ .f32 0x44000000#32) : (⟨S_, .f32⟩ : BufTy).Contents (Elt F)) (((sitofp .f32)) (V (Proc.devRef .tc main_c_46) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S512x64_S64_d0 h_S_)) ((mulf) ((subf) (V (Proc.devRef .tc main_v216) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (V (Proc.devRef .tc main_v216) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) ((subf) (V (Proc.devRef .tc main_v216) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (V (Proc.devRef .tc main_v216) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x44000000#32) : (⟨S_, .f32⟩ : BufTy).Contents (Elt F)) (((sitofp .f32)) (V (Proc.devRef .tc main_c_46) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) := by
  after_results_simp <;> rfl

end Cert.KernelIdeal.KChain

end
-- ==== Proof.KS_hostOps11_2.lean ====
/-
  One stretch of the kernel program's host operations: the buffers it writes, and each buffer it hands on to later
  stretches or to a kernel region as a pure term of the contents the stretch starts from.
-/
import proofs.«142600_j69965017252460_1_alg».proof.Proof.Gen.KernelIdeal.Launch
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The buffers the stretch writes. -/
abbrev hostOps11_2_W : List (Ref sig .tc) := [main_v221, main_v222, main_v223, main_v224]
theorem hostOps11_2_writes : (hostOps11_2 : List (HloOp τ sig (Elt F))).Forall fun op => op.writes ⊆ (hostOps11_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine List.mem_map_of_mem ?_; decide)
/-- A buffer the stretch does not write keeps its contents. -/
theorem hostOps11_2_keep (V : Valuation τ sig (Elt F)) (r : Ref sig .tc) (h : r ∉ hostOps11_2_W) :
    after hostOps11_2 V (Proc.devRef .tc r) = V (Proc.devRef .tc r) :=
  after_of_writes_sub hostOps11_2 V hostOps11_2_writes h

theorem kv_main_v221 (V : Valuation τ sig (Elt F)) :
    after hostOps11_2 V (Proc.devRef .tc main_v221) = (shapeCast S1x64 (V (Proc.devRef .tc main_v219) : (⟨S64, .f32⟩ : BufTy).Contents (Elt F)) shapeCasts_S64_S1x64 : (⟨S1x64, .f32⟩ : BufTy).Contents (Elt F)) := by
  after_results_simp <;> rfl

theorem kv_main_v222 (V : Valuation τ sig (Elt F)) :
    after hostOps11_2 V (Proc.devRef .tc main_v222) = (shapeCast S1x64 (V (Proc.devRef .tc main_v220) : (⟨S64, .f32⟩ : BufTy).Contents (Elt F)) shapeCasts_S64_S1x64 : (⟨S1x64, .f32⟩ : BufTy).Contents (Elt F)) := by
  after_results_simp <;> rfl

theorem kv_main_v223 (V : Valuation τ sig (Elt F)) :
    after hostOps11_2 V (Proc.devRef .tc main_v223) = (shapeCast S1x64 (V (Proc.devRef .tc main_arg15) : (⟨S64, .f32⟩ : BufTy).Contents (Elt F)) shapeCasts_S64_S1x64 : (⟨S1x64, .f32⟩ : BufTy).Contents (Elt F)) := by
  after_results_simp <;> rfl

theorem kv_main_v224 (V : Valuation τ sig (Elt F)) :
    after hostOps11_2 V (Proc.devRef .tc main_v224) = (shapeCast S1x64 (V (Proc.devRef .tc main_arg16) : (⟨S64, .f32⟩ : BufTy).Contents (Elt F)) shapeCasts_S64_S1x64 : (⟨S1x64, .f32⟩ : BufTy).Contents (Elt F)) := by
  after_results_simp <;> rfl

end Cert.KernelIdeal.KChain

end
-- ==== Proof.KLast.lean ====
/-
  The kernel program's buffers at the last boundary. Every buffer is written once, so a buffer read at the last
  boundary holds what its own stretch or region left in it: per boundary what is kept, from any boundary to the last
  one what is kept, and then each handed-on buffer as a pure term of buffers at the last boundary.
-/
import proofs.«142600_j69965017252460_1_alg».proof.Proof.Gen.KernelIdeal.Frame
import proofs.«142600_j69965017252460_1_alg».proof.Proof.KS_hostOps0
import proofs.«142600_j69965017252460_1_alg».proof.Proof.KS_hostOps0_1
import proofs.«142600_j69965017252460_1_alg».proof.Proof.KS_hostOps0_2
import proofs.«142600_j69965017252460_1_alg».proof.Proof.KS_hostOps0_3
import proofs.«142600_j69965017252460_1_alg».proof.Proof.KS_hostOps0_4
import proofs.«142600_j69965017252460_1_alg».proof.Proof.KS_hostOps0_5
import proofs.«142600_j69965017252460_1_alg».proof.Proof.KS_hostOps0_6
import proofs.«142600_j69965017252460_1_alg».proof.Proof.KS_hostOps1
import proofs.«142600_j69965017252460_1_alg».proof.Proof.KS_hostOps1_1
import proofs.«142600_j69965017252460_1_alg».proof.Proof.KS_hostOps1_2
import proofs.«142600_j69965017252460_1_alg».proof.Proof.KS_hostOps2
import proofs.«142600_j69965017252460_1_alg».proof.Proof.KS_hostOps3
import proofs.«142600_j69965017252460_1_alg».proof.Proof.KS_hostOps3_1
import proofs.«142600_j69965017252460_1_alg».proof.Proof.KS_hostOps3_2
import proofs.«142600_j69965017252460_1_alg».proof.Proof.KS_hostOps4
import proofs.«142600_j69965017252460_1_alg».proof.Proof.KS_hostOps5
import proofs.«142600_j69965017252460_1_alg».proof.Proof.KS_hostOps5_1
import proofs.«142600_j69965017252460_1_alg».proof.Proof.KS_hostOps5_2
import proofs.«142600_j69965017252460_1_alg».proof.Proof.KS_hostOps6
import proofs.«142600_j69965017252460_1_alg».proof.Proof.KS_hostOps7
import proofs.«142600_j69965017252460_1_alg».proof.Proof.KS_hostOps7_1
import proofs.«142600_j69965017252460_1_alg».proof.Proof.KS_hostOps7_2
import proofs.«142600_j69965017252460_1_alg».proof.Proof.KS_hostOps8
import proofs.«142600_j69965017252460_1_alg».proof.Proof.KS_hostOps9
import proofs.«142600_j69965017252460_1_alg».proof.Proof.KS_hostOps9_1
import proofs.«142600_j69965017252460_1_alg».proof.Proof.KS_hostOps9_2
import proofs.«142600_j69965017252460_1_alg».proof.Proof.KS_hostOps10
import proofs.«142600_j69965017252460_1_alg».proof.Proof.KS_hostOps10_1
import proofs.«142600_j69965017252460_1_alg».proof.Proof.KS_hostOps10_2
import proofs.«142600_j69965017252460_1_alg».proof.Proof.KS_hostOps11
import proofs.«142600_j69965017252460_1_alg».proof.Proof.KS_hostOps11_1
import proofs.«142600_j69965017252460_1_alg».proof.Proof.KS_hostOps11_2

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

theorem W1_keep (c : Dev nD) (r : Ref sig .tc) (h : r ∉ hostOps0_W) :
    W1 m ρ c (Proc.devRef .tc r) = W0 m ρ c (Proc.devRef .tc r) :=
  hostOps0_keep (W0 m ρ c) r h

theorem W2_keep (c : Dev nD) (r : Ref sig .tc) (h : r ∉ hostOps0_1_W) :
    W2 m ρ c (Proc.devRef .tc r) = W1 m ρ c (Proc.devRef .tc r) :=
  hostOps0_1_keep (W1 m ρ c) r h

theorem W3_keep (c : Dev nD) (r : Ref sig .tc) (h : r ∉ hostOps0_2_W) :
    W3 m ρ c (Proc.devRef .tc r) = W2 m ρ c (Proc.devRef .tc r) :=
  hostOps0_2_keep (W2 m ρ c) r h

theorem W4_keep (c : Dev nD) (r : Ref sig .tc) (h : r ∉ hostOps0_3_W) :
    W4 m ρ c (Proc.devRef .tc r) = W3 m ρ c (Proc.devRef .tc r) :=
  hostOps0_3_keep (W3 m ρ c) r h

theorem W5_keep (c : Dev nD) (r : Ref sig .tc) (h : r ∉ hostOps0_4_W) :
    W5 m ρ c (Proc.devRef .tc r) = W4 m ρ c (Proc.devRef .tc r) :=
  hostOps0_4_keep (W4 m ρ c) r h

theorem W6_keep (c : Dev nD) (r : Ref sig .tc) (h : r ∉ hostOps0_5_W) :
    W6 m ρ c (Proc.devRef .tc r) = W5 m ρ c (Proc.devRef .tc r) :=
  hostOps0_5_keep (W5 m ρ c) r h

theorem W7_keep (c : Dev nD) (r : Ref sig .tc) (h : r ∉ hostOps0_6_W) :
    W7 m ρ c (Proc.devRef .tc r) = W6 m ρ c (Proc.devRef .tc r) :=
  hostOps0_6_keep (W6 m ρ c) r h

/-- Region 0 rewrites only its output array: an input window's array is read back as entered, any other buffer is untouched. -/
theorem W8_keep (c : Dev nD) (r : Ref sig .tc) (h : r ∉ ([main_v44] : List (Ref sig .tc))) :
    W8 m ρ c (Proc.devRef .tc r) = W7 m ρ c (Proc.devRef .tc r) := by
  by_cases h0 : r = main_arg0
  · subst h0; exact (W8_arr m ρ c 0).trans (((dat0 (V7 m ρ) c).arrAt_in 0 rfl _).trans (A_eq0 (V7 m ρ) c 0))
  by_cases h1 : r = main_v39
  · subst h1; exact (W8_arr m ρ c 1).trans (((dat0 (V7 m ρ) c).arrAt_in 1 rfl _).trans (A_eq0 (V7 m ρ) c 1))
  by_cases h2 : r = main_v40
  · subst h2; exact (W8_arr m ρ c 2).trans (((dat0 (V7 m ρ) c).arrAt_in 2 rfl _).trans (A_eq0 (V7 m ρ) c 2))
  by_cases h3 : r = main_v41
  · subst h3; exact (W8_arr m ρ c 3).trans (((dat0 (V7 m ρ) c).arrAt_in 3 rfl _).trans (A_eq0 (V7 m ρ) c 3))
  by_cases h4 : r = main_v42
  · subst h4; exact (W8_arr m ρ c 4).trans (((dat0 (V7 m ρ) c).arrAt_in 4 rfl _).trans (A_eq0 (V7 m ρ) c 4))
  by_cases h5 : r = main_arg5
  · subst h5; exact (W8_arr m ρ c 5).trans (((dat0 (V7 m ρ) c).arrAt_in 5 rfl _).trans (A_eq0 (V7 m ρ) c 5))
  by_cases h6 : r = main_v43
  · subst h6; exact (W8_arr m ρ c 6).trans (((dat0 (V7 m ρ) c).arrAt_in 6 rfl _).trans (A_eq0 (V7 m ρ) c 6))
  exact W8_of_ne m ρ c r (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => h5 e.symm
    | ⟨6, _⟩ => fun e => h6 e.symm
    | ⟨7, _⟩ => fun e => h (List.mem_singleton.mpr e.symm)
    | ⟨_ + 8, hn⟩ => absurd hn (Nat.not_lt.2 (Nat.le_add_left _ _)))

theorem W9_keep (c : Dev nD) (r : Ref sig .tc) (h : r ∉ hostOps1_W) :
    W9 m ρ c (Proc.devRef .tc r) = W8 m ρ c (Proc.devRef .tc r) :=
  hostOps1_keep (W8 m ρ c) r h

theorem W10_keep (c : Dev nD) (r : Ref sig .tc) (h : r ∉ hostOps1_1_W) :
    W10 m ρ c (Proc.devRef .tc r) = W9 m ρ c (Proc.devRef .tc r) :=
  hostOps1_1_keep (W9 m ρ c) r h

theorem W11_keep (c : Dev nD) (r : Ref sig .tc) (h : r ∉ hostOps1_2_W) :
    W11 m ρ c (Proc.devRef .tc r) = W10 m ρ c (Proc.devRef .tc r) :=
  hostOps1_2_keep (W10 m ρ c) r h

/-- Region 1 rewrites only its output array: an input window's array is read back as entered, any other buffer is untouched. -/
theorem W12_keep (c : Dev nD) (r : Ref sig .tc) (h : r ∉ ([main_v61] : List (Ref sig .tc))) :
    W12 m ρ c (Proc.devRef .tc r) = W11 m ρ c (Proc.devRef .tc r) := by
  by_cases h0 : r = main_v44
  · subst h0; exact (W12_arr m ρ c 0).trans (((dat1 (V11 m ρ) c).arrAt_in 0 rfl _).trans (A_eq1 (V11 m ρ) c 0))
  by_cases h1 : r = main_v56
  · subst h1; exact (W12_arr m ρ c 1).trans (((dat1 (V11 m ρ) c).arrAt_in 1 rfl _).trans (A_eq1 (V11 m ρ) c 1))
  by_cases h2 : r = main_v57
  · subst h2; exact (W12_arr m ρ c 2).trans (((dat1 (V11 m ρ) c).arrAt_in 2 rfl _).trans (A_eq1 (V11 m ρ) c 2))
  by_cases h3 : r = main_v58
  · subst h3; exact (W12_arr m ρ c 3).trans (((dat1 (V11 m ρ) c).arrAt_in 3 rfl _).trans (A_eq1 (V11 m ρ) c 3))
  by_cases h4 : r = main_v59
  · subst h4; exact (W12_arr m ρ c 4).trans (((dat1 (V11 m ρ) c).arrAt_in 4 rfl _).trans (A_eq1 (V11 m ρ) c 4))
  by_cases h5 : r = main_v55
  · subst h5; exact (W12_arr m ρ c 5).trans (((dat1 (V11 m ρ) c).arrAt_in 5 rfl _).trans (A_eq1 (V11 m ρ) c 5))
  by_cases h6 : r = main_v60
  · subst h6; exact (W12_arr m ρ c 6).trans (((dat1 (V11 m ρ) c).arrAt_in 6 rfl _).trans (A_eq1 (V11 m ρ) c 6))
  exact W12_of_ne m ρ c r (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => h5 e.symm
    | ⟨6, _⟩ => fun e => h6 e.symm
    | ⟨7, _⟩ => fun e => h (List.mem_singleton.mpr e.symm)
    | ⟨_ + 8, hn⟩ => absurd hn (Nat.not_lt.2 (Nat.le_add_left _ _)))

theorem W13_keep (c : Dev nD) (r : Ref sig .tc) (h : r ∉ hostOps2_W) :
    W13 m ρ c (Proc.devRef .tc r) = W12 m ρ c (Proc.devRef .tc r) :=
  hostOps2_keep (W12 m ρ c) r h

/-- Region 2 rewrites only its output array: an input window's array is read back as entered, any other buffer is untouched. -/
theorem W14_keep (c : Dev nD) (r : Ref sig .tc) (h : r ∉ ([main_v78] : List (Ref sig .tc))) :
    W14 m ρ c (Proc.devRef .tc r) = W13 m ρ c (Proc.devRef .tc r) := by
  by_cases h0 : r = main_v74
  · subst h0; exact (W14_arr m ρ c 0).trans (((dat2 (V13 m ρ) c).arrAt_in 0 rfl _).trans (A_eq2 (V13 m ρ) c 0))
  by_cases h1 : r = main_v77
  · subst h1; exact (W14_arr m ρ c 1).trans (((dat2 (V13 m ρ) c).arrAt_in 1 rfl _).trans (A_eq2 (V13 m ρ) c 1))
  by_cases h2 : r = main_v44
  · subst h2; exact (W14_arr m ρ c 2).trans (((dat2 (V13 m ρ) c).arrAt_in 2 rfl _).trans (A_eq2 (V13 m ρ) c 2))
  exact W14_of_ne m ρ c r (fun
    | ⟨0, _⟩ => fun e => h0 e.symm
    | ⟨1, _⟩ => fun e => h1 e.symm
    | ⟨2, _⟩ => fun e => h2 e.symm
    | ⟨3, _⟩ => fun e => h (List.mem_singleton.mpr e.symm)
    | ⟨_ + 4, hn⟩ => absurd hn (Nat.not_lt.2 (Nat.le_add_left _ _)))

theorem W15_keep (c : Dev nD) (r : Ref sig .tc) (h : r ∉ hostOps3_W) :
    W15 m ρ c (Proc.devRef .tc r) = W14 m ρ c (Proc.devRef .tc r) :=
  hostOps3_keep (W14 m ρ c) r h

theorem W16_keep (c : Dev nD) (r : Ref sig .tc) (h : r ∉ hostOps3_1_W) :
    W16 m ρ c (Proc.devRef .tc r) = W15 m ρ c (Proc.devRef .tc r) :=
  hostOps3_1_keep (W15 m ρ c) r h

theorem W17_keep (c : Dev nD) (r : Ref sig .tc) (h : r ∉ hostOps3_2_W) :
    W17 m ρ c (Proc.devRef .tc r) = W16 m ρ c (Proc.devRef .tc r) :=
  hostOps3_2_keep (W16 m ρ c) r h

/-- Region 3 rewrites only its output array: an input window's array is read back as entered, any other buffer is untouched. -/
theorem W18_keep (c : Dev nD) (r : Ref sig .tc) (h : r ∉ ([main_v94] : List (Ref sig .tc))) :
    W18 m ρ c (Proc.devRef .tc r) = W17 m ρ c (Proc.devRef .tc r) := by
  by_cases h0 : r = main_v78
  · subst h0; exact (W18_arr m ρ c 0).trans (((dat3 (V17 m ρ) c).arrAt_in 0 rfl _).trans (A_eq3 (V17 m ρ) c 0))
  by_cases h1 : r = main_v89
  · subst h1; exact (W18_arr m ρ c 1).trans (((dat3 (V17 m ρ) c).arrAt_in 1 rfl _).trans (A_eq3 (V17 m ρ) c 1))
  by_cases h2 : r = main_v90
  · subst h2; exact (W18_arr m ρ c 2).trans (((dat3 (V17 m ρ) c).arrAt_in 2 rfl _).trans (A_eq3 (V17 m ρ) c 2))
  by_cases h3 : r = main_v91
  · subst h3; exact (W18_arr m ρ c 3).trans (((dat3 (V17 m ρ) c).arrAt_in 3 rfl _).trans (A_eq3 (V17 m ρ) c 3))
  by_cases h4 : r = main_v92
  · subst h4; exact (W18_arr m ρ c 4).trans (((dat3 (V17 m ρ) c).arrAt_in 4 rfl _).trans (A_eq3 (V17 m ρ) c 4))
  by_cases h5 : r = main_v88
  · subst h5; exact (W18_arr m ρ c 5).trans (((dat3 (V17 m ρ) c).arrAt_in 5 rfl _).trans (A_eq3 (V17 m ρ) c 5))
  by_cases h6 : r = main_v93
  · subst h6; exact (W18_arr m ρ c 6).trans (((dat3 (V17 m ρ) c).arrAt_in 6 rfl _).trans (A_eq3 (V17 m ρ) c 6))
  exact W18_of_ne m ρ c r (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => h5 e.symm
    | ⟨6, _⟩ => fun e => h6 e.symm
    | ⟨7, _⟩ => fun e => h (List.mem_singleton.mpr e.symm)
    | ⟨_ + 8, hn⟩ => absurd hn (Nat.not_lt.2 (Nat.le_add_left _ _)))

theorem W19_keep (c : Dev nD) (r : Ref sig .tc) (h : r ∉ hostOps4_W) :
    W19 m ρ c (Proc.devRef .tc r) = W18 m ρ c (Proc.devRef .tc r) :=
  hostOps4_keep (W18 m ρ c) r h

/-- Region 4 rewrites only its output array: an input window's array is read back as entered, any other buffer is untouched. -/
theorem W20_keep (c : Dev nD) (r : Ref sig .tc) (h : r ∉ ([main_v111] : List (Ref sig .tc))) :
    W20 m ρ c (Proc.devRef .tc r) = W19 m ρ c (Proc.devRef .tc r) := by
  by_cases h0 : r = main_v107
  · subst h0; exact (W20_arr m ρ c 0).trans (((dat4 (V19 m ρ) c).arrAt_in 0 rfl _).trans (A_eq4 (V19 m ρ) c 0))
  by_cases h1 : r = main_v110
  · subst h1; exact (W20_arr m ρ c 1).trans (((dat4 (V19 m ρ) c).arrAt_in 1 rfl _).trans (A_eq4 (V19 m ρ) c 1))
  by_cases h2 : r = main_v78
  · subst h2; exact (W20_arr m ρ c 2).trans (((dat4 (V19 m ρ) c).arrAt_in 2 rfl _).trans (A_eq4 (V19 m ρ) c 2))
  exact W20_of_ne m ρ c r (fun
    | ⟨0, _⟩ => fun e => h0 e.symm
    | ⟨1, _⟩ => fun e => h1 e.symm
    | ⟨2, _⟩ => fun e => h2 e.symm
    | ⟨3, _⟩ => fun e => h (List.mem_singleton.mpr e.symm)
    | ⟨_ + 4, hn⟩ => absurd hn (Nat.not_lt.2 (Nat.le_add_left _ _)))

theorem W21_keep (c : Dev nD) (r : Ref sig .tc) (h : r ∉ hostOps5_W) :
    W21 m ρ c (Proc.devRef .tc r) = W20 m ρ c (Proc.devRef .tc r) :=
  hostOps5_keep (W20 m ρ c) r h

theorem W22_keep (c : Dev nD) (r : Ref sig .tc) (h : r ∉ hostOps5_1_W) :
    W22 m ρ c (Proc.devRef .tc r) = W21 m ρ c (Proc.devRef .tc r) :=
  hostOps5_1_keep (W21 m ρ c) r h

theorem W23_keep (c : Dev nD) (r : Ref sig .tc) (h : r ∉ hostOps5_2_W) :
    W23 m ρ c (Proc.devRef .tc r) = W22 m ρ c (Proc.devRef .tc r) :=
  hostOps5_2_keep (W22 m ρ c) r h

/-- Region 5 rewrites only its output array: an input window's array is read back as entered, any other buffer is untouched. -/
theorem W24_keep (c : Dev nD) (r : Ref sig .tc) (h : r ∉ ([main_v127] : List (Ref sig .tc))) :
    W24 m ρ c (Proc.devRef .tc r) = W23 m ρ c (Proc.devRef .tc r) := by
  by_cases h0 : r = main_v111
  · subst h0; exact (W24_arr m ρ c 0).trans (((dat5 (V23 m ρ) c).arrAt_in 0 rfl _).trans (A_eq5 (V23 m ρ) c 0))
  by_cases h1 : r = main_v122
  · subst h1; exact (W24_arr m ρ c 1).trans (((dat5 (V23 m ρ) c).arrAt_in 1 rfl _).trans (A_eq5 (V23 m ρ) c 1))
  by_cases h2 : r = main_v123
  · subst h2; exact (W24_arr m ρ c 2).trans (((dat5 (V23 m ρ) c).arrAt_in 2 rfl _).trans (A_eq5 (V23 m ρ) c 2))
  by_cases h3 : r = main_v124
  · subst h3; exact (W24_arr m ρ c 3).trans (((dat5 (V23 m ρ) c).arrAt_in 3 rfl _).trans (A_eq5 (V23 m ρ) c 3))
  by_cases h4 : r = main_v125
  · subst h4; exact (W24_arr m ρ c 4).trans (((dat5 (V23 m ρ) c).arrAt_in 4 rfl _).trans (A_eq5 (V23 m ρ) c 4))
  by_cases h5 : r = main_v121
  · subst h5; exact (W24_arr m ρ c 5).trans (((dat5 (V23 m ρ) c).arrAt_in 5 rfl _).trans (A_eq5 (V23 m ρ) c 5))
  by_cases h6 : r = main_v126
  · subst h6; exact (W24_arr m ρ c 6).trans (((dat5 (V23 m ρ) c).arrAt_in 6 rfl _).trans (A_eq5 (V23 m ρ) c 6))
  exact W24_of_ne m ρ c r (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => h5 e.symm
    | ⟨6, _⟩ => fun e => h6 e.symm
    | ⟨7, _⟩ => fun e => h (List.mem_singleton.mpr e.symm)
    | ⟨_ + 8, hn⟩ => absurd hn (Nat.not_lt.2 (Nat.le_add_left _ _)))

theorem W25_keep (c : Dev nD) (r : Ref sig .tc) (h : r ∉ hostOps6_W) :
    W25 m ρ c (Proc.devRef .tc r) = W24 m ρ c (Proc.devRef .tc r) :=
  hostOps6_keep (W24 m ρ c) r h

/-- Region 6 rewrites only its output array: an input window's array is read back as entered, any other buffer is untouched. -/
theorem W26_keep (c : Dev nD) (r : Ref sig .tc) (h : r ∉ ([main_v144] : List (Ref sig .tc))) :
    W26 m ρ c (Proc.devRef .tc r) = W25 m ρ c (Proc.devRef .tc r) := by
  by_cases h0 : r = main_v140
  · subst h0; exact (W26_arr m ρ c 0).trans (((dat6 (V25 m ρ) c).arrAt_in 0 rfl _).trans (A_eq6 (V25 m ρ) c 0))
  by_cases h1 : r = main_v143
  · subst h1; exact (W26_arr m ρ c 1).trans (((dat6 (V25 m ρ) c).arrAt_in 1 rfl _).trans (A_eq6 (V25 m ρ) c 1))
  by_cases h2 : r = main_v111
  · subst h2; exact (W26_arr m ρ c 2).trans (((dat6 (V25 m ρ) c).arrAt_in 2 rfl _).trans (A_eq6 (V25 m ρ) c 2))
  exact W26_of_ne m ρ c r (fun
    | ⟨0, _⟩ => fun e => h0 e.symm
    | ⟨1, _⟩ => fun e => h1 e.symm
    | ⟨2, _⟩ => fun e => h2 e.symm
    | ⟨3, _⟩ => fun e => h (List.mem_singleton.mpr e.symm)
    | ⟨_ + 4, hn⟩ => absurd hn (Nat.not_lt.2 (Nat.le_add_left _ _)))

theorem W27_keep (c : Dev nD) (r : Ref sig .tc) (h : r ∉ hostOps7_W) :
    W27 m ρ c (Proc.devRef .tc r) = W26 m ρ c (Proc.devRef .tc r) :=
  hostOps7_keep (W26 m ρ c) r h

theorem W28_keep (c : Dev nD) (r : Ref sig .tc) (h : r ∉ hostOps7_1_W) :
    W28 m ρ c (Proc.devRef .tc r) = W27 m ρ c (Proc.devRef .tc r) :=
  hostOps7_1_keep (W27 m ρ c) r h

theorem W29_keep (c : Dev nD) (r : Ref sig .tc) (h : r ∉ hostOps7_2_W) :
    W29 m ρ c (Proc.devRef .tc r) = W28 m ρ c (Proc.devRef .tc r) :=
  hostOps7_2_keep (W28 m ρ c) r h

/-- Region 7 rewrites only its output array: an input window's array is read back as entered, any other buffer is untouched. -/
theorem W30_keep (c : Dev nD) (r : Ref sig .tc) (h : r ∉ ([main_v160] : List (Ref sig .tc))) :
    W30 m ρ c (Proc.devRef .tc r) = W29 m ρ c (Proc.devRef .tc r) := by
  by_cases h0 : r = main_v144
  · subst h0; exact (W30_arr m ρ c 0).trans (((dat7 (V29 m ρ) c).arrAt_in 0 rfl _).trans (A_eq7 (V29 m ρ) c 0))
  by_cases h1 : r = main_v155
  · subst h1; exact (W30_arr m ρ c 1).trans (((dat7 (V29 m ρ) c).arrAt_in 1 rfl _).trans (A_eq7 (V29 m ρ) c 1))
  by_cases h2 : r = main_v156
  · subst h2; exact (W30_arr m ρ c 2).trans (((dat7 (V29 m ρ) c).arrAt_in 2 rfl _).trans (A_eq7 (V29 m ρ) c 2))
  by_cases h3 : r = main_v157
  · subst h3; exact (W30_arr m ρ c 3).trans (((dat7 (V29 m ρ) c).arrAt_in 3 rfl _).trans (A_eq7 (V29 m ρ) c 3))
  by_cases h4 : r = main_v158
  · subst h4; exact (W30_arr m ρ c 4).trans (((dat7 (V29 m ρ) c).arrAt_in 4 rfl _).trans (A_eq7 (V29 m ρ) c 4))
  by_cases h5 : r = main_v154
  · subst h5; exact (W30_arr m ρ c 5).trans (((dat7 (V29 m ρ) c).arrAt_in 5 rfl _).trans (A_eq7 (V29 m ρ) c 5))
  by_cases h6 : r = main_v159
  · subst h6; exact (W30_arr m ρ c 6).trans (((dat7 (V29 m ρ) c).arrAt_in 6 rfl _).trans (A_eq7 (V29 m ρ) c 6))
  exact W30_of_ne m ρ c r (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => h5 e.symm
    | ⟨6, _⟩ => fun e => h6 e.symm
    | ⟨7, _⟩ => fun e => h (List.mem_singleton.mpr e.symm)
    | ⟨_ + 8, hn⟩ => absurd hn (Nat.not_lt.2 (Nat.le_add_left _ _)))

theorem W31_keep (c : Dev nD) (r : Ref sig .tc) (h : r ∉ hostOps8_W) :
    W31 m ρ c (Proc.devRef .tc r) = W30 m ρ c (Proc.devRef .tc r) :=
  hostOps8_keep (W30 m ρ c) r h

/-- Region 8 rewrites only its output array: an input window's array is read back as entered, any other buffer is untouched. -/
theorem W32_keep (c : Dev nD) (r : Ref sig .tc) (h : r ∉ ([main_v177] : List (Ref sig .tc))) :
    W32 m ρ c (Proc.devRef .tc r) = W31 m ρ c (Proc.devRef .tc r) := by
  by_cases h0 : r = main_v173
  · subst h0; exact (W32_arr m ρ c 0).trans (((dat8 (V31 m ρ) c).arrAt_in 0 rfl _).trans (A_eq8 (V31 m ρ) c 0))
  by_cases h1 : r = main_v176
  · subst h1; exact (W32_arr m ρ c 1).trans (((dat8 (V31 m ρ) c).arrAt_in 1 rfl _).trans (A_eq8 (V31 m ρ) c 1))
  by_cases h2 : r = main_v144
  · subst h2; exact (W32_arr m ρ c 2).trans (((dat8 (V31 m ρ) c).arrAt_in 2 rfl _).trans (A_eq8 (V31 m ρ) c 2))
  exact W32_of_ne m ρ c r (fun
    | ⟨0, _⟩ => fun e => h0 e.symm
    | ⟨1, _⟩ => fun e => h1 e.symm
    | ⟨2, _⟩ => fun e => h2 e.symm
    | ⟨3, _⟩ => fun e => h (List.mem_singleton.mpr e.symm)
    | ⟨_ + 4, hn⟩ => absurd hn (Nat.not_lt.2 (Nat.le_add_left _ _)))

theorem W33_keep (c : Dev nD) (r : Ref sig .tc) (h : r ∉ hostOps9_W) :
    W33 m ρ c (Proc.devRef .tc r) = W32 m ρ c (Proc.devRef .tc r) :=
  hostOps9_keep (W32 m ρ c) r h

theorem W34_keep (c : Dev nD) (r : Ref sig .tc) (h : r ∉ hostOps9_1_W) :
    W34 m ρ c (Proc.devRef .tc r) = W33 m ρ c (Proc.devRef .tc r) :=
  hostOps9_1_keep (W33 m ρ c) r h

theorem W35_keep (c : Dev nD) (r : Ref sig .tc) (h : r ∉ hostOps9_2_W) :
    W35 m ρ c (Proc.devRef .tc r) = W34 m ρ c (Proc.devRef .tc r) :=
  hostOps9_2_keep (W34 m ρ c) r h

/-- Region 9 rewrites only its output array: an input window's array is read back as entered, any other buffer is untouched. -/
theorem W36_keep (c : Dev nD) (r : Ref sig .tc) (h : r ∉ ([main_v198] : List (Ref sig .tc))) :
    W36 m ρ c (Proc.devRef .tc r) = W35 m ρ c (Proc.devRef .tc r) := by
  by_cases h0 : r = main_v180
  · subst h0; exact (W36_arr m ρ c 0).trans (((dat9 (V35 m ρ) c).arrAt_in 0 rfl _).trans (A_eq9 (V35 m ρ) c 0))
  by_cases h1 : r = main_v193
  · subst h1; exact (W36_arr m ρ c 1).trans (((dat9 (V35 m ρ) c).arrAt_in 1 rfl _).trans (A_eq9 (V35 m ρ) c 1))
  by_cases h2 : r = main_v194
  · subst h2; exact (W36_arr m ρ c 2).trans (((dat9 (V35 m ρ) c).arrAt_in 2 rfl _).trans (A_eq9 (V35 m ρ) c 2))
  by_cases h3 : r = main_v195
  · subst h3; exact (W36_arr m ρ c 3).trans (((dat9 (V35 m ρ) c).arrAt_in 3 rfl _).trans (A_eq9 (V35 m ρ) c 3))
  by_cases h4 : r = main_v196
  · subst h4; exact (W36_arr m ρ c 4).trans (((dat9 (V35 m ρ) c).arrAt_in 4 rfl _).trans (A_eq9 (V35 m ρ) c 4))
  by_cases h5 : r = main_v190
  · subst h5; exact (W36_arr m ρ c 5).trans (((dat9 (V35 m ρ) c).arrAt_in 5 rfl _).trans (A_eq9 (V35 m ρ) c 5))
  by_cases h6 : r = main_v197
  · subst h6; exact (W36_arr m ρ c 6).trans (((dat9 (V35 m ρ) c).arrAt_in 6 rfl _).trans (A_eq9 (V35 m ρ) c 6))
  exact W36_of_ne m ρ c r (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => h5 e.symm
    | ⟨6, _⟩ => fun e => h6 e.symm
    | ⟨7, _⟩ => fun e => h (List.mem_singleton.mpr e.symm)
    | ⟨_ + 8, hn⟩ => absurd hn (Nat.not_lt.2 (Nat.le_add_left _ _)))

theorem W37_keep (c : Dev nD) (r : Ref sig .tc) (h : r ∉ hostOps10_W) :
    W37 m ρ c (Proc.devRef .tc r) = W36 m ρ c (Proc.devRef .tc r) :=
  hostOps10_keep (W36 m ρ c) r h

theorem W38_keep (c : Dev nD) (r : Ref sig .tc) (h : r ∉ hostOps10_1_W) :
    W38 m ρ c (Proc.devRef .tc r) = W37 m ρ c (Proc.devRef .tc r) :=
  hostOps10_1_keep (W37 m ρ c) r h

theorem W39_keep (c : Dev nD) (r : Ref sig .tc) (h : r ∉ hostOps10_2_W) :
    W39 m ρ c (Proc.devRef .tc r) = W38 m ρ c (Proc.devRef .tc r) :=
  hostOps10_2_keep (W38 m ρ c) r h

/-- Region 10 rewrites only its output array: an input window's array is read back as entered, any other buffer is untouched. -/
theorem W40_keep (c : Dev nD) (r : Ref sig .tc) (h : r ∉ ([main_v216] : List (Ref sig .tc))) :
    W40 m ρ c (Proc.devRef .tc r) = W39 m ρ c (Proc.devRef .tc r) := by
  by_cases h0 : r = main_v198
  · subst h0; exact (W40_arr m ρ c 0).trans (((dat10 (V39 m ρ) c).arrAt_in 0 rfl _).trans (A_eq10 (V39 m ρ) c 0))
  by_cases h1 : r = main_v211
  · subst h1; exact (W40_arr m ρ c 1).trans (((dat10 (V39 m ρ) c).arrAt_in 1 rfl _).trans (A_eq10 (V39 m ρ) c 1))
  by_cases h2 : r = main_v212
  · subst h2; exact (W40_arr m ρ c 2).trans (((dat10 (V39 m ρ) c).arrAt_in 2 rfl _).trans (A_eq10 (V39 m ρ) c 2))
  by_cases h3 : r = main_v213
  · subst h3; exact (W40_arr m ρ c 3).trans (((dat10 (V39 m ρ) c).arrAt_in 3 rfl _).trans (A_eq10 (V39 m ρ) c 3))
  by_cases h4 : r = main_v214
  · subst h4; exact (W40_arr m ρ c 4).trans (((dat10 (V39 m ρ) c).arrAt_in 4 rfl _).trans (A_eq10 (V39 m ρ) c 4))
  by_cases h5 : r = main_v208
  · subst h5; exact (W40_arr m ρ c 5).trans (((dat10 (V39 m ρ) c).arrAt_in 5 rfl _).trans (A_eq10 (V39 m ρ) c 5))
  by_cases h6 : r = main_v215
  · subst h6; exact (W40_arr m ρ c 6).trans (((dat10 (V39 m ρ) c).arrAt_in 6 rfl _).trans (A_eq10 (V39 m ρ) c 6))
  exact W40_of_ne m ρ c r (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => h5 e.symm
    | ⟨6, _⟩ => fun e => h6 e.symm
    | ⟨7, _⟩ => fun e => h (List.mem_singleton.mpr e.symm)
    | ⟨_ + 8, hn⟩ => absurd hn (Nat.not_lt.2 (Nat.le_add_left _ _)))

theorem W41_keep (c : Dev nD) (r : Ref sig .tc) (h : r ∉ hostOps11_W) :
    W41 m ρ c (Proc.devRef .tc r) = W40 m ρ c (Proc.devRef .tc r) :=
  hostOps11_keep (W40 m ρ c) r h

theorem W42_keep (c : Dev nD) (r : Ref sig .tc) (h : r ∉ hostOps11_1_W) :
    W42 m ρ c (Proc.devRef .tc r) = W41 m ρ c (Proc.devRef .tc r) :=
  hostOps11_1_keep (W41 m ρ c) r h

theorem W43_keep (c : Dev nD) (r : Ref sig .tc) (h : r ∉ hostOps11_2_W) :
    W43 m ρ c (Proc.devRef .tc r) = W42 m ρ c (Proc.devRef .tc r) :=
  hostOps11_2_keep (W42 m ρ c) r h

/-- Region 11 rewrites only its output array: an input window's array is read back as entered, any other buffer is untouched. -/
theorem W44_keep (c : Dev nD) (r : Ref sig .tc) (h : r ∉ ([main_v225] : List (Ref sig .tc))) :
    W44 m ρ c (Proc.devRef .tc r) = W43 m ρ c (Proc.devRef .tc r) := by
  by_cases h0 : r = main_v216
  · subst h0; exact (W44_arr m ρ c 0).trans (((dat11 (V43 m ρ) c).arrAt_in 0 rfl _).trans (A_eq11 (V43 m ρ) c 0))
  by_cases h1 : r = main_v221
  · subst h1; exact (W44_arr m ρ c 1).trans (((dat11 (V43 m ρ) c).arrAt_in 1 rfl _).trans (A_eq11 (V43 m ρ) c 1))
  by_cases h2 : r = main_v222
  · subst h2; exact (W44_arr m ρ c 2).trans (((dat11 (V43 m ρ) c).arrAt_in 2 rfl _).trans (A_eq11 (V43 m ρ) c 2))
  by_cases h3 : r = main_v223
  · subst h3; exact (W44_arr m ρ c 3).trans (((dat11 (V43 m ρ) c).arrAt_in 3 rfl _).trans (A_eq11 (V43 m ρ) c 3))
  by_cases h4 : r = main_v224
  · subst h4; exact (W44_arr m ρ c 4).trans (((dat11 (V43 m ρ) c).arrAt_in 4 rfl _).trans (A_eq11 (V43 m ρ) c 4))
  exact W44_of_ne m ρ c r (fun
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => h (List.mem_singleton.mpr e.symm)
    | ⟨_ + 6, hn⟩ => absurd hn (Nat.not_lt.2 (Nat.le_add_left _ _)))

/-! ## From any boundary to the last -/

abbrev Late44 : List (Ref sig .tc) := []
theorem late44 (c : Dev nD) (r : Ref sig .tc) (h : r ∉ (Late44 : List (Ref sig .tc))) :
    W44 m ρ c (Proc.devRef .tc r) = W44 m ρ c (Proc.devRef .tc r) := rfl

abbrev Late43 : List (Ref sig .tc) := ([main_v225] : List (Ref sig .tc)) ++ Late44
theorem late43 (c : Dev nD) (r : Ref sig .tc) (h : r ∉ (Late43 : List (Ref sig .tc))) :
    W44 m ρ c (Proc.devRef .tc r) = W43 m ρ c (Proc.devRef .tc r) :=
  (late44 m ρ c r (fun hm => h (List.mem_append_right _ hm))).trans (W44_keep m ρ c r (fun hm => h (List.mem_append_left _ hm)))

abbrev Late42 : List (Ref sig .tc) := hostOps11_2_W ++ Late43
theorem late42 (c : Dev nD) (r : Ref sig .tc) (h : r ∉ (Late42 : List (Ref sig .tc))) :
    W44 m ρ c (Proc.devRef .tc r) = W42 m ρ c (Proc.devRef .tc r) :=
  (late43 m ρ c r (fun hm => h (List.mem_append_right _ hm))).trans (W43_keep m ρ c r (fun hm => h (List.mem_append_left _ hm)))

abbrev Late41 : List (Ref sig .tc) := hostOps11_1_W ++ Late42
theorem late41 (c : Dev nD) (r : Ref sig .tc) (h : r ∉ (Late41 : List (Ref sig .tc))) :
    W44 m ρ c (Proc.devRef .tc r) = W41 m ρ c (Proc.devRef .tc r) :=
  (late42 m ρ c r (fun hm => h (List.mem_append_right _ hm))).trans (W42_keep m ρ c r (fun hm => h (List.mem_append_left _ hm)))

abbrev Late40 : List (Ref sig .tc) := hostOps11_W ++ Late41
theorem late40 (c : Dev nD) (r : Ref sig .tc) (h : r ∉ (Late40 : List (Ref sig .tc))) :
    W44 m ρ c (Proc.devRef .tc r) = W40 m ρ c (Proc.devRef .tc r) :=
  (late41 m ρ c r (fun hm => h (List.mem_append_right _ hm))).trans (W41_keep m ρ c r (fun hm => h (List.mem_append_left _ hm)))

abbrev Late39 : List (Ref sig .tc) := ([main_v216] : List (Ref sig .tc)) ++ Late40
theorem late39 (c : Dev nD) (r : Ref sig .tc) (h : r ∉ (Late39 : List (Ref sig .tc))) :
    W44 m ρ c (Proc.devRef .tc r) = W39 m ρ c (Proc.devRef .tc r) :=
  (late40 m ρ c r (fun hm => h (List.mem_append_right _ hm))).trans (W40_keep m ρ c r (fun hm => h (List.mem_append_left _ hm)))

abbrev Late38 : List (Ref sig .tc) := hostOps10_2_W ++ Late39
theorem late38 (c : Dev nD) (r : Ref sig .tc) (h : r ∉ (Late38 : List (Ref sig .tc))) :
    W44 m ρ c (Proc.devRef .tc r) = W38 m ρ c (Proc.devRef .tc r) :=
  (late39 m ρ c r (fun hm => h (List.mem_append_right _ hm))).trans (W39_keep m ρ c r (fun hm => h (List.mem_append_left _ hm)))

abbrev Late37 : List (Ref sig .tc) := hostOps10_1_W ++ Late38
theorem late37 (c : Dev nD) (r : Ref sig .tc) (h : r ∉ (Late37 : List (Ref sig .tc))) :
    W44 m ρ c (Proc.devRef .tc r) = W37 m ρ c (Proc.devRef .tc r) :=
  (late38 m ρ c r (fun hm => h (List.mem_append_right _ hm))).trans (W38_keep m ρ c r (fun hm => h (List.mem_append_left _ hm)))

abbrev Late36 : List (Ref sig .tc) := hostOps10_W ++ Late37
theorem late36 (c : Dev nD) (r : Ref sig .tc) (h : r ∉ (Late36 : List (Ref sig .tc))) :
    W44 m ρ c (Proc.devRef .tc r) = W36 m ρ c (Proc.devRef .tc r) :=
  (late37 m ρ c r (fun hm => h (List.mem_append_right _ hm))).trans (W37_keep m ρ c r (fun hm => h (List.mem_append_left _ hm)))

abbrev Late35 : List (Ref sig .tc) := ([main_v198] : List (Ref sig .tc)) ++ Late36
theorem late35 (c : Dev nD) (r : Ref sig .tc) (h : r ∉ (Late35 : List (Ref sig .tc))) :
    W44 m ρ c (Proc.devRef .tc r) = W35 m ρ c (Proc.devRef .tc r) :=
  (late36 m ρ c r (fun hm => h (List.mem_append_right _ hm))).trans (W36_keep m ρ c r (fun hm => h (List.mem_append_left _ hm)))

abbrev Late34 : List (Ref sig .tc) := hostOps9_2_W ++ Late35
theorem late34 (c : Dev nD) (r : Ref sig .tc) (h : r ∉ (Late34 : List (Ref sig .tc))) :
    W44 m ρ c (Proc.devRef .tc r) = W34 m ρ c (Proc.devRef .tc r) :=
  (late35 m ρ c r (fun hm => h (List.mem_append_right _ hm))).trans (W35_keep m ρ c r (fun hm => h (List.mem_append_left _ hm)))

abbrev Late33 : List (Ref sig .tc) := hostOps9_1_W ++ Late34
theorem late33 (c : Dev nD) (r : Ref sig .tc) (h : r ∉ (Late33 : List (Ref sig .tc))) :
    W44 m ρ c (Proc.devRef .tc r) = W33 m ρ c (Proc.devRef .tc r) :=
  (late34 m ρ c r (fun hm => h (List.mem_append_right _ hm))).trans (W34_keep m ρ c r (fun hm => h (List.mem_append_left _ hm)))

abbrev Late32 : List (Ref sig .tc) := hostOps9_W ++ Late33
theorem late32 (c : Dev nD) (r : Ref sig .tc) (h : r ∉ (Late32 : List (Ref sig .tc))) :
    W44 m ρ c (Proc.devRef .tc r) = W32 m ρ c (Proc.devRef .tc r) :=
  (late33 m ρ c r (fun hm => h (List.mem_append_right _ hm))).trans (W33_keep m ρ c r (fun hm => h (List.mem_append_left _ hm)))

abbrev Late31 : List (Ref sig .tc) := ([main_v177] : List (Ref sig .tc)) ++ Late32
theorem late31 (c : Dev nD) (r : Ref sig .tc) (h : r ∉ (Late31 : List (Ref sig .tc))) :
    W44 m ρ c (Proc.devRef .tc r) = W31 m ρ c (Proc.devRef .tc r) :=
  (late32 m ρ c r (fun hm => h (List.mem_append_right _ hm))).trans (W32_keep m ρ c r (fun hm => h (List.mem_append_left _ hm)))

abbrev Late30 : List (Ref sig .tc) := hostOps8_W ++ Late31
theorem late30 (c : Dev nD) (r : Ref sig .tc) (h : r ∉ (Late30 : List (Ref sig .tc))) :
    W44 m ρ c (Proc.devRef .tc r) = W30 m ρ c (Proc.devRef .tc r) :=
  (late31 m ρ c r (fun hm => h (List.mem_append_right _ hm))).trans (W31_keep m ρ c r (fun hm => h (List.mem_append_left _ hm)))

abbrev Late29 : List (Ref sig .tc) := ([main_v160] : List (Ref sig .tc)) ++ Late30
theorem late29 (c : Dev nD) (r : Ref sig .tc) (h : r ∉ (Late29 : List (Ref sig .tc))) :
    W44 m ρ c (Proc.devRef .tc r) = W29 m ρ c (Proc.devRef .tc r) :=
  (late30 m ρ c r (fun hm => h (List.mem_append_right _ hm))).trans (W30_keep m ρ c r (fun hm => h (List.mem_append_left _ hm)))

abbrev Late28 : List (Ref sig .tc) := hostOps7_2_W ++ Late29
theorem late28 (c : Dev nD) (r : Ref sig .tc) (h : r ∉ (Late28 : List (Ref sig .tc))) :
    W44 m ρ c (Proc.devRef .tc r) = W28 m ρ c (Proc.devRef .tc r) :=
  (late29 m ρ c r (fun hm => h (List.mem_append_right _ hm))).trans (W29_keep m ρ c r (fun hm => h (List.mem_append_left _ hm)))

abbrev Late27 : List (Ref sig .tc) := hostOps7_1_W ++ Late28
theorem late27 (c : Dev nD) (r : Ref sig .tc) (h : r ∉ (Late27 : List (Ref sig .tc))) :
    W44 m ρ c (Proc.devRef .tc r) = W27 m ρ c (Proc.devRef .tc r) :=
  (late28 m ρ c r (fun hm => h (List.mem_append_right _ hm))).trans (W28_keep m ρ c r (fun hm => h (List.mem_append_left _ hm)))

abbrev Late26 : List (Ref sig .tc) := hostOps7_W ++ Late27
theorem late26 (c : Dev nD) (r : Ref sig .tc) (h : r ∉ (Late26 : List (Ref sig .tc))) :
    W44 m ρ c (Proc.devRef .tc r) = W26 m ρ c (Proc.devRef .tc r) :=
  (late27 m ρ c r (fun hm => h (List.mem_append_right _ hm))).trans (W27_keep m ρ c r (fun hm => h (List.mem_append_left _ hm)))

abbrev Late25 : List (Ref sig .tc) := ([main_v144] : List (Ref sig .tc)) ++ Late26
theorem late25 (c : Dev nD) (r : Ref sig .tc) (h : r ∉ (Late25 : List (Ref sig .tc))) :
    W44 m ρ c (Proc.devRef .tc r) = W25 m ρ c (Proc.devRef .tc r) :=
  (late26 m ρ c r (fun hm => h (List.mem_append_right _ hm))).trans (W26_keep m ρ c r (fun hm => h (List.mem_append_left _ hm)))

abbrev Late24 : List (Ref sig .tc) := hostOps6_W ++ Late25
theorem late24 (c : Dev nD) (r : Ref sig .tc) (h : r ∉ (Late24 : List (Ref sig .tc))) :
    W44 m ρ c (Proc.devRef .tc r) = W24 m ρ c (Proc.devRef .tc r) :=
  (late25 m ρ c r (fun hm => h (List.mem_append_right _ hm))).trans (W25_keep m ρ c r (fun hm => h (List.mem_append_left _ hm)))

abbrev Late23 : List (Ref sig .tc) := ([main_v127] : List (Ref sig .tc)) ++ Late24
theorem late23 (c : Dev nD) (r : Ref sig .tc) (h : r ∉ (Late23 : List (Ref sig .tc))) :
    W44 m ρ c (Proc.devRef .tc r) = W23 m ρ c (Proc.devRef .tc r) :=
  (late24 m ρ c r (fun hm => h (List.mem_append_right _ hm))).trans (W24_keep m ρ c r (fun hm => h (List.mem_append_left _ hm)))

abbrev Late22 : List (Ref sig .tc) := hostOps5_2_W ++ Late23
theorem late22 (c : Dev nD) (r : Ref sig .tc) (h : r ∉ (Late22 : List (Ref sig .tc))) :
    W44 m ρ c (Proc.devRef .tc r) = W22 m ρ c (Proc.devRef .tc r) :=
  (late23 m ρ c r (fun hm => h (List.mem_append_right _ hm))).trans (W23_keep m ρ c r (fun hm => h (List.mem_append_left _ hm)))

abbrev Late21 : List (Ref sig .tc) := hostOps5_1_W ++ Late22
theorem late21 (c : Dev nD) (r : Ref sig .tc) (h : r ∉ (Late21 : List (Ref sig .tc))) :
    W44 m ρ c (Proc.devRef .tc r) = W21 m ρ c (Proc.devRef .tc r) :=
  (late22 m ρ c r (fun hm => h (List.mem_append_right _ hm))).trans (W22_keep m ρ c r (fun hm => h (List.mem_append_left _ hm)))

abbrev Late20 : List (Ref sig .tc) := hostOps5_W ++ Late21
theorem late20 (c : Dev nD) (r : Ref sig .tc) (h : r ∉ (Late20 : List (Ref sig .tc))) :
    W44 m ρ c (Proc.devRef .tc r) = W20 m ρ c (Proc.devRef .tc r) :=
  (late21 m ρ c r (fun hm => h (List.mem_append_right _ hm))).trans (W21_keep m ρ c r (fun hm => h (List.mem_append_left _ hm)))

abbrev Late19 : List (Ref sig .tc) := ([main_v111] : List (Ref sig .tc)) ++ Late20
theorem late19 (c : Dev nD) (r : Ref sig .tc) (h : r ∉ (Late19 : List (Ref sig .tc))) :
    W44 m ρ c (Proc.devRef .tc r) = W19 m ρ c (Proc.devRef .tc r) :=
  (late20 m ρ c r (fun hm => h (List.mem_append_right _ hm))).trans (W20_keep m ρ c r (fun hm => h (List.mem_append_left _ hm)))

abbrev Late18 : List (Ref sig .tc) := hostOps4_W ++ Late19
theorem late18 (c : Dev nD) (r : Ref sig .tc) (h : r ∉ (Late18 : List (Ref sig .tc))) :
    W44 m ρ c (Proc.devRef .tc r) = W18 m ρ c (Proc.devRef .tc r) :=
  (late19 m ρ c r (fun hm => h (List.mem_append_right _ hm))).trans (W19_keep m ρ c r (fun hm => h (List.mem_append_left _ hm)))

abbrev Late17 : List (Ref sig .tc) := ([main_v94] : List (Ref sig .tc)) ++ Late18
theorem late17 (c : Dev nD) (r : Ref sig .tc) (h : r ∉ (Late17 : List (Ref sig .tc))) :
    W44 m ρ c (Proc.devRef .tc r) = W17 m ρ c (Proc.devRef .tc r) :=
  (late18 m ρ c r (fun hm => h (List.mem_append_right _ hm))).trans (W18_keep m ρ c r (fun hm => h (List.mem_append_left _ hm)))

abbrev Late16 : List (Ref sig .tc) := hostOps3_2_W ++ Late17
theorem late16 (c : Dev nD) (r : Ref sig .tc) (h : r ∉ (Late16 : List (Ref sig .tc))) :
    W44 m ρ c (Proc.devRef .tc r) = W16 m ρ c (Proc.devRef .tc r) :=
  (late17 m ρ c r (fun hm => h (List.mem_append_right _ hm))).trans (W17_keep m ρ c r (fun hm => h (List.mem_append_left _ hm)))

abbrev Late15 : List (Ref sig .tc) := hostOps3_1_W ++ Late16
theorem late15 (c : Dev nD) (r : Ref sig .tc) (h : r ∉ (Late15 : List (Ref sig .tc))) :
    W44 m ρ c (Proc.devRef .tc r) = W15 m ρ c (Proc.devRef .tc r) :=
  (late16 m ρ c r (fun hm => h (List.mem_append_right _ hm))).trans (W16_keep m ρ c r (fun hm => h (List.mem_append_left _ hm)))

abbrev Late14 : List (Ref sig .tc) := hostOps3_W ++ Late15
theorem late14 (c : Dev nD) (r : Ref sig .tc) (h : r ∉ (Late14 : List (Ref sig .tc))) :
    W44 m ρ c (Proc.devRef .tc r) = W14 m ρ c (Proc.devRef .tc r) :=
  (late15 m ρ c r (fun hm => h (List.mem_append_right _ hm))).trans (W15_keep m ρ c r (fun hm => h (List.mem_append_left _ hm)))

abbrev Late13 : List (Ref sig .tc) := ([main_v78] : List (Ref sig .tc)) ++ Late14
theorem late13 (c : Dev nD) (r : Ref sig .tc) (h : r ∉ (Late13 : List (Ref sig .tc))) :
    W44 m ρ c (Proc.devRef .tc r) = W13 m ρ c (Proc.devRef .tc r) :=
  (late14 m ρ c r (fun hm => h (List.mem_append_right _ hm))).trans (W14_keep m ρ c r (fun hm => h (List.mem_append_left _ hm)))

abbrev Late12 : List (Ref sig .tc) := hostOps2_W ++ Late13
theorem late12 (c : Dev nD) (r : Ref sig .tc) (h : r ∉ (Late12 : List (Ref sig .tc))) :
    W44 m ρ c (Proc.devRef .tc r) = W12 m ρ c (Proc.devRef .tc r) :=
  (late13 m ρ c r (fun hm => h (List.mem_append_right _ hm))).trans (W13_keep m ρ c r (fun hm => h (List.mem_append_left _ hm)))

abbrev Late11 : List (Ref sig .tc) := ([main_v61] : List (Ref sig .tc)) ++ Late12
theorem late11 (c : Dev nD) (r : Ref sig .tc) (h : r ∉ (Late11 : List (Ref sig .tc))) :
    W44 m ρ c (Proc.devRef .tc r) = W11 m ρ c (Proc.devRef .tc r) :=
  (late12 m ρ c r (fun hm => h (List.mem_append_right _ hm))).trans (W12_keep m ρ c r (fun hm => h (List.mem_append_left _ hm)))

abbrev Late10 : List (Ref sig .tc) := hostOps1_2_W ++ Late11
theorem late10 (c : Dev nD) (r : Ref sig .tc) (h : r ∉ (Late10 : List (Ref sig .tc))) :
    W44 m ρ c (Proc.devRef .tc r) = W10 m ρ c (Proc.devRef .tc r) :=
  (late11 m ρ c r (fun hm => h (List.mem_append_right _ hm))).trans (W11_keep m ρ c r (fun hm => h (List.mem_append_left _ hm)))

abbrev Late9 : List (Ref sig .tc) := hostOps1_1_W ++ Late10
theorem late9 (c : Dev nD) (r : Ref sig .tc) (h : r ∉ (Late9 : List (Ref sig .tc))) :
    W44 m ρ c (Proc.devRef .tc r) = W9 m ρ c (Proc.devRef .tc r) :=
  (late10 m ρ c r (fun hm => h (List.mem_append_right _ hm))).trans (W10_keep m ρ c r (fun hm => h (List.mem_append_left _ hm)))

abbrev Late8 : List (Ref sig .tc) := hostOps1_W ++ Late9
theorem late8 (c : Dev nD) (r : Ref sig .tc) (h : r ∉ (Late8 : List (Ref sig .tc))) :
    W44 m ρ c (Proc.devRef .tc r) = W8 m ρ c (Proc.devRef .tc r) :=
  (late9 m ρ c r (fun hm => h (List.mem_append_right _ hm))).trans (W9_keep m ρ c r (fun hm => h (List.mem_append_left _ hm)))

abbrev Late7 : List (Ref sig .tc) := ([main_v44] : List (Ref sig .tc)) ++ Late8
theorem late7 (c : Dev nD) (r : Ref sig .tc) (h : r ∉ (Late7 : List (Ref sig .tc))) :
    W44 m ρ c (Proc.devRef .tc r) = W7 m ρ c (Proc.devRef .tc r) :=
  (late8 m ρ c r (fun hm => h (List.mem_append_right _ hm))).trans (W8_keep m ρ c r (fun hm => h (List.mem_append_left _ hm)))

abbrev Late6 : List (Ref sig .tc) := hostOps0_6_W ++ Late7
theorem late6 (c : Dev nD) (r : Ref sig .tc) (h : r ∉ (Late6 : List (Ref sig .tc))) :
    W44 m ρ c (Proc.devRef .tc r) = W6 m ρ c (Proc.devRef .tc r) :=
  (late7 m ρ c r (fun hm => h (List.mem_append_right _ hm))).trans (W7_keep m ρ c r (fun hm => h (List.mem_append_left _ hm)))

abbrev Late5 : List (Ref sig .tc) := hostOps0_5_W ++ Late6
theorem late5 (c : Dev nD) (r : Ref sig .tc) (h : r ∉ (Late5 : List (Ref sig .tc))) :
    W44 m ρ c (Proc.devRef .tc r) = W5 m ρ c (Proc.devRef .tc r) :=
  (late6 m ρ c r (fun hm => h (List.mem_append_right _ hm))).trans (W6_keep m ρ c r (fun hm => h (List.mem_append_left _ hm)))

abbrev Late4 : List (Ref sig .tc) := hostOps0_4_W ++ Late5
theorem late4 (c : Dev nD) (r : Ref sig .tc) (h : r ∉ (Late4 : List (Ref sig .tc))) :
    W44 m ρ c (Proc.devRef .tc r) = W4 m ρ c (Proc.devRef .tc r) :=
  (late5 m ρ c r (fun hm => h (List.mem_append_right _ hm))).trans (W5_keep m ρ c r (fun hm => h (List.mem_append_left _ hm)))

abbrev Late3 : List (Ref sig .tc) := hostOps0_3_W ++ Late4
theorem late3 (c : Dev nD) (r : Ref sig .tc) (h : r ∉ (Late3 : List (Ref sig .tc))) :
    W44 m ρ c (Proc.devRef .tc r) = W3 m ρ c (Proc.devRef .tc r) :=
  (late4 m ρ c r (fun hm => h (List.mem_append_right _ hm))).trans (W4_keep m ρ c r (fun hm => h (List.mem_append_left _ hm)))

abbrev Late2 : List (Ref sig .tc) := hostOps0_2_W ++ Late3
theorem late2 (c : Dev nD) (r : Ref sig .tc) (h : r ∉ (Late2 : List (Ref sig .tc))) :
    W44 m ρ c (Proc.devRef .tc r) = W2 m ρ c (Proc.devRef .tc r) :=
  (late3 m ρ c r (fun hm => h (List.mem_append_right _ hm))).trans (W3_keep m ρ c r (fun hm => h (List.mem_append_left _ hm)))

abbrev Late1 : List (Ref sig .tc) := hostOps0_1_W ++ Late2
theorem late1 (c : Dev nD) (r : Ref sig .tc) (h : r ∉ (Late1 : List (Ref sig .tc))) :
    W44 m ρ c (Proc.devRef .tc r) = W1 m ρ c (Proc.devRef .tc r) :=
  (late2 m ρ c r (fun hm => h (List.mem_append_right _ hm))).trans (W2_keep m ρ c r (fun hm => h (List.mem_append_left _ hm)))

abbrev Late0 : List (Ref sig .tc) := hostOps0_W ++ Late1
theorem late0 (c : Dev nD) (r : Ref sig .tc) (h : r ∉ (Late0 : List (Ref sig .tc))) :
    W44 m ρ c (Proc.devRef .tc r) = W0 m ρ c (Proc.devRef .tc r) :=
  (late1 m ρ c r (fun hm => h (List.mem_append_right _ hm))).trans (W1_keep m ρ c r (fun hm => h (List.mem_append_left _ hm)))

/-! ## Each handed-on buffer at the last boundary -/

theorem kf_main_v3 (c : Dev nD) :
    W44 m ρ c (Proc.devRef .tc main_v3) = ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![0, 0] · slices_S2x1600000_S1x1600000_0_0) : (⟨S2x1600000, .i32⟩ : BufTy).Contents (Elt F) → (⟨S1x1600000, .i32⟩ : BufTy).Contents (Elt F))) (W44 m ρ c (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) :=
  (late1 m ρ c main_v3 (by decide)).trans ((kv_main_v3 (W0 m ρ c)).trans (by rw [late0 m ρ c main_arg1 (by decide)]))

theorem kf_main_v6 (c : Dev nD) :
    W44 m ρ c (Proc.devRef .tc main_v6) = ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (W44 m ρ c (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) :=
  (late1 m ρ c main_v6 (by decide)).trans ((kv_main_v6 (W0 m ρ c)).trans (by rw [late0 m ρ c main_arg1 (by decide)]))

theorem kf_main_v10 (c : Dev nD) :
    W44 m ρ c (Proc.devRef .tc main_v10) = ((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (W44 m ρ c (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000x1, .i32⟩ : BufTy).Contents (Elt F)) (((broadcastInDim S1700000 ![] bcast_S_S1700000 : (⟨S_, .f32⟩ : BufTy).Contents (Elt F) → (⟨S1700000, .f32⟩ : BufTy).Contents (Elt F))) ((constant S_ .f32 0x3F800000#32) : (⟨S_, .f32⟩ : BufTy).Contents (Elt F)) : (⟨S1700000, .f32⟩ : BufTy).Contents (Elt F)) : (⟨S100000, .f32⟩ : BufTy).Contents (Elt F)) :=
  (late1 m ρ c main_v10 (by decide)).trans ((kv_main_v10 (W0 m ρ c)).trans (by rw [late0 m ρ c main_arg1 (by decide)]))

theorem kf_main_v12 (c : Dev nD) :
    W44 m ρ c (Proc.devRef .tc main_v12) = (((cmpf .ogt : (⟨S100000, .f32⟩ : BufTy).Contents (Elt F) → (⟨S100000, .f32⟩ : BufTy).Contents (Elt F) → (⟨S100000, .i1⟩ : BufTy).Contents (Elt F))) ((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) ((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) (shapeCast S1600000 ((((extractStridedSlice S1x1600000 ![1, 0] · slices_S2x1600000_S1x1600000_1_0) : (⟨S2x1600000, .i32⟩ : BufTy).Contents (Elt F) → (⟨S1x1600000, .i32⟩ : BufTy).Contents (Elt F))) (W44 m ρ c (Proc.devRef .tc main_arg1) : (⟨S2x1600000, .i32⟩ : BufTy).Contents (Elt F)) : (⟨S1x1600000, .i32⟩ : BufTy).Contents (Elt F)) shapeCasts_S1x1600000_S1600000 : (⟨S1600000, .i32⟩ : BufTy).Contents (Elt F)) ((iotaInDim S100000 32 0) : (⟨S100000, .i32⟩ : BufTy).Contents (Elt F)) : (⟨S1700000, .i32⟩ : BufTy).Contents (Elt F)) : (⟨S1700000x1, .i32⟩ : BufTy).Contents (Elt F)) (((broadcastInDim S1700000 ![] bcast_S_S1700000 : (⟨S_, .f32⟩ : BufTy).Contents (Elt F) → (⟨S1700000, .f32⟩ : BufTy).Contents (Elt F))) ((constant S_ .f32 0x3F800000#32) : (⟨S_, .f32⟩ : BufTy).Contents (Elt F)) : (⟨S1700000, .f32⟩ : BufTy).Contents (Elt F)) : (⟨S100000, .f32⟩ : BufTy).Contents (Elt F)) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) : (⟨S100000, .i1⟩ : BufTy).Contents (Elt F)) :=
  (late1 m ρ c main_v12 (by decide)).trans ((kv_main_v12 (W0 m ρ c)).trans (by rw [late0 m ρ c main_arg1 (by decide)]))

theorem kf_main_cst_2 (c : Dev nD) :
    W44 m ρ c (Proc.devRef .tc main_cst_2) = ((constant S_ .f32 0x3F800000#32) : (⟨S_, .f32⟩ : BufTy).Contents (Elt F)) :=
  (late1 m ρ c main_cst_2 (by decide)).trans ((kv_main_cst_2 (W0 m ρ c)).trans (rfl))

theorem kf_main_cst_3 (c : Dev nD) :
    W44 m ρ c (Proc.devRef .tc main_cst_3) = ((constant S_ .f32 0x00000000#32) : (⟨S_, .f32⟩ : BufTy).Contents (Elt F)) :=
  (late1 m ρ c main_cst_3 (by decide)).trans ((kv_main_cst_3 (W0 m ρ c)).trans (rfl))

theorem kf_main_v13 (c : Dev nD) :
    W44 m ρ c (Proc.devRef .tc main_v13) = ((select) (W44 m ρ c (Proc.devRef .tc main_v12) : (⟨S100000, .i1⟩ : BufTy).Contents (Elt F)) (((broadcastInDim S100000 ![] bcast_S_S100000)) (W44 m ρ c (Proc.devRef .tc main_cst_2) : (⟨S_, .f32⟩ : BufTy).Contents (Elt F)) : (⟨S100000, .f32⟩ : BufTy).Contents (Elt F)) (((broadcastInDim S100000 ![] bcast_S_S100000)) (W44 m ρ c (Proc.devRef .tc main_cst_3) : (⟨S_, .f32⟩ : BufTy).Contents (Elt F)) : (⟨S100000, .f32⟩ : BufTy).Contents (Elt F)) : (⟨S100000, .f32⟩ : BufTy).Contents (Elt F)) :=
  (late2 m ρ c main_v13 (by decide)).trans ((kv_main_v13 (W1 m ρ c)).trans (by rw [late1 m ρ c main_cst_2 (by decide), late1 m ρ c main_cst_3 (by decide), late1 m ρ c main_v12 (by decide)]))

theorem kf_main_v15 (c : Dev nD) :
    W44 m ρ c (Proc.devRef .tc main_v15) = (((cmpf .ogt : (⟨S100000, .f32⟩ : BufTy).Contents (Elt F) → (⟨S100000, .f32⟩ : BufTy).Contents (Elt F) → (⟨S100000, .i1⟩ : BufTy).Contents (Elt F))) (W44 m ρ c (Proc.devRef .tc main_v10) : (⟨S100000, .f32⟩ : BufTy).Contents (Elt F)) (((broadcastInDim S100000 ![] bcast_S_S100000 : (⟨S_, .f32⟩ : BufTy).Contents (Elt F) → (⟨S100000, .f32⟩ : BufTy).Contents (Elt F))) ((constant S_ .f32 0x00000000#32) : (⟨S_, .f32⟩ : BufTy).Contents (Elt F)) : (⟨S100000, .f32⟩ : BufTy).Contents (Elt F)) : (⟨S100000, .i1⟩ : BufTy).Contents (Elt F)) :=
  (late3 m ρ c main_v15 (by decide)).trans ((kv_main_v15 (W2 m ρ c)).trans (by rw [late2 m ρ c main_v10 (by decide)]))

theorem kf_main_cst_5 (c : Dev nD) :
    W44 m ρ c (Proc.devRef .tc main_cst_5) = ((constant S_ .f32 0x3F800000#32) : (⟨S_, .f32⟩ : BufTy).Contents (Elt F)) :=
  (late3 m ρ c main_cst_5 (by decide)).trans ((kv_main_cst_5 (W2 m ρ c)).trans (rfl))

theorem kf_main_v16 (c : Dev nD) :
    W44 m ρ c (Proc.devRef .tc main_v16) = ((select) (W44 m ρ c (Proc.devRef .tc main_v15) : (⟨S100000, .i1⟩ : BufTy).Contents (Elt F)) (W44 m ρ c (Proc.devRef .tc main_v10) : (⟨S100000, .f32⟩ : BufTy).Contents (Elt F)) (((broadcastInDim S100000 ![] bcast_S_S100000)) ((id) (W44 m ρ c (Proc.devRef .tc main_cst_5) : (⟨S_, .f32⟩ : BufTy).Contents (Elt F)) : (⟨S_, .f32⟩ : BufTy).Contents (Elt F)) : (⟨S100000, .f32⟩ : BufTy).Contents (Elt F)) : (⟨S100000, .f32⟩ : BufTy).Contents (Elt F)) :=
  (late4 m ρ c main_v16 (by decide)).trans ((kv_main_v16 (W3 m ρ c)).trans (by rw [late3 m ρ c main_cst_5 (by decide), late3 m ρ c main_v10 (by decide), late3 m ρ c main_v15 (by decide)]))

theorem kf_main_v34 (c : Dev nD) :
    W44 m ρ c (Proc.devRef .tc main_v34) = (((mulf : (⟨S1700000, .f32⟩ : BufTy).Contents (Elt F) → (⟨S1700000, .f32⟩ : BufTy).Contents (Elt F) → (⟨S1700000, .f32⟩ : BufTy).Contents (Elt F))) ((((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))) (((Host.divf : (⟨S100000, .f32⟩ : BufTy).Contents (Elt F) → (⟨S100000, .f32⟩ : BufTy).Contents (Elt F) → (⟨S100000, .f32⟩ : BufTy).Contents (Elt F))) (((id : (⟨S100000, .f32⟩ : BufTy).Contents (Elt F) → (⟨S100000, .f32⟩ : BufTy).Contents (Elt F))) (W44 m ρ c (Proc.devRef .tc main_v13) : (⟨S100000, .f32⟩ : BufTy).Contents (Elt F)) : (⟨S100000, .f32⟩ : BufTy).Contents (Elt F)) (((Host.sqrt : (⟨S100000, .f32⟩ : BufTy).Contents (Elt F) → (⟨S100000, .f32⟩ : BufTy).Contents (Elt F))) (W44 m ρ c (Proc.devRef .tc main_v16) : (⟨S100000, .f32⟩ : BufTy).Contents (Elt F)) : (⟨S100000, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (W44 m ρ c (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (W44 m ρ c (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (W44 m ρ c (Proc.devRef .tc main_v3) : (⟨S1700000, .i32⟩ : BufTy).Contents (Elt F)) : (⟨S1700000, .i32⟩ : BufTy).Contents (Elt F)) : (⟨S1700000x1, .i32⟩ : BufTy).Contents (Elt F)) : (⟨S1700000, .f32⟩ : BufTy).Contents (Elt F)) ((((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))) (((Host.divf : (⟨S100000, .f32⟩ : BufTy).Contents (Elt F) → (⟨S100000, .f32⟩ : BufTy).Contents (Elt F) → (⟨S100000, .f32⟩ : BufTy).Contents (Elt F))) (((id : (⟨S100000, .f32⟩ : BufTy).Contents (Elt F) → (⟨S100000, .f32⟩ : BufTy).Contents (Elt F))) (W44 m ρ c (Proc.devRef .tc main_v13) : (⟨S100000, .f32⟩ : BufTy).Contents (Elt F)) : (⟨S100000, .f32⟩ : BufTy).Contents (Elt F)) (((Host.sqrt : (⟨S100000, .f32⟩ : BufTy).Contents (Elt F) → (⟨S100000, .f32⟩ : BufTy).Contents (Elt F))) (W44 m ρ c (Proc.devRef .tc main_v16) : (⟨S100000, .f32⟩ : BufTy).Contents (Elt F)) : (⟨S100000, .f32⟩ : BufTy).Contents (Elt F)) : (⟨S100000, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (W44 m ρ c (Proc.devRef .tc main_v6) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (W44 m ρ c (Proc.devRef .tc main_v6) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (W44 m ρ c (Proc.devRef .tc main_v6) : (⟨S1700000, .i32⟩ : BufTy).Contents (Elt F)) : (⟨S1700000, .i32⟩ : BufTy).Contents (Elt F)) : (⟨S1700000x1, .i32⟩ : BufTy).Contents (Elt F)) : (⟨S1700000, .f32⟩ : BufTy).Contents (Elt F)) : (⟨S1700000, .f32⟩ : BufTy).Contents (Elt F)) :=
  (late5 m ρ c main_v34 (by decide)).trans ((kv_main_v34 (W4 m ρ c)).trans (by rw [late4 m ρ c main_v13 (by decide), late4 m ρ c main_v16 (by decide), late4 m ρ c main_v3 (by decide), late4 m ρ c main_v6 (by decide)]))

theorem kf_main_v37 (c : Dev nD) :
    W44 m ρ c (Proc.devRef .tc main_v37) = (((Host.divf : (⟨S64, .f32⟩ : BufTy).Contents (Elt F) → (⟨S64, .f32⟩ : BufTy).Contents (Elt F) → (⟨S64, .f32⟩ : BufTy).Contents (Elt F))) ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (W44 m ρ c (Proc.devRef .tc main_arg0) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x47C35000#32) : (⟨S_, .f32⟩ : BufTy).Contents (Elt F)) : (⟨S64, .f32⟩ : BufTy).Contents (Elt F)) : (⟨S64, .f32⟩ : BufTy).Contents (Elt F)) :=
  (late5 m ρ c main_v37 (by decide)).trans ((kv_main_v37 (W4 m ρ c)).trans (by rw [late4 m ρ c main_arg0 (by decide)]))

theorem kf_main_c_11 (c : Dev nD) :
    W44 m ρ c (Proc.devRef .tc main_c_11) = ((constantI S_ 32 0#32) : (⟨S_, .i32⟩ : BufTy).Contents (Elt F)) :=
  (late5 m ρ c main_c_11 (by decide)).trans ((kv_main_c_11 (W4 m ρ c)).trans (rfl))

theorem kf_main_v38 (c : Dev nD) :
    W44 m ρ c (Proc.devRef .tc main_v38) = (((fun p a b => select (broadcastInDim S64 ![] bcast_S_S64 p) a b)) (((cmpf .ogt)) ((subf) ((constant S_ .f32 0x47C35000#32) : (⟨S_, .f32⟩ : BufTy).Contents (Elt F)) (((sitofp .f32)) (W44 m ρ c (Proc.devRef .tc main_c_11) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (W44 m ρ c (Proc.devRef .tc main_arg0) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (W44 m ρ c (Proc.devRef .tc main_arg0) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (W44 m ρ c (Proc.devRef .tc main_arg0) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (W44 m ρ c (Proc.devRef .tc main_arg0) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) (W44 m ρ c (Proc.devRef .tc main_c_11) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) :=
  (late6 m ρ c main_v38 (by decide)).trans ((kv_main_v38 (W5 m ρ c)).trans (by rw [late5 m ρ c main_arg0 (by decide), late5 m ρ c main_c_11 (by decide)]))

theorem kf_main_v39 (c : Dev nD) :
    W44 m ρ c (Proc.devRef .tc main_v39) = (shapeCast S1x64 (W44 m ρ c (Proc.devRef .tc main_v37) : (⟨S64, .f32⟩ : BufTy).Contents (Elt F)) shapeCasts_S64_S1x64 : (⟨S1x64, .f32⟩ : BufTy).Contents (Elt F)) :=
  (late7 m ρ c main_v39 (by decide)).trans ((kv_main_v39 (W6 m ρ c)).trans (by rw [late6 m ρ c main_v37 (by decide)]))

theorem kf_main_v40 (c : Dev nD) :
    W44 m ρ c (Proc.devRef .tc main_v40) = (shapeCast S1x64 (W44 m ρ c (Proc.devRef .tc main_v38) : (⟨S64, .f32⟩ : BufTy).Contents (Elt F)) shapeCasts_S64_S1x64 : (⟨S1x64, .f32⟩ : BufTy).Contents (Elt F)) :=
  (late7 m ρ c main_v40 (by decide)).trans ((kv_main_v40 (W6 m ρ c)).trans (by rw [late6 m ρ c main_v38 (by decide)]))

theorem kf_main_v41 (c : Dev nD) :
    W44 m ρ c (Proc.devRef .tc main_v41) = (shapeCast S1x64 (W44 m ρ c (Proc.devRef .tc main_arg3) : (⟨S64, .f32⟩ : BufTy).Contents (Elt F)) shapeCasts_S64_S1x64 : (⟨S1x64, .f32⟩ : BufTy).Contents (Elt F)) :=
  (late7 m ρ c main_v41 (by decide)).trans ((kv_main_v41 (W6 m ρ c)).trans (by rw [late6 m ρ c main_arg3 (by decide)]))

theorem kf_main_v42 (c : Dev nD) :
    W44 m ρ c (Proc.devRef .tc main_v42) = (shapeCast S1x64 (W44 m ρ c (Proc.devRef .tc main_arg4) : (⟨S64, .f32⟩ : BufTy).Contents (Elt F)) shapeCasts_S64_S1x64 : (⟨S1x64, .f32⟩ : BufTy).Contents (Elt F)) :=
  (late7 m ρ c main_v42 (by decide)).trans ((kv_main_v42 (W6 m ρ c)).trans (by rw [late6 m ρ c main_arg4 (by decide)]))

theorem kf_main_v43 (c : Dev nD) :
    W44 m ρ c (Proc.devRef .tc main_v43) = (shapeCast S1x64 (W44 m ρ c (Proc.devRef .tc main_arg6) : (⟨S64, .f32⟩ : BufTy).Contents (Elt F)) shapeCasts_S64_S1x64 : (⟨S1x64, .f32⟩ : BufTy).Contents (Elt F)) :=
  (late7 m ρ c main_v43 (by decide)).trans ((kv_main_v43 (W6 m ρ c)).trans (by rw [late6 m ρ c main_arg6 (by decide)]))

theorem kf_main_v44 (c : Dev nD) :
    W44 m ρ c (Proc.devRef .tc main_v44) = (dat0 (V7 m ρ) c).arrAt 7 cfg0.N :=
  (late8 m ρ c main_v44 (by decide)).trans (W8_arr m ρ c 7)
/-- What region 0 finds in a buffer is what the buffer holds at the last boundary, for a buffer no later stretch or region writes. -/
theorem entry0 (c : Dev nD) (r : Ref sig .tc) (h : r ∉ (Late7 : List (Ref sig .tc))) :
    V7 m ρ c r = W44 m ρ c (Proc.devRef .tc r) := (late7 m ρ c r h).symm

theorem kf_main_v45 (c : Dev nD) :
    W44 m ρ c (Proc.devRef .tc main_v45) = (((broadcastInDim S64 ![] bcast_S_S64 : (⟨S_, .f32⟩ : BufTy).Contents (Elt F) → (⟨S64, .f32⟩ : BufTy).Contents (Elt F))) ((constant S_ .f32 0x00000000#32) : (⟨S_, .f32⟩ : BufTy).Contents (Elt F)) : (⟨S64, .f32⟩ : BufTy).Contents (Elt F)) :=
  (late9 m ρ c main_v45 (by decide)).trans ((kv_main_v45 (W8 m ρ c)).trans (rfl))

theorem kf_main_v48 (c : Dev nD) :
    W44 m ρ c (Proc.devRef .tc main_v48) = (((Host.divf : (⟨S64, .f32⟩ : BufTy).Contents (Elt F) → (⟨S64, .f32⟩ : BufTy).Contents (Elt F) → (⟨S64, .f32⟩ : BufTy).Contents (Elt F))) ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (W44 m ρ c (Proc.devRef .tc main_v44) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x47C35000#32) : (⟨S_, .f32⟩ : BufTy).Contents (Elt F)) : (⟨S64, .f32⟩ : BufTy).Contents (Elt F)) : (⟨S64, .f32⟩ : BufTy).Contents (Elt F)) :=
  (late9 m ρ c main_v48 (by decide)).trans ((kv_main_v48 (W8 m ρ c)).trans (by rw [late8 m ρ c main_v44 (by decide)]))

theorem kf_main_c_15 (c : Dev nD) :
    W44 m ρ c (Proc.devRef .tc main_c_15) = ((constantI S_ 32 0#32) : (⟨S_, .i32⟩ : BufTy).Contents (Elt F)) :=
  (late9 m ρ c main_c_15 (by decide)).trans ((kv_main_c_15 (W8 m ρ c)).trans (rfl))

theorem kf_main_v49 (c : Dev nD) :
    W44 m ρ c (Proc.devRef .tc main_v49) = (((fun p a b => select (broadcastInDim S64 ![] bcast_S_S64 p) a b)) (((cmpf .ogt)) ((subf) ((constant S_ .f32 0x47C35000#32) : (⟨S_, .f32⟩ : BufTy).Contents (Elt F)) (((sitofp .f32)) (W44 m ρ c (Proc.devRef .tc main_c_15) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (W44 m ρ c (Proc.devRef .tc main_v44) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (W44 m ρ c (Proc.devRef .tc main_v44) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (W44 m ρ c (Proc.devRef .tc main_v44) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (W44 m ρ c (Proc.devRef .tc main_v44) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) (W44 m ρ c (Proc.devRef .tc main_c_15) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) :=
  (late10 m ρ c main_v49 (by decide)).trans ((kv_main_v49 (W9 m ρ c)).trans (by rw [late9 m ρ c main_c_15 (by decide), late9 m ρ c main_v44 (by decide)]))

theorem kf_main_v51 (c : Dev nD) :
    W44 m ρ c (Proc.devRef .tc main_v51) = (shapeCast S64 ((((extractStridedSlice S1x64 ![0, 0] · slices_S4x64_S1x64_0_0) : (⟨S4x64, .f32⟩ : BufTy).Contents (Elt F) → (⟨S1x64, .f32⟩ : BufTy).Contents (Elt F))) (W44 m ρ c (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) :=
  (late11 m ρ c main_v51 (by decide)).trans ((kv_main_v51 (W10 m ρ c)).trans (by rw [late10 m ρ c main_arg7 (by decide)]))

theorem kf_main_v53 (c : Dev nD) :
    W44 m ρ c (Proc.devRef .tc main_v53) = (shapeCast S64 ((((extractStridedSlice S1x64 ![0, 0] · slices_S4x64_S1x64_0_0) : (⟨S4x64, .f32⟩ : BufTy).Contents (Elt F) → (⟨S1x64, .f32⟩ : BufTy).Contents (Elt F))) (W44 m ρ c (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) :=
  (late11 m ρ c main_v53 (by decide)).trans ((kv_main_v53 (W10 m ρ c)).trans (by rw [late10 m ρ c main_arg8 (by decide)]))

theorem kf_main_v54 (c : Dev nD) :
    W44 m ρ c (Proc.devRef .tc main_v54) = ((((extractStridedSlice S1x64x64 ![0, 0, 0] · slices_S4x64x64_S1x64x64_0_0_0) : (⟨S4x64x64, .f32⟩ : BufTy).Contents (Elt F) → (⟨S1x64x64, .f32⟩ : BufTy).Contents (Elt F))) (W44 m ρ c (Proc.devRef .tc main_arg9) : (⟨S4x64x64, .f32⟩ : BufTy).Contents (Elt F)) : (⟨S1x64x64, .f32⟩ : BufTy).Contents (Elt F)) :=
  (late11 m ρ c main_v54 (by decide)).trans ((kv_main_v54 (W10 m ρ c)).trans (by rw [late10 m ρ c main_arg9 (by decide)]))

theorem kf_main_v55 (c : Dev nD) :
    W44 m ρ c (Proc.devRef .tc main_v55) = (shapeCast S64x64 ((((extractStridedSlice S1x64x64 ![0, 0, 0] · slices_S4x64x64_S1x64x64_0_0_0) : (⟨S4x64x64, .f32⟩ : BufTy).Contents (Elt F) → (⟨S1x64x64, .f32⟩ : BufTy).Contents (Elt F))) (W44 m ρ c (Proc.devRef .tc main_arg9) : (⟨S4x64x64, .f32⟩ : BufTy).Contents (Elt F)) : (⟨S1x64x64, .f32⟩ : BufTy).Contents (Elt F)) shapeCasts_S1x64x64_S64x64 : (⟨S64x64, .f32⟩ : BufTy).Contents (Elt F)) :=
  (late11 m ρ c main_v55 (by decide)).trans ((kv_main_v55 (W10 m ρ c)).trans (by rw [late10 m ρ c main_arg9 (by decide)]))

theorem kf_main_v56 (c : Dev nD) :
    W44 m ρ c (Proc.devRef .tc main_v56) = (shapeCast S1x64 (W44 m ρ c (Proc.devRef .tc main_v48) : (⟨S64, .f32⟩ : BufTy).Contents (Elt F)) shapeCasts_S64_S1x64 : (⟨S1x64, .f32⟩ : BufTy).Contents (Elt F)) :=
  (late11 m ρ c main_v56 (by decide)).trans ((kv_main_v56 (W10 m ρ c)).trans (by rw [late10 m ρ c main_v48 (by decide)]))

theorem kf_main_v57 (c : Dev nD) :
    W44 m ρ c (Proc.devRef .tc main_v57) = (shapeCast S1x64 (W44 m ρ c (Proc.devRef .tc main_v49) : (⟨S64, .f32⟩ : BufTy).Contents (Elt F)) shapeCasts_S64_S1x64 : (⟨S1x64, .f32⟩ : BufTy).Contents (Elt F)) :=
  (late11 m ρ c main_v57 (by decide)).trans ((kv_main_v57 (W10 m ρ c)).trans (by rw [late10 m ρ c main_v49 (by decide)]))

theorem kf_main_v58 (c : Dev nD) :
    W44 m ρ c (Proc.devRef .tc main_v58) = (shapeCast S1x64 (shapeCast S64 ((((extractStridedSlice S1x64 ![0, 0] · slices_S4x64_S1x64_0_0) : (⟨S4x64, .f32⟩ : BufTy).Contents (Elt F) → (⟨S1x64, .f32⟩ : BufTy).Contents (Elt F))) (W44 m ρ c (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) :=
  (late11 m ρ c main_v58 (by decide)).trans ((kv_main_v58 (W10 m ρ c)).trans (by rw [late10 m ρ c main_arg7 (by decide)]))

theorem kf_main_v59 (c : Dev nD) :
    W44 m ρ c (Proc.devRef .tc main_v59) = (shapeCast S1x64 (shapeCast S64 ((((extractStridedSlice S1x64 ![0, 0] · slices_S4x64_S1x64_0_0) : (⟨S4x64, .f32⟩ : BufTy).Contents (Elt F) → (⟨S1x64, .f32⟩ : BufTy).Contents (Elt F))) (W44 m ρ c (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) :=
  (late11 m ρ c main_v59 (by decide)).trans ((kv_main_v59 (W10 m ρ c)).trans (by rw [late10 m ρ c main_arg8 (by decide)]))

theorem kf_main_v60 (c : Dev nD) :
    W44 m ρ c (Proc.devRef .tc main_v60) = (shapeCast S1x64 (W44 m ρ c (Proc.devRef .tc main_v45) : (⟨S64, .f32⟩ : BufTy).Contents (Elt F)) shapeCasts_S64_S1x64 : (⟨S1x64, .f32⟩ : BufTy).Contents (Elt F)) :=
  (late11 m ρ c main_v60 (by decide)).trans ((kv_main_v60 (W10 m ρ c)).trans (by rw [late10 m ρ c main_v45 (by decide)]))

theorem kf_main_v61 (c : Dev nD) :
    W44 m ρ c (Proc.devRef .tc main_v61) = (dat1 (V11 m ρ) c).arrAt 7 cfg1.N :=
  (late12 m ρ c main_v61 (by decide)).trans (W12_arr m ρ c 7)
/-- What region 1 finds in a buffer is what the buffer holds at the last boundary, for a buffer no later stretch or region writes. -/
theorem entry1 (c : Dev nD) (r : Ref sig .tc) (h : r ∉ (Late11 : List (Ref sig .tc))) :
    V11 m ρ c r = W44 m ρ c (Proc.devRef .tc r) := (late11 m ρ c r h).symm

theorem kf_main_v74 (c : Dev nD) :
    W44 m ρ c (Proc.devRef .tc main_v74) = ((((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))) (((broadcastInDim S100000x64 ![] bcast_S_S100000x64 : (⟨S_, .f32⟩ : BufTy).Contents (Elt F) → (⟨S100000x64, .f32⟩ : BufTy).Contents (Elt F))) ((constant S_ .f32 0x00000000#32) : (⟨S_, .f32⟩ : BufTy).Contents (Elt F)) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (W44 m ρ c (Proc.devRef .tc main_v6) : (⟨S1700000, .i32⟩ : BufTy).Contents (Elt F)) : (⟨S1700000x1, .i32⟩ : BufTy).Contents (Elt F)) (((mulf : (⟨S1700000x64, .f32⟩ : BufTy).Contents (Elt F) → (⟨S1700000x64, .f32⟩ : BufTy).Contents (Elt F) → (⟨S1700000x64, .f32⟩ : BufTy).Contents (Elt F))) (((broadcastInDim S1700000x64 ![0, 1] bcast_S1700000x1_S1700000x64_0_1 : (⟨S1700000x1, .f32⟩ : BufTy).Contents (Elt F) → (⟨S1700000x64, .f32⟩ : BufTy).Contents (Elt F))) (((broadcastInDim S1700000x1 ![0] bcast_S1700000_S1700000x1_0 : (⟨S1700000, .f32⟩ : BufTy).Contents (Elt F) → (⟨S1700000x1, .f32⟩ : BufTy).Contents (Elt F))) (W44 m ρ c (Proc.devRef .tc main_v34) : (⟨S1700000, .f32⟩ : BufTy).Contents (Elt F)) : (⟨S1700000x1, .f32⟩ : BufTy).Contents (Elt F)) : (⟨S1700000x64, .f32⟩ : BufTy).Contents (Elt F)) ((((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))) (W44 m ρ c (Proc.devRef .tc main_v61) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (W44 m ρ c (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (W44 m ρ c (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (W44 m ρ c (Proc.devRef .tc main_v3) : (⟨S1700000, .i32⟩ : BufTy).Contents (Elt F)) : (⟨S1700000, .i32⟩ : BufTy).Contents (Elt F)) : (⟨S1700000x1, .i32⟩ : BufTy).Contents (Elt F)) : (⟨S1700000x64, .f32⟩ : BufTy).Contents (Elt F)) : (⟨S1700000x64, .f32⟩ : BufTy).Contents (Elt F)) : (⟨S100000x64, .f32⟩ : BufTy).Contents (Elt F)) :=
  (late13 m ρ c main_v74 (by decide)).trans ((kv_main_v74 (W12 m ρ c)).trans (by rw [late12 m ρ c main_v3 (by decide), late12 m ρ c main_v34 (by decide), late12 m ρ c main_v6 (by decide), late12 m ρ c main_v61 (by decide)]))

theorem kf_main_v76 (c : Dev nD) :
    W44 m ρ c (Proc.devRef .tc main_v76) = (shapeCast S64 ((((extractStridedSlice S1x64 ![0, 0] · slices_S4x64_S1x64_0_0) : (⟨S4x64, .f32⟩ : BufTy).Contents (Elt F) → (⟨S1x64, .f32⟩ : BufTy).Contents (Elt F))) (W44 m ρ c (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) :=
  (late13 m ρ c main_v76 (by decide)).trans ((kv_main_v76 (W12 m ρ c)).trans (by rw [late12 m ρ c main_arg10 (by decide)]))

theorem kf_main_v77 (c : Dev nD) :
    W44 m ρ c (Proc.devRef .tc main_v77) = (shapeCast S1x64 (shapeCast S64 ((((extractStridedSlice S1x64 ![0, 0] · slices_S4x64_S1x64_0_0) : (⟨S4x64, .f32⟩ : BufTy).Contents (Elt F) → (⟨S1x64, .f32⟩ : BufTy).Contents (Elt F))) (W44 m ρ c (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) :=
  (late13 m ρ c main_v77 (by decide)).trans ((kv_main_v77 (W12 m ρ c)).trans (by rw [late12 m ρ c main_arg10 (by decide)]))

theorem kf_main_v78 (c : Dev nD) :
    W44 m ρ c (Proc.devRef .tc main_v78) = (dat2 (V13 m ρ) c).arrAt 3 cfg2.N :=
  (late14 m ρ c main_v78 (by decide)).trans (W14_arr m ρ c 3)
/-- What region 2 finds in a buffer is what the buffer holds at the last boundary, for a buffer no later stretch or region writes. -/
theorem entry2 (c : Dev nD) (r : Ref sig .tc) (h : r ∉ (Late13 : List (Ref sig .tc))) :
    V13 m ρ c r = W44 m ρ c (Proc.devRef .tc r) := (late13 m ρ c r h).symm

theorem kf_main_v81 (c : Dev nD) :
    W44 m ρ c (Proc.devRef .tc main_v81) = (((Host.divf : (⟨S64, .f32⟩ : BufTy).Contents (Elt F) → (⟨S64, .f32⟩ : BufTy).Contents (Elt F) → (⟨S64, .f32⟩ : BufTy).Contents (Elt F))) ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (W44 m ρ c (Proc.devRef .tc main_v78) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x47C35000#32) : (⟨S_, .f32⟩ : BufTy).Contents (Elt F)) : (⟨S64, .f32⟩ : BufTy).Contents (Elt F)) : (⟨S64, .f32⟩ : BufTy).Contents (Elt F)) :=
  (late15 m ρ c main_v81 (by decide)).trans ((kv_main_v81 (W14 m ρ c)).trans (by rw [late14 m ρ c main_v78 (by decide)]))

theorem kf_main_c_21 (c : Dev nD) :
    W44 m ρ c (Proc.devRef .tc main_c_21) = ((constantI S_ 32 0#32) : (⟨S_, .i32⟩ : BufTy).Contents (Elt F)) :=
  (late15 m ρ c main_c_21 (by decide)).trans ((kv_main_c_21 (W14 m ρ c)).trans (rfl))

theorem kf_main_v82 (c : Dev nD) :
    W44 m ρ c (Proc.devRef .tc main_v82) = (((fun p a b => select (broadcastInDim S64 ![] bcast_S_S64 p) a b)) (((cmpf .ogt)) ((subf) ((constant S_ .f32 0x47C35000#32) : (⟨S_, .f32⟩ : BufTy).Contents (Elt F)) (((sitofp .f32)) (W44 m ρ c (Proc.devRef .tc main_c_21) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (W44 m ρ c (Proc.devRef .tc main_v78) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (W44 m ρ c (Proc.devRef .tc main_v78) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (W44 m ρ c (Proc.devRef .tc main_v78) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (W44 m ρ c (Proc.devRef .tc main_v78) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) (W44 m ρ c (Proc.devRef .tc main_c_21) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) :=
  (late16 m ρ c main_v82 (by decide)).trans ((kv_main_v82 (W15 m ρ c)).trans (by rw [late15 m ρ c main_c_21 (by decide), late15 m ρ c main_v78 (by decide)]))

theorem kf_main_v84 (c : Dev nD) :
    W44 m ρ c (Proc.devRef .tc main_v84) = (shapeCast S64 ((((extractStridedSlice S1x64 ![1, 0] · slices_S4x64_S1x64_1_0) : (⟨S4x64, .f32⟩ : BufTy).Contents (Elt F) → (⟨S1x64, .f32⟩ : BufTy).Contents (Elt F))) (W44 m ρ c (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) :=
  (late17 m ρ c main_v84 (by decide)).trans ((kv_main_v84 (W16 m ρ c)).trans (by rw [late16 m ρ c main_arg7 (by decide)]))

theorem kf_main_v86 (c : Dev nD) :
    W44 m ρ c (Proc.devRef .tc main_v86) = (shapeCast S64 ((((extractStridedSlice S1x64 ![1, 0] · slices_S4x64_S1x64_1_0) : (⟨S4x64, .f32⟩ : BufTy).Contents (Elt F) → (⟨S1x64, .f32⟩ : BufTy).Contents (Elt F))) (W44 m ρ c (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) :=
  (late17 m ρ c main_v86 (by decide)).trans ((kv_main_v86 (W16 m ρ c)).trans (by rw [late16 m ρ c main_arg8 (by decide)]))

theorem kf_main_v87 (c : Dev nD) :
    W44 m ρ c (Proc.devRef .tc main_v87) = ((((extractStridedSlice S1x64x64 ![1, 0, 0] · slices_S4x64x64_S1x64x64_1_0_0) : (⟨S4x64x64, .f32⟩ : BufTy).Contents (Elt F) → (⟨S1x64x64, .f32⟩ : BufTy).Contents (Elt F))) (W44 m ρ c (Proc.devRef .tc main_arg9) : (⟨S4x64x64, .f32⟩ : BufTy).Contents (Elt F)) : (⟨S1x64x64, .f32⟩ : BufTy).Contents (Elt F)) :=
  (late17 m ρ c main_v87 (by decide)).trans ((kv_main_v87 (W16 m ρ c)).trans (by rw [late16 m ρ c main_arg9 (by decide)]))

theorem kf_main_v88 (c : Dev nD) :
    W44 m ρ c (Proc.devRef .tc main_v88) = (shapeCast S64x64 ((((extractStridedSlice S1x64x64 ![1, 0, 0] · slices_S4x64x64_S1x64x64_1_0_0) : (⟨S4x64x64, .f32⟩ : BufTy).Contents (Elt F) → (⟨S1x64x64, .f32⟩ : BufTy).Contents (Elt F))) (W44 m ρ c (Proc.devRef .tc main_arg9) : (⟨S4x64x64, .f32⟩ : BufTy).Contents (Elt F)) : (⟨S1x64x64, .f32⟩ : BufTy).Contents (Elt F)) shapeCasts_S1x64x64_S64x64 : (⟨S64x64, .f32⟩ : BufTy).Contents (Elt F)) :=
  (late17 m ρ c main_v88 (by decide)).trans ((kv_main_v88 (W16 m ρ c)).trans (by rw [late16 m ρ c main_arg9 (by decide)]))

theorem kf_main_v89 (c : Dev nD) :
    W44 m ρ c (Proc.devRef .tc main_v89) = (shapeCast S1x64 (W44 m ρ c (Proc.devRef .tc main_v81) : (⟨S64, .f32⟩ : BufTy).Contents (Elt F)) shapeCasts_S64_S1x64 : (⟨S1x64, .f32⟩ : BufTy).Contents (Elt F)) :=
  (late17 m ρ c main_v89 (by decide)).trans ((kv_main_v89 (W16 m ρ c)).trans (by rw [late16 m ρ c main_v81 (by decide)]))

theorem kf_main_v90 (c : Dev nD) :
    W44 m ρ c (Proc.devRef .tc main_v90) = (shapeCast S1x64 (W44 m ρ c (Proc.devRef .tc main_v82) : (⟨S64, .f32⟩ : BufTy).Contents (Elt F)) shapeCasts_S64_S1x64 : (⟨S1x64, .f32⟩ : BufTy).Contents (Elt F)) :=
  (late17 m ρ c main_v90 (by decide)).trans ((kv_main_v90 (W16 m ρ c)).trans (by rw [late16 m ρ c main_v82 (by decide)]))

theorem kf_main_v91 (c : Dev nD) :
    W44 m ρ c (Proc.devRef .tc main_v91) = (shapeCast S1x64 (shapeCast S64 ((((extractStridedSlice S1x64 ![1, 0] · slices_S4x64_S1x64_1_0) : (⟨S4x64, .f32⟩ : BufTy).Contents (Elt F) → (⟨S1x64, .f32⟩ : BufTy).Contents (Elt F))) (W44 m ρ c (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) :=
  (late17 m ρ c main_v91 (by decide)).trans ((kv_main_v91 (W16 m ρ c)).trans (by rw [late16 m ρ c main_arg7 (by decide)]))

theorem kf_main_v92 (c : Dev nD) :
    W44 m ρ c (Proc.devRef .tc main_v92) = (shapeCast S1x64 (shapeCast S64 ((((extractStridedSlice S1x64 ![1, 0] · slices_S4x64_S1x64_1_0) : (⟨S4x64, .f32⟩ : BufTy).Contents (Elt F) → (⟨S1x64, .f32⟩ : BufTy).Contents (Elt F))) (W44 m ρ c (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) :=
  (late17 m ρ c main_v92 (by decide)).trans ((kv_main_v92 (W16 m ρ c)).trans (by rw [late16 m ρ c main_arg8 (by decide)]))

theorem kf_main_v93 (c : Dev nD) :
    W44 m ρ c (Proc.devRef .tc main_v93) = (shapeCast S1x64 (W44 m ρ c (Proc.devRef .tc main_v45) : (⟨S64, .f32⟩ : BufTy).Contents (Elt F)) shapeCasts_S64_S1x64 : (⟨S1x64, .f32⟩ : BufTy).Contents (Elt F)) :=
  (late17 m ρ c main_v93 (by decide)).trans ((kv_main_v93 (W16 m ρ c)).trans (by rw [late16 m ρ c main_v45 (by decide)]))

theorem kf_main_v94 (c : Dev nD) :
    W44 m ρ c (Proc.devRef .tc main_v94) = (dat3 (V17 m ρ) c).arrAt 7 cfg3.N :=
  (late18 m ρ c main_v94 (by decide)).trans (W18_arr m ρ c 7)
/-- What region 3 finds in a buffer is what the buffer holds at the last boundary, for a buffer no later stretch or region writes. -/
theorem entry3 (c : Dev nD) (r : Ref sig .tc) (h : r ∉ (Late17 : List (Ref sig .tc))) :
    V17 m ρ c r = W44 m ρ c (Proc.devRef .tc r) := (late17 m ρ c r h).symm

theorem kf_main_v107 (c : Dev nD) :
    W44 m ρ c (Proc.devRef .tc main_v107) = ((((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))) (((broadcastInDim S100000x64 ![] bcast_S_S100000x64 : (⟨S_, .f32⟩ : BufTy).Contents (Elt F) → (⟨S100000x64, .f32⟩ : BufTy).Contents (Elt F))) ((constant S_ .f32 0x00000000#32) : (⟨S_, .f32⟩ : BufTy).Contents (Elt F)) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (W44 m ρ c (Proc.devRef .tc main_v6) : (⟨S1700000, .i32⟩ : BufTy).Contents (Elt F)) : (⟨S1700000x1, .i32⟩ : BufTy).Contents (Elt F)) (((mulf : (⟨S1700000x64, .f32⟩ : BufTy).Contents (Elt F) → (⟨S1700000x64, .f32⟩ : BufTy).Contents (Elt F) → (⟨S1700000x64, .f32⟩ : BufTy).Contents (Elt F))) (((broadcastInDim S1700000x64 ![0, 1] bcast_S1700000x1_S1700000x64_0_1 : (⟨S1700000x1, .f32⟩ : BufTy).Contents (Elt F) → (⟨S1700000x64, .f32⟩ : BufTy).Contents (Elt F))) (((broadcastInDim S1700000x1 ![0] bcast_S1700000_S1700000x1_0 : (⟨S1700000, .f32⟩ : BufTy).Contents (Elt F) → (⟨S1700000x1, .f32⟩ : BufTy).Contents (Elt F))) (W44 m ρ c (Proc.devRef .tc main_v34) : (⟨S1700000, .f32⟩ : BufTy).Contents (Elt F)) : (⟨S1700000x1, .f32⟩ : BufTy).Contents (Elt F)) : (⟨S1700000x64, .f32⟩ : BufTy).Contents (Elt F)) ((((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))) (W44 m ρ c (Proc.devRef .tc main_v94) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (W44 m ρ c (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (W44 m ρ c (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (W44 m ρ c (Proc.devRef .tc main_v3) : (⟨S1700000, .i32⟩ : BufTy).Contents (Elt F)) : (⟨S1700000, .i32⟩ : BufTy).Contents (Elt F)) : (⟨S1700000x1, .i32⟩ : BufTy).Contents (Elt F)) : (⟨S1700000x64, .f32⟩ : BufTy).Contents (Elt F)) : (⟨S1700000x64, .f32⟩ : BufTy).Contents (Elt F)) : (⟨S100000x64, .f32⟩ : BufTy).Contents (Elt F)) :=
  (late19 m ρ c main_v107 (by decide)).trans ((kv_main_v107 (W18 m ρ c)).trans (by rw [late18 m ρ c main_v3 (by decide), late18 m ρ c main_v34 (by decide), late18 m ρ c main_v6 (by decide), late18 m ρ c main_v94 (by decide)]))

theorem kf_main_v109 (c : Dev nD) :
    W44 m ρ c (Proc.devRef .tc main_v109) = (shapeCast S64 ((((extractStridedSlice S1x64 ![1, 0] · slices_S4x64_S1x64_1_0) : (⟨S4x64, .f32⟩ : BufTy).Contents (Elt F) → (⟨S1x64, .f32⟩ : BufTy).Contents (Elt F))) (W44 m ρ c (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) :=
  (late19 m ρ c main_v109 (by decide)).trans ((kv_main_v109 (W18 m ρ c)).trans (by rw [late18 m ρ c main_arg10 (by decide)]))

theorem kf_main_v110 (c : Dev nD) :
    W44 m ρ c (Proc.devRef .tc main_v110) = (shapeCast S1x64 (shapeCast S64 ((((extractStridedSlice S1x64 ![1, 0] · slices_S4x64_S1x64_1_0) : (⟨S4x64, .f32⟩ : BufTy).Contents (Elt F) → (⟨S1x64, .f32⟩ : BufTy).Contents (Elt F))) (W44 m ρ c (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) :=
  (late19 m ρ c main_v110 (by decide)).trans ((kv_main_v110 (W18 m ρ c)).trans (by rw [late18 m ρ c main_arg10 (by decide)]))

theorem kf_main_v111 (c : Dev nD) :
    W44 m ρ c (Proc.devRef .tc main_v111) = (dat4 (V19 m ρ) c).arrAt 3 cfg4.N :=
  (late20 m ρ c main_v111 (by decide)).trans (W20_arr m ρ c 3)
/-- What region 4 finds in a buffer is what the buffer holds at the last boundary, for a buffer no later stretch or region writes. -/
theorem entry4 (c : Dev nD) (r : Ref sig .tc) (h : r ∉ (Late19 : List (Ref sig .tc))) :
    V19 m ρ c r = W44 m ρ c (Proc.devRef .tc r) := (late19 m ρ c r h).symm

theorem kf_main_v114 (c : Dev nD) :
    W44 m ρ c (Proc.devRef .tc main_v114) = (((Host.divf : (⟨S64, .f32⟩ : BufTy).Contents (Elt F) → (⟨S64, .f32⟩ : BufTy).Contents (Elt F) → (⟨S64, .f32⟩ : BufTy).Contents (Elt F))) ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (W44 m ρ c (Proc.devRef .tc main_v111) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x47C35000#32) : (⟨S_, .f32⟩ : BufTy).Contents (Elt F)) : (⟨S64, .f32⟩ : BufTy).Contents (Elt F)) : (⟨S64, .f32⟩ : BufTy).Contents (Elt F)) :=
  (late21 m ρ c main_v114 (by decide)).trans ((kv_main_v114 (W20 m ρ c)).trans (by rw [late20 m ρ c main_v111 (by decide)]))

theorem kf_main_c_27 (c : Dev nD) :
    W44 m ρ c (Proc.devRef .tc main_c_27) = ((constantI S_ 32 0#32) : (⟨S_, .i32⟩ : BufTy).Contents (Elt F)) :=
  (late21 m ρ c main_c_27 (by decide)).trans ((kv_main_c_27 (W20 m ρ c)).trans (rfl))

theorem kf_main_v115 (c : Dev nD) :
    W44 m ρ c (Proc.devRef .tc main_v115) = (((fun p a b => select (broadcastInDim S64 ![] bcast_S_S64 p) a b)) (((cmpf .ogt)) ((subf) ((constant S_ .f32 0x47C35000#32) : (⟨S_, .f32⟩ : BufTy).Contents (Elt F)) (((sitofp .f32)) (W44 m ρ c (Proc.devRef .tc main_c_27) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (W44 m ρ c (Proc.devRef .tc main_v111) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (W44 m ρ c (Proc.devRef .tc main_v111) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (W44 m ρ c (Proc.devRef .tc main_v111) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (W44 m ρ c (Proc.devRef .tc main_v111) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) (W44 m ρ c (Proc.devRef .tc main_c_27) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) :=
  (late22 m ρ c main_v115 (by decide)).trans ((kv_main_v115 (W21 m ρ c)).trans (by rw [late21 m ρ c main_c_27 (by decide), late21 m ρ c main_v111 (by decide)]))

theorem kf_main_v117 (c : Dev nD) :
    W44 m ρ c (Proc.devRef .tc main_v117) = (shapeCast S64 ((((extractStridedSlice S1x64 ![2, 0] · slices_S4x64_S1x64_2_0) : (⟨S4x64, .f32⟩ : BufTy).Contents (Elt F) → (⟨S1x64, .f32⟩ : BufTy).Contents (Elt F))) (W44 m ρ c (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) :=
  (late23 m ρ c main_v117 (by decide)).trans ((kv_main_v117 (W22 m ρ c)).trans (by rw [late22 m ρ c main_arg7 (by decide)]))

theorem kf_main_v119 (c : Dev nD) :
    W44 m ρ c (Proc.devRef .tc main_v119) = (shapeCast S64 ((((extractStridedSlice S1x64 ![2, 0] · slices_S4x64_S1x64_2_0) : (⟨S4x64, .f32⟩ : BufTy).Contents (Elt F) → (⟨S1x64, .f32⟩ : BufTy).Contents (Elt F))) (W44 m ρ c (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) :=
  (late23 m ρ c main_v119 (by decide)).trans ((kv_main_v119 (W22 m ρ c)).trans (by rw [late22 m ρ c main_arg8 (by decide)]))

theorem kf_main_v120 (c : Dev nD) :
    W44 m ρ c (Proc.devRef .tc main_v120) = ((((extractStridedSlice S1x64x64 ![2, 0, 0] · slices_S4x64x64_S1x64x64_2_0_0) : (⟨S4x64x64, .f32⟩ : BufTy).Contents (Elt F) → (⟨S1x64x64, .f32⟩ : BufTy).Contents (Elt F))) (W44 m ρ c (Proc.devRef .tc main_arg9) : (⟨S4x64x64, .f32⟩ : BufTy).Contents (Elt F)) : (⟨S1x64x64, .f32⟩ : BufTy).Contents (Elt F)) :=
  (late23 m ρ c main_v120 (by decide)).trans ((kv_main_v120 (W22 m ρ c)).trans (by rw [late22 m ρ c main_arg9 (by decide)]))

theorem kf_main_v121 (c : Dev nD) :
    W44 m ρ c (Proc.devRef .tc main_v121) = (shapeCast S64x64 ((((extractStridedSlice S1x64x64 ![2, 0, 0] · slices_S4x64x64_S1x64x64_2_0_0) : (⟨S4x64x64, .f32⟩ : BufTy).Contents (Elt F) → (⟨S1x64x64, .f32⟩ : BufTy).Contents (Elt F))) (W44 m ρ c (Proc.devRef .tc main_arg9) : (⟨S4x64x64, .f32⟩ : BufTy).Contents (Elt F)) : (⟨S1x64x64, .f32⟩ : BufTy).Contents (Elt F)) shapeCasts_S1x64x64_S64x64 : (⟨S64x64, .f32⟩ : BufTy).Contents (Elt F)) :=
  (late23 m ρ c main_v121 (by decide)).trans ((kv_main_v121 (W22 m ρ c)).trans (by rw [late22 m ρ c main_arg9 (by decide)]))

theorem kf_main_v122 (c : Dev nD) :
    W44 m ρ c (Proc.devRef .tc main_v122) = (shapeCast S1x64 (W44 m ρ c (Proc.devRef .tc main_v114) : (⟨S64, .f32⟩ : BufTy).Contents (Elt F)) shapeCasts_S64_S1x64 : (⟨S1x64, .f32⟩ : BufTy).Contents (Elt F)) :=
  (late23 m ρ c main_v122 (by decide)).trans ((kv_main_v122 (W22 m ρ c)).trans (by rw [late22 m ρ c main_v114 (by decide)]))

theorem kf_main_v123 (c : Dev nD) :
    W44 m ρ c (Proc.devRef .tc main_v123) = (shapeCast S1x64 (W44 m ρ c (Proc.devRef .tc main_v115) : (⟨S64, .f32⟩ : BufTy).Contents (Elt F)) shapeCasts_S64_S1x64 : (⟨S1x64, .f32⟩ : BufTy).Contents (Elt F)) :=
  (late23 m ρ c main_v123 (by decide)).trans ((kv_main_v123 (W22 m ρ c)).trans (by rw [late22 m ρ c main_v115 (by decide)]))

theorem kf_main_v124 (c : Dev nD) :
    W44 m ρ c (Proc.devRef .tc main_v124) = (shapeCast S1x64 (shapeCast S64 ((((extractStridedSlice S1x64 ![2, 0] · slices_S4x64_S1x64_2_0) : (⟨S4x64, .f32⟩ : BufTy).Contents (Elt F) → (⟨S1x64, .f32⟩ : BufTy).Contents (Elt F))) (W44 m ρ c (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) :=
  (late23 m ρ c main_v124 (by decide)).trans ((kv_main_v124 (W22 m ρ c)).trans (by rw [late22 m ρ c main_arg7 (by decide)]))

theorem kf_main_v125 (c : Dev nD) :
    W44 m ρ c (Proc.devRef .tc main_v125) = (shapeCast S1x64 (shapeCast S64 ((((extractStridedSlice S1x64 ![2, 0] · slices_S4x64_S1x64_2_0) : (⟨S4x64, .f32⟩ : BufTy).Contents (Elt F) → (⟨S1x64, .f32⟩ : BufTy).Contents (Elt F))) (W44 m ρ c (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) :=
  (late23 m ρ c main_v125 (by decide)).trans ((kv_main_v125 (W22 m ρ c)).trans (by rw [late22 m ρ c main_arg8 (by decide)]))

theorem kf_main_v126 (c : Dev nD) :
    W44 m ρ c (Proc.devRef .tc main_v126) = (shapeCast S1x64 (W44 m ρ c (Proc.devRef .tc main_v45) : (⟨S64, .f32⟩ : BufTy).Contents (Elt F)) shapeCasts_S64_S1x64 : (⟨S1x64, .f32⟩ : BufTy).Contents (Elt F)) :=
  (late23 m ρ c main_v126 (by decide)).trans ((kv_main_v126 (W22 m ρ c)).trans (by rw [late22 m ρ c main_v45 (by decide)]))

theorem kf_main_v127 (c : Dev nD) :
    W44 m ρ c (Proc.devRef .tc main_v127) = (dat5 (V23 m ρ) c).arrAt 7 cfg5.N :=
  (late24 m ρ c main_v127 (by decide)).trans (W24_arr m ρ c 7)
/-- What region 5 finds in a buffer is what the buffer holds at the last boundary, for a buffer no later stretch or region writes. -/
theorem entry5 (c : Dev nD) (r : Ref sig .tc) (h : r ∉ (Late23 : List (Ref sig .tc))) :
    V23 m ρ c r = W44 m ρ c (Proc.devRef .tc r) := (late23 m ρ c r h).symm

theorem kf_main_v140 (c : Dev nD) :
    W44 m ρ c (Proc.devRef .tc main_v140) = ((((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))) (((broadcastInDim S100000x64 ![] bcast_S_S100000x64 : (⟨S_, .f32⟩ : BufTy).Contents (Elt F) → (⟨S100000x64, .f32⟩ : BufTy).Contents (Elt F))) ((constant S_ .f32 0x00000000#32) : (⟨S_, .f32⟩ : BufTy).Contents (Elt F)) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (W44 m ρ c (Proc.devRef .tc main_v6) : (⟨S1700000, .i32⟩ : BufTy).Contents (Elt F)) : (⟨S1700000x1, .i32⟩ : BufTy).Contents (Elt F)) (((mulf : (⟨S1700000x64, .f32⟩ : BufTy).Contents (Elt F) → (⟨S1700000x64, .f32⟩ : BufTy).Contents (Elt F) → (⟨S1700000x64, .f32⟩ : BufTy).Contents (Elt F))) (((broadcastInDim S1700000x64 ![0, 1] bcast_S1700000x1_S1700000x64_0_1 : (⟨S1700000x1, .f32⟩ : BufTy).Contents (Elt F) → (⟨S1700000x64, .f32⟩ : BufTy).Contents (Elt F))) (((broadcastInDim S1700000x1 ![0] bcast_S1700000_S1700000x1_0 : (⟨S1700000, .f32⟩ : BufTy).Contents (Elt F) → (⟨S1700000x1, .f32⟩ : BufTy).Contents (Elt F))) (W44 m ρ c (Proc.devRef .tc main_v34) : (⟨S1700000, .f32⟩ : BufTy).Contents (Elt F)) : (⟨S1700000x1, .f32⟩ : BufTy).Contents (Elt F)) : (⟨S1700000x64, .f32⟩ : BufTy).Contents (Elt F)) ((((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))) (W44 m ρ c (Proc.devRef .tc main_v127) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (W44 m ρ c (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (W44 m ρ c (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (W44 m ρ c (Proc.devRef .tc main_v3) : (⟨S1700000, .i32⟩ : BufTy).Contents (Elt F)) : (⟨S1700000, .i32⟩ : BufTy).Contents (Elt F)) : (⟨S1700000x1, .i32⟩ : BufTy).Contents (Elt F)) : (⟨S1700000x64, .f32⟩ : BufTy).Contents (Elt F)) : (⟨S1700000x64, .f32⟩ : BufTy).Contents (Elt F)) : (⟨S100000x64, .f32⟩ : BufTy).Contents (Elt F)) :=
  (late25 m ρ c main_v140 (by decide)).trans ((kv_main_v140 (W24 m ρ c)).trans (by rw [late24 m ρ c main_v127 (by decide), late24 m ρ c main_v3 (by decide), late24 m ρ c main_v34 (by decide), late24 m ρ c main_v6 (by decide)]))

theorem kf_main_v142 (c : Dev nD) :
    W44 m ρ c (Proc.devRef .tc main_v142) = (shapeCast S64 ((((extractStridedSlice S1x64 ![2, 0] · slices_S4x64_S1x64_2_0) : (⟨S4x64, .f32⟩ : BufTy).Contents (Elt F) → (⟨S1x64, .f32⟩ : BufTy).Contents (Elt F))) (W44 m ρ c (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) :=
  (late25 m ρ c main_v142 (by decide)).trans ((kv_main_v142 (W24 m ρ c)).trans (by rw [late24 m ρ c main_arg10 (by decide)]))

theorem kf_main_v143 (c : Dev nD) :
    W44 m ρ c (Proc.devRef .tc main_v143) = (shapeCast S1x64 (shapeCast S64 ((((extractStridedSlice S1x64 ![2, 0] · slices_S4x64_S1x64_2_0) : (⟨S4x64, .f32⟩ : BufTy).Contents (Elt F) → (⟨S1x64, .f32⟩ : BufTy).Contents (Elt F))) (W44 m ρ c (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) :=
  (late25 m ρ c main_v143 (by decide)).trans ((kv_main_v143 (W24 m ρ c)).trans (by rw [late24 m ρ c main_arg10 (by decide)]))

theorem kf_main_v144 (c : Dev nD) :
    W44 m ρ c (Proc.devRef .tc main_v144) = (dat6 (V25 m ρ) c).arrAt 3 cfg6.N :=
  (late26 m ρ c main_v144 (by decide)).trans (W26_arr m ρ c 3)
/-- What region 6 finds in a buffer is what the buffer holds at the last boundary, for a buffer no later stretch or region writes. -/
theorem entry6 (c : Dev nD) (r : Ref sig .tc) (h : r ∉ (Late25 : List (Ref sig .tc))) :
    V25 m ρ c r = W44 m ρ c (Proc.devRef .tc r) := (late25 m ρ c r h).symm

theorem kf_main_v147 (c : Dev nD) :
    W44 m ρ c (Proc.devRef .tc main_v147) = (((Host.divf : (⟨S64, .f32⟩ : BufTy).Contents (Elt F) → (⟨S64, .f32⟩ : BufTy).Contents (Elt F) → (⟨S64, .f32⟩ : BufTy).Contents (Elt F))) ((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) (W44 m ρ c (Proc.devRef .tc main_v144) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x47C35000#32) : (⟨S_, .f32⟩ : BufTy).Contents (Elt F)) : (⟨S64, .f32⟩ : BufTy).Contents (Elt F)) : (⟨S64, .f32⟩ : BufTy).Contents (Elt F)) :=
  (late27 m ρ c main_v147 (by decide)).trans ((kv_main_v147 (W26 m ρ c)).trans (by rw [late26 m ρ c main_v144 (by decide)]))

theorem kf_main_c_33 (c : Dev nD) :
    W44 m ρ c (Proc.devRef .tc main_c_33) = ((constantI S_ 32 0#32) : (⟨S_, .i32⟩ : BufTy).Contents (Elt F)) :=
  (late27 m ρ c main_c_33 (by decide)).trans ((kv_main_c_33 (W26 m ρ c)).trans (rfl))

theorem kf_main_v148 (c : Dev nD) :
    W44 m ρ c (Proc.devRef .tc main_v148) = (((fun p a b => select (broadcastInDim S64 ![] bcast_S_S64 p) a b)) (((cmpf .ogt)) ((subf) ((constant S_ .f32 0x47C35000#32) : (⟨S_, .f32⟩ : BufTy).Contents (Elt F)) (((sitofp .f32)) (W44 m ρ c (Proc.devRef .tc main_c_33) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S100000x64_S64_d0 h_S_)) ((mulf) ((subf) (W44 m ρ c (Proc.devRef .tc main_v144) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (W44 m ρ c (Proc.devRef .tc main_v144) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((subf) (W44 m ρ c (Proc.devRef .tc main_v144) : (⟨S100000x64, .f32⟩ : BufTy).Contents (Elt F)) (((broadcastInDim S100000x64 ![0, 1] bcast_S1x64_S100000x64_0_1)) ((Host.divf) (((broadcastInDim S1x64 ![1] bcast_S64_S1x64_1)) (((fun x v => Host.reduceAdd x v reducesTo_S100000x64_S64_d0 h_S_)) (W44 m ρ c (Proc.devRef .tc main_v144) : (⟨S100000x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x47C35000#32) : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x47C35000#32) : (⟨S_, .f32⟩ : BufTy).Contents (Elt F)) (((sitofp .f32)) (W44 m ρ c (Proc.devRef .tc main_c_33) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) :=
  (late28 m ρ c main_v148 (by decide)).trans ((kv_main_v148 (W27 m ρ c)).trans (by rw [late27 m ρ c main_c_33 (by decide), late27 m ρ c main_v144 (by decide)]))

theorem kf_main_v150 (c : Dev nD) :
    W44 m ρ c (Proc.devRef .tc main_v150) = (shapeCast S64 ((((extractStridedSlice S1x64 ![3, 0] · slices_S4x64_S1x64_3_0) : (⟨S4x64, .f32⟩ : BufTy).Contents (Elt F) → (⟨S1x64, .f32⟩ : BufTy).Contents (Elt F))) (W44 m ρ c (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) :=
  (late29 m ρ c main_v150 (by decide)).trans ((kv_main_v150 (W28 m ρ c)).trans (by rw [late28 m ρ c main_arg7 (by decide)]))

theorem kf_main_v152 (c : Dev nD) :
    W44 m ρ c (Proc.devRef .tc main_v152) = (shapeCast S64 ((((extractStridedSlice S1x64 ![3, 0] · slices_S4x64_S1x64_3_0) : (⟨S4x64, .f32⟩ : BufTy).Contents (Elt F) → (⟨S1x64, .f32⟩ : BufTy).Contents (Elt F))) (W44 m ρ c (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) :=
  (late29 m ρ c main_v152 (by decide)).trans ((kv_main_v152 (W28 m ρ c)).trans (by rw [late28 m ρ c main_arg8 (by decide)]))

theorem kf_main_v153 (c : Dev nD) :
    W44 m ρ c (Proc.devRef .tc main_v153) = ((((extractStridedSlice S1x64x64 ![3, 0, 0] · slices_S4x64x64_S1x64x64_3_0_0) : (⟨S4x64x64, .f32⟩ : BufTy).Contents (Elt F) → (⟨S1x64x64, .f32⟩ : BufTy).Contents (Elt F))) (W44 m ρ c (Proc.devRef .tc main_arg9) : (⟨S4x64x64, .f32⟩ : BufTy).Contents (Elt F)) : (⟨S1x64x64, .f32⟩ : BufTy).Contents (Elt F)) :=
  (late29 m ρ c main_v153 (by decide)).trans ((kv_main_v153 (W28 m ρ c)).trans (by rw [late28 m ρ c main_arg9 (by decide)]))

theorem kf_main_v154 (c : Dev nD) :
    W44 m ρ c (Proc.devRef .tc main_v154) = (shapeCast S64x64 ((((extractStridedSlice S1x64x64 ![3, 0, 0] · slices_S4x64x64_S1x64x64_3_0_0) : (⟨S4x64x64, .f32⟩ : BufTy).Contents (Elt F) → (⟨S1x64x64, .f32⟩ : BufTy).Contents (Elt F))) (W44 m ρ c (Proc.devRef .tc main_arg9) : (⟨S4x64x64, .f32⟩ : BufTy).Contents (Elt F)) : (⟨S1x64x64, .f32⟩ : BufTy).Contents (Elt F)) shapeCasts_S1x64x64_S64x64 : (⟨S64x64, .f32⟩ : BufTy).Contents (Elt F)) :=
  (late29 m ρ c main_v154 (by decide)).trans ((kv_main_v154 (W28 m ρ c)).trans (by rw [late28 m ρ c main_arg9 (by decide)]))

theorem kf_main_v155 (c : Dev nD) :
    W44 m ρ c (Proc.devRef .tc main_v155) = (shapeCast S1x64 (W44 m ρ c (Proc.devRef .tc main_v147) : (⟨S64, .f32⟩ : BufTy).Contents (Elt F)) shapeCasts_S64_S1x64 : (⟨S1x64, .f32⟩ : BufTy).Contents (Elt F)) :=
  (late29 m ρ c main_v155 (by decide)).trans ((kv_main_v155 (W28 m ρ c)).trans (by rw [late28 m ρ c main_v147 (by decide)]))

theorem kf_main_v156 (c : Dev nD) :
    W44 m ρ c (Proc.devRef .tc main_v156) = (shapeCast S1x64 (W44 m ρ c (Proc.devRef .tc main_v148) : (⟨S64, .f32⟩ : BufTy).Contents (Elt F)) shapeCasts_S64_S1x64 : (⟨S1x64, .f32⟩ : BufTy).Contents (Elt F)) :=
  (late29 m ρ c main_v156 (by decide)).trans ((kv_main_v156 (W28 m ρ c)).trans (by rw [late28 m ρ c main_v148 (by decide)]))

theorem kf_main_v157 (c : Dev nD) :
    W44 m ρ c (Proc.devRef .tc main_v157) = (shapeCast S1x64 (shapeCast S64 ((((extractStridedSlice S1x64 ![3, 0] · slices_S4x64_S1x64_3_0) : (⟨S4x64, .f32⟩ : BufTy).Contents (Elt F) → (⟨S1x64, .f32⟩ : BufTy).Contents (Elt F))) (W44 m ρ c (Proc.devRef .tc main_arg7) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) :=
  (late29 m ρ c main_v157 (by decide)).trans ((kv_main_v157 (W28 m ρ c)).trans (by rw [late28 m ρ c main_arg7 (by decide)]))

theorem kf_main_v158 (c : Dev nD) :
    W44 m ρ c (Proc.devRef .tc main_v158) = (shapeCast S1x64 (shapeCast S64 ((((extractStridedSlice S1x64 ![3, 0] · slices_S4x64_S1x64_3_0) : (⟨S4x64, .f32⟩ : BufTy).Contents (Elt F) → (⟨S1x64, .f32⟩ : BufTy).Contents (Elt F))) (W44 m ρ c (Proc.devRef .tc main_arg8) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) :=
  (late29 m ρ c main_v158 (by decide)).trans ((kv_main_v158 (W28 m ρ c)).trans (by rw [late28 m ρ c main_arg8 (by decide)]))

theorem kf_main_v159 (c : Dev nD) :
    W44 m ρ c (Proc.devRef .tc main_v159) = (shapeCast S1x64 (W44 m ρ c (Proc.devRef .tc main_v45) : (⟨S64, .f32⟩ : BufTy).Contents (Elt F)) shapeCasts_S64_S1x64 : (⟨S1x64, .f32⟩ : BufTy).Contents (Elt F)) :=
  (late29 m ρ c main_v159 (by decide)).trans ((kv_main_v159 (W28 m ρ c)).trans (by rw [late28 m ρ c main_v45 (by decide)]))

theorem kf_main_v160 (c : Dev nD) :
    W44 m ρ c (Proc.devRef .tc main_v160) = (dat7 (V29 m ρ) c).arrAt 7 cfg7.N :=
  (late30 m ρ c main_v160 (by decide)).trans (W30_arr m ρ c 7)
/-- What region 7 finds in a buffer is what the buffer holds at the last boundary, for a buffer no later stretch or region writes. -/
theorem entry7 (c : Dev nD) (r : Ref sig .tc) (h : r ∉ (Late29 : List (Ref sig .tc))) :
    V29 m ρ c r = W44 m ρ c (Proc.devRef .tc r) := (late29 m ρ c r h).symm

theorem kf_main_v173 (c : Dev nD) :
    W44 m ρ c (Proc.devRef .tc main_v173) = ((((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))) (((broadcastInDim S100000x64 ![] bcast_S_S100000x64 : (⟨S_, .f32⟩ : BufTy).Contents (Elt F) → (⟨S100000x64, .f32⟩ : BufTy).Contents (Elt F))) ((constant S_ .f32 0x00000000#32) : (⟨S_, .f32⟩ : BufTy).Contents (Elt F)) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (W44 m ρ c (Proc.devRef .tc main_v6) : (⟨S1700000, .i32⟩ : BufTy).Contents (Elt F)) : (⟨S1700000x1, .i32⟩ : BufTy).Contents (Elt F)) (((mulf : (⟨S1700000x64, .f32⟩ : BufTy).Contents (Elt F) → (⟨S1700000x64, .f32⟩ : BufTy).Contents (Elt F) → (⟨S1700000x64, .f32⟩ : BufTy).Contents (Elt F))) (((broadcastInDim S1700000x64 ![0, 1] bcast_S1700000x1_S1700000x64_0_1 : (⟨S1700000x1, .f32⟩ : BufTy).Contents (Elt F) → (⟨S1700000x64, .f32⟩ : BufTy).Contents (Elt F))) (((broadcastInDim S1700000x1 ![0] bcast_S1700000_S1700000x1_0 : (⟨S1700000, .f32⟩ : BufTy).Contents (Elt F) → (⟨S1700000x1, .f32⟩ : BufTy).Contents (Elt F))) (W44 m ρ c (Proc.devRef .tc main_v34) : (⟨S1700000, .f32⟩ : BufTy).Contents (Elt F)) : (⟨S1700000x1, .f32⟩ : BufTy).Contents (Elt F)) : (⟨S1700000x64, .f32⟩ : BufTy).Contents (Elt F)) ((((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))) (W44 m ρ c (Proc.devRef .tc main_v160) : (⟨S100000x64, .f32⟩ : BufTy).Contents (Elt F)) (((broadcastInDim S1700000x1 ![0] bcast_S1700000_S1700000x1_0 : (⟨S1700000, .i32⟩ : BufTy).Contents (Elt F) → (⟨S1700000x1, .i32⟩ : BufTy).Contents (Elt F))) (((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) (((cmpi .slt : (⟨S1700000, .i32⟩ : BufTy).Contents (Elt F) → (⟨S1700000, .i32⟩ : BufTy).Contents (Elt F) → (⟨S1700000, .i1⟩ : BufTy).Contents (Elt F))) (W44 m ρ c (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 0#32) : (⟨S_, .i32⟩ : BufTy).Contents (Elt F)) : (⟨S1700000, .i32⟩ : BufTy).Contents (Elt F)) : (⟨S1700000, .i1⟩ : BufTy).Contents (Elt F)) (((addi : (⟨S1700000, .i32⟩ : BufTy).Contents (Elt F) → (⟨S1700000, .i32⟩ : BufTy).Contents (Elt F) → (⟨S1700000, .i32⟩ : BufTy).Contents (Elt F))) (W44 m ρ c (Proc.devRef .tc main_v3) : (⟨S1700000, .i32⟩ : BufTy).Contents (Elt F)) (((broadcastInDim S1700000 ![] bcast_S_S1700000 : (⟨S_, .i32⟩ : BufTy).Contents (Elt F) → (⟨S1700000, .i32⟩ : BufTy).Contents (Elt F))) ((constantI S_ 32 100000#32) : (⟨S_, .i32⟩ : BufTy).Contents (Elt F)) : (⟨S1700000, .i32⟩ : BufTy).Contents (Elt F)) : (⟨S1700000, .i32⟩ : BufTy).Contents (Elt F)) (W44 m ρ c (Proc.devRef .tc main_v3) : (⟨S1700000, .i32⟩ : BufTy).Contents (Elt F)) : (⟨S1700000, .i32⟩ : BufTy).Contents (Elt F)) : (⟨S1700000x1, .i32⟩ : BufTy).Contents (Elt F)) : (⟨S1700000x64, .f32⟩ : BufTy).Contents (Elt F)) : (⟨S1700000x64, .f32⟩ : BufTy).Contents (Elt F)) : (⟨S100000x64, .f32⟩ : BufTy).Contents (Elt F)) :=
  (late31 m ρ c main_v173 (by decide)).trans ((kv_main_v173 (W30 m ρ c)).trans (by rw [late30 m ρ c main_v160 (by decide), late30 m ρ c main_v3 (by decide), late30 m ρ c main_v34 (by decide), late30 m ρ c main_v6 (by decide)]))

theorem kf_main_v175 (c : Dev nD) :
    W44 m ρ c (Proc.devRef .tc main_v175) = (shapeCast S64 ((((extractStridedSlice S1x64 ![3, 0] · slices_S4x64_S1x64_3_0) : (⟨S4x64, .f32⟩ : BufTy).Contents (Elt F) → (⟨S1x64, .f32⟩ : BufTy).Contents (Elt F))) (W44 m ρ c (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) :=
  (late31 m ρ c main_v175 (by decide)).trans ((kv_main_v175 (W30 m ρ c)).trans (by rw [late30 m ρ c main_arg10 (by decide)]))

theorem kf_main_v176 (c : Dev nD) :
    W44 m ρ c (Proc.devRef .tc main_v176) = (shapeCast S1x64 (shapeCast S64 ((((extractStridedSlice S1x64 ![3, 0] · slices_S4x64_S1x64_3_0) : (⟨S4x64, .f32⟩ : BufTy).Contents (Elt F) → (⟨S1x64, .f32⟩ : BufTy).Contents (Elt F))) (W44 m ρ c (Proc.devRef .tc main_arg10) : (⟨S4x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) :=
  (late31 m ρ c main_v176 (by decide)).trans ((kv_main_v176 (W30 m ρ c)).trans (by rw [late30 m ρ c main_arg10 (by decide)]))

theorem kf_main_v177 (c : Dev nD) :
    W44 m ρ c (Proc.devRef .tc main_v177) = (dat8 (V31 m ρ) c).arrAt 3 cfg8.N :=
  (late32 m ρ c main_v177 (by decide)).trans (W32_arr m ρ c 3)
/-- What region 8 finds in a buffer is what the buffer holds at the last boundary, for a buffer no later stretch or region writes. -/
theorem entry8 (c : Dev nD) (r : Ref sig .tc) (h : r ∉ (Late31 : List (Ref sig .tc))) :
    V31 m ρ c r = W44 m ρ c (Proc.devRef .tc r) := (late31 m ρ c r h).symm

theorem kf_main_v180 (c : Dev nD) :
    W44 m ρ c (Proc.devRef .tc main_v180) = ((((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F))) (((broadcastInDim S512x64 ![] bcast_S_S512x64 : (⟨S_, .f32⟩ : BufTy).Contents (Elt F) → (⟨S512x64, .f32⟩ : BufTy).Contents (Elt F))) ((constant S_ .f32 0x00000000#32) : (⟨S_, .f32⟩ : BufTy).Contents (Elt F)) : (⟨S512x64, .f32⟩ : BufTy).Contents (Elt F)) (((broadcastInDim S100000x1 ![0] bcast_S100000_S100000x1_0 : (⟨S100000, .i32⟩ : BufTy).Contents (Elt F) → (⟨S100000x1, .i32⟩ : BufTy).Contents (Elt F))) (W44 m ρ c (Proc.devRef .tc main_arg2) : (⟨S100000, .i32⟩ : BufTy).Contents (Elt F)) : (⟨S100000x1, .i32⟩ : BufTy).Contents (Elt F)) (W44 m ρ c (Proc.devRef .tc main_v177) : (⟨S100000x64, .f32⟩ : BufTy).Contents (Elt F)) : (⟨S512x64, .f32⟩ : BufTy).Contents (Elt F)) :=
  (late33 m ρ c main_v180 (by decide)).trans ((kv_main_v180 (W32 m ρ c)).trans (by rw [late32 m ρ c main_arg2 (by decide), late32 m ρ c main_v177 (by decide)]))

theorem kf_main_v183 (c : Dev nD) :
    W44 m ρ c (Proc.devRef .tc main_v183) = (((Host.divf : (⟨S64, .f32⟩ : BufTy).Contents (Elt F) → (⟨S64, .f32⟩ : BufTy).Contents (Elt F) → (⟨S64, .f32⟩ : BufTy).Contents (Elt F))) ((((fun x v => Host.reduceAdd x v reducesTo_S512x64_S64_d0 h_S_) : (⟨S512x64, .f32⟩ : BufTy).Contents (Elt F) → (⟨S_, .f32⟩ : BufTy).Contents (Elt F) → (⟨S64, .f32⟩ : BufTy).Contents (Elt F))) ((((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F))) (((broadcastInDim S512x64 ![] bcast_S_S512x64 : (⟨S_, .f32⟩ : BufTy).Contents (Elt F) → (⟨S512x64, .f32⟩ : BufTy).Contents (Elt F))) ((constant S_ .f32 0x00000000#32) : (⟨S_, .f32⟩ : BufTy).Contents (Elt F)) : (⟨S512x64, .f32⟩ : BufTy).Contents (Elt F)) (((broadcastInDim S100000x1 ![0] bcast_S100000_S100000x1_0 : (⟨S100000, .i32⟩ : BufTy).Contents (Elt F) → (⟨S100000x1, .i32⟩ : BufTy).Contents (Elt F))) (W44 m ρ c (Proc.devRef .tc main_arg2) : (⟨S100000, .i32⟩ : BufTy).Contents (Elt F)) : (⟨S100000x1, .i32⟩ : BufTy).Contents (Elt F)) (W44 m ρ c (Proc.devRef .tc main_v177) : (⟨S100000x64, .f32⟩ : BufTy).Contents (Elt F)) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x44000000#32) : (⟨S_, .f32⟩ : BufTy).Contents (Elt F)) : (⟨S64, .f32⟩ : BufTy).Contents (Elt F)) : (⟨S64, .f32⟩ : BufTy).Contents (Elt F)) :=
  (late33 m ρ c main_v183 (by decide)).trans ((kv_main_v183 (W32 m ρ c)).trans (by rw [late32 m ρ c main_arg2 (by decide), late32 m ρ c main_v177 (by decide)]))

theorem kf_main_c_40 (c : Dev nD) :
    W44 m ρ c (Proc.devRef .tc main_c_40) = ((constantI S_ 32 0#32) : (⟨S_, .i32⟩ : BufTy).Contents (Elt F)) :=
  (late33 m ρ c main_c_40 (by decide)).trans ((kv_main_c_40 (W32 m ρ c)).trans (rfl))

theorem kf_main_v184 (c : Dev nD) :
    W44 m ρ c (Proc.devRef .tc main_v184) = (((fun p a b => select (broadcastInDim S64 ![] bcast_S_S64 p) a b)) (((cmpf .ogt)) ((subf) ((constant S_ .f32 0x44000000#32) : (⟨S_, .f32⟩ : BufTy).Contents (Elt F)) (((sitofp .f32)) (W44 m ρ c (Proc.devRef .tc main_c_40) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S512x64_S64_d0 h_S_)) ((mulf) ((subf) (W44 m ρ c (Proc.devRef .tc main_v180) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (W44 m ρ c (Proc.devRef .tc main_v180) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) ((subf) (W44 m ρ c (Proc.devRef .tc main_v180) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (W44 m ρ c (Proc.devRef .tc main_v180) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x44000000#32) : (⟨S_, .f32⟩ : BufTy).Contents (Elt F)) (((sitofp .f32)) (W44 m ρ c (Proc.devRef .tc main_c_40) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) :=
  (late34 m ρ c main_v184 (by decide)).trans ((kv_main_v184 (W33 m ρ c)).trans (by rw [late33 m ρ c main_c_40 (by decide), late33 m ρ c main_v180 (by decide)]))

theorem kf_main_v186 (c : Dev nD) :
    W44 m ρ c (Proc.devRef .tc main_v186) = (shapeCast S64 ((((extractStridedSlice S1x64 ![0, 0] · slices_S2x64_S1x64_0_0) : (⟨S2x64, .f32⟩ : BufTy).Contents (Elt F) → (⟨S1x64, .f32⟩ : BufTy).Contents (Elt F))) (W44 m ρ c (Proc.devRef .tc main_arg11) : (⟨S2x64, .f32⟩ : BufTy).Contents (Elt F)) : (⟨S1x64, .f32⟩ : BufTy).Contents (Elt F)) shapeCasts_S1x64_S64 : (⟨S64, .f32⟩ : BufTy).Contents (Elt F)) :=
  (late35 m ρ c main_v186 (by decide)).trans ((kv_main_v186 (W34 m ρ c)).trans (by rw [late34 m ρ c main_arg11 (by decide)]))

theorem kf_main_v188 (c : Dev nD) :
    W44 m ρ c (Proc.devRef .tc main_v188) = (shapeCast S64 ((((extractStridedSlice S1x64 ![0, 0] · slices_S2x64_S1x64_0_0) : (⟨S2x64, .f32⟩ : BufTy).Contents (Elt F) → (⟨S1x64, .f32⟩ : BufTy).Contents (Elt F))) (W44 m ρ c (Proc.devRef .tc main_arg12) : (⟨S2x64, .f32⟩ : BufTy).Contents (Elt F)) : (⟨S1x64, .f32⟩ : BufTy).Contents (Elt F)) shapeCasts_S1x64_S64 : (⟨S64, .f32⟩ : BufTy).Contents (Elt F)) :=
  (late35 m ρ c main_v188 (by decide)).trans ((kv_main_v188 (W34 m ρ c)).trans (by rw [late34 m ρ c main_arg12 (by decide)]))

theorem kf_main_v189 (c : Dev nD) :
    W44 m ρ c (Proc.devRef .tc main_v189) = ((((extractStridedSlice S1x64x64 ![0, 0, 0] · slices_S2x64x64_S1x64x64_0_0_0) : (⟨S2x64x64, .f32⟩ : BufTy).Contents (Elt F) → (⟨S1x64x64, .f32⟩ : BufTy).Contents (Elt F))) (W44 m ρ c (Proc.devRef .tc main_arg13) : (⟨S2x64x64, .f32⟩ : BufTy).Contents (Elt F)) : (⟨S1x64x64, .f32⟩ : BufTy).Contents (Elt F)) :=
  (late35 m ρ c main_v189 (by decide)).trans ((kv_main_v189 (W34 m ρ c)).trans (by rw [late34 m ρ c main_arg13 (by decide)]))

theorem kf_main_v190 (c : Dev nD) :
    W44 m ρ c (Proc.devRef .tc main_v190) = (shapeCast S64x64 ((((extractStridedSlice S1x64x64 ![0, 0, 0] · slices_S2x64x64_S1x64x64_0_0_0) : (⟨S2x64x64, .f32⟩ : BufTy).Contents (Elt F) → (⟨S1x64x64, .f32⟩ : BufTy).Contents (Elt F))) (W44 m ρ c (Proc.devRef .tc main_arg13) : (⟨S2x64x64, .f32⟩ : BufTy).Contents (Elt F)) : (⟨S1x64x64, .f32⟩ : BufTy).Contents (Elt F)) shapeCasts_S1x64x64_S64x64 : (⟨S64x64, .f32⟩ : BufTy).Contents (Elt F)) :=
  (late35 m ρ c main_v190 (by decide)).trans ((kv_main_v190 (W34 m ρ c)).trans (by rw [late34 m ρ c main_arg13 (by decide)]))

theorem kf_main_v192 (c : Dev nD) :
    W44 m ρ c (Proc.devRef .tc main_v192) = (shapeCast S64 ((((extractStridedSlice S1x64 ![0, 0] · slices_S2x64_S1x64_0_0) : (⟨S2x64, .f32⟩ : BufTy).Contents (Elt F) → (⟨S1x64, .f32⟩ : BufTy).Contents (Elt F))) (W44 m ρ c (Proc.devRef .tc main_arg14) : (⟨S2x64, .f32⟩ : BufTy).Contents (Elt F)) : (⟨S1x64, .f32⟩ : BufTy).Contents (Elt F)) shapeCasts_S1x64_S64 : (⟨S64, .f32⟩ : BufTy).Contents (Elt F)) :=
  (late35 m ρ c main_v192 (by decide)).trans ((kv_main_v192 (W34 m ρ c)).trans (by rw [late34 m ρ c main_arg14 (by decide)]))

theorem kf_main_v193 (c : Dev nD) :
    W44 m ρ c (Proc.devRef .tc main_v193) = (shapeCast S1x64 (W44 m ρ c (Proc.devRef .tc main_v183) : (⟨S64, .f32⟩ : BufTy).Contents (Elt F)) shapeCasts_S64_S1x64 : (⟨S1x64, .f32⟩ : BufTy).Contents (Elt F)) :=
  (late35 m ρ c main_v193 (by decide)).trans ((kv_main_v193 (W34 m ρ c)).trans (by rw [late34 m ρ c main_v183 (by decide)]))

theorem kf_main_v194 (c : Dev nD) :
    W44 m ρ c (Proc.devRef .tc main_v194) = (shapeCast S1x64 (W44 m ρ c (Proc.devRef .tc main_v184) : (⟨S64, .f32⟩ : BufTy).Contents (Elt F)) shapeCasts_S64_S1x64 : (⟨S1x64, .f32⟩ : BufTy).Contents (Elt F)) :=
  (late35 m ρ c main_v194 (by decide)).trans ((kv_main_v194 (W34 m ρ c)).trans (by rw [late34 m ρ c main_v184 (by decide)]))

theorem kf_main_v195 (c : Dev nD) :
    W44 m ρ c (Proc.devRef .tc main_v195) = (shapeCast S1x64 (shapeCast S64 ((((extractStridedSlice S1x64 ![0, 0] · slices_S2x64_S1x64_0_0) : (⟨S2x64, .f32⟩ : BufTy).Contents (Elt F) → (⟨S1x64, .f32⟩ : BufTy).Contents (Elt F))) (W44 m ρ c (Proc.devRef .tc main_arg11) : (⟨S2x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) :=
  (late35 m ρ c main_v195 (by decide)).trans ((kv_main_v195 (W34 m ρ c)).trans (by rw [late34 m ρ c main_arg11 (by decide)]))

theorem kf_main_v196 (c : Dev nD) :
    W44 m ρ c (Proc.devRef .tc main_v196) = (shapeCast S1x64 (shapeCast S64 ((((extractStridedSlice S1x64 ![0, 0] · slices_S2x64_S1x64_0_0) : (⟨S2x64, .f32⟩ : BufTy).Contents (Elt F) → (⟨S1x64, .f32⟩ : BufTy).Contents (Elt F))) (W44 m ρ c (Proc.devRef .tc main_arg12) : (⟨S2x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) :=
  (late35 m ρ c main_v196 (by decide)).trans ((kv_main_v196 (W34 m ρ c)).trans (by rw [late34 m ρ c main_arg12 (by decide)]))

theorem kf_main_v197 (c : Dev nD) :
    W44 m ρ c (Proc.devRef .tc main_v197) = (shapeCast S1x64 (shapeCast S64 ((((extractStridedSlice S1x64 ![0, 0] · slices_S2x64_S1x64_0_0) : (⟨S2x64, .f32⟩ : BufTy).Contents (Elt F) → (⟨S1x64, .f32⟩ : BufTy).Contents (Elt F))) (W44 m ρ c (Proc.devRef .tc main_arg14) : (⟨S2x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) :=
  (late35 m ρ c main_v197 (by decide)).trans ((kv_main_v197 (W34 m ρ c)).trans (by rw [late34 m ρ c main_arg14 (by decide)]))

theorem kf_main_v198 (c : Dev nD) :
    W44 m ρ c (Proc.devRef .tc main_v198) = (dat9 (V35 m ρ) c).arrAt 7 cfg9.N :=
  (late36 m ρ c main_v198 (by decide)).trans (W36_arr m ρ c 7)
/-- What region 9 finds in a buffer is what the buffer holds at the last boundary, for a buffer no later stretch or region writes. -/
theorem entry9 (c : Dev nD) (r : Ref sig .tc) (h : r ∉ (Late35 : List (Ref sig .tc))) :
    V35 m ρ c r = W44 m ρ c (Proc.devRef .tc r) := (late35 m ρ c r h).symm

theorem kf_main_v201 (c : Dev nD) :
    W44 m ρ c (Proc.devRef .tc main_v201) = (((Host.divf : (⟨S64, .f32⟩ : BufTy).Contents (Elt F) → (⟨S64, .f32⟩ : BufTy).Contents (Elt F) → (⟨S64, .f32⟩ : BufTy).Contents (Elt F))) ((((fun x v => Host.reduceAdd x v reducesTo_S512x64_S64_d0 h_S_) : (⟨S512x64, .f32⟩ : BufTy).Contents (Elt F) → (⟨S_, .f32⟩ : BufTy).Contents (Elt F) → (⟨S64, .f32⟩ : BufTy).Contents (Elt F))) (W44 m ρ c (Proc.devRef .tc main_v198) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x44000000#32) : (⟨S_, .f32⟩ : BufTy).Contents (Elt F)) : (⟨S64, .f32⟩ : BufTy).Contents (Elt F)) : (⟨S64, .f32⟩ : BufTy).Contents (Elt F)) :=
  (late37 m ρ c main_v201 (by decide)).trans ((kv_main_v201 (W36 m ρ c)).trans (by rw [late36 m ρ c main_v198 (by decide)]))

theorem kf_main_c_43 (c : Dev nD) :
    W44 m ρ c (Proc.devRef .tc main_c_43) = ((constantI S_ 32 0#32) : (⟨S_, .i32⟩ : BufTy).Contents (Elt F)) :=
  (late37 m ρ c main_c_43 (by decide)).trans ((kv_main_c_43 (W36 m ρ c)).trans (rfl))

theorem kf_main_v202 (c : Dev nD) :
    W44 m ρ c (Proc.devRef .tc main_v202) = (((fun p a b => select (broadcastInDim S64 ![] bcast_S_S64 p) a b)) (((cmpf .ogt)) ((subf) ((constant S_ .f32 0x44000000#32) : (⟨S_, .f32⟩ : BufTy).Contents (Elt F)) (((sitofp .f32)) (W44 m ρ c (Proc.devRef .tc main_c_43) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S512x64_S64_d0 h_S_)) ((mulf) ((subf) (W44 m ρ c (Proc.devRef .tc main_v198) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (W44 m ρ c (Proc.devRef .tc main_v198) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) ((subf) (W44 m ρ c (Proc.devRef .tc main_v198) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (W44 m ρ c (Proc.devRef .tc main_v198) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x44000000#32) : (⟨S_, .f32⟩ : BufTy).Contents (Elt F)) (((sitofp .f32)) (W44 m ρ c (Proc.devRef .tc main_c_43) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) :=
  (late38 m ρ c main_v202 (by decide)).trans ((kv_main_v202 (W37 m ρ c)).trans (by rw [late37 m ρ c main_c_43 (by decide), late37 m ρ c main_v198 (by decide)]))

theorem kf_main_v204 (c : Dev nD) :
    W44 m ρ c (Proc.devRef .tc main_v204) = (shapeCast S64 ((((extractStridedSlice S1x64 ![1, 0] · slices_S2x64_S1x64_1_0) : (⟨S2x64, .f32⟩ : BufTy).Contents (Elt F) → (⟨S1x64, .f32⟩ : BufTy).Contents (Elt F))) (W44 m ρ c (Proc.devRef .tc main_arg11) : (⟨S2x64, .f32⟩ : BufTy).Contents (Elt F)) : (⟨S1x64, .f32⟩ : BufTy).Contents (Elt F)) shapeCasts_S1x64_S64 : (⟨S64, .f32⟩ : BufTy).Contents (Elt F)) :=
  (late39 m ρ c main_v204 (by decide)).trans ((kv_main_v204 (W38 m ρ c)).trans (by rw [late38 m ρ c main_arg11 (by decide)]))

theorem kf_main_v206 (c : Dev nD) :
    W44 m ρ c (Proc.devRef .tc main_v206) = (shapeCast S64 ((((extractStridedSlice S1x64 ![1, 0] · slices_S2x64_S1x64_1_0) : (⟨S2x64, .f32⟩ : BufTy).Contents (Elt F) → (⟨S1x64, .f32⟩ : BufTy).Contents (Elt F))) (W44 m ρ c (Proc.devRef .tc main_arg12) : (⟨S2x64, .f32⟩ : BufTy).Contents (Elt F)) : (⟨S1x64, .f32⟩ : BufTy).Contents (Elt F)) shapeCasts_S1x64_S64 : (⟨S64, .f32⟩ : BufTy).Contents (Elt F)) :=
  (late39 m ρ c main_v206 (by decide)).trans ((kv_main_v206 (W38 m ρ c)).trans (by rw [late38 m ρ c main_arg12 (by decide)]))

theorem kf_main_v207 (c : Dev nD) :
    W44 m ρ c (Proc.devRef .tc main_v207) = ((((extractStridedSlice S1x64x64 ![1, 0, 0] · slices_S2x64x64_S1x64x64_1_0_0) : (⟨S2x64x64, .f32⟩ : BufTy).Contents (Elt F) → (⟨S1x64x64, .f32⟩ : BufTy).Contents (Elt F))) (W44 m ρ c (Proc.devRef .tc main_arg13) : (⟨S2x64x64, .f32⟩ : BufTy).Contents (Elt F)) : (⟨S1x64x64, .f32⟩ : BufTy).Contents (Elt F)) :=
  (late39 m ρ c main_v207 (by decide)).trans ((kv_main_v207 (W38 m ρ c)).trans (by rw [late38 m ρ c main_arg13 (by decide)]))

theorem kf_main_v208 (c : Dev nD) :
    W44 m ρ c (Proc.devRef .tc main_v208) = (shapeCast S64x64 ((((extractStridedSlice S1x64x64 ![1, 0, 0] · slices_S2x64x64_S1x64x64_1_0_0) : (⟨S2x64x64, .f32⟩ : BufTy).Contents (Elt F) → (⟨S1x64x64, .f32⟩ : BufTy).Contents (Elt F))) (W44 m ρ c (Proc.devRef .tc main_arg13) : (⟨S2x64x64, .f32⟩ : BufTy).Contents (Elt F)) : (⟨S1x64x64, .f32⟩ : BufTy).Contents (Elt F)) shapeCasts_S1x64x64_S64x64 : (⟨S64x64, .f32⟩ : BufTy).Contents (Elt F)) :=
  (late39 m ρ c main_v208 (by decide)).trans ((kv_main_v208 (W38 m ρ c)).trans (by rw [late38 m ρ c main_arg13 (by decide)]))

theorem kf_main_v210 (c : Dev nD) :
    W44 m ρ c (Proc.devRef .tc main_v210) = (shapeCast S64 ((((extractStridedSlice S1x64 ![1, 0] · slices_S2x64_S1x64_1_0) : (⟨S2x64, .f32⟩ : BufTy).Contents (Elt F) → (⟨S1x64, .f32⟩ : BufTy).Contents (Elt F))) (W44 m ρ c (Proc.devRef .tc main_arg14) : (⟨S2x64, .f32⟩ : BufTy).Contents (Elt F)) : (⟨S1x64, .f32⟩ : BufTy).Contents (Elt F)) shapeCasts_S1x64_S64 : (⟨S64, .f32⟩ : BufTy).Contents (Elt F)) :=
  (late39 m ρ c main_v210 (by decide)).trans ((kv_main_v210 (W38 m ρ c)).trans (by rw [late38 m ρ c main_arg14 (by decide)]))

theorem kf_main_v211 (c : Dev nD) :
    W44 m ρ c (Proc.devRef .tc main_v211) = (shapeCast S1x64 (W44 m ρ c (Proc.devRef .tc main_v201) : (⟨S64, .f32⟩ : BufTy).Contents (Elt F)) shapeCasts_S64_S1x64 : (⟨S1x64, .f32⟩ : BufTy).Contents (Elt F)) :=
  (late39 m ρ c main_v211 (by decide)).trans ((kv_main_v211 (W38 m ρ c)).trans (by rw [late38 m ρ c main_v201 (by decide)]))

theorem kf_main_v212 (c : Dev nD) :
    W44 m ρ c (Proc.devRef .tc main_v212) = (shapeCast S1x64 (W44 m ρ c (Proc.devRef .tc main_v202) : (⟨S64, .f32⟩ : BufTy).Contents (Elt F)) shapeCasts_S64_S1x64 : (⟨S1x64, .f32⟩ : BufTy).Contents (Elt F)) :=
  (late39 m ρ c main_v212 (by decide)).trans ((kv_main_v212 (W38 m ρ c)).trans (by rw [late38 m ρ c main_v202 (by decide)]))

theorem kf_main_v213 (c : Dev nD) :
    W44 m ρ c (Proc.devRef .tc main_v213) = (shapeCast S1x64 (shapeCast S64 ((((extractStridedSlice S1x64 ![1, 0] · slices_S2x64_S1x64_1_0) : (⟨S2x64, .f32⟩ : BufTy).Contents (Elt F) → (⟨S1x64, .f32⟩ : BufTy).Contents (Elt F))) (W44 m ρ c (Proc.devRef .tc main_arg11) : (⟨S2x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) :=
  (late39 m ρ c main_v213 (by decide)).trans ((kv_main_v213 (W38 m ρ c)).trans (by rw [late38 m ρ c main_arg11 (by decide)]))

theorem kf_main_v214 (c : Dev nD) :
    W44 m ρ c (Proc.devRef .tc main_v214) = (shapeCast S1x64 (shapeCast S64 ((((extractStridedSlice S1x64 ![1, 0] · slices_S2x64_S1x64_1_0) : (⟨S2x64, .f32⟩ : BufTy).Contents (Elt F) → (⟨S1x64, .f32⟩ : BufTy).Contents (Elt F))) (W44 m ρ c (Proc.devRef .tc main_arg12) : (⟨S2x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) :=
  (late39 m ρ c main_v214 (by decide)).trans ((kv_main_v214 (W38 m ρ c)).trans (by rw [late38 m ρ c main_arg12 (by decide)]))

theorem kf_main_v215 (c : Dev nD) :
    W44 m ρ c (Proc.devRef .tc main_v215) = (shapeCast S1x64 (shapeCast S64 ((((extractStridedSlice S1x64 ![1, 0] · slices_S2x64_S1x64_1_0) : (⟨S2x64, .f32⟩ : BufTy).Contents (Elt F) → (⟨S1x64, .f32⟩ : BufTy).Contents (Elt F))) (W44 m ρ c (Proc.devRef .tc main_arg14) : (⟨S2x64, .f32⟩ : BufTy).Contents (Elt F)) : (⟨S1x64, .f32⟩ : BufTy).Contents (Elt F)) shapeCasts_S1x64_S64 : (⟨S64, .f32⟩ : BufTy).Contents (Elt F)) shapeCasts_S64_S1x64 : (⟨S1x64, .f32⟩ : BufTy).Contents (Elt F)) :=
  (late39 m ρ c main_v215 (by decide)).trans ((kv_main_v215 (W38 m ρ c)).trans (by rw [late38 m ρ c main_arg14 (by decide)]))

theorem kf_main_v216 (c : Dev nD) :
    W44 m ρ c (Proc.devRef .tc main_v216) = (dat10 (V39 m ρ) c).arrAt 7 cfg10.N :=
  (late40 m ρ c main_v216 (by decide)).trans (W40_arr m ρ c 7)
/-- What region 10 finds in a buffer is what the buffer holds at the last boundary, for a buffer no later stretch or region writes. -/
theorem entry10 (c : Dev nD) (r : Ref sig .tc) (h : r ∉ (Late39 : List (Ref sig .tc))) :
    V39 m ρ c r = W44 m ρ c (Proc.devRef .tc r) := (late39 m ρ c r h).symm

theorem kf_main_v219 (c : Dev nD) :
    W44 m ρ c (Proc.devRef .tc main_v219) = (((Host.divf : (⟨S64, .f32⟩ : BufTy).Contents (Elt F) → (⟨S64, .f32⟩ : BufTy).Contents (Elt F) → (⟨S64, .f32⟩ : BufTy).Contents (Elt F))) ((((fun x v => Host.reduceAdd x v reducesTo_S512x64_S64_d0 h_S_) : (⟨S512x64, .f32⟩ : BufTy).Contents (Elt F) → (⟨S_, .f32⟩ : BufTy).Contents (Elt F) → (⟨S64, .f32⟩ : BufTy).Contents (Elt F))) (W44 m ρ c (Proc.devRef .tc main_v216) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64 : (⟨S_, .f32⟩ : BufTy).Contents (Elt F) → (⟨S64, .f32⟩ : BufTy).Contents (Elt F))) ((constant S_ .f32 0x44000000#32) : (⟨S_, .f32⟩ : BufTy).Contents (Elt F)) : (⟨S64, .f32⟩ : BufTy).Contents (Elt F)) : (⟨S64, .f32⟩ : BufTy).Contents (Elt F)) :=
  (late41 m ρ c main_v219 (by decide)).trans ((kv_main_v219 (W40 m ρ c)).trans (by rw [late40 m ρ c main_v216 (by decide)]))

theorem kf_main_c_46 (c : Dev nD) :
    W44 m ρ c (Proc.devRef .tc main_c_46) = ((constantI S_ 32 0#32) : (⟨S_, .i32⟩ : BufTy).Contents (Elt F)) :=
  (late41 m ρ c main_c_46 (by decide)).trans ((kv_main_c_46 (W40 m ρ c)).trans (rfl))

theorem kf_main_v220 (c : Dev nD) :
    W44 m ρ c (Proc.devRef .tc main_v220) = (((fun p a b => select (broadcastInDim S64 ![] bcast_S_S64 p) a b)) (((cmpf .ogt)) ((subf) ((constant S_ .f32 0x44000000#32) : (⟨S_, .f32⟩ : BufTy).Contents (Elt F)) (((sitofp .f32)) (W44 m ρ c (Proc.devRef .tc main_c_46) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) ((Host.divf) (((fun x v => Host.reduceAdd x v reducesTo_S512x64_S64_d0 h_S_)) ((mulf) ((subf) (W44 m ρ c (Proc.devRef .tc main_v216) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (W44 m ρ c (Proc.devRef .tc main_v216) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) ((subf) (W44 m ρ c (Proc.devRef .tc main_v216) : (⟨S512x64, .f32⟩ : BufTy).Contents (Elt F)) (((broadcastInDim S512x64 ![0, 1] bcast_S1x64_S512x64_0_1)) ((Host.divf) (((broadcastInDim S1x64 ![1] bcast_S64_S1x64_1)) (((fun x v => Host.reduceAdd x v reducesTo_S512x64_S64_d0 h_S_)) (W44 m ρ c (Proc.devRef .tc main_v216) : (⟨S512x64, .f32⟩ : BufTy).Contents (Elt F)) ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64)) ((constant S_ .f32 0x44000000#32) : (⟨S_, .f32⟩ : BufTy).Contents (Elt F)) : (⟨S1x64, .f32⟩ : BufTy).Contents (Elt F)) : (⟨S1x64, .f32⟩ : BufTy).Contents (Elt F)) : (⟨S512x64, .f32⟩ : BufTy).Contents (Elt F)) : (⟨S512x64, .f32⟩ : BufTy).Contents (Elt F)) : (⟨S512x64, .f32⟩ : BufTy).Contents (Elt F)) ((constant S_ .f32 0x00000000#32) : (⟨S_, .f32⟩ : BufTy).Contents (Elt F)) : (⟨S64, .f32⟩ : BufTy).Contents (Elt F)) (((broadcastInDim S64 ![] bcast_S_S64)) ((subf) ((constant S_ .f32 0x44000000#32) : (⟨S_, .f32⟩ : BufTy).Contents (Elt F)) (((sitofp .f32)) (W44 m ρ c (Proc.devRef .tc main_c_46) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) (((broadcastInDim S64 ![] bcast_S_S64)) ((id) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) :=
  (late42 m ρ c main_v220 (by decide)).trans ((kv_main_v220 (W41 m ρ c)).trans (by rw [late41 m ρ c main_c_46 (by decide), late41 m ρ c main_v216 (by decide)]))

theorem kf_main_v221 (c : Dev nD) :
    W44 m ρ c (Proc.devRef .tc main_v221) = (shapeCast S1x64 (W44 m ρ c (Proc.devRef .tc main_v219) : (⟨S64, .f32⟩ : BufTy).Contents (Elt F)) shapeCasts_S64_S1x64 : (⟨S1x64, .f32⟩ : BufTy).Contents (Elt F)) :=
  (late43 m ρ c main_v221 (by decide)).trans ((kv_main_v221 (W42 m ρ c)).trans (by rw [late42 m ρ c main_v219 (by decide)]))

theorem kf_main_v222 (c : Dev nD) :
    W44 m ρ c (Proc.devRef .tc main_v222) = (shapeCast S1x64 (W44 m ρ c (Proc.devRef .tc main_v220) : (⟨S64, .f32⟩ : BufTy).Contents (Elt F)) shapeCasts_S64_S1x64 : (⟨S1x64, .f32⟩ : BufTy).Contents (Elt F)) :=
  (late43 m ρ c main_v222 (by decide)).trans ((kv_main_v222 (W42 m ρ c)).trans (by rw [late42 m ρ c main_v220 (by decide)]))

theorem kf_main_v223 (c : Dev nD) :
    W44 m ρ c (Proc.devRef .tc main_v223) = (shapeCast S1x64 (W44 m ρ c (Proc.devRef .tc main_arg15) : (⟨S64, .f32⟩ : BufTy).Contents (Elt F)) shapeCasts_S64_S1x64 : (⟨S1x64, .f32⟩ : BufTy).Contents (Elt F)) :=
  (late43 m ρ c main_v223 (by decide)).trans ((kv_main_v223 (W42 m ρ c)).trans (by rw [late42 m ρ c main_arg15 (by decide)]))

theorem kf_main_v224 (c : Dev nD) :
    W44 m ρ c (Proc.devRef .tc main_v224) = (shapeCast S1x64 (W44 m ρ c (Proc.devRef .tc main_arg16) : (⟨S64, .f32⟩ : BufTy).Contents (Elt F)) shapeCasts_S64_S1x64 : (⟨S1x64, .f32⟩ : BufTy).Contents (Elt F)) :=
  (late43 m ρ c main_v224 (by decide)).trans ((kv_main_v224 (W42 m ρ c)).trans (by rw [late42 m ρ c main_arg16 (by decide)]))

theorem kf_main_v225 (c : Dev nD) :
    W44 m ρ c (Proc.devRef .tc main_v225) = (dat11 (V43 m ρ) c).arrAt 5 cfg11.N :=
  (late44 m ρ c main_v225 (by decide)).trans (W44_arr m ρ c 5)
/-- What region 11 finds in a buffer is what the buffer holds at the last boundary, for a buffer no later stretch or region writes. -/
theorem entry11 (c : Dev nD) (r : Ref sig .tc) (h : r ∉ (Late43 : List (Ref sig .tc))) :
    V43 m ρ c r = W44 m ρ c (Proc.devRef .tc r) := (late43 m ρ c r h).symm

end Cert.KernelIdeal.KChain

end
-- ==== Proof.Layers.lean ====
/-
  The dense stages of the graph network, as the host computes them on whole arrays (extended reals).

  Batch normalisation of a feature array x [n, 64] with per-column statistics: each entry has its column's mean
  subtracted, is scaled by the reciprocal square root of the column's variance plus a small constant, then by the
  column's gain, and has the column's shift added. A linear stage multiplies by a [64, 64] matrix and adds a bias row
  to every row; the rectifier takes the maximum with zero; the residual stage adds to h the rectified sum of an
  aggregate and a bias row. Two sizes occur: the node array (100000 rows) and the pooled array (512 rows).
-/
import proofs.«142600_j69965017252460_1_alg».proof.Proof.Gen.ReferenceIdeal
import Idealize.ShloMosaic.PureOps.Ideal

noncomputable section

namespace Cert.Layers

open Idealize.ShloMosaic Cert.ReferenceIdeal Cert.ReferenceIdeal.Gen

/-- A length-64 vector as a row repeated down the 100000 rows. -/
def rowsN (v : FVec Ideal S64 .f32) : FVec Ideal S100000x64 .f32 :=
  broadcastInDim S100000x64 ![0, 1] bcast_S1x64_S100000x64_0_1 (broadcastInDim S1x64 ![1] bcast_S64_S1x64_1 v)

/-- A length-64 vector as a row repeated down the 512 rows. -/
def rowsG (v : FVec Ideal S64 .f32) : FVec Ideal S512x64 .f32 :=
  broadcastInDim S512x64 ![0, 1] bcast_S1x64_S512x64_0_1 (broadcastInDim S1x64 ![1] bcast_S64_S1x64_1 v)

/-- The reciprocal standard deviation per column: (var + 1e-5)^(-1/2). -/
def invStd (var : FVec Ideal S64 .f32) : FVec Ideal S64 .f32 :=
  Host.rsqrt (F := Ideal) (addf var (broadcastInDim S64 ![] bcast_S_S64 (constant (F := Ideal) S_ .f32 0x3727C5AC#32)))

/-- Batch normalisation of the node array with given column statistics, gain and shift. -/
def bnN (x : FVec Ideal S100000x64 .f32) (mean var g b : FVec Ideal S64 .f32) : FVec Ideal S100000x64 .f32 :=
  addf (mulf (mulf (subf x (rowsN mean)) (rowsN (invStd var))) (rowsN g)) (rowsN b)

/-- Batch normalisation of the pooled array. -/
def bnG (x : FVec Ideal S512x64 .f32) (mean var g b : FVec Ideal S64 .f32) : FVec Ideal S512x64 .f32 :=
  addf (mulf (mulf (subf x (rowsG mean)) (rowsG (invStd var))) (rowsG g)) (rowsG b)

/-- The product of the node array with a [64, 64] matrix. -/
def dotN (a : FVec Ideal S100000x64 .f32) (W : FVec Ideal S64x64 .f32) : FVec Ideal S100000x64 .f32 :=
  Host.dotGeneral (F := Ideal) dot_S100000x64_S64x64_S100000x64_1_0_0_1_n_n none a W

/-- The product of the pooled array with a [64, 64] matrix. -/
def dotG (a : FVec Ideal S512x64 .f32) (W : FVec Ideal S64x64 .f32) : FVec Ideal S512x64 .f32 :=
  Host.dotGeneral (F := Ideal) dot_S512x64_S64x64_S512x64_1_0_0_1_n_n none a W

/-- The rectifier on the node array: the maximum with zero. -/
def reluN (y : FVec Ideal S100000x64 .f32) : FVec Ideal S100000x64 .f32 :=
  maximumf y (broadcastInDim S100000x64 ![] bcast_S_S100000x64 (constant (F := Ideal) S_ .f32 0x00000000#32))

/-- The rectifier on the pooled array. -/
def reluG (y : FVec Ideal S512x64 .f32) : FVec Ideal S512x64 .f32 :=
  maximumf y (broadcastInDim S512x64 ![] bcast_S_S512x64 (constant (F := Ideal) S_ .f32 0x00000000#32))

/-- Normalise, multiply, add the bias row (node array). -/
def linN (x : FVec Ideal S100000x64 .f32) (mean var g b : FVec Ideal S64 .f32) (W : FVec Ideal S64x64 .f32)
    (bias : FVec Ideal S64 .f32) : FVec Ideal S100000x64 .f32 :=
  addf (dotN (bnN x mean var g b) W) (rowsN bias)

/-- Normalise, multiply, add the bias row (pooled array). -/
def linG (x : FVec Ideal S512x64 .f32) (mean var g b : FVec Ideal S64 .f32) (W : FVec Ideal S64x64 .f32)
    (bias : FVec Ideal S64 .f32) : FVec Ideal S512x64 .f32 :=
  addf (dotG (bnG x mean var g b) W) (rowsG bias)

/-- The residual stage: h + max(agg + bias, 0). -/
def residN (agg : FVec Ideal S100000x64 .f32) (bias : FVec Ideal S64 .f32) (h : FVec Ideal S100000x64 .f32) :
    FVec Ideal S100000x64 .f32 :=
  addf h (reluN (addf agg (rowsN bias)))

end Cert.Layers

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«142600_j69965017252460_1_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibLayer.lean ====
/-
  One dense layer computed on a block of rows is the host's layer at those rows.

  A graph-convolution layer sends a node-feature array X [N, K] and an aggregated-message array M [N, K] to
  M · Wrel + X · Wroot + b (a bias row repeated down the rows), optionally followed by the rectifier max(·, 0). A
  tiled kernel computes it on a block of R rows at a time, with the two weight matrices and the bias row whole.
  On the extended reals the entry (p, q) of the block's result is the entry (P, q) of the host's layer on the whole
  arrays whenever row p of each block operand is row P of the whole operand: each product is the sum over the same K
  terms, and addition, the bias and the maximum with zero are entrywise. The same for a plain linear layer
  X · W + b. A change of float format is the identity on the extended reals, so the operands' formats are free.
-/
import proofs.«142600_j69965017252460_1_alg».proof.Proof.LibMatmulAt
import proofs.«142600_j69965017252460_1_alg».proof.Proof.LibHostDot
import proofs.«142600_j69965017252460_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibLayer

open Idealize.ShloMosaic Idealize.ShloMosaic.ValueIdx Cert.LibPlainDot

/-- The host's plain product [R, K] × [K, C], for any record of dimension numbers with the six lists of such a
    product, read at (p, q): the sum over k of the left operand at (p, k) times the right at (k, q). -/
theorem hostDot_record_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    Host.dotGeneral (F := Ideal) D prec l r (ix2 p q) = ∑ k : Fin K, l (ix2 p k) * r (ix2 k q) := by
  obtain ⟨lc, rc, ln, rn, lb, rb, wf⟩ := D
  dsimp only at hlc hrc hln hrn hlb hrb
  subst hlc hrc hln hrn hlb hrb
  exact Cert.LibHostDot.hostDot_apply wf prec l r p q

section
variable {R K C N : ℕ}
  (Dk : DotDims ⟨2, ![R, K]⟩ ⟨2, ![K, C]⟩ ⟨2, ![R, C]⟩)
  (klc : Dk.lhsContracting = [1]) (krc : Dk.rhsContracting = [0]) (kln : Dk.lhsNonContracting = [0])
  (krn : Dk.rhsNonContracting = [1]) (klb : Dk.lhsBatch = []) (krb : Dk.rhsBatch = [])
  (Dh : DotDims ⟨2, ![N, K]⟩ ⟨2, ![K, C]⟩ ⟨2, ![N, C]⟩)
  (hlc : Dh.lhsContracting = [1]) (hrc : Dh.rhsContracting = [0]) (hln : Dh.lhsNonContracting = [0])
  (hrn : Dh.rhsNonContracting = [1]) (hlb : Dh.lhsBatch = []) (hrb : Dh.rhsBatch = [])
include klc krc kln krn klb krb hlc hrc hln hrn hlb hrb

/-- A row block's product into the zero accumulator at (p, q) is the host's whole product at (P, q), when the
    block's row p is the array's row P and the right operands agree down column q. -/
theorem block_dot_apply {φ₁ φ₂ ψ₁ ψ₂ : FTy} (prec prec' : Option ContractPrecision)
    (a : FVec Ideal ⟨2, ![R, K]⟩ φ₁) (w : FVec Ideal ⟨2, ![K, C]⟩ φ₂)
    (A : FVec Ideal ⟨2, ![N, K]⟩ ψ₁) (W : FVec Ideal ⟨2, ![K, C]⟩ ψ₂)
    (p : Fin R) (P : Fin N) (q : Fin C)
    (ha : ∀ k : Fin K, (a (ix2 p k) : EReal) = A (ix2 P k))
    (hw : ∀ k : Fin K, (w (ix2 k q) : EReal) = W (ix2 k q)) :
    matmul Dk prec a w (constant (F := Ideal) ⟨2, ![R, C]⟩ .f32 0x00000000#32) (ix2 p q)
      = Host.dotGeneral (F := Ideal) Dh prec' A W (ix2 P q) := by
  rw [Cert.LibMatmulAt.matmul_zero_apply Dk klc krc kln krn klb krb,
    hostDot_record_apply Dh hlc hrc hln hrn hlb hrb]
  exact Finset.sum_congr rfl fun k _ => by rw [ha k, hw k]

/-- The layer M · Wrel + X · Wroot + b on a row block, at (p, q), is the host's layer on the whole arrays at (P, q). -/
theorem gconv_block_apply {φ₁ φ₂ φ₃ φ₄ : FTy}
    (a1 : FVec Ideal ⟨2, ![R, K]⟩ φ₁) (w1 : FVec Ideal ⟨2, ![K, C]⟩ φ₂)
    (a2 : FVec Ideal ⟨2, ![R, K]⟩ φ₃) (w2 : FVec Ideal ⟨2, ![K, C]⟩ φ₄)
    (brow : FVec Ideal ⟨2, ![1, C]⟩ .f32) (hbc : (⟨2, ![1, C]⟩ : Shape).Broadcasts ⟨2, ![R, C]⟩)
    (A1 A2 : FVec Ideal ⟨2, ![N, K]⟩ .f32) (W1 W2 : FVec Ideal ⟨2, ![K, C]⟩ .f32)
    (Brow : FVec Ideal ⟨2, ![1, C]⟩ .f32)
    (hbi : (⟨2, ![1, C]⟩ : Shape).BroadcastsInDim ⟨2, ![N, C]⟩ ![0, 1])
    (p : Fin R) (P : Fin N) (q : Fin C)
    (h1 : ∀ k : Fin K, (a1 (ix2 p k) : EReal) = A1 (ix2 P k))
    (hw1 : ∀ k : Fin K, (w1 (ix2 k q) : EReal) = W1 (ix2 k q))
    (h2 : ∀ k : Fin K, (a2 (ix2 p k) : EReal) = A2 (ix2 P k))
    (hw2 : ∀ k : Fin K, (w2 (ix2 k q) : EReal) = W2 (ix2 k q))
    (hb : brow (ix2 (0 : Fin 1) q) = Brow (ix2 (0 : Fin 1) q)) :
    addf (addf (matmul Dk none a1 w1 (constant (F := Ideal) ⟨2, ![R, C]⟩ .f32 0x00000000#32))
        (matmul Dk none a2 w2 (constant (F := Ideal) ⟨2, ![R, C]⟩ .f32 0x00000000#32)))
      (broadcastTo ⟨2, ![R, C]⟩ brow hbc) (ix2 p q)
    = addf (addf (Host.dotGeneral (F := Ideal) Dh none A1 W1) (Host.dotGeneral (F := Ideal) Dh none A2 W2))
        (broadcastInDim ⟨2, ![N, C]⟩ ![0, 1] hbi Brow) (ix2 P q) := by
  rw [addf_apply, addf_apply, addf_apply, addf_apply,
    block_dot_apply Dk klc krc kln krn klb krb Dh hlc hrc hln hrn hlb hrb none none a1 w1 A1 W1 p P q h1 hw1,
    block_dot_apply Dk klc krc kln krn klb krb Dh hlc hrc hln hrn hlb hrb none none a2 w2 A2 W2 p P q h2 hw2,
    broadcastTo_1b_ab_apply, Cert.LibColumn.bcastInDim_1b_ab_apply, hb]

/-- The same layer followed by the rectifier: the maximum with zero is entrywise, and the kernel's splat of the zero
    word and the host's broadcast of the zero constant both read zero everywhere. -/
theorem gconv_relu_block_apply {φ₁ φ₂ φ₃ φ₄ : FTy}
    (a1 : FVec Ideal ⟨2, ![R, K]⟩ φ₁) (w1 : FVec Ideal ⟨2, ![K, C]⟩ φ₂)
    (a2 : FVec Ideal ⟨2, ![R, K]⟩ φ₃) (w2 : FVec Ideal ⟨2, ![K, C]⟩ φ₄)
    (brow : FVec Ideal ⟨2, ![1, C]⟩ .f32) (hbc : (⟨2, ![1, C]⟩ : Shape).Broadcasts ⟨2, ![R, C]⟩)
    (A1 A2 : FVec Ideal ⟨2, ![N, K]⟩ .f32) (W1 W2 : FVec Ideal ⟨2, ![K, C]⟩ .f32)
    (Brow : FVec Ideal ⟨2, ![1, C]⟩ .f32)
    (hbi : (⟨2, ![1, C]⟩ : Shape).BroadcastsInDim ⟨2, ![N, C]⟩ ![0, 1])
    (hbs : (⟨0, ![]⟩ : Shape).BroadcastsInDim ⟨2, ![N, C]⟩ (![] : Fin 0 → Fin 2))
    (p : Fin R) (P : Fin N) (q : Fin C)
    (h1 : ∀ k : Fin K, (a1 (ix2 p k) : EReal) = A1 (ix2 P k))
    (hw1 : ∀ k : Fin K, (w1 (ix2 k q) : EReal) = W1 (ix2 k q))
    (h2 : ∀ k : Fin K, (a2 (ix2 p k) : EReal) = A2 (ix2 P k))
    (hw2 : ∀ k : Fin K, (w2 (ix2 k q) : EReal) = W2 (ix2 k q))
    (hb : brow (ix2 (0 : Fin 1) q) = Brow (ix2 (0 : Fin 1) q)) :
    maximumf (addf (addf (matmul Dk none a1 w1 (constant (F := Ideal) ⟨2, ![R, C]⟩ .f32 0x00000000#32))
        (matmul Dk none a2 w2 (constant (F := Ideal) ⟨2, ![R, C]⟩ .f32 0x00000000#32)))
      (broadcastTo ⟨2, ![R, C]⟩ brow hbc))
      (broadcast ⟨2, ![R, C]⟩ (Scalar.ofBits (F := Ideal) .f32 0x00000000#32)) (ix2 p q)
    = maximumf (addf (addf (Host.dotGeneral (F := Ideal) Dh none A1 W1) (Host.dotGeneral (F := Ideal) Dh none A2 W2))
        (broadcastInDim ⟨2, ![N, C]⟩ ![0, 1] hbi Brow))
        (broadcastInDim ⟨2, ![N, C]⟩ ![] hbs (constant (F := Ideal) ⟨0, ![]⟩ .f32 0x00000000#32)) (ix2 P q) := by
  rw [maximumf_apply, maximumf_apply,
    gconv_block_apply Dk klc krc kln krn klb krb Dh hlc hrc hln hrn hlb hrb a1 w1 a2 w2 brow hbc A1 A2 W1 W2 Brow hbi
      p P q h1 hw1 h2 hw2 hb,
    broadcast_apply, Cert.LibColumn.bcastInDim_scalar_apply _ _ _ (fun d => d.elim0)]
  rfl

/-- A linear layer X · W + b on a row block, at (p, q), is the host's layer on the whole arrays at (P, q). -/
theorem linear_block_apply {φ₁ φ₂ : FTy}
    (a : FVec Ideal ⟨2, ![R, K]⟩ φ₁) (w : FVec Ideal ⟨2, ![K, C]⟩ φ₂)
    (brow : FVec Ideal ⟨2, ![1, C]⟩ .f32) (hbc : (⟨2, ![1, C]⟩ : Shape).Broadcasts ⟨2, ![R, C]⟩)
    (A : FVec Ideal ⟨2, ![N, K]⟩ .f32) (W : FVec Ideal ⟨2, ![K, C]⟩ .f32)
    (Brow : FVec Ideal ⟨2, ![1, C]⟩ .f32)
    (hbi : (⟨2, ![1, C]⟩ : Shape).BroadcastsInDim ⟨2, ![N, C]⟩ ![0, 1])
    (p : Fin R) (P : Fin N) (q : Fin C)
    (ha : ∀ k : Fin K, (a (ix2 p k) : EReal) = A (ix2 P k))
    (hw : ∀ k : Fin K, (w (ix2 k q) : EReal) = W (ix2 k q))
    (hb : brow (ix2 (0 : Fin 1) q) = Brow (ix2 (0 : Fin 1) q)) :
    addf (matmul Dk none a w (constant (F := Ideal) ⟨2, ![R, C]⟩ .f32 0x00000000#32))
      (broadcastTo ⟨2, ![R, C]⟩ brow hbc) (ix2 p q)
    = addf (Host.dotGeneral (F := Ideal) Dh none A W) (broadcastInDim ⟨2, ![N, C]⟩ ![0, 1] hbi Brow) (ix2 P q) := by
  rw [addf_apply, addf_apply,
    block_dot_apply Dk klc krc kln krn klb krb Dh hlc hrc hln hrn hlb hrb none none a w A W p P q ha hw,
    broadcastTo_1b_ab_apply, Cert.LibColumn.bcastInDim_1b_ab_apply, hb]

end

end Cert.LibLayer

end
-- ==== Proof.RegionNorm.lean ====
/-
  The dense stages on a block of rows are the host's stages on the whole array, entry by entry.

  Batch normalisation with per-column statistics sends an entry x(p, k) to (x(p, k) - mean(k)) * (var(k) + c)^(-1/2) * g(k)
  + b(k): every operation is entrywise and every statistic row, repeated down the rows, reads its entry k. So the
  normalised block's row p is the normalised whole array's row P whenever the block's row p is the array's row P. A
  linear stage then multiplies by a matrix and adds a bias row: the entry (p, q) of the block's product is the sum over
  the same K terms as the entry (P, q) of the whole product. The rectifier (the maximum with zero) and the residual
  sum h + max(a + bias, 0) are entrywise. A change of float format is the identity on the extended reals.
-/
import proofs.«142600_j69965017252460_1_alg».proof.Proof.LibLayer

noncomputable section

namespace Cert.KernelIdeal.Regions

open Idealize.ShloMosaic Idealize.ShloMosaic.ValueIdx

/-- The reciprocal standard deviation: the row form [1, C] at (0, k) is the vector form [C] at k, when the variances
    agree there. Both add the same small constant and take the reciprocal square root. -/
theorem invStd_row_apply {C : ℕ} (v : FVec Ideal ⟨2, ![1, C]⟩ .f32) (Var : FVec Ideal ⟨1, ![C]⟩ .f32)
    (h0 : (⟨0, ![]⟩ : Shape).BroadcastsInDim ⟨1, ![C]⟩ (![] : Fin 0 → Fin 1)) (k : Fin C)
    (hv : v (ix2 (0 : Fin 1) k) = Var (ix1 k)) :
    rsqrt (addf v (broadcast ⟨2, ![1, C]⟩ (Scalar.ofBits (F := Ideal) .f32 0x3727C5AC#32))) (ix2 (0 : Fin 1) k)
      = Host.rsqrt (F := Ideal) (addf Var (broadcastInDim ⟨1, ![C]⟩ ![] h0
          (constant (F := Ideal) ⟨0, ![]⟩ .f32 0x3727C5AC#32))) (ix1 k) := by
  show Ideal.rsqrt (v (ix2 (0 : Fin 1) k) + Scalar.ofBits (F := Ideal) .f32 0x3727C5AC#32)
    = Ideal.rsqrt (Var (ix1 k) + broadcastInDim ⟨1, ![C]⟩ ![] h0
        (constant (F := Ideal) ⟨0, ![]⟩ .f32 0x3727C5AC#32) (ix1 k))
  rw [hv, Cert.LibColumn.bcastInDim_scalar_apply _ _ _ ix0]
  rfl

/-- A vector [C] repeated down N rows (through a row [1, C]) reads, at (P, k), its entry k. -/
theorem rows_apply {N C : ℕ} (v : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![N, C]⟩ ![0, 1]) (P : Fin N) (k : Fin C) :
    broadcastInDim ⟨2, ![N, C]⟩ ![0, 1] h2 (broadcastInDim ⟨2, ![1, C]⟩ ![1] h1 v) (ix2 P k) = v (ix1 k) := by
  rw [Cert.LibColumn.bcastInDim_1b_ab_apply, Cert.LibColumn.bcastInDim_b_1b_apply]

/-- Batch normalisation on a block of rows, at (p, k), is the normalisation of the whole array at (P, k), when the
    block's entry (p, k) is the array's entry (P, k) and the four statistic rows agree with the four vectors at k. -/
theorem bn_block_apply {R N C : ℕ} (x0 : FVec Ideal ⟨2, ![R, C]⟩ .f32) (m v g b : FVec Ideal ⟨2, ![1, C]⟩ .f32)
    (hbc : (⟨2, ![1, C]⟩ : Shape).Broadcasts ⟨2, ![R, C]⟩)
    (X : FVec Ideal ⟨2, ![N, C]⟩ .f32) (Mean Var G B : FVec Ideal ⟨1, ![C]⟩ .f32)
    (h0 : (⟨0, ![]⟩ : Shape).BroadcastsInDim ⟨1, ![C]⟩ (![] : Fin 0 → Fin 1))
    (h1 : (⟨1, ![C]⟩ : Shape).BroadcastsInDim ⟨2, ![1, C]⟩ ![1])
    (h2 : (⟨2, ![1, C]⟩ : Shape).BroadcastsInDim ⟨2, ![N, C]⟩ ![0, 1])
    (p : Fin R) (P : Fin N) (k : Fin C)
    (hx : x0 (ix2 p k) = X (ix2 P k))
    (hm : m (ix2 (0 : Fin 1) k) = Mean (ix1 k)) (hv : v (ix2 (0 : Fin 1) k) = Var (ix1 k))
    (hg : g (ix2 (0 : Fin 1) k) = G (ix1 k)) (hb : b (ix2 (0 : Fin 1) k) = B (ix1 k)) :
    addf (mulf (mulf (subf x0 (broadcastTo ⟨2, ![R, C]⟩ m hbc))
        (broadcastTo ⟨2, ![R, C]⟩
          (rsqrt (addf v (broadcast ⟨2, ![1, C]⟩ (Scalar.ofBits (F := Ideal) .f32 0x3727C5AC#32)))) hbc))
        (broadcastTo ⟨2, ![R, C]⟩ g hbc)) (broadcastTo ⟨2, ![R, C]⟩ b hbc) (ix2 p k)
    = addf (mulf (mulf (subf X (broadcastInDim ⟨2, ![N, C]⟩ ![0, 1] h2 (broadcastInDim ⟨2, ![1, C]⟩ ![1] h1 Mean)))
        (broadcastInDim ⟨2, ![N, C]⟩ ![0, 1] h2 (broadcastInDim ⟨2, ![1, C]⟩ ![1] h1
          (Host.rsqrt (F := Ideal) (addf Var (broadcastInDim ⟨1, ![C]⟩ ![] h0
            (constant (F := Ideal) ⟨0, ![]⟩ .f32 0x3727C5AC#32)))))))
        (broadcastInDim ⟨2, ![N, C]⟩ ![0, 1] h2 (broadcastInDim ⟨2, ![1, C]⟩ ![1] h1 G)))
        (broadcastInDim ⟨2, ![N, C]⟩ ![0, 1] h2 (broadcastInDim ⟨2, ![1, C]⟩ ![1] h1 B)) (ix2 P k) := by
  rw [addf_apply, addf_apply, mulf_apply, mulf_apply, mulf_apply, mulf_apply, subf_apply, subf_apply,
    broadcastTo_1b_ab_apply, broadcastTo_1b_ab_apply, broadcastTo_1b_ab_apply, broadcastTo_1b_ab_apply,
    rows_apply, rows_apply, rows_apply, rows_apply,
    invStd_row_apply v Var h0 k hv, hx, hm, hg, hb]

/-- The rectifier is entrywise: the maximum with the splat of the zero word at an index of one array is the maximum
    with the broadcast of the zero constant at an index of another, when the two entries agree. -/
theorem relu_apply_congr {s t : Shape} (a : FVec Ideal s .f32) (A : FVec Ideal t .f32)
    (hbs : (⟨0, ![]⟩ : Shape).BroadcastsInDim t (![] : Fin 0 → Fin t.rank)) (i : s.Idx) (I : t.Idx)
    (h : a i = A I) :
    maximumf a (broadcast s (Scalar.ofBits (F := Ideal) .f32 0x00000000#32)) i
      = maximumf A (broadcastInDim t ![] hbs (constant (F := Ideal) ⟨0, ![]⟩ .f32 0x00000000#32)) I := by
  rw [maximumf_apply, maximumf_apply, h, broadcast_apply, Cert.LibColumn.bcastInDim_scalar_apply _ _ _ ix0]
  rfl

/-- The residual stage h + max(a + bias, 0) on a block of rows, at (p, q), is the stage on the whole arrays at (P, q). -/
theorem resid_block_apply {R N C : ℕ} (a : FVec Ideal ⟨2, ![R, C]⟩ .f32) (brow : FVec Ideal ⟨2, ![1, C]⟩ .f32)
    (h : FVec Ideal ⟨2, ![R, C]⟩ .f32) (hbc : (⟨2, ![1, C]⟩ : Shape).Broadcasts ⟨2, ![R, C]⟩)
    (A : FVec Ideal ⟨2, ![N, C]⟩ .f32) (Bias : FVec Ideal ⟨1, ![C]⟩ .f32) (H : FVec Ideal ⟨2, ![N, C]⟩ .f32)
    (h1 : (⟨1, ![C]⟩ : Shape).BroadcastsInDim ⟨2, ![1, C]⟩ ![1])
    (h2 : (⟨2, ![1, C]⟩ : Shape).BroadcastsInDim ⟨2, ![N, C]⟩ ![0, 1])
    (hbs : (⟨0, ![]⟩ : Shape).BroadcastsInDim ⟨2, ![N, C]⟩ (![] : Fin 0 → Fin 2))
    (p : Fin R) (P : Fin N) (q : Fin C)
    (ha : a (ix2 p q) = A (ix2 P q)) (hbias : brow (ix2 (0 : Fin 1) q) = Bias (ix1 q))
    (hh : h (ix2 p q) = H (ix2 P q)) :
    addf h (maximumf (addf a (broadcastTo ⟨2, ![R, C]⟩ brow hbc))
        (broadcast ⟨2, ![R, C]⟩ (Scalar.ofBits (F := Ideal) .f32 0x00000000#32))) (ix2 p q)
    = addf H (maximumf (addf A (broadcastInDim ⟨2, ![N, C]⟩ ![0, 1] h2 (broadcastInDim ⟨2, ![1, C]⟩ ![1] h1 Bias)))
        (broadcastInDim ⟨2, ![N, C]⟩ ![] hbs (constant (F := Ideal) ⟨0, ![]⟩ .f32 0x00000000#32))) (ix2 P q) := by
  rw [addf_apply, addf_apply, hh]
  refine congrArg (H (ix2 P q) + ·) (relu_apply_congr _ _ hbs _ _ ?_)
  rw [addf_apply, addf_apply, ha, broadcastTo_1b_ab_apply, rows_apply, hbias]

section
variable {R N K C : ℕ}
  (Dk : DotDims ⟨2, ![R, K]⟩ ⟨2, ![K, C]⟩ ⟨2, ![R, C]⟩)
  (klc : Dk.lhsContracting = [1]) (krc : Dk.rhsContracting = [0]) (kln : Dk.lhsNonContracting = [0])
  (krn : Dk.rhsNonContracting = [1]) (klb : Dk.lhsBatch = []) (krb : Dk.rhsBatch = [])
  (Dh : DotDims ⟨2, ![N, K]⟩ ⟨2, ![K, C]⟩ ⟨2, ![N, C]⟩)
  (hlc : Dh.lhsContracting = [1]) (hrc : Dh.rhsContracting = [0]) (hln : Dh.lhsNonContracting = [0])
  (hrn : Dh.rhsNonContracting = [1]) (hlb : Dh.lhsBatch = []) (hrb : Dh.rhsBatch = [])
include klc krc kln krn klb krb hlc hrc hln hrn hlb hrb

/-- Normalise, multiply, add the bias row, on a block of rows, at (p, q): the same on the whole array at (P, q), when
    the block's row p is the array's row P, the statistic rows are the statistic vectors, the matrices agree down
    column q and the bias agrees at q. The operands' change of format before the product is the identity. -/
theorem lin_block_apply
    (x0 : FVec Ideal ⟨2, ![R, K]⟩ .f32) (m v g b : FVec Ideal ⟨2, ![1, K]⟩ .f32)
    (hbk : (⟨2, ![1, K]⟩ : Shape).Broadcasts ⟨2, ![R, K]⟩)
    (hlt : FTy.bf16.bits < FTy.f32.bits)
    (w : FVec Ideal ⟨2, ![K, C]⟩ .f32) (brow : FVec Ideal ⟨2, ![1, C]⟩ .f32)
    (hbc : (⟨2, ![1, C]⟩ : Shape).Broadcasts ⟨2, ![R, C]⟩)
    (X : FVec Ideal ⟨2, ![N, K]⟩ .f32) (Mean Var G B : FVec Ideal ⟨1, ![K]⟩ .f32)
    (W : FVec Ideal ⟨2, ![K, C]⟩ .f32) (Bias : FVec Ideal ⟨1, ![C]⟩ .f32)
    (h0 : (⟨0, ![]⟩ : Shape).BroadcastsInDim ⟨1, ![K]⟩ (![] : Fin 0 → Fin 1))
    (h1 : (⟨1, ![K]⟩ : Shape).BroadcastsInDim ⟨2, ![1, K]⟩ ![1])
    (h2 : (⟨2, ![1, K]⟩ : Shape).BroadcastsInDim ⟨2, ![N, K]⟩ ![0, 1])
    (h1c : (⟨1, ![C]⟩ : Shape).BroadcastsInDim ⟨2, ![1, C]⟩ ![1])
    (h2c : (⟨2, ![1, C]⟩ : Shape).BroadcastsInDim ⟨2, ![N, C]⟩ ![0, 1])
    (p : Fin R) (P : Fin N) (q : Fin C)
    (hx : ∀ k : Fin K, x0 (ix2 p k) = X (ix2 P k))
    (hm : ∀ k : Fin K, m (ix2 (0 : Fin 1) k) = Mean (ix1 k))
    (hv : ∀ k : Fin K, v (ix2 (0 : Fin 1) k) = Var (ix1 k))
    (hg : ∀ k : Fin K, g (ix2 (0 : Fin 1) k) = G (ix1 k))
    (hb : ∀ k : Fin K, b (ix2 (0 : Fin 1) k) = B (ix1 k))
    (hw : ∀ k : Fin K, w (ix2 k q) = W (ix2 k q))
    (hbias : brow (ix2 (0 : Fin 1) q) = Bias (ix1 q)) :
    addf (matmul Dk none
        (truncf .bf16 (addf (mulf (mulf (subf x0 (broadcastTo ⟨2, ![R, K]⟩ m hbk))
          (broadcastTo ⟨2, ![R, K]⟩
            (rsqrt (addf v (broadcast ⟨2, ![1, K]⟩ (Scalar.ofBits (F := Ideal) .f32 0x3727C5AC#32)))) hbk))
          (broadcastTo ⟨2, ![R, K]⟩ g hbk)) (broadcastTo ⟨2, ![R, K]⟩ b hbk)) hlt)
        (truncf .bf16 w hlt) (constant (F := Ideal) ⟨2, ![R, C]⟩ .f32 0x00000000#32))
      (broadcastTo ⟨2, ![R, C]⟩ brow hbc) (ix2 p q)
    = addf (Host.dotGeneral (F := Ideal) Dh none
        (addf (mulf (mulf (subf X (broadcastInDim ⟨2, ![N, K]⟩ ![0, 1] h2 (broadcastInDim ⟨2, ![1, K]⟩ ![1] h1 Mean)))
          (broadcastInDim ⟨2, ![N, K]⟩ ![0, 1] h2 (broadcastInDim ⟨2, ![1, K]⟩ ![1] h1
            (Host.rsqrt (F := Ideal) (addf Var (broadcastInDim ⟨1, ![K]⟩ ![] h0
              (constant (F := Ideal) ⟨0, ![]⟩ .f32 0x3727C5AC#32)))))))
          (broadcastInDim ⟨2, ![N, K]⟩ ![0, 1] h2 (broadcastInDim ⟨2, ![1, K]⟩ ![1] h1 G)))
          (broadcastInDim ⟨2, ![N, K]⟩ ![0, 1] h2 (broadcastInDim ⟨2, ![1, K]⟩ ![1] h1 B))) W)
        (broadcastInDim ⟨2, ![N, C]⟩ ![0, 1] h2c (broadcastInDim ⟨2, ![1, C]⟩ ![1] h1c Bias)) (ix2 P q) :=
  Cert.LibLayer.linear_block_apply Dk klc krc kln krn klb krb Dh hlc hrc hln hrn hlb hrb _ _ brow hbc _ W _ h2c p P q
    (fun k => (truncf_apply _ hlt (ix2 p k)).trans
      (bn_block_apply x0 m v g b hbk X Mean Var G B h0 h1 h2 p P k (hx k) (hm k) (hv k) (hg k) (hb k)))
    (fun k => (truncf_apply w hlt (ix2 k q)).trans (hw k))
    (hbias.trans (Cert.LibColumn.bcastInDim_b_1b_apply Bias h1c 0 q).symm)

end

end Cert.KernelIdeal.Regions

end
-- ==== Proof.RegionPayload.lean ====
/-
  Each region's payload, read at an index of its block, is the host's dense stage read at the index of the whole array
  the block's element sits at.

  The regions compute, on a block of rows: the normalised block times a matrix plus a bias row, rectified (region 0 on
  5000 rows, regions 9 and 10 on 512) or not (regions 1, 3, 5, 7); the residual sum h + max(aggregate + bias, 0)
  (regions 2, 4, 6, 8); the normalisation alone (region 11). Every reshape in a payload is to the same shape, so it is
  the identity; the rest is the generic block-against-whole-array statement for that stage.
-/
import proofs.«142600_j69965017252460_1_alg».proof.Proof.Gen.KernelIdeal.Skeleton
import proofs.«142600_j69965017252460_1_alg».proof.Proof.Layers
import proofs.«142600_j69965017252460_1_alg».proof.Proof.RegionNorm

noncomputable section

namespace Cert.KernelIdeal.Regions

open Idealize.ShloMosaic Idealize.ShloMosaic.ValueIdx
open Cert.KernelIdeal Cert.KernelIdeal.Gen

/-- Region 0's payload (normalise, multiply, add the bias row, rectify) on a block of 5000 rows, read at (p, q), is the
    host's rectified linear stage of the whole node array at (P, q), when the block's row p is the array's row P. -/
theorem k0_pay1_apply (x0 : Vec Ideal S5000x64 .f32) (x1 x2 x3 x4 : Vec Ideal S1x64 .f32) (x5 : Vec Ideal S64x64 .f32)
    (x6 : Vec Ideal S1x64 .f32)
    (X : FVec Ideal S100000x64 .f32) (mean var g b : FVec Ideal S64 .f32) (W : FVec Ideal S64x64 .f32)
    (bias : FVec Ideal S64 .f32) (p : Fin 5000) (P : Fin 100000) (q : Fin 64)
    (hx : ∀ k : Fin 64, x0 (ix2 p k) = X (ix2 P k))
    (h1 : ∀ k : Fin 64, x1 (ix2 (0 : Fin 1) k) = mean (ix1 k))
    (h2 : ∀ k : Fin 64, x2 (ix2 (0 : Fin 1) k) = var (ix1 k))
    (h3 : ∀ k : Fin 64, x3 (ix2 (0 : Fin 1) k) = g (ix1 k))
    (h4 : ∀ k : Fin 64, x4 (ix2 (0 : Fin 1) k) = b (ix1 k))
    (h5 : ∀ k : Fin 64, x5 (ix2 k q) = W (ix2 k q))
    (h6 : x6 (ix2 (0 : Fin 1) q) = bias (ix1 q)) :
    k0_pay1 x0 x1 x2 x3 x4 x5 x6 (ix2 p q) = Cert.Layers.reluN (Cert.Layers.linN X mean var g b W bias) (ix2 P q) := by
  unfold k0_pay1
  simp only [shapeCast_self]
  exact relu_apply_congr _ _ _ _ _
    (lin_block_apply dot_S5000x64_S64x64_S5000x64_1_0_0_1_n_n rfl rfl rfl rfl rfl rfl
      Cert.ReferenceIdeal.dot_S100000x64_S64x64_S100000x64_1_0_0_1_n_n rfl rfl rfl rfl rfl rfl
      x0 x1 x2 x3 x4 _ _ x5 x6 _ X mean var g b W bias _ _ _ _ _ p P q hx h1 h2 h3 h4 h5 h6)

/-- The same at an index j of the block and the index J of the array it sits at: J = (5000 i + j₀, j₁). -/
theorem k0_pay1_block (x0 : Vec Ideal S5000x64 .f32) (x1 x2 x3 x4 : Vec Ideal S1x64 .f32) (x5 : Vec Ideal S64x64 .f32)
    (x6 : Vec Ideal S1x64 .f32)
    (X : FVec Ideal S100000x64 .f32) (mean var g b : FVec Ideal S64 .f32) (W : FVec Ideal S64x64 .f32)
    (bias : FVec Ideal S64 .f32) (i : ℕ)
    (hx : ∀ (p : Fin 5000) (P : Fin 100000) (k : Fin 64), P.val = i * 5000 + p.val → x0 (ix2 p k) = X (ix2 P k))
    (h1 : ∀ k : Fin 64, x1 (ix2 (0 : Fin 1) k) = mean (ix1 k))
    (h2 : ∀ k : Fin 64, x2 (ix2 (0 : Fin 1) k) = var (ix1 k))
    (h3 : ∀ k : Fin 64, x3 (ix2 (0 : Fin 1) k) = g (ix1 k))
    (h4 : ∀ k : Fin 64, x4 (ix2 (0 : Fin 1) k) = b (ix1 k))
    (h5 : ∀ k q : Fin 64, x5 (ix2 k q) = W (ix2 k q))
    (h6 : ∀ q : Fin 64, x6 (ix2 (0 : Fin 1) q) = bias (ix1 q))
    (j : S5000x64.Idx) (J : S100000x64.Idx) (hJ0 : (J 0).val = i * 5000 + (j 0).val) (hJ1 : (J 1).val = (j 1).val) :
    k0_pay1 x0 x1 x2 x3 x4 x5 x6 j = Cert.Layers.reluN (Cert.Layers.linN X mean var g b W bias) J := by
  obtain ⟨p, q, rfl⟩ : ∃ (p : Fin 5000) (q : Fin 64), j = ix2 p q := ⟨j 0, j 1, eq_ix2 j⟩
  obtain ⟨P, Q, rfl⟩ : ∃ (P : Fin 100000) (Q : Fin 64), J = ix2 P Q := ⟨J 0, J 1, eq_ix2 J⟩
  have hQ : Q = q := Fin.ext hJ1
  subst hQ
  exact k0_pay1_apply x0 x1 x2 x3 x4 x5 x6 X mean var g b W bias p P Q (fun k => hx p P k hJ0) h1 h2 h3 h4
    (fun k => h5 k Q) (h6 Q)

/-- The linear payload without the rectifier (regions 1, 3, 5, 7) on a block of 5000 rows, read at (p, q), is the host's
    linear stage of the whole node array at (P, q). -/
theorem k1_pay1_apply (x0 : Vec Ideal S5000x64 .f32) (x1 x2 x3 x4 : Vec Ideal S1x64 .f32) (x5 : Vec Ideal S64x64 .f32)
    (x6 : Vec Ideal S1x64 .f32)
    (X : FVec Ideal S100000x64 .f32) (mean var g b : FVec Ideal S64 .f32) (W : FVec Ideal S64x64 .f32)
    (bias : FVec Ideal S64 .f32) (p : Fin 5000) (P : Fin 100000) (q : Fin 64)
    (hx : ∀ k : Fin 64, x0 (ix2 p k) = X (ix2 P k))
    (h1 : ∀ k : Fin 64, x1 (ix2 (0 : Fin 1) k) = mean (ix1 k))
    (h2 : ∀ k : Fin 64, x2 (ix2 (0 : Fin 1) k) = var (ix1 k))
    (h3 : ∀ k : Fin 64, x3 (ix2 (0 : Fin 1) k) = g (ix1 k))
    (h4 : ∀ k : Fin 64, x4 (ix2 (0 : Fin 1) k) = b (ix1 k))
    (h5 : ∀ k : Fin 64, x5 (ix2 k q) = W (ix2 k q))
    (h6 : x6 (ix2 (0 : Fin 1) q) = bias (ix1 q)) :
    k1_pay1 x0 x1 x2 x3 x4 x5 x6 (ix2 p q) = Cert.Layers.linN X mean var g b W bias (ix2 P q) := by
  unfold k1_pay1
  simp only [shapeCast_self]
  exact lin_block_apply dot_S5000x64_S64x64_S5000x64_1_0_0_1_n_n rfl rfl rfl rfl rfl rfl
      Cert.ReferenceIdeal.dot_S100000x64_S64x64_S100000x64_1_0_0_1_n_n rfl rfl rfl rfl rfl rfl
      x0 x1 x2 x3 x4 _ _ x5 x6 _ X mean var g b W bias _ _ _ _ _ p P q hx h1 h2 h3 h4 h5 h6

/-- The same at an index j of the block and the index J of the array it sits at: J = (5000 i + j₀, j₁). -/
theorem k1_pay1_block (x0 : Vec Ideal S5000x64 .f32) (x1 x2 x3 x4 : Vec Ideal S1x64 .f32) (x5 : Vec Ideal S64x64 .f32)
    (x6 : Vec Ideal S1x64 .f32)
    (X : FVec Ideal S100000x64 .f32) (mean var g b : FVec Ideal S64 .f32) (W : FVec Ideal S64x64 .f32)
    (bias : FVec Ideal S64 .f32) (i : ℕ)
    (hx : ∀ (p : Fin 5000) (P : Fin 100000) (k : Fin 64), P.val = i * 5000 + p.val → x0 (ix2 p k) = X (ix2 P k))
    (h1 : ∀ k : Fin 64, x1 (ix2 (0 : Fin 1) k) = mean (ix1 k))
    (h2 : ∀ k : Fin 64, x2 (ix2 (0 : Fin 1) k) = var (ix1 k))
    (h3 : ∀ k : Fin 64, x3 (ix2 (0 : Fin 1) k) = g (ix1 k))
    (h4 : ∀ k : Fin 64, x4 (ix2 (0 : Fin 1) k) = b (ix1 k))
    (h5 : ∀ k q : Fin 64, x5 (ix2 k q) = W (ix2 k q))
    (h6 : ∀ q : Fin 64, x6 (ix2 (0 : Fin 1) q) = bias (ix1 q))
    (j : S5000x64.Idx) (J : S100000x64.Idx) (hJ0 : (J 0).val = i * 5000 + (j 0).val) (hJ1 : (J 1).val = (j 1).val) :
    k1_pay1 x0 x1 x2 x3 x4 x5 x6 j = Cert.Layers.linN X mean var g b W bias J := by
  obtain ⟨p, q, rfl⟩ : ∃ (p : Fin 5000) (q : Fin 64), j = ix2 p q := ⟨j 0, j 1, eq_ix2 j⟩
  obtain ⟨P, Q, rfl⟩ : ∃ (P : Fin 100000) (Q : Fin 64), J = ix2 P Q := ⟨J 0, J 1, eq_ix2 J⟩
  have hQ : Q = q := Fin.ext hJ1
  subst hQ
  exact k1_pay1_apply x0 x1 x2 x3 x4 x5 x6 X mean var g b W bias p P Q (fun k => hx p P k hJ0) h1 h2 h3 h4
    (fun k => h5 k Q) (h6 Q)

/-- Region 3's payload is the same term as region 1's. -/
theorem k3_pay1_block (x0 : Vec Ideal S5000x64 .f32) (x1 x2 x3 x4 : Vec Ideal S1x64 .f32) (x5 : Vec Ideal S64x64 .f32)
    (x6 : Vec Ideal S1x64 .f32)
    (X : FVec Ideal S100000x64 .f32) (mean var g b : FVec Ideal S64 .f32) (W : FVec Ideal S64x64 .f32)
    (bias : FVec Ideal S64 .f32) (i : ℕ)
    (hx : ∀ (p : Fin 5000) (P : Fin 100000) (k : Fin 64), P.val = i * 5000 + p.val → x0 (ix2 p k) = X (ix2 P k))
    (h1 : ∀ k : Fin 64, x1 (ix2 (0 : Fin 1) k) = mean (ix1 k))
    (h2 : ∀ k : Fin 64, x2 (ix2 (0 : Fin 1) k) = var (ix1 k))
    (h3 : ∀ k : Fin 64, x3 (ix2 (0 : Fin 1) k) = g (ix1 k))
    (h4 : ∀ k : Fin 64, x4 (ix2 (0 : Fin 1) k) = b (ix1 k))
    (h5 : ∀ k q : Fin 64, x5 (ix2 k q) = W (ix2 k q))
    (h6 : ∀ q : Fin 64, x6 (ix2 (0 : Fin 1) q) = bias (ix1 q))
    (j : S5000x64.Idx) (J : S100000x64.Idx) (hJ0 : (J 0).val = i * 5000 + (j 0).val) (hJ1 : (J 1).val = (j 1).val) :
    k3_pay1 x0 x1 x2 x3 x4 x5 x6 j = Cert.Layers.linN X mean var g b W bias J :=
  k1_pay1_block x0 x1 x2 x3 x4 x5 x6 X mean var g b W bias i hx h1 h2 h3 h4 h5 h6 j J hJ0 hJ1

/-- Region 5's payload is the same term as region 1's. -/
theorem k5_pay1_block (x0 : Vec Ideal S5000x64 .f32) (x1 x2 x3 x4 : Vec Ideal S1x64 .f32) (x5 : Vec Ideal S64x64 .f32)
    (x6 : Vec Ideal S1x64 .f32)
    (X : FVec Ideal S100000x64 .f32) (mean var g b : FVec Ideal S64 .f32) (W : FVec Ideal S64x64 .f32)
    (bias : FVec Ideal S64 .f32) (i : ℕ)
    (hx : ∀ (p : Fin 5000) (P : Fin 100000) (k : Fin 64), P.val = i * 5000 + p.val → x0 (ix2 p k) = X (ix2 P k))
    (h1 : ∀ k : Fin 64, x1 (ix2 (0 : Fin 1) k) = mean (ix1 k))
    (h2 : ∀ k : Fin 64, x2 (ix2 (0 : Fin 1) k) = var (ix1 k))
    (h3 : ∀ k : Fin 64, x3 (ix2 (0 : Fin 1) k) = g (ix1 k))
    (h4 : ∀ k : Fin 64, x4 (ix2 (0 : Fin 1) k) = b (ix1 k))
    (h5 : ∀ k q : Fin 64, x5 (ix2 k q) = W (ix2 k q))
    (h6 : ∀ q : Fin 64, x6 (ix2 (0 : Fin 1) q) = bias (ix1 q))
    (j : S5000x64.Idx) (J : S100000x64.Idx) (hJ0 : (J 0).val = i * 5000 + (j 0).val) (hJ1 : (J 1).val = (j 1).val) :
    k5_pay1 x0 x1 x2 x3 x4 x5 x6 j = Cert.Layers.linN X mean var g b W bias J :=
  k1_pay1_block x0 x1 x2 x3 x4 x5 x6 X mean var g b W bias i hx h1 h2 h3 h4 h5 h6 j J hJ0 hJ1

/-- Region 7's payload is the same term as region 1's. -/
theorem k7_pay1_block (x0 : Vec Ideal S5000x64 .f32) (x1 x2 x3 x4 : Vec Ideal S1x64 .f32) (x5 : Vec Ideal S64x64 .f32)
    (x6 : Vec Ideal S1x64 .f32)
    (X : FVec Ideal S100000x64 .f32) (mean var g b : FVec Ideal S64 .f32) (W : FVec Ideal S64x64 .f32)
    (bias : FVec Ideal S64 .f32) (i : ℕ)
    (hx : ∀ (p : Fin 5000) (P : Fin 100000) (k : Fin 64), P.val = i * 5000 + p.val → x0 (ix2 p k) = X (ix2 P k))
    (h1 : ∀ k : Fin 64, x1 (ix2 (0 : Fin 1) k) = mean (ix1 k))
    (h2 : ∀ k : Fin 64, x2 (ix2 (0 : Fin 1) k) = var (ix1 k))
    (h3 : ∀ k : Fin 64, x3 (ix2 (0 : Fin 1) k) = g (ix1 k))
    (h4 : ∀ k : Fin 64, x4 (ix2 (0 : Fin 1) k) = b (ix1 k))
    (h5 : ∀ k q : Fin 64, x5 (ix2 k q) = W (ix2 k q))
    (h6 : ∀ q : Fin 64, x6 (ix2 (0 : Fin 1) q) = bias (ix1 q))
    (j : S5000x64.Idx) (J : S100000x64.Idx) (hJ0 : (J 0).val = i * 5000 + (j 0).val) (hJ1 : (J 1).val = (j 1).val) :
    k7_pay1 x0 x1 x2 x3 x4 x5 x6 j = Cert.Layers.linN X mean var g b W bias J :=
  k1_pay1_block x0 x1 x2 x3 x4 x5 x6 X mean var g b W bias i hx h1 h2 h3 h4 h5 h6 j J hJ0 hJ1

/-- The residual payload h + max(aggregate + bias, 0) on a block of 5000 rows, read at (p, q), is the host's residual
    stage of the whole node arrays at (P, q), when the block's entries (p, q) are the arrays' entries (P, q). -/
theorem k2_pay1_apply (x0 : Vec Ideal S5000x64 .f32) (x1 : Vec Ideal S1x64 .f32) (x2 : Vec Ideal S5000x64 .f32)
    (agg : FVec Ideal S100000x64 .f32) (bias : FVec Ideal S64 .f32) (h : FVec Ideal S100000x64 .f32)
    (p : Fin 5000) (P : Fin 100000) (q : Fin 64)
    (ha : x0 (ix2 p q) = agg (ix2 P q)) (hb : x1 (ix2 (0 : Fin 1) q) = bias (ix1 q))
    (hh : x2 (ix2 p q) = h (ix2 P q)) :
    k2_pay1 x0 x1 x2 (ix2 p q) = Cert.Layers.residN agg bias h (ix2 P q) := by
  unfold k2_pay1
  simp only [shapeCast_self]
  exact resid_block_apply x0 x1 x2 _ agg bias h _ _ _ p P q ha hb hh

/-- The same at an index j of the block and the index J of the array it sits at: J = (5000 i + j₀, j₁). -/
theorem k2_pay1_block (x0 : Vec Ideal S5000x64 .f32) (x1 : Vec Ideal S1x64 .f32) (x2 : Vec Ideal S5000x64 .f32)
    (agg : FVec Ideal S100000x64 .f32) (bias : FVec Ideal S64 .f32) (h : FVec Ideal S100000x64 .f32) (i : ℕ)
    (ha : ∀ (p : Fin 5000) (P : Fin 100000) (q : Fin 64), P.val = i * 5000 + p.val → x0 (ix2 p q) = agg (ix2 P q))
    (hb : ∀ q : Fin 64, x1 (ix2 (0 : Fin 1) q) = bias (ix1 q))
    (hh : ∀ (p : Fin 5000) (P : Fin 100000) (q : Fin 64), P.val = i * 5000 + p.val → x2 (ix2 p q) = h (ix2 P q))
    (j : S5000x64.Idx) (J : S100000x64.Idx) (hJ0 : (J 0).val = i * 5000 + (j 0).val) (hJ1 : (J 1).val = (j 1).val) :
    k2_pay1 x0 x1 x2 j = Cert.Layers.residN agg bias h J := by
  obtain ⟨p, q, rfl⟩ : ∃ (p : Fin 5000) (q : Fin 64), j = ix2 p q := ⟨j 0, j 1, eq_ix2 j⟩
  obtain ⟨P, Q, rfl⟩ : ∃ (P : Fin 100000) (Q : Fin 64), J = ix2 P Q := ⟨J 0, J 1, eq_ix2 J⟩
  have hQ : Q = q := Fin.ext hJ1
  subst hQ
  exact k2_pay1_apply x0 x1 x2 agg bias h p P Q (ha p P Q hJ0) (hb Q) (hh p P Q hJ0)

/-- The same at an index j of the block and the index J of the array it sits at: J = (5000 i + j₀, j₁). -/
theorem k4_pay1_block (x0 : Vec Ideal S5000x64 .f32) (x1 : Vec Ideal S1x64 .f32) (x2 : Vec Ideal S5000x64 .f32)
    (agg : FVec Ideal S100000x64 .f32) (bias : FVec Ideal S64 .f32) (h : FVec Ideal S100000x64 .f32) (i : ℕ)
    (ha : ∀ (p : Fin 5000) (P : Fin 100000) (q : Fin 64), P.val = i * 5000 + p.val → x0 (ix2 p q) = agg (ix2 P q))
    (hb : ∀ q : Fin 64, x1 (ix2 (0 : Fin 1) q) = bias (ix1 q))
    (hh : ∀ (p : Fin 5000) (P : Fin 100000) (q : Fin 64), P.val = i * 5000 + p.val → x2 (ix2 p q) = h (ix2 P q))
    (j : S5000x64.Idx) (J : S100000x64.Idx) (hJ0 : (J 0).val = i * 5000 + (j 0).val) (hJ1 : (J 1).val = (j 1).val) :
    k4_pay1 x0 x1 x2 j = Cert.Layers.residN agg bias h J :=
  k2_pay1_block x0 x1 x2 agg bias h i ha hb hh j J hJ0 hJ1

/-- The same at an index j of the block and the index J of the array it sits at: J = (5000 i + j₀, j₁). -/
theorem k6_pay1_block (x0 : Vec Ideal S5000x64 .f32) (x1 : Vec Ideal S1x64 .f32) (x2 : Vec Ideal S5000x64 .f32)
    (agg : FVec Ideal S100000x64 .f32) (bias : FVec Ideal S64 .f32) (h : FVec Ideal S100000x64 .f32) (i : ℕ)
    (ha : ∀ (p : Fin 5000) (P : Fin 100000) (q : Fin 64), P.val = i * 5000 + p.val → x0 (ix2 p q) = agg (ix2 P q))
    (hb : ∀ q : Fin 64, x1 (ix2 (0 : Fin 1) q) = bias (ix1 q))
    (hh : ∀ (p : Fin 5000) (P : Fin 100000) (q : Fin 64), P.val = i * 5000 + p.val → x2 (ix2 p q) = h (ix2 P q))
    (j : S5000x64.Idx) (J : S100000x64.Idx) (hJ0 : (J 0).val = i * 5000 + (j 0).val) (hJ1 : (J 1).val = (j 1).val) :
    k6_pay1 x0 x1 x2 j = Cert.Layers.residN agg bias h J :=
  k2_pay1_block x0 x1 x2 agg bias h i ha hb hh j J hJ0 hJ1

/-- The same at an index j of the block and the index J of the array it sits at: J = (5000 i + j₀, j₁). -/
theorem k8_pay1_block (x0 : Vec Ideal S5000x64 .f32) (x1 : Vec Ideal S1x64 .f32) (x2 : Vec Ideal S5000x64 .f32)
    (agg : FVec Ideal S100000x64 .f32) (bias : FVec Ideal S64 .f32) (h : FVec Ideal S100000x64 .f32) (i : ℕ)
    (ha : ∀ (p : Fin 5000) (P : Fin 100000) (q : Fin 64), P.val = i * 5000 + p.val → x0 (ix2 p q) = agg (ix2 P q))
    (hb : ∀ q : Fin 64, x1 (ix2 (0 : Fin 1) q) = bias (ix1 q))
    (hh : ∀ (p : Fin 5000) (P : Fin 100000) (q : Fin 64), P.val = i * 5000 + p.val → x2 (ix2 p q) = h (ix2 P q))
    (j : S5000x64.Idx) (J : S100000x64.Idx) (hJ0 : (J 0).val = i * 5000 + (j 0).val) (hJ1 : (J 1).val = (j 1).val) :
    k8_pay1 x0 x1 x2 j = Cert.Layers.residN agg bias h J :=
  k2_pay1_block x0 x1 x2 agg bias h i ha hb hh j J hJ0 hJ1

/-- The rectified linear payload on the 512 pooled rows (regions 9, 10), read at (p, q), is the host's rectified linear
    stage of the pooled array at (P, q). -/
theorem k9_pay1_apply (x0 : Vec Ideal S512x64 .f32) (x1 x2 x3 x4 : Vec Ideal S1x64 .f32) (x5 : Vec Ideal S64x64 .f32)
    (x6 : Vec Ideal S1x64 .f32)
    (X : FVec Ideal S512x64 .f32) (mean var g b : FVec Ideal S64 .f32) (W : FVec Ideal S64x64 .f32)
    (bias : FVec Ideal S64 .f32) (p : Fin 512) (P : Fin 512) (q : Fin 64)
    (hx : ∀ k : Fin 64, x0 (ix2 p k) = X (ix2 P k))
    (h1 : ∀ k : Fin 64, x1 (ix2 (0 : Fin 1) k) = mean (ix1 k))
    (h2 : ∀ k : Fin 64, x2 (ix2 (0 : Fin 1) k) = var (ix1 k))
    (h3 : ∀ k : Fin 64, x3 (ix2 (0 : Fin 1) k) = g (ix1 k))
    (h4 : ∀ k : Fin 64, x4 (ix2 (0 : Fin 1) k) = b (ix1 k))
    (h5 : ∀ k : Fin 64, x5 (ix2 k q) = W (ix2 k q))
    (h6 : x6 (ix2 (0 : Fin 1) q) = bias (ix1 q)) :
    k9_pay1 x0 x1 x2 x3 x4 x5 x6 (ix2 p q) = Cert.Layers.reluG (Cert.Layers.linG X mean var g b W bias) (ix2 P q) := by
  unfold k9_pay1
  simp only [shapeCast_self]
  exact relu_apply_congr _ _ _ _ _
    (lin_block_apply dot_S512x64_S64x64_S512x64_1_0_0_1_n_n rfl rfl rfl rfl rfl rfl
      Cert.ReferenceIdeal.dot_S512x64_S64x64_S512x64_1_0_0_1_n_n rfl rfl rfl rfl rfl rfl
      x0 x1 x2 x3 x4 _ _ x5 x6 _ X mean var g b W bias _ _ _ _ _ p P q hx h1 h2 h3 h4 h5 h6)

/-- The same at an index j of the block and the index J of the array it sits at: J = (512 i + j₀, j₁). -/
theorem k9_pay1_block (x0 : Vec Ideal S512x64 .f32) (x1 x2 x3 x4 : Vec Ideal S1x64 .f32) (x5 : Vec Ideal S64x64 .f32)
    (x6 : Vec Ideal S1x64 .f32)
    (X : FVec Ideal S512x64 .f32) (mean var g b : FVec Ideal S64 .f32) (W : FVec Ideal S64x64 .f32)
    (bias : FVec Ideal S64 .f32) (i : ℕ)
    (hx : ∀ (p : Fin 512) (P : Fin 512) (k : Fin 64), P.val = i * 512 + p.val → x0 (ix2 p k) = X (ix2 P k))
    (h1 : ∀ k : Fin 64, x1 (ix2 (0 : Fin 1) k) = mean (ix1 k))
    (h2 : ∀ k : Fin 64, x2 (ix2 (0 : Fin 1) k) = var (ix1 k))
    (h3 : ∀ k : Fin 64, x3 (ix2 (0 : Fin 1) k) = g (ix1 k))
    (h4 : ∀ k : Fin 64, x4 (ix2 (0 : Fin 1) k) = b (ix1 k))
    (h5 : ∀ k q : Fin 64, x5 (ix2 k q) = W (ix2 k q))
    (h6 : ∀ q : Fin 64, x6 (ix2 (0 : Fin 1) q) = bias (ix1 q))
    (j : S512x64.Idx) (J : S512x64.Idx) (hJ0 : (J 0).val = i * 512 + (j 0).val) (hJ1 : (J 1).val = (j 1).val) :
    k9_pay1 x0 x1 x2 x3 x4 x5 x6 j = Cert.Layers.reluG (Cert.Layers.linG X mean var g b W bias) J := by
  obtain ⟨p, q, rfl⟩ : ∃ (p : Fin 512) (q : Fin 64), j = ix2 p q := ⟨j 0, j 1, eq_ix2 j⟩
  obtain ⟨P, Q, rfl⟩ : ∃ (P : Fin 512) (Q : Fin 64), J = ix2 P Q := ⟨J 0, J 1, eq_ix2 J⟩
  have hQ : Q = q := Fin.ext hJ1
  subst hQ
  exact k9_pay1_apply x0 x1 x2 x3 x4 x5 x6 X mean var g b W bias p P Q (fun k => hx p P k hJ0) h1 h2 h3 h4
    (fun k => h5 k Q) (h6 Q)

/-- Region 10's payload is the same term as region 9's. -/
theorem k10_pay1_block (x0 : Vec Ideal S512x64 .f32) (x1 x2 x3 x4 : Vec Ideal S1x64 .f32) (x5 : Vec Ideal S64x64 .f32)
    (x6 : Vec Ideal S1x64 .f32)
    (X : FVec Ideal S512x64 .f32) (mean var g b : FVec Ideal S64 .f32) (W : FVec Ideal S64x64 .f32)
    (bias : FVec Ideal S64 .f32) (i : ℕ)
    (hx : ∀ (p : Fin 512) (P : Fin 512) (k : Fin 64), P.val = i * 512 + p.val → x0 (ix2 p k) = X (ix2 P k))
    (h1 : ∀ k : Fin 64, x1 (ix2 (0 : Fin 1) k) = mean (ix1 k))
    (h2 : ∀ k : Fin 64, x2 (ix2 (0 : Fin 1) k) = var (ix1 k))
    (h3 : ∀ k : Fin 64, x3 (ix2 (0 : Fin 1) k) = g (ix1 k))
    (h4 : ∀ k : Fin 64, x4 (ix2 (0 : Fin 1) k) = b (ix1 k))
    (h5 : ∀ k q : Fin 64, x5 (ix2 k q) = W (ix2 k q))
    (h6 : ∀ q : Fin 64, x6 (ix2 (0 : Fin 1) q) = bias (ix1 q))
    (j : S512x64.Idx) (J : S512x64.Idx) (hJ0 : (J 0).val = i * 512 + (j 0).val) (hJ1 : (J 1).val = (j 1).val) :
    k10_pay1 x0 x1 x2 x3 x4 x5 x6 j = Cert.Layers.reluG (Cert.Layers.linG X mean var g b W bias) J :=
  k9_pay1_block x0 x1 x2 x3 x4 x5 x6 X mean var g b W bias i hx h1 h2 h3 h4 h5 h6 j J hJ0 hJ1

/-- The normalisation payload on the 512 pooled rows, read at (p, k), is the host's normalisation at (P, k). -/
theorem k11_pay1_apply (x0 : Vec Ideal S512x64 .f32) (x1 x2 x3 x4 : Vec Ideal S1x64 .f32)
    (X : FVec Ideal S512x64 .f32) (mean var g b : FVec Ideal S64 .f32) (p : Fin 512) (P : Fin 512) (k : Fin 64)
    (hx : x0 (ix2 p k) = X (ix2 P k))
    (h1 : ∀ k : Fin 64, x1 (ix2 (0 : Fin 1) k) = mean (ix1 k))
    (h2 : ∀ k : Fin 64, x2 (ix2 (0 : Fin 1) k) = var (ix1 k))
    (h3 : ∀ k : Fin 64, x3 (ix2 (0 : Fin 1) k) = g (ix1 k))
    (h4 : ∀ k : Fin 64, x4 (ix2 (0 : Fin 1) k) = b (ix1 k)) :
    k11_pay1 x0 x1 x2 x3 x4 (ix2 p k) = Cert.Layers.bnG X mean var g b (ix2 P k) := by
  unfold k11_pay1
  simp only [shapeCast_self]
  exact bn_block_apply x0 x1 x2 x3 x4 _ X mean var g b _ _ _ p P k hx (h1 k) (h2 k) (h3 k) (h4 k)

/-- The same at an index j of the block and the index J of the array it sits at: J = (512 i + j₀, j₁). -/
theorem k11_pay1_block (x0 : Vec Ideal S512x64 .f32) (x1 x2 x3 x4 : Vec Ideal S1x64 .f32)
    (X : FVec Ideal S512x64 .f32) (mean var g b : FVec Ideal S64 .f32) (i : ℕ)
    (hx : ∀ (p : Fin 512) (P : Fin 512) (k : Fin 64), P.val = i * 512 + p.val → x0 (ix2 p k) = X (ix2 P k))
    (h1 : ∀ k : Fin 64, x1 (ix2 (0 : Fin 1) k) = mean (ix1 k))
    (h2 : ∀ k : Fin 64, x2 (ix2 (0 : Fin 1) k) = var (ix1 k))
    (h3 : ∀ k : Fin 64, x3 (ix2 (0 : Fin 1) k) = g (ix1 k))
    (h4 : ∀ k : Fin 64, x4 (ix2 (0 : Fin 1) k) = b (ix1 k))
    (j : S512x64.Idx) (J : S512x64.Idx) (hJ0 : (J 0).val = i * 512 + (j 0).val) (hJ1 : (J 1).val = (j 1).val) :
    k11_pay1 x0 x1 x2 x3 x4 j = Cert.Layers.bnG X mean var g b J := by
  obtain ⟨p, q, rfl⟩ : ∃ (p : Fin 512) (q : Fin 64), j = ix2 p q := ⟨j 0, j 1, eq_ix2 j⟩
  obtain ⟨P, Q, rfl⟩ : ∃ (P : Fin 512) (Q : Fin 64), J = ix2 P Q := ⟨J 0, J 1, eq_ix2 J⟩
  have hQ : Q = q := Fin.ext hJ1
  subst hQ
  exact k11_pay1_apply x0 x1 x2 x3 x4 X mean var g b p P Q (hx p P Q hJ0) h1 h2 h3 h4

/-- All offsets of a whole-buffer access are zero. -/
theorem zero_offsets : (![0, 0] : Fin 2 → Nat) = fun _ => 0 := funext fun a => by fin_cases a <;> rfl

end Cert.KernelIdeal.Regions

end
-- ==== Proof.Region0.lean ====
/-
  Region 0's output array after the region is the host's rectified linear stage of the whole node array.

  The region runs over 20 points; point t loads rows [5000 t, 5000 t + 5000) of each row-blocked operand and every
  [1, 64] and [64, 64] operand whole, and writes back the same rows of the output. What point t writes back is block t of one
  function of the whole arrays (the stage), and the blocks cover the 100000 rows: row r lies in block r / 5000.
-/
import proofs.«142600_j69965017252460_1_alg».proof.Proof.Gen.KernelIdeal.Frame
import proofs.«142600_j69965017252460_1_alg».proof.Proof.Layers
import proofs.«142600_j69965017252460_1_alg».proof.Proof.LibLayer
import proofs.«142600_j69965017252460_1_alg».proof.Proof.RegionPayload

set_option maxRecDepth 16384

noncomputable section

namespace Cert.KernelIdeal.Regions

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The index maps of region 0, decided over its 20 points: the row-blocked operands and the output sit at block
    (t, 0); every other operand sits at block (0, 0). -/
theorem index0 : ∀ t : Fin cfg0.N,
    win0_0.index t (0 : Fin 2) = t.val
    ∧ win0_0.index t (1 : Fin 2) = 0
    ∧ win0_7.index t (0 : Fin 2) = t.val
    ∧ win0_7.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0 :=
  (by decide +kernel : ∀ t : Fin grid0.N, _)

/-- An index of the output array is in point t's block iff each coordinate is in the block's range on its axis. -/
theorem mem_blk0 (t : Fin cfg0.N) (i : S100000x64.Idx) :
    i ∈ ((cfg0.win 7).blk t).view.set ↔ ∀ a : Fin 2, win0_7.index t a * S5000x64.size a ≤ (i a).val
      ∧ (i a).val < win0_7.index t a * S5000x64.size a + S5000x64.size a := by
  show i ∈ ((View.whole main_v44).slice (win0_7.rect t)).set ↔ _
  rw [View.set_slice_whole, Rect.mem_set_unit]
  exact Iff.rfl

/-- The blocks cover the output array: row r lies in the block of point r / 5000. -/
theorem cover0 (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 20 := N_0
  have ht : (i 0).val / 5000 < cfg0.N := by rw [hN]; omega
  have o0 : win0_7.index ⟨(i 0).val / 5000, ht⟩ (0 : Fin 2) = (i 0).val / 5000 := (index0 ⟨(i 0).val / 5000, ht⟩).2.2.1
  have o1 : win0_7.index ⟨(i 0).val / 5000, ht⟩ (1 : Fin 2) = 0 := (index0 ⟨(i 0).val / 5000, ht⟩).2.2.2.1
  refine ⟨⟨(i 0).val / 5000, ht⟩, flush0_7 _, ?_⟩
  rw [mem_blk0]
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    rw [o0]
    omega
  | ⟨1, _⟩ =>
    show win0_7.index ⟨(i 0).val / 5000, ht⟩ (1 : Fin 2) * 64 ≤ (i 1).val
      ∧ (i 1).val < win0_7.index ⟨(i 0).val / 5000, ht⟩ (1 : Fin 2) * 64 + 64
    rw [o1]
    omega

/-- What point t writes back to the output is block t of the rectified linear stage of the whole node array. -/
theorem flushed0_eq (c : Dev nD) (x : FVec Ideal S100000x64 .f32) (mean var g b : FVec Ideal S64 .f32)
    (W : FVec Ideal S64x64 .f32) (bias : FVec Ideal S64 .f32)
    (e0 : V c main_arg0 = x) (e1 : ∀ q : Fin 64, V c main_v39 (ix2 (0 : Fin 1) q) = mean (ix1 q))
    (e2 : ∀ q : Fin 64, V c main_v40 (ix2 (0 : Fin 1) q) = var (ix1 q))
    (e3 : ∀ q : Fin 64, V c main_v41 (ix2 (0 : Fin 1) q) = g (ix1 q))
    (e4 : ∀ q : Fin 64, V c main_v42 (ix2 (0 : Fin 1) q) = b (ix1 q))
    (e5 : V c main_arg5 = W) (e6 : ∀ q : Fin 64, V c main_v43 (ix2 (0 : Fin 1) q) = bias (ix1 q))
    (t : Fin cfg0.N) :
    (dat0 (F := Ideal) V c).flushed 7 t = ((cfg0.win 7).blk t).view.read (Elt Ideal)
      (Cert.Layers.reluN (Cert.Layers.linN x mean var g b W bias)) := by
  show (cfg0.win 7).cut (grid0.coords t) ((dat0 (F := Ideal) V c).after 7 t) = _
  rw [after0_7]
  unfold out0_7
  rw [View.canon_unit_zero zero_offsets]
  simp only [View.ld_unit_zero (S := S5000x64) zero_offsets,
    View.ld_unit_zero (S := S1x64) zero_offsets,
    View.ld_unit_zero (S := S64x64) zero_offsets]
  obtain ⟨r0a, r0b, r7a, r7b, z1a, z1b, z2a, z2b, z3a, z3b, z4a, z4b, z5a, z5b, z6a, z6b⟩ := index0 t
  funext j
  show k0_pay1 (iblk0 V c 0 t) (iblk0 V c 1 t) (iblk0 V c 2 t) (iblk0 V c 3 t) (iblk0 V c 4 t) (iblk0 V c 5 t) (iblk0 V c 6 t) j
    = (Cert.Layers.reluN (Cert.Layers.linN x mean var g b W bias)) (((cfg0.win 7).blk t).view.emb j)
  refine k0_pay1_block _ _ _ _ _ _ _ x mean var g b W bias t.val ?_ ?_ ?_ ?_ ?_ ?_ ?_ j _ ?_ ?_
  · intro p P k hP
    show V c main_arg0 (((cfg0.win 0).blk t).view.emb (ix2 p k)) = x (ix2 P k)
    refine (congrFun e0 _).trans (congrArg x (funext fun a => Fin.ext ?_))
    match a with
    | ⟨0, _⟩ => show win0_0.index t (0 : Fin 2) * 5000 + 1 * p.val = P.val; omega
    | ⟨1, _⟩ => show win0_0.index t (1 : Fin 2) * 64 + 1 * k.val = k.val; omega
  · intro k
    show V c main_v39 (((cfg0.win 1).blk t).view.emb (ix2 (0 : Fin 1) k)) = mean (ix1 k)
    refine (congrArg (V c main_v39) (funext fun a => Fin.ext ?_)).trans (e1 k)
    match a with
    | ⟨0, _⟩ => show win0_1.index t (0 : Fin 2) * 1 + 1 * 0 = 0; omega
    | ⟨1, _⟩ => show win0_1.index t (1 : Fin 2) * 64 + 1 * k.val = k.val; omega
  · intro k
    show V c main_v40 (((cfg0.win 2).blk t).view.emb (ix2 (0 : Fin 1) k)) = var (ix1 k)
    refine (congrArg (V c main_v40) (funext fun a => Fin.ext ?_)).trans (e2 k)
    match a with
    | ⟨0, _⟩ => show win0_2.index t (0 : Fin 2) * 1 + 1 * 0 = 0; omega
    | ⟨1, _⟩ => show win0_2.index t (1 : Fin 2) * 64 + 1 * k.val = k.val; omega
  · intro k
    show V c main_v41 (((cfg0.win 3).blk t).view.emb (ix2 (0 : Fin 1) k)) = g (ix1 k)
    refine (congrArg (V c main_v41) (funext fun a => Fin.ext ?_)).trans (e3 k)
    match a with
    | ⟨0, _⟩ => show win0_3.index t (0 : Fin 2) * 1 + 1 * 0 = 0; omega
    | ⟨1, _⟩ => show win0_3.index t (1 : Fin 2) * 64 + 1 * k.val = k.val; omega
  · intro k
    show V c main_v42 (((cfg0.win 4).blk t).view.emb (ix2 (0 : Fin 1) k)) = b (ix1 k)
    refine (congrArg (V c main_v42) (funext fun a => Fin.ext ?_)).trans (e4 k)
    match a with
    | ⟨0, _⟩ => show win0_4.index t (0 : Fin 2) * 1 + 1 * 0 = 0; omega
    | ⟨1, _⟩ => show win0_4.index t (1 : Fin 2) * 64 + 1 * k.val = k.val; omega
  · intro k q
    show V c main_arg5 (((cfg0.win 5).blk t).view.emb (ix2 k q)) = W (ix2 k q)
    refine (congrFun e5 _).trans (congrArg W (funext fun a => Fin.ext ?_))
    match a with
    | ⟨0, _⟩ => show win0_5.index t (0 : Fin 2) * 64 + 1 * k.val = k.val; omega
    | ⟨1, _⟩ => show win0_5.index t (1 : Fin 2) * 64 + 1 * q.val = q.val; omega
  · intro k
    show V c main_v43 (((cfg0.win 6).blk t).view.emb (ix2 (0 : Fin 1) k)) = bias (ix1 k)
    refine (congrArg (V c main_v43) (funext fun a => Fin.ext ?_)).trans (e6 k)
    match a with
    | ⟨0, _⟩ => show win0_6.index t (0 : Fin 2) * 1 + 1 * 0 = 0; omega
    | ⟨1, _⟩ => show win0_6.index t (1 : Fin 2) * 64 + 1 * k.val = k.val; omega
  · show win0_7.index t (0 : Fin 2) * 5000 + 1 * (j 0).val = t.val * 5000 + (j 0).val; omega
  · show win0_7.index t (1 : Fin 2) * 64 + 1 * (j 1).val = (j 1).val; omega

/-- Region 0's output array after the region is the host's rectified linear stage of the whole node array. -/
theorem region0_out (c : Dev nD) (x : FVec Ideal S100000x64 .f32) (mean var g b : FVec Ideal S64 .f32)
    (W : FVec Ideal S64x64 .f32) (bias : FVec Ideal S64 .f32)
    (e0 : V c main_arg0 = x) (e1 : ∀ q : Fin 64, V c main_v39 (ix2 (0 : Fin 1) q) = mean (ix1 q))
    (e2 : ∀ q : Fin 64, V c main_v40 (ix2 (0 : Fin 1) q) = var (ix1 q))
    (e3 : ∀ q : Fin 64, V c main_v41 (ix2 (0 : Fin 1) q) = g (ix1 q))
    (e4 : ∀ q : Fin 64, V c main_v42 (ix2 (0 : Fin 1) q) = b (ix1 q))
    (e5 : V c main_arg5 = W) (e6 : ∀ q : Fin 64, V c main_v43 (ix2 (0 : Fin 1) q) = bias (ix1 q)) :
    (dat0 (F := Ideal) V c).arrAt 7 cfg0.N = Cert.Layers.reluN (Cert.Layers.linN x mean var g b W bias) :=
  (dat0 (F := Ideal) V c).arrAt_eq_of_cover 7 _
    (fun t _ => flushed0_eq V c x mean var g b W bias e0 e1 e2 e3 e4 e5 e6 t) cover0

end Cert.KernelIdeal.Regions

end
-- ==== Proof.Region1.lean ====
/-
  Region 1's output array after the region is the host's linear stage of the whole node array.

  The region runs over 20 points; point t loads rows [5000 t, 5000 t + 5000) of each row-blocked operand and every
  [1, 64] and [64, 64] operand whole, and writes back the same rows of the output. What point t writes back is block t of one
  function of the whole arrays (the stage), and the blocks cover the 100000 rows: row r lies in block r / 5000.
-/
import proofs.«142600_j69965017252460_1_alg».proof.Proof.Gen.KernelIdeal.Frame
import proofs.«142600_j69965017252460_1_alg».proof.Proof.Layers
import proofs.«142600_j69965017252460_1_alg».proof.Proof.LibLayer
import proofs.«142600_j69965017252460_1_alg».proof.Proof.RegionPayload

set_option maxRecDepth 16384

noncomputable section

namespace Cert.KernelIdeal.Regions

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The index maps of region 1, decided over its 20 points: the row-blocked operands and the output sit at block
    (t, 0); every other operand sits at block (0, 0). -/
theorem index1 : ∀ t : Fin cfg1.N,
    win1_0.index t (0 : Fin 2) = t.val
    ∧ win1_0.index t (1 : Fin 2) = 0
    ∧ win1_7.index t (0 : Fin 2) = t.val
    ∧ win1_7.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0 :=
  (by decide +kernel : ∀ t : Fin grid1.N, _)

/-- An index of the output array is in point t's block iff each coordinate is in the block's range on its axis. -/
theorem mem_blk1 (t : Fin cfg1.N) (i : S100000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v61).slice (win1_7.rect t)).set ↔ _
  rw [View.set_slice_whole, Rect.mem_set_unit]
  exact Iff.rfl

/-- The blocks cover the output array: row r lies in the block of point r / 5000. -/
theorem cover1 (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 20 := N_1
  have ht : (i 0).val / 5000 < cfg1.N := by rw [hN]; omega
  have o0 : win1_7.index ⟨(i 0).val / 5000, ht⟩ (0 : Fin 2) = (i 0).val / 5000 := (index1 ⟨(i 0).val / 5000, ht⟩).2.2.1
  have o1 : win1_7.index ⟨(i 0).val / 5000, ht⟩ (1 : Fin 2) = 0 := (index1 ⟨(i 0).val / 5000, ht⟩).2.2.2.1
  refine ⟨⟨(i 0).val / 5000, ht⟩, flush1_7 _, ?_⟩
  rw [mem_blk1]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    rw [o0]
    omega
  | ⟨1, _⟩ =>
    show win1_7.index ⟨(i 0).val / 5000, ht⟩ (1 : Fin 2) * 64 ≤ (i 1).val
      ∧ (i 1).val < win1_7.index ⟨(i 0).val / 5000, ht⟩ (1 : Fin 2) * 64 + 64
    rw [o1]
    omega

/-- What point t writes back to the output is block t of the linear stage of the whole node array. -/
theorem flushed1_eq (c : Dev nD) (x : FVec Ideal S100000x64 .f32) (mean var g b : FVec Ideal S64 .f32)
    (W : FVec Ideal S64x64 .f32) (bias : FVec Ideal S64 .f32)
    (e0 : V c main_v44 = x) (e1 : ∀ q : Fin 64, V c main_v56 (ix2 (0 : Fin 1) q) = mean (ix1 q))
    (e2 : ∀ q : Fin 64, V c main_v57 (ix2 (0 : Fin 1) q) = var (ix1 q))
    (e3 : ∀ q : Fin 64, V c main_v58 (ix2 (0 : Fin 1) q) = g (ix1 q))
    (e4 : ∀ q : Fin 64, V c main_v59 (ix2 (0 : Fin 1) q) = b (ix1 q))
    (e5 : V c main_v55 = W) (e6 : ∀ q : Fin 64, V c main_v60 (ix2 (0 : Fin 1) q) = bias (ix1 q))
    (t : Fin cfg1.N) :
    (dat1 (F := Ideal) V c).flushed 7 t = ((cfg1.win 7).blk t).view.read (Elt Ideal)
      (Cert.Layers.linN x mean var g b W bias) := by
  show (cfg1.win 7).cut (grid1.coords t) ((dat1 (F := Ideal) V c).after 7 t) = _
  rw [after1_7]
  unfold out1_7
  rw [View.canon_unit_zero zero_offsets]
  simp only [View.ld_unit_zero (S := S5000x64) zero_offsets,
    View.ld_unit_zero (S := S1x64) zero_offsets,
    View.ld_unit_zero (S := S64x64) zero_offsets]
  obtain ⟨r0a, r0b, r7a, r7b, z1a, z1b, z2a, z2b, z3a, z3b, z4a, z4b, z5a, z5b, z6a, z6b⟩ := index1 t
  funext j
  show k1_pay1 (iblk1 V c 0 t) (iblk1 V c 1 t) (iblk1 V c 2 t) (iblk1 V c 3 t) (iblk1 V c 4 t) (iblk1 V c 5 t) (iblk1 V c 6 t) j
    = (Cert.Layers.linN x mean var g b W bias) (((cfg1.win 7).blk t).view.emb j)
  refine k1_pay1_block _ _ _ _ _ _ _ x mean var g b W bias t.val ?_ ?_ ?_ ?_ ?_ ?_ ?_ j _ ?_ ?_
  · intro p P k hP
    show V c main_v44 (((cfg1.win 0).blk t).view.emb (ix2 p k)) = x (ix2 P k)
    refine (congrFun e0 _).trans (congrArg x (funext fun a => Fin.ext ?_))
    match a with
    | ⟨0, _⟩ => show win1_0.index t (0 : Fin 2) * 5000 + 1 * p.val = P.val; omega
    | ⟨1, _⟩ => show win1_0.index t (1 : Fin 2) * 64 + 1 * k.val = k.val; omega
  · intro k
    show V c main_v56 (((cfg1.win 1).blk t).view.emb (ix2 (0 : Fin 1) k)) = mean (ix1 k)
    refine (congrArg (V c main_v56) (funext fun a => Fin.ext ?_)).trans (e1 k)
    match a with
    | ⟨0, _⟩ => show win1_1.index t (0 : Fin 2) * 1 + 1 * 0 = 0; omega
    | ⟨1, _⟩ => show win1_1.index t (1 : Fin 2) * 64 + 1 * k.val = k.val; omega
  · intro k
    show V c main_v57 (((cfg1.win 2).blk t).view.emb (ix2 (0 : Fin 1) k)) = var (ix1 k)
    refine (congrArg (V c main_v57) (funext fun a => Fin.ext ?_)).trans (e2 k)
    match a with
    | ⟨0, _⟩ => show win1_2.index t (0 : Fin 2) * 1 + 1 * 0 = 0; omega
    | ⟨1, _⟩ => show win1_2.index t (1 : Fin 2) * 64 + 1 * k.val = k.val; omega
  · intro k
    show V c main_v58 (((cfg1.win 3).blk t).view.emb (ix2 (0 : Fin 1) k)) = g (ix1 k)
    refine (congrArg (V c main_v58) (funext fun a => Fin.ext ?_)).trans (e3 k)
    match a with
    | ⟨0, _⟩ => show win1_3.index t (0 : Fin 2) * 1 + 1 * 0 = 0; omega
    | ⟨1, _⟩ => show win1_3.index t (1 : Fin 2) * 64 + 1 * k.val = k.val; omega
  · intro k
    show V c main_v59 (((cfg1.win 4).blk t).view.emb (ix2 (0 : Fin 1) k)) = b (ix1 k)
    refine (congrArg (V c main_v59) (funext fun a => Fin.ext ?_)).trans (e4 k)
    match a with
    | ⟨0, _⟩ => show win1_4.index t (0 : Fin 2) * 1 + 1 * 0 = 0; omega
    | ⟨1, _⟩ => show win1_4.index t (1 : Fin 2) * 64 + 1 * k.val = k.val; omega
  · intro k q
    show V c main_v55 (((cfg1.win 5).blk t).view.emb (ix2 k q)) = W (ix2 k q)
    refine (congrFun e5 _).trans (congrArg W (funext fun a => Fin.ext ?_))
    match a with
    | ⟨0, _⟩ => show win1_5.index t (0 : Fin 2) * 64 + 1 * k.val = k.val; omega
    | ⟨1, _⟩ => show win1_5.index t (1 : Fin 2) * 64 + 1 * q.val = q.val; omega
  · intro k
    show V c main_v60 (((cfg1.win 6).blk t).view.emb (ix2 (0 : Fin 1) k)) = bias (ix1 k)
    refine (congrArg (V c main_v60) (funext fun a => Fin.ext ?_)).trans (e6 k)
    match a with
    | ⟨0, _⟩ => show win1_6.index t (0 : Fin 2) * 1 + 1 * 0 = 0; omega
    | ⟨1, _⟩ => show win1_6.index t (1 : Fin 2) * 64 + 1 * k.val = k.val; omega
  · show win1_7.index t (0 : Fin 2) * 5000 + 1 * (j 0).val = t.val * 5000 + (j 0).val; omega
  · show win1_7.index t (1 : Fin 2) * 64 + 1 * (j 1).val = (j 1).val; omega

/-- Region 1's output array after the region is the host's linear stage of the whole node array. -/
theorem region1_out (c : Dev nD) (x : FVec Ideal S100000x64 .f32) (mean var g b : FVec Ideal S64 .f32)
    (W : FVec Ideal S64x64 .f32) (bias : FVec Ideal S64 .f32)
    (e0 : V c main_v44 = x) (e1 : ∀ q : Fin 64, V c main_v56 (ix2 (0 : Fin 1) q) = mean (ix1 q))
    (e2 : ∀ q : Fin 64, V c main_v57 (ix2 (0 : Fin 1) q) = var (ix1 q))
    (e3 : ∀ q : Fin 64, V c main_v58 (ix2 (0 : Fin 1) q) = g (ix1 q))
    (e4 : ∀ q : Fin 64, V c main_v59 (ix2 (0 : Fin 1) q) = b (ix1 q))
    (e5 : V c main_v55 = W) (e6 : ∀ q : Fin 64, V c main_v60 (ix2 (0 : Fin 1) q) = bias (ix1 q)) :
    (dat1 (F := Ideal) V c).arrAt 7 cfg1.N = Cert.Layers.linN x mean var g b W bias :=
  (dat1 (F := Ideal) V c).arrAt_eq_of_cover 7 _
    (fun t _ => flushed1_eq V c x mean var g b W bias e0 e1 e2 e3 e4 e5 e6 t) cover1

end Cert.KernelIdeal.Regions

end
-- ==== Proof.Region2.lean ====
/-
  Region 2's output array after the region is the host's residual stage of the whole node arrays.

  The region runs over 20 points; point t loads rows [5000 t, 5000 t + 5000) of each row-blocked operand and every
  [1, 64] operand whole, and writes back the same rows of the output. What point t writes back is block t of one
  function of the whole arrays (the stage), and the blocks cover the 100000 rows: row r lies in block r / 5000.
-/
import proofs.«142600_j69965017252460_1_alg».proof.Proof.Gen.KernelIdeal.Frame
import proofs.«142600_j69965017252460_1_alg».proof.Proof.Layers
import proofs.«142600_j69965017252460_1_alg».proof.Proof.LibLayer
import proofs.«142600_j69965017252460_1_alg».proof.Proof.RegionPayload

set_option maxRecDepth 16384

noncomputable section

namespace Cert.KernelIdeal.Regions

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The index maps of region 2, decided over its 20 points: the row-blocked operands and the output sit at block
    (t, 0); every other operand sits at block (0, 0). -/
theorem index2 : ∀ t : Fin cfg2.N,
    win2_0.index t (0 : Fin 2) = t.val
    ∧ win2_0.index t (1 : Fin 2) = 0
    ∧ win2_2.index t (0 : Fin 2) = t.val
    ∧ win2_2.index t (1 : Fin 2) = 0
    ∧ win2_3.index t (0 : Fin 2) = t.val
    ∧ win2_3.index t (1 : Fin 2) = 0
    ∧ win2_1.index t (0 : Fin 2) = 0
    ∧ win2_1.index t (1 : Fin 2) = 0 :=
  (by decide +kernel : ∀ t : Fin grid2.N, _)

/-- An index of the output array is in point t's block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v78).slice (win2_3.rect t)).set ↔ _
  rw [View.set_slice_whole, Rect.mem_set_unit]
  exact Iff.rfl

/-- The blocks cover the output array: row r lies in the block of point r / 5000. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  have ht : (i 0).val / 5000 < cfg2.N := by rw [hN]; omega
  have o0 : win2_3.index ⟨(i 0).val / 5000, ht⟩ (0 : Fin 2) = (i 0).val / 5000 := (index2 ⟨(i 0).val / 5000, ht⟩).2.2.2.2.1
  have o1 : win2_3.index ⟨(i 0).val / 5000, ht⟩ (1 : Fin 2) = 0 := (index2 ⟨(i 0).val / 5000, ht⟩).2.2.2.2.2.1
  refine ⟨⟨(i 0).val / 5000, ht⟩, flush2_3 _, ?_⟩
  rw [mem_blk2]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [o0]
    omega
  | ⟨1, _⟩ =>
    show win2_3.index ⟨(i 0).val / 5000, ht⟩ (1 : Fin 2) * 64 ≤ (i 1).val
      ∧ (i 1).val < win2_3.index ⟨(i 0).val / 5000, ht⟩ (1 : Fin 2) * 64 + 64
    rw [o1]
    omega

/-- What point t writes back to the output is block t of the residual stage of the whole node arrays. -/
theorem flushed2_eq (c : Dev nD) (agg : FVec Ideal S100000x64 .f32) (bias : FVec Ideal S64 .f32) (h : FVec Ideal S100000x64 .f32)
    (e0 : V c main_v74 = agg) (e1 : ∀ q : Fin 64, V c main_v77 (ix2 (0 : Fin 1) q) = bias (ix1 q))
    (e2 : V c main_v44 = h)
    (t : Fin cfg2.N) :
    (dat2 (F := Ideal) V c).flushed 3 t = ((cfg2.win 3).blk t).view.read (Elt Ideal)
      (Cert.Layers.residN agg bias h) := by
  show (cfg2.win 3).cut (grid2.coords t) ((dat2 (F := Ideal) V c).after 3 t) = _
  rw [after2_3]
  unfold out2_3
  rw [View.canon_unit_zero zero_offsets]
  simp only [View.ld_unit_zero (S := S5000x64) zero_offsets,
    View.ld_unit_zero (S := S1x64) zero_offsets]
  obtain ⟨r0a, r0b, r2a, r2b, r3a, r3b, z1a, z1b⟩ := index2 t
  funext j
  show k2_pay1 (iblk2 V c 0 t) (iblk2 V c 1 t) (iblk2 V c 2 t) j
    = (Cert.Layers.residN agg bias h) (((cfg2.win 3).blk t).view.emb j)
  refine k2_pay1_block _ _ _ agg bias h t.val ?_ ?_ ?_ j _ ?_ ?_
  · intro p P k hP
    show V c main_v74 (((cfg2.win 0).blk t).view.emb (ix2 p k)) = agg (ix2 P k)
    refine (congrFun e0 _).trans (congrArg agg (funext fun a => Fin.ext ?_))
    match a with
    | ⟨0, _⟩ => show win2_0.index t (0 : Fin 2) * 5000 + 1 * p.val = P.val; omega
    | ⟨1, _⟩ => show win2_0.index t (1 : Fin 2) * 64 + 1 * k.val = k.val; omega
  · intro k
    show V c main_v77 (((cfg2.win 1).blk t).view.emb (ix2 (0 : Fin 1) k)) = bias (ix1 k)
    refine (congrArg (V c main_v77) (funext fun a => Fin.ext ?_)).trans (e1 k)
    match a with
    | ⟨0, _⟩ => show win2_1.index t (0 : Fin 2) * 1 + 1 * 0 = 0; omega
    | ⟨1, _⟩ => show win2_1.index t (1 : Fin 2) * 64 + 1 * k.val = k.val; omega
  · intro p P k hP
    show V c main_v44 (((cfg2.win 2).blk t).view.emb (ix2 p k)) = h (ix2 P k)
    refine (congrFun e2 _).trans (congrArg h (funext fun a => Fin.ext ?_))
    match a with
    | ⟨0, _⟩ => show win2_2.index t (0 : Fin 2) * 5000 + 1 * p.val = P.val; omega
    | ⟨1, _⟩ => show win2_2.index t (1 : Fin 2) * 64 + 1 * k.val = k.val; omega
  · show win2_3.index t (0 : Fin 2) * 5000 + 1 * (j 0).val = t.val * 5000 + (j 0).val; omega
  · show win2_3.index t (1 : Fin 2) * 64 + 1 * (j 1).val = (j 1).val; omega

/-- Region 2's output array after the region is the host's residual stage of the whole node arrays. -/
theorem region2_out (c : Dev nD) (agg : FVec Ideal S100000x64 .f32) (bias : FVec Ideal S64 .f32) (h : FVec Ideal S100000x64 .f32)
    (e0 : V c main_v74 = agg) (e1 : ∀ q : Fin 64, V c main_v77 (ix2 (0 : Fin 1) q) = bias (ix1 q))
    (e2 : V c main_v44 = h) :
    (dat2 (F := Ideal) V c).arrAt 3 cfg2.N = Cert.Layers.residN agg bias h :=
  (dat2 (F := Ideal) V c).arrAt_eq_of_cover 3 _
    (fun t _ => flushed2_eq V c agg bias h e0 e1 e2 t) cover2

end Cert.KernelIdeal.Regions

end
-- ==== Proof.Region3.lean ====
/-
  Region 3's output array after the region is the host's linear stage of the whole node array.

  The region runs over 20 points; point t loads rows [5000 t, 5000 t + 5000) of each row-blocked operand and every
  [1, 64] and [64, 64] operand whole, and writes back the same rows of the output. What point t writes back is block t of one
  function of the whole arrays (the stage), and the blocks cover the 100000 rows: row r lies in block r / 5000.
-/
import proofs.«142600_j69965017252460_1_alg».proof.Proof.Gen.KernelIdeal.Frame
import proofs.«142600_j69965017252460_1_alg».proof.Proof.Layers
import proofs.«142600_j69965017252460_1_alg».proof.Proof.LibLayer
import proofs.«142600_j69965017252460_1_alg».proof.Proof.RegionPayload

set_option maxRecDepth 16384

noncomputable section

namespace Cert.KernelIdeal.Regions

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The index maps of region 3, decided over its 20 points: the row-blocked operands and the output sit at block
    (t, 0); every other operand sits at block (0, 0). -/
theorem index3 : ∀ t : Fin cfg3.N,
    win3_0.index t (0 : Fin 2) = t.val
    ∧ win3_0.index t (1 : Fin 2) = 0
    ∧ win3_7.index t (0 : Fin 2) = t.val
    ∧ win3_7.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0 :=
  (by decide +kernel : ∀ t : Fin grid3.N, _)

/-- An index of the output array is in point t's block iff each coordinate is in the block's range on its axis. -/
theorem mem_blk3 (t : Fin cfg3.N) (i : S100000x64.Idx) :
    i ∈ ((cfg3.win 7).blk t).view.set ↔ ∀ a : Fin 2, win3_7.index t a * S5000x64.size a ≤ (i a).val
      ∧ (i a).val < win3_7.index t a * S5000x64.size a + S5000x64.size a := by
  show i ∈ ((View.whole main_v94).slice (win3_7.rect t)).set ↔ _
  rw [View.set_slice_whole, Rect.mem_set_unit]
  exact Iff.rfl

/-- The blocks cover the output array: row r lies in the block of point r / 5000. -/
theorem cover3 (i : S100000x64.Idx) :
    ∃ t : Fin cfg3.N, (cfg3.win 7).flush t = true ∧ i ∈ ((cfg3.win 7).blk t).view.set := by
  have hi0 : (i 0).val < 100000 := (i 0).isLt
  have hi1 : (i 1).val < 64 := (i 1).isLt
  have hN : cfg3.N = 20 := N_3
  have ht : (i 0).val / 5000 < cfg3.N := by rw [hN]; omega
  have o0 : win3_7.index ⟨(i 0).val / 5000, ht⟩ (0 : Fin 2) = (i 0).val / 5000 := (index3 ⟨(i 0).val / 5000, ht⟩).2.2.1
  have o1 : win3_7.index ⟨(i 0).val / 5000, ht⟩ (1 : Fin 2) = 0 := (index3 ⟨(i 0).val / 5000, ht⟩).2.2.2.1
  refine ⟨⟨(i 0).val / 5000, ht⟩, flush3_7 _, ?_⟩
  rw [mem_blk3]
  intro a
  match a with
  | ⟨0, _⟩ =>
    show win3_7.index ⟨(i 0).val / 5000, ht⟩ (0 : Fin 2) * 5000 ≤ (i 0).val
      ∧ (i 0).val < win3_7.index ⟨(i 0).val / 5000, ht⟩ (0 : Fin 2) * 5000 + 5000
    rw [o0]
    omega
  | ⟨1, _⟩ =>
    show win3_7.index ⟨(i 0).val / 5000, ht⟩ (1 : Fin 2) * 64 ≤ (i 1).val
      ∧ (i 1).val < win3_7.index ⟨(i 0).val / 5000, ht⟩ (1 : Fin 2) * 64 + 64
    rw [o1]
    omega

/-- What point t writes back to the output is block t of the linear stage of the whole node array. -/
theorem flushed3_eq (c : Dev nD) (x : FVec Ideal S100000x64 .f32) (mean var g b : FVec Ideal S64 .f32)
    (W : FVec Ideal S64x64 .f32) (bias : FVec Ideal S64 .f32)
    (e0 : V c main_v78 = x) (e1 : ∀ q : Fin 64, V c main_v89 (ix2 (0 : Fin 1) q) = mean (ix1 q))
    (e2 : ∀ q : Fin 64, V c main_v90 (ix2 (0 : Fin 1) q) = var (ix1 q))
    (e3 : ∀ q : Fin 64, V c main_v91 (ix2 (0 : Fin 1) q) = g (ix1 q))
    (e4 : ∀ q : Fin 64, V c main_v92 (ix2 (0 : Fin 1) q) = b (ix1 q))
    (e5 : V c main_v88 = W) (e6 : ∀ q : Fin 64, V c main_v93 (ix2 (0 : Fin 1) q) = bias (ix1 q))
    (t : Fin cfg3.N) :
    (dat3 (F := Ideal) V c).flushed 7 t = ((cfg3.win 7).blk t).view.read (Elt Ideal)
      (Cert.Layers.linN x mean var g b W bias) := by
  show (cfg3.win 7).cut (grid3.coords t) ((dat3 (F := Ideal) V c).after 7 t) = _
  rw [after3_7]
  unfold out3_7
  rw [View.canon_unit_zero zero_offsets]
  simp only [View.ld_unit_zero (S := S5000x64) zero_offsets,
    View.ld_unit_zero (S := S1x64) zero_offsets,
    View.ld_unit_zero (S := S64x64) zero_offsets]
  obtain ⟨r0a, r0b, r7a, r7b, z1a, z1b, z2a, z2b, z3a, z3b, z4a, z4b, z5a, z5b, z6a, z6b⟩ := index3 t
  funext j
  show k3_pay1 (iblk3 V c 0 t) (iblk3 V c 1 t) (iblk3 V c 2 t) (iblk3 V c 3 t) (iblk3 V c 4 t) (iblk3 V c 5 t) (iblk3 V c 6 t) j
    = (Cert.Layers.linN x mean var g b W bias) (((cfg3.win 7).blk t).view.emb j)
  refine k3_pay1_block _ _ _ _ _ _ _ x mean var g b W bias t.val ?_ ?_ ?_ ?_ ?_ ?_ ?_ j _ ?_ ?_
  · intro p P k hP
    show V c main_v78 (((cfg3.win 0).blk t).view.emb (ix2 p k)) = x (ix2 P k)
    refine (congrFun e0 _).trans (congrArg x (funext fun a => Fin.ext ?_))
    match a with
    | ⟨0, _⟩ => show win3_0.index t (0 : Fin 2) * 5000 + 1 * p.val = P.val; omega
    | ⟨1, _⟩ => show win3_0.index t (1 : Fin 2) * 64 + 1 * k.val = k.val; omega
  · intro k
    show V c main_v89 (((cfg3.win 1).blk t).view.emb (ix2 (0 : Fin 1) k)) = mean (ix1 k)
    refine (congrArg (V c main_v89) (funext fun a => Fin.ext ?_)).trans (e1 k)
    match a with
    | ⟨0, _⟩ => show win3_1.index t (0 : Fin 2) * 1 + 1 * 0 = 0; omega
    | ⟨1, _⟩ => show win3_1.index t (1 : Fin 2) * 64 + 1 * k.val = k.val; omega
  · intro k
    show V c main_v90 (((cfg3.win 2).blk t).view.emb (ix2 (0 : Fin 1) k)) = var (ix1 k)
    refine (congrArg (V c main_v90) (funext fun a => Fin.ext ?_)).trans (e2 k)
    match a with
    | ⟨0, _⟩ => show win3_2.index t (0 : Fin 2) * 1 + 1 * 0 = 0; omega
    | ⟨1, _⟩ => show win3_2.index t (1 : Fin 2) * 64 + 1 * k.val = k.val; omega
  · intro k
    show V c main_v91 (((cfg3.win 3).blk t).view.emb (ix2 (0 : Fin 1) k)) = g (ix1 k)
    refine (congrArg (V c main_v91) (funext fun a => Fin.ext ?_)).trans (e3 k)
    match a with
    | ⟨0, _⟩ => show win3_3.index t (0 : Fin 2) * 1 + 1 * 0 = 0; omega
    | ⟨1, _⟩ => show win3_3.index t (1 : Fin 2) * 64 + 1 * k.val = k.val; omega
  · intro k
    show V c main_v92 (((cfg3.win 4).blk t).view.emb (ix2 (0 : Fin 1) k)) = b (ix1 k)
    refine (congrArg (V c main_v92) (funext fun a => Fin.ext ?_)).trans (e4 k)
    match a with
    | ⟨0, _⟩ => show win3_4.index t (0 : Fin 2) * 1 + 1 * 0 = 0; omega
    | ⟨1, _⟩ => show win3_4.index t (1 : Fin 2) * 64 + 1 * k.val = k.val; omega
  · intro k q
    show V c main_v88 (((cfg3.win 5).blk t).view.emb (ix2 k q)) = W (ix2 k q)
    refine (congrFun e5 _).trans (congrArg W (funext fun a => Fin.ext ?_))
    match a with
    | ⟨0, _⟩ => show win3_5.index t (0 : Fin 2) * 64 + 1 * k.val = k.val; omega
    | ⟨1, _⟩ => show win3_5.index t (1 : Fin 2) * 64 + 1 * q.val = q.val; omega
  · intro k
    show V c main_v93 (((cfg3.win 6).blk t).view.emb (ix2 (0 : Fin 1) k)) = bias (ix1 k)
    refine (congrArg (V c main_v93) (funext fun a => Fin.ext ?_)).trans (e6 k)
    match a with
    | ⟨0, _⟩ => show win3_6.index t (0 : Fin 2) * 1 + 1 * 0 = 0; omega
    | ⟨1, _⟩ => show win3_6.index t (1 : Fin 2) * 64 + 1 * k.val = k.val; omega
  · show win3_7.index t (0 : Fin 2) * 5000 + 1 * (j 0).val = t.val * 5000 + (j 0).val; omega
  · show win3_7.index t (1 : Fin 2) * 64 + 1 * (j 1).val = (j 1).val; omega

/-- Region 3's output array after the region is the host's linear stage of the whole node array. -/
theorem region3_out (c : Dev nD) (x : FVec Ideal S100000x64 .f32) (mean var g b : FVec Ideal S64 .f32)
    (W : FVec Ideal S64x64 .f32) (bias : FVec Ideal S64 .f32)
    (e0 : V c main_v78 = x) (e1 : ∀ q : Fin 64, V c main_v89 (ix2 (0 : Fin 1) q) = mean (ix1 q))
    (e2 : ∀ q : Fin 64, V c main_v90 (ix2 (0 : Fin 1) q) = var (ix1 q))
    (e3 : ∀ q : Fin 64, V c main_v91 (ix2 (0 : Fin 1) q) = g (ix1 q))
    (e4 : ∀ q : Fin 64, V c main_v92 (ix2 (0 : Fin 1) q) = b (ix1 q))
    (e5 : V c main_v88 = W) (e6 : ∀ q : Fin 64, V c main_v93 (ix2 (0 : Fin 1) q) = bias (ix1 q)) :
    (dat3 (F := Ideal) V c).arrAt 7 cfg3.N = Cert.Layers.linN x mean var g b W bias :=
  (dat3 (F := Ideal) V c).arrAt_eq_of_cover 7 _
    (fun t _ => flushed3_eq V c x mean var g b W bias e0 e1 e2 e3 e4 e5 e6 t) cover3

end Cert.KernelIdeal.Regions

end
-- ==== Proof.Region4.lean ====
/-
  Region 4's output array after the region is the host's residual stage of the whole node arrays.

  The region runs over 20 points; point t loads rows [5000 t, 5000 t + 5000) of each row-blocked operand and every
  [1, 64] operand whole, and writes back the same rows of the output. What point t writes back is block t of one
  function of the whole arrays (the stage), and the blocks cover the 100000 rows: row r lies in block r / 5000.
-/
import proofs.«142600_j69965017252460_1_alg».proof.Proof.Gen.KernelIdeal.Frame
import proofs.«142600_j69965017252460_1_alg».proof.Proof.Layers
import proofs.«142600_j69965017252460_1_alg».proof.Proof.LibLayer
import proofs.«142600_j69965017252460_1_alg».proof.Proof.RegionPayload

set_option maxRecDepth 16384

noncomputable section

namespace Cert.KernelIdeal.Regions

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The index maps of region 4, decided over its 20 points: the row-blocked operands and the output sit at block
    (t, 0); every other operand sits at block (0, 0). -/
theorem index4 : ∀ t : Fin cfg4.N,
    win4_0.index t (0 : Fin 2) = t.val
    ∧ win4_0.index t (1 : Fin 2) = 0
    ∧ win4_2.index t (0 : Fin 2) = t.val
    ∧ win4_2.index t (1 : Fin 2) = 0
    ∧ win4_3.index t (0 : Fin 2) = t.val
    ∧ win4_3.index t (1 : Fin 2) = 0
    ∧ win4_1.index t (0 : Fin 2) = 0
    ∧ win4_1.index t (1 : Fin 2) = 0 :=
  (by decide +kernel : ∀ t : Fin grid4.N, _)

/-- An index of the output array is in point t's block iff each coordinate is in the block's range on its axis. -/
theorem mem_blk4 (t : Fin cfg4.N) (i : S100000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v111).slice (win4_3.rect t)).set ↔ _
  rw [View.set_slice_whole, Rect.mem_set_unit]
  exact Iff.rfl

/-- The blocks cover the output array: row r lies in the block of point r / 5000. -/
theorem cover4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 20 := N_4
  have ht : (i 0).val / 5000 < cfg4.N := by rw [hN]; omega
  have o0 : win4_3.index ⟨(i 0).val / 5000, ht⟩ (0 : Fin 2) = (i 0).val / 5000 := (index4 ⟨(i 0).val / 5000, ht⟩).2.2.2.2.1
  have o1 : win4_3.index ⟨(i 0).val / 5000, ht⟩ (1 : Fin 2) = 0 := (index4 ⟨(i 0).val / 5000, ht⟩).2.2.2.2.2.1
  refine ⟨⟨(i 0).val / 5000, ht⟩, flush4_3 _, ?_⟩
  rw [mem_blk4]
  intro a
  match a with
  | ⟨0, _⟩ =>
    show win4_3.index ⟨(i 0).val / 5000, ht⟩ (0 : Fin 2) * 5000 ≤ (i 0).val
      ∧ (i 0).val < win4_3.index ⟨(i 0).val / 5000, ht⟩ (0 : Fin 2) * 5000 + 5000
    rw [o0]
    omega
  | ⟨1, _⟩ =>
    show win4_3.index ⟨(i 0).val / 5000, ht⟩ (1 : Fin 2) * 64 ≤ (i 1).val
      ∧ (i 1).val < win4_3.index ⟨(i 0).val / 5000, ht⟩ (1 : Fin 2) * 64 + 64
    rw [o1]
    omega

/-- What point t writes back to the output is block t of the residual stage of the whole node arrays. -/
theorem flushed4_eq (c : Dev nD) (agg : FVec Ideal S100000x64 .f32) (bias : FVec Ideal S64 .f32) (h : FVec Ideal S100000x64 .f32)
    (e0 : V c main_v107 = agg) (e1 : ∀ q : Fin 64, V c main_v110 (ix2 (0 : Fin 1) q) = bias (ix1 q))
    (e2 : V c main_v78 = h)
    (t : Fin cfg4.N) :
    (dat4 (F := Ideal) V c).flushed 3 t = ((cfg4.win 3).blk t).view.read (Elt Ideal)
      (Cert.Layers.residN agg bias h) := by
  show (cfg4.win 3).cut (grid4.coords t) ((dat4 (F := Ideal) V c).after 3 t) = _
  rw [after4_3]
  unfold out4_3
  rw [View.canon_unit_zero zero_offsets]
  simp only [View.ld_unit_zero (S := S5000x64) zero_offsets,
    View.ld_unit_zero (S := S1x64) zero_offsets]
  obtain ⟨r0a, r0b, r2a, r2b, r3a, r3b, z1a, z1b⟩ := index4 t
  funext j
  show k4_pay1 (iblk4 V c 0 t) (iblk4 V c 1 t) (iblk4 V c 2 t) j
    = (Cert.Layers.residN agg bias h) (((cfg4.win 3).blk t).view.emb j)
  refine k4_pay1_block _ _ _ agg bias h t.val ?_ ?_ ?_ j _ ?_ ?_
  · intro p P k hP
    show V c main_v107 (((cfg4.win 0).blk t).view.emb (ix2 p k)) = agg (ix2 P k)
    refine (congrFun e0 _).trans (congrArg agg (funext fun a => Fin.ext ?_))
    match a with
    | ⟨0, _⟩ => show win4_0.index t (0 : Fin 2) * 5000 + 1 * p.val = P.val; omega
    | ⟨1, _⟩ => show win4_0.index t (1 : Fin 2) * 64 + 1 * k.val = k.val; omega
  · intro k
    show V c main_v110 (((cfg4.win 1).blk t).view.emb (ix2 (0 : Fin 1) k)) = bias (ix1 k)
    refine (congrArg (V c main_v110) (funext fun a => Fin.ext ?_)).trans (e1 k)
    match a with
    | ⟨0, _⟩ => show win4_1.index t (0 : Fin 2) * 1 + 1 * 0 = 0; omega
    | ⟨1, _⟩ => show win4_1.index t (1 : Fin 2) * 64 + 1 * k.val = k.val; omega
  · intro p P k hP
    show V c main_v78 (((cfg4.win 2).blk t).view.emb (ix2 p k)) = h (ix2 P k)
    refine (congrFun e2 _).trans (congrArg h (funext fun a => Fin.ext ?_))
    match a with
    | ⟨0, _⟩ => show win4_2.index t (0 : Fin 2) * 5000 + 1 * p.val = P.val; omega
    | ⟨1, _⟩ => show win4_2.index t (1 : Fin 2) * 64 + 1 * k.val = k.val; omega
  · show win4_3.index t (0 : Fin 2) * 5000 + 1 * (j 0).val = t.val * 5000 + (j 0).val; omega
  · show win4_3.index t (1 : Fin 2) * 64 + 1 * (j 1).val = (j 1).val; omega

/-- Region 4's output array after the region is the host's residual stage of the whole node arrays. -/
theorem region4_out (c : Dev nD) (agg : FVec Ideal S100000x64 .f32) (bias : FVec Ideal S64 .f32) (h : FVec Ideal S100000x64 .f32)
    (e0 : V c main_v107 = agg) (e1 : ∀ q : Fin 64, V c main_v110 (ix2 (0 : Fin 1) q) = bias (ix1 q))
    (e2 : V c main_v78 = h) :
    (dat4 (F := Ideal) V c).arrAt 3 cfg4.N = Cert.Layers.residN agg bias h :=
  (dat4 (F := Ideal) V c).arrAt_eq_of_cover 3 _
    (fun t _ => flushed4_eq V c agg bias h e0 e1 e2 t) cover4

end Cert.KernelIdeal.Regions

end
-- ==== Proof.Region5.lean ====
/-
  Region 5's output array after the region is the host's linear stage of the whole node array.

  The region runs over 20 points; point t loads rows [5000 t, 5000 t + 5000) of each row-blocked operand and every
  [1, 64] and [64, 64] operand whole, and writes back the same rows of the output. What point t writes back is block t of one
  function of the whole arrays (the stage), and the blocks cover the 100000 rows: row r lies in block r / 5000.
-/
import proofs.«142600_j69965017252460_1_alg».proof.Proof.Gen.KernelIdeal.Frame
import proofs.«142600_j69965017252460_1_alg».proof.Proof.Layers
import proofs.«142600_j69965017252460_1_alg».proof.Proof.LibLayer
import proofs.«142600_j69965017252460_1_alg».proof.Proof.RegionPayload

set_option maxRecDepth 16384

noncomputable section

namespace Cert.KernelIdeal.Regions

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The index maps of region 5, decided over its 20 points: the row-blocked operands and the output sit at block
    (t, 0); every other operand sits at block (0, 0). -/
theorem index5 : ∀ t : Fin cfg5.N,
    win5_0.index t (0 : Fin 2) = t.val
    ∧ win5_0.index t (1 : Fin 2) = 0
    ∧ win5_7.index t (0 : Fin 2) = t.val
    ∧ win5_7.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0 :=
  (by decide +kernel : ∀ t : Fin grid5.N, _)

/-- An index of the output array is in point t's block iff each coordinate is in the block's range on its axis. -/
theorem mem_blk5 (t : Fin cfg5.N) (i : S100000x64.Idx) :
    i ∈ ((cfg5.win 7).blk t).view.set ↔ ∀ a : Fin 2, win5_7.index t a * S5000x64.size a ≤ (i a).val
      ∧ (i a).val < win5_7.index t a * S5000x64.size a + S5000x64.size a := by
  show i ∈ ((View.whole main_v127).slice (win5_7.rect t)).set ↔ _
  rw [View.set_slice_whole, Rect.mem_set_unit]
  exact Iff.rfl

/-- The blocks cover the output array: row r lies in the block of point r / 5000. -/
theorem cover5 (i : S100000x64.Idx) :
    ∃ t : Fin cfg5.N, (cfg5.win 7).flush t = true ∧ i ∈ ((cfg5.win 7).blk t).view.set := by
  have hi0 : (i 0).val < 100000 := (i 0).isLt
  have hi1 : (i 1).val < 64 := (i 1).isLt
  have hN : cfg5.N = 20 := N_5
  have ht : (i 0).val / 5000 < cfg5.N := by rw [hN]; omega
  have o0 : win5_7.index ⟨(i 0).val / 5000, ht⟩ (0 : Fin 2) = (i 0).val / 5000 := (index5 ⟨(i 0).val / 5000, ht⟩).2.2.1
  have o1 : win5_7.index ⟨(i 0).val / 5000, ht⟩ (1 : Fin 2) = 0 := (index5 ⟨(i 0).val / 5000, ht⟩).2.2.2.1
  refine ⟨⟨(i 0).val / 5000, ht⟩, flush5_7 _, ?_⟩
  rw [mem_blk5]
  intro a
  match a with
  | ⟨0, _⟩ =>
    show win5_7.index ⟨(i 0).val / 5000, ht⟩ (0 : Fin 2) * 5000 ≤ (i 0).val
      ∧ (i 0).val < win5_7.index ⟨(i 0).val / 5000, ht⟩ (0 : Fin 2) * 5000 + 5000
    rw [o0]
    omega
  | ⟨1, _⟩ =>
    show win5_7.index ⟨(i 0).val / 5000, ht⟩ (1 : Fin 2) * 64 ≤ (i 1).val
      ∧ (i 1).val < win5_7.index ⟨(i 0).val / 5000, ht⟩ (1 : Fin 2) * 64 + 64
    rw [o1]
    omega

/-- What point t writes back to the output is block t of the linear stage of the whole node array. -/
theorem flushed5_eq (c : Dev nD) (x : FVec Ideal S100000x64 .f32) (mean var g b : FVec Ideal S64 .f32)
    (W : FVec Ideal S64x64 .f32) (bias : FVec Ideal S64 .f32)
    (e0 : V c main_v111 = x) (e1 : ∀ q : Fin 64, V c main_v122 (ix2 (0 : Fin 1) q) = mean (ix1 q))
    (e2 : ∀ q : Fin 64, V c main_v123 (ix2 (0 : Fin 1) q) = var (ix1 q))
    (e3 : ∀ q : Fin 64, V c main_v124 (ix2 (0 : Fin 1) q) = g (ix1 q))
    (e4 : ∀ q : Fin 64, V c main_v125 (ix2 (0 : Fin 1) q) = b (ix1 q))
    (e5 : V c main_v121 = W) (e6 : ∀ q : Fin 64, V c main_v126 (ix2 (0 : Fin 1) q) = bias (ix1 q))
    (t : Fin cfg5.N) :
    (dat5 (F := Ideal) V c).flushed 7 t = ((cfg5.win 7).blk t).view.read (Elt Ideal)
      (Cert.Layers.linN x mean var g b W bias) := by
  show (cfg5.win 7).cut (grid5.coords t) ((dat5 (F := Ideal) V c).after 7 t) = _
  rw [after5_7]
  unfold out5_7
  rw [View.canon_unit_zero zero_offsets]
  simp only [View.ld_unit_zero (S := S5000x64) zero_offsets,
    View.ld_unit_zero (S := S1x64) zero_offsets,
    View.ld_unit_zero (S := S64x64) zero_offsets]
  obtain ⟨r0a, r0b, r7a, r7b, z1a, z1b, z2a, z2b, z3a, z3b, z4a, z4b, z5a, z5b, z6a, z6b⟩ := index5 t
  funext j
  show k5_pay1 (iblk5 V c 0 t) (iblk5 V c 1 t) (iblk5 V c 2 t) (iblk5 V c 3 t) (iblk5 V c 4 t) (iblk5 V c 5 t) (iblk5 V c 6 t) j
    = (Cert.Layers.linN x mean var g b W bias) (((cfg5.win 7).blk t).view.emb j)
  refine k5_pay1_block _ _ _ _ _ _ _ x mean var g b W bias t.val ?_ ?_ ?_ ?_ ?_ ?_ ?_ j _ ?_ ?_
  · intro p P k hP
    show V c main_v111 (((cfg5.win 0).blk t).view.emb (ix2 p k)) = x (ix2 P k)
    refine (congrFun e0 _).trans (congrArg x (funext fun a => Fin.ext ?_))
    match a with
    | ⟨0, _⟩ => show win5_0.index t (0 : Fin 2) * 5000 + 1 * p.val = P.val; omega
    | ⟨1, _⟩ => show win5_0.index t (1 : Fin 2) * 64 + 1 * k.val = k.val; omega
  · intro k
    show V c main_v122 (((cfg5.win 1).blk t).view.emb (ix2 (0 : Fin 1) k)) = mean (ix1 k)
    refine (congrArg (V c main_v122) (funext fun a => Fin.ext ?_)).trans (e1 k)
    match a with
    | ⟨0, _⟩ => show win5_1.index t (0 : Fin 2) * 1 + 1 * 0 = 0; omega
    | ⟨1, _⟩ => show win5_1.index t (1 : Fin 2) * 64 + 1 * k.val = k.val; omega
  · intro k
    show V c main_v123 (((cfg5.win 2).blk t).view.emb (ix2 (0 : Fin 1) k)) = var (ix1 k)
    refine (congrArg (V c main_v123) (funext fun a => Fin.ext ?_)).trans (e2 k)
    match a with
    | ⟨0, _⟩ => show win5_2.index t (0 : Fin 2) * 1 + 1 * 0 = 0; omega
    | ⟨1, _⟩ => show win5_2.index t (1 : Fin 2) * 64 + 1 * k.val = k.val; omega
  · intro k
    show V c main_v124 (((cfg5.win 3).blk t).view.emb (ix2 (0 : Fin 1) k)) = g (ix1 k)
    refine (congrArg (V c main_v124) (funext fun a => Fin.ext ?_)).trans (e3 k)
    match a with
    | ⟨0, _⟩ => show win5_3.index t (0 : Fin 2) * 1 + 1 * 0 = 0; omega
    | ⟨1, _⟩ => show win5_3.index t (1 : Fin 2) * 64 + 1 * k.val = k.val; omega
  · intro k
    show V c main_v125 (((cfg5.win 4).blk t).view.emb (ix2 (0 : Fin 1) k)) = b (ix1 k)
    refine (congrArg (V c main_v125) (funext fun a => Fin.ext ?_)).trans (e4 k)
    match a with
    | ⟨0, _⟩ => show win5_4.index t (0 : Fin 2) * 1 + 1 * 0 = 0; omega
    | ⟨1, _⟩ => show win5_4.index t (1 : Fin 2) * 64 + 1 * k.val = k.val; omega
  · intro k q
    show V c main_v121 (((cfg5.win 5).blk t).view.emb (ix2 k q)) = W (ix2 k q)
    refine (congrFun e5 _).trans (congrArg W (funext fun a => Fin.ext ?_))
    match a with
    | ⟨0, _⟩ => show win5_5.index t (0 : Fin 2) * 64 + 1 * k.val = k.val; omega
    | ⟨1, _⟩ => show win5_5.index t (1 : Fin 2) * 64 + 1 * q.val = q.val; omega
  · intro k
    show V c main_v126 (((cfg5.win 6).blk t).view.emb (ix2 (0 : Fin 1) k)) = bias (ix1 k)
    refine (congrArg (V c main_v126) (funext fun a => Fin.ext ?_)).trans (e6 k)
    match a with
    | ⟨0, _⟩ => show win5_6.index t (0 : Fin 2) * 1 + 1 * 0 = 0; omega
    | ⟨1, _⟩ => show win5_6.index t (1 : Fin 2) * 64 + 1 * k.val = k.val; omega
  · show win5_7.index t (0 : Fin 2) * 5000 + 1 * (j 0).val = t.val * 5000 + (j 0).val; omega
  · show win5_7.index t (1 : Fin 2) * 64 + 1 * (j 1).val = (j 1).val; omega

/-- Region 5's output array after the region is the host's linear stage of the whole node array. -/
theorem region5_out (c : Dev nD) (x : FVec Ideal S100000x64 .f32) (mean var g b : FVec Ideal S64 .f32)
    (W : FVec Ideal S64x64 .f32) (bias : FVec Ideal S64 .f32)
    (e0 : V c main_v111 = x) (e1 : ∀ q : Fin 64, V c main_v122 (ix2 (0 : Fin 1) q) = mean (ix1 q))
    (e2 : ∀ q : Fin 64, V c main_v123 (ix2 (0 : Fin 1) q) = var (ix1 q))
    (e3 : ∀ q : Fin 64, V c main_v124 (ix2 (0 : Fin 1) q) = g (ix1 q))
    (e4 : ∀ q : Fin 64, V c main_v125 (ix2 (0 : Fin 1) q) = b (ix1 q))
    (e5 : V c main_v121 = W) (e6 : ∀ q : Fin 64, V c main_v126 (ix2 (0 : Fin 1) q) = bias (ix1 q)) :
    (dat5 (F := Ideal) V c).arrAt 7 cfg5.N = Cert.Layers.linN x mean var g b W bias :=
  (dat5 (F := Ideal) V c).arrAt_eq_of_cover 7 _
    (fun t _ => flushed5_eq V c x mean var g b W bias e0 e1 e2 e3 e4 e5 e6 t) cover5

end Cert.KernelIdeal.Regions

end
-- ==== Proof.Region6.lean ====
/-
  Region 6's output array after the region is the host's residual stage of the whole node arrays.

  The region runs over 20 points; point t loads rows [5000 t, 5000 t + 5000) of each row-blocked operand and every
  [1, 64] operand whole, and writes back the same rows of the output. What point t writes back is block t of one
  function of the whole arrays (the stage), and the blocks cover the 100000 rows: row r lies in block r / 5000.
-/
import proofs.«142600_j69965017252460_1_alg».proof.Proof.Gen.KernelIdeal.Frame
import proofs.«142600_j69965017252460_1_alg».proof.Proof.Layers
import proofs.«142600_j69965017252460_1_alg».proof.Proof.LibLayer
import proofs.«142600_j69965017252460_1_alg».proof.Proof.RegionPayload

set_option maxRecDepth 16384

noncomputable section

namespace Cert.KernelIdeal.Regions

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The index maps of region 6, decided over its 20 points: the row-blocked operands and the output sit at block
    (t, 0); every other operand sits at block (0, 0). -/
theorem index6 : ∀ t : Fin cfg6.N,
    win6_0.index t (0 : Fin 2) = t.val
    ∧ win6_0.index t (1 : Fin 2) = 0
    ∧ win6_2.index t (0 : Fin 2) = t.val
    ∧ win6_2.index t (1 : Fin 2) = 0
    ∧ win6_3.index t (0 : Fin 2) = t.val
    ∧ win6_3.index t (1 : Fin 2) = 0
    ∧ win6_1.index t (0 : Fin 2) = 0
    ∧ win6_1.index t (1 : Fin 2) = 0 :=
  (by decide +kernel : ∀ t : Fin grid6.N, _)

/-- An index of the output array is in point t's block iff each coordinate is in the block's range on its axis. -/
theorem mem_blk6 (t : Fin cfg6.N) (i : S100000x64.Idx) :
    i ∈ ((cfg6.win 3).blk t).view.set ↔ ∀ a : Fin 2, win6_3.index t a * S5000x64.size a ≤ (i a).val
      ∧ (i a).val < win6_3.index t a * S5000x64.size a + S5000x64.size a := by
  show i ∈ ((View.whole main_v144).slice (win6_3.rect t)).set ↔ _
  rw [View.set_slice_whole, Rect.mem_set_unit]
  exact Iff.rfl

/-- The blocks cover the output array: row r lies in the block of point r / 5000. -/
theorem cover6 (i : S100000x64.Idx) :
    ∃ t : Fin cfg6.N, (cfg6.win 3).flush t = true ∧ i ∈ ((cfg6.win 3).blk t).view.set := by
  have hi0 : (i 0).val < 100000 := (i 0).isLt
  have hi1 : (i 1).val < 64 := (i 1).isLt
  have hN : cfg6.N = 20 := N_6
  have ht : (i 0).val / 5000 < cfg6.N := by rw [hN]; omega
  have o0 : win6_3.index ⟨(i 0).val / 5000, ht⟩ (0 : Fin 2) = (i 0).val / 5000 := (index6 ⟨(i 0).val / 5000, ht⟩).2.2.2.2.1
  have o1 : win6_3.index ⟨(i 0).val / 5000, ht⟩ (1 : Fin 2) = 0 := (index6 ⟨(i 0).val / 5000, ht⟩).2.2.2.2.2.1
  refine ⟨⟨(i 0).val / 5000, ht⟩, flush6_3 _, ?_⟩
  rw [mem_blk6]
  intro a
  match a with
  | ⟨0, _⟩ =>
    show win6_3.index ⟨(i 0).val / 5000, ht⟩ (0 : Fin 2) * 5000 ≤ (i 0).val
      ∧ (i 0).val < win6_3.index ⟨(i 0).val / 5000, ht⟩ (0 : Fin 2) * 5000 + 5000
    rw [o0]
    omega
  | ⟨1, _⟩ =>
    show win6_3.index ⟨(i 0).val / 5000, ht⟩ (1 : Fin 2) * 64 ≤ (i 1).val
      ∧ (i 1).val < win6_3.index ⟨(i 0).val / 5000, ht⟩ (1 : Fin 2) * 64 + 64
    rw [o1]
    omega

/-- What point t writes back to the output is block t of the residual stage of the whole node arrays. -/
theorem flushed6_eq (c : Dev nD) (agg : FVec Ideal S100000x64 .f32) (bias : FVec Ideal S64 .f32) (h : FVec Ideal S100000x64 .f32)
    (e0 : V c main_v140 = agg) (e1 : ∀ q : Fin 64, V c main_v143 (ix2 (0 : Fin 1) q) = bias (ix1 q))
    (e2 : V c main_v111 = h)
    (t : Fin cfg6.N) :
    (dat6 (F := Ideal) V c).flushed 3 t = ((cfg6.win 3).blk t).view.read (Elt Ideal)
      (Cert.Layers.residN agg bias h) := by
  show (cfg6.win 3).cut (grid6.coords t) ((dat6 (F := Ideal) V c).after 3 t) = _
  rw [after6_3]
  unfold out6_3
  rw [View.canon_unit_zero zero_offsets]
  simp only [View.ld_unit_zero (S := S5000x64) zero_offsets,
    View.ld_unit_zero (S := S1x64) zero_offsets]
  obtain ⟨r0a, r0b, r2a, r2b, r3a, r3b, z1a, z1b⟩ := index6 t
  funext j
  show k6_pay1 (iblk6 V c 0 t) (iblk6 V c 1 t) (iblk6 V c 2 t) j
    = (Cert.Layers.residN agg bias h) (((cfg6.win 3).blk t).view.emb j)
  refine k6_pay1_block _ _ _ agg bias h t.val ?_ ?_ ?_ j _ ?_ ?_
  · intro p P k hP
    show V c main_v140 (((cfg6.win 0).blk t).view.emb (ix2 p k)) = agg (ix2 P k)
    refine (congrFun e0 _).trans (congrArg agg (funext fun a => Fin.ext ?_))
    match a with
    | ⟨0, _⟩ => show win6_0.index t (0 : Fin 2) * 5000 + 1 * p.val = P.val; omega
    | ⟨1, _⟩ => show win6_0.index t (1 : Fin 2) * 64 + 1 * k.val = k.val; omega
  · intro k
    show V c main_v143 (((cfg6.win 1).blk t).view.emb (ix2 (0 : Fin 1) k)) = bias (ix1 k)
    refine (congrArg (V c main_v143) (funext fun a => Fin.ext ?_)).trans (e1 k)
    match a with
    | ⟨0, _⟩ => show win6_1.index t (0 : Fin 2) * 1 + 1 * 0 = 0; omega
    | ⟨1, _⟩ => show win6_1.index t (1 : Fin 2) * 64 + 1 * k.val = k.val; omega
  · intro p P k hP
    show V c main_v111 (((cfg6.win 2).blk t).view.emb (ix2 p k)) = h (ix2 P k)
    refine (congrFun e2 _).trans (congrArg h (funext fun a => Fin.ext ?_))
    match a with
    | ⟨0, _⟩ => show win6_2.index t (0 : Fin 2) * 5000 + 1 * p.val = P.val; omega
    | ⟨1, _⟩ => show win6_2.index t (1 : Fin 2) * 64 + 1 * k.val = k.val; omega
  · show win6_3.index t (0 : Fin 2) * 5000 + 1 * (j 0).val = t.val * 5000 + (j 0).val; omega
  · show win6_3.index t (1 : Fin 2) * 64 + 1 * (j 1).val = (j 1).val; omega

/-- Region 6's output array after the region is the host's residual stage of the whole node arrays. -/
theorem region6_out (c : Dev nD) (agg : FVec Ideal S100000x64 .f32) (bias : FVec Ideal S64 .f32) (h : FVec Ideal S100000x64 .f32)
    (e0 : V c main_v140 = agg) (e1 : ∀ q : Fin 64, V c main_v143 (ix2 (0 : Fin 1) q) = bias (ix1 q))
    (e2 : V c main_v111 = h) :
    (dat6 (F := Ideal) V c).arrAt 3 cfg6.N = Cert.Layers.residN agg bias h :=
  (dat6 (F := Ideal) V c).arrAt_eq_of_cover 3 _
    (fun t _ => flushed6_eq V c agg bias h e0 e1 e2 t) cover6

end Cert.KernelIdeal.Regions

end
-- ==== Proof.Region7.lean ====
/-
  Region 7's output array after the region is the host's linear stage of the whole node array.

  The region runs over 20 points; point t loads rows [5000 t, 5000 t + 5000) of each row-blocked operand and every
  [1, 64] and [64, 64] operand whole, and writes back the same rows of the output. What point t writes back is block t of one
  function of the whole arrays (the stage), and the blocks cover the 100000 rows: row r lies in block r / 5000.
-/
import proofs.«142600_j69965017252460_1_alg».proof.Proof.Gen.KernelIdeal.Frame
import proofs.«142600_j69965017252460_1_alg».proof.Proof.Layers
import proofs.«142600_j69965017252460_1_alg».proof.Proof.LibLayer
import proofs.«142600_j69965017252460_1_alg».proof.Proof.RegionPayload

set_option maxRecDepth 16384

noncomputable section

namespace Cert.KernelIdeal.Regions

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The index maps of region 7, decided over its 20 points: the row-blocked operands and the output sit at block
    (t, 0); every other operand sits at block (0, 0). -/
theorem index7 : ∀ t : Fin cfg7.N,
    win7_0.index t (0 : Fin 2) = t.val
    ∧ win7_0.index t (1 : Fin 2) = 0
    ∧ win7_7.index t (0 : Fin 2) = t.val
    ∧ win7_7.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0
    ∧ win7_6.index t (0 : Fin 2) = 0
    ∧ win7_6.index t (1 : Fin 2) = 0 :=
  (by decide +kernel : ∀ t : Fin grid7.N, _)

/-- An index of the output array is in point t's block iff each coordinate is in the block's range on its axis. -/
theorem mem_blk7 (t : Fin cfg7.N) (i : S100000x64.Idx) :
    i ∈ ((cfg7.win 7).blk t).view.set ↔ ∀ a : Fin 2, win7_7.index t a * S5000x64.size a ≤ (i a).val
      ∧ (i a).val < win7_7.index t a * S5000x64.size a + S5000x64.size a := by
  show i ∈ ((View.whole main_v160).slice (win7_7.rect t)).set ↔ _
  rw [View.set_slice_whole, Rect.mem_set_unit]
  exact Iff.rfl

/-- The blocks cover the output array: row r lies in the block of point r / 5000. -/
theorem cover7 (i : S100000x64.Idx) :
    ∃ t : Fin cfg7.N, (cfg7.win 7).flush t = true ∧ i ∈ ((cfg7.win 7).blk t).view.set := by
  have hi0 : (i 0).val < 100000 := (i 0).isLt
  have hi1 : (i 1).val < 64 := (i 1).isLt
  have hN : cfg7.N = 20 := N_7
  have ht : (i 0).val / 5000 < cfg7.N := by rw [hN]; omega
  have o0 : win7_7.index ⟨(i 0).val / 5000, ht⟩ (0 : Fin 2) = (i 0).val / 5000 := (index7 ⟨(i 0).val / 5000, ht⟩).2.2.1
  have o1 : win7_7.index ⟨(i 0).val / 5000, ht⟩ (1 : Fin 2) = 0 := (index7 ⟨(i 0).val / 5000, ht⟩).2.2.2.1
  refine ⟨⟨(i 0).val / 5000, ht⟩, flush7_7 _, ?_⟩
  rw [mem_blk7]
  intro a
  match a with
  | ⟨0, _⟩ =>
    show win7_7.index ⟨(i 0).val / 5000, ht⟩ (0 : Fin 2) * 5000 ≤ (i 0).val
      ∧ (i 0).val < win7_7.index ⟨(i 0).val / 5000, ht⟩ (0 : Fin 2) * 5000 + 5000
    rw [o0]
    omega
  | ⟨1, _⟩ =>
    show win7_7.index ⟨(i 0).val / 5000, ht⟩ (1 : Fin 2) * 64 ≤ (i 1).val
      ∧ (i 1).val < win7_7.index ⟨(i 0).val / 5000, ht⟩ (1 : Fin 2) * 64 + 64
    rw [o1]
    omega

/-- What point t writes back to the output is block t of the linear stage of the whole node array. -/
theorem flushed7_eq (c : Dev nD) (x : FVec Ideal S100000x64 .f32) (mean var g b : FVec Ideal S64 .f32)
    (W : FVec Ideal S64x64 .f32) (bias : FVec Ideal S64 .f32)
    (e0 : V c main_v144 = x) (e1 : ∀ q : Fin 64, V c main_v155 (ix2 (0 : Fin 1) q) = mean (ix1 q))
    (e2 : ∀ q : Fin 64, V c main_v156 (ix2 (0 : Fin 1) q) = var (ix1 q))
    (e3 : ∀ q : Fin 64, V c main_v157 (ix2 (0 : Fin 1) q) = g (ix1 q))
    (e4 : ∀ q : Fin 64, V c main_v158 (ix2 (0 : Fin 1) q) = b (ix1 q))
    (e5 : V c main_v154 = W) (e6 : ∀ q : Fin 64, V c main_v159 (ix2 (0 : Fin 1) q) = bias (ix1 q))
    (t : Fin cfg7.N) :
    (dat7 (F := Ideal) V c).flushed 7 t = ((cfg7.win 7).blk t).view.read (Elt Ideal)
      (Cert.Layers.linN x mean var g b W bias) := by
  show (cfg7.win 7).cut (grid7.coords t) ((dat7 (F := Ideal) V c).after 7 t) = _
  rw [after7_7]
  unfold out7_7
  rw [View.canon_unit_zero zero_offsets]
  simp only [View.ld_unit_zero (S := S5000x64) zero_offsets,
    View.ld_unit_zero (S := S1x64) zero_offsets,
    View.ld_unit_zero (S := S64x64) zero_offsets]
  obtain ⟨r0a, r0b, r7a, r7b, z1a, z1b, z2a, z2b, z3a, z3b, z4a, z4b, z5a, z5b, z6a, z6b⟩ := index7 t
  funext j
  show k7_pay1 (iblk7 V c 0 t) (iblk7 V c 1 t) (iblk7 V c 2 t) (iblk7 V c 3 t) (iblk7 V c 4 t) (iblk7 V c 5 t) (iblk7 V c 6 t) j
    = (Cert.Layers.linN x mean var g b W bias) (((cfg7.win 7).blk t).view.emb j)
  refine k7_pay1_block _ _ _ _ _ _ _ x mean var g b W bias t.val ?_ ?_ ?_ ?_ ?_ ?_ ?_ j _ ?_ ?_
  · intro p P k hP
    show V c main_v144 (((cfg7.win 0).blk t).view.emb (ix2 p k)) = x (ix2 P k)
    refine (congrFun e0 _).trans (congrArg x (funext fun a => Fin.ext ?_))
    match a with
    | ⟨0, _⟩ => show win7_0.index t (0 : Fin 2) * 5000 + 1 * p.val = P.val; omega
    | ⟨1, _⟩ => show win7_0.index t (1 : Fin 2) * 64 + 1 * k.val = k.val; omega
  · intro k
    show V c main_v155 (((cfg7.win 1).blk t).view.emb (ix2 (0 : Fin 1) k)) = mean (ix1 k)
    refine (congrArg (V c main_v155) (funext fun a => Fin.ext ?_)).trans (e1 k)
    match a with
    | ⟨0, _⟩ => show win7_1.index t (0 : Fin 2) * 1 + 1 * 0 = 0; omega
    | ⟨1, _⟩ => show win7_1.index t (1 : Fin 2) * 64 + 1 * k.val = k.val; omega
  · intro k
    show V c main_v156 (((cfg7.win 2).blk t).view.emb (ix2 (0 : Fin 1) k)) = var (ix1 k)
    refine (congrArg (V c main_v156) (funext fun a => Fin.ext ?_)).trans (e2 k)
    match a with
    | ⟨0, _⟩ => show win7_2.index t (0 : Fin 2) * 1 + 1 * 0 = 0; omega
    | ⟨1, _⟩ => show win7_2.index t (1 : Fin 2) * 64 + 1 * k.val = k.val; omega
  · intro k
    show V c main_v157 (((cfg7.win 3).blk t).view.emb (ix2 (0 : Fin 1) k)) = g (ix1 k)
    refine (congrArg (V c main_v157) (funext fun a => Fin.ext ?_)).trans (e3 k)
    match a with
    | ⟨0, _⟩ => show win7_3.index t (0 : Fin 2) * 1 + 1 * 0 = 0; omega
    | ⟨1, _⟩ => show win7_3.index t (1 : Fin 2) * 64 + 1 * k.val = k.val; omega
  · intro k
    show V c main_v158 (((cfg7.win 4).blk t).view.emb (ix2 (0 : Fin 1) k)) = b (ix1 k)
    refine (congrArg (V c main_v158) (funext fun a => Fin.ext ?_)).trans (e4 k)
    match a with
    | ⟨0, _⟩ => show win7_4.index t (0 : Fin 2) * 1 + 1 * 0 = 0; omega
    | ⟨1, _⟩ => show win7_4.index t (1 : Fin 2) * 64 + 1 * k.val = k.val; omega
  · intro k q
    show V c main_v154 (((cfg7.win 5).blk t).view.emb (ix2 k q)) = W (ix2 k q)
    refine (congrFun e5 _).trans (congrArg W (funext fun a => Fin.ext ?_))
    match a with
    | ⟨0, _⟩ => show win7_5.index t (0 : Fin 2) * 64 + 1 * k.val = k.val; omega
    | ⟨1, _⟩ => show win7_5.index t (1 : Fin 2) * 64 + 1 * q.val = q.val; omega
  · intro k
    show V c main_v159 (((cfg7.win 6).blk t).view.emb (ix2 (0 : Fin 1) k)) = bias (ix1 k)
    refine (congrArg (V c main_v159) (funext fun a => Fin.ext ?_)).trans (e6 k)
    match a with
    | ⟨0, _⟩ => show win7_6.index t (0 : Fin 2) * 1 + 1 * 0 = 0; omega
    | ⟨1, _⟩ => show win7_6.index t (1 : Fin 2) * 64 + 1 * k.val = k.val; omega
  · show win7_7.index t (0 : Fin 2) * 5000 + 1 * (j 0).val = t.val * 5000 + (j 0).val; omega
  · show win7_7.index t (1 : Fin 2) * 64 + 1 * (j 1).val = (j 1).val; omega

/-- Region 7's output array after the region is the host's linear stage of the whole node array. -/
theorem region7_out (c : Dev nD) (x : FVec Ideal S100000x64 .f32) (mean var g b : FVec Ideal S64 .f32)
    (W : FVec Ideal S64x64 .f32) (bias : FVec Ideal S64 .f32)
    (e0 : V c main_v144 = x) (e1 : ∀ q : Fin 64, V c main_v155 (ix2 (0 : Fin 1) q) = mean (ix1 q))
    (e2 : ∀ q : Fin 64, V c main_v156 (ix2 (0 : Fin 1) q) = var (ix1 q))
    (e3 : ∀ q : Fin 64, V c main_v157 (ix2 (0 : Fin 1) q) = g (ix1 q))
    (e4 : ∀ q : Fin 64, V c main_v158 (ix2 (0 : Fin 1) q) = b (ix1 q))
    (e5 : V c main_v154 = W) (e6 : ∀ q : Fin 64, V c main_v159 (ix2 (0 : Fin 1) q) = bias (ix1 q)) :
    (dat7 (F := Ideal) V c).arrAt 7 cfg7.N = Cert.Layers.linN x mean var g b W bias :=
  (dat7 (F := Ideal) V c).arrAt_eq_of_cover 7 _
    (fun t _ => flushed7_eq V c x mean var g b W bias e0 e1 e2 e3 e4 e5 e6 t) cover7

end Cert.KernelIdeal.Regions

end
-- ==== Proof.Region8.lean ====
/-
  Region 8's output array after the region is the host's residual stage of the whole node arrays.

  The region runs over 20 points; point t loads rows [5000 t, 5000 t + 5000) of each row-blocked operand and every
  [1, 64] operand whole, and writes back the same rows of the output. What point t writes back is block t of one
  function of the whole arrays (the stage), and the blocks cover the 100000 rows: row r lies in block r / 5000.
-/
import proofs.«142600_j69965017252460_1_alg».proof.Proof.Gen.KernelIdeal.Frame
import proofs.«142600_j69965017252460_1_alg».proof.Proof.Layers
import proofs.«142600_j69965017252460_1_alg».proof.Proof.LibLayer
import proofs.«142600_j69965017252460_1_alg».proof.Proof.RegionPayload

set_option maxRecDepth 16384

noncomputable section

namespace Cert.KernelIdeal.Regions

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The index maps of region 8, decided over its 20 points: the row-blocked operands and the output sit at block
    (t, 0); every other operand sits at block (0, 0). -/
theorem index8 : ∀ t : Fin cfg8.N,
    win8_0.index t (0 : Fin 2) = t.val
    ∧ win8_0.index t (1 : Fin 2) = 0
    ∧ win8_2.index t (0 : Fin 2) = t.val
    ∧ win8_2.index t (1 : Fin 2) = 0
    ∧ win8_3.index t (0 : Fin 2) = t.val
    ∧ win8_3.index t (1 : Fin 2) = 0
    ∧ win8_1.index t (0 : Fin 2) = 0
    ∧ win8_1.index t (1 : Fin 2) = 0 :=
  (by decide +kernel : ∀ t : Fin grid8.N, _)

/-- An index of the output array is in point t's block iff each coordinate is in the block's range on its axis. -/
theorem mem_blk8 (t : Fin cfg8.N) (i : S100000x64.Idx) :
    i ∈ ((cfg8.win 3).blk t).view.set ↔ ∀ a : Fin 2, win8_3.index t a * S5000x64.size a ≤ (i a).val
      ∧ (i a).val < win8_3.index t a * S5000x64.size a + S5000x64.size a := by
  show i ∈ ((View.whole main_v177).slice (win8_3.rect t)).set ↔ _
  rw [View.set_slice_whole, Rect.mem_set_unit]
  exact Iff.rfl

/-- The blocks cover the output array: row r lies in the block of point r / 5000. -/
theorem cover8 (i : S100000x64.Idx) :
    ∃ t : Fin cfg8.N, (cfg8.win 3).flush t = true ∧ i ∈ ((cfg8.win 3).blk t).view.set := by
  have hi0 : (i 0).val < 100000 := (i 0).isLt
  have hi1 : (i 1).val < 64 := (i 1).isLt
  have hN : cfg8.N = 20 := N_8
  have ht : (i 0).val / 5000 < cfg8.N := by rw [hN]; omega
  have o0 : win8_3.index ⟨(i 0).val / 5000, ht⟩ (0 : Fin 2) = (i 0).val / 5000 := (index8 ⟨(i 0).val / 5000, ht⟩).2.2.2.2.1
  have o1 : win8_3.index ⟨(i 0).val / 5000, ht⟩ (1 : Fin 2) = 0 := (index8 ⟨(i 0).val / 5000, ht⟩).2.2.2.2.2.1
  refine ⟨⟨(i 0).val / 5000, ht⟩, flush8_3 _, ?_⟩
  rw [mem_blk8]
  intro a
  match a with
  | ⟨0, _⟩ =>
    show win8_3.index ⟨(i 0).val / 5000, ht⟩ (0 : Fin 2) * 5000 ≤ (i 0).val
      ∧ (i 0).val < win8_3.index ⟨(i 0).val / 5000, ht⟩ (0 : Fin 2) * 5000 + 5000
    rw [o0]
    omega
  | ⟨1, _⟩ =>
    show win8_3.index ⟨(i 0).val / 5000, ht⟩ (1 : Fin 2) * 64 ≤ (i 1).val
      ∧ (i 1).val < win8_3.index ⟨(i 0).val / 5000, ht⟩ (1 : Fin 2) * 64 + 64
    rw [o1]
    omega

/-- What point t writes back to the output is block t of the residual stage of the whole node arrays. -/
theorem flushed8_eq (c : Dev nD) (agg : FVec Ideal S100000x64 .f32) (bias : FVec Ideal S64 .f32) (h : FVec Ideal S100000x64 .f32)
    (e0 : V c main_v173 = agg) (e1 : ∀ q : Fin 64, V c main_v176 (ix2 (0 : Fin 1) q) = bias (ix1 q))
    (e2 : V c main_v144 = h)
    (t : Fin cfg8.N) :
    (dat8 (F := Ideal) V c).flushed 3 t = ((cfg8.win 3).blk t).view.read (Elt Ideal)
      (Cert.Layers.residN agg bias h) := by
  show (cfg8.win 3).cut (grid8.coords t) ((dat8 (F := Ideal) V c).after 3 t) = _
  rw [after8_3]
  unfold out8_3
  rw [View.canon_unit_zero zero_offsets]
  simp only [View.ld_unit_zero (S := S5000x64) zero_offsets,
    View.ld_unit_zero (S := S1x64) zero_offsets]
  obtain ⟨r0a, r0b, r2a, r2b, r3a, r3b, z1a, z1b⟩ := index8 t
  funext j
  show k8_pay1 (iblk8 V c 0 t) (iblk8 V c 1 t) (iblk8 V c 2 t) j
    = (Cert.Layers.residN agg bias h) (((cfg8.win 3).blk t).view.emb j)
  refine k8_pay1_block _ _ _ agg bias h t.val ?_ ?_ ?_ j _ ?_ ?_
  · intro p P k hP
    show V c main_v173 (((cfg8.win 0).blk t).view.emb (ix2 p k)) = agg (ix2 P k)
    refine (congrFun e0 _).trans (congrArg agg (funext fun a => Fin.ext ?_))
    match a with
    | ⟨0, _⟩ => show win8_0.index t (0 : Fin 2) * 5000 + 1 * p.val = P.val; omega
    | ⟨1, _⟩ => show win8_0.index t (1 : Fin 2) * 64 + 1 * k.val = k.val; omega
  · intro k
    show V c main_v176 (((cfg8.win 1).blk t).view.emb (ix2 (0 : Fin 1) k)) = bias (ix1 k)
    refine (congrArg (V c main_v176) (funext fun a => Fin.ext ?_)).trans (e1 k)
    match a with
    | ⟨0, _⟩ => show win8_1.index t (0 : Fin 2) * 1 + 1 * 0 = 0; omega
    | ⟨1, _⟩ => show win8_1.index t (1 : Fin 2) * 64 + 1 * k.val = k.val; omega
  · intro p P k hP
    show V c main_v144 (((cfg8.win 2).blk t).view.emb (ix2 p k)) = h (ix2 P k)
    refine (congrFun e2 _).trans (congrArg h (funext fun a => Fin.ext ?_))
    match a with
    | ⟨0, _⟩ => show win8_2.index t (0 : Fin 2) * 5000 + 1 * p.val = P.val; omega
    | ⟨1, _⟩ => show win8_2.index t (1 : Fin 2) * 64 + 1 * k.val = k.val; omega
  · show win8_3.index t (0 : Fin 2) * 5000 + 1 * (j 0).val = t.val * 5000 + (j 0).val; omega
  · show win8_3.index t (1 : Fin 2) * 64 + 1 * (j 1).val = (j 1).val; omega

/-- Region 8's output array after the region is the host's residual stage of the whole node arrays. -/
theorem region8_out (c : Dev nD) (agg : FVec Ideal S100000x64 .f32) (bias : FVec Ideal S64 .f32) (h : FVec Ideal S100000x64 .f32)
    (e0 : V c main_v173 = agg) (e1 : ∀ q : Fin 64, V c main_v176 (ix2 (0 : Fin 1) q) = bias (ix1 q))
    (e2 : V c main_v144 = h) :
    (dat8 (F := Ideal) V c).arrAt 3 cfg8.N = Cert.Layers.residN agg bias h :=
  (dat8 (F := Ideal) V c).arrAt_eq_of_cover 3 _
    (fun t _ => flushed8_eq V c agg bias h e0 e1 e2 t) cover8

end Cert.KernelIdeal.Regions

end
-- ==== Proof.Region9.lean ====
/-
  Region 9's output array after the region is the host's rectified linear stage of the pooled array.

  The region runs over one point; point t loads rows [512 t, 512 t + 512) of each row-blocked operand and every
  [1, 64] and [64, 64] operand whole, and writes back the same rows of the output. What point t writes back is block t of one
  function of the whole arrays (the stage), and the blocks cover the 512 rows: row r lies in block r / 512.
-/
import proofs.«142600_j69965017252460_1_alg».proof.Proof.Gen.KernelIdeal.Frame
import proofs.«142600_j69965017252460_1_alg».proof.Proof.Layers
import proofs.«142600_j69965017252460_1_alg».proof.Proof.LibLayer
import proofs.«142600_j69965017252460_1_alg».proof.Proof.RegionPayload

set_option maxRecDepth 16384

noncomputable section

namespace Cert.KernelIdeal.Regions

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The index maps of region 9, decided over its one point: the row-blocked operands and the output sit at block
    (t, 0); every other operand sits at block (0, 0). -/
theorem index9 : ∀ t : Fin cfg9.N,
    win9_0.index t (0 : Fin 2) = t.val
    ∧ win9_0.index t (1 : Fin 2) = 0
    ∧ win9_7.index t (0 : Fin 2) = t.val
    ∧ win9_7.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) = 0
    ∧ win9_3.index t (1 : Fin 2) = 0
    ∧ win9_4.index t (0 : Fin 2) = 0
    ∧ win9_4.index t (1 : Fin 2) = 0
    ∧ win9_5.index t (0 : Fin 2) = 0
    ∧ win9_5.index t (1 : Fin 2) = 0
    ∧ win9_6.index t (0 : Fin 2) = 0
    ∧ win9_6.index t (1 : Fin 2) = 0 :=
  (by decide +kernel : ∀ t : Fin grid9.N, _)

/-- An index of the output array is in point t's block iff each coordinate is in the block's range on its axis. -/
theorem mem_blk9 (t : Fin cfg9.N) (i : S512x64.Idx) :
    i ∈ ((cfg9.win 7).blk t).view.set ↔ ∀ a : Fin 2, win9_7.index t a * S512x64.size a ≤ (i a).val
      ∧ (i a).val < win9_7.index t a * S512x64.size a + S512x64.size a := by
  show i ∈ ((View.whole main_v198).slice (win9_7.rect t)).set ↔ _
  rw [View.set_slice_whole, Rect.mem_set_unit]
  exact Iff.rfl

/-- The blocks cover the output array: row r lies in the block of point r / 512. -/
theorem cover9 (i : S512x64.Idx) :
    ∃ t : Fin cfg9.N, (cfg9.win 7).flush t = true ∧ i ∈ ((cfg9.win 7).blk t).view.set := by
  have hi0 : (i 0).val < 512 := (i 0).isLt
  have hi1 : (i 1).val < 64 := (i 1).isLt
  have hN : cfg9.N = 1 := N_9
  have ht : (i 0).val / 512 < cfg9.N := by rw [hN]; omega
  have o0 : win9_7.index ⟨(i 0).val / 512, ht⟩ (0 : Fin 2) = (i 0).val / 512 := (index9 ⟨(i 0).val / 512, ht⟩).2.2.1
  have o1 : win9_7.index ⟨(i 0).val / 512, ht⟩ (1 : Fin 2) = 0 := (index9 ⟨(i 0).val / 512, ht⟩).2.2.2.1
  refine ⟨⟨(i 0).val / 512, ht⟩, flush9_7 _, ?_⟩
  rw [mem_blk9]
  intro a
  match a with
  | ⟨0, _⟩ =>
    show win9_7.index ⟨(i 0).val / 512, ht⟩ (0 : Fin 2) * 512 ≤ (i 0).val
      ∧ (i 0).val < win9_7.index ⟨(i 0).val / 512, ht⟩ (0 : Fin 2) * 512 + 512
    rw [o0]
    omega
  | ⟨1, _⟩ =>
    show win9_7.index ⟨(i 0).val / 512, ht⟩ (1 : Fin 2) * 64 ≤ (i 1).val
      ∧ (i 1).val < win9_7.index ⟨(i 0).val / 512, ht⟩ (1 : Fin 2) * 64 + 64
    rw [o1]
    omega

/-- What point t writes back to the output is block t of the rectified linear stage of the pooled array. -/
theorem flushed9_eq (c : Dev nD) (x : FVec Ideal S512x64 .f32) (mean var g b : FVec Ideal S64 .f32)
    (W : FVec Ideal S64x64 .f32) (bias : FVec Ideal S64 .f32)
    (e0 : V c main_v180 = x) (e1 : ∀ q : Fin 64, V c main_v193 (ix2 (0 : Fin 1) q) = mean (ix1 q))
    (e2 : ∀ q : Fin 64, V c main_v194 (ix2 (0 : Fin 1) q) = var (ix1 q))
    (e3 : ∀ q : Fin 64, V c main_v195 (ix2 (0 : Fin 1) q) = g (ix1 q))
    (e4 : ∀ q : Fin 64, V c main_v196 (ix2 (0 : Fin 1) q) = b (ix1 q))
    (e5 : V c main_v190 = W) (e6 : ∀ q : Fin 64, V c main_v197 (ix2 (0 : Fin 1) q) = bias (ix1 q))
    (t : Fin cfg9.N) :
    (dat9 (F := Ideal) V c).flushed 7 t = ((cfg9.win 7).blk t).view.read (Elt Ideal)
      (Cert.Layers.reluG (Cert.Layers.linG x mean var g b W bias)) := by
  show (cfg9.win 7).cut (grid9.coords t) ((dat9 (F := Ideal) V c).after 7 t) = _
  rw [after9_7]
  unfold out9_7
  rw [View.canon_unit_zero zero_offsets]
  simp only [View.ld_unit_zero (S := S512x64) zero_offsets,
    View.ld_unit_zero (S := S1x64) zero_offsets,
    View.ld_unit_zero (S := S64x64) zero_offsets]
  obtain ⟨r0a, r0b, r7a, r7b, z1a, z1b, z2a, z2b, z3a, z3b, z4a, z4b, z5a, z5b, z6a, z6b⟩ := index9 t
  funext j
  show k9_pay1 (iblk9 V c 0 t) (iblk9 V c 1 t) (iblk9 V c 2 t) (iblk9 V c 3 t) (iblk9 V c 4 t) (iblk9 V c 5 t) (iblk9 V c 6 t) j
    = (Cert.Layers.reluG (Cert.Layers.linG x mean var g b W bias)) (((cfg9.win 7).blk t).view.emb j)
  refine k9_pay1_block _ _ _ _ _ _ _ x mean var g b W bias t.val ?_ ?_ ?_ ?_ ?_ ?_ ?_ j _ ?_ ?_
  · intro p P k hP
    show V c main_v180 (((cfg9.win 0).blk t).view.emb (ix2 p k)) = x (ix2 P k)
    refine (congrFun e0 _).trans (congrArg x (funext fun a => Fin.ext ?_))
    match a with
    | ⟨0, _⟩ => show win9_0.index t (0 : Fin 2) * 512 + 1 * p.val = P.val; omega
    | ⟨1, _⟩ => show win9_0.index t (1 : Fin 2) * 64 + 1 * k.val = k.val; omega
  · intro k
    show V c main_v193 (((cfg9.win 1).blk t).view.emb (ix2 (0 : Fin 1) k)) = mean (ix1 k)
    refine (congrArg (V c main_v193) (funext fun a => Fin.ext ?_)).trans (e1 k)
    match a with
    | ⟨0, _⟩ => show win9_1.index t (0 : Fin 2) * 1 + 1 * 0 = 0; omega
    | ⟨1, _⟩ => show win9_1.index t (1 : Fin 2) * 64 + 1 * k.val = k.val; omega
  · intro k
    show V c main_v194 (((cfg9.win 2).blk t).view.emb (ix2 (0 : Fin 1) k)) = var (ix1 k)
    refine (congrArg (V c main_v194) (funext fun a => Fin.ext ?_)).trans (e2 k)
    match a with
    | ⟨0, _⟩ => show win9_2.index t (0 : Fin 2) * 1 + 1 * 0 = 0; omega
    | ⟨1, _⟩ => show win9_2.index t (1 : Fin 2) * 64 + 1 * k.val = k.val; omega
  · intro k
    show V c main_v195 (((cfg9.win 3).blk t).view.emb (ix2 (0 : Fin 1) k)) = g (ix1 k)
    refine (congrArg (V c main_v195) (funext fun a => Fin.ext ?_)).trans (e3 k)
    match a with
    | ⟨0, _⟩ => show win9_3.index t (0 : Fin 2) * 1 + 1 * 0 = 0; omega
    | ⟨1, _⟩ => show win9_3.index t (1 : Fin 2) * 64 + 1 * k.val = k.val; omega
  · intro k
    show V c main_v196 (((cfg9.win 4).blk t).view.emb (ix2 (0 : Fin 1) k)) = b (ix1 k)
    refine (congrArg (V c main_v196) (funext fun a => Fin.ext ?_)).trans (e4 k)
    match a with
    | ⟨0, _⟩ => show win9_4.index t (0 : Fin 2) * 1 + 1 * 0 = 0; omega
    | ⟨1, _⟩ => show win9_4.index t (1 : Fin 2) * 64 + 1 * k.val = k.val; omega
  · intro k q
    show V c main_v190 (((cfg9.win 5).blk t).view.emb (ix2 k q)) = W (ix2 k q)
    refine (congrFun e5 _).trans (congrArg W (funext fun a => Fin.ext ?_))
    match a with
    | ⟨0, _⟩ => show win9_5.index t (0 : Fin 2) * 64 + 1 * k.val = k.val; omega
    | ⟨1, _⟩ => show win9_5.index t (1 : Fin 2) * 64 + 1 * q.val = q.val; omega
  · intro k
    show V c main_v197 (((cfg9.win 6).blk t).view.emb (ix2 (0 : Fin 1) k)) = bias (ix1 k)
    refine (congrArg (V c main_v197) (funext fun a => Fin.ext ?_)).trans (e6 k)
    match a with
    | ⟨0, _⟩ => show win9_6.index t (0 : Fin 2) * 1 + 1 * 0 = 0; omega
    | ⟨1, _⟩ => show win9_6.index t (1 : Fin 2) * 64 + 1 * k.val = k.val; omega
  · show win9_7.index t (0 : Fin 2) * 512 + 1 * (j 0).val = t.val * 512 + (j 0).val; omega
  · show win9_7.index t (1 : Fin 2) * 64 + 1 * (j 1).val = (j 1).val; omega

/-- Region 9's output array after the region is the host's rectified linear stage of the pooled array. -/
theorem region9_out (c : Dev nD) (x : FVec Ideal S512x64 .f32) (mean var g b : FVec Ideal S64 .f32)
    (W : FVec Ideal S64x64 .f32) (bias : FVec Ideal S64 .f32)
    (e0 : V c main_v180 = x) (e1 : ∀ q : Fin 64, V c main_v193 (ix2 (0 : Fin 1) q) = mean (ix1 q))
    (e2 : ∀ q : Fin 64, V c main_v194 (ix2 (0 : Fin 1) q) = var (ix1 q))
    (e3 : ∀ q : Fin 64, V c main_v195 (ix2 (0 : Fin 1) q) = g (ix1 q))
    (e4 : ∀ q : Fin 64, V c main_v196 (ix2 (0 : Fin 1) q) = b (ix1 q))
    (e5 : V c main_v190 = W) (e6 : ∀ q : Fin 64, V c main_v197 (ix2 (0 : Fin 1) q) = bias (ix1 q)) :
    (dat9 (F := Ideal) V c).arrAt 7 cfg9.N = Cert.Layers.reluG (Cert.Layers.linG x mean var g b W bias) :=
  (dat9 (F := Ideal) V c).arrAt_eq_of_cover 7 _
    (fun t _ => flushed9_eq V c x mean var g b W bias e0 e1 e2 e3 e4 e5 e6 t) cover9

end Cert.KernelIdeal.Regions

end
-- ==== Proof.Region10.lean ====
/-
  Region 10's output array after the region is the host's rectified linear stage of the pooled array.

  The region runs over one point; point t loads rows [512 t, 512 t + 512) of each row-blocked operand and every
  [1, 64] and [64, 64] operand whole, and writes back the same rows of the output. What point t writes back is block t of one
  function of the whole arrays (the stage), and the blocks cover the 512 rows: row r lies in block r / 512.
-/
import proofs.«142600_j69965017252460_1_alg».proof.Proof.Gen.KernelIdeal.Frame
import proofs.«142600_j69965017252460_1_alg».proof.Proof.Layers
import proofs.«142600_j69965017252460_1_alg».proof.Proof.LibLayer
import proofs.«142600_j69965017252460_1_alg».proof.Proof.RegionPayload

set_option maxRecDepth 16384

noncomputable section

namespace Cert.KernelIdeal.Regions

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The index maps of region 10, decided over its one point: the row-blocked operands and the output sit at block
    (t, 0); every other operand sits at block (0, 0). -/
theorem index10 : ∀ t : Fin cfg10.N,
    win10_0.index t (0 : Fin 2) = t.val
    ∧ win10_0.index t (1 : Fin 2) = 0
    ∧ win10_7.index t (0 : Fin 2) = t.val
    ∧ win10_7.index t (1 : Fin 2) = 0
    ∧ win10_1.index t (0 : Fin 2) = 0
    ∧ win10_1.index t (1 : Fin 2) = 0
    ∧ win10_2.index t (0 : Fin 2) = 0
    ∧ win10_2.index t (1 : Fin 2) = 0
    ∧ win10_3.index t (0 : Fin 2) = 0
    ∧ win10_3.index t (1 : Fin 2) = 0
    ∧ win10_4.index t (0 : Fin 2) = 0
    ∧ win10_4.index t (1 : Fin 2) = 0
    ∧ win10_5.index t (0 : Fin 2) = 0
    ∧ win10_5.index t (1 : Fin 2) = 0
    ∧ win10_6.index t (0 : Fin 2) = 0
    ∧ win10_6.index t (1 : Fin 2) = 0 :=
  (by decide +kernel : ∀ t : Fin grid10.N, _)

/-- An index of the output array is in point t's block iff each coordinate is in the block's range on its axis. -/
theorem mem_blk10 (t : Fin cfg10.N) (i : S512x64.Idx) :
    i ∈ ((cfg10.win 7).blk t).view.set ↔ ∀ a : Fin 2, win10_7.index t a * S512x64.size a ≤ (i a).val
      ∧ (i a).val < win10_7.index t a * S512x64.size a + S512x64.size a := by
  show i ∈ ((View.whole main_v216).slice (win10_7.rect t)).set ↔ _
  rw [View.set_slice_whole, Rect.mem_set_unit]
  exact Iff.rfl

/-- The blocks cover the output array: row r lies in the block of point r / 512. -/
theorem cover10 (i : S512x64.Idx) :
    ∃ t : Fin cfg10.N, (cfg10.win 7).flush t = true ∧ i ∈ ((cfg10.win 7).blk t).view.set := by
  have hi0 : (i 0).val < 512 := (i 0).isLt
  have hi1 : (i 1).val < 64 := (i 1).isLt
  have hN : cfg10.N = 1 := N_10
  have ht : (i 0).val / 512 < cfg10.N := by rw [hN]; omega
  have o0 : win10_7.index ⟨(i 0).val / 512, ht⟩ (0 : Fin 2) = (i 0).val / 512 := (index10 ⟨(i 0).val / 512, ht⟩).2.2.1
  have o1 : win10_7.index ⟨(i 0).val / 512, ht⟩ (1 : Fin 2) = 0 := (index10 ⟨(i 0).val / 512, ht⟩).2.2.2.1
  refine ⟨⟨(i 0).val / 512, ht⟩, flush10_7 _, ?_⟩
  rw [mem_blk10]
  intro a
  match a with
  | ⟨0, _⟩ =>
    show win10_7.index ⟨(i 0).val / 512, ht⟩ (0 : Fin 2) * 512 ≤ (i 0).val
      ∧ (i 0).val < win10_7.index ⟨(i 0).val / 512, ht⟩ (0 : Fin 2) * 512 + 512
    rw [o0]
    omega
  | ⟨1, _⟩ =>
    show win10_7.index ⟨(i 0).val / 512, ht⟩ (1 : Fin 2) * 64 ≤ (i 1).val
      ∧ (i 1).val < win10_7.index ⟨(i 0).val / 512, ht⟩ (1 : Fin 2) * 64 + 64
    rw [o1]
    omega

/-- What point t writes back to the output is block t of the rectified linear stage of the pooled array. -/
theorem flushed10_eq (c : Dev nD) (x : FVec Ideal S512x64 .f32) (mean var g b : FVec Ideal S64 .f32)
    (W : FVec Ideal S64x64 .f32) (bias : FVec Ideal S64 .f32)
    (e0 : V c main_v198 = x) (e1 : ∀ q : Fin 64, V c main_v211 (ix2 (0 : Fin 1) q) = mean (ix1 q))
    (e2 : ∀ q : Fin 64, V c main_v212 (ix2 (0 : Fin 1) q) = var (ix1 q))
    (e3 : ∀ q : Fin 64, V c main_v213 (ix2 (0 : Fin 1) q) = g (ix1 q))
    (e4 : ∀ q : Fin 64, V c main_v214 (ix2 (0 : Fin 1) q) = b (ix1 q))
    (e5 : V c main_v208 = W) (e6 : ∀ q : Fin 64, V c main_v215 (ix2 (0 : Fin 1) q) = bias (ix1 q))
    (t : Fin cfg10.N) :
    (dat10 (F := Ideal) V c).flushed 7 t = ((cfg10.win 7).blk t).view.read (Elt Ideal)
      (Cert.Layers.reluG (Cert.Layers.linG x mean var g b W bias)) := by
  show (cfg10.win 7).cut (grid10.coords t) ((dat10 (F := Ideal) V c).after 7 t) = _
  rw [after10_7]
  unfold out10_7
  rw [View.canon_unit_zero zero_offsets]
  simp only [View.ld_unit_zero (S := S512x64) zero_offsets,
    View.ld_unit_zero (S := S1x64) zero_offsets,
    View.ld_unit_zero (S := S64x64) zero_offsets]
  obtain ⟨r0a, r0b, r7a, r7b, z1a, z1b, z2a, z2b, z3a, z3b, z4a, z4b, z5a, z5b, z6a, z6b⟩ := index10 t
  funext j
  show k10_pay1 (iblk10 V c 0 t) (iblk10 V c 1 t) (iblk10 V c 2 t) (iblk10 V c 3 t) (iblk10 V c 4 t) (iblk10 V c 5 t) (iblk10 V c 6 t) j
    = (Cert.Layers.reluG (Cert.Layers.linG x mean var g b W bias)) (((cfg10.win 7).blk t).view.emb j)
  refine k10_pay1_block _ _ _ _ _ _ _ x mean var g b W bias t.val ?_ ?_ ?_ ?_ ?_ ?_ ?_ j _ ?_ ?_
  · intro p P k hP
    show V c main_v198 (((cfg10.win 0).blk t).view.emb (ix2 p k)) = x (ix2 P k)
    refine (congrFun e0 _).trans (congrArg x (funext fun a => Fin.ext ?_))
    match a with
    | ⟨0, _⟩ => show win10_0.index t (0 : Fin 2) * 512 + 1 * p.val = P.val; omega
    | ⟨1, _⟩ => show win10_0.index t (1 : Fin 2) * 64 + 1 * k.val = k.val; omega
  · intro k
    show V c main_v211 (((cfg10.win 1).blk t).view.emb (ix2 (0 : Fin 1) k)) = mean (ix1 k)
    refine (congrArg (V c main_v211) (funext fun a => Fin.ext ?_)).trans (e1 k)
    match a with
    | ⟨0, _⟩ => show win10_1.index t (0 : Fin 2) * 1 + 1 * 0 = 0; omega
    | ⟨1, _⟩ => show win10_1.index t (1 : Fin 2) * 64 + 1 * k.val = k.val; omega
  · intro k
    show V c main_v212 (((cfg10.win 2).blk t).view.emb (ix2 (0 : Fin 1) k)) = var (ix1 k)
    refine (congrArg (V c main_v212) (funext fun a => Fin.ext ?_)).trans (e2 k)
    match a with
    | ⟨0, _⟩ => show win10_2.index t (0 : Fin 2) * 1 + 1 * 0 = 0; omega
    | ⟨1, _⟩ => show win10_2.index t (1 : Fin 2) * 64 + 1 * k.val = k.val; omega
  · intro k
    show V c main_v213 (((cfg10.win 3).blk t).view.emb (ix2 (0 : Fin 1) k)) = g (ix1 k)
    refine (congrArg (V c main_v213) (funext fun a => Fin.ext ?_)).trans (e3 k)
    match a with
    | ⟨0, _⟩ => show win10_3.index t (0 : Fin 2) * 1 + 1 * 0 = 0; omega
    | ⟨1, _⟩ => show win10_3.index t (1 : Fin 2) * 64 + 1 * k.val = k.val; omega
  · intro k
    show V c main_v214 (((cfg10.win 4).blk t).view.emb (ix2 (0 : Fin 1) k)) = b (ix1 k)
    refine (congrArg (V c main_v214) (funext fun a => Fin.ext ?_)).trans (e4 k)
    match a with
    | ⟨0, _⟩ => show win10_4.index t (0 : Fin 2) * 1 + 1 * 0 = 0; omega
    | ⟨1, _⟩ => show win10_4.index t (1 : Fin 2) * 64 + 1 * k.val = k.val; omega
  · intro k q
    show V c main_v208 (((cfg10.win 5).blk t).view.emb (ix2 k q)) = W (ix2 k q)
    refine (congrFun e5 _).trans (congrArg W (funext fun a => Fin.ext ?_))
    match a with
    | ⟨0, _⟩ => show win10_5.index t (0 : Fin 2) * 64 + 1 * k.val = k.val; omega
    | ⟨1, _⟩ => show win10_5.index t (1 : Fin 2) * 64 + 1 * q.val = q.val; omega
  · intro k
    show V c main_v215 (((cfg10.win 6).blk t).view.emb (ix2 (0 : Fin 1) k)) = bias (ix1 k)
    refine (congrArg (V c main_v215) (funext fun a => Fin.ext ?_)).trans (e6 k)
    match a with
    | ⟨0, _⟩ => show win10_6.index t (0 : Fin 2) * 1 + 1 * 0 = 0; omega
    | ⟨1, _⟩ => show win10_6.index t (1 : Fin 2) * 64 + 1 * k.val = k.val; omega
  · show win10_7.index t (0 : Fin 2) * 512 + 1 * (j 0).val = t.val * 512 + (j 0).val; omega
  · show win10_7.index t (1 : Fin 2) * 64 + 1 * (j 1).val = (j 1).val; omega

/-- Region 10's output array after the region is the host's rectified linear stage of the pooled array. -/
theorem region10_out (c : Dev nD) (x : FVec Ideal S512x64 .f32) (mean var g b : FVec Ideal S64 .f32)
    (W : FVec Ideal S64x64 .f32) (bias : FVec Ideal S64 .f32)
    (e0 : V c main_v198 = x) (e1 : ∀ q : Fin 64, V c main_v211 (ix2 (0 : Fin 1) q) = mean (ix1 q))
    (e2 : ∀ q : Fin 64, V c main_v212 (ix2 (0 : Fin 1) q) = var (ix1 q))
    (e3 : ∀ q : Fin 64, V c main_v213 (ix2 (0 : Fin 1) q) = g (ix1 q))
    (e4 : ∀ q : Fin 64, V c main_v214 (ix2 (0 : Fin 1) q) = b (ix1 q))
    (e5 : V c main_v208 = W) (e6 : ∀ q : Fin 64, V c main_v215 (ix2 (0 : Fin 1) q) = bias (ix1 q)) :
    (dat10 (F := Ideal) V c).arrAt 7 cfg10.N = Cert.Layers.reluG (Cert.Layers.linG x mean var g b W bias) :=
  (dat10 (F := Ideal) V c).arrAt_eq_of_cover 7 _
    (fun t _ => flushed10_eq V c x mean var g b W bias e0 e1 e2 e3 e4 e5 e6 t) cover10

end Cert.KernelIdeal.Regions

end
-- ==== Proof.Region11.lean ====
/-
  Region 11's output array after the region is the host's normalisation of the pooled array.

  The region runs over one point; point t loads rows [512 t, 512 t + 512) of each row-blocked operand and every
  [1, 64] operand whole, and writes back the same rows of the output. What point t writes back is block t of one
  function of the whole arrays (the stage), and the blocks cover the 512 rows: row r lies in block r / 512.
-/
import proofs.«142600_j69965017252460_1_alg».proof.Proof.Gen.KernelIdeal.Frame
import proofs.«142600_j69965017252460_1_alg».proof.Proof.Layers
import proofs.«142600_j69965017252460_1_alg».proof.Proof.LibLayer
import proofs.«142600_j69965017252460_1_alg».proof.Proof.RegionPayload

set_option maxRecDepth 16384

noncomputable section

namespace Cert.KernelIdeal.Regions

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The index maps of region 11, decided over its one point: the row-blocked operands and the output sit at block
    (t, 0); every other operand sits at block (0, 0). -/
theorem index11 : ∀ t : Fin cfg11.N,
    win11_0.index t (0 : Fin 2) = t.val
    ∧ win11_0.index t (1 : Fin 2) = 0
    ∧ win11_5.index t (0 : Fin 2) = t.val
    ∧ win11_5.index t (1 : Fin 2) = 0
    ∧ win11_1.index t (0 : Fin 2) = 0
    ∧ win11_1.index t (1 : Fin 2) = 0
    ∧ win11_2.index t (0 : Fin 2) = 0
    ∧ win11_2.index t (1 : Fin 2) = 0
    ∧ win11_3.index t (0 : Fin 2) = 0
    ∧ win11_3.index t (1 : Fin 2) = 0
    ∧ win11_4.index t (0 : Fin 2) = 0
    ∧ win11_4.index t (1 : Fin 2) = 0 :=
  (by decide +kernel : ∀ t : Fin grid11.N, _)

/-- An index of the output array is in point t's block iff each coordinate is in the block's range on its axis. -/
theorem mem_blk11 (t : Fin cfg11.N) (i : S512x64.Idx) :
    i ∈ ((cfg11.win 5).blk t).view.set ↔ ∀ a : Fin 2, win11_5.index t a * S512x64.size a ≤ (i a).val
      ∧ (i a).val < win11_5.index t a * S512x64.size a + S512x64.size a := by
  show i ∈ ((View.whole main_v225).slice (win11_5.rect t)).set ↔ _
  rw [View.set_slice_whole, Rect.mem_set_unit]
  exact Iff.rfl

/-- The blocks cover the output array: row r lies in the block of point r / 512. -/
theorem cover11 (i : S512x64.Idx) :
    ∃ t : Fin cfg11.N, (cfg11.win 5).flush t = true ∧ i ∈ ((cfg11.win 5).blk t).view.set := by
  have hi0 : (i 0).val < 512 := (i 0).isLt
  have hi1 : (i 1).val < 64 := (i 1).isLt
  have hN : cfg11.N = 1 := N_11
  have ht : (i 0).val / 512 < cfg11.N := by rw [hN]; omega
  have o0 : win11_5.index ⟨(i 0).val / 512, ht⟩ (0 : Fin 2) = (i 0).val / 512 := (index11 ⟨(i 0).val / 512, ht⟩).2.2.1
  have o1 : win11_5.index ⟨(i 0).val / 512, ht⟩ (1 : Fin 2) = 0 := (index11 ⟨(i 0).val / 512, ht⟩).2.2.2.1
  refine ⟨⟨(i 0).val / 512, ht⟩, flush11_5 _, ?_⟩
  rw [mem_blk11]
  intro a
  match a with
  | ⟨0, _⟩ =>
    show win11_5.index ⟨(i 0).val / 512, ht⟩ (0 : Fin 2) * 512 ≤ (i 0).val
      ∧ (i 0).val < win11_5.index ⟨(i 0).val / 512, ht⟩ (0 : Fin 2) * 512 + 512
    rw [o0]
    omega
  | ⟨1, _⟩ =>
    show win11_5.index ⟨(i 0).val / 512, ht⟩ (1 : Fin 2) * 64 ≤ (i 1).val
      ∧ (i 1).val < win11_5.index ⟨(i 0).val / 512, ht⟩ (1 : Fin 2) * 64 + 64
    rw [o1]
    omega

/-- What point t writes back to the output is block t of the normalisation of the pooled array. -/
theorem flushed11_eq (c : Dev nD) (x : FVec Ideal S512x64 .f32) (mean var g b : FVec Ideal S64 .f32)
    (e0 : V c main_v216 = x) (e1 : ∀ q : Fin 64, V c main_v221 (ix2 (0 : Fin 1) q) = mean (ix1 q))
    (e2 : ∀ q : Fin 64, V c main_v222 (ix2 (0 : Fin 1) q) = var (ix1 q))
    (e3 : ∀ q : Fin 64, V c main_v223 (ix2 (0 : Fin 1) q) = g (ix1 q))
    (e4 : ∀ q : Fin 64, V c main_v224 (ix2 (0 : Fin 1) q) = b (ix1 q))
    (t : Fin cfg11.N) :
    (dat11 (F := Ideal) V c).flushed 5 t = ((cfg11.win 5).blk t).view.read (Elt Ideal)
      (Cert.Layers.bnG x mean var g b) := by
  show (cfg11.win 5).cut (grid11.coords t) ((dat11 (F := Ideal) V c).after 5 t) = _
  rw [after11_5]
  unfold out11_5
  rw [View.canon_unit_zero zero_offsets]
  simp only [View.ld_unit_zero (S := S512x64) zero_offsets,
    View.ld_unit_zero (S := S1x64) zero_offsets]
  obtain ⟨r0a, r0b, r5a, r5b, z1a, z1b, z2a, z2b, z3a, z3b, z4a, z4b⟩ := index11 t
  funext j
  show k11_pay1 (iblk11 V c 0 t) (iblk11 V c 1 t) (iblk11 V c 2 t) (iblk11 V c 3 t) (iblk11 V c 4 t) j
    = (Cert.Layers.bnG x mean var g b) (((cfg11.win 5).blk t).view.emb j)
  refine k11_pay1_block _ _ _ _ _ x mean var g b t.val ?_ ?_ ?_ ?_ ?_ j _ ?_ ?_
  · intro p P k hP
    show V c main_v216 (((cfg11.win 0).blk t).view.emb (ix2 p k)) = x (ix2 P k)
    refine (congrFun e0 _).trans (congrArg x (funext fun a => Fin.ext ?_))
    match a with
    | ⟨0, _⟩ => show win11_0.index t (0 : Fin 2) * 512 + 1 * p.val = P.val; omega
    | ⟨1, _⟩ => show win11_0.index t (1 : Fin 2) * 64 + 1 * k.val = k.val; omega
  · intro k
    show V c main_v221 (((cfg11.win 1).blk t).view.emb (ix2 (0 : Fin 1) k)) = mean (ix1 k)
    refine (congrArg (V c main_v221) (funext fun a => Fin.ext ?_)).trans (e1 k)
    match a with
    | ⟨0, _⟩ => show win11_1.index t (0 : Fin 2) * 1 + 1 * 0 = 0; omega
    | ⟨1, _⟩ => show win11_1.index t (1 : Fin 2) * 64 + 1 * k.val = k.val; omega
  · intro k
    show V c main_v222 (((cfg11.win 2).blk t).view.emb (ix2 (0 : Fin 1) k)) = var (ix1 k)
    refine (congrArg (V c main_v222) (funext fun a => Fin.ext ?_)).trans (e2 k)
    match a with
    | ⟨0, _⟩ => show win11_2.index t (0 : Fin 2) * 1 + 1 * 0 = 0; omega
    | ⟨1, _⟩ => show win11_2.index t (1 : Fin 2) * 64 + 1 * k.val = k.val; omega
  · intro k
    show V c main_v223 (((cfg11.win 3).blk t).view.emb (ix2 (0 : Fin 1) k)) = g (ix1 k)
    refine (congrArg (V c main_v223) (funext fun a => Fin.ext ?_)).trans (e3 k)
    match a with
    | ⟨0, _⟩ => show win11_3.index t (0 : Fin 2) * 1 + 1 * 0 = 0; omega
    | ⟨1, _⟩ => show win11_3.index t (1 : Fin 2) * 64 + 1 * k.val = k.val; omega
  · intro k
    show V c main_v224 (((cfg11.win 4).blk t).view.emb (ix2 (0 : Fin 1) k)) = b (ix1 k)
    refine (congrArg (V c main_v224) (funext fun a => Fin.ext ?_)).trans (e4 k)
    match a with
    | ⟨0, _⟩ => show win11_4.index t (0 : Fin 2) * 1 + 1 * 0 = 0; omega
    | ⟨1, _⟩ => show win11_4.index t (1 : Fin 2) * 64 + 1 * k.val = k.val; omega
  · show win11_5.index t (0 : Fin 2) * 512 + 1 * (j 0).val = t.val * 512 + (j 0).val; omega
  · show win11_5.index t (1 : Fin 2) * 64 + 1 * (j 1).val = (j 1).val; omega

/-- Region 11's output array after the region is the host's normalisation of the pooled array. -/
theorem region11_out (c : Dev nD) (x : FVec Ideal S512x64 .f32) (mean var g b : FVec Ideal S64 .f32)
    (e0 : V c main_v216 = x) (e1 : ∀ q : Fin 64, V c main_v221 (ix2 (0 : Fin 1) q) = mean (ix1 q))
    (e2 : ∀ q : Fin 64, V c main_v222 (ix2 (0 : Fin 1) q) = var (ix1 q))
    (e3 : ∀ q : Fin 64, V c main_v223 (ix2 (0 : Fin 1) q) = g (ix1 q))
    (e4 : ∀ q : Fin 64, V c main_v224 (ix2 (0 : Fin 1) q) = b (ix1 q)) :
    (dat11 (F := Ideal) V c).arrAt 5 cfg11.N = Cert.Layers.bnG x mean var g b :=
  (dat11 (F := Ideal) V c).arrAt_eq_of_cover 5 _
    (fun t _ => flushed11_eq V c x mean var g b e0 e1 e2 e3 e4 t) cover11

end Cert.KernelIdeal.Regions

end
-- ==== Proof.KRead.lean ====
/-
  Each kernel region's output array, read at the last boundary, is the host's dense stage of the buffers the region
  was given, read at the last boundary: the region finds in each window's array what that array holds at the end (no
  later stretch or region writes it), a [1, 64] window is a length-64 vector set up as a row, and the region's blocks
  assemble to the stage on the whole array.
-/
import proofs.«142600_j69965017252460_1_alg».proof.Proof.KLast
import proofs.«142600_j69965017252460_1_alg».proof.Proof.Layers
import proofs.«142600_j69965017252460_1_alg».proof.Proof.Region0
import proofs.«142600_j69965017252460_1_alg».proof.Proof.Region1
import proofs.«142600_j69965017252460_1_alg».proof.Proof.Region2
import proofs.«142600_j69965017252460_1_alg».proof.Proof.Region3
import proofs.«142600_j69965017252460_1_alg».proof.Proof.Region4
import proofs.«142600_j69965017252460_1_alg».proof.Proof.Region5
import proofs.«142600_j69965017252460_1_alg».proof.Proof.Region6
import proofs.«142600_j69965017252460_1_alg».proof.Proof.Region7
import proofs.«142600_j69965017252460_1_alg».proof.Proof.Region8
import proofs.«142600_j69965017252460_1_alg».proof.Proof.Region9
import proofs.«142600_j69965017252460_1_alg».proof.Proof.Region10
import proofs.«142600_j69965017252460_1_alg».proof.Proof.Region11
import Idealize.ShloMosaic.Lib.Pipeline.Value
import Idealize.ShloMosaic.Lib.ValueIdx

set_option maxRecDepth 16384

noncomputable section

namespace Cert.KernelIdeal.KRead

open Cert.KernelIdeal Cert.KernelIdeal.Gen Cert.KernelIdeal.KChain Idealize.ShloMosaic Idealize.ShloMosaic.TcCoe Idealize.SL.Sem Idealize.ShloMosaic.ValueIdx

/-- A length-64 vector set up as a [1, 64] row reads at (0, q) as the vector at q. -/
theorem row_apply (v : FVec Ideal S64 .f32) (q : Fin 64) :
    shapeCast S1x64 v shapeCasts_S64_S1x64 (ix2 (0 : Fin 1) q) = v (ix1 q) :=
  shapeCast_apply v shapeCasts_S64_S1x64 (ix2 (0 : Fin 1) q) (ix1 q) (by
    rw [Shape.rowMajor_val_one, Shape.rowMajor_val_two]
    show (q : ℕ) = 0 * 64 + (q : ℕ)
    omega)

variable (m : (ℓ : Loc nD τ sig) → Buf (Elt Ideal) ℓ) (ρ : Dev nD → PrngReg)

theorem out_0 (c : Dev nD) :
    W44 m ρ c (Proc.devRef .tc main_v44) = Cert.Layers.reluN (Cert.Layers.linN (W44 m ρ c (Proc.devRef .tc main_arg0)) (W44 m ρ c (Proc.devRef .tc main_v37)) (W44 m ρ c (Proc.devRef .tc main_v38)) (W44 m ρ c (Proc.devRef .tc main_arg3)) (W44 m ρ c (Proc.devRef .tc main_arg4)) (W44 m ρ c (Proc.devRef .tc main_arg5)) (W44 m ρ c (Proc.devRef .tc main_arg6))) :=
  (kf_main_v44 m ρ c).trans (Cert.KernelIdeal.Regions.region0_out (V7 m ρ) c _ _ _ _ _ _ _
    (entry0 m ρ c main_arg0 (by decide))
    (fun q => by rw [entry0 m ρ c main_v39 (by decide), kf_main_v39 m ρ c, kf_main_v37 m ρ c]; exact row_apply _ q)
    (fun q => by rw [entry0 m ρ c main_v40 (by decide), kf_main_v40 m ρ c, kf_main_v38 m ρ c]; exact row_apply _ q)
    (fun q => by rw [entry0 m ρ c main_v41 (by decide), kf_main_v41 m ρ c]; exact row_apply _ q)
    (fun q => by rw [entry0 m ρ c main_v42 (by decide), kf_main_v42 m ρ c]; exact row_apply _ q)
    (entry0 m ρ c main_arg5 (by decide))
    (fun q => by rw [entry0 m ρ c main_v43 (by decide), kf_main_v43 m ρ c]; exact row_apply _ q))

theorem out_1 (c : Dev nD) :
    W44 m ρ c (Proc.devRef .tc main_v61) = Cert.Layers.linN (W44 m ρ c (Proc.devRef .tc main_v44)) (W44 m ρ c (Proc.devRef .tc main_v48)) (W44 m ρ c (Proc.devRef .tc main_v49)) (W44 m ρ c (Proc.devRef .tc main_v51)) (W44 m ρ c (Proc.devRef .tc main_v53)) (W44 m ρ c (Proc.devRef .tc main_v55)) (W44 m ρ c (Proc.devRef .tc main_v45)) :=
  (kf_main_v61 m ρ c).trans (Cert.KernelIdeal.Regions.region1_out (V11 m ρ) c _ _ _ _ _ _ _
    (entry1 m ρ c main_v44 (by decide))
    (fun q => by rw [entry1 m ρ c main_v56 (by decide), kf_main_v56 m ρ c, kf_main_v48 m ρ c]; exact row_apply _ q)
    (fun q => by rw [entry1 m ρ c main_v57 (by decide), kf_main_v57 m ρ c, kf_main_v49 m ρ c]; exact row_apply _ q)
    (fun q => by rw [entry1 m ρ c main_v58 (by decide), kf_main_v58 m ρ c, kf_main_v51 m ρ c]; exact row_apply _ q)
    (fun q => by rw [entry1 m ρ c main_v59 (by decide), kf_main_v59 m ρ c, kf_main_v53 m ρ c]; exact row_apply _ q)
    (entry1 m ρ c main_v55 (by decide))
    (fun q => by rw [entry1 m ρ c main_v60 (by decide), kf_main_v60 m ρ c, kf_main_v45 m ρ c]; exact row_apply _ q))

theorem out_2 (c : Dev nD) :
    W44 m ρ c (Proc.devRef .tc main_v78) = Cert.Layers.residN (W44 m ρ c (Proc.devRef .tc main_v74)) (W44 m ρ c (Proc.devRef .tc main_v76)) (W44 m ρ c (Proc.devRef .tc main_v44)) :=
  (kf_main_v78 m ρ c).trans (Cert.KernelIdeal.Regions.region2_out (V13 m ρ) c _ _ _
    (entry2 m ρ c main_v74 (by decide))
    (fun q => by rw [entry2 m ρ c main_v77 (by decide), kf_main_v77 m ρ c, kf_main_v76 m ρ c]; exact row_apply _ q)
    (entry2 m ρ c main_v44 (by decide)))

theorem out_3 (c : Dev nD) :
    W44 m ρ c (Proc.devRef .tc main_v94) = Cert.Layers.linN (W44 m ρ c (Proc.devRef .tc main_v78)) (W44 m ρ c (Proc.devRef .tc main_v81)) (W44 m ρ c (Proc.devRef .tc main_v82)) (W44 m ρ c (Proc.devRef .tc main_v84)) (W44 m ρ c (Proc.devRef .tc main_v86)) (W44 m ρ c (Proc.devRef .tc main_v88)) (W44 m ρ c (Proc.devRef .tc main_v45)) :=
  (kf_main_v94 m ρ c).trans (Cert.KernelIdeal.Regions.region3_out (V17 m ρ) c _ _ _ _ _ _ _
    (entry3 m ρ c main_v78 (by decide))
    (fun q => by rw [entry3 m ρ c main_v89 (by decide), kf_main_v89 m ρ c, kf_main_v81 m ρ c]; exact row_apply _ q)
    (fun q => by rw [entry3 m ρ c main_v90 (by decide), kf_main_v90 m ρ c, kf_main_v82 m ρ c]; exact row_apply _ q)
    (fun q => by rw [entry3 m ρ c main_v91 (by decide), kf_main_v91 m ρ c, kf_main_v84 m ρ c]; exact row_apply _ q)
    (fun q => by rw [entry3 m ρ c main_v92 (by decide), kf_main_v92 m ρ c, kf_main_v86 m ρ c]; exact row_apply _ q)
    (entry3 m ρ c main_v88 (by decide))
    (fun q => by rw [entry3 m ρ c main_v93 (by decide), kf_main_v93 m ρ c, kf_main_v45 m ρ c]; exact row_apply _ q))

theorem out_4 (c : Dev nD) :
    W44 m ρ c (Proc.devRef .tc main_v111) = Cert.Layers.residN (W44 m ρ c (Proc.devRef .tc main_v107)) (W44 m ρ c (Proc.devRef .tc main_v109)) (W44 m ρ c (Proc.devRef .tc main_v78)) :=
  (kf_main_v111 m ρ c).trans (Cert.KernelIdeal.Regions.region4_out (V19 m ρ) c _ _ _
    (entry4 m ρ c main_v107 (by decide))
    (fun q => by rw [entry4 m ρ c main_v110 (by decide), kf_main_v110 m ρ c, kf_main_v109 m ρ c]; exact row_apply _ q)
    (entry4 m ρ c main_v78 (by decide)))

theorem out_5 (c : Dev nD) :
    W44 m ρ c (Proc.devRef .tc main_v127) = Cert.Layers.linN (W44 m ρ c (Proc.devRef .tc main_v111)) (W44 m ρ c (Proc.devRef .tc main_v114)) (W44 m ρ c (Proc.devRef .tc main_v115)) (W44 m ρ c (Proc.devRef .tc main_v117)) (W44 m ρ c (Proc.devRef .tc main_v119)) (W44 m ρ c (Proc.devRef .tc main_v121)) (W44 m ρ c (Proc.devRef .tc main_v45)) :=
  (kf_main_v127 m ρ c).trans (Cert.KernelIdeal.Regions.region5_out (V23 m ρ) c _ _ _ _ _ _ _
    (entry5 m ρ c main_v111 (by decide))
    (fun q => by rw [entry5 m ρ c main_v122 (by decide), kf_main_v122 m ρ c, kf_main_v114 m ρ c]; exact row_apply _ q)
    (fun q => by rw [entry5 m ρ c main_v123 (by decide), kf_main_v123 m ρ c, kf_main_v115 m ρ c]; exact row_apply _ q)
    (fun q => by rw [entry5 m ρ c main_v124 (by decide), kf_main_v124 m ρ c, kf_main_v117 m ρ c]; exact row_apply _ q)
    (fun q => by rw [entry5 m ρ c main_v125 (by decide), kf_main_v125 m ρ c, kf_main_v119 m ρ c]; exact row_apply _ q)
    (entry5 m ρ c main_v121 (by decide))
    (fun q => by rw [entry5 m ρ c main_v126 (by decide), kf_main_v126 m ρ c, kf_main_v45 m ρ c]; exact row_apply _ q))

theorem out_6 (c : Dev nD) :
    W44 m ρ c (Proc.devRef .tc main_v144) = Cert.Layers.residN (W44 m ρ c (Proc.devRef .tc main_v140)) (W44 m ρ c (Proc.devRef .tc main_v142)) (W44 m ρ c (Proc.devRef .tc main_v111)) :=
  (kf_main_v144 m ρ c).trans (Cert.KernelIdeal.Regions.region6_out (V25 m ρ) c _ _ _
    (entry6 m ρ c main_v140 (by decide))
    (fun q => by rw [entry6 m ρ c main_v143 (by decide), kf_main_v143 m ρ c, kf_main_v142 m ρ c]; exact row_apply _ q)
    (entry6 m ρ c main_v111 (by decide)))

theorem out_7 (c : Dev nD) :
    W44 m ρ c (Proc.devRef .tc main_v160) = Cert.Layers.linN (W44 m ρ c (Proc.devRef .tc main_v144)) (W44 m ρ c (Proc.devRef .tc main_v147)) (W44 m ρ c (Proc.devRef .tc main_v148)) (W44 m ρ c (Proc.devRef .tc main_v150)) (W44 m ρ c (Proc.devRef .tc main_v152)) (W44 m ρ c (Proc.devRef .tc main_v154)) (W44 m ρ c (Proc.devRef .tc main_v45)) :=
  (kf_main_v160 m ρ c).trans (Cert.KernelIdeal.Regions.region7_out (V29 m ρ) c _ _ _ _ _ _ _
    (entry7 m ρ c main_v144 (by decide))
    (fun q => by rw [entry7 m ρ c main_v155 (by decide), kf_main_v155 m ρ c, kf_main_v147 m ρ c]; exact row_apply _ q)
    (fun q => by rw [entry7 m ρ c main_v156 (by decide), kf_main_v156 m ρ c, kf_main_v148 m ρ c]; exact row_apply _ q)
    (fun q => by rw [entry7 m ρ c main_v157 (by decide), kf_main_v157 m ρ c, kf_main_v150 m ρ c]; exact row_apply _ q)
    (fun q => by rw [entry7 m ρ c main_v158 (by decide), kf_main_v158 m ρ c, kf_main_v152 m ρ c]; exact row_apply _ q)
    (entry7 m ρ c main_v154 (by decide))
    (fun q => by rw [entry7 m ρ c main_v159 (by decide), kf_main_v159 m ρ c, kf_main_v45 m ρ c]; exact row_apply _ q))

theorem out_8 (c : Dev nD) :
    W44 m ρ c (Proc.devRef .tc main_v177) = Cert.Layers.residN (W44 m ρ c (Proc.devRef .tc main_v173)) (W44 m ρ c (Proc.devRef .tc main_v175)) (W44 m ρ c (Proc.devRef .tc main_v144)) :=
  (kf_main_v177 m ρ c).trans (Cert.KernelIdeal.Regions.region8_out (V31 m ρ) c _ _ _
    (entry8 m ρ c main_v173 (by decide))
    (fun q => by rw [entry8 m ρ c main_v176 (by decide), kf_main_v176 m ρ c, kf_main_v175 m ρ c]; exact row_apply _ q)
    (entry8 m ρ c main_v144 (by decide)))

theorem out_9 (c : Dev nD) :
    W44 m ρ c (Proc.devRef .tc main_v198) = Cert.Layers.reluG (Cert.Layers.linG (W44 m ρ c (Proc.devRef .tc main_v180)) (W44 m ρ c (Proc.devRef .tc main_v183)) (W44 m ρ c (Proc.devRef .tc main_v184)) (W44 m ρ c (Proc.devRef .tc main_v186)) (W44 m ρ c (Proc.devRef .tc main_v188)) (W44 m ρ c (Proc.devRef .tc main_v190)) (W44 m ρ c (Proc.devRef .tc main_v192))) :=
  (kf_main_v198 m ρ c).trans (Cert.KernelIdeal.Regions.region9_out (V35 m ρ) c _ _ _ _ _ _ _
    (entry9 m ρ c main_v180 (by decide))
    (fun q => by rw [entry9 m ρ c main_v193 (by decide), kf_main_v193 m ρ c, kf_main_v183 m ρ c]; exact row_apply _ q)
    (fun q => by rw [entry9 m ρ c main_v194 (by decide), kf_main_v194 m ρ c, kf_main_v184 m ρ c]; exact row_apply _ q)
    (fun q => by rw [entry9 m ρ c main_v195 (by decide), kf_main_v195 m ρ c, kf_main_v186 m ρ c]; exact row_apply _ q)
    (fun q => by rw [entry9 m ρ c main_v196 (by decide), kf_main_v196 m ρ c, kf_main_v188 m ρ c]; exact row_apply _ q)
    (entry9 m ρ c main_v190 (by decide))
    (fun q => by rw [entry9 m ρ c main_v197 (by decide), kf_main_v197 m ρ c, kf_main_v192 m ρ c]; exact row_apply _ q))

theorem out_10 (c : Dev nD) :
    W44 m ρ c (Proc.devRef .tc main_v216) = Cert.Layers.reluG (Cert.Layers.linG (W44 m ρ c (Proc.devRef .tc main_v198)) (W44 m ρ c (Proc.devRef .tc main_v201)) (W44 m ρ c (Proc.devRef .tc main_v202)) (W44 m ρ c (Proc.devRef .tc main_v204)) (W44 m ρ c (Proc.devRef .tc main_v206)) (W44 m ρ c (Proc.devRef .tc main_v208)) (W44 m ρ c (Proc.devRef .tc main_v210))) :=
  (kf_main_v216 m ρ c).trans (Cert.KernelIdeal.Regions.region10_out (V39 m ρ) c _ _ _ _ _ _ _
    (entry10 m ρ c main_v198 (by decide))
    (fun q => by rw [entry10 m ρ c main_v211 (by decide), kf_main_v211 m ρ c, kf_main_v201 m ρ c]; exact row_apply _ q)
    (fun q => by rw [entry10 m ρ c main_v212 (by decide), kf_main_v212 m ρ c, kf_main_v202 m ρ c]; exact row_apply _ q)
    (fun q => by rw [entry10 m ρ c main_v213 (by decide), kf_main_v213 m ρ c, kf_main_v204 m ρ c]; exact row_apply _ q)
    (fun q => by rw [entry10 m ρ c main_v214 (by decide), kf_main_v214 m ρ c, kf_main_v206 m ρ c]; exact row_apply _ q)
    (entry10 m ρ c main_v208 (by decide))
    (fun q => by rw [entry10 m ρ c main_v215 (by decide), kf_main_v215 m ρ c, kf_main_v210 m ρ c]; exact row_apply _ q))

theorem out_11 (c : Dev nD) :
    W44 m ρ c (Proc.devRef .tc main_v225) = Cert.Layers.bnG (W44 m ρ c (Proc.devRef .tc main_v216)) (W44 m ρ c (Proc.devRef .tc main_v219)) (W44 m ρ c (Proc.devRef .tc main_v220)) (W44 m ρ c (Proc.devRef .tc main_arg15)) (W44 m ρ c (Proc.devRef .tc main_arg16)) :=
  (kf_main_v225 m ρ c).trans (Cert.KernelIdeal.Regions.region11_out (V43 m ρ) c _ _ _ _ _
    (entry11 m ρ c main_v216 (by decide))
    (fun q => by rw [entry11 m ρ c main_v221 (by decide), kf_main_v221 m ρ c, kf_main_v219 m ρ c]; exact row_apply _ q)
    (fun q => by rw [entry11 m ρ c main_v222 (by decide), kf_main_v222 m ρ c, kf_main_v220 m ρ c]; exact row_apply _ q)
    (fun q => by rw [entry11 m ρ c main_v223 (by decide), kf_main_v223 m ρ c]; exact row_apply _ q)
    (fun q => by rw [entry11 m ρ c main_v224 (by decide), kf_main_v224 m ρ c]; exact row_apply _ q))

end Cert.KernelIdeal.KRead

end
-- ==== Proof.Bridge.lean ====
/-
  The kernel program and the reference compute the same arrays. Both apply the same host operations to the same
  arguments, so a buffer of one and the matching buffer of the other are the same term once their inputs match; a
  kernel region's output is the host's dense stage of its inputs, which is the reference's own text for that stage (for
  the message stage, after dropping the kernel's all-zero bias row: adding zero changes nothing on the extended reals).
-/
import proofs.«142600_j69965017252460_1_alg».proof.Proof.KRead
import proofs.«142600_j69965017252460_1_alg».proof.Proof.RLast
import Idealize.ShloMosaic.PureOps.Ideal
import Idealize.ShloMosaic.Lib.IdealHost

set_option maxRecDepth 16384

noncomputable section

namespace Cert.Bridge

open Idealize.ShloMosaic Idealize.ShloMosaic.TcCoe Idealize.SL.Sem
open Cert.KernelIdeal.Gen Cert.KernelIdeal.KChain Cert.KernelIdeal.KRead Cert.ReferenceIdeal.RefValue

/-- Adding the all-zero bias row changes nothing: the message stage with a zero bias is the plain product. -/
theorem linN_zero (x : FVec Ideal Cert.ReferenceIdeal.S100000x64 .f32) (mean var g b : FVec Ideal Cert.ReferenceIdeal.S64 .f32)
    (W : FVec Ideal Cert.ReferenceIdeal.S64x64 .f32)
    (hb : Shape.BroadcastsInDim Cert.ReferenceIdeal.S_ Cert.ReferenceIdeal.S64 ![]) :
    Cert.Layers.linN x mean var g b W (broadcastInDim Cert.ReferenceIdeal.S64 ![] hb
      (constant (F := Ideal) Cert.ReferenceIdeal.S_ .f32 0x00000000#32))
    = Cert.Layers.dotN (Cert.Layers.bnN x mean var g b) W := by
  funext i
  simp only [Cert.Layers.linN, Cert.Layers.rowsN, addf, broadcastInDim, constant, Ideal.addf_def, Ideal.ofBits_def, Ideal.ofBits_zero_f32, add_zero]

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

variable (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
include hagree

/-! ## The arguments -/
theorem arg0 (c : Dev Cert.KernelIdeal.nD) :
    W44 m ρ c (Proc.devRef .tc Cert.KernelIdeal.main_arg0) = U22 m' c (Proc.devRef .tc Cert.ReferenceIdeal.main_arg0) :=
  (W44_main_arg0 m ρ c).trans ((rf_main_arg0 m' c).trans (hagree c).1).symm
theorem arg1 (c : Dev Cert.KernelIdeal.nD) :
    W44 m ρ c (Proc.devRef .tc Cert.KernelIdeal.main_arg1) = U22 m' c (Proc.devRef .tc Cert.ReferenceIdeal.main_arg1) :=
  (W44_main_arg1 m ρ c).trans ((rf_main_arg1 m' c).trans (hagree c).2.1).symm
theorem arg2 (c : Dev Cert.KernelIdeal.nD) :
    W44 m ρ c (Proc.devRef .tc Cert.KernelIdeal.main_arg2) = U22 m' c (Proc.devRef .tc Cert.ReferenceIdeal.main_arg2) :=
  (W44_main_arg2 m ρ c).trans ((rf_main_arg2 m' c).trans (hagree c).2.2.1).symm
theorem arg3 (c : Dev Cert.KernelIdeal.nD) :
    W44 m ρ c (Proc.devRef .tc Cert.KernelIdeal.main_arg3) = U22 m' c (Proc.devRef .tc Cert.ReferenceIdeal.main_arg3) :=
  (W44_main_arg3 m ρ c).trans ((rf_main_arg3 m' c).trans (hagree c).2.2.2.1).symm
theorem arg4 (c : Dev Cert.KernelIdeal.nD) :
    W44 m ρ c (Proc.devRef .tc Cert.KernelIdeal.main_arg4) = U22 m' c (Proc.devRef .tc Cert.ReferenceIdeal.main_arg4) :=
  (W44_main_arg4 m ρ c).trans ((rf_main_arg4 m' c).trans (hagree c).2.2.2.2.1).symm
theorem arg5 (c : Dev Cert.KernelIdeal.nD) :
    W44 m ρ c (Proc.devRef .tc Cert.KernelIdeal.main_arg5) = U22 m' c (Proc.devRef .tc Cert.ReferenceIdeal.main_arg5) :=
  (W44_main_arg5 m ρ c).trans ((rf_main_arg5 m' c).trans (hagree c).2.2.2.2.2.1).symm
theorem arg6 (c : Dev Cert.KernelIdeal.nD) :
    W44 m ρ c (Proc.devRef .tc Cert.KernelIdeal.main_arg6) = U22 m' c (Proc.devRef .tc Cert.ReferenceIdeal.main_arg6) :=
  (W44_main_arg6 m ρ c).trans ((rf_main_arg6 m' c).trans (hagree c).2.2.2.2.2.2.1).symm
theorem arg7 (c : Dev Cert.KernelIdeal.nD) :
    W44 m ρ c (Proc.devRef .tc Cert.KernelIdeal.main_arg7) = U22 m' c (Proc.devRef .tc Cert.ReferenceIdeal.main_arg7) :=
  (W44_main_arg7 m ρ c).trans ((rf_main_arg7 m' c).trans (hagree c).2.2.2.2.2.2.2.1).symm
theorem arg8 (c : Dev Cert.KernelIdeal.nD) :
    W44 m ρ c (Proc.devRef .tc Cert.KernelIdeal.main_arg8) = U22 m' c (Proc.devRef .tc Cert.ReferenceIdeal.main_arg8) :=
  (W44_main_arg8 m ρ c).trans ((rf_main_arg8 m' c).trans (hagree c).2.2.2.2.2.2.2.2.1).symm
theorem arg9 (c : Dev Cert.KernelIdeal.nD) :
    W44 m ρ c (Proc.devRef .tc Cert.KernelIdeal.main_arg9) = U22 m' c (Proc.devRef .tc Cert.ReferenceIdeal.main_arg9) :=
  (W44_main_arg9 m ρ c).trans ((rf_main_arg9 m' c).trans (hagree c).2.2.2.2.2.2.2.2.2.1).symm
theorem arg10 (c : Dev Cert.KernelIdeal.nD) :
    W44 m ρ c (Proc.devRef .tc Cert.KernelIdeal.main_arg10) = U22 m' c (Proc.devRef .tc Cert.ReferenceIdeal.main_arg10) :=
  (W44_main_arg10 m ρ c).trans ((rf_main_arg10 m' c).trans (hagree c).2.2.2.2.2.2.2.2.2.2.1).symm
theorem arg11 (c : Dev Cert.KernelIdeal.nD) :
    W44 m ρ c (Proc.devRef .tc Cert.KernelIdeal.main_arg11) = U22 m' c (Proc.devRef .tc Cert.ReferenceIdeal.main_arg11) :=
  (W44_main_arg11 m ρ c).trans ((rf_main_arg11 m' c).trans (hagree c).2.2.2.2.2.2.2.2.2.2.2.1).symm
theorem arg12 (c : Dev Cert.KernelIdeal.nD) :
    W44 m ρ c (Proc.devRef .tc Cert.KernelIdeal.main_arg12) = U22 m' c (Proc.devRef .tc Cert.ReferenceIdeal.main_arg12) :=
  (W44_main_arg12 m ρ c).trans ((rf_main_arg12 m' c).trans (hagree c).2.2.2.2.2.2.2.2.2.2.2.2.1).symm
theorem arg13 (c : Dev Cert.KernelIdeal.nD) :
    W44 m ρ c (Proc.devRef .tc Cert.KernelIdeal.main_arg13) = U22 m' c (Proc.devRef .tc Cert.ReferenceIdeal.main_arg13) :=
  (W44_main_arg13 m ρ c).trans ((rf_main_arg13 m' c).trans (hagree c).2.2.2.2.2.2.2.2.2.2.2.2.2.1).symm
theorem arg14 (c : Dev Cert.KernelIdeal.nD) :
    W44 m ρ c (Proc.devRef .tc Cert.KernelIdeal.main_arg14) = U22 m' c (Proc.devRef .tc Cert.ReferenceIdeal.main_arg14) :=
  (W44_main_arg14 m ρ c).trans ((rf_main_arg14 m' c).trans (hagree c).2.2.2.2.2.2.2.2.2.2.2.2.2.2.1).symm
theorem arg15 (c : Dev Cert.KernelIdeal.nD) :
    W44 m ρ c (Proc.devRef .tc Cert.KernelIdeal.main_arg15) = U22 m' c (Proc.devRef .tc Cert.ReferenceIdeal.main_arg15) :=
  (W44_main_arg15 m ρ c).trans ((rf_main_arg15 m' c).trans (hagree c).2.2.2.2.2.2.2.2.2.2.2.2.2.2.2.1).symm
theorem arg16 (c : Dev Cert.KernelIdeal.nD) :
    W44 m ρ c (Proc.devRef .tc Cert.KernelIdeal.main_arg16) = U22 m' c (Proc.devRef .tc Cert.ReferenceIdeal.main_arg16) :=
  (W44_main_arg16 m ρ c).trans ((rf_main_arg16 m' c).trans (hagree c).2.2.2.2.2.2.2.2.2.2.2.2.2.2.2.2).symm

/-! ## The buffers, in program order -/

theorem eq_main_v3 (c : Dev Cert.KernelIdeal.nD) :
    W44 m ρ c (Proc.devRef .tc Cert.KernelIdeal.main_v3) = U22 m' c (Proc.devRef .tc Cert.ReferenceIdeal.main_v3) := by
  rw [kf_main_v3 m ρ c]
  rw [arg1 m ρ m' hagree c]
  rw [rf_main_v3 m' c]
  first | done | rfl

theorem eq_main_v6 (c : Dev Cert.KernelIdeal.nD) :
    W44 m ρ c (Proc.devRef .tc Cert.KernelIdeal.main_v6) = U22 m' c (Proc.devRef .tc Cert.ReferenceIdeal.main_v6) := by
  rw [kf_main_v6 m ρ c]
  rw [arg1 m ρ m' hagree c]
  rw [rf_main_v6 m' c]
  first | done | rfl

theorem eq_main_v34 (c : Dev Cert.KernelIdeal.nD) :
    W44 m ρ c (Proc.devRef .tc Cert.KernelIdeal.main_v34) = U22 m' c (Proc.devRef .tc Cert.ReferenceIdeal.main_v34) := by
  rw [kf_main_v34 m ρ c, kf_main_v13 m ρ c, kf_main_v16 m ρ c, kf_main_cst_2 m ρ c, kf_main_cst_3 m ρ c, kf_main_v12 m ρ c, kf_main_cst_5 m ρ c, kf_main_v15 m ρ c, kf_main_v10 m ρ c]
  rw [eq_main_v3 m ρ m' hagree c, eq_main_v6 m ρ m' hagree c, arg1 m ρ m' hagree c]
  rw [rf_main_v34 m' c]
  first | done | rfl

theorem eq_main_v44 (c : Dev Cert.KernelIdeal.nD) :
    W44 m ρ c (Proc.devRef .tc Cert.KernelIdeal.main_v44) = U22 m' c (Proc.devRef .tc Cert.ReferenceIdeal.main_v58) := by
  rw [out_0 m ρ c, kf_main_v37 m ρ c, kf_main_v38 m ρ c, kf_main_c_11 m ρ c]
  rw [arg0 m ρ m' hagree c, arg3 m ρ m' hagree c, arg4 m ρ m' hagree c, arg5 m ρ m' hagree c, arg6 m ρ m' hagree c]
  rw [rf_main_v58 m' c, rf_main_v41 m' c, rf_main_v44 m' c]
  first | done | rfl

theorem eq_main_v61 (c : Dev Cert.KernelIdeal.nD) :
    W44 m ρ c (Proc.devRef .tc Cert.KernelIdeal.main_v61) = U22 m' c (Proc.devRef .tc Cert.ReferenceIdeal.main_v84) := by
  rw [out_1 m ρ c, kf_main_v48 m ρ c, kf_main_v49 m ρ c, kf_main_v51 m ρ c, kf_main_v53 m ρ c, kf_main_v55 m ρ c, kf_main_v45 m ρ c, kf_main_c_15 m ρ c]
  rw [eq_main_v44 m ρ m' hagree c, arg7 m ρ m' hagree c, arg8 m ρ m' hagree c, arg9 m ρ m' hagree c]
  rw [rf_main_v84 m' c]
  exact linN_zero _ _ _ _ _ _ _

theorem eq_main_v74 (c : Dev Cert.KernelIdeal.nD) :
    W44 m ρ c (Proc.devRef .tc Cert.KernelIdeal.main_v74) = U22 m' c (Proc.devRef .tc Cert.ReferenceIdeal.main_v97) := by
  rw [kf_main_v74 m ρ c]
  rw [eq_main_v3 m ρ m' hagree c, eq_main_v34 m ρ m' hagree c, eq_main_v6 m ρ m' hagree c, eq_main_v61 m ρ m' hagree c]
  rw [rf_main_v97 m' c]
  first | done | rfl

theorem eq_main_v78 (c : Dev Cert.KernelIdeal.nD) :
    W44 m ρ c (Proc.devRef .tc Cert.KernelIdeal.main_v78) = U22 m' c (Proc.devRef .tc Cert.ReferenceIdeal.main_v104) := by
  rw [out_2 m ρ c, kf_main_v76 m ρ c]
  rw [eq_main_v74 m ρ m' hagree c, eq_main_v44 m ρ m' hagree c, arg10 m ρ m' hagree c]
  rw [rf_main_v104 m' c]
  first | done | rfl

theorem eq_main_v94 (c : Dev Cert.KernelIdeal.nD) :
    W44 m ρ c (Proc.devRef .tc Cert.KernelIdeal.main_v94) = U22 m' c (Proc.devRef .tc Cert.ReferenceIdeal.main_v130) := by
  rw [out_3 m ρ c, kf_main_v81 m ρ c, kf_main_v82 m ρ c, kf_main_v84 m ρ c, kf_main_v86 m ρ c, kf_main_v88 m ρ c, kf_main_v45 m ρ c, kf_main_c_21 m ρ c]
  rw [eq_main_v78 m ρ m' hagree c, arg7 m ρ m' hagree c, arg8 m ρ m' hagree c, arg9 m ρ m' hagree c]
  rw [rf_main_v130 m' c]
  exact linN_zero _ _ _ _ _ _ _

theorem eq_main_v107 (c : Dev Cert.KernelIdeal.nD) :
    W44 m ρ c (Proc.devRef .tc Cert.KernelIdeal.main_v107) = U22 m' c (Proc.devRef .tc Cert.ReferenceIdeal.main_v143) := by
  rw [kf_main_v107 m ρ c]
  rw [eq_main_v3 m ρ m' hagree c, eq_main_v34 m ρ m' hagree c, eq_main_v6 m ρ m' hagree c, eq_main_v94 m ρ m' hagree c]
  rw [rf_main_v143 m' c]
  first | done | rfl

theorem eq_main_v111 (c : Dev Cert.KernelIdeal.nD) :
    W44 m ρ c (Proc.devRef .tc Cert.KernelIdeal.main_v111) = U22 m' c (Proc.devRef .tc Cert.ReferenceIdeal.main_v150) := by
  rw [out_4 m ρ c, kf_main_v109 m ρ c]
  rw [eq_main_v107 m ρ m' hagree c, eq_main_v78 m ρ m' hagree c, arg10 m ρ m' hagree c]
  rw [rf_main_v150 m' c]
  first | done | rfl

theorem eq_main_v127 (c : Dev Cert.KernelIdeal.nD) :
    W44 m ρ c (Proc.devRef .tc Cert.KernelIdeal.main_v127) = U22 m' c (Proc.devRef .tc Cert.ReferenceIdeal.main_v176) := by
  rw [out_5 m ρ c, kf_main_v114 m ρ c, kf_main_v115 m ρ c, kf_main_v117 m ρ c, kf_main_v119 m ρ c, kf_main_v121 m ρ c, kf_main_v45 m ρ c, kf_main_c_27 m ρ c]
  rw [eq_main_v111 m ρ m' hagree c, arg7 m ρ m' hagree c, arg8 m ρ m' hagree c, arg9 m ρ m' hagree c]
  rw [rf_main_v176 m' c]
  exact linN_zero _ _ _ _ _ _ _

theorem eq_main_v140 (c : Dev Cert.KernelIdeal.nD) :
    W44 m ρ c (Proc.devRef .tc Cert.KernelIdeal.main_v140) = U22 m' c (Proc.devRef .tc Cert.ReferenceIdeal.main_v189) := by
  rw [kf_main_v140 m ρ c]
  rw [eq_main_v127 m ρ m' hagree c, eq_main_v3 m ρ m' hagree c, eq_main_v34 m ρ m' hagree c, eq_main_v6 m ρ m' hagree c]
  rw [rf_main_v189 m' c]
  first | done | rfl

theorem eq_main_v144 (c : Dev Cert.KernelIdeal.nD) :
    W44 m ρ c (Proc.devRef .tc Cert.KernelIdeal.main_v144) = U22 m' c (Proc.devRef .tc Cert.ReferenceIdeal.main_v196) := by
  rw [out_6 m ρ c, kf_main_v142 m ρ c]
  rw [eq_main_v140 m ρ m' hagree c, eq_main_v111 m ρ m' hagree c, arg10 m ρ m' hagree c]
  rw [rf_main_v196 m' c]
  first | done | rfl

theorem eq_main_v160 (c : Dev Cert.KernelIdeal.nD) :
    W44 m ρ c (Proc.devRef .tc Cert.KernelIdeal.main_v160) = U22 m' c (Proc.devRef .tc Cert.ReferenceIdeal.main_v222) := by
  rw [out_7 m ρ c, kf_main_v147 m ρ c, kf_main_v148 m ρ c, kf_main_v150 m ρ c, kf_main_v152 m ρ c, kf_main_v154 m ρ c, kf_main_v45 m ρ c, kf_main_c_33 m ρ c]
  rw [eq_main_v144 m ρ m' hagree c, arg7 m ρ m' hagree c, arg8 m ρ m' hagree c, arg9 m ρ m' hagree c]
  rw [rf_main_v222 m' c, rf_main_cst_35 m' c, rf_main_v198 m' c, rf_main_v200 m' c, rf_main_v201 m' c]
  exact linN_zero _ _ _ _ _ _ _

theorem eq_main_v173 (c : Dev Cert.KernelIdeal.nD) :
    W44 m ρ c (Proc.devRef .tc Cert.KernelIdeal.main_v173) = U22 m' c (Proc.devRef .tc Cert.ReferenceIdeal.main_v235) := by
  rw [kf_main_v173 m ρ c]
  rw [eq_main_v160 m ρ m' hagree c, eq_main_v3 m ρ m' hagree c, eq_main_v34 m ρ m' hagree c, eq_main_v6 m ρ m' hagree c]
  rw [rf_main_v235 m' c]
  first | done | rfl

theorem eq_main_v177 (c : Dev Cert.KernelIdeal.nD) :
    W44 m ρ c (Proc.devRef .tc Cert.KernelIdeal.main_v177) = U22 m' c (Proc.devRef .tc Cert.ReferenceIdeal.main_v242) := by
  rw [out_8 m ρ c, kf_main_v175 m ρ c]
  rw [eq_main_v173 m ρ m' hagree c, eq_main_v144 m ρ m' hagree c, arg10 m ρ m' hagree c]
  rw [rf_main_v242 m' c]
  first | done | rfl

theorem eq_main_v180 (c : Dev Cert.KernelIdeal.nD) :
    W44 m ρ c (Proc.devRef .tc Cert.KernelIdeal.main_v180) = U22 m' c (Proc.devRef .tc Cert.ReferenceIdeal.main_v245) := by
  rw [kf_main_v180 m ρ c]
  rw [arg2 m ρ m' hagree c, eq_main_v177 m ρ m' hagree c]
  rw [rf_main_v245 m' c]
  first | done | rfl

theorem eq_main_v198 (c : Dev Cert.KernelIdeal.nD) :
    W44 m ρ c (Proc.devRef .tc Cert.KernelIdeal.main_v198) = U22 m' c (Proc.devRef .tc Cert.ReferenceIdeal.main_v277) := by
  rw [out_9 m ρ c, kf_main_v183 m ρ c, kf_main_v184 m ρ c, kf_main_v186 m ρ c, kf_main_v188 m ρ c, kf_main_v190 m ρ c, kf_main_v192 m ρ c, kf_main_c_40 m ρ c]
  rw [eq_main_v180 m ρ m' hagree c, arg2 m ρ m' hagree c, eq_main_v177 m ρ m' hagree c, arg11 m ρ m' hagree c, arg12 m ρ m' hagree c, arg13 m ρ m' hagree c, arg14 m ρ m' hagree c]
  rw [rf_main_v277 m' c, rf_main_c_44 m' c, rf_main_v247 m' c, rf_main_v249 m' c, rf_main_v252 m' c]
  first | done | rfl

theorem eq_main_v216 (c : Dev Cert.KernelIdeal.nD) :
    W44 m ρ c (Proc.devRef .tc Cert.KernelIdeal.main_v216) = U22 m' c (Proc.devRef .tc Cert.ReferenceIdeal.main_v309) := by
  rw [out_10 m ρ c, kf_main_v201 m ρ c, kf_main_v202 m ρ c, kf_main_v204 m ρ c, kf_main_v206 m ρ c, kf_main_v208 m ρ c, kf_main_v210 m ρ c, kf_main_c_43 m ρ c]
  rw [eq_main_v198 m ρ m' hagree c, arg11 m ρ m' hagree c, arg12 m ρ m' hagree c, arg13 m ρ m' hagree c, arg14 m ρ m' hagree c]
  rw [rf_main_v309 m' c, rf_main_v303 m' c, rf_main_v307 m' c]
  first | done | rfl

theorem eq_main_v225 (c : Dev Cert.KernelIdeal.nD) :
    W44 m ρ c (Proc.devRef .tc Cert.KernelIdeal.main_v225) = U22 m' c (Proc.devRef .tc Cert.ReferenceIdeal.main_v328) := by
  rw [out_11 m ρ c, kf_main_v219 m ρ c, kf_main_v220 m ρ c, kf_main_c_46 m ρ c]
  rw [eq_main_v216 m ρ m' hagree c, arg15 m ρ m' hagree c, arg16 m ρ m' hagree c]
  rw [rf_main_v328 m' c]
  first | done | rfl

end Cert.Bridge

end
-- ==== Proof.lean ====
/-
  The certificate of a residual graph-convolution network: twelve tiled dense stages (batch normalisation, a 64×64
  product, bias, rectifier, residual sum) run as kernel regions among host operations (degree normalisation, gathers
  and scatter-adds over the edges, column statistics, pooling), against the same network written with host operations
  only.

  At the ideal instance a change of float format is the identity and a product into a zero accumulator is the exact
  sum, so each region's blocks assemble to the host's dense stage on the whole array; the host operations around the
  regions are the reference's own, applied to matching buffers. The two programs therefore end with the same array.
  The idealization rewrote nothing, so its conjunct is trivial; the frames of the two kernel programs are the generated
  ones, and the reference's frame is its run with the result dropped.
-/
import proofs.«142600_j69965017252460_1_alg».proof.Defs
import proofs.«142600_j69965017252460_1_alg».proof.Proof.Gen.Kernel
import proofs.«142600_j69965017252460_1_alg».proof.Proof.Gen.Kernel.Frame
import proofs.«142600_j69965017252460_1_alg».proof.Proof.Gen.KernelIdeal
import proofs.«142600_j69965017252460_1_alg».proof.Proof.Gen.KernelIdeal.Frame
import proofs.«142600_j69965017252460_1_alg».proof.Proof.Gen.ReferenceIdeal
import proofs.«142600_j69965017252460_1_alg».proof.Proof.Gen.Pre_finite_inputs
import proofs.«142600_j69965017252460_1_alg».proof.Proof.KRun
import proofs.«142600_j69965017252460_1_alg».proof.Proof.RLast
import proofs.«142600_j69965017252460_1_alg».proof.Proof.Bridge

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run (F := Ideal) m ρ)

/-- Both idealized programs end with the same array: the kernel program's result buffer at its last boundary is the
    reference's result buffer at the end of its fold, buffer by matching buffer from the arguments on. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W44 m ρ c (Proc.devRef .tc Cert.KernelIdeal.main_v225), Cert.KernelIdeal.KValue.run m ρ, ?_⟩
  exact (θ_run Cert.ReferenceIdeal.defs _ _).mono
    (fun _ h c => ⟨(h c).1.trans (Cert.Bridge.eq_main_v225 m ρ m' hagree c).symm, (h c).2⟩)
    (Cert.ReferenceIdeal.RefValue.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
